-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v696) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x512 : Shape := ⟨2, ![1024, 512]⟩
abbrev S1024 : Shape := ⟨1, ![1024]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S131072x256 .f32) (main_arg1 : FVec F S1024x512 .f32) (main_arg2 : FVec F S1024 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S131072x256 : Shape := ⟨2, ![131072, 256]⟩
abbrev S1024x512 : Shape := ⟨2, ![1024, 512]⟩
abbrev S1024 : Shape := ⟨1, ![1024]⟩
abbrev S1024x256 : Shape := ⟨2, ![1024, 256]⟩
abbrev S768x256 : Shape := ⟨2, ![768, 256]⟩
abbrev S256x768 : Shape := ⟨2, ![256, 768]⟩
abbrev S256x1024 : Shape := ⟨2, ![256, 1024]⟩
abbrev S768 : Shape := ⟨1, ![768]⟩
abbrev S1x768 : Shape := ⟨2, ![1, 768]⟩
abbrev S1x1024 : Shape := ⟨2, ![1, 1024]⟩
abbrev S1024x768 : Shape := ⟨2, ![1024, 768]⟩
abbrev S65536x512 : Shape := ⟨2, ![65536, 512]⟩
abbrev S65536x256 : Shape := ⟨2, ![65536, 256]⟩
abbrev S512x512 : Shape := ⟨2, ![512, 512]⟩
abbrev S512x256 : Shape := ⟨2, ![512, 256]⟩
abbrev S512x1024 : Shape := ⟨2, ![512, 1024]⟩
abbrev S32768x512 : Shape := ⟨2, ![32768, 512]⟩
abbrev S32768x256 : Shape := ⟨2, ![32768, 256]⟩
abbrev S16384x512 : Shape := ⟨2, ![16384, 512]⟩
abbrev S16384x256 : Shape := ⟨2, ![16384, 256]⟩
abbrev S8192x512 : Shape := ⟨2, ![8192, 512]⟩
abbrev S8192x256 : Shape := ⟨2, ![8192, 256]⟩
abbrev S4096x512 : Shape := ⟨2, ![4096, 512]⟩
abbrev S4096x256 : Shape := ⟨2, ![4096, 256]⟩
abbrev S2048x512 : Shape := ⟨2, ![2048, 512]⟩
abbrev S2048x256 : Shape := ⟨2, ![2048, 256]⟩
abbrev S256x512 : Shape := ⟨2, ![256, 512]⟩
abbrev S256x256 : Shape := ⟨2, ![256, 256]⟩
abbrev S128x512 : Shape := ⟨2, ![128, 512]⟩
abbrev S128x256 : Shape := ⟨2, ![128, 256]⟩
abbrev S128x1024 : Shape := ⟨2, ![128, 1024]⟩
abbrev S64x512 : Shape := ⟨2, ![64, 512]⟩
abbrev S64x256 : Shape := ⟨2, ![64, 256]⟩
abbrev S64x1024 : Shape := ⟨2, ![64, 1024]⟩
abbrev S32x512 : Shape := ⟨2, ![32, 512]⟩
abbrev S32x256 : Shape := ⟨2, ![32, 256]⟩
abbrev S32x1024 : Shape := ⟨2, ![32, 1024]⟩
abbrev S16x512 : Shape := ⟨2, ![16, 512]⟩
abbrev S16x256 : Shape := ⟨2, ![16, 256]⟩
abbrev S16x1024 : Shape := ⟨2, ![16, 1024]⟩
abbrev S8x512 : Shape := ⟨2, ![8, 512]⟩
abbrev S8x256 : Shape := ⟨2, ![8, 256]⟩
abbrev S8x1024 : Shape := ⟨2, ![8, 1024]⟩
abbrev S4x512 : Shape := ⟨2, ![4, 512]⟩
abbrev S4x256 : Shape := ⟨2, ![4, 256]⟩
abbrev S4x1024 : Shape := ⟨2, ![4, 1024]⟩
abbrev S2x512 : Shape := ⟨2, ![2, 512]⟩
abbrev S2x256 : Shape := ⟨2, ![2, 256]⟩
abbrev S2x1024 : Shape := ⟨2, ![2, 1024]⟩
abbrev S1x512 : Shape := ⟨2, ![1, 512]⟩
abbrev S1x256 : Shape := ⟨2, ![1, 256]⟩

abbrev nBuf : Space → Nat
  | .hbm => 83
  | .vmem => 138
  | .smem => 0
  | _ => 0

abbrev vmemTy0_0 (i : Nat) : BufTy := match i % 128 with
  | 0 => ⟨S1024x256, .f32⟩
  | 1 => ⟨S1024x256, .f32⟩
  | 2 => ⟨S256x768, .bf16⟩
  | 3 => ⟨S1x768, .f32⟩
  | 4 => ⟨S1024x256, .f32⟩
  | 5 => ⟨S1024x256, .f32⟩
  | 6 => ⟨S1024x256, .f32⟩
  | 7 => ⟨S1024x256, .f32⟩
  | 8 => ⟨S512x512, .f32⟩
  | 9 => ⟨S512x512, .f32⟩
  | 10 => ⟨S512x512, .f32⟩
  | 11 => ⟨S512x512, .f32⟩
  | 12 => ⟨S256x1024, .bf16⟩
  | 13 => ⟨S1x1024, .f32⟩
  | 14 => ⟨S512x256, .f32⟩
  | 15 => ⟨S512x256, .f32⟩
  | 16 => ⟨S512x256, .f32⟩
  | 17 => ⟨S512x256, .f32⟩
  | 18 => ⟨S512x512, .f32⟩
  | 19 => ⟨S512x512, .f32⟩
  | 20 => ⟨S512x512, .f32⟩
  | 21 => ⟨S512x512, .f32⟩
  | 22 => ⟨S256x1024, .bf16⟩
  | 23 => ⟨S1x1024, .f32⟩
  | 24 => ⟨S512x256, .f32⟩
  | 25 => ⟨S512x256, .f32⟩
  | 26 => ⟨S512x256, .f32⟩
  | 27 => ⟨S512x256, .f32⟩
  | 28 => ⟨S512x512, .f32⟩
  | 29 => ⟨S512x512, .f32⟩
  | 30 => ⟨S512x512, .f32⟩
  | 31 => ⟨S512x512, .f32⟩
  | 32 => ⟨S256x1024, .bf16⟩
  | 33 => ⟨S1x1024, .f32⟩
  | 34 => ⟨S512x256, .f32⟩
  | 35 => ⟨S512x256, .f32⟩
  | 36 => ⟨S512x256, .f32⟩
  | 37 => ⟨S512x256, .f32⟩
  | 38 => ⟨S512x512, .f32⟩
  | 39 => ⟨S512x512, .f32⟩
  | 40 => ⟨S512x512, .f32⟩
  | 41 => ⟨S512x512, .f32⟩
  | 42 => ⟨S256x1024, .bf16⟩
  | 43 => ⟨S1x1024, .f32⟩
  | 44 => ⟨S512x256, .f32⟩
  | 45 => ⟨S512x256, .f32⟩
  | 46 => ⟨S512x256, .f32⟩
  | 47 => ⟨S512x256, .f32⟩
  | 48 => ⟨S512x512, .f32⟩
  | 49 => ⟨S512x512, .f32⟩
  | 50 => ⟨S512x512, .f32⟩
  | 51 => ⟨S512x512, .f32⟩
  | 52 => ⟨S256x1024, .bf16⟩
  | 53 => ⟨S1x1024, .f32⟩
  | 54 => ⟨S512x256, .f32⟩
  | 55 => ⟨S512x256, .f32⟩
  | 56 => ⟨S512x256, .f32⟩
  | 57 => ⟨S512x256, .f32⟩
  | 58 => ⟨S512x512, .f32⟩
  | 59 => ⟨S512x512, .f32⟩
  | 60 => ⟨S512x512, .f32⟩
  | 61 => ⟨S512x512, .f32⟩
  | 62 => ⟨S256x1024, .bf16⟩
  | 63 => ⟨S1x1024, .f32⟩
  | 64 => ⟨S512x256, .f32⟩
  | 65 => ⟨S512x256, .f32⟩
  | 66 => ⟨S512x256, .f32⟩
  | 67 => ⟨S512x256, .f32⟩
  | 68 => ⟨S512x512, .f32⟩
  | 69 => ⟨S512x512, .f32⟩
  | 70 => ⟨S512x512, .f32⟩
  | 71 => ⟨S512x512, .f32⟩
  | 72 => ⟨S256x1024, .bf16⟩
  | 73 => ⟨S1x1024, .f32⟩
  | 74 => ⟨S512x256, .f32⟩
  | 75 => ⟨S512x256, .f32⟩
  | 76 => ⟨S512x256, .f32⟩
  | 77 => ⟨S512x256, .f32⟩
  | 78 => ⟨S512x512, .f32⟩
  | 79 => ⟨S512x512, .f32⟩
  | 80 => ⟨S256x1024, .bf16⟩
  | 81 => ⟨S1x1024, .f32⟩
  | 82 => ⟨S512x256, .f32⟩
  | 83 => ⟨S512x256, .f32⟩
  | 84 => ⟨S256x512, .f32⟩
  | 85 => ⟨S256x512, .f32⟩
  | 86 => ⟨S256x1024, .bf16⟩
  | 87 => ⟨S1x1024, .f32⟩
  | 88 => ⟨S256x256, .f32⟩
  | 89 => ⟨S256x256, .f32⟩
  | 90 => ⟨S128x512, .f32⟩
  | 91 => ⟨S128x512, .f32⟩
  | 92 => ⟨S256x1024, .bf16⟩
  | 93 => ⟨S1x1024, .f32⟩
  | 94 => ⟨S128x256, .f32⟩
  | 95 => ⟨S128x256, .f32⟩
  | 96 => ⟨S64x512, .f32⟩
  | 97 => ⟨S64x512, .f32⟩
  | 98 => ⟨S256x1024, .bf16⟩
  | 99 => ⟨S1x1024, .f32⟩
  | 100 => ⟨S64x256, .f32⟩
  | 101 => ⟨S64x256, .f32⟩
  | 102 => ⟨S32x512, .f32⟩
  | 103 => ⟨S32x512, .f32⟩
  | 104 => ⟨S256x1024, .bf16⟩
  | 105 => ⟨S1x1024, .f32⟩
  | 106 => ⟨S32x256, .f32⟩
  | 107 => ⟨S32x256, .f32⟩
  | 108 => ⟨S16x512, .f32⟩
  | 109 => ⟨S16x512, .f32⟩
  | 110 => ⟨S256x1024, .bf16⟩
  | 111 => ⟨S1x1024, .f32⟩
  | 112 => ⟨S16x256, .f32⟩
  | 113 => ⟨S16x256, .f32⟩
  | 114 => ⟨S8x512, .f32⟩
  | 115 => ⟨S8x512, .f32⟩
  | 116 => ⟨S256x1024, .bf16⟩
  | 117 => ⟨S1x1024, .f32⟩
  | 118 => ⟨S8x256, .f32⟩
  | 119 => ⟨S8x256, .f32⟩
  | 120 => ⟨S4x512, .f32⟩
  | 121 => ⟨S4x512, .f32⟩
  | 122 => ⟨S256x1024, .bf16⟩
  | 123 => ⟨S1x1024, .f32⟩
  | 124 => ⟨S4x256, .f32⟩
  | 125 => ⟨S4x256, .f32⟩
  | 126 => ⟨S2x512, .f32⟩
  | 127 => ⟨S2x512, .f32⟩
  | _ => ⟨S131072x256, .f32⟩

abbrev vmemTy0_1 (i : Nat) : BufTy := match i % 128 with
  | 0 => ⟨S256x1024, .bf16⟩
  | 1 => ⟨S1x1024, .f32⟩
  | 2 => ⟨S2x256, .f32⟩
  | 3 => ⟨S2x256, .f32⟩
  | 4 => ⟨S1x512, .f32⟩
  | 5 => ⟨S1x512, .f32⟩
  | 6 => ⟨S256x1024, .bf16⟩
  | 7 => ⟨S1x1024, .f32⟩
  | 8 => ⟨S1x256, .f32⟩
  | 9 => ⟨S1x256, .f32⟩
  | _ => ⟨S131072x256, .f32⟩

abbrev vmemTy (i : Nat) : BufTy := match i / 128 with
  | 0 => vmemTy0_0 i
  | 1 => vmemTy0_1 i
  | _ => ⟨S131072x256, .f32⟩

abbrev bufTy : (tb : Table) → Fin (tcTables nBuf tb) → BufTy
  | .hbm, ⟨0, _⟩ => ⟨S131072x256, .f32⟩
  | .hbm, ⟨1, _⟩ => ⟨S1024x512, .f32⟩
  | .hbm, ⟨2, _⟩ => ⟨S1024, .f32⟩
  | .hbm, ⟨3, _⟩ => ⟨S1024x256, .f32⟩
  | .hbm, ⟨4, _⟩ => ⟨S1024x256, .f32⟩
  | .hbm, ⟨5, _⟩ => ⟨S768x256, .f32⟩
  | .hbm, ⟨6, _⟩ => ⟨S256x768, .f32⟩
  | .hbm, ⟨7, _⟩ => ⟨S256x768, .bf16⟩
  | .hbm, ⟨8, _⟩ => ⟨S256x1024, .f32⟩
  | .hbm, ⟨9, _⟩ => ⟨S256x1024, .bf16⟩
  | .hbm, ⟨10, _⟩ => ⟨S768, .f32⟩
  | .hbm, ⟨11, _⟩ => ⟨S1x768, .f32⟩
  | .hbm, ⟨12, _⟩ => ⟨S1x1024, .f32⟩
  | .hbm, ⟨13, _⟩ => ⟨S131072x256, .f32⟩
  | .hbm, ⟨14, _⟩ => ⟨S131072x256, .f32⟩
  | .hbm, ⟨15, _⟩ => ⟨S65536x512, .f32⟩
  | .hbm, ⟨16, _⟩ => ⟨S65536x512, .f32⟩
  | .hbm, ⟨17, _⟩ => ⟨S65536x256, .f32⟩
  | .hbm, ⟨18, _⟩ => ⟨S65536x256, .f32⟩
  | .hbm, ⟨19, _⟩ => ⟨S32768x512, .f32⟩
  | .hbm, ⟨20, _⟩ => ⟨S32768x512, .f32⟩
  | .hbm, ⟨21, _⟩ => ⟨S32768x256, .f32⟩
  | .hbm, ⟨22, _⟩ => ⟨S32768x256, .f32⟩
  | .hbm, ⟨23, _⟩ => ⟨S16384x512, .f32⟩
  | .hbm, ⟨24, _⟩ => ⟨S16384x512, .f32⟩
  | .hbm, ⟨25, _⟩ => ⟨S16384x256, .f32⟩
  | .hbm, ⟨26, _⟩ => ⟨S16384x256, .f32⟩
  | .hbm, ⟨27, _⟩ => ⟨S8192x512, .f32⟩
  | .hbm, ⟨28, _⟩ => ⟨S8192x512, .f32⟩
  | .hbm, ⟨29, _⟩ => ⟨S8192x256, .f32⟩
  | .hbm, ⟨30, _⟩ => ⟨S8192x256, .f32⟩
  | .hbm, ⟨31, _⟩ => ⟨S4096x512, .f32⟩
  | .hbm, ⟨32, _⟩ => ⟨S4096x512, .f32⟩
  | .hbm, ⟨33, _⟩ => ⟨S4096x256, .f32⟩
  | .hbm, ⟨34, _⟩ => ⟨S4096x256, .f32⟩
  | .hbm, ⟨35, _⟩ => ⟨S2048x512, .f32⟩
  | .hbm, ⟨36, _⟩ => ⟨S2048x512, .f32⟩
  | .hbm, ⟨37, _⟩ => ⟨S2048x256, .f32⟩
  | .hbm, ⟨38, _⟩ => ⟨S2048x256, .f32⟩
  | .hbm, ⟨39, _⟩ => ⟨S1024x512, .f32⟩
  | .hbm, ⟨40, _⟩ => ⟨S1024x512, .f32⟩
  | .hbm, ⟨41, _⟩ => ⟨S1024x256, .f32⟩
  | .hbm, ⟨42, _⟩ => ⟨S1024x256, .f32⟩
  | .hbm, ⟨43, _⟩ => ⟨S512x512, .f32⟩
  | .hbm, ⟨44, _⟩ => ⟨S512x512, .f32⟩
  | .hbm, ⟨45, _⟩ => ⟨S512x256, .f32⟩
  | .hbm, ⟨46, _⟩ => ⟨S512x256, .f32⟩
  | .hbm, ⟨47, _⟩ => ⟨S256x512, .f32⟩
  | .hbm, ⟨48, _⟩ => ⟨S256x512, .f32⟩
  | .hbm, ⟨49, _⟩ => ⟨S256x256, .f32⟩
  | .hbm, ⟨50, _⟩ => ⟨S256x256, .f32⟩
  | .hbm, ⟨51, _⟩ => ⟨S128x512, .f32⟩
  | .hbm, ⟨52, _⟩ => ⟨S128x512, .f32⟩
  | .hbm, ⟨53, _⟩ => ⟨S128x256, .f32⟩
  | .hbm, ⟨54, _⟩ => ⟨S128x256, .f32⟩
  | .hbm, ⟨55, _⟩ => ⟨S64x512, .f32⟩
  | .hbm, ⟨56, _⟩ => ⟨S64x512, .f32⟩
  | .hbm, ⟨57, _⟩ => ⟨S64x256, .f32⟩
  | .hbm, ⟨58, _⟩ => ⟨S64x256, .f32⟩
  | .hbm, ⟨59, _⟩ => ⟨S32x512, .f32⟩
  | .hbm, ⟨60, _⟩ => ⟨S32x512, .f32⟩
  | .hbm, ⟨61, _⟩ => ⟨S32x256, .f32⟩
  | .hbm, ⟨62, _⟩ => ⟨S32x256, .f32⟩
  | .hbm, ⟨63, _⟩ => ⟨S16x512, .f32⟩
  | .hbm, ⟨64, _⟩ => ⟨S16x512, .f32⟩
  | .hbm, ⟨65, _⟩ => ⟨S16x256, .f32⟩
  | .hbm, ⟨66, _⟩ => ⟨S16x256, .f32⟩
  | .hbm, ⟨67, _⟩ => ⟨S8x512, .f32⟩
  | .hbm, ⟨68, _⟩ => ⟨S8x512, .f32⟩
  | .hbm, ⟨69, _⟩ => ⟨S8x256, .f32⟩
  | .hbm, ⟨70, _⟩ => ⟨S8x256, .f32⟩
  | .hbm, ⟨71, _⟩ => ⟨S4x512, .f32⟩
  | .hbm, ⟨72, _⟩ => ⟨S4x512, .f32⟩
  | .hbm, ⟨73, _⟩ => ⟨S4x256, .f32⟩
  | .hbm, ⟨74, _⟩ => ⟨S4x256, .f32⟩
  | .hbm, ⟨75, _⟩ => ⟨S2x512, .f32⟩
  | .hbm, ⟨76, _⟩ => ⟨S2x512, .f32⟩
  | .hbm, ⟨77, _⟩ => ⟨S2x256, .f32⟩
  | .hbm, ⟨78, _⟩ => ⟨S2x256, .f32⟩
  | .hbm, ⟨79, _⟩ => ⟨S1x512, .f32⟩
  | .hbm, ⟨80, _⟩ => ⟨S1x512, .f32⟩
  | .hbm, ⟨81, _⟩ => ⟨S1x256, .f32⟩
  | .hbm, ⟨82, _⟩ => ⟨S1x256, .f32⟩
  | .local _ .vmem, ⟨i, _⟩ => vmemTy i
  | _, _ => ⟨S131072x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v53 : Ref sig .tc := ⟨.hbm, 71, rfl⟩
abbrev main_v54 : Ref sig .tc := ⟨.hbm, 72, rfl⟩
abbrev main_v55_0 : Ref sig .tc := ⟨.hbm, 73, rfl⟩
abbrev main_v55_1 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg4_1 : Ref sig .tc := ⟨.vmem, 55, rfl⟩
abbrev cc5_stg5_0 : Ref sig .tc := ⟨.vmem, 56, rfl⟩
abbrev cc5_stg5_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg4_1 : Ref sig .tc := ⟨.vmem, 75, rfl⟩
abbrev cc7_stg5_0 : Ref sig .tc := ⟨.vmem, 76, rfl⟩
abbrev cc7_stg5_1 : Ref sig .tc := ⟨.vmem, 77, rfl⟩
abbrev cc8_stg0_0 : Ref sig .tc := ⟨.vmem, 78, rfl⟩
abbrev cc8_stg1_0 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg5_0 : Ref sig .tc := ⟨.vmem, 83, rfl⟩
abbrev cc9_stg0_0 : Ref sig .tc := ⟨.vmem, 84, rfl⟩
abbrev cc9_stg1_0 : Ref sig .tc := ⟨.vmem, 85, rfl⟩
abbrev cc9_stg2_0 : Ref sig .tc := ⟨.vmem, 86, rfl⟩
abbrev cc9_stg3_0 : Ref sig .tc := ⟨.vmem, 87, rfl⟩
abbrev cc9_stg4_0 : Ref sig .tc := ⟨.vmem, 88, rfl⟩
abbrev cc9_stg5_0 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc11_stg0_0 : Ref sig .tc := ⟨.vmem, 96, rfl⟩
abbrev cc11_stg1_0 : Ref sig .tc := ⟨.vmem, 97, rfl⟩
abbrev cc11_stg2_0 : Ref sig .tc := ⟨.vmem, 98, rfl⟩
abbrev cc11_stg3_0 : Ref sig .tc := ⟨.vmem, 99, rfl⟩
abbrev cc11_stg4_0 : Ref sig .tc := ⟨.vmem, 100, rfl⟩
abbrev cc11_stg5_0 : Ref sig .tc := ⟨.vmem, 101, rfl⟩
abbrev cc12_stg0_0 : Ref sig .tc := ⟨.vmem, 102, rfl⟩
abbrev cc12_stg1_0 : Ref sig .tc := ⟨.vmem, 103, rfl⟩
abbrev cc12_stg2_0 : Ref sig .tc := ⟨.vmem, 104, rfl⟩
abbrev cc12_stg3_0 : Ref sig .tc := ⟨.vmem, 105, rfl⟩
abbrev cc12_stg4_0 : Ref sig .tc := ⟨.vmem, 106, rfl⟩
abbrev cc12_stg5_0 : Ref sig .tc := ⟨.vmem, 107, rfl⟩
abbrev cc13_stg0_0 : Ref sig .tc := ⟨.vmem, 108, rfl⟩
abbrev cc13_stg1_0 : Ref sig .tc := ⟨.vmem, 109, rfl⟩
abbrev cc13_stg2_0 : Ref sig .tc := ⟨.vmem, 110, rfl⟩
abbrev cc13_stg3_0 : Ref sig .tc := ⟨.vmem, 111, rfl⟩
abbrev cc13_stg4_0 : Ref sig .tc := ⟨.vmem, 112, rfl⟩
abbrev cc13_stg5_0 : Ref sig .tc := ⟨.vmem, 113, rfl⟩
abbrev cc14_stg0_0 : Ref sig .tc := ⟨.vmem, 114, rfl⟩
abbrev cc14_stg1_0 : Ref sig .tc := ⟨.vmem, 115, rfl⟩
abbrev cc14_stg2_0 : Ref sig .tc := ⟨.vmem, 116, rfl⟩
abbrev cc14_stg3_0 : Ref sig .tc := ⟨.vmem, 117, rfl⟩
abbrev cc14_stg4_0 : Ref sig .tc := ⟨.vmem, 118, rfl⟩
abbrev cc14_stg5_0 : Ref sig .tc := ⟨.vmem, 119, rfl⟩
abbrev cc15_stg0_0 : Ref sig .tc := ⟨.vmem, 120, rfl⟩
abbrev cc15_stg1_0 : Ref sig .tc := ⟨.vmem, 121, rfl⟩
abbrev cc15_stg2_0 : Ref sig .tc := ⟨.vmem, 122, rfl⟩
abbrev cc15_stg3_0 : Ref sig .tc := ⟨.vmem, 123, rfl⟩
abbrev cc15_stg4_0 : Ref sig .tc := ⟨.vmem, 124, rfl⟩
abbrev cc15_stg5_0 : Ref sig .tc := ⟨.vmem, 125, rfl⟩
abbrev cc16_stg0_0 : Ref sig .tc := ⟨.vmem, 126, rfl⟩
abbrev cc16_stg1_0 : Ref sig .tc := ⟨.vmem, 127, rfl⟩
abbrev cc16_stg2_0 : Ref sig .tc := ⟨.vmem, 128, rfl⟩
abbrev cc16_stg3_0 : Ref sig .tc := ⟨.vmem, 129, rfl⟩
abbrev cc16_stg4_0 : Ref sig .tc := ⟨.vmem, 130, rfl⟩
abbrev cc16_stg5_0 : Ref sig .tc := ⟨.vmem, 131, rfl⟩
abbrev cc17_stg0_0 : Ref sig .tc := ⟨.vmem, 132, rfl⟩
abbrev cc17_stg1_0 : Ref sig .tc := ⟨.vmem, 133, rfl⟩
abbrev cc17_stg2_0 : Ref sig .tc := ⟨.vmem, 134, rfl⟩
abbrev cc17_stg3_0 : Ref sig .tc := ⟨.vmem, 135, rfl⟩
abbrev cc17_stg4_0 : Ref sig .tc := ⟨.vmem, 136, rfl⟩
abbrev cc17_stg5_0 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem4_1 : DmaSem sig := 55
abbrev cc5_sem5_0 : DmaSem sig := 56
abbrev cc5_sem5_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem4_1 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem4_1 : DmaSem sig := 75
abbrev cc7_sem5_0 : DmaSem sig := 76
abbrev cc7_sem5_1 : DmaSem sig := 77
abbrev cc8_sem0_0 : DmaSem sig := 78
abbrev cc8_sem1_0 : DmaSem sig := 79
abbrev cc8_sem2_0 : DmaSem sig := 80
abbrev cc8_sem3_0 : DmaSem sig := 81
abbrev cc8_sem4_0 : DmaSem sig := 82
abbrev cc8_sem5_0 : DmaSem sig := 83
abbrev cc9_sem0_0 : DmaSem sig := 84
abbrev cc9_sem1_0 : DmaSem sig := 85
abbrev cc9_sem2_0 : DmaSem sig := 86
abbrev cc9_sem3_0 : DmaSem sig := 87
abbrev cc9_sem4_0 : DmaSem sig := 88
abbrev cc9_sem5_0 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95
abbrev cc11_sem0_0 : DmaSem sig := 96
abbrev cc11_sem1_0 : DmaSem sig := 97
abbrev cc11_sem2_0 : DmaSem sig := 98
abbrev cc11_sem3_0 : DmaSem sig := 99
abbrev cc11_sem4_0 : DmaSem sig := 100
abbrev cc11_sem5_0 : DmaSem sig := 101
abbrev cc12_sem0_0 : DmaSem sig := 102
abbrev cc12_sem1_0 : DmaSem sig := 103
abbrev cc12_sem2_0 : DmaSem sig := 104
abbrev cc12_sem3_0 : DmaSem sig := 105
abbrev cc12_sem4_0 : DmaSem sig := 106
abbrev cc12_sem5_0 : DmaSem sig := 107
abbrev cc13_sem0_0 : DmaSem sig := 108
abbrev cc13_sem1_0 : DmaSem sig := 109
abbrev cc13_sem2_0 : DmaSem sig := 110
abbrev cc13_sem3_0 : DmaSem sig := 111
abbrev cc13_sem4_0 : DmaSem sig := 112
abbrev cc13_sem5_0 : DmaSem sig := 113
abbrev cc14_sem0_0 : DmaSem sig := 114
abbrev cc14_sem1_0 : DmaSem sig := 115
abbrev cc14_sem2_0 : DmaSem sig := 116
abbrev cc14_sem3_0 : DmaSem sig := 117
abbrev cc14_sem4_0 : DmaSem sig := 118
abbrev cc14_sem5_0 : DmaSem sig := 119
abbrev cc15_sem0_0 : DmaSem sig := 120
abbrev cc15_sem1_0 : DmaSem sig := 121
abbrev cc15_sem2_0 : DmaSem sig := 122
abbrev cc15_sem3_0 : DmaSem sig := 123
abbrev cc15_sem4_0 : DmaSem sig := 124
abbrev cc15_sem5_0 : DmaSem sig := 125
abbrev cc16_sem0_0 : DmaSem sig := 126
abbrev cc16_sem1_0 : DmaSem sig := 127
abbrev cc16_sem2_0 : DmaSem sig := 128
abbrev cc16_sem3_0 : DmaSem sig := 129
abbrev cc16_sem4_0 : DmaSem sig := 130
abbrev cc16_sem5_0 : DmaSem sig := 131
abbrev cc17_sem0_0 : DmaSem sig := 132
abbrev cc17_sem1_0 : DmaSem sig := 133
abbrev cc17_sem2_0 : DmaSem sig := 134
abbrev cc17_sem3_0 : DmaSem sig := 135
abbrev cc17_sem4_0 : DmaSem sig := 136
abbrev cc17_sem5_0 : DmaSem sig := 137

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S512x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S512x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S512x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S256x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S512x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S512x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S256x512 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S256x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev stage9_5 : Fin 1 → Memref sig .tc .vmem S256x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S128x512 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S256x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev stage10_5 : Fin 1 → Memref sig .tc .vmem S128x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S64x512 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S64x512 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S256x1024 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S64x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev stage11_5 : Fin 1 → Memref sig .tc .vmem S64x256 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S32x512 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S32x512 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev stage12_2 : Fin 1 → Memref sig .tc .vmem S256x1024 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1024 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S32x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![true]

abbrev stage12_5 : Fin 1 → Memref sig .tc .vmem S32x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S16x512 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S16x512 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true]

abbrev stage13_2 : Fin 1 → Memref sig .tc .vmem S256x1024 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1024 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S16x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![true]

abbrev stage13_5 : Fin 1 → Memref sig .tc .vmem S16x256 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S8x512 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S8x512 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S256x1024 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1024 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S8x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![true]

abbrev stage14_5 : Fin 1 → Memref sig .tc .vmem S8x256 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S4x512 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S4x512 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![true]

abbrev stage15_2 : Fin 1 → Memref sig .tc .vmem S256x1024 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1024 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S4x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![true]

abbrev stage15_5 : Fin 1 → Memref sig .tc .vmem S4x256 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S2x512 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S2x512 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![true]

abbrev stage16_2 : Fin 1 → Memref sig .tc .vmem S256x1024 .bf16 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x1024 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S2x256 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![true]

abbrev stage16_5 : Fin 1 → Memref sig .tc .vmem S2x256 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S1x512 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S1x512 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true]

abbrev stage17_2 : Fin 1 → Memref sig .tc .vmem S256x1024 .bf16 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x1024 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x256 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![true]

abbrev stage17_5 : Fin 1 → Memref sig .tc .vmem S1x256 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![true]

class Facts₀ : Prop where
  slices_S1024x512_S1024x256_0_0 : S1024x512.Slices ![0, 0] S1024x256
  slices_S1024x512_S1024x256_0_256 : S1024x512.Slices ![0, 256] S1024x256
  slices_S1024x256_S768x256_256_0 : S1024x256.Slices ![256, 0] S768x256
  transposes_S768x256_S256x768_1_0 : S768x256.Transposes [1, 0] S256x768
  bitsLt_bf16_f32 : FTy.bits .bf16 < FTy.bits .f32
  transposes_S1024x256_S256x1024_1_0 : S1024x256.Transposes [1, 0] S256x1024
  slices_S1024_S768_256 : S1024.Slices ![256] S768
  shapeCasts_S768_S1x768 : S768.ShapeCasts S1x768
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S131072x256_S65536x512 : S131072x256.ShapeCasts S65536x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S512x256 : S512x512.Slices ![0, 0] S512x256
  slices_S512x512_o0_256_S512x256 : S512x512.Slices ![0, 256] S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S512x256_S512x256_0_0 : ∀ a, (![0, 0] : Fin 2 → Nat) a + S512x256.size a ≤ S512x256.size a
  h_S512x256 : 0 < S512x256.numel
  shapeCasts_S65536x256_S32768x512 : S65536x256.ShapeCasts S32768x512
  shapeCasts_S32768x256_S16384x512 : S32768x256.ShapeCasts S16384x512
  shapeCasts_S16384x256_S8192x512 : S16384x256.ShapeCasts S8192x512
  shapeCasts_S8192x256_S4096x512 : S8192x256.ShapeCasts S4096x512
  shapeCasts_S4096x256_S2048x512 : S4096x256.ShapeCasts S2048x512
  shapeCasts_S2048x256_S1024x512 : S2048x256.ShapeCasts S1024x512
  shapeCasts_S1024x256_S512x512 : S1024x256.ShapeCasts S512x512
  shapeCasts_S512x256_S256x512 : S512x256.ShapeCasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S256x512_o0_0_S256x256 : S256x512.Slices ![0, 0] S256x256
  slices_S256x512_o0_256_S256x256 : S256x512.Slices ![0, 256] S256x256
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  inb_S256x256_S256x256_0_0 : ∀ a, (![0, 0] : Fin 2 → Nat) a + S256x256.size a ≤ S256x256.size a
  h_S256x256 : 0 < S256x256.numel
  shapeCasts_S256x256_S128x512 : S256x256.ShapeCasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S128x512_o0_0_S128x256 : S128x512.Slices ![0, 0] S128x256
  slices_S128x512_o0_256_S128x256 : S128x512.Slices ![0, 256] S128x256
  broadcasts_S1x1024_S128x1024 : S1x1024.Broadcasts S128x1024
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  inb_S128x256_S128x256_0_0 : ∀ a, (![0, 0] : Fin 2 → Nat) a + S128x256.size a ≤ S128x256.size a
  h_S128x256 : 0 < S128x256.numel
  shapeCasts_S128x256_S64x512 : S128x256.ShapeCasts S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S64x512_o0_0_S64x256 : S64x512.Slices ![0, 0] S64x256
  slices_S64x512_o0_256_S64x256 : S64x512.Slices ![0, 256] S64x256
  broadcasts_S1x1024_S64x1024 : S1x1024.Broadcasts S64x1024
  slices_S64x1024_o0_0_S64x256 : S64x1024.Slices ![0, 0] S64x256
  slices_S64x1024_o0_256_S64x256 : S64x1024.Slices ![0, 256] S64x256
  slices_S64x1024_o0_512_S64x256 : S64x1024.Slices ![0, 512] S64x256
  slices_S64x1024_o0_768_S64x256 : S64x1024.Slices ![0, 768] S64x256
  inb_S64x256_S64x256_0_0 : ∀ a, (![0, 0] : Fin 2 → Nat) a + S64x256.size a ≤ S64x256.size a
  h_S64x256 : 0 < S64x256.numel
  shapeCasts_S64x256_S32x512 : S64x256.ShapeCasts S32x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  slices_S32x512_o0_0_S32x256 : S32x512.Slices ![0, 0] S32x256
  slices_S32x512_o0_256_S32x256 : S32x512.Slices ![0, 256] S32x256
  broadcasts_S1x1024_S32x1024 : S1x1024.Broadcasts S32x1024
  slices_S32x1024_o0_0_S32x256 : S32x1024.Slices ![0, 0] S32x256
  slices_S32x1024_o0_256_S32x256 : S32x1024.Slices ![0, 256] S32x256
  slices_S32x1024_o0_512_S32x256 : S32x1024.Slices ![0, 512] S32x256
  slices_S32x1024_o0_768_S32x256 : S32x1024.Slices ![0, 768] S32x256
  inb_S32x256_S32x256_0_0 : ∀ a, (![0, 0] : Fin 2 → Nat) a + S32x256.size a ≤ S32x256.size a
  h_S32x256 : 0 < S32x256.numel
  shapeCasts_S32x256_S16x512 : S32x256.ShapeCasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  slices_S16x512_o0_0_S16x256 : S16x512.Slices ![0, 0] S16x256
  slices_S16x512_o0_256_S16x256 : S16x512.Slices ![0, 256] S16x256
  broadcasts_S1x1024_S16x1024 : S1x1024.Broadcasts S16x1024
  slices_S16x1024_o0_0_S16x256 : S16x1024.Slices ![0, 0] S16x256
  slices_S16x1024_o0_256_S16x256 : S16x1024.Slices ![0, 256] S16x256
  slices_S16x1024_o0_512_S16x256 : S16x1024.Slices ![0, 512] S16x256
  slices_S16x1024_o0_768_S16x256 : S16x1024.Slices ![0, 768] S16x256
  inb_S16x256_S16x256_0_0 : ∀ a, (![0, 0] : Fin 2 → Nat) a + S16x256.size a ≤ S16x256.size a
  h_S16x256 : 0 < S16x256.numel
  shapeCasts_S16x256_S8x512 : S16x256.ShapeCasts S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S8x256 : S8x512.Slices ![0, 0] S8x256
  slices_S8x512_o0_256_S8x256 : S8x512.Slices ![0, 256] S8x256
  broadcasts_S1x1024_S8x1024 : S1x1024.Broadcasts S8x1024
  slices_S8x1024_o0_0_S8x256 : S8x1024.Slices ![0, 0] S8x256
  slices_S8x1024_o0_256_S8x256 : S8x1024.Slices ![0, 256] S8x256
  slices_S8x1024_o0_512_S8x256 : S8x1024.Slices ![0, 512] S8x256
  slices_S8x1024_o0_768_S8x256 : S8x1024.Slices ![0, 768] S8x256
  inb_S8x256_S8x256_0_0 : ∀ a, (![0, 0] : Fin 2 → Nat) a + S8x256.size a ≤ S8x256.size a
  h_S8x256 : 0 < S8x256.numel
  shapeCasts_S8x256_S4x512 : S8x256.ShapeCasts S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S4x512_o0_0_S4x256 : S4x512.Slices ![0, 0] S4x256
  slices_S4x512_o0_256_S4x256 : S4x512.Slices ![0, 256] S4x256
  broadcasts_S1x1024_S4x1024 : S1x1024.Broadcasts S4x1024
  slices_S4x1024_o0_0_S4x256 : S4x1024.Slices ![0, 0] S4x256
  slices_S4x1024_o0_256_S4x256 : S4x1024.Slices ![0, 256] S4x256
  slices_S4x1024_o0_512_S4x256 : S4x1024.Slices ![0, 512] S4x256
  slices_S4x1024_o0_768_S4x256 : S4x1024.Slices ![0, 768] S4x256
  inb_S4x256_S4x256_0_0 : ∀ a, (![0, 0] : Fin 2 → Nat) a + S4x256.size a ≤ S4x256.size a
  h_S4x256 : 0 < S4x256.numel
  shapeCasts_S4x256_S2x512 : S4x256.ShapeCasts S2x512
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x512_o0_0_S2x256 : S2x512.Slices ![0, 0] S2x256
  slices_S2x512_o0_256_S2x256 : S2x512.Slices ![0, 256] S2x256
  broadcasts_S1x1024_S2x1024 : S1x1024.Broadcasts S2x1024
  slices_S2x1024_o0_0_S2x256 : S2x1024.Slices ![0, 0] S2x256
  slices_S2x1024_o0_256_S2x256 : S2x1024.Slices ![0, 256] S2x256
  slices_S2x1024_o0_512_S2x256 : S2x1024.Slices ![0, 512] S2x256
  slices_S2x1024_o0_768_S2x256 : S2x1024.Slices ![0, 768] S2x256
  inb_S2x256_S2x256_0_0 : ∀ a, (![0, 0] : Fin 2 → Nat) a + S2x256.size a ≤ S2x256.size a
  h_S2x256 : 0 < S2x256.numel
  shapeCasts_S2x256_S1x512 : S2x256.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x512_o0_0_S1x256 : S1x512.Slices ![0, 0] S1x256
  slices_S1x512_o0_256_S1x256 : S1x512.Slices ![0, 256] S1x256
  slices_S1x1024_o0_0_S1x256 : S1x1024.Slices ![0, 0] S1x256
  slices_S1x1024_o0_256_S1x256 : S1x1024.Slices ![0, 256] S1x256
  slices_S1x1024_o0_512_S1x256 : S1x1024.Slices ![0, 512] S1x256
  slices_S1x1024_o0_768_S1x256 : S1x1024.Slices ![0, 768] S1x256
  inb_S1x256_S1x256_0_0 : ∀ a, (![0, 0] : Fin 2 → Nat) a + S1x256.size a ≤ S1x256.size a
  h_S1x256 : 0 < S1x256.numel
  dot_S1024x256_S256x768_S1024x768_1_0_0_1_n_n_wf : DotDims.WF S1024x256 S256x768 S1024x768 [1] [0] [0] [1] [] []
  dot_S512x256_S256x1024_S512x1024_1_0_0_1_n_n_wf : DotDims.WF S512x256 S256x1024 S512x1024 [1] [0] [0] [1] [] []
  dot_S256x256_S256x1024_S256x1024_1_0_0_1_n_n_wf : DotDims.WF S256x256 S256x1024 S256x1024 [1] [0] [0] [1] [] []
  dot_S128x256_S256x1024_S128x1024_1_0_0_1_n_n_wf : DotDims.WF S128x256 S256x1024 S128x1024 [1] [0] [0] [1] [] []
  dot_S64x256_S256x1024_S64x1024_1_0_0_1_n_n_wf : DotDims.WF S64x256 S256x1024 S64x1024 [1] [0] [0] [1] [] []
  dot_S32x256_S256x1024_S32x1024_1_0_0_1_n_n_wf : DotDims.WF S32x256 S256x1024 S32x1024 [1] [0] [0] [1] [] []
  dot_S16x256_S256x1024_S16x1024_1_0_0_1_n_n_wf : DotDims.WF S16x256 S256x1024 S16x1024 [1] [0] [0] [1] [] []
  dot_S8x256_S256x1024_S8x1024_1_0_0_1_n_n_wf : DotDims.WF S8x256 S256x1024 S8x1024 [1] [0] [0] [1] [] []
  dot_S4x256_S256x1024_S4x1024_1_0_0_1_n_n_wf : DotDims.WF S4x256 S256x1024 S4x1024 [1] [0] [0] [1] [] []
  dot_S2x256_S256x1024_S2x1024_1_0_0_1_n_n_wf : DotDims.WF S2x256 S256x1024 S2x1024 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S131072x256.size a
  hwx0_3 : ∀ i : grid0.Coords, EltTy.bits .f32 = 32 ∨ (Rect.block (s := S131072x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S131072x256.size a
  hwx0_4 : ∀ i : grid0.Coords, EltTy.bits .f32 = 32 ∨ (Rect.block (s := S131072x256) S1024x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S65536x512.size a
  hwx1_0 : ∀ i : grid1.Coords, EltTy.bits .f32 = 32 ∨ (Rect.block (s := S65536x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S65536x512.size a
  hwx1_1 : ∀ i : grid1.Coords, EltTy.bits .f32 = 32 ∨ (Rect.block (s := S65536x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S65536x256.size a
  hwx1_4 : ∀ i : grid1.Coords, EltTy.bits .f32 = 32 ∨ (Rect.block (s := S65536x256) S512x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S65536x256.size a
  hwx1_5 : ∀ i : grid1.Coords, EltTy.bits .f32 = 32 ∨ (Rect.block (s := S65536x256) S512x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S32768x512.size a
  hwx2_0 : ∀ i : grid2.Coords, EltTy.bits .f32 = 32 ∨ (Rect.block (s := S32768x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S32768x512.size a
  hwx2_1 : ∀ i : grid2.Coords, EltTy.bits .f32 = 32 ∨ (Rect.block (s := S32768x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S256x1024.size a
  hwx2_2 : ∀ i : grid2.Coords, EltTy.bits .bf16 = 32 ∨ (Rect.block (s := S256x1024) S256x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S32768x256.size a
  hwx2_4 : ∀ i : grid2.Coords, EltTy.bits .f32 = 32 ∨ (Rect.block (s := S32768x256) S512x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S32768x256.size a
  hwx2_5 : ∀ i : grid2.Coords, EltTy.bits .f32 = 32 ∨ (Rect.block (s := S32768x256) S512x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S16384x512.size a
  hwx3_0 : ∀ i : grid3.Coords, EltTy.bits .f32 = 32 ∨ (Rect.block (s := S16384x512) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S16384x512.size a
  hwx3_1 : ∀ i : grid3.Coords, EltTy.bits .f32 = 32 ∨ (Rect.block (s := S16384x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .bf16 = 32 ∨ (Rect.block (s := S256x1024) S256x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S16384x256.size a
  hwx3_4 : ∀ i : grid3.Coords, EltTy.bits .f32 = 32 ∨ (Rect.block (s := S16384x256) S512x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S16384x256.size a
  hwx3_5 : ∀ i : grid3.Coords, EltTy.bits .f32 = 32 ∨ (Rect.block (s := S16384x256) S512x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S8192x512.size a
  hwx4_0 : ∀ i : grid4.Coords, EltTy.bits .f32 = 32 ∨ (Rect.block (s := S8192x512) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S8192x512.size a
  hwx4_1 : ∀ i : grid4.Coords, EltTy.bits .f32 = 32 ∨ (Rect.block (s := S8192x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x1024.size a ≤ S256x1024.size a
  hwx4_2 : ∀ i : grid4.Coords, EltTy.bits .bf16 = 32 ∨ (Rect.block (s := S256x1024) S256x1024.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x1024.size a
  hwx4_3 : ∀ i : grid4.Coords, EltTy.bits .f32 = 32 ∨ (Rect.block (s := S1x1024) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S8192x256.size a
  hwx4_4 : ∀ i : grid4.Coords, EltTy.bits .f32 = 32 ∨ (Rect.block (s := S8192x256) S512x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S8192x256.size a
  hwx4_5 : ∀ i : grid4.Coords, EltTy.bits .f32 = 32 ∨ (Rect.block (s := S8192x256) S512x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S4096x512.size a
  hwx5_0 : ∀ i : grid5.Coords, EltTy.bits .f32 = 32 ∨ (Rect.block (s := S4096x512) S512x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S4096x512.size a
  hwx5_1 : ∀ i : grid5.Coords, EltTy.bits .f32 = 32 ∨ (Rect.block (s := S4096x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S256x1024.size a
  hwx5_2 : ∀ i : grid5.Coords, EltTy.bits .bf16 = 32 ∨ (Rect.block (s := S256x1024) S256x1024.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x1024.size a
  hwx5_3 : ∀ i : grid5.Coords, EltTy.bits .f32 = 32 ∨ (Rect.block (s := S1x1024) S1x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S4096x256.size a
  hwx5_4 : ∀ i : grid5.Coords, EltTy.bits .f32 = 32 ∨ (Rect.block (s := S4096x256) S512x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x256.size a ≤ S4096x256.size a
  hwx5_5 : ∀ i : grid5.Coords, EltTy.bits .f32 = 32 ∨ (Rect.block (s := S4096x256) S512x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x512.size a
  hwx6_0 : ∀ i : grid6.Coords, EltTy.bits .f32 = 32 ∨ (Rect.block (s := S2048x512) S512x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S2048x512.size a
  hwx6_1 : ∀ i : grid6.Coords, EltTy.bits .f32 = 32 ∨ (Rect.block (s := S2048x512) S512x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x1024.size a ≤ S256x1024.size a
  hwx6_2 : ∀ i : grid6.Coords, EltTy.bits .bf16 = 32 ∨ (Rect.block (s := S256x1024) S256x1024.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1024.size a ≤ S1x1024.size a
  hwx6_3 : ∀ i : grid6.Coords, EltTy.bits .f32 = 32 ∨ (Rect.block (s := S1x1024) S1x1024.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x256.size a ≤ S2048x256.size a
  hwx6_4 : ∀ i : grid6.Coords, EltTy.bits .f32 = 32 ∨ (Rect.block (s := S2048x256) S512x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x256.size a ≤ S2048x256.size a
  hwx6_5 : ∀ i : grid6.Coords, EltTy.bits .f32 = 32 ∨ (Rect.block (s := S2048x256) S512x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S1024x512.size a
  hwx7_0 : ∀ i : grid7.Coords, EltTy.bits .f32 = 32 ∨ (Rect.block (s := S1024x512) S512x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S1024x512.size a
  hwx7_1 : ∀ i : grid7.Coords, EltTy.bits .f32 = 32 ∨ (Rect.block (s := S1024x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x1024.size a ≤ S256x1024.size a
  hwx7_2 : ∀ i : grid7.Coords, EltTy.bits .bf16 = 32 ∨ (Rect.block (s := S256x1024) S256x1024.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x1024.size a
  hwx7_3 : ∀ i : grid7.Coords, EltTy.bits .f32 = 32 ∨ (Rect.block (s := S1x1024) S1x1024.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x256.size a ≤ S1024x256.size a
  hwx7_4 : ∀ i : grid7.Coords, EltTy.bits .f32 = 32 ∨ (Rect.block (s := S1024x256) S512x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x256.size a ≤ S1024x256.size a
  hwx7_5 : ∀ i : grid7.Coords, EltTy.bits .f32 = 32 ∨ (Rect.block (s := S1024x256) S512x256.size (cc7_transform_5 i) (hinb7_5 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x512.size a ≤ S512x512.size a
  hwx8_0 : ∀ i : grid8.Coords, EltTy.bits .f32 = 32 ∨ (Rect.block (s := S512x512) S512x512.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .f32 = 32 ∨ (Rect.block (s := S512x512) S512x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x1024.size a ≤ S256x1024.size a
  hwx8_2 : ∀ i : grid8.Coords, EltTy.bits .bf16 = 32 ∨ (Rect.block (s := S256x1024) S256x1024.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1024.size a ≤ S1x1024.size a
  hwx8_3 : ∀ i : grid8.Coords, EltTy.bits .f32 = 32 ∨ (Rect.block (s := S1x1024) S1x1024.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S512x256.size a ≤ S512x256.size a
  hwx8_4 : ∀ i : grid8.Coords, EltTy.bits .f32 = 32 ∨ (Rect.block (s := S512x256) S512x256.size (cc8_transform_4 i) (hinb8_4 i)).WholeWords (EltTy.packing .f32)
  hstage8_5 : ∀ j, (stage8_5 j).IsWhole
  nbuf8_5 : grid8.bufCount reads8_5 false = 1
  hreads8_5 : ∀ i i' : grid8.Coords, (∀ a, reads8_5 a = true → i a = i' a) → cc8_transform_5 i = cc8_transform_5 i'
  hinb8_5 : ∀ (i : grid8.Coords) a, (cc8_transform_5 i a + 1) * S512x256.size a ≤ S512x256.size a
  hwx8_5 : ∀ i : grid8.Coords, EltTy.bits .f32 = 32 ∨ (Rect.block (s := S512x256) S512x256.size (cc8_transform_5 i) (hinb8_5 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S256x512.size a ≤ S256x512.size a
  hwx9_0 : ∀ i : grid9.Coords, EltTy.bits .f32 = 32 ∨ (Rect.block (s := S256x512) S256x512.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S256x512.size a ≤ S256x512.size a
  hwx9_1 : ∀ i : grid9.Coords, EltTy.bits .f32 = 32 ∨ (Rect.block (s := S256x512) S256x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x1024.size a ≤ S256x1024.size a
  hwx9_2 : ∀ i : grid9.Coords, EltTy.bits .bf16 = 32 ∨ (Rect.block (s := S256x1024) S256x1024.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1024.size a ≤ S1x1024.size a
  hwx9_3 : ∀ i : grid9.Coords, EltTy.bits .f32 = 32 ∨ (Rect.block (s := S1x1024) S1x1024.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S256x256.size a ≤ S256x256.size a
  hwx9_4 : ∀ i : grid9.Coords, EltTy.bits .f32 = 32 ∨ (Rect.block (s := S256x256) S256x256.size (cc9_transform_4 i) (hinb9_4 i)).WholeWords (EltTy.packing .f32)
  hstage9_5 : ∀ j, (stage9_5 j).IsWhole
  nbuf9_5 : grid9.bufCount reads9_5 false = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .f32 = 32 ∨ (Rect.block (s := S256x256) S256x256.size (cc9_transform_5 i) (hinb9_5 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S128x512.size a ≤ S128x512.size a
  hwx10_0 : ∀ i : grid10.Coords, EltTy.bits .f32 = 32 ∨ (Rect.block (s := S128x512) S128x512.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S128x512.size a ≤ S128x512.size a
  hwx10_1 : ∀ i : grid10.Coords, EltTy.bits .f32 = 32 ∨ (Rect.block (s := S128x512) S128x512.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x1024.size a ≤ S256x1024.size a
  hwx10_2 : ∀ i : grid10.Coords, EltTy.bits .bf16 = 32 ∨ (Rect.block (s := S256x1024) S256x1024.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1024.size a ≤ S1x1024.size a
  hwx10_3 : ∀ i : grid10.Coords, EltTy.bits .f32 = 32 ∨ (Rect.block (s := S1x1024) S1x1024.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S128x256.size a ≤ S128x256.size a
  hwx10_4 : ∀ i : grid10.Coords, EltTy.bits .f32 = 32 ∨ (Rect.block (s := S128x256) S128x256.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S128x256.size a ≤ S128x256.size a
  hwx10_5 : ∀ i : grid10.Coords, EltTy.bits .f32 = 32 ∨ (Rect.block (s := S128x256) S128x256.size (cc10_transform_5 i) (hinb10_5 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S64x512.size a ≤ S64x512.size a
  hwx11_0 : ∀ i : grid11.Coords, EltTy.bits .f32 = 32 ∨ (Rect.block (s := S64x512) S64x512.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S64x512.size a ≤ S64x512.size a
  hwx11_1 : ∀ i : grid11.Coords, EltTy.bits .f32 = 32 ∨ (Rect.block (s := S64x512) S64x512.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x1024.size a ≤ S256x1024.size a
  hwx11_2 : ∀ i : grid11.Coords, EltTy.bits .bf16 = 32 ∨ (Rect.block (s := S256x1024) S256x1024.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x1024.size a ≤ S1x1024.size a
  hwx11_3 : ∀ i : grid11.Coords, EltTy.bits .f32 = 32 ∨ (Rect.block (s := S1x1024) S1x1024.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S64x256.size a ≤ S64x256.size a
  hwx11_4 : ∀ i : grid11.Coords, EltTy.bits .f32 = 32 ∨ (Rect.block (s := S64x256) S64x256.size (cc11_transform_4 i) (hinb11_4 i)).WholeWords (EltTy.packing .f32)
  hstage11_5 : ∀ j, (stage11_5 j).IsWhole
  nbuf11_5 : grid11.bufCount reads11_5 false = 1
  hreads11_5 : ∀ i i' : grid11.Coords, (∀ a, reads11_5 a = true → i a = i' a) → cc11_transform_5 i = cc11_transform_5 i'
  hinb11_5 : ∀ (i : grid11.Coords) a, (cc11_transform_5 i a + 1) * S64x256.size a ≤ S64x256.size a
  hwx11_5 : ∀ i : grid11.Coords, EltTy.bits .f32 = 32 ∨ (Rect.block (s := S64x256) S64x256.size (cc11_transform_5 i) (hinb11_5 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S32x512.size a ≤ S32x512.size a
  hwx12_0 : ∀ i : grid12.Coords, EltTy.bits .f32 = 32 ∨ (Rect.block (s := S32x512) S32x512.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S32x512.size a ≤ S32x512.size a
  hwx12_1 : ∀ i : grid12.Coords, EltTy.bits .f32 = 32 ∨ (Rect.block (s := S32x512) S32x512.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x1024.size a ≤ S256x1024.size a
  hwx12_2 : ∀ i : grid12.Coords, EltTy.bits .bf16 = 32 ∨ (Rect.block (s := S256x1024) S256x1024.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1024.size a ≤ S1x1024.size a
  hwx12_3 : ∀ i : grid12.Coords, EltTy.bits .f32 = 32 ∨ (Rect.block (s := S1x1024) S1x1024.size (cc12_transform_3 i) (hinb12_3 i)).WholeWords (EltTy.packing .f32)
  hstage12_4 : ∀ j, (stage12_4 j).IsWhole
  nbuf12_4 : grid12.bufCount reads12_4 false = 1
  hreads12_4 : ∀ i i' : grid12.Coords, (∀ a, reads12_4 a = true → i a = i' a) → cc12_transform_4 i = cc12_transform_4 i'
  hinb12_4 : ∀ (i : grid12.Coords) a, (cc12_transform_4 i a + 1) * S32x256.size a ≤ S32x256.size a
  hwx12_4 : ∀ i : grid12.Coords, EltTy.bits .f32 = 32 ∨ (Rect.block (s := S32x256) S32x256.size (cc12_transform_4 i) (hinb12_4 i)).WholeWords (EltTy.packing .f32)
  hstage12_5 : ∀ j, (stage12_5 j).IsWhole
  nbuf12_5 : grid12.bufCount reads12_5 false = 1
  hreads12_5 : ∀ i i' : grid12.Coords, (∀ a, reads12_5 a = true → i a = i' a) → cc12_transform_5 i = cc12_transform_5 i'
  hinb12_5 : ∀ (i : grid12.Coords) a, (cc12_transform_5 i a + 1) * S32x256.size a ≤ S32x256.size a
  hwx12_5 : ∀ i : grid12.Coords, EltTy.bits .f32 = 32 ∨ (Rect.block (s := S32x256) S32x256.size (cc12_transform_5 i) (hinb12_5 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S16x512.size a ≤ S16x512.size a
  hwx13_0 : ∀ i : grid13.Coords, EltTy.bits .f32 = 32 ∨ (Rect.block (s := S16x512) S16x512.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S16x512.size a ≤ S16x512.size a
  hwx13_1 : ∀ i : grid13.Coords, EltTy.bits .f32 = 32 ∨ (Rect.block (s := S16x512) S16x512.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x1024.size a ≤ S256x1024.size a
  hwx13_2 : ∀ i : grid13.Coords, EltTy.bits .bf16 = 32 ∨ (Rect.block (s := S256x1024) S256x1024.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x1024.size a ≤ S1x1024.size a
  hwx13_3 : ∀ i : grid13.Coords, EltTy.bits .f32 = 32 ∨ (Rect.block (s := S1x1024) S1x1024.size (cc13_transform_3 i) (hinb13_3 i)).WholeWords (EltTy.packing .f32)
  hstage13_4 : ∀ j, (stage13_4 j).IsWhole
  nbuf13_4 : grid13.bufCount reads13_4 false = 1
  hreads13_4 : ∀ i i' : grid13.Coords, (∀ a, reads13_4 a = true → i a = i' a) → cc13_transform_4 i = cc13_transform_4 i'
  hinb13_4 : ∀ (i : grid13.Coords) a, (cc13_transform_4 i a + 1) * S16x256.size a ≤ S16x256.size a
  hwx13_4 : ∀ i : grid13.Coords, EltTy.bits .f32 = 32 ∨ (Rect.block (s := S16x256) S16x256.size (cc13_transform_4 i) (hinb13_4 i)).WholeWords (EltTy.packing .f32)
  hstage13_5 : ∀ j, (stage13_5 j).IsWhole
  nbuf13_5 : grid13.bufCount reads13_5 false = 1
  hreads13_5 : ∀ i i' : grid13.Coords, (∀ a, reads13_5 a = true → i a = i' a) → cc13_transform_5 i = cc13_transform_5 i'
  hinb13_5 : ∀ (i : grid13.Coords) a, (cc13_transform_5 i a + 1) * S16x256.size a ≤ S16x256.size a
  hwx13_5 : ∀ i : grid13.Coords, EltTy.bits .f32 = 32 ∨ (Rect.block (s := S16x256) S16x256.size (cc13_transform_5 i) (hinb13_5 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S8x512.size a ≤ S8x512.size a
  hwx14_0 : ∀ i : grid14.Coords, EltTy.bits .f32 = 32 ∨ (Rect.block (s := S8x512) S8x512.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S8x512.size a ≤ S8x512.size a
  hwx14_1 : ∀ i : grid14.Coords, EltTy.bits .f32 = 32 ∨ (Rect.block (s := S8x512) S8x512.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S256x1024.size a ≤ S256x1024.size a
  hwx14_2 : ∀ i : grid14.Coords, EltTy.bits .bf16 = 32 ∨ (Rect.block (s := S256x1024) S256x1024.size (cc14_transform_2 i) (hinb14_2 i)).WholeWords (EltTy.packing .bf16)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x1024.size a ≤ S1x1024.size a
  hwx14_3 : ∀ i : grid14.Coords, EltTy.bits .f32 = 32 ∨ (Rect.block (s := S1x1024) S1x1024.size (cc14_transform_3 i) (hinb14_3 i)).WholeWords (EltTy.packing .f32)
  hstage14_4 : ∀ j, (stage14_4 j).IsWhole
  nbuf14_4 : grid14.bufCount reads14_4 false = 1
  hreads14_4 : ∀ i i' : grid14.Coords, (∀ a, reads14_4 a = true → i a = i' a) → cc14_transform_4 i = cc14_transform_4 i'
  hinb14_4 : ∀ (i : grid14.Coords) a, (cc14_transform_4 i a + 1) * S8x256.size a ≤ S8x256.size a
  hwx14_4 : ∀ i : grid14.Coords, EltTy.bits .f32 = 32 ∨ (Rect.block (s := S8x256) S8x256.size (cc14_transform_4 i) (hinb14_4 i)).WholeWords (EltTy.packing .f32)
  hstage14_5 : ∀ j, (stage14_5 j).IsWhole
  nbuf14_5 : grid14.bufCount reads14_5 false = 1
  hreads14_5 : ∀ i i' : grid14.Coords, (∀ a, reads14_5 a = true → i a = i' a) → cc14_transform_5 i = cc14_transform_5 i'
  hinb14_5 : ∀ (i : grid14.Coords) a, (cc14_transform_5 i a + 1) * S8x256.size a ≤ S8x256.size a
  hwx14_5 : ∀ i : grid14.Coords, EltTy.bits .f32 = 32 ∨ (Rect.block (s := S8x256) S8x256.size (cc14_transform_5 i) (hinb14_5 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S4x512.size a ≤ S4x512.size a
  hwx15_0 : ∀ i : grid15.Coords, EltTy.bits .f32 = 32 ∨ (Rect.block (s := S4x512) S4x512.size (cc15_transform_0 i) (hinb15_0 i)).WholeWords (EltTy.packing .f32)
  hstage15_1 : ∀ j, (stage15_1 j).IsWhole
  nbuf15_1 : grid15.bufCount reads15_1 false = 1
  hreads15_1 : ∀ i i' : grid15.Coords, (∀ a, reads15_1 a = true → i a = i' a) → cc15_transform_1 i = cc15_transform_1 i'
  hinb15_1 : ∀ (i : grid15.Coords) a, (cc15_transform_1 i a + 1) * S4x512.size a ≤ S4x512.size a
  hwx15_1 : ∀ i : grid15.Coords, EltTy.bits .f32 = 32 ∨ (Rect.block (s := S4x512) S4x512.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S256x1024.size a ≤ S256x1024.size a
  hwx15_2 : ∀ i : grid15.Coords, EltTy.bits .bf16 = 32 ∨ (Rect.block (s := S256x1024) S256x1024.size (cc15_transform_2 i) (hinb15_2 i)).WholeWords (EltTy.packing .bf16)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x1024.size a ≤ S1x1024.size a
  hwx15_3 : ∀ i : grid15.Coords, EltTy.bits .f32 = 32 ∨ (Rect.block (s := S1x1024) S1x1024.size (cc15_transform_3 i) (hinb15_3 i)).WholeWords (EltTy.packing .f32)
  hstage15_4 : ∀ j, (stage15_4 j).IsWhole
  nbuf15_4 : grid15.bufCount reads15_4 false = 1
  hreads15_4 : ∀ i i' : grid15.Coords, (∀ a, reads15_4 a = true → i a = i' a) → cc15_transform_4 i = cc15_transform_4 i'
  hinb15_4 : ∀ (i : grid15.Coords) a, (cc15_transform_4 i a + 1) * S4x256.size a ≤ S4x256.size a
  hwx15_4 : ∀ i : grid15.Coords, EltTy.bits .f32 = 32 ∨ (Rect.block (s := S4x256) S4x256.size (cc15_transform_4 i) (hinb15_4 i)).WholeWords (EltTy.packing .f32)
  hstage15_5 : ∀ j, (stage15_5 j).IsWhole
  nbuf15_5 : grid15.bufCount reads15_5 false = 1
  hreads15_5 : ∀ i i' : grid15.Coords, (∀ a, reads15_5 a = true → i a = i' a) → cc15_transform_5 i = cc15_transform_5 i'
  hinb15_5 : ∀ (i : grid15.Coords) a, (cc15_transform_5 i a + 1) * S4x256.size a ≤ S4x256.size a
  hwx15_5 : ∀ i : grid15.Coords, EltTy.bits .f32 = 32 ∨ (Rect.block (s := S4x256) S4x256.size (cc15_transform_5 i) (hinb15_5 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S2x512.size a ≤ S2x512.size a
  hwx16_0 : ∀ i : grid16.Coords, EltTy.bits .f32 = 32 ∨ (Rect.block (s := S2x512) S2x512.size (cc16_transform_0 i) (hinb16_0 i)).WholeWords (EltTy.packing .f32)
  hstage16_1 : ∀ j, (stage16_1 j).IsWhole
  nbuf16_1 : grid16.bufCount reads16_1 false = 1
  hreads16_1 : ∀ i i' : grid16.Coords, (∀ a, reads16_1 a = true → i a = i' a) → cc16_transform_1 i = cc16_transform_1 i'
  hinb16_1 : ∀ (i : grid16.Coords) a, (cc16_transform_1 i a + 1) * S2x512.size a ≤ S2x512.size a
  hwx16_1 : ∀ i : grid16.Coords, EltTy.bits .f32 = 32 ∨ (Rect.block (s := S2x512) S2x512.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S256x1024.size a ≤ S256x1024.size a
  hwx16_2 : ∀ i : grid16.Coords, EltTy.bits .bf16 = 32 ∨ (Rect.block (s := S256x1024) S256x1024.size (cc16_transform_2 i) (hinb16_2 i)).WholeWords (EltTy.packing .bf16)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x1024.size a ≤ S1x1024.size a
  hwx16_3 : ∀ i : grid16.Coords, EltTy.bits .f32 = 32 ∨ (Rect.block (s := S1x1024) S1x1024.size (cc16_transform_3 i) (hinb16_3 i)).WholeWords (EltTy.packing .f32)
  hstage16_4 : ∀ j, (stage16_4 j).IsWhole
  nbuf16_4 : grid16.bufCount reads16_4 false = 1
  hreads16_4 : ∀ i i' : grid16.Coords, (∀ a, reads16_4 a = true → i a = i' a) → cc16_transform_4 i = cc16_transform_4 i'
  hinb16_4 : ∀ (i : grid16.Coords) a, (cc16_transform_4 i a + 1) * S2x256.size a ≤ S2x256.size a
  hwx16_4 : ∀ i : grid16.Coords, EltTy.bits .f32 = 32 ∨ (Rect.block (s := S2x256) S2x256.size (cc16_transform_4 i) (hinb16_4 i)).WholeWords (EltTy.packing .f32)
  hstage16_5 : ∀ j, (stage16_5 j).IsWhole
  nbuf16_5 : grid16.bufCount reads16_5 false = 1
  hreads16_5 : ∀ i i' : grid16.Coords, (∀ a, reads16_5 a = true → i a = i' a) → cc16_transform_5 i = cc16_transform_5 i'
  hinb16_5 : ∀ (i : grid16.Coords) a, (cc16_transform_5 i a + 1) * S2x256.size a ≤ S2x256.size a
  hwx16_5 : ∀ i : grid16.Coords, EltTy.bits .f32 = 32 ∨ (Rect.block (s := S2x256) S2x256.size (cc16_transform_5 i) (hinb16_5 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S1x512.size a ≤ S1x512.size a
  hwx17_0 : ∀ i : grid17.Coords, EltTy.bits .f32 = 32 ∨ (Rect.block (s := S1x512) S1x512.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S1x512.size a ≤ S1x512.size a
  hwx17_1 : ∀ i : grid17.Coords, EltTy.bits .f32 = 32 ∨ (Rect.block (s := S1x512) S1x512.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S256x1024.size a ≤ S256x1024.size a
  hwx17_2 : ∀ i : grid17.Coords, EltTy.bits .bf16 = 32 ∨ (Rect.block (s := S256x1024) S256x1024.size (cc17_transform_2 i) (hinb17_2 i)).WholeWords (EltTy.packing .bf16)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x1024.size a ≤ S1x1024.size a
  hwx17_3 : ∀ i : grid17.Coords, EltTy.bits .f32 = 32 ∨ (Rect.block (s := S1x1024) S1x1024.size (cc17_transform_3 i) (hinb17_3 i)).WholeWords (EltTy.packing .f32)
  hstage17_4 : ∀ j, (stage17_4 j).IsWhole
  nbuf17_4 : grid17.bufCount reads17_4 false = 1
  hreads17_4 : ∀ i i' : grid17.Coords, (∀ a, reads17_4 a = true → i a = i' a) → cc17_transform_4 i = cc17_transform_4 i'
  hinb17_4 : ∀ (i : grid17.Coords) a, (cc17_transform_4 i a + 1) * S1x256.size a ≤ S1x256.size a
  hwx17_4 : ∀ i : grid17.Coords, EltTy.bits .f32 = 32 ∨ (Rect.block (s := S1x256) S1x256.size (cc17_transform_4 i) (hinb17_4 i)).WholeWords (EltTy.packing .f32)
  hstage17_5 : ∀ j, (stage17_5 j).IsWhole
  nbuf17_5 : grid17.bufCount reads17_5 false = 1
  hreads17_5 : ∀ i i' : grid17.Coords, (∀ a, reads17_5 a = true → i a = i' a) → cc17_transform_5 i = cc17_transform_5 i'
  hinb17_5 : ∀ (i : grid17.Coords) a, (cc17_transform_5 i a + 1) * S1x256.size a ≤ S1x256.size a
  hwx17_5 : ∀ i : grid17.Coords, EltTy.bits .f32 = 32 ∨ (Rect.block (s := S1x256) S1x256.size (cc17_transform_5 i) (hinb17_5 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf
def dot_S32x256_S256x1024_S32x1024_1_0_0_1_n_n : DotDims S32x256 S256x1024 S32x1024 where
  lhsContracting := [1]
  rhsContracting := [0]
  lhsNonContracting := [0]
  rhsNonContracting := [1]
  lhsBatch := []
  rhsBatch := []
  wf := dot_S32x256_S256x1024_S32x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S4x256_S256x1024_S4x1024_1_0_0_1_n_n : DotDims S4x256 S256x1024 S4x1024 where
  lhsContracting := [1]
  rhsContracting := [0]
  lhsNonContracting := [0]
  rhsNonContracting := [1]
  lhsBatch := []
  rhsBatch := []
  wf := dot_S4x256_S256x1024_S4x1024_1_0_0_1_n_n_wf
def dot_S2x256_S256x1024_S2x1024_1_0_0_1_n_n : DotDims S2x256 S256x1024 S2x1024 where
  lhsContracting := [1]
  rhsContracting := [0]
  lhsNonContracting := [0]
  rhsNonContracting := [1]
  lhsBatch := []
  rhsBatch := []
  wf := dot_S2x256_S256x1024_S2x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S512x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16_0) S512x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v16_1) S512x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v17) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19_0) S512x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v19_1) S512x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v20) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S256x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v22_0) S512x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v22_1) S512x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v23) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S512x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S256x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v9) S1x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v25_0) S512x256.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v25_1) S512x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v26) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S512x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v6) S256x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v9) S1x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v28_0) S512x256.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v28_1) S512x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v29) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v6) S256x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v9) S1x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v31_0) S512x256.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v31_1) S512x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v32) S512x512.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v33) S512x512.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v6) S256x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v9) S1x1024.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v34_0) S512x256.size cc8_transform_4 reads8_4 true false 1 stage8_4 sem8_4
    hrank8 hreads8_4 hinb8_4 nbuf8_4 (Memref.isWhole_whole _) hwx8_4 hstage8_4

abbrev win8_5 : Pipeline.Window sig grid8 :=
  Pipeline.Window.ofSpec (Memref.whole main_v34_1) S512x256.size cc8_transform_5 reads8_5 true false 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v35) S256x512.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v36) S256x512.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v6) S256x1024.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v9) S1x1024.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v37_0) S256x256.size cc9_transform_4 reads9_4 true false 1 stage9_4 sem9_4
    hrank9 hreads9_4 hinb9_4 nbuf9_4 (Memref.isWhole_whole _) hwx9_4 hstage9_4

abbrev win9_5 : Pipeline.Window sig grid9 :=
  Pipeline.Window.ofSpec (Memref.whole main_v37_1) S256x256.size cc9_transform_5 reads9_5 true false 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v38) S128x512.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v39) S128x512.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v6) S256x1024.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v9) S1x1024.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v40_0) S128x256.size cc10_transform_4 reads10_4 true false 1 stage10_4 sem10_4
    hrank10 hreads10_4 hinb10_4 nbuf10_4 (Memref.isWhole_whole _) hwx10_4 hstage10_4

abbrev win10_5 : Pipeline.Window sig grid10 :=
  Pipeline.Window.ofSpec (Memref.whole main_v40_1) S128x256.size cc10_transform_5 reads10_5 true false 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v41) S64x512.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v42) S64x512.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v6) S256x1024.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v9) S1x1024.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v43_0) S64x256.size cc11_transform_4 reads11_4 true false 1 stage11_4 sem11_4
    hrank11 hreads11_4 hinb11_4 nbuf11_4 (Memref.isWhole_whole _) hwx11_4 hstage11_4

abbrev win11_5 : Pipeline.Window sig grid11 :=
  Pipeline.Window.ofSpec (Memref.whole main_v43_1) S64x256.size cc11_transform_5 reads11_5 true false 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v44) S32x512.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v45) S32x512.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v6) S256x1024.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v9) S1x1024.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v46_0) S32x256.size cc12_transform_4 reads12_4 true false 1 stage12_4 sem12_4
    hrank12 hreads12_4 hinb12_4 nbuf12_4 (Memref.isWhole_whole _) hwx12_4 hstage12_4

abbrev win12_5 : Pipeline.Window sig grid12 :=
  Pipeline.Window.ofSpec (Memref.whole main_v46_1) S32x256.size cc12_transform_5 reads12_5 true false 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v47) S16x512.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v48) S16x512.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v6) S256x1024.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v9) S1x1024.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v49_0) S16x256.size cc13_transform_4 reads13_4 true false 1 stage13_4 sem13_4
    hrank13 hreads13_4 hinb13_4 nbuf13_4 (Memref.isWhole_whole _) hwx13_4 hstage13_4

abbrev win13_5 : Pipeline.Window sig grid13 :=
  Pipeline.Window.ofSpec (Memref.whole main_v49_1) S16x256.size cc13_transform_5 reads13_5 true false 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v50) S8x512.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v51) S8x512.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v6) S256x1024.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v9) S1x1024.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v52_0) S8x256.size cc14_transform_4 reads14_4 true false 1 stage14_4 sem14_4
    hrank14 hreads14_4 hinb14_4 nbuf14_4 (Memref.isWhole_whole _) hwx14_4 hstage14_4

abbrev win14_5 : Pipeline.Window sig grid14 :=
  Pipeline.Window.ofSpec (Memref.whole main_v52_1) S8x256.size cc14_transform_5 reads14_5 true false 1 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v53) S4x512.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v54) S4x512.size cc15_transform_1 reads15_1 false false 1 stage15_1 sem15_1
    hrank15 hreads15_1 hinb15_1 nbuf15_1 (Memref.isWhole_whole _) hwx15_1 hstage15_1

abbrev win15_2 : Pipeline.Window sig grid15 :=
  Pipeline.Window.ofSpec (Memref.whole main_v6) S256x1024.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v9) S1x1024.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v55_0) S4x256.size cc15_transform_4 reads15_4 true false 1 stage15_4 sem15_4
    hrank15 hreads15_4 hinb15_4 nbuf15_4 (Memref.isWhole_whole _) hwx15_4 hstage15_4

abbrev win15_5 : Pipeline.Window sig grid15 :=
  Pipeline.Window.ofSpec (Memref.whole main_v55_1) S4x256.size cc15_transform_5 reads15_5 true false 1 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v56) S2x512.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v57) S2x512.size cc16_transform_1 reads16_1 false false 1 stage16_1 sem16_1
    hrank16 hreads16_1 hinb16_1 nbuf16_1 (Memref.isWhole_whole _) hwx16_1 hstage16_1

abbrev win16_2 : Pipeline.Window sig grid16 :=
  Pipeline.Window.ofSpec (Memref.whole main_v6) S256x1024.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v9) S1x1024.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v58_0) S2x256.size cc16_transform_4 reads16_4 true false 1 stage16_4 sem16_4
    hrank16 hreads16_4 hinb16_4 nbuf16_4 (Memref.isWhole_whole _) hwx16_4 hstage16_4

abbrev win16_5 : Pipeline.Window sig grid16 :=
  Pipeline.Window.ofSpec (Memref.whole main_v58_1) S2x256.size cc16_transform_5 reads16_5 true false 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v59) S1x512.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v60) S1x512.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v6) S256x1024.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v9) S1x1024.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v61_0) S1x256.size cc17_transform_4 reads17_4 true false 1 stage17_4 sem17_4
    hrank17 hreads17_4 hinb17_4 nbuf17_4 (Memref.isWhole_whole _) hwx17_4 hstage17_4

abbrev win17_5 : Pipeline.Window sig grid17 :=
  Pipeline.Window.ofSpec (Memref.whole main_v61_1) S1x256.size cc17_transform_5 reads17_5 true false 1 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S131072x256 : Shape := ⟨2, ![131072, 256]⟩
abbrev S1024x512 : Shape := ⟨2, ![1024, 512]⟩
abbrev S1024 : Shape := ⟨1, ![1024]⟩
abbrev S_ : Shape := ⟨0, ![]⟩
abbrev S131072x512 : Shape := ⟨2, ![131072, 512]⟩
abbrev S512x1024 : Shape := ⟨2, ![512, 1024]⟩
abbrev S131072x1024 : Shape := ⟨2, ![131072, 1024]⟩
abbrev S1x1024 : Shape := ⟨2, ![1, 1024]⟩
abbrev S65536x2x256 : Shape := ⟨3, ![65536, 2, 256]⟩
abbrev S65536x256 : Shape := ⟨2, ![65536, 256]⟩
abbrev S65536x512 : Shape := ⟨2, ![65536, 512]⟩
abbrev S65536x1024 : Shape := ⟨2, ![65536, 1024]⟩
abbrev S32768x2x256 : Shape := ⟨3, ![32768, 2, 256]⟩
abbrev S32768x256 : Shape := ⟨2, ![32768, 256]⟩
abbrev S32768x512 : Shape := ⟨2, ![32768, 512]⟩
abbrev S32768x1024 : Shape := ⟨2, ![32768, 1024]⟩
abbrev S16384x2x256 : Shape := ⟨3, ![16384, 2, 256]⟩
abbrev S16384x256 : Shape := ⟨2, ![16384, 256]⟩
abbrev S16384x512 : Shape := ⟨2, ![16384, 512]⟩
abbrev S16384x1024 : Shape := ⟨2, ![16384, 1024]⟩
abbrev S8192x2x256 : Shape := ⟨3, ![8192, 2, 256]⟩
abbrev S8192x256 : Shape := ⟨2, ![8192, 256]⟩
abbrev S8192x512 : Shape := ⟨2, ![8192, 512]⟩
abbrev S8192x1024 : Shape := ⟨2, ![8192, 1024]⟩
abbrev S4096x2x256 : Shape := ⟨3, ![4096, 2, 256]⟩
abbrev S4096x256 : Shape := ⟨2, ![4096, 256]⟩
abbrev S4096x512 : Shape := ⟨2, ![4096, 512]⟩
abbrev S4096x1024 : Shape := ⟨2, ![4096, 1024]⟩
abbrev S2048x2x256 : Shape := ⟨3, ![2048, 2, 256]⟩
abbrev S2048x256 : Shape := ⟨2, ![2048, 256]⟩
abbrev S2048x512 : Shape := ⟨2, ![2048, 512]⟩
abbrev S2048x1024 : Shape := ⟨2, ![2048, 1024]⟩
abbrev S1024x2x256 : Shape := ⟨3, ![1024, 2, 256]⟩
abbrev S1024x256 : Shape := ⟨2, ![1024, 256]⟩
abbrev S1024x1024 : Shape := ⟨2, ![1024, 1024]⟩
abbrev S512x2x256 : Shape := ⟨3, ![512, 2, 256]⟩
abbrev S512x256 : Shape := ⟨2, ![512, 256]⟩
abbrev S512x512 : Shape := ⟨2, ![512, 512]⟩
abbrev S256x2x256 : Shape := ⟨3, ![256, 2, 256]⟩
abbrev S256x256 : Shape := ⟨2, ![256, 256]⟩
abbrev S256x512 : Shape := ⟨2, ![256, 512]⟩
abbrev S256x1024 : Shape := ⟨2, ![256, 1024]⟩
abbrev S128x2x256 : Shape := ⟨3, ![128, 2, 256]⟩
abbrev S128x256 : Shape := ⟨2, ![128, 256]⟩
abbrev S128x512 : Shape := ⟨2, ![128, 512]⟩
abbrev S128x1024 : Shape := ⟨2, ![128, 1024]⟩
abbrev S64x2x256 : Shape := ⟨3, ![64, 2, 256]⟩
abbrev S64x256 : Shape := ⟨2, ![64, 256]⟩
abbrev S64x512 : Shape := ⟨2, ![64, 512]⟩
abbrev S64x1024 : Shape := ⟨2, ![64, 1024]⟩
abbrev S32x2x256 : Shape := ⟨3, ![32, 2, 256]⟩
abbrev S32x256 : Shape := ⟨2, ![32, 256]⟩
abbrev S32x512 : Shape := ⟨2, ![32, 512]⟩
abbrev S32x1024 : Shape := ⟨2, ![32, 1024]⟩
abbrev S16x2x256 : Shape := ⟨3, ![16, 2, 256]⟩
abbrev S16x256 : Shape := ⟨2, ![16, 256]⟩
abbrev S16x512 : Shape := ⟨2, ![16, 512]⟩
abbrev S16x1024 : Shape := ⟨2, ![16, 1024]⟩
abbrev S8x2x256 : Shape := ⟨3, ![8, 2, 256]⟩
abbrev S8x256 : Shape := ⟨2, ![8, 256]⟩
abbrev S8x512 : Shape := ⟨2, ![8, 512]⟩
abbrev S8x1024 : Shape := ⟨2, ![8, 1024]⟩
abbrev S4x2x256 : Shape := ⟨3, ![4, 2, 256]⟩
abbrev S4x256 : Shape := ⟨2, ![4, 256]⟩
abbrev S4x512 : Shape := ⟨2, ![4, 512]⟩
abbrev S4x1024 : Shape := ⟨2, ![4, 1024]⟩
abbrev S2x2x256 : Shape := ⟨3, ![2, 2, 256]⟩
abbrev S2x256 : Shape := ⟨2, ![2, 256]⟩
abbrev S2x512 : Shape := ⟨2, ![2, 512]⟩
abbrev S2x1024 : Shape := ⟨2, ![2, 1024]⟩
abbrev S1x2x256 : Shape := ⟨3, ![1, 2, 256]⟩
abbrev S1x256 : Shape := ⟨2, ![1, 256]⟩
abbrev S1x512 : Shape := ⟨2, ![1, 512]⟩

abbrev nBuf : Space → Nat
  | .hbm => 860
  | .vmem => 0
  | .smem => 0
  | _ => 0

abbrev hbmTy0_0 (i : Nat) : BufTy := match i % 128 with
  | 0 => ⟨S131072x256, .f32⟩
  | 1 => ⟨S1024x512, .f32⟩
  | 2 => ⟨S1024, .f32⟩
  | 3 => ⟨S_, .f32⟩
  | 4 => ⟨S131072x256, .f32⟩
  | 5 => ⟨S131072x512, .f32⟩
  | 6 => ⟨S512x1024, .f32⟩
  | 7 => ⟨S131072x1024, .f32⟩
  | 8 => ⟨S1x1024, .f32⟩
  | 9 => ⟨S131072x1024, .f32⟩
  | 10 => ⟨S131072x1024, .f32⟩
  | 11 => ⟨S131072x256, .f32⟩
  | 12 => ⟨S131072x256, .f32⟩
  | 13 => ⟨S131072x256, .f32⟩
  | 14 => ⟨S131072x256, .f32⟩
  | 15 => ⟨S131072x256, .f32⟩
  | 16 => ⟨S131072x256, .f32⟩
  | 17 => ⟨S_, .f32⟩
  | 18 => ⟨S131072x256, .f32⟩
  | 19 => ⟨S131072x256, .f32⟩
  | 20 => ⟨S_, .f32⟩
  | 21 => ⟨S131072x256, .f32⟩
  | 22 => ⟨S131072x256, .f32⟩
  | 23 => ⟨S131072x256, .f32⟩
  | 24 => ⟨S131072x256, .f32⟩
  | 25 => ⟨S131072x256, .f32⟩
  | 26 => ⟨S_, .f32⟩
  | 27 => ⟨S131072x256, .f32⟩
  | 28 => ⟨S131072x256, .f32⟩
  | 29 => ⟨S_, .f32⟩
  | 30 => ⟨S131072x256, .f32⟩
  | 31 => ⟨S131072x256, .f32⟩
  | 32 => ⟨S131072x256, .f32⟩
  | 33 => ⟨S131072x256, .f32⟩
  | 34 => ⟨S131072x256, .f32⟩
  | 35 => ⟨S131072x256, .f32⟩
  | 36 => ⟨S131072x256, .f32⟩
  | 37 => ⟨S_, .f32⟩
  | 38 => ⟨S131072x256, .f32⟩
  | 39 => ⟨S131072x256, .f32⟩
  | 40 => ⟨S_, .f32⟩
  | 41 => ⟨S131072x256, .f32⟩
  | 42 => ⟨S131072x256, .f32⟩
  | 43 => ⟨S131072x256, .f32⟩
  | 44 => ⟨S131072x256, .f32⟩
  | 45 => ⟨S65536x2x256, .f32⟩
  | 46 => ⟨S_, .f32⟩
  | 47 => ⟨S65536x256, .f32⟩
  | 48 => ⟨S65536x2x256, .f32⟩
  | 49 => ⟨S_, .f32⟩
  | 50 => ⟨S65536x256, .f32⟩
  | 51 => ⟨S_, .f32⟩
  | 52 => ⟨S65536x256, .f32⟩
  | 53 => ⟨S65536x512, .f32⟩
  | 54 => ⟨S512x1024, .f32⟩
  | 55 => ⟨S65536x1024, .f32⟩
  | 56 => ⟨S1x1024, .f32⟩
  | 57 => ⟨S65536x1024, .f32⟩
  | 58 => ⟨S65536x1024, .f32⟩
  | 59 => ⟨S65536x256, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S_, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S_, .f32⟩
  | 75 => ⟨S65536x256, .f32⟩
  | 76 => ⟨S65536x256, .f32⟩
  | 77 => ⟨S_, .f32⟩
  | 78 => ⟨S65536x256, .f32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S_, .f32⟩
  | 86 => ⟨S65536x256, .f32⟩
  | 87 => ⟨S65536x256, .f32⟩
  | 88 => ⟨S_, .f32⟩
  | 89 => ⟨S65536x256, .f32⟩
  | 90 => ⟨S65536x256, .f32⟩
  | 91 => ⟨S65536x256, .f32⟩
  | 92 => ⟨S65536x256, .f32⟩
  | 93 => ⟨S32768x2x256, .f32⟩
  | 94 => ⟨S_, .f32⟩
  | 95 => ⟨S32768x256, .f32⟩
  | 96 => ⟨S32768x2x256, .f32⟩
  | 97 => ⟨S_, .f32⟩
  | 98 => ⟨S32768x256, .f32⟩
  | 99 => ⟨S_, .f32⟩
  | 100 => ⟨S32768x256, .f32⟩
  | 101 => ⟨S32768x512, .f32⟩
  | 102 => ⟨S512x1024, .f32⟩
  | 103 => ⟨S32768x1024, .f32⟩
  | 104 => ⟨S1x1024, .f32⟩
  | 105 => ⟨S32768x1024, .f32⟩
  | 106 => ⟨S32768x1024, .f32⟩
  | 107 => ⟨S32768x256, .f32⟩
  | 108 => ⟨S32768x256, .f32⟩
  | 109 => ⟨S32768x256, .f32⟩
  | 110 => ⟨S32768x256, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S_, .f32⟩
  | 117 => ⟨S32768x256, .f32⟩
  | 118 => ⟨S32768x256, .f32⟩
  | 119 => ⟨S32768x256, .f32⟩
  | 120 => ⟨S32768x256, .f32⟩
  | 121 => ⟨S32768x256, .f32⟩
  | 122 => ⟨S_, .f32⟩
  | 123 => ⟨S32768x256, .f32⟩
  | 124 => ⟨S32768x256, .f32⟩
  | 125 => ⟨S_, .f32⟩
  | 126 => ⟨S32768x256, .f32⟩
  | 127 => ⟨S32768x256, .f32⟩
  | _ => ⟨S131072x256, .f32⟩

abbrev hbmTy0_1 (i : Nat) : BufTy := match i % 128 with
  | 0 => ⟨S32768x256, .f32⟩
  | 1 => ⟨S32768x256, .f32⟩
  | 2 => ⟨S32768x256, .f32⟩
  | 3 => ⟨S32768x256, .f32⟩
  | 4 => ⟨S32768x256, .f32⟩
  | 5 => ⟨S_, .f32⟩
  | 6 => ⟨S32768x256, .f32⟩
  | 7 => ⟨S32768x256, .f32⟩
  | 8 => ⟨S_, .f32⟩
  | 9 => ⟨S32768x256, .f32⟩
  | 10 => ⟨S32768x256, .f32⟩
  | 11 => ⟨S32768x256, .f32⟩
  | 12 => ⟨S32768x256, .f32⟩
  | 13 => ⟨S16384x2x256, .f32⟩
  | 14 => ⟨S_, .f32⟩
  | 15 => ⟨S16384x256, .f32⟩
  | 16 => ⟨S16384x2x256, .f32⟩
  | 17 => ⟨S_, .f32⟩
  | 18 => ⟨S16384x256, .f32⟩
  | 19 => ⟨S_, .f32⟩
  | 20 => ⟨S16384x256, .f32⟩
  | 21 => ⟨S16384x512, .f32⟩
  | 22 => ⟨S512x1024, .f32⟩
  | 23 => ⟨S16384x1024, .f32⟩
  | 24 => ⟨S1x1024, .f32⟩
  | 25 => ⟨S16384x1024, .f32⟩
  | 26 => ⟨S16384x1024, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S_, .f32⟩
  | 43 => ⟨S16384x256, .f32⟩
  | 44 => ⟨S16384x256, .f32⟩
  | 45 => ⟨S_, .f32⟩
  | 46 => ⟨S16384x256, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S16384x256, .f32⟩
  | 53 => ⟨S_, .f32⟩
  | 54 => ⟨S16384x256, .f32⟩
  | 55 => ⟨S16384x256, .f32⟩
  | 56 => ⟨S_, .f32⟩
  | 57 => ⟨S16384x256, .f32⟩
  | 58 => ⟨S16384x256, .f32⟩
  | 59 => ⟨S16384x256, .f32⟩
  | 60 => ⟨S16384x256, .f32⟩
  | 61 => ⟨S8192x2x256, .f32⟩
  | 62 => ⟨S_, .f32⟩
  | 63 => ⟨S8192x256, .f32⟩
  | 64 => ⟨S8192x2x256, .f32⟩
  | 65 => ⟨S_, .f32⟩
  | 66 => ⟨S8192x256, .f32⟩
  | 67 => ⟨S_, .f32⟩
  | 68 => ⟨S8192x256, .f32⟩
  | 69 => ⟨S8192x512, .f32⟩
  | 70 => ⟨S512x1024, .f32⟩
  | 71 => ⟨S8192x1024, .f32⟩
  | 72 => ⟨S1x1024, .f32⟩
  | 73 => ⟨S8192x1024, .f32⟩
  | 74 => ⟨S8192x1024, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S8192x256, .f32⟩
  | 81 => ⟨S_, .f32⟩
  | 82 => ⟨S8192x256, .f32⟩
  | 83 => ⟨S8192x256, .f32⟩
  | 84 => ⟨S_, .f32⟩
  | 85 => ⟨S8192x256, .f32⟩
  | 86 => ⟨S8192x256, .f32⟩
  | 87 => ⟨S8192x256, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S_, .f32⟩
  | 94 => ⟨S8192x256, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S_, .f32⟩
  | 102 => ⟨S8192x256, .f32⟩
  | 103 => ⟨S8192x256, .f32⟩
  | 104 => ⟨S_, .f32⟩
  | 105 => ⟨S8192x256, .f32⟩
  | 106 => ⟨S8192x256, .f32⟩
  | 107 => ⟨S8192x256, .f32⟩
  | 108 => ⟨S8192x256, .f32⟩
  | 109 => ⟨S4096x2x256, .f32⟩
  | 110 => ⟨S_, .f32⟩
  | 111 => ⟨S4096x256, .f32⟩
  | 112 => ⟨S4096x2x256, .f32⟩
  | 113 => ⟨S_, .f32⟩
  | 114 => ⟨S4096x256, .f32⟩
  | 115 => ⟨S_, .f32⟩
  | 116 => ⟨S4096x256, .f32⟩
  | 117 => ⟨S4096x512, .f32⟩
  | 118 => ⟨S512x1024, .f32⟩
  | 119 => ⟨S4096x1024, .f32⟩
  | 120 => ⟨S1x1024, .f32⟩
  | 121 => ⟨S4096x1024, .f32⟩
  | 122 => ⟨S4096x1024, .f32⟩
  | 123 => ⟨S4096x256, .f32⟩
  | 124 => ⟨S4096x256, .f32⟩
  | 125 => ⟨S4096x256, .f32⟩
  | 126 => ⟨S4096x256, .f32⟩
  | 127 => ⟨S4096x256, .f32⟩
  | _ => ⟨S131072x256, .f32⟩

abbrev hbmTy0_2 (i : Nat) : BufTy := match i % 128 with
  | 0 => ⟨S4096x256, .f32⟩
  | 1 => ⟨S_, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S_, .f32⟩
  | 25 => ⟨S4096x256, .f32⟩
  | 26 => ⟨S4096x256, .f32⟩
  | 27 => ⟨S4096x256, .f32⟩
  | 28 => ⟨S4096x256, .f32⟩
  | 29 => ⟨S2048x2x256, .f32⟩
  | 30 => ⟨S_, .f32⟩
  | 31 => ⟨S2048x256, .f32⟩
  | 32 => ⟨S2048x2x256, .f32⟩
  | 33 => ⟨S_, .f32⟩
  | 34 => ⟨S2048x256, .f32⟩
  | 35 => ⟨S_, .f32⟩
  | 36 => ⟨S2048x256, .f32⟩
  | 37 => ⟨S2048x512, .f32⟩
  | 38 => ⟨S512x1024, .f32⟩
  | 39 => ⟨S2048x1024, .f32⟩
  | 40 => ⟨S1x1024, .f32⟩
  | 41 => ⟨S2048x1024, .f32⟩
  | 42 => ⟨S2048x1024, .f32⟩
  | 43 => ⟨S2048x256, .f32⟩
  | 44 => ⟨S2048x256, .f32⟩
  | 45 => ⟨S2048x256, .f32⟩
  | 46 => ⟨S2048x256, .f32⟩
  | 47 => ⟨S2048x256, .f32⟩
  | 48 => ⟨S2048x256, .f32⟩
  | 49 => ⟨S_, .f32⟩
  | 50 => ⟨S2048x256, .f32⟩
  | 51 => ⟨S2048x256, .f32⟩
  | 52 => ⟨S_, .f32⟩
  | 53 => ⟨S2048x256, .f32⟩
  | 54 => ⟨S2048x256, .f32⟩
  | 55 => ⟨S2048x256, .f32⟩
  | 56 => ⟨S2048x256, .f32⟩
  | 57 => ⟨S2048x256, .f32⟩
  | 58 => ⟨S_, .f32⟩
  | 59 => ⟨S2048x256, .f32⟩
  | 60 => ⟨S2048x256, .f32⟩
  | 61 => ⟨S_, .f32⟩
  | 62 => ⟨S2048x256, .f32⟩
  | 63 => ⟨S2048x256, .f32⟩
  | 64 => ⟨S2048x256, .f32⟩
  | 65 => ⟨S2048x256, .f32⟩
  | 66 => ⟨S2048x256, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S_, .f32⟩
  | 73 => ⟨S2048x256, .f32⟩
  | 74 => ⟨S2048x256, .f32⟩
  | 75 => ⟨S2048x256, .f32⟩
  | 76 => ⟨S2048x256, .f32⟩
  | 77 => ⟨S1024x2x256, .f32⟩
  | 78 => ⟨S_, .f32⟩
  | 79 => ⟨S1024x256, .f32⟩
  | 80 => ⟨S1024x2x256, .f32⟩
  | 81 => ⟨S_, .f32⟩
  | 82 => ⟨S1024x256, .f32⟩
  | 83 => ⟨S_, .f32⟩
  | 84 => ⟨S1024x256, .f32⟩
  | 85 => ⟨S1024x512, .f32⟩
  | 86 => ⟨S512x1024, .f32⟩
  | 87 => ⟨S1024x1024, .f32⟩
  | 88 => ⟨S1x1024, .f32⟩
  | 89 => ⟨S1024x1024, .f32⟩
  | 90 => ⟨S1024x1024, .f32⟩
  | 91 => ⟨S1024x256, .f32⟩
  | 92 => ⟨S1024x256, .f32⟩
  | 93 => ⟨S1024x256, .f32⟩
  | 94 => ⟨S1024x256, .f32⟩
  | 95 => ⟨S1024x256, .f32⟩
  | 96 => ⟨S1024x256, .f32⟩
  | 97 => ⟨S_, .f32⟩
  | 98 => ⟨S1024x256, .f32⟩
  | 99 => ⟨S1024x256, .f32⟩
  | 100 => ⟨S_, .f32⟩
  | 101 => ⟨S1024x256, .f32⟩
  | 102 => ⟨S1024x256, .f32⟩
  | 103 => ⟨S1024x256, .f32⟩
  | 104 => ⟨S1024x256, .f32⟩
  | 105 => ⟨S1024x256, .f32⟩
  | 106 => ⟨S_, .f32⟩
  | 107 => ⟨S1024x256, .f32⟩
  | 108 => ⟨S1024x256, .f32⟩
  | 109 => ⟨S_, .f32⟩
  | 110 => ⟨S1024x256, .f32⟩
  | 111 => ⟨S1024x256, .f32⟩
  | 112 => ⟨S1024x256, .f32⟩
  | 113 => ⟨S1024x256, .f32⟩
  | 114 => ⟨S1024x256, .f32⟩
  | 115 => ⟨S1024x256, .f32⟩
  | 116 => ⟨S1024x256, .f32⟩
  | 117 => ⟨S_, .f32⟩
  | 118 => ⟨S1024x256, .f32⟩
  | 119 => ⟨S1024x256, .f32⟩
  | 120 => ⟨S_, .f32⟩
  | 121 => ⟨S1024x256, .f32⟩
  | 122 => ⟨S1024x256, .f32⟩
  | 123 => ⟨S1024x256, .f32⟩
  | 124 => ⟨S1024x256, .f32⟩
  | 125 => ⟨S512x2x256, .f32⟩
  | 126 => ⟨S_, .f32⟩
  | 127 => ⟨S512x256, .f32⟩
  | _ => ⟨S131072x256, .f32⟩

abbrev hbmTy0_3 (i : Nat) : BufTy := match i % 128 with
  | 0 => ⟨S512x2x256, .f32⟩
  | 1 => ⟨S_, .f32⟩
  | 2 => ⟨S512x256, .f32⟩
  | 3 => ⟨S_, .f32⟩
  | 4 => ⟨S512x256, .f32⟩
  | 5 => ⟨S512x512, .f32⟩
  | 6 => ⟨S512x1024, .f32⟩
  | 7 => ⟨S512x1024, .f32⟩
  | 8 => ⟨S1x1024, .f32⟩
  | 9 => ⟨S512x1024, .f32⟩
  | 10 => ⟨S512x1024, .f32⟩
  | 11 => ⟨S512x256, .f32⟩
  | 12 => ⟨S512x256, .f32⟩
  | 13 => ⟨S512x256, .f32⟩
  | 14 => ⟨S512x256, .f32⟩
  | 15 => ⟨S512x256, .f32⟩
  | 16 => ⟨S512x256, .f32⟩
  | 17 => ⟨S_, .f32⟩
  | 18 => ⟨S512x256, .f32⟩
  | 19 => ⟨S512x256, .f32⟩
  | 20 => ⟨S_, .f32⟩
  | 21 => ⟨S512x256, .f32⟩
  | 22 => ⟨S512x256, .f32⟩
  | 23 => ⟨S512x256, .f32⟩
  | 24 => ⟨S512x256, .f32⟩
  | 25 => ⟨S512x256, .f32⟩
  | 26 => ⟨S_, .f32⟩
  | 27 => ⟨S512x256, .f32⟩
  | 28 => ⟨S512x256, .f32⟩
  | 29 => ⟨S_, .f32⟩
  | 30 => ⟨S512x256, .f32⟩
  | 31 => ⟨S512x256, .f32⟩
  | 32 => ⟨S512x256, .f32⟩
  | 33 => ⟨S512x256, .f32⟩
  | 34 => ⟨S512x256, .f32⟩
  | 35 => ⟨S512x256, .f32⟩
  | 36 => ⟨S512x256, .f32⟩
  | 37 => ⟨S_, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S512x256, .f32⟩
  | 44 => ⟨S512x256, .f32⟩
  | 45 => ⟨S256x2x256, .f32⟩
  | 46 => ⟨S_, .f32⟩
  | 47 => ⟨S256x256, .f32⟩
  | 48 => ⟨S256x2x256, .f32⟩
  | 49 => ⟨S_, .f32⟩
  | 50 => ⟨S256x256, .f32⟩
  | 51 => ⟨S_, .f32⟩
  | 52 => ⟨S256x256, .f32⟩
  | 53 => ⟨S256x512, .f32⟩
  | 54 => ⟨S512x1024, .f32⟩
  | 55 => ⟨S256x1024, .f32⟩
  | 56 => ⟨S1x1024, .f32⟩
  | 57 => ⟨S256x1024, .f32⟩
  | 58 => ⟨S256x1024, .f32⟩
  | 59 => ⟨S256x256, .f32⟩
  | 60 => ⟨S256x256, .f32⟩
  | 61 => ⟨S256x256, .f32⟩
  | 62 => ⟨S256x256, .f32⟩
  | 63 => ⟨S256x256, .f32⟩
  | 64 => ⟨S256x256, .f32⟩
  | 65 => ⟨S_, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S256x256, .f32⟩
  | 73 => ⟨S256x256, .f32⟩
  | 74 => ⟨S_, .f32⟩
  | 75 => ⟨S256x256, .f32⟩
  | 76 => ⟨S256x256, .f32⟩
  | 77 => ⟨S_, .f32⟩
  | 78 => ⟨S256x256, .f32⟩
  | 79 => ⟨S256x256, .f32⟩
  | 80 => ⟨S256x256, .f32⟩
  | 81 => ⟨S256x256, .f32⟩
  | 82 => ⟨S256x256, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S_, .f32⟩
  | 89 => ⟨S256x256, .f32⟩
  | 90 => ⟨S256x256, .f32⟩
  | 91 => ⟨S256x256, .f32⟩
  | 92 => ⟨S256x256, .f32⟩
  | 93 => ⟨S128x2x256, .f32⟩
  | 94 => ⟨S_, .f32⟩
  | 95 => ⟨S128x256, .f32⟩
  | 96 => ⟨S128x2x256, .f32⟩
  | 97 => ⟨S_, .f32⟩
  | 98 => ⟨S128x256, .f32⟩
  | 99 => ⟨S_, .f32⟩
  | 100 => ⟨S128x256, .f32⟩
  | 101 => ⟨S128x512, .f32⟩
  | 102 => ⟨S512x1024, .f32⟩
  | 103 => ⟨S128x1024, .f32⟩
  | 104 => ⟨S1x1024, .f32⟩
  | 105 => ⟨S128x1024, .f32⟩
  | 106 => ⟨S128x1024, .f32⟩
  | 107 => ⟨S128x256, .f32⟩
  | 108 => ⟨S128x256, .f32⟩
  | 109 => ⟨S128x256, .f32⟩
  | 110 => ⟨S128x256, .f32⟩
  | 111 => ⟨S128x256, .f32⟩
  | 112 => ⟨S128x256, .f32⟩
  | 113 => ⟨S_, .f32⟩
  | 114 => ⟨S128x256, .f32⟩
  | 115 => ⟨S128x256, .f32⟩
  | 116 => ⟨S_, .f32⟩
  | 117 => ⟨S128x256, .f32⟩
  | 118 => ⟨S128x256, .f32⟩
  | 119 => ⟨S128x256, .f32⟩
  | 120 => ⟨S128x256, .f32⟩
  | 121 => ⟨S128x256, .f32⟩
  | 122 => ⟨S_, .f32⟩
  | 123 => ⟨S128x256, .f32⟩
  | 124 => ⟨S128x256, .f32⟩
  | 125 => ⟨S_, .f32⟩
  | 126 => ⟨S128x256, .f32⟩
  | 127 => ⟨S128x256, .f32⟩
  | _ => ⟨S131072x256, .f32⟩

abbrev hbmTy0_4 (i : Nat) : BufTy := match i % 128 with
  | 0 => ⟨S128x256, .f32⟩
  | 1 => ⟨S128x256, .f32⟩
  | 2 => ⟨S128x256, .f32⟩
  | 3 => ⟨S128x256, .f32⟩
  | 4 => ⟨S128x256, .f32⟩
  | 5 => ⟨S_, .f32⟩
  | 6 => ⟨S128x256, .f32⟩
  | 7 => ⟨S128x256, .f32⟩
  | 8 => ⟨S_, .f32⟩
  | 9 => ⟨S128x256, .f32⟩
  | 10 => ⟨S128x256, .f32⟩
  | 11 => ⟨S128x256, .f32⟩
  | 12 => ⟨S128x256, .f32⟩
  | 13 => ⟨S64x2x256, .f32⟩
  | 14 => ⟨S_, .f32⟩
  | 15 => ⟨S64x256, .f32⟩
  | 16 => ⟨S64x2x256, .f32⟩
  | 17 => ⟨S_, .f32⟩
  | 18 => ⟨S64x256, .f32⟩
  | 19 => ⟨S_, .f32⟩
  | 20 => ⟨S64x256, .f32⟩
  | 21 => ⟨S64x512, .f32⟩
  | 22 => ⟨S512x1024, .f32⟩
  | 23 => ⟨S64x1024, .f32⟩
  | 24 => ⟨S1x1024, .f32⟩
  | 25 => ⟨S64x1024, .f32⟩
  | 26 => ⟨S64x1024, .f32⟩
  | 27 => ⟨S64x256, .f32⟩
  | 28 => ⟨S64x256, .f32⟩
  | 29 => ⟨S64x256, .f32⟩
  | 30 => ⟨S64x256, .f32⟩
  | 31 => ⟨S64x256, .f32⟩
  | 32 => ⟨S64x256, .f32⟩
  | 33 => ⟨S_, .f32⟩
  | 34 => ⟨S64x256, .f32⟩
  | 35 => ⟨S64x256, .f32⟩
  | 36 => ⟨S_, .f32⟩
  | 37 => ⟨S64x256, .f32⟩
  | 38 => ⟨S64x256, .f32⟩
  | 39 => ⟨S64x256, .f32⟩
  | 40 => ⟨S64x256, .f32⟩
  | 41 => ⟨S64x256, .f32⟩
  | 42 => ⟨S_, .f32⟩
  | 43 => ⟨S64x256, .f32⟩
  | 44 => ⟨S64x256, .f32⟩
  | 45 => ⟨S_, .f32⟩
  | 46 => ⟨S64x256, .f32⟩
  | 47 => ⟨S64x256, .f32⟩
  | 48 => ⟨S64x256, .f32⟩
  | 49 => ⟨S64x256, .f32⟩
  | 50 => ⟨S64x256, .f32⟩
  | 51 => ⟨S64x256, .f32⟩
  | 52 => ⟨S64x256, .f32⟩
  | 53 => ⟨S_, .f32⟩
  | 54 => ⟨S64x256, .f32⟩
  | 55 => ⟨S64x256, .f32⟩
  | 56 => ⟨S_, .f32⟩
  | 57 => ⟨S64x256, .f32⟩
  | 58 => ⟨S64x256, .f32⟩
  | 59 => ⟨S64x256, .f32⟩
  | 60 => ⟨S64x256, .f32⟩
  | 61 => ⟨S32x2x256, .f32⟩
  | 62 => ⟨S_, .f32⟩
  | 63 => ⟨S32x256, .f32⟩
  | 64 => ⟨S32x2x256, .f32⟩
  | 65 => ⟨S_, .f32⟩
  | 66 => ⟨S32x256, .f32⟩
  | 67 => ⟨S_, .f32⟩
  | 68 => ⟨S32x256, .f32⟩
  | 69 => ⟨S32x512, .f32⟩
  | 70 => ⟨S512x1024, .f32⟩
  | 71 => ⟨S32x1024, .f32⟩
  | 72 => ⟨S1x1024, .f32⟩
  | 73 => ⟨S32x1024, .f32⟩
  | 74 => ⟨S32x1024, .f32⟩
  | 75 => ⟨S32x256, .f32⟩
  | 76 => ⟨S32x256, .f32⟩
  | 77 => ⟨S32x256, .f32⟩
  | 78 => ⟨S32x256, .f32⟩
  | 79 => ⟨S32x256, .f32⟩
  | 80 => ⟨S32x256, .f32⟩
  | 81 => ⟨S_, .f32⟩
  | 82 => ⟨S32x256, .f32⟩
  | 83 => ⟨S32x256, .f32⟩
  | 84 => ⟨S_, .f32⟩
  | 85 => ⟨S32x256, .f32⟩
  | 86 => ⟨S32x256, .f32⟩
  | 87 => ⟨S32x256, .f32⟩
  | 88 => ⟨S32x256, .f32⟩
  | 89 => ⟨S32x256, .f32⟩
  | 90 => ⟨S_, .f32⟩
  | 91 => ⟨S32x256, .f32⟩
  | 92 => ⟨S32x256, .f32⟩
  | 93 => ⟨S_, .f32⟩
  | 94 => ⟨S32x256, .f32⟩
  | 95 => ⟨S32x256, .f32⟩
  | 96 => ⟨S32x256, .f32⟩
  | 97 => ⟨S32x256, .f32⟩
  | 98 => ⟨S32x256, .f32⟩
  | 99 => ⟨S32x256, .f32⟩
  | 100 => ⟨S32x256, .f32⟩
  | 101 => ⟨S_, .f32⟩
  | 102 => ⟨S32x256, .f32⟩
  | 103 => ⟨S32x256, .f32⟩
  | 104 => ⟨S_, .f32⟩
  | 105 => ⟨S32x256, .f32⟩
  | 106 => ⟨S32x256, .f32⟩
  | 107 => ⟨S32x256, .f32⟩
  | 108 => ⟨S32x256, .f32⟩
  | 109 => ⟨S16x2x256, .f32⟩
  | 110 => ⟨S_, .f32⟩
  | 111 => ⟨S16x256, .f32⟩
  | 112 => ⟨S16x2x256, .f32⟩
  | 113 => ⟨S_, .f32⟩
  | 114 => ⟨S16x256, .f32⟩
  | 115 => ⟨S_, .f32⟩
  | 116 => ⟨S16x256, .f32⟩
  | 117 => ⟨S16x512, .f32⟩
  | 118 => ⟨S512x1024, .f32⟩
  | 119 => ⟨S16x1024, .f32⟩
  | 120 => ⟨S1x1024, .f32⟩
  | 121 => ⟨S16x1024, .f32⟩
  | 122 => ⟨S16x1024, .f32⟩
  | 123 => ⟨S16x256, .f32⟩
  | 124 => ⟨S16x256, .f32⟩
  | 125 => ⟨S16x256, .f32⟩
  | 126 => ⟨S16x256, .f32⟩
  | 127 => ⟨S16x256, .f32⟩
  | _ => ⟨S131072x256, .f32⟩

abbrev hbmTy0_5 (i : Nat) : BufTy := match i % 128 with
  | 0 => ⟨S16x256, .f32⟩
  | 1 => ⟨S_, .f32⟩
  | 2 => ⟨S16x256, .f32⟩
  | 3 => ⟨S16x256, .f32⟩
  | 4 => ⟨S_, .f32⟩
  | 5 => ⟨S16x256, .f32⟩
  | 6 => ⟨S16x256, .f32⟩
  | 7 => ⟨S16x256, .f32⟩
  | 8 => ⟨S16x256, .f32⟩
  | 9 => ⟨S16x256, .f32⟩
  | 10 => ⟨S_, .f32⟩
  | 11 => ⟨S16x256, .f32⟩
  | 12 => ⟨S16x256, .f32⟩
  | 13 => ⟨S_, .f32⟩
  | 14 => ⟨S16x256, .f32⟩
  | 15 => ⟨S16x256, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S_, .f32⟩
  | 22 => ⟨S16x256, .f32⟩
  | 23 => ⟨S16x256, .f32⟩
  | 24 => ⟨S_, .f32⟩
  | 25 => ⟨S16x256, .f32⟩
  | 26 => ⟨S16x256, .f32⟩
  | 27 => ⟨S16x256, .f32⟩
  | 28 => ⟨S16x256, .f32⟩
  | 29 => ⟨S8x2x256, .f32⟩
  | 30 => ⟨S_, .f32⟩
  | 31 => ⟨S8x256, .f32⟩
  | 32 => ⟨S8x2x256, .f32⟩
  | 33 => ⟨S_, .f32⟩
  | 34 => ⟨S8x256, .f32⟩
  | 35 => ⟨S_, .f32⟩
  | 36 => ⟨S8x256, .f32⟩
  | 37 => ⟨S8x512, .f32⟩
  | 38 => ⟨S512x1024, .f32⟩
  | 39 => ⟨S8x1024, .f32⟩
  | 40 => ⟨S1x1024, .f32⟩
  | 41 => ⟨S8x1024, .f32⟩
  | 42 => ⟨S8x1024, .f32⟩
  | 43 => ⟨S8x256, .f32⟩
  | 44 => ⟨S8x256, .f32⟩
  | 45 => ⟨S8x256, .f32⟩
  | 46 => ⟨S8x256, .f32⟩
  | 47 => ⟨S8x256, .f32⟩
  | 48 => ⟨S8x256, .f32⟩
  | 49 => ⟨S_, .f32⟩
  | 50 => ⟨S8x256, .f32⟩
  | 51 => ⟨S8x256, .f32⟩
  | 52 => ⟨S_, .f32⟩
  | 53 => ⟨S8x256, .f32⟩
  | 54 => ⟨S8x256, .f32⟩
  | 55 => ⟨S8x256, .f32⟩
  | 56 => ⟨S8x256, .f32⟩
  | 57 => ⟨S8x256, .f32⟩
  | 58 => ⟨S_, .f32⟩
  | 59 => ⟨S8x256, .f32⟩
  | 60 => ⟨S8x256, .f32⟩
  | 61 => ⟨S_, .f32⟩
  | 62 => ⟨S8x256, .f32⟩
  | 63 => ⟨S8x256, .f32⟩
  | 64 => ⟨S8x256, .f32⟩
  | 65 => ⟨S8x256, .f32⟩
  | 66 => ⟨S8x256, .f32⟩
  | 67 => ⟨S8x256, .f32⟩
  | 68 => ⟨S8x256, .f32⟩
  | 69 => ⟨S_, .f32⟩
  | 70 => ⟨S8x256, .f32⟩
  | 71 => ⟨S8x256, .f32⟩
  | 72 => ⟨S_, .f32⟩
  | 73 => ⟨S8x256, .f32⟩
  | 74 => ⟨S8x256, .f32⟩
  | 75 => ⟨S8x256, .f32⟩
  | 76 => ⟨S8x256, .f32⟩
  | 77 => ⟨S4x2x256, .f32⟩
  | 78 => ⟨S_, .f32⟩
  | 79 => ⟨S4x256, .f32⟩
  | 80 => ⟨S4x2x256, .f32⟩
  | 81 => ⟨S_, .f32⟩
  | 82 => ⟨S4x256, .f32⟩
  | 83 => ⟨S_, .f32⟩
  | 84 => ⟨S4x256, .f32⟩
  | 85 => ⟨S4x512, .f32⟩
  | 86 => ⟨S512x1024, .f32⟩
  | 87 => ⟨S4x1024, .f32⟩
  | 88 => ⟨S1x1024, .f32⟩
  | 89 => ⟨S4x1024, .f32⟩
  | 90 => ⟨S4x1024, .f32⟩
  | 91 => ⟨S4x256, .f32⟩
  | 92 => ⟨S4x256, .f32⟩
  | 93 => ⟨S4x256, .f32⟩
  | 94 => ⟨S4x256, .f32⟩
  | 95 => ⟨S4x256, .f32⟩
  | 96 => ⟨S4x256, .f32⟩
  | 97 => ⟨S_, .f32⟩
  | 98 => ⟨S4x256, .f32⟩
  | 99 => ⟨S4x256, .f32⟩
  | 100 => ⟨S_, .f32⟩
  | 101 => ⟨S4x256, .f32⟩
  | 102 => ⟨S4x256, .f32⟩
  | 103 => ⟨S4x256, .f32⟩
  | 104 => ⟨S4x256, .f32⟩
  | 105 => ⟨S4x256, .f32⟩
  | 106 => ⟨S_, .f32⟩
  | 107 => ⟨S4x256, .f32⟩
  | 108 => ⟨S4x256, .f32⟩
  | 109 => ⟨S_, .f32⟩
  | 110 => ⟨S4x256, .f32⟩
  | 111 => ⟨S4x256, .f32⟩
  | 112 => ⟨S4x256, .f32⟩
  | 113 => ⟨S4x256, .f32⟩
  | 114 => ⟨S4x256, .f32⟩
  | 115 => ⟨S4x256, .f32⟩
  | 116 => ⟨S4x256, .f32⟩
  | 117 => ⟨S_, .f32⟩
  | 118 => ⟨S4x256, .f32⟩
  | 119 => ⟨S4x256, .f32⟩
  | 120 => ⟨S_, .f32⟩
  | 121 => ⟨S4x256, .f32⟩
  | 122 => ⟨S4x256, .f32⟩
  | 123 => ⟨S4x256, .f32⟩
  | 124 => ⟨S4x256, .f32⟩
  | 125 => ⟨S2x2x256, .f32⟩
  | 126 => ⟨S_, .f32⟩
  | 127 => ⟨S2x256, .f32⟩
  | _ => ⟨S131072x256, .f32⟩

abbrev hbmTy0_6 (i : Nat) : BufTy := match i % 128 with
  | 0 => ⟨S2x2x256, .f32⟩
  | 1 => ⟨S_, .f32⟩
  | 2 => ⟨S2x256, .f32⟩
  | 3 => ⟨S_, .f32⟩
  | 4 => ⟨S2x256, .f32⟩
  | 5 => ⟨S2x512, .f32⟩
  | 6 => ⟨S512x1024, .f32⟩
  | 7 => ⟨S2x1024, .f32⟩
  | 8 => ⟨S1x1024, .f32⟩
  | 9 => ⟨S2x1024, .f32⟩
  | 10 => ⟨S2x1024, .f32⟩
  | 11 => ⟨S2x256, .f32⟩
  | 12 => ⟨S2x256, .f32⟩
  | 13 => ⟨S2x256, .f32⟩
  | 14 => ⟨S2x256, .f32⟩
  | 15 => ⟨S2x256, .f32⟩
  | 16 => ⟨S2x256, .f32⟩
  | 17 => ⟨S_, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S2x256, .f32⟩
  | 24 => ⟨S2x256, .f32⟩
  | 25 => ⟨S2x256, .f32⟩
  | 26 => ⟨S_, .f32⟩
  | 27 => ⟨S2x256, .f32⟩
  | 28 => ⟨S2x256, .f32⟩
  | 29 => ⟨S_, .f32⟩
  | 30 => ⟨S2x256, .f32⟩
  | 31 => ⟨S2x256, .f32⟩
  | 32 => ⟨S2x256, .f32⟩
  | 33 => ⟨S2x256, .f32⟩
  | 34 => ⟨S2x256, .f32⟩
  | 35 => ⟨S2x256, .f32⟩
  | 36 => ⟨S2x256, .f32⟩
  | 37 => ⟨S_, .f32⟩
  | 38 => ⟨S2x256, .f32⟩
  | 39 => ⟨S2x256, .f32⟩
  | 40 => ⟨S_, .f32⟩
  | 41 => ⟨S2x256, .f32⟩
  | 42 => ⟨S2x256, .f32⟩
  | 43 => ⟨S2x256, .f32⟩
  | 44 => ⟨S2x256, .f32⟩
  | 45 => ⟨S1x2x256, .f32⟩
  | 46 => ⟨S_, .f32⟩
  | 47 => ⟨S1x256, .f32⟩
  | 48 => ⟨S1x2x256, .f32⟩
  | 49 => ⟨S_, .f32⟩
  | 50 => ⟨S1x256, .f32⟩
  | 51 => ⟨S_, .f32⟩
  | 52 => ⟨S1x256, .f32⟩
  | 53 => ⟨S1x512, .f32⟩
  | 54 => ⟨S512x1024, .f32⟩
  | 55 => ⟨S1x1024, .f32⟩
  | 56 => ⟨S1x1024, .f32⟩
  | 57 => ⟨S1x1024, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S_, .f32⟩
  | 77 => ⟨S1x256, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S_, .f32⟩
  | 88 => ⟨S1x256, .f32⟩
  | 89 => ⟨S1x256, .f32⟩
  | 90 => ⟨S1x256, .f32⟩
  | 91 => ⟨S1x256, .f32⟩
  | _ => ⟨S131072x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_18 : Ref sig .tc := ⟨.hbm, 113, rfl⟩
abbrev main_v91 : Ref sig .tc := ⟨.hbm, 114, rfl⟩
abbrev main_v92 : Ref sig .tc := ⟨.hbm, 115, rfl⟩
abbrev main_cst_19 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_20 : Ref sig .tc := ⟨.hbm, 122, rfl⟩
abbrev main_v98 : Ref sig .tc := ⟨.hbm, 123, rfl⟩
abbrev main_v99 : Ref sig .tc := ⟨.hbm, 124, rfl⟩
abbrev main_cst_21 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_22 : Ref sig .tc := ⟨.hbm, 133, rfl⟩
abbrev main_v107 : Ref sig .tc := ⟨.hbm, 134, rfl⟩
abbrev main_v108 : Ref sig .tc := ⟨.hbm, 135, rfl⟩
abbrev main_cst_23 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_24 : Ref sig .tc := ⟨.hbm, 142, rfl⟩
abbrev main_v114 : Ref sig .tc := ⟨.hbm, 143, rfl⟩
abbrev main_v115 : Ref sig .tc := ⟨.hbm, 144, rfl⟩
abbrev main_cst_25 : Ref sig .tc := ⟨.hbm, 145, rfl⟩
abbrev main_v116 : Ref sig .tc := ⟨.hbm, 146, rfl⟩
abbrev main_cst_26 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_27 : Ref sig .tc := ⟨.hbm, 161, rfl⟩
abbrev main_v130 : Ref sig .tc := ⟨.hbm, 162, rfl⟩
abbrev main_v131 : Ref sig .tc := ⟨.hbm, 163, rfl⟩
abbrev main_cst_28 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_29 : Ref sig .tc := ⟨.hbm, 170, rfl⟩
abbrev main_v137 : Ref sig .tc := ⟨.hbm, 171, rfl⟩
abbrev main_v138 : Ref sig .tc := ⟨.hbm, 172, rfl⟩
abbrev main_cst_30 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_31 : Ref sig .tc := ⟨.hbm, 181, rfl⟩
abbrev main_v146 : Ref sig .tc := ⟨.hbm, 182, rfl⟩
abbrev main_v147 : Ref sig .tc := ⟨.hbm, 183, rfl⟩
abbrev main_cst_32 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_33 : Ref sig .tc := ⟨.hbm, 190, rfl⟩
abbrev main_v153 : Ref sig .tc := ⟨.hbm, 191, rfl⟩
abbrev main_v154 : Ref sig .tc := ⟨.hbm, 192, rfl⟩
abbrev main_cst_34 : Ref sig .tc := ⟨.hbm, 193, rfl⟩
abbrev main_v155 : Ref sig .tc := ⟨.hbm, 194, rfl⟩
abbrev main_cst_35 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_cst_36 : Ref sig .tc := ⟨.hbm, 209, rfl⟩
abbrev main_v169 : Ref sig .tc := ⟨.hbm, 210, rfl⟩
abbrev main_v170 : Ref sig .tc := ⟨.hbm, 211, rfl⟩
abbrev main_cst_37 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_38 : Ref sig .tc := ⟨.hbm, 218, rfl⟩
abbrev main_v176 : Ref sig .tc := ⟨.hbm, 219, rfl⟩
abbrev main_v177 : Ref sig .tc := ⟨.hbm, 220, rfl⟩
abbrev main_cst_39 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_cst_40 : Ref sig .tc := ⟨.hbm, 229, rfl⟩
abbrev main_v185 : Ref sig .tc := ⟨.hbm, 230, rfl⟩
abbrev main_v186 : Ref sig .tc := ⟨.hbm, 231, rfl⟩
abbrev main_cst_41 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_42 : Ref sig .tc := ⟨.hbm, 238, rfl⟩
abbrev main_v192 : Ref sig .tc := ⟨.hbm, 239, rfl⟩
abbrev main_v193 : Ref sig .tc := ⟨.hbm, 240, rfl⟩
abbrev main_cst_43 : Ref sig .tc := ⟨.hbm, 241, rfl⟩
abbrev main_v194 : Ref sig .tc := ⟨.hbm, 242, rfl⟩
abbrev main_cst_44 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_cst_45 : Ref sig .tc := ⟨.hbm, 257, rfl⟩
abbrev main_v208 : Ref sig .tc := ⟨.hbm, 258, rfl⟩
abbrev main_v209 : Ref sig .tc := ⟨.hbm, 259, rfl⟩
abbrev main_cst_46 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_cst_47 : Ref sig .tc := ⟨.hbm, 266, rfl⟩
abbrev main_v215 : Ref sig .tc := ⟨.hbm, 267, rfl⟩
abbrev main_v216 : Ref sig .tc := ⟨.hbm, 268, rfl⟩
abbrev main_cst_48 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_cst_49 : Ref sig .tc := ⟨.hbm, 277, rfl⟩
abbrev main_v224 : Ref sig .tc := ⟨.hbm, 278, rfl⟩
abbrev main_v225 : Ref sig .tc := ⟨.hbm, 279, rfl⟩
abbrev main_cst_50 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_cst_51 : Ref sig .tc := ⟨.hbm, 286, rfl⟩
abbrev main_v231 : Ref sig .tc := ⟨.hbm, 287, rfl⟩
abbrev main_v232 : Ref sig .tc := ⟨.hbm, 288, rfl⟩
abbrev main_cst_52 : Ref sig .tc := ⟨.hbm, 289, rfl⟩
abbrev main_v233 : Ref sig .tc := ⟨.hbm, 290, rfl⟩
abbrev main_cst_53 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_cst_54 : Ref sig .tc := ⟨.hbm, 305, rfl⟩
abbrev main_v247 : Ref sig .tc := ⟨.hbm, 306, rfl⟩
abbrev main_v248 : Ref sig .tc := ⟨.hbm, 307, rfl⟩
abbrev main_cst_55 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_cst_56 : Ref sig .tc := ⟨.hbm, 314, rfl⟩
abbrev main_v254 : Ref sig .tc := ⟨.hbm, 315, rfl⟩
abbrev main_v255 : Ref sig .tc := ⟨.hbm, 316, rfl⟩
abbrev main_cst_57 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_cst_58 : Ref sig .tc := ⟨.hbm, 325, rfl⟩
abbrev main_v263 : Ref sig .tc := ⟨.hbm, 326, rfl⟩
abbrev main_v264 : Ref sig .tc := ⟨.hbm, 327, rfl⟩
abbrev main_cst_59 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_cst_60 : Ref sig .tc := ⟨.hbm, 334, rfl⟩
abbrev main_v270 : Ref sig .tc := ⟨.hbm, 335, rfl⟩
abbrev main_v271 : Ref sig .tc := ⟨.hbm, 336, rfl⟩
abbrev main_cst_61 : Ref sig .tc := ⟨.hbm, 337, rfl⟩
abbrev main_v272 : Ref sig .tc := ⟨.hbm, 338, rfl⟩
abbrev main_cst_62 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_cst_63 : Ref sig .tc := ⟨.hbm, 353, rfl⟩
abbrev main_v286 : Ref sig .tc := ⟨.hbm, 354, rfl⟩
abbrev main_v287 : Ref sig .tc := ⟨.hbm, 355, rfl⟩
abbrev main_cst_64 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_cst_65 : Ref sig .tc := ⟨.hbm, 362, rfl⟩
abbrev main_v293 : Ref sig .tc := ⟨.hbm, 363, rfl⟩
abbrev main_v294 : Ref sig .tc := ⟨.hbm, 364, rfl⟩
abbrev main_cst_66 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_cst_67 : Ref sig .tc := ⟨.hbm, 373, rfl⟩
abbrev main_v302 : Ref sig .tc := ⟨.hbm, 374, rfl⟩
abbrev main_v303 : Ref sig .tc := ⟨.hbm, 375, rfl⟩
abbrev main_cst_68 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_cst_69 : Ref sig .tc := ⟨.hbm, 382, rfl⟩
abbrev main_v309 : Ref sig .tc := ⟨.hbm, 383, rfl⟩
abbrev main_v310 : Ref sig .tc := ⟨.hbm, 384, rfl⟩
abbrev main_cst_70 : Ref sig .tc := ⟨.hbm, 385, rfl⟩
abbrev main_v311 : Ref sig .tc := ⟨.hbm, 386, rfl⟩
abbrev main_cst_71 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩
abbrev main_v321 : Ref sig .tc := ⟨.hbm, 397, rfl⟩
abbrev main_v322 : Ref sig .tc := ⟨.hbm, 398, rfl⟩
abbrev main_v323 : Ref sig .tc := ⟨.hbm, 399, rfl⟩
abbrev main_v324 : Ref sig .tc := ⟨.hbm, 400, rfl⟩
abbrev main_cst_72 : Ref sig .tc := ⟨.hbm, 401, rfl⟩
abbrev main_v325 : Ref sig .tc := ⟨.hbm, 402, rfl⟩
abbrev main_v326 : Ref sig .tc := ⟨.hbm, 403, rfl⟩
abbrev main_cst_73 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_cst_74 : Ref sig .tc := ⟨.hbm, 410, rfl⟩
abbrev main_v332 : Ref sig .tc := ⟨.hbm, 411, rfl⟩
abbrev main_v333 : Ref sig .tc := ⟨.hbm, 412, rfl⟩
abbrev main_cst_75 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_cst_76 : Ref sig .tc := ⟨.hbm, 421, rfl⟩
abbrev main_v341 : Ref sig .tc := ⟨.hbm, 422, rfl⟩
abbrev main_v342 : Ref sig .tc := ⟨.hbm, 423, rfl⟩
abbrev main_cst_77 : Ref sig .tc := ⟨.hbm, 424, rfl⟩
abbrev main_v343 : Ref sig .tc := ⟨.hbm, 425, rfl⟩
abbrev main_v344 : Ref sig .tc := ⟨.hbm, 426, rfl⟩
abbrev main_v345 : Ref sig .tc := ⟨.hbm, 427, rfl⟩
abbrev main_v346 : Ref sig .tc := ⟨.hbm, 428, rfl⟩
abbrev main_v347 : Ref sig .tc := ⟨.hbm, 429, rfl⟩
abbrev main_cst_78 : Ref sig .tc := ⟨.hbm, 430, rfl⟩
abbrev main_v348 : Ref sig .tc := ⟨.hbm, 431, rfl⟩
abbrev main_v349 : Ref sig .tc := ⟨.hbm, 432, rfl⟩
abbrev main_cst_79 : Ref sig .tc := ⟨.hbm, 433, rfl⟩
abbrev main_v350 : Ref sig .tc := ⟨.hbm, 434, rfl⟩
abbrev main_cst_80 : Ref sig .tc := ⟨.hbm, 435, rfl⟩
abbrev main_v351 : Ref sig .tc := ⟨.hbm, 436, rfl⟩
abbrev main_v352 : Ref sig .tc := ⟨.hbm, 437, rfl⟩
abbrev main_v353 : Ref sig .tc := ⟨.hbm, 438, rfl⟩
abbrev main_v354 : Ref sig .tc := ⟨.hbm, 439, rfl⟩
abbrev main_v355 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_cst_81 : Ref sig .tc := ⟨.hbm, 449, rfl⟩
abbrev main_v364 : Ref sig .tc := ⟨.hbm, 450, rfl⟩
abbrev main_v365 : Ref sig .tc := ⟨.hbm, 451, rfl⟩
abbrev main_cst_82 : Ref sig .tc := ⟨.hbm, 452, rfl⟩
abbrev main_v366 : Ref sig .tc := ⟨.hbm, 453, rfl⟩
abbrev main_v367 : Ref sig .tc := ⟨.hbm, 454, rfl⟩
abbrev main_v368 : Ref sig .tc := ⟨.hbm, 455, rfl⟩
abbrev main_v369 : Ref sig .tc := ⟨.hbm, 456, rfl⟩
abbrev main_v370 : Ref sig .tc := ⟨.hbm, 457, rfl⟩
abbrev main_cst_83 : Ref sig .tc := ⟨.hbm, 458, rfl⟩
abbrev main_v371 : Ref sig .tc := ⟨.hbm, 459, rfl⟩
abbrev main_v372 : Ref sig .tc := ⟨.hbm, 460, rfl⟩
abbrev main_cst_84 : Ref sig .tc := ⟨.hbm, 461, rfl⟩
abbrev main_v373 : Ref sig .tc := ⟨.hbm, 462, rfl⟩
abbrev main_v374 : Ref sig .tc := ⟨.hbm, 463, rfl⟩
abbrev main_v375 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_cst_85 : Ref sig .tc := ⟨.hbm, 469, rfl⟩
abbrev main_v380 : Ref sig .tc := ⟨.hbm, 470, rfl⟩
abbrev main_v381 : Ref sig .tc := ⟨.hbm, 471, rfl⟩
abbrev main_cst_86 : Ref sig .tc := ⟨.hbm, 472, rfl⟩
abbrev main_v382 : Ref sig .tc := ⟨.hbm, 473, rfl⟩
abbrev main_v383 : Ref sig .tc := ⟨.hbm, 474, rfl⟩
abbrev main_v384 : Ref sig .tc := ⟨.hbm, 475, rfl⟩
abbrev main_v385 : Ref sig .tc := ⟨.hbm, 476, rfl⟩
abbrev main_v386 : Ref sig .tc := ⟨.hbm, 477, rfl⟩
abbrev main_cst_87 : Ref sig .tc := ⟨.hbm, 478, rfl⟩
abbrev main_v387 : Ref sig .tc := ⟨.hbm, 479, rfl⟩
abbrev main_v388 : Ref sig .tc := ⟨.hbm, 480, rfl⟩
abbrev main_cst_88 : Ref sig .tc := ⟨.hbm, 481, rfl⟩
abbrev main_v389 : Ref sig .tc := ⟨.hbm, 482, rfl⟩
abbrev main_cst_89 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_v393 : Ref sig .tc := ⟨.hbm, 487, rfl⟩
abbrev main_v394 : Ref sig .tc := ⟨.hbm, 488, rfl⟩
abbrev main_v395 : Ref sig .tc := ⟨.hbm, 489, rfl⟩
abbrev main_v396 : Ref sig .tc := ⟨.hbm, 490, rfl⟩
abbrev main_v397 : Ref sig .tc := ⟨.hbm, 491, rfl⟩
abbrev main_v398 : Ref sig .tc := ⟨.hbm, 492, rfl⟩
abbrev main_v399 : Ref sig .tc := ⟨.hbm, 493, rfl⟩
abbrev main_v400 : Ref sig .tc := ⟨.hbm, 494, rfl⟩
abbrev main_v401 : Ref sig .tc := ⟨.hbm, 495, rfl⟩
abbrev main_v402 : Ref sig .tc := ⟨.hbm, 496, rfl⟩
abbrev main_cst_90 : Ref sig .tc := ⟨.hbm, 497, rfl⟩
abbrev main_v403 : Ref sig .tc := ⟨.hbm, 498, rfl⟩
abbrev main_v404 : Ref sig .tc := ⟨.hbm, 499, rfl⟩
abbrev main_cst_91 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_cst_92 : Ref sig .tc := ⟨.hbm, 506, rfl⟩
abbrev main_v410 : Ref sig .tc := ⟨.hbm, 507, rfl⟩
abbrev main_v411 : Ref sig .tc := ⟨.hbm, 508, rfl⟩
abbrev main_cst_93 : Ref sig .tc := ⟨.hbm, 509, rfl⟩
abbrev main_v412 : Ref sig .tc := ⟨.hbm, 510, rfl⟩
abbrev main_v413 : Ref sig .tc := ⟨.hbm, 511, rfl⟩
abbrev main_v414 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_cst_94 : Ref sig .tc := ⟨.hbm, 517, rfl⟩
abbrev main_v419 : Ref sig .tc := ⟨.hbm, 518, rfl⟩
abbrev main_v420 : Ref sig .tc := ⟨.hbm, 519, rfl⟩
abbrev main_cst_95 : Ref sig .tc := ⟨.hbm, 520, rfl⟩
abbrev main_v421 : Ref sig .tc := ⟨.hbm, 521, rfl⟩
abbrev main_v422 : Ref sig .tc := ⟨.hbm, 522, rfl⟩
abbrev main_v423 : Ref sig .tc := ⟨.hbm, 523, rfl⟩
abbrev main_v424 : Ref sig .tc := ⟨.hbm, 524, rfl⟩
abbrev main_v425 : Ref sig .tc := ⟨.hbm, 525, rfl⟩
abbrev main_cst_96 : Ref sig .tc := ⟨.hbm, 526, rfl⟩
abbrev main_v426 : Ref sig .tc := ⟨.hbm, 527, rfl⟩
abbrev main_v427 : Ref sig .tc := ⟨.hbm, 528, rfl⟩
abbrev main_cst_97 : Ref sig .tc := ⟨.hbm, 529, rfl⟩
abbrev main_v428 : Ref sig .tc := ⟨.hbm, 530, rfl⟩
abbrev main_cst_98 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_v434 : Ref sig .tc := ⟨.hbm, 537, rfl⟩
abbrev main_v435 : Ref sig .tc := ⟨.hbm, 538, rfl⟩
abbrev main_v436 : Ref sig .tc := ⟨.hbm, 539, rfl⟩
abbrev main_v437 : Ref sig .tc := ⟨.hbm, 540, rfl⟩
abbrev main_v438 : Ref sig .tc := ⟨.hbm, 541, rfl⟩
abbrev main_v439 : Ref sig .tc := ⟨.hbm, 542, rfl⟩
abbrev main_v440 : Ref sig .tc := ⟨.hbm, 543, rfl⟩
abbrev main_v441 : Ref sig .tc := ⟨.hbm, 544, rfl⟩
abbrev main_cst_99 : Ref sig .tc := ⟨.hbm, 545, rfl⟩
abbrev main_v442 : Ref sig .tc := ⟨.hbm, 546, rfl⟩
abbrev main_v443 : Ref sig .tc := ⟨.hbm, 547, rfl⟩
abbrev main_cst_100 : Ref sig .tc := ⟨.hbm, 548, rfl⟩
abbrev main_v444 : Ref sig .tc := ⟨.hbm, 549, rfl⟩
abbrev main_v445 : Ref sig .tc := ⟨.hbm, 550, rfl⟩
abbrev main_v446 : Ref sig .tc := ⟨.hbm, 551, rfl⟩
abbrev main_v447 : Ref sig .tc := ⟨.hbm, 552, rfl⟩
abbrev main_v448 : Ref sig .tc := ⟨.hbm, 553, rfl⟩
abbrev main_cst_101 : Ref sig .tc := ⟨.hbm, 554, rfl⟩
abbrev main_v449 : Ref sig .tc := ⟨.hbm, 555, rfl⟩
abbrev main_v450 : Ref sig .tc := ⟨.hbm, 556, rfl⟩
abbrev main_cst_102 : Ref sig .tc := ⟨.hbm, 557, rfl⟩
abbrev main_v451 : Ref sig .tc := ⟨.hbm, 558, rfl⟩
abbrev main_v452 : Ref sig .tc := ⟨.hbm, 559, rfl⟩
abbrev main_v453 : Ref sig .tc := ⟨.hbm, 560, rfl⟩
abbrev main_v454 : Ref sig .tc := ⟨.hbm, 561, rfl⟩
abbrev main_v455 : Ref sig .tc := ⟨.hbm, 562, rfl⟩
abbrev main_v456 : Ref sig .tc := ⟨.hbm, 563, rfl⟩
abbrev main_v457 : Ref sig .tc := ⟨.hbm, 564, rfl⟩
abbrev main_cst_103 : Ref sig .tc := ⟨.hbm, 565, rfl⟩
abbrev main_v458 : Ref sig .tc := ⟨.hbm, 566, rfl⟩
abbrev main_v459 : Ref sig .tc := ⟨.hbm, 567, rfl⟩
abbrev main_cst_104 : Ref sig .tc := ⟨.hbm, 568, rfl⟩
abbrev main_v460 : Ref sig .tc := ⟨.hbm, 569, rfl⟩
abbrev main_v461 : Ref sig .tc := ⟨.hbm, 570, rfl⟩
abbrev main_v462 : Ref sig .tc := ⟨.hbm, 571, rfl⟩
abbrev main_v463 : Ref sig .tc := ⟨.hbm, 572, rfl⟩
abbrev main_v464 : Ref sig .tc := ⟨.hbm, 573, rfl⟩
abbrev main_cst_105 : Ref sig .tc := ⟨.hbm, 574, rfl⟩
abbrev main_v465 : Ref sig .tc := ⟨.hbm, 575, rfl⟩
abbrev main_v466 : Ref sig .tc := ⟨.hbm, 576, rfl⟩
abbrev main_cst_106 : Ref sig .tc := ⟨.hbm, 577, rfl⟩
abbrev main_v467 : Ref sig .tc := ⟨.hbm, 578, rfl⟩
abbrev main_cst_107 : Ref sig .tc := ⟨.hbm, 579, rfl⟩
abbrev main_v468 : Ref sig .tc := ⟨.hbm, 580, rfl⟩
abbrev main_v469 : Ref sig .tc := ⟨.hbm, 581, rfl⟩
abbrev main_v470 : Ref sig .tc := ⟨.hbm, 582, rfl⟩
abbrev main_v471 : Ref sig .tc := ⟨.hbm, 583, rfl⟩
abbrev main_v472 : Ref sig .tc := ⟨.hbm, 584, rfl⟩
abbrev main_v473 : Ref sig .tc := ⟨.hbm, 585, rfl⟩
abbrev main_v474 : Ref sig .tc := ⟨.hbm, 586, rfl⟩
abbrev main_v475 : Ref sig .tc := ⟨.hbm, 587, rfl⟩
abbrev main_v476 : Ref sig .tc := ⟨.hbm, 588, rfl⟩
abbrev main_v477 : Ref sig .tc := ⟨.hbm, 589, rfl⟩
abbrev main_v478 : Ref sig .tc := ⟨.hbm, 590, rfl⟩
abbrev main_v479 : Ref sig .tc := ⟨.hbm, 591, rfl⟩
abbrev main_v480 : Ref sig .tc := ⟨.hbm, 592, rfl⟩
abbrev main_cst_108 : Ref sig .tc := ⟨.hbm, 593, rfl⟩
abbrev main_v481 : Ref sig .tc := ⟨.hbm, 594, rfl⟩
abbrev main_v482 : Ref sig .tc := ⟨.hbm, 595, rfl⟩
abbrev main_cst_109 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_v486 : Ref sig .tc := ⟨.hbm, 600, rfl⟩
abbrev main_v487 : Ref sig .tc := ⟨.hbm, 601, rfl⟩
abbrev main_cst_110 : Ref sig .tc := ⟨.hbm, 602, rfl⟩
abbrev main_v488 : Ref sig .tc := ⟨.hbm, 603, rfl⟩
abbrev main_v489 : Ref sig .tc := ⟨.hbm, 604, rfl⟩
abbrev main_cst_111 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_v493 : Ref sig .tc := ⟨.hbm, 609, rfl⟩
abbrev main_v494 : Ref sig .tc := ⟨.hbm, 610, rfl⟩
abbrev main_v495 : Ref sig .tc := ⟨.hbm, 611, rfl⟩
abbrev main_v496 : Ref sig .tc := ⟨.hbm, 612, rfl⟩
abbrev main_cst_112 : Ref sig .tc := ⟨.hbm, 613, rfl⟩
abbrev main_v497 : Ref sig .tc := ⟨.hbm, 614, rfl⟩
abbrev main_v498 : Ref sig .tc := ⟨.hbm, 615, rfl⟩
abbrev main_cst_113 : Ref sig .tc := ⟨.hbm, 616, rfl⟩
abbrev main_v499 : Ref sig .tc := ⟨.hbm, 617, rfl⟩
abbrev main_v500 : Ref sig .tc := ⟨.hbm, 618, rfl⟩
abbrev main_v501 : Ref sig .tc := ⟨.hbm, 619, rfl⟩
abbrev main_v502 : Ref sig .tc := ⟨.hbm, 620, rfl⟩
abbrev main_v503 : Ref sig .tc := ⟨.hbm, 621, rfl⟩
abbrev main_cst_114 : Ref sig .tc := ⟨.hbm, 622, rfl⟩
abbrev main_v504 : Ref sig .tc := ⟨.hbm, 623, rfl⟩
abbrev main_v505 : Ref sig .tc := ⟨.hbm, 624, rfl⟩
abbrev main_cst_115 : Ref sig .tc := ⟨.hbm, 625, rfl⟩
abbrev main_v506 : Ref sig .tc := ⟨.hbm, 626, rfl⟩
abbrev main_cst_116 : Ref sig .tc := ⟨.hbm, 627, rfl⟩
abbrev main_v507 : Ref sig .tc := ⟨.hbm, 628, rfl⟩
abbrev main_v508 : Ref sig .tc := ⟨.hbm, 629, rfl⟩
abbrev main_v509 : Ref sig .tc := ⟨.hbm, 630, rfl⟩
abbrev main_v510 : Ref sig .tc := ⟨.hbm, 631, rfl⟩
abbrev main_v511 : Ref sig .tc := ⟨.hbm, 632, rfl⟩
abbrev main_v512 : Ref sig .tc := ⟨.hbm, 633, rfl⟩
abbrev main_v513 : Ref sig .tc := ⟨.hbm, 634, rfl⟩
abbrev main_v514 : Ref sig .tc := ⟨.hbm, 635, rfl⟩
abbrev main_v515 : Ref sig .tc := ⟨.hbm, 636, rfl⟩
abbrev main_v516 : Ref sig .tc := ⟨.hbm, 637, rfl⟩
abbrev main_v517 : Ref sig .tc := ⟨.hbm, 638, rfl⟩
abbrev main_v518 : Ref sig .tc := ⟨.hbm, 639, rfl⟩
abbrev main_v519 : Ref sig .tc := ⟨.hbm, 640, rfl⟩
abbrev main_cst_117 : Ref sig .tc := ⟨.hbm, 641, rfl⟩
abbrev main_v520 : Ref sig .tc := ⟨.hbm, 642, rfl⟩
abbrev main_v521 : Ref sig .tc := ⟨.hbm, 643, rfl⟩
abbrev main_cst_118 : Ref sig .tc := ⟨.hbm, 644, rfl⟩
abbrev main_v522 : Ref sig .tc := ⟨.hbm, 645, rfl⟩
abbrev main_v523 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_cst_119 : Ref sig .tc := ⟨.hbm, 650, rfl⟩
abbrev main_v527 : Ref sig .tc := ⟨.hbm, 651, rfl⟩
abbrev main_v528 : Ref sig .tc := ⟨.hbm, 652, rfl⟩
abbrev main_cst_120 : Ref sig .tc := ⟨.hbm, 653, rfl⟩
abbrev main_v529 : Ref sig .tc := ⟨.hbm, 654, rfl⟩
abbrev main_v530 : Ref sig .tc := ⟨.hbm, 655, rfl⟩
abbrev main_v531 : Ref sig .tc := ⟨.hbm, 656, rfl⟩
abbrev main_v532 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_cst_121 : Ref sig .tc := ⟨.hbm, 661, rfl⟩
abbrev main_v536 : Ref sig .tc := ⟨.hbm, 662, rfl⟩
abbrev main_v537 : Ref sig .tc := ⟨.hbm, 663, rfl⟩
abbrev main_cst_122 : Ref sig .tc := ⟨.hbm, 664, rfl⟩
abbrev main_v538 : Ref sig .tc := ⟨.hbm, 665, rfl⟩
abbrev main_v539 : Ref sig .tc := ⟨.hbm, 666, rfl⟩
abbrev main_v540 : Ref sig .tc := ⟨.hbm, 667, rfl⟩
abbrev main_v541 : Ref sig .tc := ⟨.hbm, 668, rfl⟩
abbrev main_v542 : Ref sig .tc := ⟨.hbm, 669, rfl⟩
abbrev main_cst_123 : Ref sig .tc := ⟨.hbm, 670, rfl⟩
abbrev main_v543 : Ref sig .tc := ⟨.hbm, 671, rfl⟩
abbrev main_v544 : Ref sig .tc := ⟨.hbm, 672, rfl⟩
abbrev main_cst_124 : Ref sig .tc := ⟨.hbm, 673, rfl⟩
abbrev main_v545 : Ref sig .tc := ⟨.hbm, 674, rfl⟩
abbrev main_cst_125 : Ref sig .tc := ⟨.hbm, 675, rfl⟩
abbrev main_v546 : Ref sig .tc := ⟨.hbm, 676, rfl⟩
abbrev main_v547 : Ref sig .tc := ⟨.hbm, 677, rfl⟩
abbrev main_v548 : Ref sig .tc := ⟨.hbm, 678, rfl⟩
abbrev main_v549 : Ref sig .tc := ⟨.hbm, 679, rfl⟩
abbrev main_v550 : Ref sig .tc := ⟨.hbm, 680, rfl⟩
abbrev main_v551 : Ref sig .tc := ⟨.hbm, 681, rfl⟩
abbrev main_v552 : Ref sig .tc := ⟨.hbm, 682, rfl⟩
abbrev main_v553 : Ref sig .tc := ⟨.hbm, 683, rfl⟩
abbrev main_v554 : Ref sig .tc := ⟨.hbm, 684, rfl⟩
abbrev main_v555 : Ref sig .tc := ⟨.hbm, 685, rfl⟩
abbrev main_v556 : Ref sig .tc := ⟨.hbm, 686, rfl⟩
abbrev main_v557 : Ref sig .tc := ⟨.hbm, 687, rfl⟩
abbrev main_v558 : Ref sig .tc := ⟨.hbm, 688, rfl⟩
abbrev main_cst_126 : Ref sig .tc := ⟨.hbm, 689, rfl⟩
abbrev main_v559 : Ref sig .tc := ⟨.hbm, 690, rfl⟩
abbrev main_v560 : Ref sig .tc := ⟨.hbm, 691, rfl⟩
abbrev main_cst_127 : Ref sig .tc := ⟨.hbm, 692, rfl⟩
abbrev main_v561 : Ref sig .tc := ⟨.hbm, 693, rfl⟩
abbrev main_v562 : Ref sig .tc := ⟨.hbm, 694, rfl⟩
abbrev main_v563 : Ref sig .tc := ⟨.hbm, 695, rfl⟩
abbrev main_v564 : Ref sig .tc := ⟨.hbm, 696, rfl⟩
abbrev main_v565 : Ref sig .tc := ⟨.hbm, 697, rfl⟩
abbrev main_cst_128 : Ref sig .tc := ⟨.hbm, 698, rfl⟩
abbrev main_v566 : Ref sig .tc := ⟨.hbm, 699, rfl⟩
abbrev main_v567 : Ref sig .tc := ⟨.hbm, 700, rfl⟩
abbrev main_cst_129 : Ref sig .tc := ⟨.hbm, 701, rfl⟩
abbrev main_v568 : Ref sig .tc := ⟨.hbm, 702, rfl⟩
abbrev main_v569 : Ref sig .tc := ⟨.hbm, 703, rfl⟩
abbrev main_v570 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_v574 : Ref sig .tc := ⟨.hbm, 708, rfl⟩
abbrev main_cst_130 : Ref sig .tc := ⟨.hbm, 709, rfl⟩
abbrev main_v575 : Ref sig .tc := ⟨.hbm, 710, rfl⟩
abbrev main_v576 : Ref sig .tc := ⟨.hbm, 711, rfl⟩
abbrev main_cst_131 : Ref sig .tc := ⟨.hbm, 712, rfl⟩
abbrev main_v577 : Ref sig .tc := ⟨.hbm, 713, rfl⟩
abbrev main_v578 : Ref sig .tc := ⟨.hbm, 714, rfl⟩
abbrev main_v579 : Ref sig .tc := ⟨.hbm, 715, rfl⟩
abbrev main_v580 : Ref sig .tc := ⟨.hbm, 716, rfl⟩
abbrev main_v581 : Ref sig .tc := ⟨.hbm, 717, rfl⟩
abbrev main_cst_132 : Ref sig .tc := ⟨.hbm, 718, rfl⟩
abbrev main_v582 : Ref sig .tc := ⟨.hbm, 719, rfl⟩
abbrev main_v583 : Ref sig .tc := ⟨.hbm, 720, rfl⟩
abbrev main_cst_133 : Ref sig .tc := ⟨.hbm, 721, rfl⟩
abbrev main_v584 : Ref sig .tc := ⟨.hbm, 722, rfl⟩
abbrev main_cst_134 : Ref sig .tc := ⟨.hbm, 723, rfl⟩
abbrev main_v585 : Ref sig .tc := ⟨.hbm, 724, rfl⟩
abbrev main_v586 : Ref sig .tc := ⟨.hbm, 725, rfl⟩
abbrev main_v587 : Ref sig .tc := ⟨.hbm, 726, rfl⟩
abbrev main_v588 : Ref sig .tc := ⟨.hbm, 727, rfl⟩
abbrev main_v589 : Ref sig .tc := ⟨.hbm, 728, rfl⟩
abbrev main_v590 : Ref sig .tc := ⟨.hbm, 729, rfl⟩
abbrev main_v591 : Ref sig .tc := ⟨.hbm, 730, rfl⟩
abbrev main_v592 : Ref sig .tc := ⟨.hbm, 731, rfl⟩
abbrev main_v593 : Ref sig .tc := ⟨.hbm, 732, rfl⟩
abbrev main_v594 : Ref sig .tc := ⟨.hbm, 733, rfl⟩
abbrev main_v595 : Ref sig .tc := ⟨.hbm, 734, rfl⟩
abbrev main_v596 : Ref sig .tc := ⟨.hbm, 735, rfl⟩
abbrev main_v597 : Ref sig .tc := ⟨.hbm, 736, rfl⟩
abbrev main_cst_135 : Ref sig .tc := ⟨.hbm, 737, rfl⟩
abbrev main_v598 : Ref sig .tc := ⟨.hbm, 738, rfl⟩
abbrev main_v599 : Ref sig .tc := ⟨.hbm, 739, rfl⟩
abbrev main_cst_136 : Ref sig .tc := ⟨.hbm, 740, rfl⟩
abbrev main_v600 : Ref sig .tc := ⟨.hbm, 741, rfl⟩
abbrev main_v601 : Ref sig .tc := ⟨.hbm, 742, rfl⟩
abbrev main_v602 : Ref sig .tc := ⟨.hbm, 743, rfl⟩
abbrev main_v603 : Ref sig .tc := ⟨.hbm, 744, rfl⟩
abbrev main_v604 : Ref sig .tc := ⟨.hbm, 745, rfl⟩
abbrev main_cst_137 : Ref sig .tc := ⟨.hbm, 746, rfl⟩
abbrev main_v605 : Ref sig .tc := ⟨.hbm, 747, rfl⟩
abbrev main_v606 : Ref sig .tc := ⟨.hbm, 748, rfl⟩
abbrev main_cst_138 : Ref sig .tc := ⟨.hbm, 749, rfl⟩
abbrev main_v607 : Ref sig .tc := ⟨.hbm, 750, rfl⟩
abbrev main_v608 : Ref sig .tc := ⟨.hbm, 751, rfl⟩
abbrev main_v609 : Ref sig .tc := ⟨.hbm, 752, rfl⟩
abbrev main_v610 : Ref sig .tc := ⟨.hbm, 753, rfl⟩
abbrev main_v611 : Ref sig .tc := ⟨.hbm, 754, rfl⟩
abbrev main_v612 : Ref sig .tc := ⟨.hbm, 755, rfl⟩
abbrev main_v613 : Ref sig .tc := ⟨.hbm, 756, rfl⟩
abbrev main_cst_139 : Ref sig .tc := ⟨.hbm, 757, rfl⟩
abbrev main_v614 : Ref sig .tc := ⟨.hbm, 758, rfl⟩
abbrev main_v615 : Ref sig .tc := ⟨.hbm, 759, rfl⟩
abbrev main_cst_140 : Ref sig .tc := ⟨.hbm, 760, rfl⟩
abbrev main_v616 : Ref sig .tc := ⟨.hbm, 761, rfl⟩
abbrev main_v617 : Ref sig .tc := ⟨.hbm, 762, rfl⟩
abbrev main_v618 : Ref sig .tc := ⟨.hbm, 763, rfl⟩
abbrev main_v619 : Ref sig .tc := ⟨.hbm, 764, rfl⟩
abbrev main_v620 : Ref sig .tc := ⟨.hbm, 765, rfl⟩
abbrev main_cst_141 : Ref sig .tc := ⟨.hbm, 766, rfl⟩
abbrev main_v621 : Ref sig .tc := ⟨.hbm, 767, rfl⟩
abbrev main_v622 : Ref sig .tc := ⟨.hbm, 768, rfl⟩
abbrev main_cst_142 : Ref sig .tc := ⟨.hbm, 769, rfl⟩
abbrev main_v623 : Ref sig .tc := ⟨.hbm, 770, rfl⟩
abbrev main_cst_143 : Ref sig .tc := ⟨.hbm, 771, rfl⟩
abbrev main_v624 : Ref sig .tc := ⟨.hbm, 772, rfl⟩
abbrev main_v625 : Ref sig .tc := ⟨.hbm, 773, rfl⟩
abbrev main_v626 : Ref sig .tc := ⟨.hbm, 774, rfl⟩
abbrev main_v627 : Ref sig .tc := ⟨.hbm, 775, rfl⟩
abbrev main_v628 : Ref sig .tc := ⟨.hbm, 776, rfl⟩
abbrev main_v629 : Ref sig .tc := ⟨.hbm, 777, rfl⟩
abbrev main_v630 : Ref sig .tc := ⟨.hbm, 778, rfl⟩
abbrev main_v631 : Ref sig .tc := ⟨.hbm, 779, rfl⟩
abbrev main_v632 : Ref sig .tc := ⟨.hbm, 780, rfl⟩
abbrev main_v633 : Ref sig .tc := ⟨.hbm, 781, rfl⟩
abbrev main_v634 : Ref sig .tc := ⟨.hbm, 782, rfl⟩
abbrev main_v635 : Ref sig .tc := ⟨.hbm, 783, rfl⟩
abbrev main_v636 : Ref sig .tc := ⟨.hbm, 784, rfl⟩
abbrev main_cst_144 : Ref sig .tc := ⟨.hbm, 785, rfl⟩
abbrev main_v637 : Ref sig .tc := ⟨.hbm, 786, rfl⟩
abbrev main_v638 : Ref sig .tc := ⟨.hbm, 787, rfl⟩
abbrev main_cst_145 : Ref sig .tc := ⟨.hbm, 788, rfl⟩
abbrev main_v639 : Ref sig .tc := ⟨.hbm, 789, rfl⟩
abbrev main_v640 : Ref sig .tc := ⟨.hbm, 790, rfl⟩
abbrev main_v641 : Ref sig .tc := ⟨.hbm, 791, rfl⟩
abbrev main_v642 : Ref sig .tc := ⟨.hbm, 792, rfl⟩
abbrev main_v643 : Ref sig .tc := ⟨.hbm, 793, rfl⟩
abbrev main_cst_146 : Ref sig .tc := ⟨.hbm, 794, rfl⟩
abbrev main_v644 : Ref sig .tc := ⟨.hbm, 795, rfl⟩
abbrev main_v645 : Ref sig .tc := ⟨.hbm, 796, rfl⟩
abbrev main_cst_147 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_v649 : Ref sig .tc := ⟨.hbm, 801, rfl⟩
abbrev main_v650 : Ref sig .tc := ⟨.hbm, 802, rfl⟩
abbrev main_v651 : Ref sig .tc := ⟨.hbm, 803, rfl⟩
abbrev main_v652 : Ref sig .tc := ⟨.hbm, 804, rfl⟩
abbrev main_cst_148 : Ref sig .tc := ⟨.hbm, 805, rfl⟩
abbrev main_v653 : Ref sig .tc := ⟨.hbm, 806, rfl⟩
abbrev main_v654 : Ref sig .tc := ⟨.hbm, 807, rfl⟩
abbrev main_cst_149 : Ref sig .tc := ⟨.hbm, 808, rfl⟩
abbrev main_v655 : Ref sig .tc := ⟨.hbm, 809, rfl⟩
abbrev main_v656 : Ref sig .tc := ⟨.hbm, 810, rfl⟩
abbrev main_v657 : Ref sig .tc := ⟨.hbm, 811, rfl⟩
abbrev main_v658 : Ref sig .tc := ⟨.hbm, 812, rfl⟩
abbrev main_v659 : Ref sig .tc := ⟨.hbm, 813, rfl⟩
abbrev main_cst_150 : Ref sig .tc := ⟨.hbm, 814, rfl⟩
abbrev main_v660 : Ref sig .tc := ⟨.hbm, 815, rfl⟩
abbrev main_v661 : Ref sig .tc := ⟨.hbm, 816, rfl⟩
abbrev main_cst_151 : Ref sig .tc := ⟨.hbm, 817, rfl⟩
abbrev main_v662 : Ref sig .tc := ⟨.hbm, 818, rfl⟩
abbrev main_cst_152 : Ref sig .tc := ⟨.hbm, 819, rfl⟩
abbrev main_v663 : Ref sig .tc := ⟨.hbm, 820, rfl⟩
abbrev main_v664 : Ref sig .tc := ⟨.hbm, 821, rfl⟩
abbrev main_v665 : Ref sig .tc := ⟨.hbm, 822, rfl⟩
abbrev main_v666 : Ref sig .tc := ⟨.hbm, 823, rfl⟩
abbrev main_v667 : Ref sig .tc := ⟨.hbm, 824, rfl⟩
abbrev main_v668 : Ref sig .tc := ⟨.hbm, 825, rfl⟩
abbrev main_v669 : Ref sig .tc := ⟨.hbm, 826, rfl⟩
abbrev main_v670 : Ref sig .tc := ⟨.hbm, 827, rfl⟩
abbrev main_v671 : Ref sig .tc := ⟨.hbm, 828, rfl⟩
abbrev main_v672 : Ref sig .tc := ⟨.hbm, 829, rfl⟩
abbrev main_v673 : Ref sig .tc := ⟨.hbm, 830, rfl⟩
abbrev main_v674 : Ref sig .tc := ⟨.hbm, 831, rfl⟩
abbrev main_cst_153 : Ref sig .tc := ⟨.hbm, 832, rfl⟩
abbrev main_v675 : Ref sig .tc := ⟨.hbm, 833, rfl⟩
abbrev main_v676 : Ref sig .tc := ⟨.hbm, 834, rfl⟩
abbrev main_cst_154 : Ref sig .tc := ⟨.hbm, 835, rfl⟩
abbrev main_v677 : Ref sig .tc := ⟨.hbm, 836, rfl⟩
abbrev main_v678 : Ref sig .tc := ⟨.hbm, 837, rfl⟩
abbrev main_v679 : Ref sig .tc := ⟨.hbm, 838, rfl⟩
abbrev main_v680 : Ref sig .tc := ⟨.hbm, 839, rfl⟩
abbrev main_v681 : Ref sig .tc := ⟨.hbm, 840, rfl⟩
abbrev main_cst_155 : Ref sig .tc := ⟨.hbm, 841, rfl⟩
abbrev main_v682 : Ref sig .tc := ⟨.hbm, 842, rfl⟩
abbrev main_v683 : Ref sig .tc := ⟨.hbm, 843, rfl⟩
abbrev main_cst_156 : Ref sig .tc := ⟨.hbm, 844, rfl⟩
abbrev main_v684 : Ref sig .tc := ⟨.hbm, 845, rfl⟩
abbrev main_v685 : Ref sig .tc := ⟨.hbm, 846, rfl⟩
abbrev main_v686 : Ref sig .tc := ⟨.hbm, 847, rfl⟩
abbrev main_v687 : Ref sig .tc := ⟨.hbm, 848, rfl⟩
abbrev main_v688 : Ref sig .tc := ⟨.hbm, 849, rfl⟩
abbrev main_v689 : Ref sig .tc := ⟨.hbm, 850, rfl⟩
abbrev main_v690 : Ref sig .tc := ⟨.hbm, 851, rfl⟩
abbrev main_cst_157 : Ref sig .tc := ⟨.hbm, 852, rfl⟩
abbrev main_v691 : Ref sig .tc := ⟨.hbm, 853, rfl⟩
abbrev main_v692 : Ref sig .tc := ⟨.hbm, 854, rfl⟩
abbrev main_cst_158 : Ref sig .tc := ⟨.hbm, 855, rfl⟩
abbrev main_v693 : Ref sig .tc := ⟨.hbm, 856, rfl⟩
abbrev main_v694 : Ref sig .tc := ⟨.hbm, 857, rfl⟩
abbrev main_v695 : Ref sig .tc := ⟨.hbm, 858, rfl⟩
abbrev main_v696 : Ref sig .tc := ⟨.hbm, 859, rfl⟩

abbrev nD : Nat := 1
abbrev τ : Topo := Topo.v7x

variable {F : FTy → Type} [FloatOps F]

class Facts₀ : Prop where
  bcast_S_S131072x256 : S_.BroadcastsInDim S131072x256 (![] : Fin 0 → Fin S131072x256.rank)
  concatenates_S131072x256_S131072x256_S131072x512_d1 : Shape.Concatenates [S131072x256, S131072x256] S131072x512 1
  transposes_S1024x512_S512x1024_1_0 : S1024x512.Transposes [1, 0] S512x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  shapeCasts_S131072x256_S65536x2x256 : S131072x256.ShapeCasts S65536x2x256
  reducesTo_S65536x2x256_S65536x256_d1 : S65536x2x256.ReducesTo [1] S65536x256
  h_S_ : 0 < S_.numel
  bcast_S_S65536x256 : S_.BroadcastsInDim S65536x256 (![] : Fin 0 → Fin S65536x256.rank)
  concatenates_S65536x256_S65536x256_S65536x512_d1 : Shape.Concatenates [S65536x256, S65536x256] S65536x512 1
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  shapeCasts_S65536x256_S32768x2x256 : S65536x256.ShapeCasts S32768x2x256
  reducesTo_S32768x2x256_S32768x256_d1 : S32768x2x256.ReducesTo [1] S32768x256
  bcast_S_S32768x256 : S_.BroadcastsInDim S32768x256 (![] : Fin 0 → Fin S32768x256.rank)
  concatenates_S32768x256_S32768x256_S32768x512_d1 : Shape.Concatenates [S32768x256, S32768x256] S32768x512 1
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  shapeCasts_S32768x256_S16384x2x256 : S32768x256.ShapeCasts S16384x2x256
  reducesTo_S16384x2x256_S16384x256_d1 : S16384x2x256.ReducesTo [1] S16384x256
  bcast_S_S16384x256 : S_.BroadcastsInDim S16384x256 (![] : Fin 0 → Fin S16384x256.rank)
  concatenates_S16384x256_S16384x256_S16384x512_d1 : Shape.Concatenates [S16384x256, S16384x256] S16384x512 1
  bcast_S1x1024_S16384x1024_0_1 : S1x1024.BroadcastsInDim S16384x1024 (![0, 1] : Fin 2 → Fin S16384x1024.rank)
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  shapeCasts_S16384x256_S8192x2x256 : S16384x256.ShapeCasts S8192x2x256
  reducesTo_S8192x2x256_S8192x256_d1 : S8192x2x256.ReducesTo [1] S8192x256
  bcast_S_S8192x256 : S_.BroadcastsInDim S8192x256 (![] : Fin 0 → Fin S8192x256.rank)
  concatenates_S8192x256_S8192x256_S8192x512_d1 : Shape.Concatenates [S8192x256, S8192x256] S8192x512 1
  bcast_S1x1024_S8192x1024_0_1 : S1x1024.BroadcastsInDim S8192x1024 (![0, 1] : Fin 2 → Fin S8192x1024.rank)
  slices_S8192x1024_S8192x256_0_0 : S8192x1024.Slices ![0, 0] S8192x256
  slices_S8192x1024_S8192x256_0_256 : S8192x1024.Slices ![0, 256] S8192x256
  slices_S8192x1024_S8192x256_0_512 : S8192x1024.Slices ![0, 512] S8192x256
  slices_S8192x1024_S8192x256_0_768 : S8192x1024.Slices ![0, 768] S8192x256
  shapeCasts_S8192x256_S4096x2x256 : S8192x256.ShapeCasts S4096x2x256
  reducesTo_S4096x2x256_S4096x256_d1 : S4096x2x256.ReducesTo [1] S4096x256
  bcast_S_S4096x256 : S_.BroadcastsInDim S4096x256 (![] : Fin 0 → Fin S4096x256.rank)
  concatenates_S4096x256_S4096x256_S4096x512_d1 : Shape.Concatenates [S4096x256, S4096x256] S4096x512 1
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  shapeCasts_S4096x256_S2048x2x256 : S4096x256.ShapeCasts S2048x2x256
  reducesTo_S2048x2x256_S2048x256_d1 : S2048x2x256.ReducesTo [1] S2048x256
  bcast_S_S2048x256 : S_.BroadcastsInDim S2048x256 (![] : Fin 0 → Fin S2048x256.rank)
  concatenates_S2048x256_S2048x256_S2048x512_d1 : Shape.Concatenates [S2048x256, S2048x256] S2048x512 1
  bcast_S1x1024_S2048x1024_0_1 : S1x1024.BroadcastsInDim S2048x1024 (![0, 1] : Fin 2 → Fin S2048x1024.rank)
  slices_S2048x1024_S2048x256_0_0 : S2048x1024.Slices ![0, 0] S2048x256
  slices_S2048x1024_S2048x256_0_256 : S2048x1024.Slices ![0, 256] S2048x256
  slices_S2048x1024_S2048x256_0_512 : S2048x1024.Slices ![0, 512] S2048x256
  slices_S2048x1024_S2048x256_0_768 : S2048x1024.Slices ![0, 768] S2048x256
  shapeCasts_S2048x256_S1024x2x256 : S2048x256.ShapeCasts S1024x2x256
  reducesTo_S1024x2x256_S1024x256_d1 : S1024x2x256.ReducesTo [1] S1024x256
  bcast_S_S1024x256 : S_.BroadcastsInDim S1024x256 (![] : Fin 0 → Fin S1024x256.rank)
  concatenates_S1024x256_S1024x256_S1024x512_d1 : Shape.Concatenates [S1024x256, S1024x256] S1024x512 1
  bcast_S1x1024_S1024x1024_0_1 : S1x1024.BroadcastsInDim S1024x1024 (![0, 1] : Fin 2 → Fin S1024x1024.rank)
  slices_S1024x1024_S1024x256_0_0 : S1024x1024.Slices ![0, 0] S1024x256
  slices_S1024x1024_S1024x256_0_256 : S1024x1024.Slices ![0, 256] S1024x256
  slices_S1024x1024_S1024x256_0_512 : S1024x1024.Slices ![0, 512] S1024x256
  slices_S1024x1024_S1024x256_0_768 : S1024x1024.Slices ![0, 768] S1024x256
  shapeCasts_S1024x256_S512x2x256 : S1024x256.ShapeCasts S512x2x256
  reducesTo_S512x2x256_S512x256_d1 : S512x2x256.ReducesTo [1] S512x256
  bcast_S_S512x256 : S_.BroadcastsInDim S512x256 (![] : Fin 0 → Fin S512x256.rank)
  concatenates_S512x256_S512x256_S512x512_d1 : Shape.Concatenates [S512x256, S512x256] S512x512 1
  bcast_S1x1024_S512x1024_0_1 : S1x1024.BroadcastsInDim S512x1024 (![0, 1] : Fin 2 → Fin S512x1024.rank)
  slices_S512x1024_S512x256_0_0 : S512x1024.Slices ![0, 0] S512x256
  slices_S512x1024_S512x256_0_256 : S512x1024.Slices ![0, 256] S512x256
  slices_S512x1024_S512x256_0_512 : S512x1024.Slices ![0, 512] S512x256
  slices_S512x1024_S512x256_0_768 : S512x1024.Slices ![0, 768] S512x256
  shapeCasts_S512x256_S256x2x256 : S512x256.ShapeCasts S256x2x256
  reducesTo_S256x2x256_S256x256_d1 : S256x2x256.ReducesTo [1] S256x256
  bcast_S_S256x256 : S_.BroadcastsInDim S256x256 (![] : Fin 0 → Fin S256x256.rank)
  concatenates_S256x256_S256x256_S256x512_d1 : Shape.Concatenates [S256x256, S256x256] S256x512 1
  bcast_S1x1024_S256x1024_0_1 : S1x1024.BroadcastsInDim S256x1024 (![0, 1] : Fin 2 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  shapeCasts_S256x256_S128x2x256 : S256x256.ShapeCasts S128x2x256
  reducesTo_S128x2x256_S128x256_d1 : S128x2x256.ReducesTo [1] S128x256
  bcast_S_S128x256 : S_.BroadcastsInDim S128x256 (![] : Fin 0 → Fin S128x256.rank)
  concatenates_S128x256_S128x256_S128x512_d1 : Shape.Concatenates [S128x256, S128x256] S128x512 1
  bcast_S1x1024_S128x1024_0_1 : S1x1024.BroadcastsInDim S128x1024 (![0, 1] : Fin 2 → Fin S128x1024.rank)
  slices_S128x1024_S128x256_0_0 : S128x1024.Slices ![0, 0] S128x256
  slices_S128x1024_S128x256_0_256 : S128x1024.Slices ![0, 256] S128x256
  slices_S128x1024_S128x256_0_512 : S128x1024.Slices ![0, 512] S128x256
  slices_S128x1024_S128x256_0_768 : S128x1024.Slices ![0, 768] S128x256
  shapeCasts_S128x256_S64x2x256 : S128x256.ShapeCasts S64x2x256
  reducesTo_S64x2x256_S64x256_d1 : S64x2x256.ReducesTo [1] S64x256
  bcast_S_S64x256 : S_.BroadcastsInDim S64x256 (![] : Fin 0 → Fin S64x256.rank)
  concatenates_S64x256_S64x256_S64x512_d1 : Shape.Concatenates [S64x256, S64x256] S64x512 1
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  shapeCasts_S64x256_S32x2x256 : S64x256.ShapeCasts S32x2x256
  reducesTo_S32x2x256_S32x256_d1 : S32x2x256.ReducesTo [1] S32x256
  bcast_S_S32x256 : S_.BroadcastsInDim S32x256 (![] : Fin 0 → Fin S32x256.rank)
  concatenates_S32x256_S32x256_S32x512_d1 : Shape.Concatenates [S32x256, S32x256] S32x512 1
  bcast_S1x1024_S32x1024_0_1 : S1x1024.BroadcastsInDim S32x1024 (![0, 1] : Fin 2 → Fin S32x1024.rank)
  slices_S32x1024_S32x256_0_0 : S32x1024.Slices ![0, 0] S32x256
  slices_S32x1024_S32x256_0_256 : S32x1024.Slices ![0, 256] S32x256
  slices_S32x1024_S32x256_0_512 : S32x1024.Slices ![0, 512] S32x256
  slices_S32x1024_S32x256_0_768 : S32x1024.Slices ![0, 768] S32x256
  shapeCasts_S32x256_S16x2x256 : S32x256.ShapeCasts S16x2x256
  reducesTo_S16x2x256_S16x256_d1 : S16x2x256.ReducesTo [1] S16x256
  bcast_S_S16x256 : S_.BroadcastsInDim S16x256 (![] : Fin 0 → Fin S16x256.rank)
  concatenates_S16x256_S16x256_S16x512_d1 : Shape.Concatenates [S16x256, S16x256] S16x512 1
  bcast_S1x1024_S16x1024_0_1 : S1x1024.BroadcastsInDim S16x1024 (![0, 1] : Fin 2 → Fin S16x1024.rank)
  slices_S16x1024_S16x256_0_0 : S16x1024.Slices ![0, 0] S16x256
  slices_S16x1024_S16x256_0_256 : S16x1024.Slices ![0, 256] S16x256
  slices_S16x1024_S16x256_0_512 : S16x1024.Slices ![0, 512] S16x256
  slices_S16x1024_S16x256_0_768 : S16x1024.Slices ![0, 768] S16x256
  shapeCasts_S16x256_S8x2x256 : S16x256.ShapeCasts S8x2x256
  reducesTo_S8x2x256_S8x256_d1 : S8x2x256.ReducesTo [1] S8x256
  bcast_S_S8x256 : S_.BroadcastsInDim S8x256 (![] : Fin 0 → Fin S8x256.rank)
  concatenates_S8x256_S8x256_S8x512_d1 : Shape.Concatenates [S8x256, S8x256] S8x512 1
  bcast_S1x1024_S8x1024_0_1 : S1x1024.BroadcastsInDim S8x1024 (![0, 1] : Fin 2 → Fin S8x1024.rank)
  slices_S8x1024_S8x256_0_0 : S8x1024.Slices ![0, 0] S8x256
  slices_S8x1024_S8x256_0_256 : S8x1024.Slices ![0, 256] S8x256
  slices_S8x1024_S8x256_0_512 : S8x1024.Slices ![0, 512] S8x256
  slices_S8x1024_S8x256_0_768 : S8x1024.Slices ![0, 768] S8x256
  shapeCasts_S8x256_S4x2x256 : S8x256.ShapeCasts S4x2x256
  reducesTo_S4x2x256_S4x256_d1 : S4x2x256.ReducesTo [1] S4x256
  bcast_S_S4x256 : S_.BroadcastsInDim S4x256 (![] : Fin 0 → Fin S4x256.rank)
  concatenates_S4x256_S4x256_S4x512_d1 : Shape.Concatenates [S4x256, S4x256] S4x512 1
  bcast_S1x1024_S4x1024_0_1 : S1x1024.BroadcastsInDim S4x1024 (![0, 1] : Fin 2 → Fin S4x1024.rank)
  slices_S4x1024_S4x256_0_0 : S4x1024.Slices ![0, 0] S4x256
  slices_S4x1024_S4x256_0_256 : S4x1024.Slices ![0, 256] S4x256
  slices_S4x1024_S4x256_0_512 : S4x1024.Slices ![0, 512] S4x256
  slices_S4x1024_S4x256_0_768 : S4x1024.Slices ![0, 768] S4x256
  shapeCasts_S4x256_S2x2x256 : S4x256.ShapeCasts S2x2x256
  reducesTo_S2x2x256_S2x256_d1 : S2x2x256.ReducesTo [1] S2x256
  bcast_S_S2x256 : S_.BroadcastsInDim S2x256 (![] : Fin 0 → Fin S2x256.rank)
  concatenates_S2x256_S2x256_S2x512_d1 : Shape.Concatenates [S2x256, S2x256] S2x512 1
  bcast_S1x1024_S2x1024_0_1 : S1x1024.BroadcastsInDim S2x1024 (![0, 1] : Fin 2 → Fin S2x1024.rank)
  slices_S2x1024_S2x256_0_0 : S2x1024.Slices ![0, 0] S2x256
  slices_S2x1024_S2x256_0_256 : S2x1024.Slices ![0, 256] S2x256
  slices_S2x1024_S2x256_0_512 : S2x1024.Slices ![0, 512] S2x256
  slices_S2x1024_S2x256_0_768 : S2x1024.Slices ![0, 768] S2x256
  shapeCasts_S2x256_S1x2x256 : S2x256.ShapeCasts S1x2x256
  reducesTo_S1x2x256_S1x256_d1 : S1x2x256.ReducesTo [1] S1x256
  bcast_S_S1x256 : S_.BroadcastsInDim S1x256 (![] : Fin 0 → Fin S1x256.rank)
  concatenates_S1x256_S1x256_S1x512_d1 : Shape.Concatenates [S1x256, S1x256] S1x512 1
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  dot_S131072x512_S512x1024_S131072x1024_1_0_0_1_n_n_wf : DotDims.WF S131072x512 S512x1024 S131072x1024 [1] [0] [0] [1] [] []
  dot_S65536x512_S512x1024_S65536x1024_1_0_0_1_n_n_wf : DotDims.WF S65536x512 S512x1024 S65536x1024 [1] [0] [0] [1] [] []
  dot_S32768x512_S512x1024_S32768x1024_1_0_0_1_n_n_wf : DotDims.WF S32768x512 S512x1024 S32768x1024 [1] [0] [0] [1] [] []
  dot_S16384x512_S512x1024_S16384x1024_1_0_0_1_n_n_wf : DotDims.WF S16384x512 S512x1024 S16384x1024 [1] [0] [0] [1] [] []
  dot_S8192x512_S512x1024_S8192x1024_1_0_0_1_n_n_wf : DotDims.WF S8192x512 S512x1024 S8192x1024 [1] [0] [0] [1] [] []
  dot_S4096x512_S512x1024_S4096x1024_1_0_0_1_n_n_wf : DotDims.WF S4096x512 S512x1024 S4096x1024 [1] [0] [0] [1] [] []
  dot_S2048x512_S512x1024_S2048x1024_1_0_0_1_n_n_wf : DotDims.WF S2048x512 S512x1024 S2048x1024 [1] [0] [0] [1] [] []
  dot_S1024x512_S512x1024_S1024x1024_1_0_0_1_n_n_wf : DotDims.WF S1024x512 S512x1024 S1024x1024 [1] [0] [0] [1] [] []
  dot_S512x512_S512x1024_S512x1024_1_0_0_1_n_n_wf : DotDims.WF S512x512 S512x1024 S512x1024 [1] [0] [0] [1] [] []
  dot_S256x512_S512x1024_S256x1024_1_0_0_1_n_n_wf : DotDims.WF S256x512 S512x1024 S256x1024 [1] [0] [0] [1] [] []
  dot_S128x512_S512x1024_S128x1024_1_0_0_1_n_n_wf : DotDims.WF S128x512 S512x1024 S128x1024 [1] [0] [0] [1] [] []
  dot_S64x512_S512x1024_S64x1024_1_0_0_1_n_n_wf : DotDims.WF S64x512 S512x1024 S64x1024 [1] [0] [0] [1] [] []
  dot_S32x512_S512x1024_S32x1024_1_0_0_1_n_n_wf : DotDims.WF S32x512 S512x1024 S32x1024 [1] [0] [0] [1] [] []
  dot_S16x512_S512x1024_S16x1024_1_0_0_1_n_n_wf : DotDims.WF S16x512 S512x1024 S16x1024 [1] [0] [0] [1] [] []
  dot_S8x512_S512x1024_S8x1024_1_0_0_1_n_n_wf : DotDims.WF S8x512 S512x1024 S8x1024 [1] [0] [0] [1] [] []
  dot_S4x512_S512x1024_S4x1024_1_0_0_1_n_n_wf : DotDims.WF S4x512 S512x1024 S4x1024 [1] [0] [0] [1] [] []
  dot_S2x512_S512x1024_S2x1024_1_0_0_1_n_n_wf : DotDims.WF S2x512 S512x1024 S2x1024 [1] [0] [0] [1] [] []
  dot_S1x512_S512x1024_S1x1024_1_0_0_1_n_n_wf : DotDims.WF S1x512 S512x1024 S1x1024 [1] [0] [0] [1] [] []

variable [Facts₀]

def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf
def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S4x512_S512x1024_S4x1024_1_0_0_1_n_n : DotDims S4x512 S512x1024 S4x1024 where
  lhsContracting := [1]
  rhsContracting := [0]
  lhsNonContracting := [0]
  rhsNonContracting := [1]
  lhsBatch := []
  rhsBatch := []
  wf := dot_S4x512_S512x1024_S4x1024_1_0_0_1_n_n_wf
def dot_S2x512_S512x1024_S2x1024_1_0_0_1_n_n : DotDims S2x512 S512x1024 S2x1024 where
  lhsContracting := [1]
  rhsContracting := [0]
  lhsNonContracting := [0]
  rhsNonContracting := [1]
  lhsBatch := []
  rhsBatch := []
  wf := dot_S2x512_S512x1024_S2x1024_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

class Facts : Prop extends Facts₀ where

variable [Facts]
-- ==== Proof.Tree.lean ====
/-
  The mathematics both programs compute: a TreeLSTM over a complete binary tree with 2^17 leaves.

  Every array is read as a function of a row and a column, both natural numbers (`natArr2`), so that the
  eighteen levels, whose arrays have different extents, are values of ONE recursion on the level number.
  `Wn q k` is the weight matrix entry in gate row `q` (0 ≤ q < 1024: the four gates f, i, c~, o of 256
  rows each) and input column `k` (0 ≤ k < 512: the first 256 columns meet the summed hidden state of the
  children, the last 256 the node's own input), `bn q` the bias.

  A leaf has no children: its gate pre-activation is the input row against the last 256 columns plus the bias
  (`gateX`), its cell state `σ(i) · tanh(c~)` and its hidden state `σ(o) · tanh(cell)`.
  An internal node has no input: its pre-activation is the SUM of its two children's hidden rows against the
  first 256 columns plus the bias (`gateH`), its cell state `σ(f) · (sum of the children's cells) +
  σ(i) · tanh(c~)`, its hidden state `σ(o) · tanh(cell)`. Node `r` of a level has children `2r` and `2r+1`
  of the level below. `σ` is `Ideal.logistic`, `tanh` is `Ideal.tanh`, on the extended reals.
-/
import Idealize.ShloMosaic.PureOps.Ideal
import Idealize.ShloMosaic.Lib.ValueIdx

noncomputable section

namespace Cert.Tree

open Idealize.ShloMosaic

/-- A two-axis array as a function of a row and a column number (zero outside the array). -/
def natArr2 {a b : Nat} (A : (⟨2, ![a, b]⟩ : Shape).Idx → EReal) (r q : Nat) : EReal :=
  if h : r < a ∧ q < b then A (ValueIdx.ix2 ⟨r, h.1⟩ ⟨q, h.2⟩) else 0

/-- A one-axis array as a function of a position number (zero outside the array). -/
def natArr1 {a : Nat} (A : (⟨1, ![a]⟩ : Shape).Idx → EReal) (q : Nat) : EReal :=
  if h : q < a then A (ValueIdx.ix1 ⟨q, h⟩) else 0

theorem natArr2_apply {a b : Nat} (A : (⟨2, ![a, b]⟩ : Shape).Idx → EReal) (i : (⟨2, ![a, b]⟩ : Shape).Idx) :
    natArr2 A (i 0).val (i 1).val = A i := by
  unfold natArr2
  rw [dif_pos ⟨(i 0).isLt, (i 1).isLt⟩]
  exact congrArg A (ValueIdx.eq_ix2 i).symm

theorem natArr2_ix2 {a b : Nat} (A : (⟨2, ![a, b]⟩ : Shape).Idx → EReal) (r : Fin a) (q : Fin b) :
    natArr2 A r.val q.val = A (ValueIdx.ix2 r q) := by
  unfold natArr2
  rw [dif_pos ⟨r.isLt, q.isLt⟩]

theorem natArr1_apply {a : Nat} (A : (⟨1, ![a]⟩ : Shape).Idx → EReal) (i : (⟨1, ![a]⟩ : Shape).Idx) :
    natArr1 A (i 0).val = A i := by
  unfold natArr1
  rw [dif_pos (show (i 0).val < a from (i 0).isLt)]
  exact congrArg A (ValueIdx.eq_ix1 i).symm

theorem natArr1_ix1 {a : Nat} (A : (⟨1, ![a]⟩ : Shape).Idx → EReal) (q : Fin a) :
    natArr1 A q.val = A (ValueIdx.ix1 q) := by
  unfold natArr1
  rw [dif_pos q.isLt]

section Cell

variable (Wn : Nat → Nat → EReal) (bn : Nat → EReal)

/-- Gate row `q`'s pre-activation at an internal node whose children's hidden rows sum to `s`. -/
def gateH (s : Nat → EReal) (q : Nat) : EReal := (∑ k : Fin 256, s k.val * Wn q k.val) + bn q

/-- Gate row `q`'s pre-activation at a leaf whose input row is `x`. -/
def gateX (x : Nat → EReal) (q : Nat) : EReal := (∑ k : Fin 256, x k.val * Wn q (256 + k.val)) + bn q

/-- A leaf's cell state. -/
def leafC (X : Nat → Nat → EReal) (r j : Nat) : EReal :=
  Ideal.logistic (gateX Wn bn (X r) (256 + j)) * Ideal.tanh (gateX Wn bn (X r) (512 + j))

/-- A leaf's hidden state. -/
def leafH (X : Nat → Nat → EReal) (r j : Nat) : EReal :=
  Ideal.logistic (gateX Wn bn (X r) (768 + j)) * Ideal.tanh (leafC Wn bn X r j)

/-- The sum of the two children's rows. -/
def pairSum (hp : Nat → Nat → EReal) (r k : Nat) : EReal := hp (2 * r) k + hp (2 * r + 1) k

/-- An internal node's cell state from the level below's hidden and cell states. -/
def nodeC (hp cp : Nat → Nat → EReal) (r j : Nat) : EReal :=
  Ideal.logistic (gateH Wn bn (pairSum hp r) j) * pairSum cp r j
    + Ideal.logistic (gateH Wn bn (pairSum hp r) (256 + j)) * Ideal.tanh (gateH Wn bn (pairSum hp r) (512 + j))

/-- An internal node's hidden state. -/
def nodeH (hp cp : Nat → Nat → EReal) (r j : Nat) : EReal :=
  Ideal.logistic (gateH Wn bn (pairSum hp r) (768 + j)) * Ideal.tanh (nodeC Wn bn hp cp r j)

/-- The hidden and cell states of level `k` (level 0 the leaves, level 17 the root). -/
def lvl (X : Nat → Nat → EReal) : Nat → (Nat → Nat → EReal) × (Nat → Nat → EReal)
  | 0 => (leafH Wn bn X, leafC Wn bn X)
  | k + 1 => (nodeH Wn bn (lvl X k).1 (lvl X k).2, nodeC Wn bn (lvl X k).1 (lvl X k).2)

theorem lvl_zero (X : Nat → Nat → EReal) : lvl Wn bn X 0 = (leafH Wn bn X, leafC Wn bn X) := rfl

theorem lvl_succ (X : Nat → Nat → EReal) (k : Nat) :
    lvl Wn bn X (k + 1) = (nodeH Wn bn (lvl Wn bn X k).1 (lvl Wn bn X k).2, nodeC Wn bn (lvl Wn bn X k).1 (lvl Wn bn X k).2) := rfl

end Cell

/-- Two adjacent rows of 256 laid side by side as one row of 512: column `q` of row `r` is column `q % 256` of
    row `2r + q / 256`. This is the row-major re-reading of an array of `2n` rows of 256 as `n` rows of 512. -/
def paired (hp : Nat → Nat → EReal) (r q : Nat) : EReal := hp (2 * r + q / 256) (q % 256)

theorem paired_lo (hp : Nat → Nat → EReal) (r k : Nat) (hk : k < 256) : paired hp r k = hp (2 * r) k := by
  unfold paired
  rw [Nat.div_eq_of_lt hk, Nat.mod_eq_of_lt hk, Nat.add_zero]

theorem paired_hi (hp : Nat → Nat → EReal) (r k : Nat) (hk : k < 256) : paired hp r (256 + k) = hp (2 * r + 1) k := by
  unfold paired
  have h1 : (256 + k) / 256 = 1 := by omega
  have h2 : (256 + k) % 256 = k := by omega
  rw [h1, h2]

end Cert.Tree

end
-- ==== Proof.KGlueRun.lean ====
/-
  The kernel program's run with the root's hidden state named.

  Every weakly fair execution of the kernel program from any memory terminates, and what each unscoped buffer
  holds at the end is the last value of the fold of buffer contents through the program's thirty-six segments
  (a stretch of host operations applies them in order; a kernel leaves its output arrays at what its write-backs
  fold to and every other buffer as it found it). This module states that for the program's result, the hidden
  state of the root (the first output of the last of the eighteen kernels), beside the three arguments, which end
  as launched.
-/
import proofs.«163443_j13855564497595_2_alg».proof.Proof.Gen.KernelIdeal.Frame

set_option maxRecDepth 16384

noncomputable section

namespace Cert.KernelIdeal.TreeK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; in every final state the root's
    hidden state is the last value of the fold of buffer contents at that buffer, and the three arguments are as
    launched. -/
theorem run_value : θ_run defs (onTc (τ := τ) (main (F := F))) ⟨m, fun _ => 0, ρ⟩ (fun r => ∀ c : Dev nD,
      r.2.mem ((c.tc : Thread nD τ).loc main_v61_0) = W36 m ρ c (Proc.devRef .tc main_v61_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W36 m ρ c b)
    (hfin := fun c s' => by
      iintro ⟨⟨Hh, -⟩, HSI⟩
      unfold StableHlo.held
      imodintro
      iapply (pointsTo_read_all (Pipeline.ucRefs τ sig) (fun b => (((c : Thread nD τ)).1, b)) (W36 m ρ c) s')
      isplitl [Hh] <;> iassumption)
    (hQ := fun s h c =>
      ⟨h c _ (mem_uc main_v61_0 (by decide)),
       (h c _ (mem_uc main_arg0 (by decide))).trans (W36_main_arg0 m ρ c),
       (h c _ (mem_uc main_arg1 (by decide))).trans (W36_main_arg1 m ρ c),
       (h c _ (mem_uc main_arg2 (by decide))).trans (W36_main_arg2 m ρ c)⟩)

end Cert.KernelIdeal.TreeK

end
-- ==== Proof.KGlueShape.lean ====
/-
  Re-reading an array of 2n rows of 256 as n rows of 512.

  A shape cast keeps every element's row-major position. Position r * 512 + q of the array of n rows of 512 is
  position (2r + q / 256) * 256 + q % 256 of the array of 2n rows of 256: row r of the wide array is rows 2r and
  2r + 1 of the narrow one laid side by side, which is what `Cert.Tree.paired` says of functions of a row and a
  column number. The same for a vector of a entries re-read as one row of a entries.
-/
import proofs.«163443_j13855564497595_2_alg».proof.Proof.Tree
import Idealize.ShloMosaic.Lib.Pipeline.Value

noncomputable section

namespace Cert.KernelIdeal.TreeK

open Idealize.ShloMosaic

/-- An array of `a = 2n` rows of 256 that is `hp` at every row and column, re-read as `n` rows of 512, is
    `paired hp` at every row and column. -/
theorem paired_of_shapeCast {a n : Nat} (ha : a = 2 * n)
    (A : (⟨2, ![a, 256]⟩ : Shape).Idx → EReal) (h : (⟨2, ![a, 256]⟩ : Shape).ShapeCasts ⟨2, ![n, 512]⟩)
    (hp : Nat → Nat → EReal) (hA : ∀ j : (⟨2, ![a, 256]⟩ : Shape).Idx, A j = hp (j 0).val (j 1).val)
    (i : (⟨2, ![n, 512]⟩ : Shape).Idx) :
    shapeCast (⟨2, ![n, 512]⟩ : Shape) A h i = Cert.Tree.paired hp (i 0).val (i 1).val := by
  have h0 : (i 0).val < n := ValueIdx.idx2_lt0 i
  have h1 : (i 1).val < 512 := ValueIdx.idx2_lt1 i
  refine (shapeCast_apply A h i
    (ValueIdx.ix2 ⟨2 * (i 0).val + (i 1).val / 256, by omega⟩ ⟨(i 1).val % 256, by omega⟩) ?_).trans ?_
  · rw [Shape.rowMajor_val_two, Shape.rowMajor_val_two]
    show (2 * (i 0).val + (i 1).val / 256) * 256 + (i 1).val % 256 = (i 0).val * 512 + (i 1).val
    omega
  · exact hA _

/-- A vector of `a` entries that is `f` at every position shifted by `o`, re-read as one row of `a` entries, is
    `f` at every column shifted by `o`. -/
theorem row_of_shapeCast {a : Nat} (o : Nat)
    (A : (⟨1, ![a]⟩ : Shape).Idx → EReal) (h : (⟨1, ![a]⟩ : Shape).ShapeCasts ⟨2, ![1, a]⟩)
    (f : Nat → EReal) (hA : ∀ j : (⟨1, ![a]⟩ : Shape).Idx, A j = f (o + (j 0).val))
    (i : (⟨2, ![1, a]⟩ : Shape).Idx) :
    shapeCast (⟨2, ![1, a]⟩ : Shape) A h i = f (o + (i 1).val) := by
  have h0 : (i 0).val < 1 := ValueIdx.idx2_lt0 i
  have h1 : (i 1).val < a := ValueIdx.idx2_lt1 i
  refine (shapeCast_apply A h i (ValueIdx.ix1 ⟨(i 1).val, h1⟩) ?_).trans ?_
  · rw [Shape.rowMajor_val_one, Shape.rowMajor_val_two]
    show (i 1).val = (i 0).val * a + (i 1).val
    have : (i 0).val = 0 := by omega
    rw [this, Nat.zero_mul, Nat.zero_add]
  · exact hA _

end Cert.KernelIdeal.TreeK

end
-- ==== Proof.KGlueEntry.lean ====
/-
  What the leaf kernel finds in its three input arrays, and what every internal kernel finds in its weight and bias
  arrays, read at a row and a column from the launch memory.

  Before the first kernel the host slices, transposes and narrows the weight matrix W (1024 gate rows by 512 input
  columns) and the bias b (1024 gate rows):
    the leaf kernel's weights   = narrow (transpose (W[256:1024, 256:512]))   (256 by 768: entry (k, q) is W (256+q) (256+k)),
    the leaf kernel's bias      = b[256:1024] as one row                       (entry (0, q) is b (256+q)),
    the internal weights        = narrow (transpose (W[0:1024, 0:256]))       (256 by 1024: entry (k, q) is W q k),
    the internal bias           = b as one row                                 (entry (0, q) is b q).
  On the extended reals narrowing is the identity, a transpose swaps the two coordinates and a slice shifts them by
  its offsets. The input array itself is untouched by the host.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The input rows as a function of a leaf number and a column number. -/
abbrev X (m : (ℓ : Loc nD τ sig) → Buf (Elt Ideal) ℓ) (c : Dev nD) : Nat → Nat → EReal :=
  Cert.Tree.natArr2 (a := 131072) (b := 256) (m ((c.tc : Thread nD τ).loc main_arg0))
/-- The weight matrix as a function of a gate row and an input column. -/
abbrev Wn (m : (ℓ : Loc nD τ sig) → Buf (Elt Ideal) ℓ) (c : Dev nD) : Nat → Nat → EReal :=
  Cert.Tree.natArr2 (a := 1024) (b := 512) (m ((c.tc : Thread nD τ).loc main_arg1))
/-- The bias as a function of a gate row. -/
abbrev bn (m : (ℓ : Loc nD τ sig) → Buf (Elt Ideal) ℓ) (c : Dev nD) : Nat → EReal :=
  Cert.Tree.natArr1 (a := 1024) (m ((c.tc : Thread nD τ).loc main_arg2))

/-- No host operation before the leaf kernel writes the input array. -/
theorem entry_arg0 (c : Dev nD) : (V1 m ρ c main_arg0 : S131072x256.Idx → EReal) = m ((c.tc : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The leaf kernel's input array is the input rows. -/
theorem entry0_X (c : Dev nD) (i : S131072x256.Idx) :
    (V1 m ρ c (Pipeline.arrRef spec0 0) : S131072x256.Idx → EReal) i = X m c (i 0).val (i 1).val :=
  (congrFun (entry_arg0 m ρ c) i).trans (Cert.Tree.natArr2_apply _ i).symm

/-- The leaf kernel's weight array as the host operations leave it. -/
theorem entry_v4 (c : Dev nD) : (V1 m ρ c main_v4 : S256x768.Idx → EReal)
    = truncf (F := Ideal) (φ := .f32) .bf16 (transpose S256x768 [1, 0] (extractStridedSlice S768x256 ![256, 0]
        (extractStridedSlice S1024x256 ![0, 256] (m ((c.tc : Thread nD τ).loc main_arg1)) slices_S1024x512_S1024x256_0_256)
        slices_S1024x256_S768x256_256_0) transposes_S768x256_S256x768_1_0) bitsLt_bf16_f32 := by
  dsimp only [V1, W1, hostOps0]; after_results

/-- Entry (k, q) of the leaf kernel's weight array is W (256 + q) (256 + k). -/
theorem entry0_W (c : Dev nD) (i : S256x768.Idx) :
    (V1 m ρ c (Pipeline.arrRef spec0 1) : S256x768.Idx → EReal) i = Wn m c (256 + (i 1).val) (256 + (i 0).val) := by
  have h0 : (i 0).val < 256 := ValueIdx.idx2_lt0 i
  have h1 : (i 1).val < 768 := ValueIdx.idx2_lt1 i
  refine (congrFun (entry_v4 m ρ c) i).trans ?_
  refine (ValueIdx.truncf_apply (s := S256x768) (φ := .f32) (ψ := .bf16) _ bitsLt_bf16_f32 i).trans ?_
  refine (transpose_apply _ _ _ i (ValueIdx.ix2 (⟨(i 1).val, h1⟩ : Fin 768) (⟨(i 0).val, h0⟩ : Fin 256))
    (fun b => match b with | ⟨0, _⟩ => rfl | ⟨1, _⟩ => rfl)).trans ?_
  refine (extractStridedSlice_apply _ _ _ _ (ValueIdx.ix2 (⟨256 + (i 1).val, by omega⟩ : Fin 1024) (⟨(i 0).val, h0⟩ : Fin 256))
    (fun a => match a with | ⟨0, _⟩ => rfl | ⟨1, _⟩ => (Nat.zero_add _).symm)).trans ?_
  refine (extractStridedSlice_apply _ _ _ _ (ValueIdx.ix2 (⟨256 + (i 1).val, by omega⟩ : Fin 1024) (⟨256 + (i 0).val, by omega⟩ : Fin 512))
    (fun a => match a with | ⟨0, _⟩ => (Nat.zero_add _).symm | ⟨1, _⟩ => rfl)).trans ?_
  exact (Cert.Tree.natArr2_ix2 _ (⟨256 + (i 1).val, by omega⟩ : Fin 1024) (⟨256 + (i 0).val, by omega⟩ : Fin 512)).symm

/-- The leaf kernel's bias array as the host operations leave it. -/
theorem entry_v8 (c : Dev nD) : (V1 m ρ c main_v8 : S1x768.Idx → EReal)
    = shapeCast S1x768 (extractStridedSlice S768 ![256] (m ((c.tc : Thread nD τ).loc main_arg2)) slices_S1024_S768_256)
        shapeCasts_S768_S1x768 := by
  dsimp only [V1, W1, hostOps0]; after_results; rfl

/-- Entry (0, q) of the leaf kernel's bias array is b (256 + q). -/
theorem entry0_B (c : Dev nD) (i : S1x768.Idx) :
    (V1 m ρ c (Pipeline.arrRef spec0 2) : S1x768.Idx → EReal) i = bn m c (256 + (i 1).val) := by
  refine (congrFun (entry_v8 m ρ c) i).trans ?_
  refine row_of_shapeCast 256 _ _ (bn m c) (fun j => ?_) i
  have hj : (j 0).val < 768 := (j 0).isLt
  refine (extractStridedSlice_apply _ _ _ j (ValueIdx.ix1 (⟨256 + (j 0).val, by omega⟩ : Fin 1024))
    (fun a => match a with | ⟨0, _⟩ => rfl)).trans ?_
  exact (Cert.Tree.natArr1_ix1 _ (⟨256 + (j 0).val, by omega⟩ : Fin 1024)).symm

/-- The internal kernels' weight array as the host operations leave it. -/
theorem entry_v6 (c : Dev nD) : (V1 m ρ c main_v6 : S256x1024.Idx → EReal)
    = truncf (F := Ideal) (φ := .f32) .bf16 (transpose S256x1024 [1, 0]
        (extractStridedSlice S1024x256 ![0, 0] (m ((c.tc : Thread nD τ).loc main_arg1)) slices_S1024x512_S1024x256_0_0)
        transposes_S1024x256_S256x1024_1_0) bitsLt_bf16_f32 := by
  dsimp only [V1, W1, hostOps0]; after_results

/-- Entry (k, q) of the internal kernels' weight array is W q k. -/
theorem entry_W (c : Dev nD) (i : S256x1024.Idx) :
    (V1 m ρ c main_v6 : S256x1024.Idx → EReal) i = Wn m c (i 1).val (i 0).val := by
  have h0 : (i 0).val < 256 := ValueIdx.idx2_lt0 i
  have h1 : (i 1).val < 1024 := ValueIdx.idx2_lt1 i
  refine (congrFun (entry_v6 m ρ c) i).trans ?_
  refine (ValueIdx.truncf_apply (s := S256x1024) (φ := .f32) (ψ := .bf16) _ bitsLt_bf16_f32 i).trans ?_
  refine (transpose_apply _ _ _ i (ValueIdx.ix2 (⟨(i 1).val, h1⟩ : Fin 1024) (⟨(i 0).val, h0⟩ : Fin 256))
    (fun b => match b with | ⟨0, _⟩ => rfl | ⟨1, _⟩ => rfl)).trans ?_
  refine (extractStridedSlice_apply _ _ _ _ (ValueIdx.ix2 (⟨(i 1).val, h1⟩ : Fin 1024) (⟨(i 0).val, by omega⟩ : Fin 512))
    (fun a => match a with | ⟨0, _⟩ => (Nat.zero_add _).symm | ⟨1, _⟩ => (Nat.zero_add _).symm)).trans ?_
  exact (Cert.Tree.natArr2_ix2 _ (⟨(i 1).val, h1⟩ : Fin 1024) (⟨(i 0).val, by omega⟩ : Fin 512)).symm

/-- The internal kernels' bias array as the host operations leave it. -/
theorem entry_v9 (c : Dev nD) : (V1 m ρ c main_v9 : S1x1024.Idx → EReal)
    = shapeCast S1x1024 (m ((c.tc : Thread nD τ).loc main_arg2)) shapeCasts_S1024_S1x1024 := by
  dsimp only [V1, W1, hostOps0]; after_results; rfl

/-- Entry (0, q) of the internal kernels' bias array is b q. -/
theorem entry_B (c : Dev nD) (i : S1x1024.Idx) :
    (V1 m ρ c main_v9 : S1x1024.Idx → EReal) i = bn m c (i 1).val := by
  refine (congrFun (entry_v9 m ρ c) i).trans ?_
  refine (row_of_shapeCast 0 _ _ (bn m c) (fun j => ?_) i).trans (by rw [Nat.zero_add])
  rw [Nat.zero_add]
  exact (Cert.Tree.natArr1_apply _ j).symm

end Cert.KernelIdeal.TreeK

end
-- ==== Proof.KGlueConstW.lean ====
/-
  The internal kernels' weight array is the same at every level: the host writes it once, before the leaf kernel;
  after that every stretch of host operations only re-reads the previous level's two output arrays, and every
  internal kernel has the array as an input window, which a kernel leaves as it found it (the leaf kernel does not
  touch it at all). So what level k's kernel finds there is what the host wrote.
-/
import proofs.«163443_j13855564497595_2_alg».proof.Proof.Tree
import proofs.«163443_j13855564497595_2_alg».proof.Proof.Gen.KernelIdeal.Frame
import proofs.«163443_j13855564497595_2_alg».proof.Proof.KGlueEntry

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- From the entry of level 0's kernel to the entry of level 1's the weight array does not change. -/
theorem W_step1 (c : Dev nD) : W3 m ρ c (Proc.devRef .tc main_v6) = W1 m ρ c (Proc.devRef .tc main_v6) :=
  calc W3 m ρ c (Proc.devRef .tc main_v6)
    _ = W2 m ρ c (Proc.devRef .tc main_v6) := StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v6) := W2_of_ne m ρ c main_v6 (by decide)

/-- From the entry of level 1's kernel to the entry of level 2's the weight array does not change. -/
theorem W_step2 (c : Dev nD) : W5 m ρ c (Proc.devRef .tc main_v6) = W3 m ρ c (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v6) := (W4_arr m ρ c 2).trans (((dat1 (V3 m ρ) c).arrAt_in 2 rfl _).trans (A_eq1 (V3 m ρ) c 2))

/-- From the entry of level 2's kernel to the entry of level 3's the weight array does not change. -/
theorem W_step3 (c : Dev nD) : W7 m ρ c (Proc.devRef .tc main_v6) = W5 m ρ c (Proc.devRef .tc main_v6) :=
  calc W7 m ρ c (Proc.devRef .tc main_v6)
    _ = W6 m ρ c (Proc.devRef .tc main_v6) := StableHlo.after_of_forall_not_mem (b := Proc.devRef .tc main_v6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v6) := (W6_arr m ρ c 2).trans (((dat2 (V5 m ρ) c).arrAt_in 2 rfl _).trans (A_eq2 (V5 m ρ) c 2))

/-- From the entry of level 3's kernel to the entry of level 4's the weight array does not change. -/
theorem W_step4 (c : Dev nD) : W9 m ρ c (Proc.devRef .tc main_v6) = W7 m ρ c (Proc.devRef .tc main_v6) :=
  calc W9 m ρ c (Proc.devRef .tc main_v6)
    _ = W8 m ρ c (Proc.devRef .tc main_v6) := StableHlo.after_of_forall_not_mem (b := Proc.devRef .tc main_v6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v6) := (W8_arr m ρ c 2).trans (((dat3 (V7 m ρ) c).arrAt_in 2 rfl _).trans (A_eq3 (V7 m ρ) c 2))

/-- From the entry of level 4's kernel to the entry of level 5's the weight array does not change. -/
theorem W_step5 (c : Dev nD) : W11 m ρ c (Proc.devRef .tc main_v6) = W9 m ρ c (Proc.devRef .tc main_v6) :=
  calc W11 m ρ c (Proc.devRef .tc main_v6)
    _ = W10 m ρ c (Proc.devRef .tc main_v6) := StableHlo.after_of_forall_not_mem (b := Proc.devRef .tc main_v6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v6) := (W10_arr m ρ c 2).trans (((dat4 (V9 m ρ) c).arrAt_in 2 rfl _).trans (A_eq4 (V9 m ρ) c 2))

/-- From the entry of level 5's kernel to the entry of level 6's the weight array does not change. -/
theorem W_step6 (c : Dev nD) : W13 m ρ c (Proc.devRef .tc main_v6) = W11 m ρ c (Proc.devRef .tc main_v6) :=
  calc W13 m ρ c (Proc.devRef .tc main_v6)
    _ = W12 m ρ c (Proc.devRef .tc main_v6) := StableHlo.after_of_forall_not_mem (b := Proc.devRef .tc main_v6) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v6) := (W12_arr m ρ c 2).trans (((dat5 (V11 m ρ) c).arrAt_in 2 rfl _).trans (A_eq5 (V11 m ρ) c 2))

/-- From the entry of level 6's kernel to the entry of level 7's the weight array does not change. -/
theorem W_step7 (c : Dev nD) : W15 m ρ c (Proc.devRef .tc main_v6) = W13 m ρ c (Proc.devRef .tc main_v6) :=
  calc W15 m ρ c (Proc.devRef .tc main_v6)
    _ = W14 m ρ c (Proc.devRef .tc main_v6) := StableHlo.after_of_forall_not_mem (b := Proc.devRef .tc main_v6) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v6) := (W14_arr m ρ c 2).trans (((dat6 (V13 m ρ) c).arrAt_in 2 rfl _).trans (A_eq6 (V13 m ρ) c 2))

/-- From the entry of level 7's kernel to the entry of level 8's the weight array does not change. -/
theorem W_step8 (c : Dev nD) : W17 m ρ c (Proc.devRef .tc main_v6) = W15 m ρ c (Proc.devRef .tc main_v6) :=
  calc W17 m ρ c (Proc.devRef .tc main_v6)
    _ = W16 m ρ c (Proc.devRef .tc main_v6) := StableHlo.after_of_forall_not_mem (b := Proc.devRef .tc main_v6) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W15 m ρ c (Proc.devRef .tc main_v6) := (W16_arr m ρ c 2).trans (((dat7 (V15 m ρ) c).arrAt_in 2 rfl _).trans (A_eq7 (V15 m ρ) c 2))

/-- From the entry of level 8's kernel to the entry of level 9's the weight array does not change. -/
theorem W_step9 (c : Dev nD) : W19 m ρ c (Proc.devRef .tc main_v6) = W17 m ρ c (Proc.devRef .tc main_v6) :=
  calc W19 m ρ c (Proc.devRef .tc main_v6)
    _ = W18 m ρ c (Proc.devRef .tc main_v6) := StableHlo.after_of_forall_not_mem (b := Proc.devRef .tc main_v6) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W17 m ρ c (Proc.devRef .tc main_v6) := (W18_arr m ρ c 2).trans (((dat8 (V17 m ρ) c).arrAt_in 2 rfl _).trans (A_eq8 (V17 m ρ) c 2))

/-- From the entry of level 9's kernel to the entry of level 10's the weight array does not change. -/
theorem W_step10 (c : Dev nD) : W21 m ρ c (Proc.devRef .tc main_v6) = W19 m ρ c (Proc.devRef .tc main_v6) :=
  calc W21 m ρ c (Proc.devRef .tc main_v6)
    _ = W20 m ρ c (Proc.devRef .tc main_v6) := StableHlo.after_of_forall_not_mem (b := Proc.devRef .tc main_v6) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W19 m ρ c (Proc.devRef .tc main_v6) := (W20_arr m ρ c 2).trans (((dat9 (V19 m ρ) c).arrAt_in 2 rfl _).trans (A_eq9 (V19 m ρ) c 2))

/-- From the entry of level 10's kernel to the entry of level 11's the weight array does not change. -/
theorem W_step11 (c : Dev nD) : W23 m ρ c (Proc.devRef .tc main_v6) = W21 m ρ c (Proc.devRef .tc main_v6) :=
  calc W23 m ρ c (Proc.devRef .tc main_v6)
    _ = W22 m ρ c (Proc.devRef .tc main_v6) := StableHlo.after_of_forall_not_mem (b := Proc.devRef .tc main_v6) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W21 m ρ c (Proc.devRef .tc main_v6) := (W22_arr m ρ c 2).trans (((dat10 (V21 m ρ) c).arrAt_in 2 rfl _).trans (A_eq10 (V21 m ρ) c 2))

/-- From the entry of level 11's kernel to the entry of level 12's the weight array does not change. -/
theorem W_step12 (c : Dev nD) : W25 m ρ c (Proc.devRef .tc main_v6) = W23 m ρ c (Proc.devRef .tc main_v6) :=
  calc W25 m ρ c (Proc.devRef .tc main_v6)
    _ = W24 m ρ c (Proc.devRef .tc main_v6) := StableHlo.after_of_forall_not_mem (b := Proc.devRef .tc main_v6) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W23 m ρ c (Proc.devRef .tc main_v6) := (W24_arr m ρ c 2).trans (((dat11 (V23 m ρ) c).arrAt_in 2 rfl _).trans (A_eq11 (V23 m ρ) c 2))

/-- From the entry of level 12's kernel to the entry of level 13's the weight array does not change. -/
theorem W_step13 (c : Dev nD) : W27 m ρ c (Proc.devRef .tc main_v6) = W25 m ρ c (Proc.devRef .tc main_v6) :=
  calc W27 m ρ c (Proc.devRef .tc main_v6)
    _ = W26 m ρ c (Proc.devRef .tc main_v6) := StableHlo.after_of_forall_not_mem (b := Proc.devRef .tc main_v6) _ _ (List.forall_iff_forall_mem.mp (by
      simp only [hostOps13, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W25 m ρ c (Proc.devRef .tc main_v6) := (W26_arr m ρ c 2).trans (((dat12 (V25 m ρ) c).arrAt_in 2 rfl _).trans (A_eq12 (V25 m ρ) c 2))

/-- From the entry of level 13's kernel to the entry of level 14's the weight array does not change. -/
theorem W_step14 (c : Dev nD) : W29 m ρ c (Proc.devRef .tc main_v6) = W27 m ρ c (Proc.devRef .tc main_v6) :=
  calc W29 m ρ c (Proc.devRef .tc main_v6)
    _ = W28 m ρ c (Proc.devRef .tc main_v6) := StableHlo.after_of_forall_not_mem (b := Proc.devRef .tc main_v6) _ _ (List.forall_iff_forall_mem.mp (by
      simp only [hostOps14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v6) := (W28_arr m ρ c 2).trans (((dat13 (V27 m ρ) c).arrAt_in 2 rfl _).trans (A_eq13 (V27 m ρ) c 2))

/-- From the entry of level 14's kernel to the entry of level 15's the weight array does not change. -/
theorem W_step15 (c : Dev nD) : W31 m ρ c (Proc.devRef .tc main_v6) = W29 m ρ c (Proc.devRef .tc main_v6) :=
  calc W31 m ρ c (Proc.devRef .tc main_v6)
    _ = W30 m ρ c (Proc.devRef .tc main_v6) := StableHlo.after_of_forall_not_mem (b := Proc.devRef .tc main_v6) _ _ (List.forall_iff_forall_mem.mp (by
      simp only [hostOps15, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_v6) := (W30_arr m ρ c 2).trans (((dat14 (V29 m ρ) c).arrAt_in 2 rfl _).trans (A_eq14 (V29 m ρ) c 2))

/-- From the entry of level 15's kernel to the entry of level 16's the weight array does not change. -/
theorem W_step16 (c : Dev nD) : W33 m ρ c (Proc.devRef .tc main_v6) = W31 m ρ c (Proc.devRef .tc main_v6) :=
  calc W33 m ρ c (Proc.devRef .tc main_v6)
    _ = W32 m ρ c (Proc.devRef .tc main_v6) := StableHlo.after_of_forall_not_mem (b := Proc.devRef .tc main_v6) _ _ (List.forall_iff_forall_mem.mp (by
      simp only [hostOps16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W31 m ρ c (Proc.devRef .tc main_v6) := (W32_arr m ρ c 2).trans (((dat15 (V31 m ρ) c).arrAt_in 2 rfl _).trans (A_eq15 (V31 m ρ) c 2))

/-- From the entry of level 16's kernel to the entry of level 17's the weight array does not change. -/
theorem W_step17 (c : Dev nD) : W35 m ρ c (Proc.devRef .tc main_v6) = W33 m ρ c (Proc.devRef .tc main_v6) :=
  calc W35 m ρ c (Proc.devRef .tc main_v6)
    _ = W34 m ρ c (Proc.devRef .tc main_v6) := StableHlo.after_of_forall_not_mem (b := Proc.devRef .tc main_v6) _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v6) := (W34_arr m ρ c 2).trans (((dat16 (V33 m ρ) c).arrAt_in 2 rfl _).trans (A_eq16 (V33 m ρ) c 2))

/-- At the entry of level 1's kernel the weight array is as the host wrote it. -/
theorem W_at1 (c : Dev nD) : W3 m ρ c (Proc.devRef .tc main_v6) = W1 m ρ c (Proc.devRef .tc main_v6) :=
  W_step1 m ρ c

/-- At the entry of level 2's kernel the weight array is as the host wrote it. -/
theorem W_at2 (c : Dev nD) : W5 m ρ c (Proc.devRef .tc main_v6) = W1 m ρ c (Proc.devRef .tc main_v6) :=
  (W_step2 m ρ c).trans (W_at1 m ρ c)

/-- At the entry of level 3's kernel the weight array is as the host wrote it. -/
theorem W_at3 (c : Dev nD) : W7 m ρ c (Proc.devRef .tc main_v6) = W1 m ρ c (Proc.devRef .tc main_v6) :=
  (W_step3 m ρ c).trans (W_at2 m ρ c)

/-- At the entry of level 4's kernel the weight array is as the host wrote it. -/
theorem W_at4 (c : Dev nD) : W9 m ρ c (Proc.devRef .tc main_v6) = W1 m ρ c (Proc.devRef .tc main_v6) :=
  (W_step4 m ρ c).trans (W_at3 m ρ c)

/-- At the entry of level 5's kernel the weight array is as the host wrote it. -/
theorem W_at5 (c : Dev nD) : W11 m ρ c (Proc.devRef .tc main_v6) = W1 m ρ c (Proc.devRef .tc main_v6) :=
  (W_step5 m ρ c).trans (W_at4 m ρ c)

/-- At the entry of level 6's kernel the weight array is as the host wrote it. -/
theorem W_at6 (c : Dev nD) : W13 m ρ c (Proc.devRef .tc main_v6) = W1 m ρ c (Proc.devRef .tc main_v6) :=
  (W_step6 m ρ c).trans (W_at5 m ρ c)

/-- At the entry of level 7's kernel the weight array is as the host wrote it. -/
theorem W_at7 (c : Dev nD) : W15 m ρ c (Proc.devRef .tc main_v6) = W1 m ρ c (Proc.devRef .tc main_v6) :=
  (W_step7 m ρ c).trans (W_at6 m ρ c)

/-- At the entry of level 8's kernel the weight array is as the host wrote it. -/
theorem W_at8 (c : Dev nD) : W17 m ρ c (Proc.devRef .tc main_v6) = W1 m ρ c (Proc.devRef .tc main_v6) :=
  (W_step8 m ρ c).trans (W_at7 m ρ c)

/-- At the entry of level 9's kernel the weight array is as the host wrote it. -/
theorem W_at9 (c : Dev nD) : W19 m ρ c (Proc.devRef .tc main_v6) = W1 m ρ c (Proc.devRef .tc main_v6) :=
  (W_step9 m ρ c).trans (W_at8 m ρ c)

/-- At the entry of level 10's kernel the weight array is as the host wrote it. -/
theorem W_at10 (c : Dev nD) : W21 m ρ c (Proc.devRef .tc main_v6) = W1 m ρ c (Proc.devRef .tc main_v6) :=
  (W_step10 m ρ c).trans (W_at9 m ρ c)

/-- At the entry of level 11's kernel the weight array is as the host wrote it. -/
theorem W_at11 (c : Dev nD) : W23 m ρ c (Proc.devRef .tc main_v6) = W1 m ρ c (Proc.devRef .tc main_v6) :=
  (W_step11 m ρ c).trans (W_at10 m ρ c)

/-- At the entry of level 12's kernel the weight array is as the host wrote it. -/
theorem W_at12 (c : Dev nD) : W25 m ρ c (Proc.devRef .tc main_v6) = W1 m ρ c (Proc.devRef .tc main_v6) :=
  (W_step12 m ρ c).trans (W_at11 m ρ c)

/-- At the entry of level 13's kernel the weight array is as the host wrote it. -/
theorem W_at13 (c : Dev nD) : W27 m ρ c (Proc.devRef .tc main_v6) = W1 m ρ c (Proc.devRef .tc main_v6) :=
  (W_step13 m ρ c).trans (W_at12 m ρ c)

/-- At the entry of level 14's kernel the weight array is as the host wrote it. -/
theorem W_at14 (c : Dev nD) : W29 m ρ c (Proc.devRef .tc main_v6) = W1 m ρ c (Proc.devRef .tc main_v6) :=
  (W_step14 m ρ c).trans (W_at13 m ρ c)

/-- At the entry of level 15's kernel the weight array is as the host wrote it. -/
theorem W_at15 (c : Dev nD) : W31 m ρ c (Proc.devRef .tc main_v6) = W1 m ρ c (Proc.devRef .tc main_v6) :=
  (W_step15 m ρ c).trans (W_at14 m ρ c)

/-- At the entry of level 16's kernel the weight array is as the host wrote it. -/
theorem W_at16 (c : Dev nD) : W33 m ρ c (Proc.devRef .tc main_v6) = W1 m ρ c (Proc.devRef .tc main_v6) :=
  (W_step16 m ρ c).trans (W_at15 m ρ c)

/-- At the entry of level 17's kernel the weight array is as the host wrote it. -/
theorem W_at17 (c : Dev nD) : W35 m ρ c (Proc.devRef .tc main_v6) = W1 m ρ c (Proc.devRef .tc main_v6) :=
  (W_step17 m ρ c).trans (W_at16 m ρ c)

/-- What level 1's kernel finds in its weight array. -/
theorem entry1_W (c : Dev nD) (i : S256x1024.Idx) :
    (V3 m ρ c (Pipeline.arrRef spec1 2) : S256x1024.Idx → EReal) i = Wn m c (i 1).val (i 0).val :=
  (congrFun (W_at1 m ρ c) i).trans (entry_W m ρ c i)

/-- What level 2's kernel finds in its weight array. -/
theorem entry2_W (c : Dev nD) (i : S256x1024.Idx) :
    (V5 m ρ c (Pipeline.arrRef spec2 2) : S256x1024.Idx → EReal) i = Wn m c (i 1).val (i 0).val :=
  (congrFun (W_at2 m ρ c) i).trans (entry_W m ρ c i)

/-- What level 3's kernel finds in its weight array. -/
theorem entry3_W (c : Dev nD) (i : S256x1024.Idx) :
    (V7 m ρ c (Pipeline.arrRef spec3 2) : S256x1024.Idx → EReal) i = Wn m c (i 1).val (i 0).val :=
  (congrFun (W_at3 m ρ c) i).trans (entry_W m ρ c i)

/-- What level 4's kernel finds in its weight array. -/
theorem entry4_W (c : Dev nD) (i : S256x1024.Idx) :
    (V9 m ρ c (Pipeline.arrRef spec4 2) : S256x1024.Idx → EReal) i = Wn m c (i 1).val (i 0).val :=
  (congrFun (W_at4 m ρ c) i).trans (entry_W m ρ c i)

/-- What level 5's kernel finds in its weight array. -/
theorem entry5_W (c : Dev nD) (i : S256x1024.Idx) :
    (V11 m ρ c (Pipeline.arrRef spec5 2) : S256x1024.Idx → EReal) i = Wn m c (i 1).val (i 0).val :=
  (congrFun (W_at5 m ρ c) i).trans (entry_W m ρ c i)

/-- What level 6's kernel finds in its weight array. -/
theorem entry6_W (c : Dev nD) (i : S256x1024.Idx) :
    (V13 m ρ c (Pipeline.arrRef spec6 2) : S256x1024.Idx → EReal) i = Wn m c (i 1).val (i 0).val :=
  (congrFun (W_at6 m ρ c) i).trans (entry_W m ρ c i)

/-- What level 7's kernel finds in its weight array. -/
theorem entry7_W (c : Dev nD) (i : S256x1024.Idx) :
    (V15 m ρ c (Pipeline.arrRef spec7 2) : S256x1024.Idx → EReal) i = Wn m c (i 1).val (i 0).val :=
  (congrFun (W_at7 m ρ c) i).trans (entry_W m ρ c i)

/-- What level 8's kernel finds in its weight array. -/
theorem entry8_W (c : Dev nD) (i : S256x1024.Idx) :
    (V17 m ρ c (Pipeline.arrRef spec8 2) : S256x1024.Idx → EReal) i = Wn m c (i 1).val (i 0).val :=
  (congrFun (W_at8 m ρ c) i).trans (entry_W m ρ c i)

/-- What level 9's kernel finds in its weight array. -/
theorem entry9_W (c : Dev nD) (i : S256x1024.Idx) :
    (V19 m ρ c (Pipeline.arrRef spec9 2) : S256x1024.Idx → EReal) i = Wn m c (i 1).val (i 0).val :=
  (congrFun (W_at9 m ρ c) i).trans (entry_W m ρ c i)

/-- What level 10's kernel finds in its weight array. -/
theorem entry10_W (c : Dev nD) (i : S256x1024.Idx) :
    (V21 m ρ c (Pipeline.arrRef spec10 2) : S256x1024.Idx → EReal) i = Wn m c (i 1).val (i 0).val :=
  (congrFun (W_at10 m ρ c) i).trans (entry_W m ρ c i)

/-- What level 11's kernel finds in its weight array. -/
theorem entry11_W (c : Dev nD) (i : S256x1024.Idx) :
    (V23 m ρ c (Pipeline.arrRef spec11 2) : S256x1024.Idx → EReal) i = Wn m c (i 1).val (i 0).val :=
  (congrFun (W_at11 m ρ c) i).trans (entry_W m ρ c i)

/-- What level 12's kernel finds in its weight array. -/
theorem entry12_W (c : Dev nD) (i : S256x1024.Idx) :
    (V25 m ρ c (Pipeline.arrRef spec12 2) : S256x1024.Idx → EReal) i = Wn m c (i 1).val (i 0).val :=
  (congrFun (W_at12 m ρ c) i).trans (entry_W m ρ c i)

/-- What level 13's kernel finds in its weight array. -/
theorem entry13_W (c : Dev nD) (i : S256x1024.Idx) :
    (V27 m ρ c (Pipeline.arrRef spec13 2) : S256x1024.Idx → EReal) i = Wn m c (i 1).val (i 0).val :=
  (congrFun (W_at13 m ρ c) i).trans (entry_W m ρ c i)

/-- What level 14's kernel finds in its weight array. -/
theorem entry14_W (c : Dev nD) (i : S256x1024.Idx) :
    (V29 m ρ c (Pipeline.arrRef spec14 2) : S256x1024.Idx → EReal) i = Wn m c (i 1).val (i 0).val :=
  (congrFun (W_at14 m ρ c) i).trans (entry_W m ρ c i)

/-- What level 15's kernel finds in its weight array. -/
theorem entry15_W (c : Dev nD) (i : S256x1024.Idx) :
    (V31 m ρ c (Pipeline.arrRef spec15 2) : S256x1024.Idx → EReal) i = Wn m c (i 1).val (i 0).val :=
  (congrFun (W_at15 m ρ c) i).trans (entry_W m ρ c i)

/-- What level 16's kernel finds in its weight array. -/
theorem entry16_W (c : Dev nD) (i : S256x1024.Idx) :
    (V33 m ρ c (Pipeline.arrRef spec16 2) : S256x1024.Idx → EReal) i = Wn m c (i 1).val (i 0).val :=
  (congrFun (W_at16 m ρ c) i).trans (entry_W m ρ c i)

/-- What level 17's kernel finds in its weight array. -/
theorem entry17_W (c : Dev nD) (i : S256x1024.Idx) :
    (V35 m ρ c (Pipeline.arrRef spec17 2) : S256x1024.Idx → EReal) i = Wn m c (i 1).val (i 0).val :=
  (congrFun (W_at17 m ρ c) i).trans (entry_W m ρ c i)

end Cert.KernelIdeal.TreeK

end
-- ==== Proof.KGlueConstB.lean ====
/-
  The internal kernels' bias array is the same at every level: the host writes it once, before the leaf kernel;
  after that every stretch of host operations only re-reads the previous level's two output arrays, and every
  internal kernel has the array as an input window, which a kernel leaves as it found it (the leaf kernel does not
  touch it at all). So what level k's kernel finds there is what the host wrote.
-/
import proofs.«163443_j13855564497595_2_alg».proof.Proof.Tree
import proofs.«163443_j13855564497595_2_alg».proof.Proof.Gen.KernelIdeal.Frame
import proofs.«163443_j13855564497595_2_alg».proof.Proof.KGlueEntry

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- From the entry of level 0's kernel to the entry of level 1's the bias array does not change. -/
theorem B_step1 (c : Dev nD) : W3 m ρ c (Proc.devRef .tc main_v9) = W1 m ρ c (Proc.devRef .tc main_v9) :=
  calc W3 m ρ c (Proc.devRef .tc main_v9)
    _ = W2 m ρ c (Proc.devRef .tc main_v9) := StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v9) := W2_of_ne m ρ c main_v9 (by decide)

/-- From the entry of level 1's kernel to the entry of level 2's the bias array does not change. -/
theorem B_step2 (c : Dev nD) : W5 m ρ c (Proc.devRef .tc main_v9) = W3 m ρ c (Proc.devRef .tc main_v9) :=
  calc W5 m ρ c (Proc.devRef .tc main_v9)
    _ = W4 m ρ c (Proc.devRef .tc main_v9) := StableHlo.after_of_forall_not_mem (b := Proc.devRef .tc main_v9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v9) := (W4_arr m ρ c 3).trans (((dat1 (V3 m ρ) c).arrAt_in 3 rfl _).trans (A_eq1 (V3 m ρ) c 3))

/-- From the entry of level 2's kernel to the entry of level 3's the bias array does not change. -/
theorem B_step3 (c : Dev nD) : W7 m ρ c (Proc.devRef .tc main_v9) = W5 m ρ c (Proc.devRef .tc main_v9) :=
  calc W7 m ρ c (Proc.devRef .tc main_v9)
    _ = W6 m ρ c (Proc.devRef .tc main_v9) := StableHlo.after_of_forall_not_mem (b := Proc.devRef .tc main_v9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v9) := (W6_arr m ρ c 3).trans (((dat2 (V5 m ρ) c).arrAt_in 3 rfl _).trans (A_eq2 (V5 m ρ) c 3))

/-- From the entry of level 3's kernel to the entry of level 4's the bias array does not change. -/
theorem B_step4 (c : Dev nD) : W9 m ρ c (Proc.devRef .tc main_v9) = W7 m ρ c (Proc.devRef .tc main_v9) :=
  calc W9 m ρ c (Proc.devRef .tc main_v9)
    _ = W8 m ρ c (Proc.devRef .tc main_v9) := StableHlo.after_of_forall_not_mem (b := Proc.devRef .tc main_v9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v9) := (W8_arr m ρ c 3).trans (((dat3 (V7 m ρ) c).arrAt_in 3 rfl _).trans (A_eq3 (V7 m ρ) c 3))

/-- From the entry of level 4's kernel to the entry of level 5's the bias array does not change. -/
theorem B_step5 (c : Dev nD) : W11 m ρ c (Proc.devRef .tc main_v9) = W9 m ρ c (Proc.devRef .tc main_v9) :=
  calc W11 m ρ c (Proc.devRef .tc main_v9)
    _ = W10 m ρ c (Proc.devRef .tc main_v9) := StableHlo.after_of_forall_not_mem (b := Proc.devRef .tc main_v9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v9) := (W10_arr m ρ c 3).trans (((dat4 (V9 m ρ) c).arrAt_in 3 rfl _).trans (A_eq4 (V9 m ρ) c 3))

/-- From the entry of level 5's kernel to the entry of level 6's the bias array does not change. -/
theorem B_step6 (c : Dev nD) : W13 m ρ c (Proc.devRef .tc main_v9) = W11 m ρ c (Proc.devRef .tc main_v9) :=
  calc W13 m ρ c (Proc.devRef .tc main_v9)
    _ = W12 m ρ c (Proc.devRef .tc main_v9) := StableHlo.after_of_forall_not_mem (b := Proc.devRef .tc main_v9) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v9) := (W12_arr m ρ c 3).trans (((dat5 (V11 m ρ) c).arrAt_in 3 rfl _).trans (A_eq5 (V11 m ρ) c 3))

/-- From the entry of level 6's kernel to the entry of level 7's the bias array does not change. -/
theorem B_step7 (c : Dev nD) : W15 m ρ c (Proc.devRef .tc main_v9) = W13 m ρ c (Proc.devRef .tc main_v9) :=
  calc W15 m ρ c (Proc.devRef .tc main_v9)
    _ = W14 m ρ c (Proc.devRef .tc main_v9) := StableHlo.after_of_forall_not_mem (b := Proc.devRef .tc main_v9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v9) := (W14_arr m ρ c 3).trans (((dat6 (V13 m ρ) c).arrAt_in 3 rfl _).trans (A_eq6 (V13 m ρ) c 3))

/-- From the entry of level 7's kernel to the entry of level 8's the bias array does not change. -/
theorem B_step8 (c : Dev nD) : W17 m ρ c (Proc.devRef .tc main_v9) = W15 m ρ c (Proc.devRef .tc main_v9) :=
  calc W17 m ρ c (Proc.devRef .tc main_v9)
    _ = W16 m ρ c (Proc.devRef .tc main_v9) := StableHlo.after_of_forall_not_mem (b := Proc.devRef .tc main_v9) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W15 m ρ c (Proc.devRef .tc main_v9) := (W16_arr m ρ c 3).trans (((dat7 (V15 m ρ) c).arrAt_in 3 rfl _).trans (A_eq7 (V15 m ρ) c 3))

/-- From the entry of level 8's kernel to the entry of level 9's the bias array does not change. -/
theorem B_step9 (c : Dev nD) : W19 m ρ c (Proc.devRef .tc main_v9) = W17 m ρ c (Proc.devRef .tc main_v9) :=
  calc W19 m ρ c (Proc.devRef .tc main_v9)
    _ = W18 m ρ c (Proc.devRef .tc main_v9) := StableHlo.after_of_forall_not_mem (b := Proc.devRef .tc main_v9) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W17 m ρ c (Proc.devRef .tc main_v9) := (W18_arr m ρ c 3).trans (((dat8 (V17 m ρ) c).arrAt_in 3 rfl _).trans (A_eq8 (V17 m ρ) c 3))

/-- From the entry of level 9's kernel to the entry of level 10's the bias array does not change. -/
theorem B_step10 (c : Dev nD) : W21 m ρ c (Proc.devRef .tc main_v9) = W19 m ρ c (Proc.devRef .tc main_v9) :=
  calc W21 m ρ c (Proc.devRef .tc main_v9)
    _ = W20 m ρ c (Proc.devRef .tc main_v9) := StableHlo.after_of_forall_not_mem (b := Proc.devRef .tc main_v9) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W19 m ρ c (Proc.devRef .tc main_v9) := (W20_arr m ρ c 3).trans (((dat9 (V19 m ρ) c).arrAt_in 3 rfl _).trans (A_eq9 (V19 m ρ) c 3))

/-- From the entry of level 10's kernel to the entry of level 11's the bias array does not change. -/
theorem B_step11 (c : Dev nD) : W23 m ρ c (Proc.devRef .tc main_v9) = W21 m ρ c (Proc.devRef .tc main_v9) :=
  calc W23 m ρ c (Proc.devRef .tc main_v9)
    _ = W22 m ρ c (Proc.devRef .tc main_v9) := StableHlo.after_of_forall_not_mem (b := Proc.devRef .tc main_v9) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W21 m ρ c (Proc.devRef .tc main_v9) := (W22_arr m ρ c 3).trans (((dat10 (V21 m ρ) c).arrAt_in 3 rfl _).trans (A_eq10 (V21 m ρ) c 3))

/-- From the entry of level 11's kernel to the entry of level 12's the bias array does not change. -/
theorem B_step12 (c : Dev nD) : W25 m ρ c (Proc.devRef .tc main_v9) = W23 m ρ c (Proc.devRef .tc main_v9) :=
  calc W25 m ρ c (Proc.devRef .tc main_v9)
    _ = W24 m ρ c (Proc.devRef .tc main_v9) := StableHlo.after_of_forall_not_mem (b := Proc.devRef .tc main_v9) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W23 m ρ c (Proc.devRef .tc main_v9) := (W24_arr m ρ c 3).trans (((dat11 (V23 m ρ) c).arrAt_in 3 rfl _).trans (A_eq11 (V23 m ρ) c 3))

/-- From the entry of level 12's kernel to the entry of level 13's the bias array does not change. -/
theorem B_step13 (c : Dev nD) : W27 m ρ c (Proc.devRef .tc main_v9) = W25 m ρ c (Proc.devRef .tc main_v9) :=
  calc W27 m ρ c (Proc.devRef .tc main_v9)
    _ = W26 m ρ c (Proc.devRef .tc main_v9) := StableHlo.after_of_forall_not_mem (b := Proc.devRef .tc main_v9) _ _ (List.forall_iff_forall_mem.mp (by
      simp only [hostOps13, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W25 m ρ c (Proc.devRef .tc main_v9) := (W26_arr m ρ c 3).trans (((dat12 (V25 m ρ) c).arrAt_in 3 rfl _).trans (A_eq12 (V25 m ρ) c 3))

/-- From the entry of level 13's kernel to the entry of level 14's the bias array does not change. -/
theorem B_step14 (c : Dev nD) : W29 m ρ c (Proc.devRef .tc main_v9) = W27 m ρ c (Proc.devRef .tc main_v9) :=
  calc W29 m ρ c (Proc.devRef .tc main_v9)
    _ = W28 m ρ c (Proc.devRef .tc main_v9) := StableHlo.after_of_forall_not_mem (b := Proc.devRef .tc main_v9) _ _ (List.forall_iff_forall_mem.mp (by
      simp only [hostOps14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v9) := (W28_arr m ρ c 3).trans (((dat13 (V27 m ρ) c).arrAt_in 3 rfl _).trans (A_eq13 (V27 m ρ) c 3))

/-- From the entry of level 14's kernel to the entry of level 15's the bias array does not change. -/
theorem B_step15 (c : Dev nD) : W31 m ρ c (Proc.devRef .tc main_v9) = W29 m ρ c (Proc.devRef .tc main_v9) :=
  calc W31 m ρ c (Proc.devRef .tc main_v9)
    _ = W30 m ρ c (Proc.devRef .tc main_v9) := StableHlo.after_of_forall_not_mem (b := Proc.devRef .tc main_v9) _ _ (List.forall_iff_forall_mem.mp (by
      simp only [hostOps15, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_v9) := (W30_arr m ρ c 3).trans (((dat14 (V29 m ρ) c).arrAt_in 3 rfl _).trans (A_eq14 (V29 m ρ) c 3))

/-- From the entry of level 15's kernel to the entry of level 16's the bias array does not change. -/
theorem B_step16 (c : Dev nD) : W33 m ρ c (Proc.devRef .tc main_v9) = W31 m ρ c (Proc.devRef .tc main_v9) :=
  calc W33 m ρ c (Proc.devRef .tc main_v9)
    _ = W32 m ρ c (Proc.devRef .tc main_v9) := StableHlo.after_of_forall_not_mem (b := Proc.devRef .tc main_v9) _ _ (List.forall_iff_forall_mem.mp (by
      simp only [hostOps16, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W31 m ρ c (Proc.devRef .tc main_v9) := (W32_arr m ρ c 3).trans (((dat15 (V31 m ρ) c).arrAt_in 3 rfl _).trans (A_eq15 (V31 m ρ) c 3))

/-- From the entry of level 16's kernel to the entry of level 17's the bias array does not change. -/
theorem B_step17 (c : Dev nD) : W35 m ρ c (Proc.devRef .tc main_v9) = W33 m ρ c (Proc.devRef .tc main_v9) :=
  calc W35 m ρ c (Proc.devRef .tc main_v9)
    _ = W34 m ρ c (Proc.devRef .tc main_v9) := StableHlo.after_of_forall_not_mem (b := Proc.devRef .tc main_v9) _ _ (List.forall_iff_forall_mem.mp (by
      simp only [hostOps17, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v9) := (W34_arr m ρ c 3).trans (((dat16 (V33 m ρ) c).arrAt_in 3 rfl _).trans (A_eq16 (V33 m ρ) c 3))

/-- At the entry of level 1's kernel the bias array is as the host wrote it. -/
theorem B_at1 (c : Dev nD) : W3 m ρ c (Proc.devRef .tc main_v9) = W1 m ρ c (Proc.devRef .tc main_v9) :=
  B_step1 m ρ c

/-- At the entry of level 2's kernel the bias array is as the host wrote it. -/
theorem B_at2 (c : Dev nD) : W5 m ρ c (Proc.devRef .tc main_v9) = W1 m ρ c (Proc.devRef .tc main_v9) :=
  (B_step2 m ρ c).trans (B_at1 m ρ c)

/-- At the entry of level 3's kernel the bias array is as the host wrote it. -/
theorem B_at3 (c : Dev nD) : W7 m ρ c (Proc.devRef .tc main_v9) = W1 m ρ c (Proc.devRef .tc main_v9) :=
  (B_step3 m ρ c).trans (B_at2 m ρ c)

/-- At the entry of level 4's kernel the bias array is as the host wrote it. -/
theorem B_at4 (c : Dev nD) : W9 m ρ c (Proc.devRef .tc main_v9) = W1 m ρ c (Proc.devRef .tc main_v9) :=
  (B_step4 m ρ c).trans (B_at3 m ρ c)

/-- At the entry of level 5's kernel the bias array is as the host wrote it. -/
theorem B_at5 (c : Dev nD) : W11 m ρ c (Proc.devRef .tc main_v9) = W1 m ρ c (Proc.devRef .tc main_v9) :=
  (B_step5 m ρ c).trans (B_at4 m ρ c)

/-- At the entry of level 6's kernel the bias array is as the host wrote it. -/
theorem B_at6 (c : Dev nD) : W13 m ρ c (Proc.devRef .tc main_v9) = W1 m ρ c (Proc.devRef .tc main_v9) :=
  (B_step6 m ρ c).trans (B_at5 m ρ c)

/-- At the entry of level 7's kernel the bias array is as the host wrote it. -/
theorem B_at7 (c : Dev nD) : W15 m ρ c (Proc.devRef .tc main_v9) = W1 m ρ c (Proc.devRef .tc main_v9) :=
  (B_step7 m ρ c).trans (B_at6 m ρ c)

/-- At the entry of level 8's kernel the bias array is as the host wrote it. -/
theorem B_at8 (c : Dev nD) : W17 m ρ c (Proc.devRef .tc main_v9) = W1 m ρ c (Proc.devRef .tc main_v9) :=
  (B_step8 m ρ c).trans (B_at7 m ρ c)

/-- At the entry of level 9's kernel the bias array is as the host wrote it. -/
theorem B_at9 (c : Dev nD) : W19 m ρ c (Proc.devRef .tc main_v9) = W1 m ρ c (Proc.devRef .tc main_v9) :=
  (B_step9 m ρ c).trans (B_at8 m ρ c)

/-- At the entry of level 10's kernel the bias array is as the host wrote it. -/
theorem B_at10 (c : Dev nD) : W21 m ρ c (Proc.devRef .tc main_v9) = W1 m ρ c (Proc.devRef .tc main_v9) :=
  (B_step10 m ρ c).trans (B_at9 m ρ c)

/-- At the entry of level 11's kernel the bias array is as the host wrote it. -/
theorem B_at11 (c : Dev nD) : W23 m ρ c (Proc.devRef .tc main_v9) = W1 m ρ c (Proc.devRef .tc main_v9) :=
  (B_step11 m ρ c).trans (B_at10 m ρ c)

/-- At the entry of level 12's kernel the bias array is as the host wrote it. -/
theorem B_at12 (c : Dev nD) : W25 m ρ c (Proc.devRef .tc main_v9) = W1 m ρ c (Proc.devRef .tc main_v9) :=
  (B_step12 m ρ c).trans (B_at11 m ρ c)

/-- At the entry of level 13's kernel the bias array is as the host wrote it. -/
theorem B_at13 (c : Dev nD) : W27 m ρ c (Proc.devRef .tc main_v9) = W1 m ρ c (Proc.devRef .tc main_v9) :=
  (B_step13 m ρ c).trans (B_at12 m ρ c)

/-- At the entry of level 14's kernel the bias array is as the host wrote it. -/
theorem B_at14 (c : Dev nD) : W29 m ρ c (Proc.devRef .tc main_v9) = W1 m ρ c (Proc.devRef .tc main_v9) :=
  (B_step14 m ρ c).trans (B_at13 m ρ c)

/-- At the entry of level 15's kernel the bias array is as the host wrote it. -/
theorem B_at15 (c : Dev nD) : W31 m ρ c (Proc.devRef .tc main_v9) = W1 m ρ c (Proc.devRef .tc main_v9) :=
  (B_step15 m ρ c).trans (B_at14 m ρ c)

/-- At the entry of level 16's kernel the bias array is as the host wrote it. -/
theorem B_at16 (c : Dev nD) : W33 m ρ c (Proc.devRef .tc main_v9) = W1 m ρ c (Proc.devRef .tc main_v9) :=
  (B_step16 m ρ c).trans (B_at15 m ρ c)

/-- At the entry of level 17's kernel the bias array is as the host wrote it. -/
theorem B_at17 (c : Dev nD) : W35 m ρ c (Proc.devRef .tc main_v9) = W1 m ρ c (Proc.devRef .tc main_v9) :=
  (B_step17 m ρ c).trans (B_at16 m ρ c)

/-- What level 1's kernel finds in its bias array. -/
theorem entry1_B (c : Dev nD) (i : S1x1024.Idx) :
    (V3 m ρ c (Pipeline.arrRef spec1 3) : S1x1024.Idx → EReal) i = bn m c (i 1).val :=
  (congrFun (B_at1 m ρ c) i).trans (entry_B m ρ c i)

/-- What level 2's kernel finds in its bias array. -/
theorem entry2_B (c : Dev nD) (i : S1x1024.Idx) :
    (V5 m ρ c (Pipeline.arrRef spec2 3) : S1x1024.Idx → EReal) i = bn m c (i 1).val :=
  (congrFun (B_at2 m ρ c) i).trans (entry_B m ρ c i)

/-- What level 3's kernel finds in its bias array. -/
theorem entry3_B (c : Dev nD) (i : S1x1024.Idx) :
    (V7 m ρ c (Pipeline.arrRef spec3 3) : S1x1024.Idx → EReal) i = bn m c (i 1).val :=
  (congrFun (B_at3 m ρ c) i).trans (entry_B m ρ c i)

/-- What level 4's kernel finds in its bias array. -/
theorem entry4_B (c : Dev nD) (i : S1x1024.Idx) :
    (V9 m ρ c (Pipeline.arrRef spec4 3) : S1x1024.Idx → EReal) i = bn m c (i 1).val :=
  (congrFun (B_at4 m ρ c) i).trans (entry_B m ρ c i)

/-- What level 5's kernel finds in its bias array. -/
theorem entry5_B (c : Dev nD) (i : S1x1024.Idx) :
    (V11 m ρ c (Pipeline.arrRef spec5 3) : S1x1024.Idx → EReal) i = bn m c (i 1).val :=
  (congrFun (B_at5 m ρ c) i).trans (entry_B m ρ c i)

/-- What level 6's kernel finds in its bias array. -/
theorem entry6_B (c : Dev nD) (i : S1x1024.Idx) :
    (V13 m ρ c (Pipeline.arrRef spec6 3) : S1x1024.Idx → EReal) i = bn m c (i 1).val :=
  (congrFun (B_at6 m ρ c) i).trans (entry_B m ρ c i)

/-- What level 7's kernel finds in its bias array. -/
theorem entry7_B (c : Dev nD) (i : S1x1024.Idx) :
    (V15 m ρ c (Pipeline.arrRef spec7 3) : S1x1024.Idx → EReal) i = bn m c (i 1).val :=
  (congrFun (B_at7 m ρ c) i).trans (entry_B m ρ c i)

/-- What level 8's kernel finds in its bias array. -/
theorem entry8_B (c : Dev nD) (i : S1x1024.Idx) :
    (V17 m ρ c (Pipeline.arrRef spec8 3) : S1x1024.Idx → EReal) i = bn m c (i 1).val :=
  (congrFun (B_at8 m ρ c) i).trans (entry_B m ρ c i)

/-- What level 9's kernel finds in its bias array. -/
theorem entry9_B (c : Dev nD) (i : S1x1024.Idx) :
    (V19 m ρ c (Pipeline.arrRef spec9 3) : S1x1024.Idx → EReal) i = bn m c (i 1).val :=
  (congrFun (B_at9 m ρ c) i).trans (entry_B m ρ c i)

/-- What level 10's kernel finds in its bias array. -/
theorem entry10_B (c : Dev nD) (i : S1x1024.Idx) :
    (V21 m ρ c (Pipeline.arrRef spec10 3) : S1x1024.Idx → EReal) i = bn m c (i 1).val :=
  (congrFun (B_at10 m ρ c) i).trans (entry_B m ρ c i)

/-- What level 11's kernel finds in its bias array. -/
theorem entry11_B (c : Dev nD) (i : S1x1024.Idx) :
    (V23 m ρ c (Pipeline.arrRef spec11 3) : S1x1024.Idx → EReal) i = bn m c (i 1).val :=
  (congrFun (B_at11 m ρ c) i).trans (entry_B m ρ c i)

/-- What level 12's kernel finds in its bias array. -/
theorem entry12_B (c : Dev nD) (i : S1x1024.Idx) :
    (V25 m ρ c (Pipeline.arrRef spec12 3) : S1x1024.Idx → EReal) i = bn m c (i 1).val :=
  (congrFun (B_at12 m ρ c) i).trans (entry_B m ρ c i)

/-- What level 13's kernel finds in its bias array. -/
theorem entry13_B (c : Dev nD) (i : S1x1024.Idx) :
    (V27 m ρ c (Pipeline.arrRef spec13 3) : S1x1024.Idx → EReal) i = bn m c (i 1).val :=
  (congrFun (B_at13 m ρ c) i).trans (entry_B m ρ c i)

/-- What level 14's kernel finds in its bias array. -/
theorem entry14_B (c : Dev nD) (i : S1x1024.Idx) :
    (V29 m ρ c (Pipeline.arrRef spec14 3) : S1x1024.Idx → EReal) i = bn m c (i 1).val :=
  (congrFun (B_at14 m ρ c) i).trans (entry_B m ρ c i)

/-- What level 15's kernel finds in its bias array. -/
theorem entry15_B (c : Dev nD) (i : S1x1024.Idx) :
    (V31 m ρ c (Pipeline.arrRef spec15 3) : S1x1024.Idx → EReal) i = bn m c (i 1).val :=
  (congrFun (B_at15 m ρ c) i).trans (entry_B m ρ c i)

/-- What level 16's kernel finds in its bias array. -/
theorem entry16_B (c : Dev nD) (i : S1x1024.Idx) :
    (V33 m ρ c (Pipeline.arrRef spec16 3) : S1x1024.Idx → EReal) i = bn m c (i 1).val :=
  (congrFun (B_at16 m ρ c) i).trans (entry_B m ρ c i)

/-- What level 17's kernel finds in its bias array. -/
theorem entry17_B (c : Dev nD) (i : S1x1024.Idx) :
    (V35 m ρ c (Pipeline.arrRef spec17 3) : S1x1024.Idx → EReal) i = bn m c (i 1).val :=
  (congrFun (B_at17 m ρ c) i).trans (entry_B m ρ c i)

end Cert.KernelIdeal.TreeK

end
-- ==== Proof.KGlueStep1.lean ====
/-
  From level 0 to level 1 of the tree: between the two kernels the host re-reads each of level 0's two
  output arrays, 131072 rows of 256, as 65536 rows of 512, so that node r of level 1 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 1's hidden input array is level 0's hidden output array re-read as 65536 rows of 512. -/
theorem entry1_H_eq (c : Dev nD) : (V3 m ρ c (Pipeline.arrRef spec1 0) : S65536x512.Idx → EReal)
    = shapeCast S65536x512 ((dat0 (V1 m ρ) c).arrAt 3 cfg0.N : S131072x256.Idx → EReal) shapeCasts_S131072x256_S65536x512 := by
  have e : (V3 m ρ c main_v11 : S65536x512.Idx → EReal)
      = shapeCast S65536x512 (W2 m ρ c (Proc.devRef .tc main_v10_0) : S131072x256.Idx → EReal) shapeCasts_S131072x256_S65536x512 := by
    dsimp only [V3, W3, hostOps1]; after_results; rfl
  exact e.trans (congrArg (fun A : S131072x256.Idx → EReal => shapeCast S65536x512 A shapeCasts_S131072x256_S65536x512) (W2_arr m ρ c 3))

/-- If level 0's hidden output array is `hp` at every row and column, level 1's hidden input array is
    `paired hp`: node r's row holds its two children's rows side by side. -/
theorem entry1_H (c : Dev nD) (hp : Nat → Nat → EReal)
    (hprev : ∀ j : S131072x256.Idx, ((dat0 (V1 m ρ) c).arrAt 3 cfg0.N : S131072x256.Idx → EReal) j = hp (j 0).val (j 1).val)
    (i : S65536x512.Idx) :
    (V3 m ρ c (Pipeline.arrRef spec1 0) : S65536x512.Idx → EReal) i = Cert.Tree.paired hp (i 0).val (i 1).val :=
  (congrFun (entry1_H_eq m ρ c) i).trans (paired_of_shapeCast (a := 131072) (n := 65536) rfl _ _ hp hprev i)

/-- Level 1's cell input array is level 0's cell output array re-read as 65536 rows of 512. -/
theorem entry1_C_eq (c : Dev nD) : (V3 m ρ c (Pipeline.arrRef spec1 1) : S65536x512.Idx → EReal)
    = shapeCast S65536x512 ((dat0 (V1 m ρ) c).arrAt 4 cfg0.N : S131072x256.Idx → EReal) shapeCasts_S131072x256_S65536x512 := by
  have e : (V3 m ρ c main_v12 : S65536x512.Idx → EReal)
      = shapeCast S65536x512 (W2 m ρ c (Proc.devRef .tc main_v10_1) : S131072x256.Idx → EReal) shapeCasts_S131072x256_S65536x512 := by
    dsimp only [V3, W3, hostOps1]; after_results; rfl
  exact e.trans (congrArg (fun A : S131072x256.Idx → EReal => shapeCast S65536x512 A shapeCasts_S131072x256_S65536x512) (W2_arr m ρ c 4))

/-- If level 0's cell output array is `hp` at every row and column, level 1's cell input array is
    `paired hp`: node r's row holds its two children's rows side by side. -/
theorem entry1_C (c : Dev nD) (hp : Nat → Nat → EReal)
    (hprev : ∀ j : S131072x256.Idx, ((dat0 (V1 m ρ) c).arrAt 4 cfg0.N : S131072x256.Idx → EReal) j = hp (j 0).val (j 1).val)
    (i : S65536x512.Idx) :
    (V3 m ρ c (Pipeline.arrRef spec1 1) : S65536x512.Idx → EReal) i = Cert.Tree.paired hp (i 0).val (i 1).val :=
  (congrFun (entry1_C_eq m ρ c) i).trans (paired_of_shapeCast (a := 131072) (n := 65536) rfl _ _ hp hprev i)

end Cert.KernelIdeal.TreeK

end
-- ==== Proof.KGlueStep2.lean ====
/-
  From level 1 to level 2 of the tree: between the two kernels the host re-reads each of level 1's two
  output arrays, 65536 rows of 256, as 32768 rows of 512, so that node r of level 2 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 2's hidden input array is level 1's hidden output array re-read as 32768 rows of 512. -/
theorem entry2_H_eq (c : Dev nD) : (V5 m ρ c (Pipeline.arrRef spec2 0) : S32768x512.Idx → EReal)
    = shapeCast S32768x512 ((dat1 (V3 m ρ) c).arrAt 4 cfg1.N : S65536x256.Idx → EReal) shapeCasts_S65536x256_S32768x512 := by
  have e : (V5 m ρ c main_v14 : S32768x512.Idx → EReal)
      = shapeCast S32768x512 (W4 m ρ c (Proc.devRef .tc main_v13_0) : S65536x256.Idx → EReal) shapeCasts_S65536x256_S32768x512 := by
    dsimp only [V5, W5, hostOps2]; after_results; rfl
  exact e.trans (congrArg (fun A : S65536x256.Idx → EReal => shapeCast S32768x512 A shapeCasts_S65536x256_S32768x512) (W4_arr m ρ c 4))

/-- If level 1's hidden output array is `hp` at every row and column, level 2's hidden input array is
    `paired hp`: node r's row holds its two children's rows side by side. -/
theorem entry2_H (c : Dev nD) (hp : Nat → Nat → EReal)
    (hprev : ∀ j : S65536x256.Idx, ((dat1 (V3 m ρ) c).arrAt 4 cfg1.N : S65536x256.Idx → EReal) j = hp (j 0).val (j 1).val)
    (i : S32768x512.Idx) :
    (V5 m ρ c (Pipeline.arrRef spec2 0) : S32768x512.Idx → EReal) i = Cert.Tree.paired hp (i 0).val (i 1).val :=
  (congrFun (entry2_H_eq m ρ c) i).trans (paired_of_shapeCast (a := 65536) (n := 32768) rfl _ _ hp hprev i)

/-- Level 2's cell input array is level 1's cell output array re-read as 32768 rows of 512. -/
theorem entry2_C_eq (c : Dev nD) : (V5 m ρ c (Pipeline.arrRef spec2 1) : S32768x512.Idx → EReal)
    = shapeCast S32768x512 ((dat1 (V3 m ρ) c).arrAt 5 cfg1.N : S65536x256.Idx → EReal) shapeCasts_S65536x256_S32768x512 := by
  have e : (V5 m ρ c main_v15 : S32768x512.Idx → EReal)
      = shapeCast S32768x512 (W4 m ρ c (Proc.devRef .tc main_v13_1) : S65536x256.Idx → EReal) shapeCasts_S65536x256_S32768x512 := by
    dsimp only [V5, W5, hostOps2]; after_results; rfl
  exact e.trans (congrArg (fun A : S65536x256.Idx → EReal => shapeCast S32768x512 A shapeCasts_S65536x256_S32768x512) (W4_arr m ρ c 5))

/-- If level 1's cell output array is `hp` at every row and column, level 2's cell input array is
    `paired hp`: node r's row holds its two children's rows side by side. -/
theorem entry2_C (c : Dev nD) (hp : Nat → Nat → EReal)
    (hprev : ∀ j : S65536x256.Idx, ((dat1 (V3 m ρ) c).arrAt 5 cfg1.N : S65536x256.Idx → EReal) j = hp (j 0).val (j 1).val)
    (i : S32768x512.Idx) :
    (V5 m ρ c (Pipeline.arrRef spec2 1) : S32768x512.Idx → EReal) i = Cert.Tree.paired hp (i 0).val (i 1).val :=
  (congrFun (entry2_C_eq m ρ c) i).trans (paired_of_shapeCast (a := 65536) (n := 32768) rfl _ _ hp hprev i)

end Cert.KernelIdeal.TreeK

end
-- ==== Proof.KGlueStep3.lean ====
/-
  From level 2 to level 3 of the tree: between the two kernels the host re-reads each of level 2's two
  output arrays, 32768 rows of 256, as 16384 rows of 512, so that node r of level 3 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 3's hidden input array is level 2's hidden output array re-read as 16384 rows of 512. -/
theorem entry3_H_eq (c : Dev nD) : (V7 m ρ c (Pipeline.arrRef spec3 0) : S16384x512.Idx → EReal)
    = shapeCast S16384x512 ((dat2 (V5 m ρ) c).arrAt 4 cfg2.N : S32768x256.Idx → EReal) shapeCasts_S32768x256_S16384x512 := by
  have e : (V7 m ρ c main_v17 : S16384x512.Idx → EReal)
      = shapeCast S16384x512 (W6 m ρ c (Proc.devRef .tc main_v16_0) : S32768x256.Idx → EReal) shapeCasts_S32768x256_S16384x512 := by
    dsimp only [V7, W7, hostOps3]; after_results; rfl
  exact e.trans (congrArg (fun A : S32768x256.Idx → EReal => shapeCast S16384x512 A shapeCasts_S32768x256_S16384x512) (W6_arr m ρ c 4))

/-- If level 2's hidden output array is `hp` at every row and column, level 3's hidden input array is
    `paired hp`: node r's row holds its two children's rows side by side. -/
theorem entry3_H (c : Dev nD) (hp : Nat → Nat → EReal)
    (hprev : ∀ j : S32768x256.Idx, ((dat2 (V5 m ρ) c).arrAt 4 cfg2.N : S32768x256.Idx → EReal) j = hp (j 0).val (j 1).val)
    (i : S16384x512.Idx) :
    (V7 m ρ c (Pipeline.arrRef spec3 0) : S16384x512.Idx → EReal) i = Cert.Tree.paired hp (i 0).val (i 1).val :=
  (congrFun (entry3_H_eq m ρ c) i).trans (paired_of_shapeCast (a := 32768) (n := 16384) rfl _ _ hp hprev i)

/-- Level 3's cell input array is level 2's cell output array re-read as 16384 rows of 512. -/
theorem entry3_C_eq (c : Dev nD) : (V7 m ρ c (Pipeline.arrRef spec3 1) : S16384x512.Idx → EReal)
    = shapeCast S16384x512 ((dat2 (V5 m ρ) c).arrAt 5 cfg2.N : S32768x256.Idx → EReal) shapeCasts_S32768x256_S16384x512 := by
  have e : (V7 m ρ c main_v18 : S16384x512.Idx → EReal)
      = shapeCast S16384x512 (W6 m ρ c (Proc.devRef .tc main_v16_1) : S32768x256.Idx → EReal) shapeCasts_S32768x256_S16384x512 := by
    dsimp only [V7, W7, hostOps3]; after_results; rfl
  exact e.trans (congrArg (fun A : S32768x256.Idx → EReal => shapeCast S16384x512 A shapeCasts_S32768x256_S16384x512) (W6_arr m ρ c 5))

/-- If level 2's cell output array is `hp` at every row and column, level 3's cell input array is
    `paired hp`: node r's row holds its two children's rows side by side. -/
theorem entry3_C (c : Dev nD) (hp : Nat → Nat → EReal)
    (hprev : ∀ j : S32768x256.Idx, ((dat2 (V5 m ρ) c).arrAt 5 cfg2.N : S32768x256.Idx → EReal) j = hp (j 0).val (j 1).val)
    (i : S16384x512.Idx) :
    (V7 m ρ c (Pipeline.arrRef spec3 1) : S16384x512.Idx → EReal) i = Cert.Tree.paired hp (i 0).val (i 1).val :=
  (congrFun (entry3_C_eq m ρ c) i).trans (paired_of_shapeCast (a := 32768) (n := 16384) rfl _ _ hp hprev i)

end Cert.KernelIdeal.TreeK

end
-- ==== Proof.KGlueStep4.lean ====
/-
  From level 3 to level 4 of the tree: between the two kernels the host re-reads each of level 3's two
  output arrays, 16384 rows of 256, as 8192 rows of 512, so that node r of level 4 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 4's hidden input array is level 3's hidden output array re-read as 8192 rows of 512. -/
theorem entry4_H_eq (c : Dev nD) : (V9 m ρ c (Pipeline.arrRef spec4 0) : S8192x512.Idx → EReal)
    = shapeCast S8192x512 ((dat3 (V7 m ρ) c).arrAt 4 cfg3.N : S16384x256.Idx → EReal) shapeCasts_S16384x256_S8192x512 := by
  have e : (V9 m ρ c main_v20 : S8192x512.Idx → EReal)
      = shapeCast S8192x512 (W8 m ρ c (Proc.devRef .tc main_v19_0) : S16384x256.Idx → EReal) shapeCasts_S16384x256_S8192x512 := by
    dsimp only [V9, W9, hostOps4]; after_results; rfl
  exact e.trans (congrArg (fun A : S16384x256.Idx → EReal => shapeCast S8192x512 A shapeCasts_S16384x256_S8192x512) (W8_arr m ρ c 4))

/-- If level 3's hidden output array is `hp` at every row and column, level 4's hidden input array is
    `paired hp`: node r's row holds its two children's rows side by side. -/
theorem entry4_H (c : Dev nD) (hp : Nat → Nat → EReal)
    (hprev : ∀ j : S16384x256.Idx, ((dat3 (V7 m ρ) c).arrAt 4 cfg3.N : S16384x256.Idx → EReal) j = hp (j 0).val (j 1).val)
    (i : S8192x512.Idx) :
    (V9 m ρ c (Pipeline.arrRef spec4 0) : S8192x512.Idx → EReal) i = Cert.Tree.paired hp (i 0).val (i 1).val :=
  (congrFun (entry4_H_eq m ρ c) i).trans (paired_of_shapeCast (a := 16384) (n := 8192) rfl _ _ hp hprev i)

/-- Level 4's cell input array is level 3's cell output array re-read as 8192 rows of 512. -/
theorem entry4_C_eq (c : Dev nD) : (V9 m ρ c (Pipeline.arrRef spec4 1) : S8192x512.Idx → EReal)
    = shapeCast S8192x512 ((dat3 (V7 m ρ) c).arrAt 5 cfg3.N : S16384x256.Idx → EReal) shapeCasts_S16384x256_S8192x512 := by
  have e : (V9 m ρ c main_v21 : S8192x512.Idx → EReal)
      = shapeCast S8192x512 (W8 m ρ c (Proc.devRef .tc main_v19_1) : S16384x256.Idx → EReal) shapeCasts_S16384x256_S8192x512 := by
    dsimp only [V9, W9, hostOps4]; after_results; rfl
  exact e.trans (congrArg (fun A : S16384x256.Idx → EReal => shapeCast S8192x512 A shapeCasts_S16384x256_S8192x512) (W8_arr m ρ c 5))

/-- If level 3's cell output array is `hp` at every row and column, level 4's cell input array is
    `paired hp`: node r's row holds its two children's rows side by side. -/
theorem entry4_C (c : Dev nD) (hp : Nat → Nat → EReal)
    (hprev : ∀ j : S16384x256.Idx, ((dat3 (V7 m ρ) c).arrAt 5 cfg3.N : S16384x256.Idx → EReal) j = hp (j 0).val (j 1).val)
    (i : S8192x512.Idx) :
    (V9 m ρ c (Pipeline.arrRef spec4 1) : S8192x512.Idx → EReal) i = Cert.Tree.paired hp (i 0).val (i 1).val :=
  (congrFun (entry4_C_eq m ρ c) i).trans (paired_of_shapeCast (a := 16384) (n := 8192) rfl _ _ hp hprev i)

end Cert.KernelIdeal.TreeK

end
-- ==== Proof.KGlueStep5.lean ====
/-
  From level 4 to level 5 of the tree: between the two kernels the host re-reads each of level 4's two
  output arrays, 8192 rows of 256, as 4096 rows of 512, so that node r of level 5 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 5's hidden input array is level 4's hidden output array re-read as 4096 rows of 512. -/
theorem entry5_H_eq (c : Dev nD) : (V11 m ρ c (Pipeline.arrRef spec5 0) : S4096x512.Idx → EReal)
    = shapeCast S4096x512 ((dat4 (V9 m ρ) c).arrAt 4 cfg4.N : S8192x256.Idx → EReal) shapeCasts_S8192x256_S4096x512 := by
  have e : (V11 m ρ c main_v23 : S4096x512.Idx → EReal)
      = shapeCast S4096x512 (W10 m ρ c (Proc.devRef .tc main_v22_0) : S8192x256.Idx → EReal) shapeCasts_S8192x256_S4096x512 := by
    dsimp only [V11, W11, hostOps5]; after_results; rfl
  exact e.trans (congrArg (fun A : S8192x256.Idx → EReal => shapeCast S4096x512 A shapeCasts_S8192x256_S4096x512) (W10_arr m ρ c 4))

/-- If level 4's hidden output array is `hp` at every row and column, level 5's hidden input array is
    `paired hp`: node r's row holds its two children's rows side by side. -/
theorem entry5_H (c : Dev nD) (hp : Nat → Nat → EReal)
    (hprev : ∀ j : S8192x256.Idx, ((dat4 (V9 m ρ) c).arrAt 4 cfg4.N : S8192x256.Idx → EReal) j = hp (j 0).val (j 1).val)
    (i : S4096x512.Idx) :
    (V11 m ρ c (Pipeline.arrRef spec5 0) : S4096x512.Idx → EReal) i = Cert.Tree.paired hp (i 0).val (i 1).val :=
  (congrFun (entry5_H_eq m ρ c) i).trans (paired_of_shapeCast (a := 8192) (n := 4096) rfl _ _ hp hprev i)

/-- Level 5's cell input array is level 4's cell output array re-read as 4096 rows of 512. -/
theorem entry5_C_eq (c : Dev nD) : (V11 m ρ c (Pipeline.arrRef spec5 1) : S4096x512.Idx → EReal)
    = shapeCast S4096x512 ((dat4 (V9 m ρ) c).arrAt 5 cfg4.N : S8192x256.Idx → EReal) shapeCasts_S8192x256_S4096x512 := by
  have e : (V11 m ρ c main_v24 : S4096x512.Idx → EReal)
      = shapeCast S4096x512 (W10 m ρ c (Proc.devRef .tc main_v22_1) : S8192x256.Idx → EReal) shapeCasts_S8192x256_S4096x512 := by
    dsimp only [V11, W11, hostOps5]; after_results; rfl
  exact e.trans (congrArg (fun A : S8192x256.Idx → EReal => shapeCast S4096x512 A shapeCasts_S8192x256_S4096x512) (W10_arr m ρ c 5))

/-- If level 4's cell output array is `hp` at every row and column, level 5's cell input array is
    `paired hp`: node r's row holds its two children's rows side by side. -/
theorem entry5_C (c : Dev nD) (hp : Nat → Nat → EReal)
    (hprev : ∀ j : S8192x256.Idx, ((dat4 (V9 m ρ) c).arrAt 5 cfg4.N : S8192x256.Idx → EReal) j = hp (j 0).val (j 1).val)
    (i : S4096x512.Idx) :
    (V11 m ρ c (Pipeline.arrRef spec5 1) : S4096x512.Idx → EReal) i = Cert.Tree.paired hp (i 0).val (i 1).val :=
  (congrFun (entry5_C_eq m ρ c) i).trans (paired_of_shapeCast (a := 8192) (n := 4096) rfl _ _ hp hprev i)

end Cert.KernelIdeal.TreeK

end
-- ==== Proof.KGlueStep6.lean ====
/-
  From level 5 to level 6 of the tree: between the two kernels the host re-reads each of level 5's two
  output arrays, 4096 rows of 256, as 2048 rows of 512, so that node r of level 6 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 6's hidden input array is level 5's hidden output array re-read as 2048 rows of 512. -/
theorem entry6_H_eq (c : Dev nD) : (V13 m ρ c (Pipeline.arrRef spec6 0) : S2048x512.Idx → EReal)
    = shapeCast S2048x512 ((dat5 (V11 m ρ) c).arrAt 4 cfg5.N : S4096x256.Idx → EReal) shapeCasts_S4096x256_S2048x512 := by
  have e : (V13 m ρ c main_v26 : S2048x512.Idx → EReal)
      = shapeCast S2048x512 (W12 m ρ c (Proc.devRef .tc main_v25_0) : S4096x256.Idx → EReal) shapeCasts_S4096x256_S2048x512 := by
    dsimp only [V13, W13, hostOps6]; after_results; rfl
  exact e.trans (congrArg (fun A : S4096x256.Idx → EReal => shapeCast S2048x512 A shapeCasts_S4096x256_S2048x512) (W12_arr m ρ c 4))

/-- If level 5's hidden output array is `hp` at every row and column, level 6's hidden input array is
    `paired hp`: node r's row holds its two children's rows side by side. -/
theorem entry6_H (c : Dev nD) (hp : Nat → Nat → EReal)
    (hprev : ∀ j : S4096x256.Idx, ((dat5 (V11 m ρ) c).arrAt 4 cfg5.N : S4096x256.Idx → EReal) j = hp (j 0).val (j 1).val)
    (i : S2048x512.Idx) :
    (V13 m ρ c (Pipeline.arrRef spec6 0) : S2048x512.Idx → EReal) i = Cert.Tree.paired hp (i 0).val (i 1).val :=
  (congrFun (entry6_H_eq m ρ c) i).trans (paired_of_shapeCast (a := 4096) (n := 2048) rfl _ _ hp hprev i)

/-- Level 6's cell input array is level 5's cell output array re-read as 2048 rows of 512. -/
theorem entry6_C_eq (c : Dev nD) : (V13 m ρ c (Pipeline.arrRef spec6 1) : S2048x512.Idx → EReal)
    = shapeCast S2048x512 ((dat5 (V11 m ρ) c).arrAt 5 cfg5.N : S4096x256.Idx → EReal) shapeCasts_S4096x256_S2048x512 := by
  have e : (V13 m ρ c main_v27 : S2048x512.Idx → EReal)
      = shapeCast S2048x512 (W12 m ρ c (Proc.devRef .tc main_v25_1) : S4096x256.Idx → EReal) shapeCasts_S4096x256_S2048x512 := by
    dsimp only [V13, W13, hostOps6]; after_results; rfl
  exact e.trans (congrArg (fun A : S4096x256.Idx → EReal => shapeCast S2048x512 A shapeCasts_S4096x256_S2048x512) (W12_arr m ρ c 5))

/-- If level 5's cell output array is `hp` at every row and column, level 6's cell input array is
    `paired hp`: node r's row holds its two children's rows side by side. -/
theorem entry6_C (c : Dev nD) (hp : Nat → Nat → EReal)
    (hprev : ∀ j : S4096x256.Idx, ((dat5 (V11 m ρ) c).arrAt 5 cfg5.N : S4096x256.Idx → EReal) j = hp (j 0).val (j 1).val)
    (i : S2048x512.Idx) :
    (V13 m ρ c (Pipeline.arrRef spec6 1) : S2048x512.Idx → EReal) i = Cert.Tree.paired hp (i 0).val (i 1).val :=
  (congrFun (entry6_C_eq m ρ c) i).trans (paired_of_shapeCast (a := 4096) (n := 2048) rfl _ _ hp hprev i)

end Cert.KernelIdeal.TreeK

end
-- ==== Proof.KGlueStep7.lean ====
/-
  From level 6 to level 7 of the tree: between the two kernels the host re-reads each of level 6's two
  output arrays, 2048 rows of 256, as 1024 rows of 512, so that node r of level 7 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 7's hidden input array is level 6's hidden output array re-read as 1024 rows of 512. -/
theorem entry7_H_eq (c : Dev nD) : (V15 m ρ c (Pipeline.arrRef spec7 0) : S1024x512.Idx → EReal)
    = shapeCast S1024x512 ((dat6 (V13 m ρ) c).arrAt 4 cfg6.N : S2048x256.Idx → EReal) shapeCasts_S2048x256_S1024x512 := by
  have e : (V15 m ρ c main_v29 : S1024x512.Idx → EReal)
      = shapeCast S1024x512 (W14 m ρ c (Proc.devRef .tc main_v28_0) : S2048x256.Idx → EReal) shapeCasts_S2048x256_S1024x512 := by
    dsimp only [V15, W15, hostOps7]; after_results; rfl
  exact e.trans (congrArg (fun A : S2048x256.Idx → EReal => shapeCast S1024x512 A shapeCasts_S2048x256_S1024x512) (W14_arr m ρ c 4))

/-- If level 6's hidden output array is `hp` at every row and column, level 7's hidden input array is
    `paired hp`: node r's row holds its two children's rows side by side. -/
theorem entry7_H (c : Dev nD) (hp : Nat → Nat → EReal)
    (hprev : ∀ j : S2048x256.Idx, ((dat6 (V13 m ρ) c).arrAt 4 cfg6.N : S2048x256.Idx → EReal) j = hp (j 0).val (j 1).val)
    (i : S1024x512.Idx) :
    (V15 m ρ c (Pipeline.arrRef spec7 0) : S1024x512.Idx → EReal) i = Cert.Tree.paired hp (i 0).val (i 1).val :=
  (congrFun (entry7_H_eq m ρ c) i).trans (paired_of_shapeCast (a := 2048) (n := 1024) rfl _ _ hp hprev i)

/-- Level 7's cell input array is level 6's cell output array re-read as 1024 rows of 512. -/
theorem entry7_C_eq (c : Dev nD) : (V15 m ρ c (Pipeline.arrRef spec7 1) : S1024x512.Idx → EReal)
    = shapeCast S1024x512 ((dat6 (V13 m ρ) c).arrAt 5 cfg6.N : S2048x256.Idx → EReal) shapeCasts_S2048x256_S1024x512 := by
  have e : (V15 m ρ c main_v30 : S1024x512.Idx → EReal)
      = shapeCast S1024x512 (W14 m ρ c (Proc.devRef .tc main_v28_1) : S2048x256.Idx → EReal) shapeCasts_S2048x256_S1024x512 := by
    dsimp only [V15, W15, hostOps7]; after_results; rfl
  exact e.trans (congrArg (fun A : S2048x256.Idx → EReal => shapeCast S1024x512 A shapeCasts_S2048x256_S1024x512) (W14_arr m ρ c 5))

/-- If level 6's cell output array is `hp` at every row and column, level 7's cell input array is
    `paired hp`: node r's row holds its two children's rows side by side. -/
theorem entry7_C (c : Dev nD) (hp : Nat → Nat → EReal)
    (hprev : ∀ j : S2048x256.Idx, ((dat6 (V13 m ρ) c).arrAt 5 cfg6.N : S2048x256.Idx → EReal) j = hp (j 0).val (j 1).val)
    (i : S1024x512.Idx) :
    (V15 m ρ c (Pipeline.arrRef spec7 1) : S1024x512.Idx → EReal) i = Cert.Tree.paired hp (i 0).val (i 1).val :=
  (congrFun (entry7_C_eq m ρ c) i).trans (paired_of_shapeCast (a := 2048) (n := 1024) rfl _ _ hp hprev i)

end Cert.KernelIdeal.TreeK

end
-- ==== Proof.KGlueStep8.lean ====
/-
  From level 7 to level 8 of the tree: between the two kernels the host re-reads each of level 7's two
  output arrays, 1024 rows of 256, as 512 rows of 512, so that node r of level 8 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 8's hidden input array is level 7's hidden output array re-read as 512 rows of 512. -/
theorem entry8_H_eq (c : Dev nD) : (V17 m ρ c (Pipeline.arrRef spec8 0) : S512x512.Idx → EReal)
    = shapeCast S512x512 ((dat7 (V15 m ρ) c).arrAt 4 cfg7.N : S1024x256.Idx → EReal) shapeCasts_S1024x256_S512x512 := by
  have e : (V17 m ρ c main_v32 : S512x512.Idx → EReal)
      = shapeCast S512x512 (W16 m ρ c (Proc.devRef .tc main_v31_0) : S1024x256.Idx → EReal) shapeCasts_S1024x256_S512x512 := by
    dsimp only [V17, W17, hostOps8]; after_results; rfl
  exact e.trans (congrArg (fun A : S1024x256.Idx → EReal => shapeCast S512x512 A shapeCasts_S1024x256_S512x512) (W16_arr m ρ c 4))

/-- If level 7's hidden output array is `hp` at every row and column, level 8's hidden input array is
    `paired hp`: node r's row holds its two children's rows side by side. -/
theorem entry8_H (c : Dev nD) (hp : Nat → Nat → EReal)
    (hprev : ∀ j : S1024x256.Idx, ((dat7 (V15 m ρ) c).arrAt 4 cfg7.N : S1024x256.Idx → EReal) j = hp (j 0).val (j 1).val)
    (i : S512x512.Idx) :
    (V17 m ρ c (Pipeline.arrRef spec8 0) : S512x512.Idx → EReal) i = Cert.Tree.paired hp (i 0).val (i 1).val :=
  (congrFun (entry8_H_eq m ρ c) i).trans (paired_of_shapeCast (a := 1024) (n := 512) rfl _ _ hp hprev i)

/-- Level 8's cell input array is level 7's cell output array re-read as 512 rows of 512. -/
theorem entry8_C_eq (c : Dev nD) : (V17 m ρ c (Pipeline.arrRef spec8 1) : S512x512.Idx → EReal)
    = shapeCast S512x512 ((dat7 (V15 m ρ) c).arrAt 5 cfg7.N : S1024x256.Idx → EReal) shapeCasts_S1024x256_S512x512 := by
  have e : (V17 m ρ c main_v33 : S512x512.Idx → EReal)
      = shapeCast S512x512 (W16 m ρ c (Proc.devRef .tc main_v31_1) : S1024x256.Idx → EReal) shapeCasts_S1024x256_S512x512 := by
    dsimp only [V17, W17, hostOps8]; after_results; rfl
  exact e.trans (congrArg (fun A : S1024x256.Idx → EReal => shapeCast S512x512 A shapeCasts_S1024x256_S512x512) (W16_arr m ρ c 5))

/-- If level 7's cell output array is `hp` at every row and column, level 8's cell input array is
    `paired hp`: node r's row holds its two children's rows side by side. -/
theorem entry8_C (c : Dev nD) (hp : Nat → Nat → EReal)
    (hprev : ∀ j : S1024x256.Idx, ((dat7 (V15 m ρ) c).arrAt 5 cfg7.N : S1024x256.Idx → EReal) j = hp (j 0).val (j 1).val)
    (i : S512x512.Idx) :
    (V17 m ρ c (Pipeline.arrRef spec8 1) : S512x512.Idx → EReal) i = Cert.Tree.paired hp (i 0).val (i 1).val :=
  (congrFun (entry8_C_eq m ρ c) i).trans (paired_of_shapeCast (a := 1024) (n := 512) rfl _ _ hp hprev i)

end Cert.KernelIdeal.TreeK

end
-- ==== Proof.KGlueStep9.lean ====
/-
  From level 8 to level 9 of the tree: between the two kernels the host re-reads each of level 8's two
  output arrays, 512 rows of 256, as 256 rows of 512, so that node r of level 9 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 9's hidden input array is level 8's hidden output array re-read as 256 rows of 512. -/
theorem entry9_H_eq (c : Dev nD) : (V19 m ρ c (Pipeline.arrRef spec9 0) : S256x512.Idx → EReal)
    = shapeCast S256x512 ((dat8 (V17 m ρ) c).arrAt 4 cfg8.N : S512x256.Idx → EReal) shapeCasts_S512x256_S256x512 := by
  have e : (V19 m ρ c main_v35 : S256x512.Idx → EReal)
      = shapeCast S256x512 (W18 m ρ c (Proc.devRef .tc main_v34_0) : S512x256.Idx → EReal) shapeCasts_S512x256_S256x512 := by
    dsimp only [V19, W19, hostOps9]; after_results; rfl
  exact e.trans (congrArg (fun A : S512x256.Idx → EReal => shapeCast S256x512 A shapeCasts_S512x256_S256x512) (W18_arr m ρ c 4))

/-- If level 8's hidden output array is `hp` at every row and column, level 9's hidden input array is
    `paired hp`: node r's row holds its two children's rows side by side. -/
theorem entry9_H (c : Dev nD) (hp : Nat → Nat → EReal)
    (hprev : ∀ j : S512x256.Idx, ((dat8 (V17 m ρ) c).arrAt 4 cfg8.N : S512x256.Idx → EReal) j = hp (j 0).val (j 1).val)
    (i : S256x512.Idx) :
    (V19 m ρ c (Pipeline.arrRef spec9 0) : S256x512.Idx → EReal) i = Cert.Tree.paired hp (i 0).val (i 1).val :=
  (congrFun (entry9_H_eq m ρ c) i).trans (paired_of_shapeCast (a := 512) (n := 256) rfl _ _ hp hprev i)

/-- Level 9's cell input array is level 8's cell output array re-read as 256 rows of 512. -/
theorem entry9_C_eq (c : Dev nD) : (V19 m ρ c (Pipeline.arrRef spec9 1) : S256x512.Idx → EReal)
    = shapeCast S256x512 ((dat8 (V17 m ρ) c).arrAt 5 cfg8.N : S512x256.Idx → EReal) shapeCasts_S512x256_S256x512 := by
  have e : (V19 m ρ c main_v36 : S256x512.Idx → EReal)
      = shapeCast S256x512 (W18 m ρ c (Proc.devRef .tc main_v34_1) : S512x256.Idx → EReal) shapeCasts_S512x256_S256x512 := by
    dsimp only [V19, W19, hostOps9]; after_results; rfl
  exact e.trans (congrArg (fun A : S512x256.Idx → EReal => shapeCast S256x512 A shapeCasts_S512x256_S256x512) (W18_arr m ρ c 5))

/-- If level 8's cell output array is `hp` at every row and column, level 9's cell input array is
    `paired hp`: node r's row holds its two children's rows side by side. -/
theorem entry9_C (c : Dev nD) (hp : Nat → Nat → EReal)
    (hprev : ∀ j : S512x256.Idx, ((dat8 (V17 m ρ) c).arrAt 5 cfg8.N : S512x256.Idx → EReal) j = hp (j 0).val (j 1).val)
    (i : S256x512.Idx) :
    (V19 m ρ c (Pipeline.arrRef spec9 1) : S256x512.Idx → EReal) i = Cert.Tree.paired hp (i 0).val (i 1).val :=
  (congrFun (entry9_C_eq m ρ c) i).trans (paired_of_shapeCast (a := 512) (n := 256) rfl _ _ hp hprev i)

end Cert.KernelIdeal.TreeK

end
-- ==== Proof.KGlueStep10.lean ====
/-
  From level 9 to level 10 of the tree: between the two kernels the host re-reads each of level 9's two
  output arrays, 256 rows of 256, as 128 rows of 512, so that node r of level 10 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 10's hidden input array is level 9's hidden output array re-read as 128 rows of 512. -/
theorem entry10_H_eq (c : Dev nD) : (V21 m ρ c (Pipeline.arrRef spec10 0) : S128x512.Idx → EReal)
    = shapeCast S128x512 ((dat9 (V19 m ρ) c).arrAt 4 cfg9.N : S256x256.Idx → EReal) shapeCasts_S256x256_S128x512 := by
  have e : (V21 m ρ c main_v38 : S128x512.Idx → EReal)
      = shapeCast S128x512 (W20 m ρ c (Proc.devRef .tc main_v37_0) : S256x256.Idx → EReal) shapeCasts_S256x256_S128x512 := by
    dsimp only [V21, W21, hostOps10]; after_results; rfl
  exact e.trans (congrArg (fun A : S256x256.Idx → EReal => shapeCast S128x512 A shapeCasts_S256x256_S128x512) (W20_arr m ρ c 4))

/-- If level 9's hidden output array is `hp` at every row and column, level 10's hidden input array is
    `paired hp`: node r's row holds its two children's rows side by side. -/
theorem entry10_H (c : Dev nD) (hp : Nat → Nat → EReal)
    (hprev : ∀ j : S256x256.Idx, ((dat9 (V19 m ρ) c).arrAt 4 cfg9.N : S256x256.Idx → EReal) j = hp (j 0).val (j 1).val)
    (i : S128x512.Idx) :
    (V21 m ρ c (Pipeline.arrRef spec10 0) : S128x512.Idx → EReal) i = Cert.Tree.paired hp (i 0).val (i 1).val :=
  (congrFun (entry10_H_eq m ρ c) i).trans (paired_of_shapeCast (a := 256) (n := 128) rfl _ _ hp hprev i)

/-- Level 10's cell input array is level 9's cell output array re-read as 128 rows of 512. -/
theorem entry10_C_eq (c : Dev nD) : (V21 m ρ c (Pipeline.arrRef spec10 1) : S128x512.Idx → EReal)
    = shapeCast S128x512 ((dat9 (V19 m ρ) c).arrAt 5 cfg9.N : S256x256.Idx → EReal) shapeCasts_S256x256_S128x512 := by
  have e : (V21 m ρ c main_v39 : S128x512.Idx → EReal)
      = shapeCast S128x512 (W20 m ρ c (Proc.devRef .tc main_v37_1) : S256x256.Idx → EReal) shapeCasts_S256x256_S128x512 := by
    dsimp only [V21, W21, hostOps10]; after_results; rfl
  exact e.trans (congrArg (fun A : S256x256.Idx → EReal => shapeCast S128x512 A shapeCasts_S256x256_S128x512) (W20_arr m ρ c 5))

/-- If level 9's cell output array is `hp` at every row and column, level 10's cell input array is
    `paired hp`: node r's row holds its two children's rows side by side. -/
theorem entry10_C (c : Dev nD) (hp : Nat → Nat → EReal)
    (hprev : ∀ j : S256x256.Idx, ((dat9 (V19 m ρ) c).arrAt 5 cfg9.N : S256x256.Idx → EReal) j = hp (j 0).val (j 1).val)
    (i : S128x512.Idx) :
    (V21 m ρ c (Pipeline.arrRef spec10 1) : S128x512.Idx → EReal) i = Cert.Tree.paired hp (i 0).val (i 1).val :=
  (congrFun (entry10_C_eq m ρ c) i).trans (paired_of_shapeCast (a := 256) (n := 128) rfl _ _ hp hprev i)

end Cert.KernelIdeal.TreeK

end
-- ==== Proof.KGlueStep11.lean ====
/-
  From level 10 to level 11 of the tree: between the two kernels the host re-reads each of level 10's two
  output arrays, 128 rows of 256, as 64 rows of 512, so that node r of level 11 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 11's hidden input array is level 10's hidden output array re-read as 64 rows of 512. -/
theorem entry11_H_eq (c : Dev nD) : (V23 m ρ c (Pipeline.arrRef spec11 0) : S64x512.Idx → EReal)
    = shapeCast S64x512 ((dat10 (V21 m ρ) c).arrAt 4 cfg10.N : S128x256.Idx → EReal) shapeCasts_S128x256_S64x512 := by
  have e : (V23 m ρ c main_v41 : S64x512.Idx → EReal)
      = shapeCast S64x512 (W22 m ρ c (Proc.devRef .tc main_v40_0) : S128x256.Idx → EReal) shapeCasts_S128x256_S64x512 := by
    dsimp only [V23, W23, hostOps11]; after_results; rfl
  exact e.trans (congrArg (fun A : S128x256.Idx → EReal => shapeCast S64x512 A shapeCasts_S128x256_S64x512) (W22_arr m ρ c 4))

/-- If level 10's hidden output array is `hp` at every row and column, level 11's hidden input array is
    `paired hp`: node r's row holds its two children's rows side by side. -/
theorem entry11_H (c : Dev nD) (hp : Nat → Nat → EReal)
    (hprev : ∀ j : S128x256.Idx, ((dat10 (V21 m ρ) c).arrAt 4 cfg10.N : S128x256.Idx → EReal) j = hp (j 0).val (j 1).val)
    (i : S64x512.Idx) :
    (V23 m ρ c (Pipeline.arrRef spec11 0) : S64x512.Idx → EReal) i = Cert.Tree.paired hp (i 0).val (i 1).val :=
  (congrFun (entry11_H_eq m ρ c) i).trans (paired_of_shapeCast (a := 128) (n := 64) rfl _ _ hp hprev i)

/-- Level 11's cell input array is level 10's cell output array re-read as 64 rows of 512. -/
theorem entry11_C_eq (c : Dev nD) : (V23 m ρ c (Pipeline.arrRef spec11 1) : S64x512.Idx → EReal)
    = shapeCast S64x512 ((dat10 (V21 m ρ) c).arrAt 5 cfg10.N : S128x256.Idx → EReal) shapeCasts_S128x256_S64x512 := by
  have e : (V23 m ρ c main_v42 : S64x512.Idx → EReal)
      = shapeCast S64x512 (W22 m ρ c (Proc.devRef .tc main_v40_1) : S128x256.Idx → EReal) shapeCasts_S128x256_S64x512 := by
    dsimp only [V23, W23, hostOps11]; after_results; rfl
  exact e.trans (congrArg (fun A : S128x256.Idx → EReal => shapeCast S64x512 A shapeCasts_S128x256_S64x512) (W22_arr m ρ c 5))

/-- If level 10's cell output array is `hp` at every row and column, level 11's cell input array is
    `paired hp`: node r's row holds its two children's rows side by side. -/
theorem entry11_C (c : Dev nD) (hp : Nat → Nat → EReal)
    (hprev : ∀ j : S128x256.Idx, ((dat10 (V21 m ρ) c).arrAt 5 cfg10.N : S128x256.Idx → EReal) j = hp (j 0).val (j 1).val)
    (i : S64x512.Idx) :
    (V23 m ρ c (Pipeline.arrRef spec11 1) : S64x512.Idx → EReal) i = Cert.Tree.paired hp (i 0).val (i 1).val :=
  (congrFun (entry11_C_eq m ρ c) i).trans (paired_of_shapeCast (a := 128) (n := 64) rfl _ _ hp hprev i)

end Cert.KernelIdeal.TreeK

end
-- ==== Proof.KGlueStep12.lean ====
/-
  From level 11 to level 12 of the tree: between the two kernels the host re-reads each of level 11's two
  output arrays, 64 rows of 256, as 32 rows of 512, so that node r of level 12 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 12's hidden input array is level 11's hidden output array re-read as 32 rows of 512. -/
theorem entry12_H_eq (c : Dev nD) : (V25 m ρ c (Pipeline.arrRef spec12 0) : S32x512.Idx → EReal)
    = shapeCast S32x512 ((dat11 (V23 m ρ) c).arrAt 4 cfg11.N : S64x256.Idx → EReal) shapeCasts_S64x256_S32x512 := by
  have e : (V25 m ρ c main_v44 : S32x512.Idx → EReal)
      = shapeCast S32x512 (W24 m ρ c (Proc.devRef .tc main_v43_0) : S64x256.Idx → EReal) shapeCasts_S64x256_S32x512 := by
    dsimp only [V25, W25, hostOps12]; after_results; rfl
  exact e.trans (congrArg (fun A : S64x256.Idx → EReal => shapeCast S32x512 A shapeCasts_S64x256_S32x512) (W24_arr m ρ c 4))

/-- If level 11's hidden output array is `hp` at every row and column, level 12's hidden input array is
    `paired hp`: node r's row holds its two children's rows side by side. -/
theorem entry12_H (c : Dev nD) (hp : Nat → Nat → EReal)
    (hprev : ∀ j : S64x256.Idx, ((dat11 (V23 m ρ) c).arrAt 4 cfg11.N : S64x256.Idx → EReal) j = hp (j 0).val (j 1).val)
    (i : S32x512.Idx) :
    (V25 m ρ c (Pipeline.arrRef spec12 0) : S32x512.Idx → EReal) i = Cert.Tree.paired hp (i 0).val (i 1).val :=
  (congrFun (entry12_H_eq m ρ c) i).trans (paired_of_shapeCast (a := 64) (n := 32) rfl _ _ hp hprev i)

/-- Level 12's cell input array is level 11's cell output array re-read as 32 rows of 512. -/
theorem entry12_C_eq (c : Dev nD) : (V25 m ρ c (Pipeline.arrRef spec12 1) : S32x512.Idx → EReal)
    = shapeCast S32x512 ((dat11 (V23 m ρ) c).arrAt 5 cfg11.N : S64x256.Idx → EReal) shapeCasts_S64x256_S32x512 := by
  have e : (V25 m ρ c main_v45 : S32x512.Idx → EReal)
      = shapeCast S32x512 (W24 m ρ c (Proc.devRef .tc main_v43_1) : S64x256.Idx → EReal) shapeCasts_S64x256_S32x512 := by
    dsimp only [V25, W25, hostOps12]; after_results; rfl
  exact e.trans (congrArg (fun A : S64x256.Idx → EReal => shapeCast S32x512 A shapeCasts_S64x256_S32x512) (W24_arr m ρ c 5))

/-- If level 11's cell output array is `hp` at every row and column, level 12's cell input array is
    `paired hp`: node r's row holds its two children's rows side by side. -/
theorem entry12_C (c : Dev nD) (hp : Nat → Nat → EReal)
    (hprev : ∀ j : S64x256.Idx, ((dat11 (V23 m ρ) c).arrAt 5 cfg11.N : S64x256.Idx → EReal) j = hp (j 0).val (j 1).val)
    (i : S32x512.Idx) :
    (V25 m ρ c (Pipeline.arrRef spec12 1) : S32x512.Idx → EReal) i = Cert.Tree.paired hp (i 0).val (i 1).val :=
  (congrFun (entry12_C_eq m ρ c) i).trans (paired_of_shapeCast (a := 64) (n := 32) rfl _ _ hp hprev i)

end Cert.KernelIdeal.TreeK

end
-- ==== Proof.KGlueStep13.lean ====
/-
  From level 12 to level 13 of the tree: between the two kernels the host re-reads each of level 12's two
  output arrays, 32 rows of 256, as 16 rows of 512, so that node r of level 13 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 13's hidden input array is level 12's hidden output array re-read as 16 rows of 512. -/
theorem entry13_H_eq (c : Dev nD) : (V27 m ρ c (Pipeline.arrRef spec13 0) : S16x512.Idx → EReal)
    = shapeCast S16x512 ((dat12 (V25 m ρ) c).arrAt 4 cfg12.N : S32x256.Idx → EReal) shapeCasts_S32x256_S16x512 := by
  have e : (V27 m ρ c main_v47 : S16x512.Idx → EReal)
      = shapeCast S16x512 (W26 m ρ c (Proc.devRef .tc main_v46_0) : S32x256.Idx → EReal) shapeCasts_S32x256_S16x512 := by
    dsimp only [V27, W27, hostOps13]; after_results; rfl
  exact e.trans (congrArg (fun A : S32x256.Idx → EReal => shapeCast S16x512 A shapeCasts_S32x256_S16x512) (W26_arr m ρ c 4))

/-- If level 12's hidden output array is `hp` at every row and column, level 13's hidden input array is
    `paired hp`: node r's row holds its two children's rows side by side. -/
theorem entry13_H (c : Dev nD) (hp : Nat → Nat → EReal)
    (hprev : ∀ j : S32x256.Idx, ((dat12 (V25 m ρ) c).arrAt 4 cfg12.N : S32x256.Idx → EReal) j = hp (j 0).val (j 1).val)
    (i : S16x512.Idx) :
    (V27 m ρ c (Pipeline.arrRef spec13 0) : S16x512.Idx → EReal) i = Cert.Tree.paired hp (i 0).val (i 1).val :=
  (congrFun (entry13_H_eq m ρ c) i).trans (paired_of_shapeCast (a := 32) (n := 16) rfl _ _ hp hprev i)

/-- Level 13's cell input array is level 12's cell output array re-read as 16 rows of 512. -/
theorem entry13_C_eq (c : Dev nD) : (V27 m ρ c (Pipeline.arrRef spec13 1) : S16x512.Idx → EReal)
    = shapeCast S16x512 ((dat12 (V25 m ρ) c).arrAt 5 cfg12.N : S32x256.Idx → EReal) shapeCasts_S32x256_S16x512 := by
  have e : (V27 m ρ c main_v48 : S16x512.Idx → EReal)
      = shapeCast S16x512 (W26 m ρ c (Proc.devRef .tc main_v46_1) : S32x256.Idx → EReal) shapeCasts_S32x256_S16x512 := by
    dsimp only [V27, W27, hostOps13]; after_results; rfl
  exact e.trans (congrArg (fun A : S32x256.Idx → EReal => shapeCast S16x512 A shapeCasts_S32x256_S16x512) (W26_arr m ρ c 5))

/-- If level 12's cell output array is `hp` at every row and column, level 13's cell input array is
    `paired hp`: node r's row holds its two children's rows side by side. -/
theorem entry13_C (c : Dev nD) (hp : Nat → Nat → EReal)
    (hprev : ∀ j : S32x256.Idx, ((dat12 (V25 m ρ) c).arrAt 5 cfg12.N : S32x256.Idx → EReal) j = hp (j 0).val (j 1).val)
    (i : S16x512.Idx) :
    (V27 m ρ c (Pipeline.arrRef spec13 1) : S16x512.Idx → EReal) i = Cert.Tree.paired hp (i 0).val (i 1).val :=
  (congrFun (entry13_C_eq m ρ c) i).trans (paired_of_shapeCast (a := 32) (n := 16) rfl _ _ hp hprev i)

end Cert.KernelIdeal.TreeK

end
-- ==== Proof.KGlueStep14.lean ====
/-
  From level 13 to level 14 of the tree: between the two kernels the host re-reads each of level 13's two
  output arrays, 16 rows of 256, as 8 rows of 512, so that node r of level 14 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 14's hidden input array is level 13's hidden output array re-read as 8 rows of 512. -/
theorem entry14_H_eq (c : Dev nD) : (V29 m ρ c (Pipeline.arrRef spec14 0) : S8x512.Idx → EReal)
    = shapeCast S8x512 ((dat13 (V27 m ρ) c).arrAt 4 cfg13.N : S16x256.Idx → EReal) shapeCasts_S16x256_S8x512 := by
  have e : (V29 m ρ c main_v50 : S8x512.Idx → EReal)
      = shapeCast S8x512 (W28 m ρ c (Proc.devRef .tc main_v49_0) : S16x256.Idx → EReal) shapeCasts_S16x256_S8x512 := by
    dsimp only [V29, W29, hostOps14]; after_results; rfl
  exact e.trans (congrArg (fun A : S16x256.Idx → EReal => shapeCast S8x512 A shapeCasts_S16x256_S8x512) (W28_arr m ρ c 4))

/-- If level 13's hidden output array is `hp` at every row and column, level 14's hidden input array is
    `paired hp`: node r's row holds its two children's rows side by side. -/
theorem entry14_H (c : Dev nD) (hp : Nat → Nat → EReal)
    (hprev : ∀ j : S16x256.Idx, ((dat13 (V27 m ρ) c).arrAt 4 cfg13.N : S16x256.Idx → EReal) j = hp (j 0).val (j 1).val)
    (i : S8x512.Idx) :
    (V29 m ρ c (Pipeline.arrRef spec14 0) : S8x512.Idx → EReal) i = Cert.Tree.paired hp (i 0).val (i 1).val :=
  (congrFun (entry14_H_eq m ρ c) i).trans (paired_of_shapeCast (a := 16) (n := 8) rfl _ _ hp hprev i)

/-- Level 14's cell input array is level 13's cell output array re-read as 8 rows of 512. -/
theorem entry14_C_eq (c : Dev nD) : (V29 m ρ c (Pipeline.arrRef spec14 1) : S8x512.Idx → EReal)
    = shapeCast S8x512 ((dat13 (V27 m ρ) c).arrAt 5 cfg13.N : S16x256.Idx → EReal) shapeCasts_S16x256_S8x512 := by
  have e : (V29 m ρ c main_v51 : S8x512.Idx → EReal)
      = shapeCast S8x512 (W28 m ρ c (Proc.devRef .tc main_v49_1) : S16x256.Idx → EReal) shapeCasts_S16x256_S8x512 := by
    dsimp only [V29, W29, hostOps14]; after_results; rfl
  exact e.trans (congrArg (fun A : S16x256.Idx → EReal => shapeCast S8x512 A shapeCasts_S16x256_S8x512) (W28_arr m ρ c 5))

/-- If level 13's cell output array is `hp` at every row and column, level 14's cell input array is
    `paired hp`: node r's row holds its two children's rows side by side. -/
theorem entry14_C (c : Dev nD) (hp : Nat → Nat → EReal)
    (hprev : ∀ j : S16x256.Idx, ((dat13 (V27 m ρ) c).arrAt 5 cfg13.N : S16x256.Idx → EReal) j = hp (j 0).val (j 1).val)
    (i : S8x512.Idx) :
    (V29 m ρ c (Pipeline.arrRef spec14 1) : S8x512.Idx → EReal) i = Cert.Tree.paired hp (i 0).val (i 1).val :=
  (congrFun (entry14_C_eq m ρ c) i).trans (paired_of_shapeCast (a := 16) (n := 8) rfl _ _ hp hprev i)

end Cert.KernelIdeal.TreeK

end
-- ==== Proof.KGlueStep15.lean ====
/-
  From level 14 to level 15 of the tree: between the two kernels the host re-reads each of level 14's two
  output arrays, 8 rows of 256, as 4 rows of 512, so that node r of level 15 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 15's hidden input array is level 14's hidden output array re-read as 4 rows of 512. -/
theorem entry15_H_eq (c : Dev nD) : (V31 m ρ c (Pipeline.arrRef spec15 0) : S4x512.Idx → EReal)
    = shapeCast S4x512 ((dat14 (V29 m ρ) c).arrAt 4 cfg14.N : S8x256.Idx → EReal) shapeCasts_S8x256_S4x512 := by
  have e : (V31 m ρ c main_v53 : S4x512.Idx → EReal)
      = shapeCast S4x512 (W30 m ρ c (Proc.devRef .tc main_v52_0) : S8x256.Idx → EReal) shapeCasts_S8x256_S4x512 := by
    dsimp only [V31, W31, hostOps15]; after_results; rfl
  exact e.trans (congrArg (fun A : S8x256.Idx → EReal => shapeCast S4x512 A shapeCasts_S8x256_S4x512) (W30_arr m ρ c 4))

/-- If level 14's hidden output array is `hp` at every row and column, level 15's hidden input array is
    `paired hp`: node r's row holds its two children's rows side by side. -/
theorem entry15_H (c : Dev nD) (hp : Nat → Nat → EReal)
    (hprev : ∀ j : S8x256.Idx, ((dat14 (V29 m ρ) c).arrAt 4 cfg14.N : S8x256.Idx → EReal) j = hp (j 0).val (j 1).val)
    (i : S4x512.Idx) :
    (V31 m ρ c (Pipeline.arrRef spec15 0) : S4x512.Idx → EReal) i = Cert.Tree.paired hp (i 0).val (i 1).val :=
  (congrFun (entry15_H_eq m ρ c) i).trans (paired_of_shapeCast (a := 8) (n := 4) rfl _ _ hp hprev i)

/-- Level 15's cell input array is level 14's cell output array re-read as 4 rows of 512. -/
theorem entry15_C_eq (c : Dev nD) : (V31 m ρ c (Pipeline.arrRef spec15 1) : S4x512.Idx → EReal)
    = shapeCast S4x512 ((dat14 (V29 m ρ) c).arrAt 5 cfg14.N : S8x256.Idx → EReal) shapeCasts_S8x256_S4x512 := by
  have e : (V31 m ρ c main_v54 : S4x512.Idx → EReal)
      = shapeCast S4x512 (W30 m ρ c (Proc.devRef .tc main_v52_1) : S8x256.Idx → EReal) shapeCasts_S8x256_S4x512 := by
    dsimp only [V31, W31, hostOps15]; after_results; rfl
  exact e.trans (congrArg (fun A : S8x256.Idx → EReal => shapeCast S4x512 A shapeCasts_S8x256_S4x512) (W30_arr m ρ c 5))

/-- If level 14's cell output array is `hp` at every row and column, level 15's cell input array is
    `paired hp`: node r's row holds its two children's rows side by side. -/
theorem entry15_C (c : Dev nD) (hp : Nat → Nat → EReal)
    (hprev : ∀ j : S8x256.Idx, ((dat14 (V29 m ρ) c).arrAt 5 cfg14.N : S8x256.Idx → EReal) j = hp (j 0).val (j 1).val)
    (i : S4x512.Idx) :
    (V31 m ρ c (Pipeline.arrRef spec15 1) : S4x512.Idx → EReal) i = Cert.Tree.paired hp (i 0).val (i 1).val :=
  (congrFun (entry15_C_eq m ρ c) i).trans (paired_of_shapeCast (a := 8) (n := 4) rfl _ _ hp hprev i)

end Cert.KernelIdeal.TreeK

end
-- ==== Proof.KGlueStep16.lean ====
/-
  From level 15 to level 16 of the tree: between the two kernels the host re-reads each of level 15's two
  output arrays, 4 rows of 256, as 2 rows of 512, so that node r of level 16 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 16's hidden input array is level 15's hidden output array re-read as 2 rows of 512. -/
theorem entry16_H_eq (c : Dev nD) : (V33 m ρ c (Pipeline.arrRef spec16 0) : S2x512.Idx → EReal)
    = shapeCast S2x512 ((dat15 (V31 m ρ) c).arrAt 4 cfg15.N : S4x256.Idx → EReal) shapeCasts_S4x256_S2x512 := by
  have e : (V33 m ρ c main_v56 : S2x512.Idx → EReal)
      = shapeCast S2x512 (W32 m ρ c (Proc.devRef .tc main_v55_0) : S4x256.Idx → EReal) shapeCasts_S4x256_S2x512 := by
    dsimp only [V33, W33, hostOps16]; after_results; rfl
  exact e.trans (congrArg (fun A : S4x256.Idx → EReal => shapeCast S2x512 A shapeCasts_S4x256_S2x512) (W32_arr m ρ c 4))

/-- If level 15's hidden output array is `hp` at every row and column, level 16's hidden input array is
    `paired hp`: node r's row holds its two children's rows side by side. -/
theorem entry16_H (c : Dev nD) (hp : Nat → Nat → EReal)
    (hprev : ∀ j : S4x256.Idx, ((dat15 (V31 m ρ) c).arrAt 4 cfg15.N : S4x256.Idx → EReal) j = hp (j 0).val (j 1).val)
    (i : S2x512.Idx) :
    (V33 m ρ c (Pipeline.arrRef spec16 0) : S2x512.Idx → EReal) i = Cert.Tree.paired hp (i 0).val (i 1).val :=
  (congrFun (entry16_H_eq m ρ c) i).trans (paired_of_shapeCast (a := 4) (n := 2) rfl _ _ hp hprev i)

/-- Level 16's cell input array is level 15's cell output array re-read as 2 rows of 512. -/
theorem entry16_C_eq (c : Dev nD) : (V33 m ρ c (Pipeline.arrRef spec16 1) : S2x512.Idx → EReal)
    = shapeCast S2x512 ((dat15 (V31 m ρ) c).arrAt 5 cfg15.N : S4x256.Idx → EReal) shapeCasts_S4x256_S2x512 := by
  have e : (V33 m ρ c main_v57 : S2x512.Idx → EReal)
      = shapeCast S2x512 (W32 m ρ c (Proc.devRef .tc main_v55_1) : S4x256.Idx → EReal) shapeCasts_S4x256_S2x512 := by
    dsimp only [V33, W33, hostOps16]; after_results; rfl
  exact e.trans (congrArg (fun A : S4x256.Idx → EReal => shapeCast S2x512 A shapeCasts_S4x256_S2x512) (W32_arr m ρ c 5))

/-- If level 15's cell output array is `hp` at every row and column, level 16's cell input array is
    `paired hp`: node r's row holds its two children's rows side by side. -/
theorem entry16_C (c : Dev nD) (hp : Nat → Nat → EReal)
    (hprev : ∀ j : S4x256.Idx, ((dat15 (V31 m ρ) c).arrAt 5 cfg15.N : S4x256.Idx → EReal) j = hp (j 0).val (j 1).val)
    (i : S2x512.Idx) :
    (V33 m ρ c (Pipeline.arrRef spec16 1) : S2x512.Idx → EReal) i = Cert.Tree.paired hp (i 0).val (i 1).val :=
  (congrFun (entry16_C_eq m ρ c) i).trans (paired_of_shapeCast (a := 4) (n := 2) rfl _ _ hp hprev i)

end Cert.KernelIdeal.TreeK

end
-- ==== Proof.KGlueStep17.lean ====
/-
  From level 16 to level 17 of the tree: between the two kernels the host re-reads each of level 16's two
  output arrays, 2 rows of 256, as 1 rows of 512, so that node r of level 17 finds its two children's rows
  2r and 2r + 1 side by side in its own row r.
-/
import proofs.«163443_j13855564497595_2_alg».proof.Proof.Tree
import proofs.«163443_j13855564497595_2_alg».proof.Proof.Gen.KernelIdeal.Frame
import proofs.«163443_j13855564497595_2_alg».proof.Proof.KGlueShape

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Level 17's hidden input array is level 16's hidden output array re-read as 1 rows of 512. -/
theorem entry17_H_eq (c : Dev nD) : (V35 m ρ c (Pipeline.arrRef spec17 0) : S1x512.Idx → EReal)
    = shapeCast S1x512 ((dat16 (V33 m ρ) c).arrAt 4 cfg16.N : S2x256.Idx → EReal) shapeCasts_S2x256_S1x512 := by
  have e : (V35 m ρ c main_v59 : S1x512.Idx → EReal)
      = shapeCast S1x512 (W34 m ρ c (Proc.devRef .tc main_v58_0) : S2x256.Idx → EReal) shapeCasts_S2x256_S1x512 := by
    dsimp only [V35, W35, hostOps17]; after_results; rfl
  exact e.trans (congrArg (fun A : S2x256.Idx → EReal => shapeCast S1x512 A shapeCasts_S2x256_S1x512) (W34_arr m ρ c 4))

/-- If level 16's hidden output array is `hp` at every row and column, level 17's hidden input array is
    `paired hp`: node r's row holds its two children's rows side by side. -/
theorem entry17_H (c : Dev nD) (hp : Nat → Nat → EReal)
    (hprev : ∀ j : S2x256.Idx, ((dat16 (V33 m ρ) c).arrAt 4 cfg16.N : S2x256.Idx → EReal) j = hp (j 0).val (j 1).val)
    (i : S1x512.Idx) :
    (V35 m ρ c (Pipeline.arrRef spec17 0) : S1x512.Idx → EReal) i = Cert.Tree.paired hp (i 0).val (i 1).val :=
  (congrFun (entry17_H_eq m ρ c) i).trans (paired_of_shapeCast (a := 2) (n := 1) rfl _ _ hp hprev i)

/-- Level 17's cell input array is level 16's cell output array re-read as 1 rows of 512. -/
theorem entry17_C_eq (c : Dev nD) : (V35 m ρ c (Pipeline.arrRef spec17 1) : S1x512.Idx → EReal)
    = shapeCast S1x512 ((dat16 (V33 m ρ) c).arrAt 5 cfg16.N : S2x256.Idx → EReal) shapeCasts_S2x256_S1x512 := by
  have e : (V35 m ρ c main_v60 : S1x512.Idx → EReal)
      = shapeCast S1x512 (W34 m ρ c (Proc.devRef .tc main_v58_1) : S2x256.Idx → EReal) shapeCasts_S2x256_S1x512 := by
    dsimp only [V35, W35, hostOps17]; after_results; rfl
  exact e.trans (congrArg (fun A : S2x256.Idx → EReal => shapeCast S1x512 A shapeCasts_S2x256_S1x512) (W34_arr m ρ c 5))

/-- If level 16's cell output array is `hp` at every row and column, level 17's cell input array is
    `paired hp`: node r's row holds its two children's rows side by side. -/
theorem entry17_C (c : Dev nD) (hp : Nat → Nat → EReal)
    (hprev : ∀ j : S2x256.Idx, ((dat16 (V33 m ρ) c).arrAt 5 cfg16.N : S2x256.Idx → EReal) j = hp (j 0).val (j 1).val)
    (i : S1x512.Idx) :
    (V35 m ρ c (Pipeline.arrRef spec17 1) : S1x512.Idx → EReal) i = Cert.Tree.paired hp (i 0).val (i 1).val :=
  (congrFun (entry17_C_eq m ρ c) i).trans (paired_of_shapeCast (a := 2) (n := 1) rfl _ _ hp hprev i)

end Cert.KernelIdeal.TreeK

end
-- ==== Proof.KPayLeaf.lean ====
/-
  A leaf's body, read at an index: the block of 1024 leaves.

  The body receives the leaves' input rows `x`, the transposed weight block `w` (256 by 768: entry (k, q) is
  the weight of gate row 256 + q — the input, cell-candidate and output gates; a leaf has no forget gate to
  apply — on input column k) and the bias row `b` of those gates. Its gate pre-activation at (r, q) is the sum
  over k of x (r, k) times w (k, q), plus b (0, q); its cell state at (r, j) is σ(gate j) · tanh(gate 256+j),
  its hidden state σ(gate 512+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.Leaf

open Cert.KernelIdeal Cert.KernelIdeal.Gen Idealize.ShloMosaic Idealize.ShloMosaic.ValueIdx

/-! ## The matrix product's operand indices -/

theorem lhs_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide),
    dif_pos (show (0 : Fin S1024x256.rank) ∈ dot_S1024x256_S256x768_S1024x768_1_0_0_1_n_n.lhsNonContracting by decide)]
  rfl

theorem lhs_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q

theorem rhs_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q

theorem rhs_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide),
    dif_pos (show (1 : Fin S256x768.rank) ∈ dot_S1024x256_S256x768_S1024x768_1_0_0_1_n_n.rhsNonContracting by decide)]
  rfl

/-! ## The block of leaves as functions of row and column numbers -/

/-- The gate pre-activation of leaf `r` of the block at column `q` of the three gates. -/
def gate (x : Vec Ideal S1024x256 .f32) (w : Vec Ideal S256x768 .bf16) (b : Vec Ideal S1x768 .f32) (r : Fin 1024) (q : Nat) : EReal :=
  (∑ k : Fin 256, Cert.Tree.natArr2 (a := 1024) (b := 256) x r.val k.val * Cert.Tree.natArr2 (a := 256) (b := 768) w k.val q)
    + Cert.Tree.natArr2 (a := 1) (b := 768) b 0 q

/-- The gate pre-activations the body computes. -/
theorem pay1_apply (x : Vec Ideal S1024x256 .f32) (w : Vec Ideal S256x768 .bf16) (b : Vec Ideal S1x768 .f32) (r : Fin 1024) (q : Fin 768) :
    k0_pay1 x w b (ix2 r q) = gate x w b r q.val := by
  unfold k0_pay1 gate
  show (matmul dot_S1024x256_S256x768_S1024x768_1_0_0_1_n_n none _ _ (constant S1024x768 .f32 0x00000000#32)) (ix2 r q) + _ = _
  refine congrArg₂ (· + ·) ?_ ?_
  · refine (Ideal.matmul_constant_zero_apply dot_S1024x256_S256x768_S1024x768_1_0_0_1_n_n none _ _ (ix2 r q)).trans ?_
    rw [← Equiv.sum_comp (contrEquiv1 dot_S1024x256_S256x768_S1024x768_1_0_0_1_n_n 256 rfl rfl).symm]
    refine Finset.sum_congr rfl fun k _ => ?_
    have hk := contrEquiv1_symm_val dot_S1024x256_S256x768_S1024x768_1_0_0_1_n_n 256 rfl rfl k
    have el : dot_S1024x256_S256x768_S1024x768_1_0_0_1_n_n.lhsIdx (ix2 r q) ((contrEquiv1 dot_S1024x256_S256x768_S1024x768_1_0_0_1_n_n 256 rfl rfl).symm k) = ix2 r k :=
      funext fun a => Fin.ext (by
        match a with
        | ⟨0, _⟩ => exact lhs_0 _ _
        | ⟨1, _⟩ => exact (lhs_1 _ _).trans hk)
    have er : dot_S1024x256_S256x768_S1024x768_1_0_0_1_n_n.rhsIdx (ix2 r q) ((contrEquiv1 dot_S1024x256_S256x768_S1024x768_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show x (ix2 r k) = _
      exact (Cert.Tree.natArr2_ix2 (a := 1024) (b := 256) x r k).symm
    · rw [shapeCast_self]
      exact (Cert.Tree.natArr2_ix2 (a := 256) (b := 768) w k q).symm
  · rw [shapeCast_self]
    refine (broadcastTo_apply b broadcasts_S1x768_S1024x768 (ix2 r q) (ix2 0 q) (fun a => ?_)).trans ?_
    · match a with
      | ⟨0, _⟩ => rfl
      | ⟨1, _⟩ => rfl
    · exact (Cert.Tree.natArr2_ix2 (a := 1) (b := 768) b 0 q).symm

/-- A slice of the gate pre-activations at column offset `o`. -/
theorem gslice_apply (g : FVec Ideal S1024x768 .f32) (o : Nat) (ho : o + 256 ≤ 768)
    (h : S1024x768.Slices ![0, o] S1024x256) (r : Fin 1024) (j : Fin 256) :
    extractStridedSlice S1024x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x : Vec Ideal S1024x256 .f32) (w : Vec Ideal S256x768 .bf16) (b : Vec Ideal S1x768 .f32) (r : Fin 1024) (j : Fin 256) :
    k0_pay2 x w b (ix2 r j) = Ideal.logistic (gate x w b r j.val) * Ideal.tanh (gate x w b r (256 + j.val)) := by
  unfold k0_pay2
  show Ideal.logistic (extractStridedSlice S1024x256 ![0, 0] (k0_pay1 x w b) slices_S1024x768_o0_0_S1024x256 (ix2 r j))
        * Ideal.tanh (extractStridedSlice S1024x256 ![0, 256] (k0_pay1 x w b) slices_S1024x768_o0_256_S1024x256 (ix2 r j)) = _
  rw [gslice_apply _ 0 (by omega), gslice_apply _ 256 (by omega), pay1_apply, pay1_apply]
  simp only [Nat.zero_add]

/-- The hidden states the body computes. -/
theorem pay3_apply (x : Vec Ideal S1024x256 .f32) (w : Vec Ideal S256x768 .bf16) (b : Vec Ideal S1x768 .f32) (r : Fin 1024) (j : Fin 256) :
    k0_pay3 x w b (ix2 r j) = Ideal.logistic (gate x w b r (512 + j.val)) * Ideal.tanh (k0_pay2 x w b (ix2 r j)) := by
  unfold k0_pay3
  show Ideal.logistic (extractStridedSlice S1024x256 ![0, 512] (k0_pay1 x w b) slices_S1024x768_o0_512_S1024x256 (ix2 r j))
        * Ideal.tanh (k0_pay2 x w b (ix2 r j)) = _
  rw [gslice_apply _ 512 (by omega), pay1_apply]

/-! ## The block against the tree -/

section Against

variable (x : Vec Ideal S1024x256 .f32) (w : Vec Ideal S256x768 .bf16) (b : Vec Ideal S1x768 .f32)
  (Wn X : Nat → Nat → EReal) (bn : Nat → EReal) (R : Nat) (r : Fin 1024)
  (h0 : ∀ k : Nat, k < 256 → Cert.Tree.natArr2 (a := 1024) (b := 256) x r.val k = X R k)
  (hw : ∀ k : Nat, k < 256 → ∀ q : Nat, q < 768 → Cert.Tree.natArr2 (a := 256) (b := 768) w k q = Wn (256 + q) (256 + k))
  (hb : ∀ q : Nat, q < 768 → Cert.Tree.natArr2 (a := 1) (b := 768) b 0 q = bn (256 + q))

include h0 hw hb in
theorem gate_eq (q : Nat) (hq : q < 768) : gate x w b r q = Cert.Tree.gateX Wn bn (X R) (256 + q) := by
  unfold gate Cert.Tree.gateX
  rw [hb q hq]
  refine congrArg (· + bn (256 + q)) (Finset.sum_congr rfl fun k _ => ?_)
  rw [h0 k.val k.isLt, hw k.val k.isLt q hq]

include h0 hw hb in
theorem cell_eq (j : Fin 256) : k0_pay2 x w b (ix2 r j) = Cert.Tree.leafC Wn bn X R j.val := by
  have hj := j.isLt
  unfold Cert.Tree.leafC
  rw [pay2_apply, gate_eq x w b Wn X bn R r h0 hw hb j.val (by omega), gate_eq x w b Wn X bn R r h0 hw hb (256 + j.val) (by omega),
    show 256 + (256 + j.val) = 512 + j.val by omega]

include h0 hw hb in
theorem hidden_eq (j : Fin 256) : k0_pay3 x w b (ix2 r j) = Cert.Tree.leafH Wn bn X R j.val := by
  have hj := j.isLt
  unfold Cert.Tree.leafH
  rw [pay3_apply, gate_eq x w b Wn X bn R r h0 hw hb (512 + j.val) (by omega), cell_eq x w b Wn X bn R r h0 hw hb j,
    show 256 + (512 + j.val) = 768 + j.val by omega]

end Against

end Cert.KernelIdeal.TreeK.Leaf

end
-- ==== Proof.KLevel0.lean ====
/-
  Level 0 of the tree, the 131072 leaves: what the pipelined region leaves in its two output arrays.

  The region's grid has 128 points; point t handles leaves 1024·t … 1024·t + 1023: it reads rows 1024·t … of
  the input array, the whole transposed weight block of the input, cell-candidate and output gates and their
  bias row, and writes rows 1024·t … of the hidden and cell arrays. The blocks tile the arrays, so each output
  array ends holding, at leaf R and column j, the tree's leaf function of the inputs.
-/
import proofs.«163443_j13855564497595_2_alg».proof.Proof.Gen.KernelIdeal.Frame
import proofs.«163443_j13855564497595_2_alg».proof.Proof.KPayLeaf
import Idealize.ShloMosaic.Lib.Pipeline.Value

set_option maxRecDepth 16384

noncomputable section

namespace Cert.KernelIdeal.TreeK.L0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window holds at grid point t: the row windows move with t, the weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 128 := by
  exact lt_of_lt_of_eq t.isLt (show cfg0.N = 128 from N_0)

section Blocks

variable (c : Dev nD) (t : Fin cfg0.N)

/-- Row r of point t's block of the inputs is row 1024·t + r of the array. -/
theorem blk0_apply (r : Fin 1024) (k : Fin 256) (i : S131072x256.Idx) (hi0 : (i 0).val = t.val * 1024 + r.val) (hi1 : (i 1).val = k.val) :
    (iblk0 V c 0 t : Vec Ideal S1024x256 .f32) (ix2 r k) = (V c (Pipeline.arrRef spec0 0) : S131072x256.Idx → EReal) i := by
  obtain ⟨e0, e1, -⟩ := idx_facts t
  unfold iblk0
  rw [View.read_apply]
  refine congrArg (V c (Pipeline.arrRef spec0 0) : S131072x256.Idx → EReal) (funext fun a => Fin.ext ?_)
  match a with
  | ⟨0, _⟩ => show win0_0.index t (0 : Fin 2) * 1024 + 1 * r.val = (i 0).val; rw [e0, hi0]; omega
  | ⟨1, _⟩ => show win0_0.index t (1 : Fin 2) * 256 + 1 * k.val = (i 1).val; rw [e1, hi1]; omega

/-- The weight window's block is the whole transposed weight array. -/
theorem blk1_apply (k : Fin 256) (q : Fin 768) :
    (iblk0 V c 1 t : Vec Ideal S256x768 .bf16) (ix2 k q) = (V c (Pipeline.arrRef spec0 1) : S256x768.Idx → EReal) (ix2 k q) := by
  obtain ⟨-, -, e0, e1, -⟩ := idx_facts t
  unfold iblk0
  rw [View.read_apply]
  refine congrArg (V c (Pipeline.arrRef spec0 1) : S256x768.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 768 + 1 * q.val = q.val; rw [e1]; omega

/-- The bias window's block is the whole bias row. -/
theorem blk2_apply (z : Fin 1) (q : Fin 768) :
    (iblk0 V c 2 t : Vec Ideal S1x768 .f32) (ix2 z q) = (V c (Pipeline.arrRef spec0 2) : S1x768.Idx → EReal) (ix2 z q) := by
  obtain ⟨-, -, -, -, e0, e1, -⟩ := idx_facts t
  unfold iblk0
  rw [View.read_apply]
  refine congrArg (V c (Pipeline.arrRef spec0 2) : S1x768.Idx → EReal) (funext fun a => Fin.ext ?_)
  match a with
  | ⟨0, _⟩ => show win0_2.index t (0 : Fin 2) * 1 + 1 * z.val = z.val; rw [e0]; omega
  | ⟨1, _⟩ => show win0_2.index t (1 : Fin 2) * 768 + 1 * q.val = q.val; rw [e1]; omega

end Blocks

section Level

variable (c : Dev nD) (Wn X : Nat → Nat → EReal) (bn : Nat → EReal)
  (hX : ∀ i : S131072x256.Idx, (V c (Pipeline.arrRef spec0 0) : S131072x256.Idx → EReal) i = X (i 0).val (i 1).val)
  (hW : ∀ i : S256x768.Idx, (V c (Pipeline.arrRef spec0 1) : S256x768.Idx → EReal) i = Wn (256 + (i 1).val) (256 + (i 0).val))
  (hB : ∀ i : S1x768.Idx, (V c (Pipeline.arrRef spec0 2) : S1x768.Idx → EReal) i = bn (256 + (i 1).val))

/-- The hidden array of the leaves as the tree gives it. -/
def GH : S131072x256.Idx → EReal := fun i => Cert.Tree.leafH Wn bn X (i 0).val (i 1).val
/-- The cell array of the leaves as the tree gives it. -/
def GC : S131072x256.Idx → EReal := fun i => Cert.Tree.leafC Wn bn X (i 0).val (i 1).val

include hX in
theorem in0 (t : Fin cfg0.N) (r : Fin 1024) (k : Nat) (hk : k < 256) :
    Cert.Tree.natArr2 (a := 1024) (b := 256) (iblk0 V c 0 t : Vec Ideal S1024x256 .f32) r.val k = X (t.val * 1024 + r.val) k := by
  have ht := t_lt t
  have hr := r.isLt
  refine (Cert.Tree.natArr2_ix2 (a := 1024) (b := 256) _ r ⟨k, hk⟩).trans ?_
  rw [blk0_apply V c t r ⟨k, hk⟩ (ix2 ⟨t.val * 1024 + r.val, by omega⟩ ⟨k, hk⟩) rfl rfl]
  exact hX _

include hW in
theorem in1 (t : Fin cfg0.N) (k : Nat) (hk : k < 256) (q : Nat) (hq : q < 768) :
    Cert.Tree.natArr2 (a := 256) (b := 768) (iblk0 V c 1 t : Vec Ideal S256x768 .bf16) k q = Wn (256 + q) (256 + k) := by
  refine (Cert.Tree.natArr2_ix2 (a := 256) (b := 768) _ ⟨k, hk⟩ ⟨q, hq⟩).trans ?_
  rw [blk1_apply V c t ⟨k, hk⟩ ⟨q, hq⟩]
  exact hW _

include hB in
theorem in2 (t : Fin cfg0.N) (q : Nat) (hq : q < 768) :
    Cert.Tree.natArr2 (a := 1) (b := 768) (iblk0 V c 2 t : Vec Ideal S1x768 .f32) 0 q = bn (256 + q) := by
  refine (Cert.Tree.natArr2_ix2 (a := 1) (b := 768) _ (0 : Fin 1) ⟨q, hq⟩).trans ?_
  rw [blk2_apply V c t 0 ⟨q, hq⟩]
  exact hB _

include hX hW hB in
/-- What point t writes back to the hidden array is block t of the tree's leaves. -/
theorem flushed3 (t : Fin cfg0.N) :
    (dat0 V c).flushed 3 t = ((cfg0.win 3).blk t).view.read (Elt Ideal) (GH Wn X bn) := by
  obtain ⟨-, -, -, -, -, -, e0, e1, -⟩ := idx_facts t
  have ht := t_lt t
  show (cfg0.win 3).cut (grid0.coords t) ((dat0 V c).after 3 t) = _
  rw [after0_3]
  unfold out0_3
  rw [View.canon_unit_zero hz]
  simp only [View.ld_unit_zero (S := S1024x256) hz, View.ld_unit_zero (S := S256x768) hz, View.ld_unit_zero (S := S1x768) hz]
  funext j
  obtain ⟨r, q, rfl⟩ : ∃ (r : Fin 1024) (q : Fin 256), j = ix2 r q := ⟨j 0, j 1, eq_ix2 j⟩
  refine (Leaf.hidden_eq _ _ _ Wn X bn (t.val * 1024 + r.val) r (in0 V c X hX t r) (in1 V c Wn hW t) (in2 V c bn hB t) q).trans ?_
  show _ = GH Wn X bn (((cfg0.win 3).blk t).view.emb (ix2 r q))
  unfold GH
  have a0 : ((((cfg0.win 3).blk t).view.emb (ix2 r q)) 0).val = t.val * 1024 + r.val := by
    show win0_3.index t (0 : Fin 2) * 1024 + 1 * r.val = _; rw [e0]; omega
  have a1 : ((((cfg0.win 3).blk t).view.emb (ix2 r q)) 1).val = q.val := by
    show win0_3.index t (1 : Fin 2) * 256 + 1 * q.val = _; rw [e1]; omega
  rw [a0, a1]

include hX hW hB in
/-- What point t writes back to the cell array is block t of the tree's leaves. -/
theorem flushed4 (t : Fin cfg0.N) :
    (dat0 V c).flushed 4 t = ((cfg0.win 4).blk t).view.read (Elt Ideal) (GC Wn X bn) := by
  obtain ⟨-, -, -, -, -, -, -, -, e0, e1⟩ := idx_facts t
  have ht := t_lt t
  show (cfg0.win 4).cut (grid0.coords t) ((dat0 V c).after 4 t) = _
  rw [after0_4]
  unfold out0_4
  rw [View.canon_unit_zero hz]
  simp only [View.ld_unit_zero (S := S1024x256) hz, View.ld_unit_zero (S := S256x768) hz, View.ld_unit_zero (S := S1x768) hz]
  funext j
  obtain ⟨r, q, rfl⟩ : ∃ (r : Fin 1024) (q : Fin 256), j = ix2 r q := ⟨j 0, j 1, eq_ix2 j⟩
  refine (Leaf.cell_eq _ _ _ Wn X bn (t.val * 1024 + r.val) r (in0 V c X hX t r) (in1 V c Wn hW t) (in2 V c bn hB t) q).trans ?_
  show _ = GC Wn X bn (((cfg0.win 4).blk t).view.emb (ix2 r q))
  unfold GC
  have a0 : ((((cfg0.win 4).blk t).view.emb (ix2 r q)) 0).val = t.val * 1024 + r.val := by
    show win0_4.index t (0 : Fin 2) * 1024 + 1 * r.val = _; rw [e0]; omega
  have a1 : ((((cfg0.win 4).blk t).view.emb (ix2 r q)) 1).val = q.val := by
    show win0_4.index t (1 : Fin 2) * 256 + 1 * q.val = _; rw [e1]; omega
  rw [a0, a1]

/-- Every leaf's row is in the block of the point that handles it. -/
theorem cover3 (i : S131072x256.Idx) : ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 128 := N_0
  let t : Fin cfg0.N := ⟨(i 0).val / 1024, by rw [hN]; omega⟩
  obtain ⟨-, -, -, -, -, -, e0, e1, -⟩ := idx_facts t
  refine ⟨t, flush0_3 t, ?_⟩
  show i ∈ ((View.whole main_v10_0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; show (i 0).val / 1024 * 1024 ≤ (i 0).val ∧ (i 0).val < (i 0).val / 1024 * 1024 + 1024; omega
  | ⟨1, _⟩ => show win0_3.index t (1 : Fin 2) * 256 ≤ (i 1).val ∧ (i 1).val < win0_3.index t (1 : Fin 2) * 256 + 256; rw [e1]; omega

theorem cover4 (i : S131072x256.Idx) : ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 128 := N_0
  let t : Fin cfg0.N := ⟨(i 0).val / 1024, by rw [hN]; omega⟩
  obtain ⟨-, -, -, -, -, -, -, -, e0, e1⟩ := idx_facts t
  refine ⟨t, flush0_4 t, ?_⟩
  show i ∈ ((View.whole main_v10_1).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0]; show (i 0).val / 1024 * 1024 ≤ (i 0).val ∧ (i 0).val < (i 0).val / 1024 * 1024 + 1024; omega
  | ⟨1, _⟩ => show win0_4.index t (1 : Fin 2) * 256 ≤ (i 1).val ∧ (i 1).val < win0_4.index t (1 : Fin 2) * 256 + 256; rw [e1]; omega

end Level

end Cert.KernelIdeal.TreeK.L0

namespace Cert.KernelIdeal.TreeK

open Cert.KernelIdeal Cert.KernelIdeal.Gen Idealize.ShloMosaic Idealize.ShloMosaic.TcCoe Idealize.SL.Sem

/-- Level 0: from the inputs, the leaf gates' transposed weights and their bias at the region's entry, the region's two
    output arrays end at the tree's leaf functions. -/
theorem level0 (V : (c : Dev nD) → (b : Ref sig .tc) → Buf (Elt Ideal) ((c : Thread nD τ).loc b)) (c : Dev nD)
    (Wn X : Nat → Nat → EReal) (bn : Nat → EReal)
    (hX : ∀ i : S131072x256.Idx, (V c (Pipeline.arrRef spec0 0) : S131072x256.Idx → EReal) i = X (i 0).val (i 1).val)
    (hW : ∀ i : S256x768.Idx, (V c (Pipeline.arrRef spec0 1) : S256x768.Idx → EReal) i = Wn (256 + (i 1).val) (256 + (i 0).val))
    (hB : ∀ i : S1x768.Idx, (V c (Pipeline.arrRef spec0 2) : S1x768.Idx → EReal) i = bn (256 + (i 1).val)) :
    (∀ i : S131072x256.Idx, ((dat0 V c).arrAt 3 cfg0.N : S131072x256.Idx → EReal) i = Cert.Tree.leafH Wn bn X (i 0).val (i 1).val)
    ∧ (∀ i : S131072x256.Idx, ((dat0 V c).arrAt 4 cfg0.N : S131072x256.Idx → EReal) i = Cert.Tree.leafC Wn bn X (i 0).val (i 1).val) :=
  ⟨fun i => congrFun ((dat0 V c).arrAt_eq_of_cover 3 (L0.GH Wn X bn) (fun t _ => L0.flushed3 V c Wn X bn hX hW hB t) L0.cover3) i,
   fun i => congrFun ((dat0 V c).arrAt_eq_of_cover 4 (L0.GC Wn X bn) (fun t _ => L0.flushed4 V c Wn X bn hX hW hB t) L0.cover4) i⟩

end Cert.KernelIdeal.TreeK

end
-- ==== Proof.KPay512.lean ====
/-
  One internal node's body, read at an index: the block of 512 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T512

open Cert.KernelIdeal Cert.KernelIdeal.Gen Idealize.ShloMosaic Idealize.ShloMosaic.ValueIdx

/-! ## The matrix product's operand indices -/

theorem lhs_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl

theorem lhs_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q

theorem rhs_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q

theorem rhs_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-! ## The block of nodes as functions of row and column numbers -/

/-- The summed children's row of node `r` of the block, from the side-by-side rows. -/
def halves (x : Vec Ideal S512x512 .f32) (r : Fin 512) (k : Nat) : EReal :=
  Cert.Tree.natArr2 (a := 512) (b := 512) x r.val k + Cert.Tree.natArr2 (a := 512) (b := 512) x r.val (256 + k)

/-- The gate pre-activation of node `r` of the block at gate row `q`. -/
def gate (x : Vec Ideal S512x512 .f32) (w : Vec Ideal S256x1024 .bf16) (b : Vec Ideal S1x1024 .f32) (r : Fin 512) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S512x512 .f32) (o : Nat) (ho : o + 256 ≤ 512)
    (h : S512x512.Slices ![0, o] S512x256) (r : Fin 512) (k : Fin 256) :
    extractStridedSlice S512x256 ![0, o] (shapeCast S512x512 x shapeCasts_S512x512_S512x512) h (ix2 r k)
      = Cert.Tree.natArr2 (a := 512) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 512) (b := 512) x r ⟨o + k.val, hk⟩).symm

/-- The gate pre-activations the body computes. -/
theorem pay1_apply (x : Vec Ideal S512x512 .f32) (w : Vec Ideal S256x1024 .bf16) (b : Vec Ideal S1x1024 .f32) (r : Fin 512) (q : Fin 1024) :
    k1_pay1 x w b (ix2 r q) = gate x w b r q.val := by
  unfold k1_pay1 gate
  show (matmul dot_S512x256_S256x1024_S512x1024_1_0_0_1_n_n none _ _ (constant S512x1024 .f32 0x00000000#32)) (ix2 r q) + _ = _
  refine congrArg₂ (· + ·) ?_ ?_
  · refine (Ideal.matmul_constant_zero_apply dot_S512x256_S256x1024_S512x1024_1_0_0_1_n_n none _ _ (ix2 r q)).trans ?_
    rw [← Equiv.sum_comp (contrEquiv1 dot_S512x256_S256x1024_S512x1024_1_0_0_1_n_n 256 rfl rfl).symm]
    refine Finset.sum_congr rfl fun k _ => ?_
    have hk := contrEquiv1_symm_val dot_S512x256_S256x1024_S512x1024_1_0_0_1_n_n 256 rfl rfl k
    have el : dot_S512x256_S256x1024_S512x1024_1_0_0_1_n_n.lhsIdx (ix2 r q) ((contrEquiv1 dot_S512x256_S256x1024_S512x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S512x256_S256x1024_S512x1024_1_0_0_1_n_n.rhsIdx (ix2 r q) ((contrEquiv1 dot_S512x256_S256x1024_S512x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S512x256 ![0, 0] (shapeCast S512x512 x shapeCasts_S512x512_S512x512) slices_S512x512_o0_0_S512x256 (ix2 r k)
          + extractStridedSlice S512x256 ![0, 256] (shapeCast S512x512 x shapeCasts_S512x512_S512x512) slices_S512x512_o0_256_S512x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S512x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S512x1024 .f32) (o : Nat) (ho : o + 256 ≤ 1024)
    (h : S512x1024.Slices ![0, o] S512x256) (r : Fin 512) (j : Fin 256) :
    extractStridedSlice S512x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S512x512 .f32) (w : Vec Ideal S256x1024 .bf16) (b : Vec Ideal S1x1024 .f32) (r : Fin 512) (j : Fin 256) :
    k1_pay2 x0 x1 w b (ix2 r j)
      = Ideal.logistic (gate x0 w b r j.val) * halves x1 r j.val
        + Ideal.logistic (gate x0 w b r (256 + j.val)) * Ideal.tanh (gate x0 w b r (512 + j.val)) := by
  unfold k1_pay2
  show Ideal.logistic (extractStridedSlice S512x256 ![0, 0] (k1_pay1 x0 w b) slices_S512x1024_o0_0_S512x256 (ix2 r j))
        * (extractStridedSlice S512x256 ![0, 0] (shapeCast S512x512 x1 shapeCasts_S512x512_S512x512) slices_S512x512_o0_0_S512x256 (ix2 r j)
            + extractStridedSlice S512x256 ![0, 256] (shapeCast S512x512 x1 shapeCasts_S512x512_S512x512) slices_S512x512_o0_256_S512x256 (ix2 r j))
      + Ideal.logistic (extractStridedSlice S512x256 ![0, 256] (k1_pay1 x0 w b) slices_S512x1024_o0_256_S512x256 (ix2 r j))
        * Ideal.tanh (extractStridedSlice S512x256 ![0, 512] (k1_pay1 x0 w b) slices_S512x1024_o0_512_S512x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S512x512 .f32) (w : Vec Ideal S256x1024 .bf16) (b : Vec Ideal S1x1024 .f32) (r : Fin 512) (j : Fin 256) :
    k1_pay3 x0 x1 w b (ix2 r j)
      = Ideal.logistic (gate x0 w b r (768 + j.val)) * Ideal.tanh (k1_pay2 x0 x1 w b (ix2 r j)) := by
  unfold k1_pay3
  show Ideal.logistic (extractStridedSlice S512x256 ![0, 768] (k1_pay1 x0 w b) slices_S512x1024_o0_768_S512x256 (ix2 r j))
        * Ideal.tanh (k1_pay2 x0 x1 w b (ix2 r j)) = _
  rw [gslice_apply _ 768 (by omega), pay1_apply]

/-! ## The block against the tree -/

section Against

variable (x0 x1 : Vec Ideal S512x512 .f32) (w : Vec Ideal S256x1024 .bf16) (b : Vec Ideal S1x1024 .f32)
  (Wn hp cp : Nat → Nat → EReal) (bn : Nat → EReal) (R : Nat) (r : Fin 512)
  (h0 : ∀ k : Nat, k < 512 → Cert.Tree.natArr2 (a := 512) (b := 512) x0 r.val k = Cert.Tree.paired hp R k)
  (h1 : ∀ k : Nat, k < 512 → Cert.Tree.natArr2 (a := 512) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k1_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k1_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T512

end
-- ==== Proof.KLevel1.lean ====
/-
  Level 1 of the tree, 65536 nodes: what the pipelined region leaves in its two output arrays.

  The region's grid has 128 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k1_pay2 Ideal _ = @k1_pay2 Ideal _ := rfl
theorem pay3_same : @k1_pay3 Ideal _ = @k1_pay3 Ideal _ := rfl

/-- The block each window holds at grid point t: the row windows move with t, the weight and bias windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 128 := by
  exact lt_of_lt_of_eq t.isLt (show cfg1.N = 128 from N_1)

section Blocks

variable (c : Dev nD) (t : Fin cfg1.N)

/-- Row r of point t's block of the children's hidden rows is row 512·t + r of the array. -/
theorem blk0_apply (r : Fin 512) (k : Fin 512) (i : S65536x512.Idx) (hi0 : (i 0).val = t.val * 512 + r.val) (hi1 : (i 1).val = k.val) :
    (iblk1 V c 0 t : Vec Ideal S512x512 .f32) (ix2 r k) = (V c (Pipeline.arrRef spec1 0) : S65536x512.Idx → EReal) i := by
  obtain ⟨e0, e1, -⟩ := idx_facts t
  unfold iblk1
  rw [View.read_apply]
  refine congrArg (V c (Pipeline.arrRef spec1 0) : S65536x512.Idx → EReal) (funext fun a => Fin.ext ?_)
  match a with
  | ⟨0, _⟩ => show win1_0.index t (0 : Fin 2) * 512 + 1 * r.val = (i 0).val; rw [e0, hi0]; omega
  | ⟨1, _⟩ => show win1_0.index t (1 : Fin 2) * 512 + 1 * k.val = (i 1).val; rw [e1, hi1]; omega

/-- Row r of point t's block of the children's cell rows is row 512·t + r of the array. -/
theorem blk1_apply (r : Fin 512) (k : Fin 512) (i : S65536x512.Idx) (hi0 : (i 0).val = t.val * 512 + r.val) (hi1 : (i 1).val = k.val) :
    (iblk1 V c 1 t : Vec Ideal S512x512 .f32) (ix2 r k) = (V c (Pipeline.arrRef spec1 1) : S65536x512.Idx → EReal) i := by
  obtain ⟨-, -, e0, e1, -⟩ := idx_facts t
  unfold iblk1
  rw [View.read_apply]
  refine congrArg (V c (Pipeline.arrRef spec1 1) : S65536x512.Idx → EReal) (funext fun a => Fin.ext ?_)
  match a with
  | ⟨0, _⟩ => show win1_1.index t (0 : Fin 2) * 512 + 1 * r.val = (i 0).val; rw [e0, hi0]; omega
  | ⟨1, _⟩ => show win1_1.index t (1 : Fin 2) * 512 + 1 * k.val = (i 1).val; rw [e1, hi1]; omega

/-- The weight window's block is the whole transposed weight array. -/
theorem blk2_apply (k : Fin 256) (q : Fin 1024) :
    (iblk1 V c 2 t : Vec Ideal S256x1024 .bf16) (ix2 k q) = (V c (Pipeline.arrRef spec1 2) : S256x1024.Idx → EReal) (ix2 k q) := by
  obtain ⟨-, -, -, -, e0, e1, -⟩ := idx_facts t
  unfold iblk1
  rw [View.read_apply]
  refine congrArg (V c (Pipeline.arrRef spec1 2) : S256x1024.Idx → EReal) (funext fun a => Fin.ext ?_)
  match a with
  | ⟨0, _⟩ => show win1_2.index t (0 : Fin 2) * 256 + 1 * k.val = k.val; rw [e0]; omega
  | ⟨1, _⟩ => show win1_2.index t (1 : Fin 2) * 1024 + 1 * q.val = q.val; rw [e1]; omega

/-- The bias window's block is the whole bias row. -/
theorem blk3_apply (z : Fin 1) (q : Fin 1024) :
    (iblk1 V c 3 t : Vec Ideal S1x1024 .f32) (ix2 z q) = (V c (Pipeline.arrRef spec1 3) : S1x1024.Idx → EReal) (ix2 z q) := by
  obtain ⟨-, -, -, -, -, -, e0, e1, -⟩ := idx_facts t
  unfold iblk1
  rw [View.read_apply]
  refine congrArg (V c (Pipeline.arrRef spec1 3) : S1x1024.Idx → EReal) (funext fun a => Fin.ext ?_)
  match a with
  | ⟨0, _⟩ => show win1_3.index t (0 : Fin 2) * 1 + 1 * z.val = z.val; rw [e0]; omega
  | ⟨1, _⟩ => show win1_3.index t (1 : Fin 2) * 1024 + 1 * q.val = q.val; rw [e1]; omega

end Blocks

section Level

variable (c : Dev nD) (Wn hp cp : Nat → Nat → EReal) (bn : Nat → EReal)
  (hH : ∀ i : S65536x512.Idx, (V c (Pipeline.arrRef spec1 0) : S65536x512.Idx → EReal) i = Cert.Tree.paired hp (i 0).val (i 1).val)
  (hC : ∀ i : S65536x512.Idx, (V c (Pipeline.arrRef spec1 1) : S65536x512.Idx → EReal) i = Cert.Tree.paired cp (i 0).val (i 1).val)
  (hW : ∀ i : S256x1024.Idx, (V c (Pipeline.arrRef spec1 2) : S256x1024.Idx → EReal) i = Wn (i 1).val (i 0).val)
  (hB : ∀ i : S1x1024.Idx, (V c (Pipeline.arrRef spec1 3) : S1x1024.Idx → EReal) i = bn (i 1).val)

/-- The hidden array of this level as the tree gives it. -/
def GH : S65536x256.Idx → EReal := fun i => Cert.Tree.nodeH Wn bn hp cp (i 0).val (i 1).val
/-- The cell array of this level as the tree gives it. -/
def GC : S65536x256.Idx → EReal := fun i => Cert.Tree.nodeC Wn bn hp cp (i 0).val (i 1).val

include hH in
theorem in0 (t : Fin cfg1.N) (r : Fin 512) (k : Nat) (hk : k < 512) :
    Cert.Tree.natArr2 (a := 512) (b := 512) (iblk1 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg1.N) (r : Fin 512) (k : Nat) (hk : k < 512) :
    Cert.Tree.natArr2 (a := 512) (b := 512) (iblk1 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg1.N) (k : Nat) (hk : k < 256) (q : Nat) (hq : q < 1024) :
    Cert.Tree.natArr2 (a := 256) (b := 1024) (iblk1 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg1.N) (q : Nat) (hq : q < 1024) :
    Cert.Tree.natArr2 (a := 1) (b := 1024) (iblk1 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg1.N) :
    (dat1 V c).flushed 4 t = ((cfg1.win 4).blk t).view.read (Elt Ideal) (GH Wn hp cp bn) := by
  obtain ⟨-, -, -, -, -, -, -, -, e0, e1, -⟩ := idx_facts t
  have ht := t_lt t
  show (cfg1.win 4).cut (grid1.coords t) ((dat1 V c).after 4 t) = _
  rw [after1_4]
  unfold out1_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg1.win 4).blk t).view.emb (ix2 r q))
  unfold GH
  have a0 : ((((cfg1.win 4).blk t).view.emb (ix2 r q)) 0).val = t.val * 512 + r.val := by
    show win1_4.index t (0 : Fin 2) * 512 + 1 * r.val = _; rw [e0]; omega
  have a1 : ((((cfg1.win 4).blk t).view.emb (ix2 r q)) 1).val = q.val := by
    show win1_4.index t (1 : Fin 2) * 256 + 1 * q.val = _; rw [e1]; omega
  rw [a0, a1]

include hH hC hW hB in
/-- What point t writes back to the cell array is block t of the tree's level. -/
theorem flushed5 (t : Fin cfg1.N) :
    (dat1 V c).flushed 5 t = ((cfg1.win 5).blk t).view.read (Elt Ideal) (GC Wn hp cp bn) := by
  obtain ⟨-, -, -, -, -, -, -, -, -, -, e0, e1⟩ := idx_facts t
  have ht := t_lt t
  show (cfg1.win 5).cut (grid1.coords t) ((dat1 V c).after 5 t) = _
  rw [after1_5]
  unfold out1_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg1.win 5).blk t).view.emb (ix2 r q))
  unfold GC
  have a0 : ((((cfg1.win 5).blk t).view.emb (ix2 r q)) 0).val = t.val * 512 + r.val := by
    show win1_5.index t (0 : Fin 2) * 512 + 1 * r.val = _; rw [e0]; omega
  have a1 : ((((cfg1.win 5).blk t).view.emb (ix2 r q)) 1).val = q.val := by
    show win1_5.index t (1 : Fin 2) * 256 + 1 * q.val = _; rw [e1]; omega
  rw [a0, a1]

/-- Every node's row is in the block of the point that handles it. -/
theorem cover4 (i : S65536x256.Idx) : ∃ t : Fin cfg1.N, (cfg1.win 4).flush t = true ∧ i ∈ ((cfg1.win 4).blk t).view.set := by
  have hi0 : (i 0).val < 65536 := (i 0).isLt
  have hi1 : (i 1).val < 256 := (i 1).isLt
  have hN : cfg1.N = 128 := N_1
  let t : Fin cfg1.N := ⟨(i 0).val / 512, by rw [hN]; omega⟩
  obtain ⟨-, -, -, -, -, -, -, -, e0, e1, -⟩ := idx_facts t
  refine ⟨t, flush1_4 t, ?_⟩
  show i ∈ ((View.whole main_v13_0).slice (win1_4.rect t)).set
  rw [View.set_slice_whole, Rect.mem_set_unit]
  intro a
  match a with
  | ⟨0, _⟩ => show win1_4.index t (0 : Fin 2) * 512 ≤ (i 0).val ∧ (i 0).val < win1_4.index t (0 : Fin 2) * 512 + 512; rw [e0]; show (i 0).val / 512 * 512 ≤ (i 0).val ∧ (i 0).val < (i 0).val / 512 * 512 + 512; omega
  | ⟨1, _⟩ => show win1_4.index t (1 : Fin 2) * 256 ≤ (i 1).val ∧ (i 1).val < win1_4.index t (1 : Fin 2) * 256 + 256; rw [e1]; omega

theorem cover5 (i : S65536x256.Idx) : ∃ t : Fin cfg1.N, (cfg1.win 5).flush t = true ∧ i ∈ ((cfg1.win 5).blk t).view.set := by
  have hi0 : (i 0).val < 65536 := (i 0).isLt
  have hi1 : (i 1).val < 256 := (i 1).isLt
  have hN : cfg1.N = 128 := N_1
  let t : Fin cfg1.N := ⟨(i 0).val / 512, by rw [hN]; omega⟩
  obtain ⟨-, -, -, -, -, -, -, -, -, -, e0, e1⟩ := idx_facts t
  refine ⟨t, flush1_5 t, ?_⟩
  show i ∈ ((View.whole main_v13_1).slice (win1_5.rect t)).set
  rw [View.set_slice_whole, Rect.mem_set_unit]
  intro a
  match a with
  | ⟨0, _⟩ => show win1_5.index t (0 : Fin 2) * 512 ≤ (i 0).val ∧ (i 0).val < win1_5.index t (0 : Fin 2) * 512 + 512; rw [e0]; show (i 0).val / 512 * 512 ≤ (i 0).val ∧ (i 0).val < (i 0).val / 512 * 512 + 512; omega
  | ⟨1, _⟩ => show win1_5.index t (1 : Fin 2) * 256 ≤ (i 1).val ∧ (i 1).val < win1_5.index t (1 : Fin 2) * 256 + 256; rw [e1]; omega

end Level

end Cert.KernelIdeal.TreeK.L1

namespace Cert.KernelIdeal.TreeK

open Cert.KernelIdeal Cert.KernelIdeal.Gen Idealize.ShloMosaic Idealize.ShloMosaic.TcCoe Idealize.SL.Sem

/-- Level 1: from the level below laid side by side at the region's entry, the region's two output arrays end at
    the tree's node functions. -/
theorem level1 (V : (c : Dev nD) → (b : Ref sig .tc) → Buf (Elt Ideal) ((c : Thread nD τ).loc b)) (c : Dev nD)
    (Wn hp cp : Nat → Nat → EReal) (bn : Nat → EReal)
    (hH : ∀ i : S65536x512.Idx, (V c (Pipeline.arrRef spec1 0) : S65536x512.Idx → EReal) i = Cert.Tree.paired hp (i 0).val (i 1).val)
    (hC : ∀ i : S65536x512.Idx, (V c (Pipeline.arrRef spec1 1) : S65536x512.Idx → EReal) i = Cert.Tree.paired cp (i 0).val (i 1).val)
    (hW : ∀ i : S256x1024.Idx, (V c (Pipeline.arrRef spec1 2) : S256x1024.Idx → EReal) i = Wn (i 1).val (i 0).val)
    (hB : ∀ i : S1x1024.Idx, (V c (Pipeline.arrRef spec1 3) : S1x1024.Idx → EReal) i = bn (i 1).val) :
    (∀ i : S65536x256.Idx, ((dat1 V c).arrAt 4 cfg1.N : S65536x256.Idx → EReal) i = Cert.Tree.nodeH Wn bn hp cp (i 0).val (i 1).val)
    ∧ (∀ i : S65536x256.Idx, ((dat1 V c).arrAt 5 cfg1.N : S65536x256.Idx → EReal) i = Cert.Tree.nodeC Wn bn hp cp (i 0).val (i 1).val) :=
  ⟨fun i => congrFun ((dat1 V c).arrAt_eq_of_cover 4 (L1.GH Wn hp cp bn) (fun t _ => L1.flushed4 V c Wn hp cp bn hH hC hW hB t) L1.cover4) i,
   fun i => congrFun ((dat1 V c).arrAt_eq_of_cover 5 (L1.GC Wn hp cp bn) (fun t _ => L1.flushed5 V c Wn hp cp bn hH hC hW hB t) L1.cover5) i⟩

end Cert.KernelIdeal.TreeK

end
-- ==== Proof.KLevel2.lean ====
/-
  Level 2 of the tree, 32768 nodes: what the pipelined region leaves in its two output arrays.

  The region's grid has 64 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k2_pay2 Ideal _ = @k1_pay2 Ideal _ := rfl
theorem pay3_same : @k2_pay3 Ideal _ = @k1_pay3 Ideal _ := rfl

/-- The block each window holds at grid point t: the row windows move with t, the weight and bias windows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 64 := by
  exact lt_of_lt_of_eq t.isLt (show cfg2.N = 64 from N_2)

section Blocks

variable (c : Dev nD) (t : Fin cfg2.N)

/-- Row r of point t's block of the children's hidden rows is row 512·t + r of the array. -/
theorem blk0_apply (r : Fin 512) (k : Fin 512) (i : S32768x512.Idx) (hi0 : (i 0).val = t.val * 512 + r.val) (hi1 : (i 1).val = k.val) :
    (iblk2 V c 0 t : Vec Ideal S512x512 .f32) (ix2 r k) = (V c (Pipeline.arrRef spec2 0) : S32768x512.Idx → EReal) i := by
  obtain ⟨e0, e1, -⟩ := idx_facts t
  unfold iblk2
  rw [View.read_apply]
  refine congrArg (V c (Pipeline.arrRef spec2 0) : S32768x512.Idx → EReal) (funext fun a => Fin.ext ?_)
  match a with
  | ⟨0, _⟩ => show win2_0.index t (0 : Fin 2) * 512 + 1 * r.val = (i 0).val; rw [e0, hi0]; omega
  | ⟨1, _⟩ => show win2_0.index t (1 : Fin 2) * 512 + 1 * k.val = (i 1).val; rw [e1, hi1]; omega

/-- Row r of point t's block of the children's cell rows is row 512·t + r of the array. -/
theorem blk1_apply (r : Fin 512) (k : Fin 512) (i : S32768x512.Idx) (hi0 : (i 0).val = t.val * 512 + r.val) (hi1 : (i 1).val = k.val) :
    (iblk2 V c 1 t : Vec Ideal S512x512 .f32) (ix2 r k) = (V c (Pipeline.arrRef spec2 1) : S32768x512.Idx → EReal) i := by
  obtain ⟨-, -, e0, e1, -⟩ := idx_facts t
  unfold iblk2
  rw [View.read_apply]
  refine congrArg (V c (Pipeline.arrRef spec2 1) : S32768x512.Idx → EReal) (funext fun a => Fin.ext ?_)
  match a with
  | ⟨0, _⟩ => show win2_1.index t (0 : Fin 2) * 512 + 1 * r.val = (i 0).val; rw [e0, hi0]; omega
  | ⟨1, _⟩ => show win2_1.index t (1 : Fin 2) * 512 + 1 * k.val = (i 1).val; rw [e1, hi1]; omega

/-- The weight window's block is the whole transposed weight array. -/
theorem blk2_apply (k : Fin 256) (q : Fin 1024) :
    (iblk2 V c 2 t : Vec Ideal S256x1024 .bf16) (ix2 k q) = (V c (Pipeline.arrRef spec2 2) : S256x1024.Idx → EReal) (ix2 k q) := by
  obtain ⟨-, -, -, -, e0, e1, -⟩ := idx_facts t
  unfold iblk2
  rw [View.read_apply]
  refine congrArg (V c (Pipeline.arrRef spec2 2) : S256x1024.Idx → EReal) (funext fun a => Fin.ext ?_)
  match a with
  | ⟨0, _⟩ => show win2_2.index t (0 : Fin 2) * 256 + 1 * k.val = k.val; rw [e0]; omega
  | ⟨1, _⟩ => show win2_2.index t (1 : Fin 2) * 1024 + 1 * q.val = q.val; rw [e1]; omega

/-- The bias window's block is the whole bias row. -/
theorem blk3_apply (z : Fin 1) (q : Fin 1024) :
    (iblk2 V c 3 t : Vec Ideal S1x1024 .f32) (ix2 z q) = (V c (Pipeline.arrRef spec2 3) : S1x1024.Idx → EReal) (ix2 z q) := by
  obtain ⟨-, -, -, -, -, -, e0, e1, -⟩ := idx_facts t
  unfold iblk2
  rw [View.read_apply]
  refine congrArg (V c (Pipeline.arrRef spec2 3) : S1x1024.Idx → EReal) (funext fun a => Fin.ext ?_)
  match a with
  | ⟨0, _⟩ => show win2_3.index t (0 : Fin 2) * 1 + 1 * z.val = z.val; rw [e0]; omega
  | ⟨1, _⟩ => show win2_3.index t (1 : Fin 2) * 1024 + 1 * q.val = q.val; rw [e1]; omega

end Blocks

section Level

variable (c : Dev nD) (Wn hp cp : Nat → Nat → EReal) (bn : Nat → EReal)
  (hH : ∀ i : S32768x512.Idx, (V c (Pipeline.arrRef spec2 0) : S32768x512.Idx → EReal) i = Cert.Tree.paired hp (i 0).val (i 1).val)
  (hC : ∀ i : S32768x512.Idx, (V c (Pipeline.arrRef spec2 1) : S32768x512.Idx → EReal) i = Cert.Tree.paired cp (i 0).val (i 1).val)
  (hW : ∀ i : S256x1024.Idx, (V c (Pipeline.arrRef spec2 2) : S256x1024.Idx → EReal) i = Wn (i 1).val (i 0).val)
  (hB : ∀ i : S1x1024.Idx, (V c (Pipeline.arrRef spec2 3) : S1x1024.Idx → EReal) i = bn (i 1).val)

/-- The hidden array of this level as the tree gives it. -/
def GH : S32768x256.Idx → EReal := fun i => Cert.Tree.nodeH Wn bn hp cp (i 0).val (i 1).val
/-- The cell array of this level as the tree gives it. -/
def GC : S32768x256.Idx → EReal := fun i => Cert.Tree.nodeC Wn bn hp cp (i 0).val (i 1).val

include hH in
theorem in0 (t : Fin cfg2.N) (r : Fin 512) (k : Nat) (hk : k < 512) :
    Cert.Tree.natArr2 (a := 512) (b := 512) (iblk2 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg2.N) (r : Fin 512) (k : Nat) (hk : k < 512) :
    Cert.Tree.natArr2 (a := 512) (b := 512) (iblk2 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg2.N) (k : Nat) (hk : k < 256) (q : Nat) (hq : q < 1024) :
    Cert.Tree.natArr2 (a := 256) (b := 1024) (iblk2 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg2.N) (q : Nat) (hq : q < 1024) :
    Cert.Tree.natArr2 (a := 1) (b := 1024) (iblk2 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg2.N) :
    (dat2 V c).flushed 4 t = ((cfg2.win 4).blk t).view.read (Elt Ideal) (GH Wn hp cp bn) := by
  obtain ⟨-, -, -, -, -, -, -, -, e0, e1, -⟩ := idx_facts t
  have ht := t_lt t
  show (cfg2.win 4).cut (grid2.coords t) ((dat2 V c).after 4 t) = _
  rw [after2_4]
  unfold out2_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg2.win 4).blk t).view.emb (ix2 r q))
  unfold GH
  have a0 : ((((cfg2.win 4).blk t).view.emb (ix2 r q)) 0).val = t.val * 512 + r.val := by
    show win2_4.index t (0 : Fin 2) * 512 + 1 * r.val = _; rw [e0]; omega
  have a1 : ((((cfg2.win 4).blk t).view.emb (ix2 r q)) 1).val = q.val := by
    show win2_4.index t (1 : Fin 2) * 256 + 1 * q.val = _; rw [e1]; omega
  rw [a0, a1]

include hH hC hW hB in
/-- What point t writes back to the cell array is block t of the tree's level. -/
theorem flushed5 (t : Fin cfg2.N) :
    (dat2 V c).flushed 5 t = ((cfg2.win 5).blk t).view.read (Elt Ideal) (GC Wn hp cp bn) := by
  obtain ⟨-, -, -, -, -, -, -, -, -, -, e0, e1⟩ := idx_facts t
  have ht := t_lt t
  show (cfg2.win 5).cut (grid2.coords t) ((dat2 V c).after 5 t) = _
  rw [after2_5]
  unfold out2_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg2.win 5).blk t).view.emb (ix2 r q))
  unfold GC
  have a0 : ((((cfg2.win 5).blk t).view.emb (ix2 r q)) 0).val = t.val * 512 + r.val := by
    show win2_5.index t (0 : Fin 2) * 512 + 1 * r.val = _; rw [e0]; omega
  have a1 : ((((cfg2.win 5).blk t).view.emb (ix2 r q)) 1).val = q.val := by
    show win2_5.index t (1 : Fin 2) * 256 + 1 * q.val = _; rw [e1]; omega
  rw [a0, a1]

/-- Every node's row is in the block of the point that handles it. -/
theorem cover4 (i : S32768x256.Idx) : ∃ t : Fin cfg2.N, (cfg2.win 4).flush t = true ∧ i ∈ ((cfg2.win 4).blk t).view.set := by
  have hi0 : (i 0).val < 32768 := (i 0).isLt
  have hi1 : (i 1).val < 256 := (i 1).isLt
  have hN : cfg2.N = 64 := N_2
  let t : Fin cfg2.N := ⟨(i 0).val / 512, by rw [hN]; omega⟩
  obtain ⟨-, -, -, -, -, -, -, -, e0, e1, -⟩ := idx_facts t
  refine ⟨t, flush2_4 t, ?_⟩
  show i ∈ ((View.whole main_v16_0).slice (win2_4.rect t)).set
  rw [View.set_slice_whole, Rect.mem_set_unit]
  intro a
  match a with
  | ⟨0, _⟩ => show win2_4.index t (0 : Fin 2) * 512 ≤ (i 0).val ∧ (i 0).val < win2_4.index t (0 : Fin 2) * 512 + 512; rw [e0]; show (i 0).val / 512 * 512 ≤ (i 0).val ∧ (i 0).val < (i 0).val / 512 * 512 + 512; omega
  | ⟨1, _⟩ => show win2_4.index t (1 : Fin 2) * 256 ≤ (i 1).val ∧ (i 1).val < win2_4.index t (1 : Fin 2) * 256 + 256; rw [e1]; omega

theorem cover5 (i : S32768x256.Idx) : ∃ t : Fin cfg2.N, (cfg2.win 5).flush t = true ∧ i ∈ ((cfg2.win 5).blk t).view.set := by
  have hi0 : (i 0).val < 32768 := (i 0).isLt
  have hi1 : (i 1).val < 256 := (i 1).isLt
  have hN : cfg2.N = 64 := N_2
  let t : Fin cfg2.N := ⟨(i 0).val / 512, by rw [hN]; omega⟩
  obtain ⟨-, -, -, -, -, -, -, -, -, -, e0, e1⟩ := idx_facts t
  refine ⟨t, flush2_5 t, ?_⟩
  show i ∈ ((View.whole main_v16_1).slice (win2_5.rect t)).set
  rw [View.set_slice_whole, Rect.mem_set_unit]
  intro a
  match a with
  | ⟨0, _⟩ => show win2_5.index t (0 : Fin 2) * 512 ≤ (i 0).val ∧ (i 0).val < win2_5.index t (0 : Fin 2) * 512 + 512; rw [e0]; show (i 0).val / 512 * 512 ≤ (i 0).val ∧ (i 0).val < (i 0).val / 512 * 512 + 512; omega
  | ⟨1, _⟩ => show win2_5.index t (1 : Fin 2) * 256 ≤ (i 1).val ∧ (i 1).val < win2_5.index t (1 : Fin 2) * 256 + 256; rw [e1]; omega

end Level

end Cert.KernelIdeal.TreeK.L2

namespace Cert.KernelIdeal.TreeK

open Cert.KernelIdeal Cert.KernelIdeal.Gen Idealize.ShloMosaic Idealize.ShloMosaic.TcCoe Idealize.SL.Sem

/-- Level 2: from the level below laid side by side at the region's entry, the region's two output arrays end at
    the tree's node functions. -/
theorem level2 (V : (c : Dev nD) → (b : Ref sig .tc) → Buf (Elt Ideal) ((c : Thread nD τ).loc b)) (c : Dev nD)
    (Wn hp cp : Nat → Nat → EReal) (bn : Nat → EReal)
    (hH : ∀ i : S32768x512.Idx, (V c (Pipeline.arrRef spec2 0) : S32768x512.Idx → EReal) i = Cert.Tree.paired hp (i 0).val (i 1).val)
    (hC : ∀ i : S32768x512.Idx, (V c (Pipeline.arrRef spec2 1) : S32768x512.Idx → EReal) i = Cert.Tree.paired cp (i 0).val (i 1).val)
    (hW : ∀ i : S256x1024.Idx, (V c (Pipeline.arrRef spec2 2) : S256x1024.Idx → EReal) i = Wn (i 1).val (i 0).val)
    (hB : ∀ i : S1x1024.Idx, (V c (Pipeline.arrRef spec2 3) : S1x1024.Idx → EReal) i = bn (i 1).val) :
    (∀ i : S32768x256.Idx, ((dat2 V c).arrAt 4 cfg2.N : S32768x256.Idx → EReal) i = Cert.Tree.nodeH Wn bn hp cp (i 0).val (i 1).val)
    ∧ (∀ i : S32768x256.Idx, ((dat2 V c).arrAt 5 cfg2.N : S32768x256.Idx → EReal) i = Cert.Tree.nodeC Wn bn hp cp (i 0).val (i 1).val) :=
  ⟨fun i => congrFun ((dat2 V c).arrAt_eq_of_cover 4 (L2.GH Wn hp cp bn) (fun t _ => L2.flushed4 V c Wn hp cp bn hH hC hW hB t) L2.cover4) i,
   fun i => congrFun ((dat2 V c).arrAt_eq_of_cover 5 (L2.GC Wn hp cp bn) (fun t _ => L2.flushed5 V c Wn hp cp bn hH hC hW hB t) L2.cover5) i⟩

end Cert.KernelIdeal.TreeK

end
-- ==== Proof.KLevel3.lean ====
/-
  Level 3 of the tree, 16384 nodes: what the pipelined region leaves in its two output arrays.

  The region's grid has 32 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k3_pay2 Ideal _ = @k1_pay2 Ideal _ := rfl
theorem pay3_same : @k3_pay3 Ideal _ = @k1_pay3 Ideal _ := rfl

/-- The block each window holds at grid point t: the row windows move with t, the weight and bias windows stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 32 := by
  exact lt_of_lt_of_eq t.isLt (show cfg3.N = 32 from N_3)

section Blocks

variable (c : Dev nD) (t : Fin cfg3.N)

/-- Row r of point t's block of the children's hidden rows is row 512·t + r of the array. -/
theorem blk0_apply (r : Fin 512) (k : Fin 512) (i : S16384x512.Idx) (hi0 : (i 0).val = t.val * 512 + r.val) (hi1 : (i 1).val = k.val) :
    (iblk3 V c 0 t : Vec Ideal S512x512 .f32) (ix2 r k) = (V c (Pipeline.arrRef spec3 0) : S16384x512.Idx → EReal) i := by
  obtain ⟨e0, e1, -⟩ := idx_facts t
  unfold iblk3
  rw [View.read_apply]
  refine congrArg (V c (Pipeline.arrRef spec3 0) : S16384x512.Idx → EReal) (funext fun a => Fin.ext ?_)
  match a with
  | ⟨0, _⟩ => show win3_0.index t (0 : Fin 2) * 512 + 1 * r.val = (i 0).val; rw [e0, hi0]; omega
  | ⟨1, _⟩ => show win3_0.index t (1 : Fin 2) * 512 + 1 * k.val = (i 1).val; rw [e1, hi1]; omega

/-- Row r of point t's block of the children's cell rows is row 512·t + r of the array. -/
theorem blk1_apply (r : Fin 512) (k : Fin 512) (i : S16384x512.Idx) (hi0 : (i 0).val = t.val * 512 + r.val) (hi1 : (i 1).val = k.val) :
    (iblk3 V c 1 t : Vec Ideal S512x512 .f32) (ix2 r k) = (V c (Pipeline.arrRef spec3 1) : S16384x512.Idx → EReal) i := by
  obtain ⟨-, -, e0, e1, -⟩ := idx_facts t
  unfold iblk3
  rw [View.read_apply]
  refine congrArg (V c (Pipeline.arrRef spec3 1) : S16384x512.Idx → EReal) (funext fun a => Fin.ext ?_)
  match a with
  | ⟨0, _⟩ => show win3_1.index t (0 : Fin 2) * 512 + 1 * r.val = (i 0).val; rw [e0, hi0]; omega
  | ⟨1, _⟩ => show win3_1.index t (1 : Fin 2) * 512 + 1 * k.val = (i 1).val; rw [e1, hi1]; omega

/-- The weight window's block is the whole transposed weight array. -/
theorem blk2_apply (k : Fin 256) (q : Fin 1024) :
    (iblk3 V c 2 t : Vec Ideal S256x1024 .bf16) (ix2 k q) = (V c (Pipeline.arrRef spec3 2) : S256x1024.Idx → EReal) (ix2 k q) := by
  obtain ⟨-, -, -, -, e0, e1, -⟩ := idx_facts t
  unfold iblk3
  rw [View.read_apply]
  refine congrArg (V c (Pipeline.arrRef spec3 2) : S256x1024.Idx → EReal) (funext fun a => Fin.ext ?_)
  match a with
  | ⟨0, _⟩ => show win3_2.index t (0 : Fin 2) * 256 + 1 * k.val = k.val; rw [e0]; omega
  | ⟨1, _⟩ => show win3_2.index t (1 : Fin 2) * 1024 + 1 * q.val = q.val; rw [e1]; omega

/-- The bias window's block is the whole bias row. -/
theorem blk3_apply (z : Fin 1) (q : Fin 1024) :
    (iblk3 V c 3 t : Vec Ideal S1x1024 .f32) (ix2 z q) = (V c (Pipeline.arrRef spec3 3) : S1x1024.Idx → EReal) (ix2 z q) := by
  obtain ⟨-, -, -, -, -, -, e0, e1, -⟩ := idx_facts t
  unfold iblk3
  rw [View.read_apply]
  refine congrArg (V c (Pipeline.arrRef spec3 3) : S1x1024.Idx → EReal) (funext fun a => Fin.ext ?_)
  match a with
  | ⟨0, _⟩ => show win3_3.index t (0 : Fin 2) * 1 + 1 * z.val = z.val; rw [e0]; omega
  | ⟨1, _⟩ => show win3_3.index t (1 : Fin 2) * 1024 + 1 * q.val = q.val; rw [e1]; omega

end Blocks

section Level

variable (c : Dev nD) (Wn hp cp : Nat → Nat → EReal) (bn : Nat → EReal)
  (hH : ∀ i : S16384x512.Idx, (V c (Pipeline.arrRef spec3 0) : S16384x512.Idx → EReal) i = Cert.Tree.paired hp (i 0).val (i 1).val)
  (hC : ∀ i : S16384x512.Idx, (V c (Pipeline.arrRef spec3 1) : S16384x512.Idx → EReal) i = Cert.Tree.paired cp (i 0).val (i 1).val)
  (hW : ∀ i : S256x1024.Idx, (V c (Pipeline.arrRef spec3 2) : S256x1024.Idx → EReal) i = Wn (i 1).val (i 0).val)
  (hB : ∀ i : S1x1024.Idx, (V c (Pipeline.arrRef spec3 3) : S1x1024.Idx → EReal) i = bn (i 1).val)

/-- The hidden array of this level as the tree gives it. -/
def GH : S16384x256.Idx → EReal := fun i => Cert.Tree.nodeH Wn bn hp cp (i 0).val (i 1).val
/-- The cell array of this level as the tree gives it. -/
def GC : S16384x256.Idx → EReal := fun i => Cert.Tree.nodeC Wn bn hp cp (i 0).val (i 1).val

include hH in
theorem in0 (t : Fin cfg3.N) (r : Fin 512) (k : Nat) (hk : k < 512) :
    Cert.Tree.natArr2 (a := 512) (b := 512) (iblk3 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg3.N) (r : Fin 512) (k : Nat) (hk : k < 512) :
    Cert.Tree.natArr2 (a := 512) (b := 512) (iblk3 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg3.N) (k : Nat) (hk : k < 256) (q : Nat) (hq : q < 1024) :
    Cert.Tree.natArr2 (a := 256) (b := 1024) (iblk3 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg3.N) (q : Nat) (hq : q < 1024) :
    Cert.Tree.natArr2 (a := 1) (b := 1024) (iblk3 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg3.N) :
    (dat3 V c).flushed 4 t = ((cfg3.win 4).blk t).view.read (Elt Ideal) (GH Wn hp cp bn) := by
  obtain ⟨-, -, -, -, -, -, -, -, e0, e1, -⟩ := idx_facts t
  have ht := t_lt t
  show (cfg3.win 4).cut (grid3.coords t) ((dat3 V c).after 4 t) = _
  rw [after3_4]
  unfold out3_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg3.win 4).blk t).view.emb (ix2 r q))
  unfold GH
  have a0 : ((((cfg3.win 4).blk t).view.emb (ix2 r q)) 0).val = t.val * 512 + r.val := by
    show win3_4.index t (0 : Fin 2) * 512 + 1 * r.val = _; rw [e0]; omega
  have a1 : ((((cfg3.win 4).blk t).view.emb (ix2 r q)) 1).val = q.val := by
    show win3_4.index t (1 : Fin 2) * 256 + 1 * q.val = _; rw [e1]; omega
  rw [a0, a1]

include hH hC hW hB in
/-- What point t writes back to the cell array is block t of the tree's level. -/
theorem flushed5 (t : Fin cfg3.N) :
    (dat3 V c).flushed 5 t = ((cfg3.win 5).blk t).view.read (Elt Ideal) (GC Wn hp cp bn) := by
  obtain ⟨-, -, -, -, -, -, -, -, -, -, e0, e1⟩ := idx_facts t
  have ht := t_lt t
  show (cfg3.win 5).cut (grid3.coords t) ((dat3 V c).after 5 t) = _
  rw [after3_5]
  unfold out3_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg3.win 5).blk t).view.emb (ix2 r q))
  unfold GC
  have a0 : ((((cfg3.win 5).blk t).view.emb (ix2 r q)) 0).val = t.val * 512 + r.val := by
    show win3_5.index t (0 : Fin 2) * 512 + 1 * r.val = _; rw [e0]; omega
  have a1 : ((((cfg3.win 5).blk t).view.emb (ix2 r q)) 1).val = q.val := by
    show win3_5.index t (1 : Fin 2) * 256 + 1 * q.val = _; rw [e1]; omega
  rw [a0, a1]

/-- Every node's row is in the block of the point that handles it. -/
theorem cover4 (i : S16384x256.Idx) : ∃ t : Fin cfg3.N, (cfg3.win 4).flush t = true ∧ i ∈ ((cfg3.win 4).blk t).view.set := by
  have hi0 : (i 0).val < 16384 := (i 0).isLt
  have hi1 : (i 1).val < 256 := (i 1).isLt
  have hN : cfg3.N = 32 := N_3
  let t : Fin cfg3.N := ⟨(i 0).val / 512, by rw [hN]; omega⟩
  obtain ⟨-, -, -, -, -, -, -, -, e0, e1, -⟩ := idx_facts t
  refine ⟨t, flush3_4 t, ?_⟩
  show i ∈ ((View.whole main_v19_0).slice (win3_4.rect t)).set
  rw [View.set_slice_whole, Rect.mem_set_unit]
  intro a
  match a with
  | ⟨0, _⟩ => show win3_4.index t (0 : Fin 2) * 512 ≤ (i 0).val ∧ (i 0).val < win3_4.index t (0 : Fin 2) * 512 + 512; rw [e0]; show (i 0).val / 512 * 512 ≤ (i 0).val ∧ (i 0).val < (i 0).val / 512 * 512 + 512; omega
  | ⟨1, _⟩ => show win3_4.index t (1 : Fin 2) * 256 ≤ (i 1).val ∧ (i 1).val < win3_4.index t (1 : Fin 2) * 256 + 256; rw [e1]; omega

theorem cover5 (i : S16384x256.Idx) : ∃ t : Fin cfg3.N, (cfg3.win 5).flush t = true ∧ i ∈ ((cfg3.win 5).blk t).view.set := by
  have hi0 : (i 0).val < 16384 := (i 0).isLt
  have hi1 : (i 1).val < 256 := (i 1).isLt
  have hN : cfg3.N = 32 := N_3
  let t : Fin cfg3.N := ⟨(i 0).val / 512, by rw [hN]; omega⟩
  obtain ⟨-, -, -, -, -, -, -, -, -, -, e0, e1⟩ := idx_facts t
  refine ⟨t, flush3_5 t, ?_⟩
  show i ∈ ((View.whole main_v19_1).slice (win3_5.rect t)).set
  rw [View.set_slice_whole, Rect.mem_set_unit]
  intro a
  match a with
  | ⟨0, _⟩ => show win3_5.index t (0 : Fin 2) * 512 ≤ (i 0).val ∧ (i 0).val < win3_5.index t (0 : Fin 2) * 512 + 512; rw [e0]; show (i 0).val / 512 * 512 ≤ (i 0).val ∧ (i 0).val < (i 0).val / 512 * 512 + 512; omega
  | ⟨1, _⟩ => show win3_5.index t (1 : Fin 2) * 256 ≤ (i 1).val ∧ (i 1).val < win3_5.index t (1 : Fin 2) * 256 + 256; rw [e1]; omega

end Level

end Cert.KernelIdeal.TreeK.L3

namespace Cert.KernelIdeal.TreeK

open Cert.KernelIdeal Cert.KernelIdeal.Gen Idealize.ShloMosaic Idealize.ShloMosaic.TcCoe Idealize.SL.Sem

/-- Level 3: from the level below laid side by side at the region's entry, the region's two output arrays end at
    the tree's node functions. -/
theorem level3 (V : (c : Dev nD) → (b : Ref sig .tc) → Buf (Elt Ideal) ((c : Thread nD τ).loc b)) (c : Dev nD)
    (Wn hp cp : Nat → Nat → EReal) (bn : Nat → EReal)
    (hH : ∀ i : S16384x512.Idx, (V c (Pipeline.arrRef spec3 0) : S16384x512.Idx → EReal) i = Cert.Tree.paired hp (i 0).val (i 1).val)
    (hC : ∀ i : S16384x512.Idx, (V c (Pipeline.arrRef spec3 1) : S16384x512.Idx → EReal) i = Cert.Tree.paired cp (i 0).val (i 1).val)
    (hW : ∀ i : S256x1024.Idx, (V c (Pipeline.arrRef spec3 2) : S256x1024.Idx → EReal) i = Wn (i 1).val (i 0).val)
    (hB : ∀ i : S1x1024.Idx, (V c (Pipeline.arrRef spec3 3) : S1x1024.Idx → EReal) i = bn (i 1).val) :
    (∀ i : S16384x256.Idx, ((dat3 V c).arrAt 4 cfg3.N : S16384x256.Idx → EReal) i = Cert.Tree.nodeH Wn bn hp cp (i 0).val (i 1).val)
    ∧ (∀ i : S16384x256.Idx, ((dat3 V c).arrAt 5 cfg3.N : S16384x256.Idx → EReal) i = Cert.Tree.nodeC Wn bn hp cp (i 0).val (i 1).val) :=
  ⟨fun i => congrFun ((dat3 V c).arrAt_eq_of_cover 4 (L3.GH Wn hp cp bn) (fun t _ => L3.flushed4 V c Wn hp cp bn hH hC hW hB t) L3.cover4) i,
   fun i => congrFun ((dat3 V c).arrAt_eq_of_cover 5 (L3.GC Wn hp cp bn) (fun t _ => L3.flushed5 V c Wn hp cp bn hH hC hW hB t) L3.cover5) i⟩

end Cert.KernelIdeal.TreeK

end
-- ==== Proof.KLevel4.lean ====
/-
  Level 4 of the tree, 8192 nodes: what the pipelined region leaves in its two output arrays.

  The region's grid has 16 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k4_pay2 Ideal _ = @k1_pay2 Ideal _ := rfl
theorem pay3_same : @k4_pay3 Ideal _ = @k1_pay3 Ideal _ := rfl

/-- The block each window holds at grid point t: the row windows move with t, the weight and bias windows stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem t_lt (t : Fin cfg4.N) : t.val < 16 := by
  exact lt_of_lt_of_eq t.isLt (show cfg4.N = 16 from N_4)

section Blocks

variable (c : Dev nD) (t : Fin cfg4.N)

/-- Row r of point t's block of the children's hidden rows is row 512·t + r of the array. -/
theorem blk0_apply (r : Fin 512) (k : Fin 512) (i : S8192x512.Idx) (hi0 : (i 0).val = t.val * 512 + r.val) (hi1 : (i 1).val = k.val) :
    (iblk4 V c 0 t : Vec Ideal S512x512 .f32) (ix2 r k) = (V c (Pipeline.arrRef spec4 0) : S8192x512.Idx → EReal) i := by
  obtain ⟨e0, e1, -⟩ := idx_facts t
  unfold iblk4
  rw [View.read_apply]
  refine congrArg (V c (Pipeline.arrRef spec4 0) : S8192x512.Idx → EReal) (funext fun a => Fin.ext ?_)
  match a with
  | ⟨0, _⟩ => show win4_0.index t (0 : Fin 2) * 512 + 1 * r.val = (i 0).val; rw [e0, hi0]; omega
  | ⟨1, _⟩ => show win4_0.index t (1 : Fin 2) * 512 + 1 * k.val = (i 1).val; rw [e1, hi1]; omega

/-- Row r of point t's block of the children's cell rows is row 512·t + r of the array. -/
theorem blk1_apply (r : Fin 512) (k : Fin 512) (i : S8192x512.Idx) (hi0 : (i 0).val = t.val * 512 + r.val) (hi1 : (i 1).val = k.val) :
    (iblk4 V c 1 t : Vec Ideal S512x512 .f32) (ix2 r k) = (V c (Pipeline.arrRef spec4 1) : S8192x512.Idx → EReal) i := by
  obtain ⟨-, -, e0, e1, -⟩ := idx_facts t
  unfold iblk4
  rw [View.read_apply]
  refine congrArg (V c (Pipeline.arrRef spec4 1) : S8192x512.Idx → EReal) (funext fun a => Fin.ext ?_)
  match a with
  | ⟨0, _⟩ => show win4_1.index t (0 : Fin 2) * 512 + 1 * r.val = (i 0).val; rw [e0, hi0]; omega
  | ⟨1, _⟩ => show win4_1.index t (1 : Fin 2) * 512 + 1 * k.val = (i 1).val; rw [e1, hi1]; omega

/-- The weight window's block is the whole transposed weight array. -/
theorem blk2_apply (k : Fin 256) (q : Fin 1024) :
    (iblk4 V c 2 t : Vec Ideal S256x1024 .bf16) (ix2 k q) = (V c (Pipeline.arrRef spec4 2) : S256x1024.Idx → EReal) (ix2 k q) := by
  obtain ⟨-, -, -, -, e0, e1, -⟩ := idx_facts t
  unfold iblk4
  rw [View.read_apply]
  refine congrArg (V c (Pipeline.arrRef spec4 2) : S256x1024.Idx → EReal) (funext fun a => Fin.ext ?_)
  match a with
  | ⟨0, _⟩ => show win4_2.index t (0 : Fin 2) * 256 + 1 * k.val = k.val; rw [e0]; omega
  | ⟨1, _⟩ => show win4_2.index t (1 : Fin 2) * 1024 + 1 * q.val = q.val; rw [e1]; omega

/-- The bias window's block is the whole bias row. -/
theorem blk3_apply (z : Fin 1) (q : Fin 1024) :
    (iblk4 V c 3 t : Vec Ideal S1x1024 .f32) (ix2 z q) = (V c (Pipeline.arrRef spec4 3) : S1x1024.Idx → EReal) (ix2 z q) := by
  obtain ⟨-, -, -, -, -, -, e0, e1, -⟩ := idx_facts t
  unfold iblk4
  rw [View.read_apply]
  refine congrArg (V c (Pipeline.arrRef spec4 3) : S1x1024.Idx → EReal) (funext fun a => Fin.ext ?_)
  match a with
  | ⟨0, _⟩ => show win4_3.index t (0 : Fin 2) * 1 + 1 * z.val = z.val; rw [e0]; omega
  | ⟨1, _⟩ => show win4_3.index t (1 : Fin 2) * 1024 + 1 * q.val = q.val; rw [e1]; omega

end Blocks

section Level

variable (c : Dev nD) (Wn hp cp : Nat → Nat → EReal) (bn : Nat → EReal)
  (hH : ∀ i : S8192x512.Idx, (V c (Pipeline.arrRef spec4 0) : S8192x512.Idx → EReal) i = Cert.Tree.paired hp (i 0).val (i 1).val)
  (hC : ∀ i : S8192x512.Idx, (V c (Pipeline.arrRef spec4 1) : S8192x512.Idx → EReal) i = Cert.Tree.paired cp (i 0).val (i 1).val)
  (hW : ∀ i : S256x1024.Idx, (V c (Pipeline.arrRef spec4 2) : S256x1024.Idx → EReal) i = Wn (i 1).val (i 0).val)
  (hB : ∀ i : S1x1024.Idx, (V c (Pipeline.arrRef spec4 3) : S1x1024.Idx → EReal) i = bn (i 1).val)

/-- The hidden array of this level as the tree gives it. -/
def GH : S8192x256.Idx → EReal := fun i => Cert.Tree.nodeH Wn bn hp cp (i 0).val (i 1).val
/-- The cell array of this level as the tree gives it. -/
def GC : S8192x256.Idx → EReal := fun i => Cert.Tree.nodeC Wn bn hp cp (i 0).val (i 1).val

include hH in
theorem in0 (t : Fin cfg4.N) (r : Fin 512) (k : Nat) (hk : k < 512) :
    Cert.Tree.natArr2 (a := 512) (b := 512) (iblk4 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg4.N) (r : Fin 512) (k : Nat) (hk : k < 512) :
    Cert.Tree.natArr2 (a := 512) (b := 512) (iblk4 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg4.N) (k : Nat) (hk : k < 256) (q : Nat) (hq : q < 1024) :
    Cert.Tree.natArr2 (a := 256) (b := 1024) (iblk4 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg4.N) (q : Nat) (hq : q < 1024) :
    Cert.Tree.natArr2 (a := 1) (b := 1024) (iblk4 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg4.N) :
    (dat4 V c).flushed 4 t = ((cfg4.win 4).blk t).view.read (Elt Ideal) (GH Wn hp cp bn) := by
  obtain ⟨-, -, -, -, -, -, -, -, e0, e1, -⟩ := idx_facts t
  have ht := t_lt t
  show (cfg4.win 4).cut (grid4.coords t) ((dat4 V c).after 4 t) = _
  rw [after4_4]
  unfold out4_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg4.win 4).blk t).view.emb (ix2 r q))
  unfold GH
  have a0 : ((((cfg4.win 4).blk t).view.emb (ix2 r q)) 0).val = t.val * 512 + r.val := by
    show win4_4.index t (0 : Fin 2) * 512 + 1 * r.val = _; rw [e0]; omega
  have a1 : ((((cfg4.win 4).blk t).view.emb (ix2 r q)) 1).val = q.val := by
    show win4_4.index t (1 : Fin 2) * 256 + 1 * q.val = _; rw [e1]; omega
  rw [a0, a1]

include hH hC hW hB in
/-- What point t writes back to the cell array is block t of the tree's level. -/
theorem flushed5 (t : Fin cfg4.N) :
    (dat4 V c).flushed 5 t = ((cfg4.win 5).blk t).view.read (Elt Ideal) (GC Wn hp cp bn) := by
  obtain ⟨-, -, -, -, -, -, -, -, -, -, e0, e1⟩ := idx_facts t
  have ht := t_lt t
  show (cfg4.win 5).cut (grid4.coords t) ((dat4 V c).after 5 t) = _
  rw [after4_5]
  unfold out4_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg4.win 5).blk t).view.emb (ix2 r q))
  unfold GC
  have a0 : ((((cfg4.win 5).blk t).view.emb (ix2 r q)) 0).val = t.val * 512 + r.val := by
    show win4_5.index t (0 : Fin 2) * 512 + 1 * r.val = _; rw [e0]; omega
  have a1 : ((((cfg4.win 5).blk t).view.emb (ix2 r q)) 1).val = q.val := by
    show win4_5.index t (1 : Fin 2) * 256 + 1 * q.val = _; rw [e1]; omega
  rw [a0, a1]

/-- Every node's row is in the block of the point that handles it. -/
theorem cover4 (i : S8192x256.Idx) : ∃ t : Fin cfg4.N, (cfg4.win 4).flush t = true ∧ i ∈ ((cfg4.win 4).blk t).view.set := by
  have hi0 : (i 0).val < 8192 := (i 0).isLt
  have hi1 : (i 1).val < 256 := (i 1).isLt
  have hN : cfg4.N = 16 := N_4
  let t : Fin cfg4.N := ⟨(i 0).val / 512, by rw [hN]; omega⟩
  obtain ⟨-, -, -, -, -, -, -, -, e0, e1, -⟩ := idx_facts t
  refine ⟨t, flush4_4 t, ?_⟩
  show i ∈ ((View.whole main_v22_0).slice (win4_4.rect t)).set
  rw [View.set_slice_whole, Rect.mem_set_unit]
  intro a
  match a with
  | ⟨0, _⟩ => show win4_4.index t (0 : Fin 2) * 512 ≤ (i 0).val ∧ (i 0).val < win4_4.index t (0 : Fin 2) * 512 + 512; rw [e0]; show (i 0).val / 512 * 512 ≤ (i 0).val ∧ (i 0).val < (i 0).val / 512 * 512 + 512; omega
  | ⟨1, _⟩ => show win4_4.index t (1 : Fin 2) * 256 ≤ (i 1).val ∧ (i 1).val < win4_4.index t (1 : Fin 2) * 256 + 256; rw [e1]; omega

theorem cover5 (i : S8192x256.Idx) : ∃ t : Fin cfg4.N, (cfg4.win 5).flush t = true ∧ i ∈ ((cfg4.win 5).blk t).view.set := by
  have hi0 : (i 0).val < 8192 := (i 0).isLt
  have hi1 : (i 1).val < 256 := (i 1).isLt
  have hN : cfg4.N = 16 := N_4
  let t : Fin cfg4.N := ⟨(i 0).val / 512, by rw [hN]; omega⟩
  obtain ⟨-, -, -, -, -, -, -, -, -, -, e0, e1⟩ := idx_facts t
  refine ⟨t, flush4_5 t, ?_⟩
  show i ∈ ((View.whole main_v22_1).slice (win4_5.rect t)).set
  rw [View.set_slice_whole, Rect.mem_set_unit]
  intro a
  match a with
  | ⟨0, _⟩ => show win4_5.index t (0 : Fin 2) * 512 ≤ (i 0).val ∧ (i 0).val < win4_5.index t (0 : Fin 2) * 512 + 512; rw [e0]; show (i 0).val / 512 * 512 ≤ (i 0).val ∧ (i 0).val < (i 0).val / 512 * 512 + 512; omega
  | ⟨1, _⟩ => show win4_5.index t (1 : Fin 2) * 256 ≤ (i 1).val ∧ (i 1).val < win4_5.index t (1 : Fin 2) * 256 + 256; rw [e1]; omega

end Level

end Cert.KernelIdeal.TreeK.L4

namespace Cert.KernelIdeal.TreeK

open Cert.KernelIdeal Cert.KernelIdeal.Gen Idealize.ShloMosaic Idealize.ShloMosaic.TcCoe Idealize.SL.Sem

/-- Level 4: from the level below laid side by side at the region's entry, the region's two output arrays end at
    the tree's node functions. -/
theorem level4 (V : (c : Dev nD) → (b : Ref sig .tc) → Buf (Elt Ideal) ((c : Thread nD τ).loc b)) (c : Dev nD)
    (Wn hp cp : Nat → Nat → EReal) (bn : Nat → EReal)
    (hH : ∀ i : S8192x512.Idx, (V c (Pipeline.arrRef spec4 0) : S8192x512.Idx → EReal) i = Cert.Tree.paired hp (i 0).val (i 1).val)
    (hC : ∀ i : S8192x512.Idx, (V c (Pipeline.arrRef spec4 1) : S8192x512.Idx → EReal) i = Cert.Tree.paired cp (i 0).val (i 1).val)
    (hW : ∀ i : S256x1024.Idx, (V c (Pipeline.arrRef spec4 2) : S256x1024.Idx → EReal) i = Wn (i 1).val (i 0).val)
    (hB : ∀ i : S1x1024.Idx, (V c (Pipeline.arrRef spec4 3) : S1x1024.Idx → EReal) i = bn (i 1).val) :
    (∀ i : S8192x256.Idx, ((dat4 V c).arrAt 4 cfg4.N : S8192x256.Idx → EReal) i = Cert.Tree.nodeH Wn bn hp cp (i 0).val (i 1).val)
    ∧ (∀ i : S8192x256.Idx, ((dat4 V c).arrAt 5 cfg4.N : S8192x256.Idx → EReal) i = Cert.Tree.nodeC Wn bn hp cp (i 0).val (i 1).val) :=
  ⟨fun i => congrFun ((dat4 V c).arrAt_eq_of_cover 4 (L4.GH Wn hp cp bn) (fun t _ => L4.flushed4 V c Wn hp cp bn hH hC hW hB t) L4.cover4) i,
   fun i => congrFun ((dat4 V c).arrAt_eq_of_cover 5 (L4.GC Wn hp cp bn) (fun t _ => L4.flushed5 V c Wn hp cp bn hH hC hW hB t) L4.cover5) i⟩

end Cert.KernelIdeal.TreeK

end
-- ==== Proof.KLevel5.lean ====
/-
  Level 5 of the tree, 4096 nodes: what the pipelined region leaves in its two output arrays.

  The region's grid has 8 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k5_pay2 Ideal _ = @k1_pay2 Ideal _ := rfl
theorem pay3_same : @k5_pay3 Ideal _ = @k1_pay3 Ideal _ := rfl

/-- The block each window holds at grid point t: the row windows move with t, the weight and bias windows stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem t_lt (t : Fin cfg5.N) : t.val < 8 := by
  exact lt_of_lt_of_eq t.isLt (show cfg5.N = 8 from N_5)

section Blocks

variable (c : Dev nD) (t : Fin cfg5.N)

/-- Row r of point t's block of the children's hidden rows is row 512·t + r of the array. -/
theorem blk0_apply (r : Fin 512) (k : Fin 512) (i : S4096x512.Idx) (hi0 : (i 0).val = t.val * 512 + r.val) (hi1 : (i 1).val = k.val) :
    (iblk5 V c 0 t : Vec Ideal S512x512 .f32) (ix2 r k) = (V c (Pipeline.arrRef spec5 0) : S4096x512.Idx → EReal) i := by
  obtain ⟨e0, e1, -⟩ := idx_facts t
  unfold iblk5
  rw [View.read_apply]
  refine congrArg (V c (Pipeline.arrRef spec5 0) : S4096x512.Idx → EReal) (funext fun a => Fin.ext ?_)
  match a with
  | ⟨0, _⟩ => show win5_0.index t (0 : Fin 2) * 512 + 1 * r.val = (i 0).val; rw [e0, hi0]; omega
  | ⟨1, _⟩ => show win5_0.index t (1 : Fin 2) * 512 + 1 * k.val = (i 1).val; rw [e1, hi1]; omega

/-- Row r of point t's block of the children's cell rows is row 512·t + r of the array. -/
theorem blk1_apply (r : Fin 512) (k : Fin 512) (i : S4096x512.Idx) (hi0 : (i 0).val = t.val * 512 + r.val) (hi1 : (i 1).val = k.val) :
    (iblk5 V c 1 t : Vec Ideal S512x512 .f32) (ix2 r k) = (V c (Pipeline.arrRef spec5 1) : S4096x512.Idx → EReal) i := by
  obtain ⟨-, -, e0, e1, -⟩ := idx_facts t
  unfold iblk5
  rw [View.read_apply]
  refine congrArg (V c (Pipeline.arrRef spec5 1) : S4096x512.Idx → EReal) (funext fun a => Fin.ext ?_)
  match a with
  | ⟨0, _⟩ => show win5_1.index t (0 : Fin 2) * 512 + 1 * r.val = (i 0).val; rw [e0, hi0]; omega
  | ⟨1, _⟩ => show win5_1.index t (1 : Fin 2) * 512 + 1 * k.val = (i 1).val; rw [e1, hi1]; omega

/-- The weight window's block is the whole transposed weight array. -/
theorem blk2_apply (k : Fin 256) (q : Fin 1024) :
    (iblk5 V c 2 t : Vec Ideal S256x1024 .bf16) (ix2 k q) = (V c (Pipeline.arrRef spec5 2) : S256x1024.Idx → EReal) (ix2 k q) := by
  obtain ⟨-, -, -, -, e0, e1, -⟩ := idx_facts t
  unfold iblk5
  rw [View.read_apply]
  refine congrArg (V c (Pipeline.arrRef spec5 2) : S256x1024.Idx → EReal) (funext fun a => Fin.ext ?_)
  match a with
  | ⟨0, _⟩ => show win5_2.index t (0 : Fin 2) * 256 + 1 * k.val = k.val; rw [e0]; omega
  | ⟨1, _⟩ => show win5_2.index t (1 : Fin 2) * 1024 + 1 * q.val = q.val; rw [e1]; omega

/-- The bias window's block is the whole bias row. -/
theorem blk3_apply (z : Fin 1) (q : Fin 1024) :
    (iblk5 V c 3 t : Vec Ideal S1x1024 .f32) (ix2 z q) = (V c (Pipeline.arrRef spec5 3) : S1x1024.Idx → EReal) (ix2 z q) := by
  obtain ⟨-, -, -, -, -, -, e0, e1, -⟩ := idx_facts t
  unfold iblk5
  rw [View.read_apply]
  refine congrArg (V c (Pipeline.arrRef spec5 3) : S1x1024.Idx → EReal) (funext fun a => Fin.ext ?_)
  match a with
  | ⟨0, _⟩ => show win5_3.index t (0 : Fin 2) * 1 + 1 * z.val = z.val; rw [e0]; omega
  | ⟨1, _⟩ => show win5_3.index t (1 : Fin 2) * 1024 + 1 * q.val = q.val; rw [e1]; omega

end Blocks

section Level

variable (c : Dev nD) (Wn hp cp : Nat → Nat → EReal) (bn : Nat → EReal)
  (hH : ∀ i : S4096x512.Idx, (V c (Pipeline.arrRef spec5 0) : S4096x512.Idx → EReal) i = Cert.Tree.paired hp (i 0).val (i 1).val)
  (hC : ∀ i : S4096x512.Idx, (V c (Pipeline.arrRef spec5 1) : S4096x512.Idx → EReal) i = Cert.Tree.paired cp (i 0).val (i 1).val)
  (hW : ∀ i : S256x1024.Idx, (V c (Pipeline.arrRef spec5 2) : S256x1024.Idx → EReal) i = Wn (i 1).val (i 0).val)
  (hB : ∀ i : S1x1024.Idx, (V c (Pipeline.arrRef spec5 3) : S1x1024.Idx → EReal) i = bn (i 1).val)

/-- The hidden array of this level as the tree gives it. -/
def GH : S4096x256.Idx → EReal := fun i => Cert.Tree.nodeH Wn bn hp cp (i 0).val (i 1).val
/-- The cell array of this level as the tree gives it. -/
def GC : S4096x256.Idx → EReal := fun i => Cert.Tree.nodeC Wn bn hp cp (i 0).val (i 1).val

include hH in
theorem in0 (t : Fin cfg5.N) (r : Fin 512) (k : Nat) (hk : k < 512) :
    Cert.Tree.natArr2 (a := 512) (b := 512) (iblk5 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg5.N) (r : Fin 512) (k : Nat) (hk : k < 512) :
    Cert.Tree.natArr2 (a := 512) (b := 512) (iblk5 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg5.N) (k : Nat) (hk : k < 256) (q : Nat) (hq : q < 1024) :
    Cert.Tree.natArr2 (a := 256) (b := 1024) (iblk5 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg5.N) (q : Nat) (hq : q < 1024) :
    Cert.Tree.natArr2 (a := 1) (b := 1024) (iblk5 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg5.N) :
    (dat5 V c).flushed 4 t = ((cfg5.win 4).blk t).view.read (Elt Ideal) (GH Wn hp cp bn) := by
  obtain ⟨-, -, -, -, -, -, -, -, e0, e1, -⟩ := idx_facts t
  have ht := t_lt t
  show (cfg5.win 4).cut (grid5.coords t) ((dat5 V c).after 4 t) = _
  rw [after5_4]
  unfold out5_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg5.win 4).blk t).view.emb (ix2 r q))
  unfold GH
  have a0 : ((((cfg5.win 4).blk t).view.emb (ix2 r q)) 0).val = t.val * 512 + r.val := by
    show win5_4.index t (0 : Fin 2) * 512 + 1 * r.val = _; rw [e0]; omega
  have a1 : ((((cfg5.win 4).blk t).view.emb (ix2 r q)) 1).val = q.val := by
    show win5_4.index t (1 : Fin 2) * 256 + 1 * q.val = _; rw [e1]; omega
  rw [a0, a1]

include hH hC hW hB in
/-- What point t writes back to the cell array is block t of the tree's level. -/
theorem flushed5 (t : Fin cfg5.N) :
    (dat5 V c).flushed 5 t = ((cfg5.win 5).blk t).view.read (Elt Ideal) (GC Wn hp cp bn) := by
  obtain ⟨-, -, -, -, -, -, -, -, -, -, e0, e1⟩ := idx_facts t
  have ht := t_lt t
  show (cfg5.win 5).cut (grid5.coords t) ((dat5 V c).after 5 t) = _
  rw [after5_5]
  unfold out5_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg5.win 5).blk t).view.emb (ix2 r q))
  unfold GC
  have a0 : ((((cfg5.win 5).blk t).view.emb (ix2 r q)) 0).val = t.val * 512 + r.val := by
    show win5_5.index t (0 : Fin 2) * 512 + 1 * r.val = _; rw [e0]; omega
  have a1 : ((((cfg5.win 5).blk t).view.emb (ix2 r q)) 1).val = q.val := by
    show win5_5.index t (1 : Fin 2) * 256 + 1 * q.val = _; rw [e1]; omega
  rw [a0, a1]

/-- Every node's row is in the block of the point that handles it. -/
theorem cover4 (i : S4096x256.Idx) : ∃ t : Fin cfg5.N, (cfg5.win 4).flush t = true ∧ i ∈ ((cfg5.win 4).blk t).view.set := by
  have hi0 : (i 0).val < 4096 := (i 0).isLt
  have hi1 : (i 1).val < 256 := (i 1).isLt
  have hN : cfg5.N = 8 := N_5
  let t : Fin cfg5.N := ⟨(i 0).val / 512, by rw [hN]; omega⟩
  obtain ⟨-, -, -, -, -, -, -, -, e0, e1, -⟩ := idx_facts t
  refine ⟨t, flush5_4 t, ?_⟩
  show i ∈ ((View.whole main_v25_0).slice (win5_4.rect t)).set
  rw [View.set_slice_whole, Rect.mem_set_unit]
  intro a
  match a with
  | ⟨0, _⟩ => show win5_4.index t (0 : Fin 2) * 512 ≤ (i 0).val ∧ (i 0).val < win5_4.index t (0 : Fin 2) * 512 + 512; rw [e0]; show (i 0).val / 512 * 512 ≤ (i 0).val ∧ (i 0).val < (i 0).val / 512 * 512 + 512; omega
  | ⟨1, _⟩ => show win5_4.index t (1 : Fin 2) * 256 ≤ (i 1).val ∧ (i 1).val < win5_4.index t (1 : Fin 2) * 256 + 256; rw [e1]; omega

theorem cover5 (i : S4096x256.Idx) : ∃ t : Fin cfg5.N, (cfg5.win 5).flush t = true ∧ i ∈ ((cfg5.win 5).blk t).view.set := by
  have hi0 : (i 0).val < 4096 := (i 0).isLt
  have hi1 : (i 1).val < 256 := (i 1).isLt
  have hN : cfg5.N = 8 := N_5
  let t : Fin cfg5.N := ⟨(i 0).val / 512, by rw [hN]; omega⟩
  obtain ⟨-, -, -, -, -, -, -, -, -, -, e0, e1⟩ := idx_facts t
  refine ⟨t, flush5_5 t, ?_⟩
  show i ∈ ((View.whole main_v25_1).slice (win5_5.rect t)).set
  rw [View.set_slice_whole, Rect.mem_set_unit]
  intro a
  match a with
  | ⟨0, _⟩ => show win5_5.index t (0 : Fin 2) * 512 ≤ (i 0).val ∧ (i 0).val < win5_5.index t (0 : Fin 2) * 512 + 512; rw [e0]; show (i 0).val / 512 * 512 ≤ (i 0).val ∧ (i 0).val < (i 0).val / 512 * 512 + 512; omega
  | ⟨1, _⟩ => show win5_5.index t (1 : Fin 2) * 256 ≤ (i 1).val ∧ (i 1).val < win5_5.index t (1 : Fin 2) * 256 + 256; rw [e1]; omega

end Level

end Cert.KernelIdeal.TreeK.L5

namespace Cert.KernelIdeal.TreeK

open Cert.KernelIdeal Cert.KernelIdeal.Gen Idealize.ShloMosaic Idealize.ShloMosaic.TcCoe Idealize.SL.Sem

/-- Level 5: from the level below laid side by side at the region's entry, the region's two output arrays end at
    the tree's node functions. -/
theorem level5 (V : (c : Dev nD) → (b : Ref sig .tc) → Buf (Elt Ideal) ((c : Thread nD τ).loc b)) (c : Dev nD)
    (Wn hp cp : Nat → Nat → EReal) (bn : Nat → EReal)
    (hH : ∀ i : S4096x512.Idx, (V c (Pipeline.arrRef spec5 0) : S4096x512.Idx → EReal) i = Cert.Tree.paired hp (i 0).val (i 1).val)
    (hC : ∀ i : S4096x512.Idx, (V c (Pipeline.arrRef spec5 1) : S4096x512.Idx → EReal) i = Cert.Tree.paired cp (i 0).val (i 1).val)
    (hW : ∀ i : S256x1024.Idx, (V c (Pipeline.arrRef spec5 2) : S256x1024.Idx → EReal) i = Wn (i 1).val (i 0).val)
    (hB : ∀ i : S1x1024.Idx, (V c (Pipeline.arrRef spec5 3) : S1x1024.Idx → EReal) i = bn (i 1).val) :
    (∀ i : S4096x256.Idx, ((dat5 V c).arrAt 4 cfg5.N : S4096x256.Idx → EReal) i = Cert.Tree.nodeH Wn bn hp cp (i 0).val (i 1).val)
    ∧ (∀ i : S4096x256.Idx, ((dat5 V c).arrAt 5 cfg5.N : S4096x256.Idx → EReal) i = Cert.Tree.nodeC Wn bn hp cp (i 0).val (i 1).val) :=
  ⟨fun i => congrFun ((dat5 V c).arrAt_eq_of_cover 4 (L5.GH Wn hp cp bn) (fun t _ => L5.flushed4 V c Wn hp cp bn hH hC hW hB t) L5.cover4) i,
   fun i => congrFun ((dat5 V c).arrAt_eq_of_cover 5 (L5.GC Wn hp cp bn) (fun t _ => L5.flushed5 V c Wn hp cp bn hH hC hW hB t) L5.cover5) i⟩

end Cert.KernelIdeal.TreeK

end
-- ==== Proof.KLevel6.lean ====
/-
  Level 6 of the tree, 2048 nodes: what the pipelined region leaves in its two output arrays.

  The region's grid has 4 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k6_pay2 Ideal _ = @k1_pay2 Ideal _ := rfl
theorem pay3_same : @k6_pay3 Ideal _ = @k1_pay3 Ideal _ := rfl

/-- The block each window holds at grid point t: the row windows move with t, the weight and bias windows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

theorem t_lt (t : Fin cfg6.N) : t.val < 4 := by
  exact lt_of_lt_of_eq t.isLt (show cfg6.N = 4 from N_6)

section Blocks

variable (c : Dev nD) (t : Fin cfg6.N)

/-- Row r of point t's block of the children's hidden rows is row 512·t + r of the array. -/
theorem blk0_apply (r : Fin 512) (k : Fin 512) (i : S2048x512.Idx) (hi0 : (i 0).val = t.val * 512 + r.val) (hi1 : (i 1).val = k.val) :
    (iblk6 V c 0 t : Vec Ideal S512x512 .f32) (ix2 r k) = (V c (Pipeline.arrRef spec6 0) : S2048x512.Idx → EReal) i := by
  obtain ⟨e0, e1, -⟩ := idx_facts t
  unfold iblk6
  rw [View.read_apply]
  refine congrArg (V c (Pipeline.arrRef spec6 0) : S2048x512.Idx → EReal) (funext fun a => Fin.ext ?_)
  match a with
  | ⟨0, _⟩ => show win6_0.index t (0 : Fin 2) * 512 + 1 * r.val = (i 0).val; rw [e0, hi0]; omega
  | ⟨1, _⟩ => show win6_0.index t (1 : Fin 2) * 512 + 1 * k.val = (i 1).val; rw [e1, hi1]; omega

/-- Row r of point t's block of the children's cell rows is row 512·t + r of the array. -/
theorem blk1_apply (r : Fin 512) (k : Fin 512) (i : S2048x512.Idx) (hi0 : (i 0).val = t.val * 512 + r.val) (hi1 : (i 1).val = k.val) :
    (iblk6 V c 1 t : Vec Ideal S512x512 .f32) (ix2 r k) = (V c (Pipeline.arrRef spec6 1) : S2048x512.Idx → EReal) i := by
  obtain ⟨-, -, e0, e1, -⟩ := idx_facts t
  unfold iblk6
  rw [View.read_apply]
  refine congrArg (V c (Pipeline.arrRef spec6 1) : S2048x512.Idx → EReal) (funext fun a => Fin.ext ?_)
  match a with
  | ⟨0, _⟩ => show win6_1.index t (0 : Fin 2) * 512 + 1 * r.val = (i 0).val; rw [e0, hi0]; omega
  | ⟨1, _⟩ => show win6_1.index t (1 : Fin 2) * 512 + 1 * k.val = (i 1).val; rw [e1, hi1]; omega

/-- The weight window's block is the whole transposed weight array. -/
theorem blk2_apply (k : Fin 256) (q : Fin 1024) :
    (iblk6 V c 2 t : Vec Ideal S256x1024 .bf16) (ix2 k q) = (V c (Pipeline.arrRef spec6 2) : S256x1024.Idx → EReal) (ix2 k q) := by
  obtain ⟨-, -, -, -, e0, e1, -⟩ := idx_facts t
  unfold iblk6
  rw [View.read_apply]
  refine congrArg (V c (Pipeline.arrRef spec6 2) : S256x1024.Idx → EReal) (funext fun a => Fin.ext ?_)
  match a with
  | ⟨0, _⟩ => show win6_2.index t (0 : Fin 2) * 256 + 1 * k.val = k.val; rw [e0]; omega
  | ⟨1, _⟩ => show win6_2.index t (1 : Fin 2) * 1024 + 1 * q.val = q.val; rw [e1]; omega

/-- The bias window's block is the whole bias row. -/
theorem blk3_apply (z : Fin 1) (q : Fin 1024) :
    (iblk6 V c 3 t : Vec Ideal S1x1024 .f32) (ix2 z q) = (V c (Pipeline.arrRef spec6 3) : S1x1024.Idx → EReal) (ix2 z q) := by
  obtain ⟨-, -, -, -, -, -, e0, e1, -⟩ := idx_facts t
  unfold iblk6
  rw [View.read_apply]
  refine congrArg (V c (Pipeline.arrRef spec6 3) : S1x1024.Idx → EReal) (funext fun a => Fin.ext ?_)
  match a with
  | ⟨0, _⟩ => show win6_3.index t (0 : Fin 2) * 1 + 1 * z.val = z.val; rw [e0]; omega
  | ⟨1, _⟩ => show win6_3.index t (1 : Fin 2) * 1024 + 1 * q.val = q.val; rw [e1]; omega

end Blocks

section Level

variable (c : Dev nD) (Wn hp cp : Nat → Nat → EReal) (bn : Nat → EReal)
  (hH : ∀ i : S2048x512.Idx, (V c (Pipeline.arrRef spec6 0) : S2048x512.Idx → EReal) i = Cert.Tree.paired hp (i 0).val (i 1).val)
  (hC : ∀ i : S2048x512.Idx, (V c (Pipeline.arrRef spec6 1) : S2048x512.Idx → EReal) i = Cert.Tree.paired cp (i 0).val (i 1).val)
  (hW : ∀ i : S256x1024.Idx, (V c (Pipeline.arrRef spec6 2) : S256x1024.Idx → EReal) i = Wn (i 1).val (i 0).val)
  (hB : ∀ i : S1x1024.Idx, (V c (Pipeline.arrRef spec6 3) : S1x1024.Idx → EReal) i = bn (i 1).val)

/-- The hidden array of this level as the tree gives it. -/
def GH : S2048x256.Idx → EReal := fun i => Cert.Tree.nodeH Wn bn hp cp (i 0).val (i 1).val
/-- The cell array of this level as the tree gives it. -/
def GC : S2048x256.Idx → EReal := fun i => Cert.Tree.nodeC Wn bn hp cp (i 0).val (i 1).val

include hH in
theorem in0 (t : Fin cfg6.N) (r : Fin 512) (k : Nat) (hk : k < 512) :
    Cert.Tree.natArr2 (a := 512) (b := 512) (iblk6 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg6.N) (r : Fin 512) (k : Nat) (hk : k < 512) :
    Cert.Tree.natArr2 (a := 512) (b := 512) (iblk6 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg6.N) (k : Nat) (hk : k < 256) (q : Nat) (hq : q < 1024) :
    Cert.Tree.natArr2 (a := 256) (b := 1024) (iblk6 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg6.N) (q : Nat) (hq : q < 1024) :
    Cert.Tree.natArr2 (a := 1) (b := 1024) (iblk6 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg6.N) :
    (dat6 V c).flushed 4 t = ((cfg6.win 4).blk t).view.read (Elt Ideal) (GH Wn hp cp bn) := by
  obtain ⟨-, -, -, -, -, -, -, -, e0, e1, -⟩ := idx_facts t
  have ht := t_lt t
  show (cfg6.win 4).cut (grid6.coords t) ((dat6 V c).after 4 t) = _
  rw [after6_4]
  unfold out6_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg6.win 4).blk t).view.emb (ix2 r q))
  unfold GH
  have a0 : ((((cfg6.win 4).blk t).view.emb (ix2 r q)) 0).val = t.val * 512 + r.val := by
    show win6_4.index t (0 : Fin 2) * 512 + 1 * r.val = _; rw [e0]; omega
  have a1 : ((((cfg6.win 4).blk t).view.emb (ix2 r q)) 1).val = q.val := by
    show win6_4.index t (1 : Fin 2) * 256 + 1 * q.val = _; rw [e1]; omega
  rw [a0, a1]

include hH hC hW hB in
/-- What point t writes back to the cell array is block t of the tree's level. -/
theorem flushed5 (t : Fin cfg6.N) :
    (dat6 V c).flushed 5 t = ((cfg6.win 5).blk t).view.read (Elt Ideal) (GC Wn hp cp bn) := by
  obtain ⟨-, -, -, -, -, -, -, -, -, -, e0, e1⟩ := idx_facts t
  have ht := t_lt t
  show (cfg6.win 5).cut (grid6.coords t) ((dat6 V c).after 5 t) = _
  rw [after6_5]
  unfold out6_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg6.win 5).blk t).view.emb (ix2 r q))
  unfold GC
  have a0 : ((((cfg6.win 5).blk t).view.emb (ix2 r q)) 0).val = t.val * 512 + r.val := by
    show win6_5.index t (0 : Fin 2) * 512 + 1 * r.val = _; rw [e0]; omega
  have a1 : ((((cfg6.win 5).blk t).view.emb (ix2 r q)) 1).val = q.val := by
    show win6_5.index t (1 : Fin 2) * 256 + 1 * q.val = _; rw [e1]; omega
  rw [a0, a1]

/-- Every node's row is in the block of the point that handles it. -/
theorem cover4 (i : S2048x256.Idx) : ∃ t : Fin cfg6.N, (cfg6.win 4).flush t = true ∧ i ∈ ((cfg6.win 4).blk t).view.set := by
  have hi0 : (i 0).val < 2048 := (i 0).isLt
  have hi1 : (i 1).val < 256 := (i 1).isLt
  have hN : cfg6.N = 4 := N_6
  let t : Fin cfg6.N := ⟨(i 0).val / 512, by rw [hN]; omega⟩
  obtain ⟨-, -, -, -, -, -, -, -, e0, e1, -⟩ := idx_facts t
  refine ⟨t, flush6_4 t, ?_⟩
  show i ∈ ((View.whole main_v28_0).slice (win6_4.rect t)).set
  rw [View.set_slice_whole, Rect.mem_set_unit]
  intro a
  match a with
  | ⟨0, _⟩ => show win6_4.index t (0 : Fin 2) * 512 ≤ (i 0).val ∧ (i 0).val < win6_4.index t (0 : Fin 2) * 512 + 512; rw [e0]; show (i 0).val / 512 * 512 ≤ (i 0).val ∧ (i 0).val < (i 0).val / 512 * 512 + 512; omega
  | ⟨1, _⟩ => show win6_4.index t (1 : Fin 2) * 256 ≤ (i 1).val ∧ (i 1).val < win6_4.index t (1 : Fin 2) * 256 + 256; rw [e1]; omega

theorem cover5 (i : S2048x256.Idx) : ∃ t : Fin cfg6.N, (cfg6.win 5).flush t = true ∧ i ∈ ((cfg6.win 5).blk t).view.set := by
  have hi0 : (i 0).val < 2048 := (i 0).isLt
  have hi1 : (i 1).val < 256 := (i 1).isLt
  have hN : cfg6.N = 4 := N_6
  let t : Fin cfg6.N := ⟨(i 0).val / 512, by rw [hN]; omega⟩
  obtain ⟨-, -, -, -, -, -, -, -, -, -, e0, e1⟩ := idx_facts t
  refine ⟨t, flush6_5 t, ?_⟩
  show i ∈ ((View.whole main_v28_1).slice (win6_5.rect t)).set
  rw [View.set_slice_whole, Rect.mem_set_unit]
  intro a
  match a with
  | ⟨0, _⟩ => show win6_5.index t (0 : Fin 2) * 512 ≤ (i 0).val ∧ (i 0).val < win6_5.index t (0 : Fin 2) * 512 + 512; rw [e0]; show (i 0).val / 512 * 512 ≤ (i 0).val ∧ (i 0).val < (i 0).val / 512 * 512 + 512; omega
  | ⟨1, _⟩ => show win6_5.index t (1 : Fin 2) * 256 ≤ (i 1).val ∧ (i 1).val < win6_5.index t (1 : Fin 2) * 256 + 256; rw [e1]; omega

end Level

end Cert.KernelIdeal.TreeK.L6

namespace Cert.KernelIdeal.TreeK

open Cert.KernelIdeal Cert.KernelIdeal.Gen Idealize.ShloMosaic Idealize.ShloMosaic.TcCoe Idealize.SL.Sem

/-- Level 6: from the level below laid side by side at the region's entry, the region's two output arrays end at
    the tree's node functions. -/
theorem level6 (V : (c : Dev nD) → (b : Ref sig .tc) → Buf (Elt Ideal) ((c : Thread nD τ).loc b)) (c : Dev nD)
    (Wn hp cp : Nat → Nat → EReal) (bn : Nat → EReal)
    (hH : ∀ i : S2048x512.Idx, (V c (Pipeline.arrRef spec6 0) : S2048x512.Idx → EReal) i = Cert.Tree.paired hp (i 0).val (i 1).val)
    (hC : ∀ i : S2048x512.Idx, (V c (Pipeline.arrRef spec6 1) : S2048x512.Idx → EReal) i = Cert.Tree.paired cp (i 0).val (i 1).val)
    (hW : ∀ i : S256x1024.Idx, (V c (Pipeline.arrRef spec6 2) : S256x1024.Idx → EReal) i = Wn (i 1).val (i 0).val)
    (hB : ∀ i : S1x1024.Idx, (V c (Pipeline.arrRef spec6 3) : S1x1024.Idx → EReal) i = bn (i 1).val) :
    (∀ i : S2048x256.Idx, ((dat6 V c).arrAt 4 cfg6.N : S2048x256.Idx → EReal) i = Cert.Tree.nodeH Wn bn hp cp (i 0).val (i 1).val)
    ∧ (∀ i : S2048x256.Idx, ((dat6 V c).arrAt 5 cfg6.N : S2048x256.Idx → EReal) i = Cert.Tree.nodeC Wn bn hp cp (i 0).val (i 1).val) :=
  ⟨fun i => congrFun ((dat6 V c).arrAt_eq_of_cover 4 (L6.GH Wn hp cp bn) (fun t _ => L6.flushed4 V c Wn hp cp bn hH hC hW hB t) L6.cover4) i,
   fun i => congrFun ((dat6 V c).arrAt_eq_of_cover 5 (L6.GC Wn hp cp bn) (fun t _ => L6.flushed5 V c Wn hp cp bn hH hC hW hB t) L6.cover5) i⟩

end Cert.KernelIdeal.TreeK

end
-- ==== Proof.KLevel7.lean ====
/-
  Level 7 of the tree, 1024 nodes: what the pipelined region leaves in its two output arrays.

  The region's grid has 2 points; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L7

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k7_pay2 Ideal _ = @k1_pay2 Ideal _ := rfl
theorem pay3_same : @k7_pay3 Ideal _ = @k1_pay3 Ideal _ := rfl

/-- The block each window holds at grid point t: the row windows move with t, the weight and bias windows stay. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

theorem t_lt (t : Fin cfg7.N) : t.val < 2 := by
  exact lt_of_lt_of_eq t.isLt (show cfg7.N = 2 from N_7)

section Blocks

variable (c : Dev nD) (t : Fin cfg7.N)

/-- Row r of point t's block of the children's hidden rows is row 512·t + r of the array. -/
theorem blk0_apply (r : Fin 512) (k : Fin 512) (i : S1024x512.Idx) (hi0 : (i 0).val = t.val * 512 + r.val) (hi1 : (i 1).val = k.val) :
    (iblk7 V c 0 t : Vec Ideal S512x512 .f32) (ix2 r k) = (V c (Pipeline.arrRef spec7 0) : S1024x512.Idx → EReal) i := by
  obtain ⟨e0, e1, -⟩ := idx_facts t
  unfold iblk7
  rw [View.read_apply]
  refine congrArg (V c (Pipeline.arrRef spec7 0) : S1024x512.Idx → EReal) (funext fun a => Fin.ext ?_)
  match a with
  | ⟨0, _⟩ => show win7_0.index t (0 : Fin 2) * 512 + 1 * r.val = (i 0).val; rw [e0, hi0]; omega
  | ⟨1, _⟩ => show win7_0.index t (1 : Fin 2) * 512 + 1 * k.val = (i 1).val; rw [e1, hi1]; omega

/-- Row r of point t's block of the children's cell rows is row 512·t + r of the array. -/
theorem blk1_apply (r : Fin 512) (k : Fin 512) (i : S1024x512.Idx) (hi0 : (i 0).val = t.val * 512 + r.val) (hi1 : (i 1).val = k.val) :
    (iblk7 V c 1 t : Vec Ideal S512x512 .f32) (ix2 r k) = (V c (Pipeline.arrRef spec7 1) : S1024x512.Idx → EReal) i := by
  obtain ⟨-, -, e0, e1, -⟩ := idx_facts t
  unfold iblk7
  rw [View.read_apply]
  refine congrArg (V c (Pipeline.arrRef spec7 1) : S1024x512.Idx → EReal) (funext fun a => Fin.ext ?_)
  match a with
  | ⟨0, _⟩ => show win7_1.index t (0 : Fin 2) * 512 + 1 * r.val = (i 0).val; rw [e0, hi0]; omega
  | ⟨1, _⟩ => show win7_1.index t (1 : Fin 2) * 512 + 1 * k.val = (i 1).val; rw [e1, hi1]; omega

/-- The weight window's block is the whole transposed weight array. -/
theorem blk2_apply (k : Fin 256) (q : Fin 1024) :
    (iblk7 V c 2 t : Vec Ideal S256x1024 .bf16) (ix2 k q) = (V c (Pipeline.arrRef spec7 2) : S256x1024.Idx → EReal) (ix2 k q) := by
  obtain ⟨-, -, -, -, e0, e1, -⟩ := idx_facts t
  unfold iblk7
  rw [View.read_apply]
  refine congrArg (V c (Pipeline.arrRef spec7 2) : S256x1024.Idx → EReal) (funext fun a => Fin.ext ?_)
  match a with
  | ⟨0, _⟩ => show win7_2.index t (0 : Fin 2) * 256 + 1 * k.val = k.val; rw [e0]; omega
  | ⟨1, _⟩ => show win7_2.index t (1 : Fin 2) * 1024 + 1 * q.val = q.val; rw [e1]; omega

/-- The bias window's block is the whole bias row. -/
theorem blk3_apply (z : Fin 1) (q : Fin 1024) :
    (iblk7 V c 3 t : Vec Ideal S1x1024 .f32) (ix2 z q) = (V c (Pipeline.arrRef spec7 3) : S1x1024.Idx → EReal) (ix2 z q) := by
  obtain ⟨-, -, -, -, -, -, e0, e1, -⟩ := idx_facts t
  unfold iblk7
  rw [View.read_apply]
  refine congrArg (V c (Pipeline.arrRef spec7 3) : S1x1024.Idx → EReal) (funext fun a => Fin.ext ?_)
  match a with
  | ⟨0, _⟩ => show win7_3.index t (0 : Fin 2) * 1 + 1 * z.val = z.val; rw [e0]; omega
  | ⟨1, _⟩ => show win7_3.index t (1 : Fin 2) * 1024 + 1 * q.val = q.val; rw [e1]; omega

end Blocks

section Level

variable (c : Dev nD) (Wn hp cp : Nat → Nat → EReal) (bn : Nat → EReal)
  (hH : ∀ i : S1024x512.Idx, (V c (Pipeline.arrRef spec7 0) : S1024x512.Idx → EReal) i = Cert.Tree.paired hp (i 0).val (i 1).val)
  (hC : ∀ i : S1024x512.Idx, (V c (Pipeline.arrRef spec7 1) : S1024x512.Idx → EReal) i = Cert.Tree.paired cp (i 0).val (i 1).val)
  (hW : ∀ i : S256x1024.Idx, (V c (Pipeline.arrRef spec7 2) : S256x1024.Idx → EReal) i = Wn (i 1).val (i 0).val)
  (hB : ∀ i : S1x1024.Idx, (V c (Pipeline.arrRef spec7 3) : S1x1024.Idx → EReal) i = bn (i 1).val)

/-- The hidden array of this level as the tree gives it. -/
def GH : S1024x256.Idx → EReal := fun i => Cert.Tree.nodeH Wn bn hp cp (i 0).val (i 1).val
/-- The cell array of this level as the tree gives it. -/
def GC : S1024x256.Idx → EReal := fun i => Cert.Tree.nodeC Wn bn hp cp (i 0).val (i 1).val

include hH in
theorem in0 (t : Fin cfg7.N) (r : Fin 512) (k : Nat) (hk : k < 512) :
    Cert.Tree.natArr2 (a := 512) (b := 512) (iblk7 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg7.N) (r : Fin 512) (k : Nat) (hk : k < 512) :
    Cert.Tree.natArr2 (a := 512) (b := 512) (iblk7 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg7.N) (k : Nat) (hk : k < 256) (q : Nat) (hq : q < 1024) :
    Cert.Tree.natArr2 (a := 256) (b := 1024) (iblk7 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg7.N) (q : Nat) (hq : q < 1024) :
    Cert.Tree.natArr2 (a := 1) (b := 1024) (iblk7 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg7.N) :
    (dat7 V c).flushed 4 t = ((cfg7.win 4).blk t).view.read (Elt Ideal) (GH Wn hp cp bn) := by
  obtain ⟨-, -, -, -, -, -, -, -, e0, e1, -⟩ := idx_facts t
  have ht := t_lt t
  show (cfg7.win 4).cut (grid7.coords t) ((dat7 V c).after 4 t) = _
  rw [after7_4]
  unfold out7_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg7.win 4).blk t).view.emb (ix2 r q))
  unfold GH
  have a0 : ((((cfg7.win 4).blk t).view.emb (ix2 r q)) 0).val = t.val * 512 + r.val := by
    show win7_4.index t (0 : Fin 2) * 512 + 1 * r.val = _; rw [e0]; omega
  have a1 : ((((cfg7.win 4).blk t).view.emb (ix2 r q)) 1).val = q.val := by
    show win7_4.index t (1 : Fin 2) * 256 + 1 * q.val = _; rw [e1]; omega
  rw [a0, a1]

include hH hC hW hB in
/-- What point t writes back to the cell array is block t of the tree's level. -/
theorem flushed5 (t : Fin cfg7.N) :
    (dat7 V c).flushed 5 t = ((cfg7.win 5).blk t).view.read (Elt Ideal) (GC Wn hp cp bn) := by
  obtain ⟨-, -, -, -, -, -, -, -, -, -, e0, e1⟩ := idx_facts t
  have ht := t_lt t
  show (cfg7.win 5).cut (grid7.coords t) ((dat7 V c).after 5 t) = _
  rw [after7_5]
  unfold out7_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg7.win 5).blk t).view.emb (ix2 r q))
  unfold GC
  have a0 : ((((cfg7.win 5).blk t).view.emb (ix2 r q)) 0).val = t.val * 512 + r.val := by
    show win7_5.index t (0 : Fin 2) * 512 + 1 * r.val = _; rw [e0]; omega
  have a1 : ((((cfg7.win 5).blk t).view.emb (ix2 r q)) 1).val = q.val := by
    show win7_5.index t (1 : Fin 2) * 256 + 1 * q.val = _; rw [e1]; omega
  rw [a0, a1]

/-- Every node's row is in the block of the point that handles it. -/
theorem cover4 (i : S1024x256.Idx) : ∃ t : Fin cfg7.N, (cfg7.win 4).flush t = true ∧ i ∈ ((cfg7.win 4).blk t).view.set := by
  have hi0 : (i 0).val < 1024 := (i 0).isLt
  have hi1 : (i 1).val < 256 := (i 1).isLt
  have hN : cfg7.N = 2 := N_7
  let t : Fin cfg7.N := ⟨(i 0).val / 512, by rw [hN]; omega⟩
  obtain ⟨-, -, -, -, -, -, -, -, e0, e1, -⟩ := idx_facts t
  refine ⟨t, flush7_4 t, ?_⟩
  show i ∈ ((View.whole main_v31_0).slice (win7_4.rect t)).set
  rw [View.set_slice_whole, Rect.mem_set_unit]
  intro a
  match a with
  | ⟨0, _⟩ => show win7_4.index t (0 : Fin 2) * 512 ≤ (i 0).val ∧ (i 0).val < win7_4.index t (0 : Fin 2) * 512 + 512; rw [e0]; show (i 0).val / 512 * 512 ≤ (i 0).val ∧ (i 0).val < (i 0).val / 512 * 512 + 512; omega
  | ⟨1, _⟩ => show win7_4.index t (1 : Fin 2) * 256 ≤ (i 1).val ∧ (i 1).val < win7_4.index t (1 : Fin 2) * 256 + 256; rw [e1]; omega

theorem cover5 (i : S1024x256.Idx) : ∃ t : Fin cfg7.N, (cfg7.win 5).flush t = true ∧ i ∈ ((cfg7.win 5).blk t).view.set := by
  have hi0 : (i 0).val < 1024 := (i 0).isLt
  have hi1 : (i 1).val < 256 := (i 1).isLt
  have hN : cfg7.N = 2 := N_7
  let t : Fin cfg7.N := ⟨(i 0).val / 512, by rw [hN]; omega⟩
  obtain ⟨-, -, -, -, -, -, -, -, -, -, e0, e1⟩ := idx_facts t
  refine ⟨t, flush7_5 t, ?_⟩
  show i ∈ ((View.whole main_v31_1).slice (win7_5.rect t)).set
  rw [View.set_slice_whole, Rect.mem_set_unit]
  intro a
  match a with
  | ⟨0, _⟩ => show win7_5.index t (0 : Fin 2) * 512 ≤ (i 0).val ∧ (i 0).val < win7_5.index t (0 : Fin 2) * 512 + 512; rw [e0]; show (i 0).val / 512 * 512 ≤ (i 0).val ∧ (i 0).val < (i 0).val / 512 * 512 + 512; omega
  | ⟨1, _⟩ => show win7_5.index t (1 : Fin 2) * 256 ≤ (i 1).val ∧ (i 1).val < win7_5.index t (1 : Fin 2) * 256 + 256; rw [e1]; omega

end Level

end Cert.KernelIdeal.TreeK.L7

namespace Cert.KernelIdeal.TreeK

open Cert.KernelIdeal Cert.KernelIdeal.Gen Idealize.ShloMosaic Idealize.ShloMosaic.TcCoe Idealize.SL.Sem

/-- Level 7: from the level below laid side by side at the region's entry, the region's two output arrays end at
    the tree's node functions. -/
theorem level7 (V : (c : Dev nD) → (b : Ref sig .tc) → Buf (Elt Ideal) ((c : Thread nD τ).loc b)) (c : Dev nD)
    (Wn hp cp : Nat → Nat → EReal) (bn : Nat → EReal)
    (hH : ∀ i : S1024x512.Idx, (V c (Pipeline.arrRef spec7 0) : S1024x512.Idx → EReal) i = Cert.Tree.paired hp (i 0).val (i 1).val)
    (hC : ∀ i : S1024x512.Idx, (V c (Pipeline.arrRef spec7 1) : S1024x512.Idx → EReal) i = Cert.Tree.paired cp (i 0).val (i 1).val)
    (hW : ∀ i : S256x1024.Idx, (V c (Pipeline.arrRef spec7 2) : S256x1024.Idx → EReal) i = Wn (i 1).val (i 0).val)
    (hB : ∀ i : S1x1024.Idx, (V c (Pipeline.arrRef spec7 3) : S1x1024.Idx → EReal) i = bn (i 1).val) :
    (∀ i : S1024x256.Idx, ((dat7 V c).arrAt 4 cfg7.N : S1024x256.Idx → EReal) i = Cert.Tree.nodeH Wn bn hp cp (i 0).val (i 1).val)
    ∧ (∀ i : S1024x256.Idx, ((dat7 V c).arrAt 5 cfg7.N : S1024x256.Idx → EReal) i = Cert.Tree.nodeC Wn bn hp cp (i 0).val (i 1).val) :=
  ⟨fun i => congrFun ((dat7 V c).arrAt_eq_of_cover 4 (L7.GH Wn hp cp bn) (fun t _ => L7.flushed4 V c Wn hp cp bn hH hC hW hB t) L7.cover4) i,
   fun i => congrFun ((dat7 V c).arrAt_eq_of_cover 5 (L7.GC Wn hp cp bn) (fun t _ => L7.flushed5 V c Wn hp cp bn hH hC hW hB t) L7.cover5) i⟩

end Cert.KernelIdeal.TreeK

end
-- ==== Proof.KLevel8.lean ====
/-
  Level 8 of the tree, 512 nodes: what the pipelined region leaves in its two output arrays.

  The region's grid has 1 point; point t handles nodes 512·t … 512·t + 511: it reads rows 512·t … of the two
  side-by-side arrays (children's hidden rows, children's cell rows), the whole transposed weight block and
  the bias row, and writes rows 512·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay512
import Idealize.ShloMosaic.Lib.Pipeline.Value

set_option maxRecDepth 16384

noncomputable section

namespace Cert.KernelIdeal.TreeK.L8

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- This region's body is the same term as the first region's of its block size. -/
theorem pay2_same : @k8_pay2 Ideal _ = @k1_pay2 Ideal _ := rfl
theorem pay3_same : @k8_pay3 Ideal _ = @k1_pay3 Ideal _ := rfl

/-- The block each window holds at grid point t: the row windows move with t, the weight and bias windows stay. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

theorem t_lt (t : Fin cfg8.N) : t.val < 1 := by
  exact lt_of_lt_of_eq t.isLt (show cfg8.N = 1 from N_8)

section Blocks

variable (c : Dev nD) (t : Fin cfg8.N)

/-- Row r of point t's block of the children's hidden rows is row 512·t + r of the array. -/
theorem blk0_apply (r : Fin 512) (k : Fin 512) (i : S512x512.Idx) (hi0 : (i 0).val = t.val * 512 + r.val) (hi1 : (i 1).val = k.val) :
    (iblk8 V c 0 t : Vec Ideal S512x512 .f32) (ix2 r k) = (V c (Pipeline.arrRef spec8 0) : S512x512.Idx → EReal) i := by
  obtain ⟨e0, e1, -⟩ := idx_facts t
  unfold iblk8
  rw [View.read_apply]
  refine congrArg (V c (Pipeline.arrRef spec8 0) : S512x512.Idx → EReal) (funext fun a => Fin.ext ?_)
  match a with
  | ⟨0, _⟩ => show win8_0.index t (0 : Fin 2) * 512 + 1 * r.val = (i 0).val; rw [e0, hi0]; omega
  | ⟨1, _⟩ => show win8_0.index t (1 : Fin 2) * 512 + 1 * k.val = (i 1).val; rw [e1, hi1]; omega

/-- Row r of point t's block of the children's cell rows is row 512·t + r of the array. -/
theorem blk1_apply (r : Fin 512) (k : Fin 512) (i : S512x512.Idx) (hi0 : (i 0).val = t.val * 512 + r.val) (hi1 : (i 1).val = k.val) :
    (iblk8 V c 1 t : Vec Ideal S512x512 .f32) (ix2 r k) = (V c (Pipeline.arrRef spec8 1) : S512x512.Idx → EReal) i := by
  obtain ⟨-, -, e0, e1, -⟩ := idx_facts t
  unfold iblk8
  rw [View.read_apply]
  refine congrArg (V c (Pipeline.arrRef spec8 1) : S512x512.Idx → EReal) (funext fun a => Fin.ext ?_)
  match a with
  | ⟨0, _⟩ => show win8_1.index t (0 : Fin 2) * 512 + 1 * r.val = (i 0).val; rw [e0, hi0]; omega
  | ⟨1, _⟩ => show win8_1.index t (1 : Fin 2) * 512 + 1 * k.val = (i 1).val; rw [e1, hi1]; omega

/-- The weight window's block is the whole transposed weight array. -/
theorem blk2_apply (k : Fin 256) (q : Fin 1024) :
    (iblk8 V c 2 t : Vec Ideal S256x1024 .bf16) (ix2 k q) = (V c (Pipeline.arrRef spec8 2) : S256x1024.Idx → EReal) (ix2 k q) := by
  obtain ⟨-, -, -, -, e0, e1, -⟩ := idx_facts t
  unfold iblk8
  rw [View.read_apply]
  refine congrArg (V c (Pipeline.arrRef spec8 2) : S256x1024.Idx → EReal) (funext fun a => Fin.ext ?_)
  match a with
  | ⟨0, _⟩ => show win8_2.index t (0 : Fin 2) * 256 + 1 * k.val = k.val; rw [e0]; omega
  | ⟨1, _⟩ => show win8_2.index t (1 : Fin 2) * 1024 + 1 * q.val = q.val; rw [e1]; omega

/-- The bias window's block is the whole bias row. -/
theorem blk3_apply (z : Fin 1) (q : Fin 1024) :
    (iblk8 V c 3 t : Vec Ideal S1x1024 .f32) (ix2 z q) = (V c (Pipeline.arrRef spec8 3) : S1x1024.Idx → EReal) (ix2 z q) := by
  obtain ⟨-, -, -, -, -, -, e0, e1, -⟩ := idx_facts t
  unfold iblk8
  rw [View.read_apply]
  refine congrArg (V c (Pipeline.arrRef spec8 3) : S1x1024.Idx → EReal) (funext fun a => Fin.ext ?_)
  match a with
  | ⟨0, _⟩ => show win8_3.index t (0 : Fin 2) * 1 + 1 * z.val = z.val; rw [e0]; omega
  | ⟨1, _⟩ => show win8_3.index t (1 : Fin 2) * 1024 + 1 * q.val = q.val; rw [e1]; omega

end Blocks

section Level

variable (c : Dev nD) (Wn hp cp : Nat → Nat → EReal) (bn : Nat → EReal)
  (hH : ∀ i : S512x512.Idx, (V c (Pipeline.arrRef spec8 0) : S512x512.Idx → EReal) i = Cert.Tree.paired hp (i 0).val (i 1).val)
  (hC : ∀ i : S512x512.Idx, (V c (Pipeline.arrRef spec8 1) : S512x512.Idx → EReal) i = Cert.Tree.paired cp (i 0).val (i 1).val)
  (hW : ∀ i : S256x1024.Idx, (V c (Pipeline.arrRef spec8 2) : S256x1024.Idx → EReal) i = Wn (i 1).val (i 0).val)
  (hB : ∀ i : S1x1024.Idx, (V c (Pipeline.arrRef spec8 3) : S1x1024.Idx → EReal) i = bn (i 1).val)

/-- The hidden array of this level as the tree gives it. -/
def GH : S512x256.Idx → EReal := fun i => Cert.Tree.nodeH Wn bn hp cp (i 0).val (i 1).val
/-- The cell array of this level as the tree gives it. -/
def GC : S512x256.Idx → EReal := fun i => Cert.Tree.nodeC Wn bn hp cp (i 0).val (i 1).val

include hH in
theorem in0 (t : Fin cfg8.N) (r : Fin 512) (k : Nat) (hk : k < 512) :
    Cert.Tree.natArr2 (a := 512) (b := 512) (iblk8 V c 0 t : Vec Ideal S512x512 .f32) r.val k = Cert.Tree.paired hp (t.val * 512 + r.val) k := by
  have ht := t_lt t
  have hr := r.isLt
  refine (Cert.Tree.natArr2_ix2 (a := 512) (b := 512) _ r ⟨k, hk⟩).trans ?_
  rw [blk0_apply V c t r ⟨k, hk⟩ (ix2 ⟨t.val * 512 + r.val, by omega⟩ ⟨k, hk⟩) rfl rfl]
  exact hH _

include hC in
theorem in1 (t : Fin cfg8.N) (r : Fin 512) (k : Nat) (hk : k < 512) :
    Cert.Tree.natArr2 (a := 512) (b := 512) (iblk8 V c 1 t : Vec Ideal S512x512 .f32) r.val k = Cert.Tree.paired cp (t.val * 512 + r.val) k := by
  have ht := t_lt t
  have hr := r.isLt
  refine (Cert.Tree.natArr2_ix2 (a := 512) (b := 512) _ r ⟨k, hk⟩).trans ?_
  rw [blk1_apply V c t r ⟨k, hk⟩ (ix2 ⟨t.val * 512 + r.val, by omega⟩ ⟨k, hk⟩) rfl rfl]
  exact hC _

include hW in
theorem in2 (t : Fin cfg8.N) (k : Nat) (hk : k < 256) (q : Nat) (hq : q < 1024) :
    Cert.Tree.natArr2 (a := 256) (b := 1024) (iblk8 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg8.N) (q : Nat) (hq : q < 1024) :
    Cert.Tree.natArr2 (a := 1) (b := 1024) (iblk8 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg8.N) :
    (dat8 V c).flushed 4 t = ((cfg8.win 4).blk t).view.read (Elt Ideal) (GH Wn hp cp bn) := by
  obtain ⟨-, -, -, -, -, -, -, -, e0, e1, -⟩ := idx_facts t
  have ht := t_lt t
  show (cfg8.win 4).cut (grid8.coords t) ((dat8 V c).after 4 t) = _
  rw [after8_4]
  unfold out8_4
  rw [View.canon_unit_zero hz]
  simp only [View.ld_unit_zero (S := S512x512) hz, View.ld_unit_zero (S := S256x1024) hz, View.ld_unit_zero (S := S1x1024) hz]
  rw [pay3_same]
  funext j
  obtain ⟨r, q, rfl⟩ : ∃ (r : Fin 512) (q : Fin 256), j = ix2 r q := ⟨j 0, j 1, eq_ix2 j⟩
  refine (T512.hidden_eq _ _ _ _ Wn hp cp bn (t.val * 512 + r.val) r (in0 V c hp hH t r) (in1 V c cp hC t r) (in2 V c Wn hW t) (in3 V c bn hB t) q).trans ?_
  show _ = GH Wn hp cp bn (((cfg8.win 4).blk t).view.emb (ix2 r q))
  unfold GH
  have a0 : ((((cfg8.win 4).blk t).view.emb (ix2 r q)) 0).val = t.val * 512 + r.val := by
    show win8_4.index t (0 : Fin 2) * 512 + 1 * r.val = _; rw [e0]; omega
  have a1 : ((((cfg8.win 4).blk t).view.emb (ix2 r q)) 1).val = q.val := by
    show win8_4.index t (1 : Fin 2) * 256 + 1 * q.val = _; rw [e1]; omega
  rw [a0, a1]

include hH hC hW hB in
/-- What point t writes back to the cell array is block t of the tree's level. -/
theorem flushed5 (t : Fin cfg8.N) :
    (dat8 V c).flushed 5 t = ((cfg8.win 5).blk t).view.read (Elt Ideal) (GC Wn hp cp bn) := by
  obtain ⟨-, -, -, -, -, -, -, -, -, -, e0, e1⟩ := idx_facts t
  have ht := t_lt t
  show (cfg8.win 5).cut (grid8.coords t) ((dat8 V c).after 5 t) = _
  rw [after8_5]
  unfold out8_5
  rw [View.canon_unit_zero hz]
  simp only [View.ld_unit_zero (S := S512x512) hz, View.ld_unit_zero (S := S256x1024) hz, View.ld_unit_zero (S := S1x1024) hz]
  rw [pay2_same]
  funext j
  obtain ⟨r, q, rfl⟩ : ∃ (r : Fin 512) (q : Fin 256), j = ix2 r q := ⟨j 0, j 1, eq_ix2 j⟩
  refine (T512.cell_eq _ _ _ _ Wn hp cp bn (t.val * 512 + r.val) r (in0 V c hp hH t r) (in1 V c cp hC t r) (in2 V c Wn hW t) (in3 V c bn hB t) q).trans ?_
  show _ = GC Wn hp cp bn (((cfg8.win 5).blk t).view.emb (ix2 r q))
  unfold GC
  have a0 : ((((cfg8.win 5).blk t).view.emb (ix2 r q)) 0).val = t.val * 512 + r.val := by
    show win8_5.index t (0 : Fin 2) * 512 + 1 * r.val = _; rw [e0]; omega
  have a1 : ((((cfg8.win 5).blk t).view.emb (ix2 r q)) 1).val = q.val := by
    show win8_5.index t (1 : Fin 2) * 256 + 1 * q.val = _; rw [e1]; omega
  rw [a0, a1]

/-- Every node's row is in the block of the point that handles it. -/
theorem cover4 (i : S512x256.Idx) : ∃ t : Fin cfg8.N, (cfg8.win 4).flush t = true ∧ i ∈ ((cfg8.win 4).blk t).view.set := by
  have hi0 : (i 0).val < 512 := (i 0).isLt
  have hi1 : (i 1).val < 256 := (i 1).isLt
  have hN : cfg8.N = 1 := N_8
  let t : Fin cfg8.N := ⟨(i 0).val / 512, by rw [hN]; omega⟩
  obtain ⟨-, -, -, -, -, -, -, -, e0, e1, -⟩ := idx_facts t
  refine ⟨t, flush8_4 t, ?_⟩
  show i ∈ ((View.whole main_v34_0).slice (win8_4.rect t)).set
  rw [View.set_slice_whole, Rect.mem_set_unit]
  intro a
  match a with
  | ⟨0, _⟩ => show win8_4.index t (0 : Fin 2) * 512 ≤ (i 0).val ∧ (i 0).val < win8_4.index t (0 : Fin 2) * 512 + 512; rw [e0]; show (i 0).val / 512 * 512 ≤ (i 0).val ∧ (i 0).val < (i 0).val / 512 * 512 + 512; omega
  | ⟨1, _⟩ => show win8_4.index t (1 : Fin 2) * 256 ≤ (i 1).val ∧ (i 1).val < win8_4.index t (1 : Fin 2) * 256 + 256; rw [e1]; omega

theorem cover5 (i : S512x256.Idx) : ∃ t : Fin cfg8.N, (cfg8.win 5).flush t = true ∧ i ∈ ((cfg8.win 5).blk t).view.set := by
  have hi0 : (i 0).val < 512 := (i 0).isLt
  have hi1 : (i 1).val < 256 := (i 1).isLt
  have hN : cfg8.N = 1 := N_8
  let t : Fin cfg8.N := ⟨(i 0).val / 512, by rw [hN]; omega⟩
  obtain ⟨-, -, -, -, -, -, -, -, -, -, e0, e1⟩ := idx_facts t
  refine ⟨t, flush8_5 t, ?_⟩
  show i ∈ ((View.whole main_v34_1).slice (win8_5.rect t)).set
  rw [View.set_slice_whole, Rect.mem_set_unit]
  intro a
  match a with
  | ⟨0, _⟩ => show win8_5.index t (0 : Fin 2) * 512 ≤ (i 0).val ∧ (i 0).val < win8_5.index t (0 : Fin 2) * 512 + 512; rw [e0]; show (i 0).val / 512 * 512 ≤ (i 0).val ∧ (i 0).val < (i 0).val / 512 * 512 + 512; omega
  | ⟨1, _⟩ => show win8_5.index t (1 : Fin 2) * 256 ≤ (i 1).val ∧ (i 1).val < win8_5.index t (1 : Fin 2) * 256 + 256; rw [e1]; omega

end Level

end Cert.KernelIdeal.TreeK.L8

namespace Cert.KernelIdeal.TreeK

open Cert.KernelIdeal Cert.KernelIdeal.Gen Idealize.ShloMosaic Idealize.ShloMosaic.TcCoe Idealize.SL.Sem

/-- Level 8: from the level below laid side by side at the region's entry, the region's two output arrays end at
    the tree's node functions. -/
theorem level8 (V : (c : Dev nD) → (b : Ref sig .tc) → Buf (Elt Ideal) ((c : Thread nD τ).loc b)) (c : Dev nD)
    (Wn hp cp : Nat → Nat → EReal) (bn : Nat → EReal)
    (hH : ∀ i : S512x512.Idx, (V c (Pipeline.arrRef spec8 0) : S512x512.Idx → EReal) i = Cert.Tree.paired hp (i 0).val (i 1).val)
    (hC : ∀ i : S512x512.Idx, (V c (Pipeline.arrRef spec8 1) : S512x512.Idx → EReal) i = Cert.Tree.paired cp (i 0).val (i 1).val)
    (hW : ∀ i : S256x1024.Idx, (V c (Pipeline.arrRef spec8 2) : S256x1024.Idx → EReal) i = Wn (i 1).val (i 0).val)
    (hB : ∀ i : S1x1024.Idx, (V c (Pipeline.arrRef spec8 3) : S1x1024.Idx → EReal) i = bn (i 1).val) :
    (∀ i : S512x256.Idx, ((dat8 V c).arrAt 4 cfg8.N : S512x256.Idx → EReal) i = Cert.Tree.nodeH Wn bn hp cp (i 0).val (i 1).val)
    ∧ (∀ i : S512x256.Idx, ((dat8 V c).arrAt 5 cfg8.N : S512x256.Idx → EReal) i = Cert.Tree.nodeC Wn bn hp cp (i 0).val (i 1).val) :=
  ⟨fun i => congrFun ((dat8 V c).arrAt_eq_of_cover 4 (L8.GH Wn hp cp bn) (fun t _ => L8.flushed4 V c Wn hp cp bn hH hC hW hB t) L8.cover4) i,
   fun i => congrFun ((dat8 V c).arrAt_eq_of_cover 5 (L8.GC Wn hp cp bn) (fun t _ => L8.flushed5 V c Wn hp cp bn hH hC hW hB t) L8.cover5) i⟩

end Cert.KernelIdeal.TreeK

end
-- ==== Proof.KPay256.lean ====
/-
  One internal node's body, read at an index: the block of 256 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T256

open Cert.KernelIdeal Cert.KernelIdeal.Gen Idealize.ShloMosaic Idealize.ShloMosaic.ValueIdx

/-! ## The matrix product's operand indices -/

theorem lhs_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl

theorem lhs_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q

theorem rhs_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q

theorem rhs_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-! ## The block of nodes as functions of row and column numbers -/

/-- The summed children's row of node `r` of the block, from the side-by-side rows. -/
def halves (x : Vec Ideal S256x512 .f32) (r : Fin 256) (k : Nat) : EReal :=
  Cert.Tree.natArr2 (a := 256) (b := 512) x r.val k + Cert.Tree.natArr2 (a := 256) (b := 512) x r.val (256 + k)

/-- The gate pre-activation of node `r` of the block at gate row `q`. -/
def gate (x : Vec Ideal S256x512 .f32) (w : Vec Ideal S256x1024 .bf16) (b : Vec Ideal S1x1024 .f32) (r : Fin 256) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S256x512 .f32) (o : Nat) (ho : o + 256 ≤ 512)
    (h : S256x512.Slices ![0, o] S256x256) (r : Fin 256) (k : Fin 256) :
    extractStridedSlice S256x256 ![0, o] (shapeCast S256x512 x shapeCasts_S256x512_S256x512) h (ix2 r k)
      = Cert.Tree.natArr2 (a := 256) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 256) (b := 512) x r ⟨o + k.val, hk⟩).symm

/-- The gate pre-activations the body computes. -/
theorem pay1_apply (x : Vec Ideal S256x512 .f32) (w : Vec Ideal S256x1024 .bf16) (b : Vec Ideal S1x1024 .f32) (r : Fin 256) (q : Fin 1024) :
    k9_pay1 x w b (ix2 r q) = gate x w b r q.val := by
  unfold k9_pay1 gate
  show (matmul dot_S256x256_S256x1024_S256x1024_1_0_0_1_n_n none _ _ (constant S256x1024 .f32 0x00000000#32)) (ix2 r q) + _ = _
  refine congrArg₂ (· + ·) ?_ ?_
  · refine (Ideal.matmul_constant_zero_apply dot_S256x256_S256x1024_S256x1024_1_0_0_1_n_n none _ _ (ix2 r q)).trans ?_
    rw [← Equiv.sum_comp (contrEquiv1 dot_S256x256_S256x1024_S256x1024_1_0_0_1_n_n 256 rfl rfl).symm]
    refine Finset.sum_congr rfl fun k _ => ?_
    have hk := contrEquiv1_symm_val dot_S256x256_S256x1024_S256x1024_1_0_0_1_n_n 256 rfl rfl k
    have el : dot_S256x256_S256x1024_S256x1024_1_0_0_1_n_n.lhsIdx (ix2 r q) ((contrEquiv1 dot_S256x256_S256x1024_S256x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S256x256_S256x1024_S256x1024_1_0_0_1_n_n.rhsIdx (ix2 r q) ((contrEquiv1 dot_S256x256_S256x1024_S256x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S256x256 ![0, 0] (shapeCast S256x512 x shapeCasts_S256x512_S256x512) slices_S256x512_o0_0_S256x256 (ix2 r k)
          + extractStridedSlice S256x256 ![0, 256] (shapeCast S256x512 x shapeCasts_S256x512_S256x512) slices_S256x512_o0_256_S256x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S256x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S256x1024 .f32) (o : Nat) (ho : o + 256 ≤ 1024)
    (h : S256x1024.Slices ![0, o] S256x256) (r : Fin 256) (j : Fin 256) :
    extractStridedSlice S256x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S256x512 .f32) (w : Vec Ideal S256x1024 .bf16) (b : Vec Ideal S1x1024 .f32) (r : Fin 256) (j : Fin 256) :
    k9_pay2 x0 x1 w b (ix2 r j)
      = Ideal.logistic (gate x0 w b r j.val) * halves x1 r j.val
        + Ideal.logistic (gate x0 w b r (256 + j.val)) * Ideal.tanh (gate x0 w b r (512 + j.val)) := by
  unfold k9_pay2
  show Ideal.logistic (extractStridedSlice S256x256 ![0, 0] (k9_pay1 x0 w b) slices_S256x1024_o0_0_S256x256 (ix2 r j))
        * (extractStridedSlice S256x256 ![0, 0] (shapeCast S256x512 x1 shapeCasts_S256x512_S256x512) slices_S256x512_o0_0_S256x256 (ix2 r j)
            + extractStridedSlice S256x256 ![0, 256] (shapeCast S256x512 x1 shapeCasts_S256x512_S256x512) slices_S256x512_o0_256_S256x256 (ix2 r j))
      + Ideal.logistic (extractStridedSlice S256x256 ![0, 256] (k9_pay1 x0 w b) slices_S256x1024_o0_256_S256x256 (ix2 r j))
        * Ideal.tanh (extractStridedSlice S256x256 ![0, 512] (k9_pay1 x0 w b) slices_S256x1024_o0_512_S256x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S256x512 .f32) (w : Vec Ideal S256x1024 .bf16) (b : Vec Ideal S1x1024 .f32) (r : Fin 256) (j : Fin 256) :
    k9_pay3 x0 x1 w b (ix2 r j)
      = Ideal.logistic (gate x0 w b r (768 + j.val)) * Ideal.tanh (k9_pay2 x0 x1 w b (ix2 r j)) := by
  unfold k9_pay3
  show Ideal.logistic (extractStridedSlice S256x256 ![0, 768] (k9_pay1 x0 w b) slices_S256x1024_o0_768_S256x256 (ix2 r j))
        * Ideal.tanh (k9_pay2 x0 x1 w b (ix2 r j)) = _
  rw [gslice_apply _ 768 (by omega), pay1_apply]

/-! ## The block against the tree -/

section Against

variable (x0 x1 : Vec Ideal S256x512 .f32) (w : Vec Ideal S256x1024 .bf16) (b : Vec Ideal S1x1024 .f32)
  (Wn hp cp : Nat → Nat → EReal) (bn : Nat → EReal) (R : Nat) (r : Fin 256)
  (h0 : ∀ k : Nat, k < 512 → Cert.Tree.natArr2 (a := 256) (b := 512) x0 r.val k = Cert.Tree.paired hp R k)
  (h1 : ∀ k : Nat, k < 512 → Cert.Tree.natArr2 (a := 256) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k9_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k9_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T256

end
-- ==== Proof.KLevel9.lean ====
/-
  Level 9 of the tree, 256 nodes: what the pipelined region leaves in its two output arrays.

  The region's grid has 1 point; point t handles nodes 256·t … 256·t + 255: it reads rows 256·t … of the two
  side-by-side arrays (children's hidden rows, children's cell rows), the whole transposed weight block and
  the bias row, and writes rows 256·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay256
import Idealize.ShloMosaic.Lib.Pipeline.Value

set_option maxRecDepth 16384

noncomputable section

namespace Cert.KernelIdeal.TreeK.L9

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k9_pay2 Ideal _ = @k9_pay2 Ideal _ := rfl
theorem pay3_same : @k9_pay3 Ideal _ = @k9_pay3 Ideal _ := rfl

/-- The block each window holds at grid point t: the row windows move with t, the weight and bias windows stay. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

theorem t_lt (t : Fin cfg9.N) : t.val < 1 := by
  exact lt_of_lt_of_eq t.isLt (show cfg9.N = 1 from N_9)

section Blocks

variable (c : Dev nD) (t : Fin cfg9.N)

/-- Row r of point t's block of the children's hidden rows is row 256·t + r of the array. -/
theorem blk0_apply (r : Fin 256) (k : Fin 512) (i : S256x512.Idx) (hi0 : (i 0).val = t.val * 256 + r.val) (hi1 : (i 1).val = k.val) :
    (iblk9 V c 0 t : Vec Ideal S256x512 .f32) (ix2 r k) = (V c (Pipeline.arrRef spec9 0) : S256x512.Idx → EReal) i := by
  obtain ⟨e0, e1, -⟩ := idx_facts t
  unfold iblk9
  rw [View.read_apply]
  refine congrArg (V c (Pipeline.arrRef spec9 0) : S256x512.Idx → EReal) (funext fun a => Fin.ext ?_)
  match a with
  | ⟨0, _⟩ => show win9_0.index t (0 : Fin 2) * 256 + 1 * r.val = (i 0).val; rw [e0, hi0]; omega
  | ⟨1, _⟩ => show win9_0.index t (1 : Fin 2) * 512 + 1 * k.val = (i 1).val; rw [e1, hi1]; omega

/-- Row r of point t's block of the children's cell rows is row 256·t + r of the array. -/
theorem blk1_apply (r : Fin 256) (k : Fin 512) (i : S256x512.Idx) (hi0 : (i 0).val = t.val * 256 + r.val) (hi1 : (i 1).val = k.val) :
    (iblk9 V c 1 t : Vec Ideal S256x512 .f32) (ix2 r k) = (V c (Pipeline.arrRef spec9 1) : S256x512.Idx → EReal) i := by
  obtain ⟨-, -, e0, e1, -⟩ := idx_facts t
  unfold iblk9
  rw [View.read_apply]
  refine congrArg (V c (Pipeline.arrRef spec9 1) : S256x512.Idx → EReal) (funext fun a => Fin.ext ?_)
  match a with
  | ⟨0, _⟩ => show win9_1.index t (0 : Fin 2) * 256 + 1 * r.val = (i 0).val; rw [e0, hi0]; omega
  | ⟨1, _⟩ => show win9_1.index t (1 : Fin 2) * 512 + 1 * k.val = (i 1).val; rw [e1, hi1]; omega

/-- The weight window's block is the whole transposed weight array. -/
theorem blk2_apply (k : Fin 256) (q : Fin 1024) :
    (iblk9 V c 2 t : Vec Ideal S256x1024 .bf16) (ix2 k q) = (V c (Pipeline.arrRef spec9 2) : S256x1024.Idx → EReal) (ix2 k q) := by
  obtain ⟨-, -, -, -, e0, e1, -⟩ := idx_facts t
  unfold iblk9
  rw [View.read_apply]
  refine congrArg (V c (Pipeline.arrRef spec9 2) : S256x1024.Idx → EReal) (funext fun a => Fin.ext ?_)
  match a with
  | ⟨0, _⟩ => show win9_2.index t (0 : Fin 2) * 256 + 1 * k.val = k.val; rw [e0]; omega
  | ⟨1, _⟩ => show win9_2.index t (1 : Fin 2) * 1024 + 1 * q.val = q.val; rw [e1]; omega

/-- The bias window's block is the whole bias row. -/
theorem blk3_apply (z : Fin 1) (q : Fin 1024) :
    (iblk9 V c 3 t : Vec Ideal S1x1024 .f32) (ix2 z q) = (V c (Pipeline.arrRef spec9 3) : S1x1024.Idx → EReal) (ix2 z q) := by
  obtain ⟨-, -, -, -, -, -, e0, e1, -⟩ := idx_facts t
  unfold iblk9
  rw [View.read_apply]
  refine congrArg (V c (Pipeline.arrRef spec9 3) : S1x1024.Idx → EReal) (funext fun a => Fin.ext ?_)
  match a with
  | ⟨0, _⟩ => show win9_3.index t (0 : Fin 2) * 1 + 1 * z.val = z.val; rw [e0]; omega
  | ⟨1, _⟩ => show win9_3.index t (1 : Fin 2) * 1024 + 1 * q.val = q.val; rw [e1]; omega

end Blocks

section Level

variable (c : Dev nD) (Wn hp cp : Nat → Nat → EReal) (bn : Nat → EReal)
  (hH : ∀ i : S256x512.Idx, (V c (Pipeline.arrRef spec9 0) : S256x512.Idx → EReal) i = Cert.Tree.paired hp (i 0).val (i 1).val)
  (hC : ∀ i : S256x512.Idx, (V c (Pipeline.arrRef spec9 1) : S256x512.Idx → EReal) i = Cert.Tree.paired cp (i 0).val (i 1).val)
  (hW : ∀ i : S256x1024.Idx, (V c (Pipeline.arrRef spec9 2) : S256x1024.Idx → EReal) i = Wn (i 1).val (i 0).val)
  (hB : ∀ i : S1x1024.Idx, (V c (Pipeline.arrRef spec9 3) : S1x1024.Idx → EReal) i = bn (i 1).val)

/-- The hidden array of this level as the tree gives it. -/
def GH : S256x256.Idx → EReal := fun i => Cert.Tree.nodeH Wn bn hp cp (i 0).val (i 1).val
/-- The cell array of this level as the tree gives it. -/
def GC : S256x256.Idx → EReal := fun i => Cert.Tree.nodeC Wn bn hp cp (i 0).val (i 1).val

include hH in
theorem in0 (t : Fin cfg9.N) (r : Fin 256) (k : Nat) (hk : k < 512) :
    Cert.Tree.natArr2 (a := 256) (b := 512) (iblk9 V c 0 t : Vec Ideal S256x512 .f32) r.val k = Cert.Tree.paired hp (t.val * 256 + r.val) k := by
  have ht := t_lt t
  have hr := r.isLt
  refine (Cert.Tree.natArr2_ix2 (a := 256) (b := 512) _ r ⟨k, hk⟩).trans ?_
  rw [blk0_apply V c t r ⟨k, hk⟩ (ix2 ⟨t.val * 256 + r.val, by omega⟩ ⟨k, hk⟩) rfl rfl]
  exact hH _

include hC in
theorem in1 (t : Fin cfg9.N) (r : Fin 256) (k : Nat) (hk : k < 512) :
    Cert.Tree.natArr2 (a := 256) (b := 512) (iblk9 V c 1 t : Vec Ideal S256x512 .f32) r.val k = Cert.Tree.paired cp (t.val * 256 + r.val) k := by
  have ht := t_lt t
  have hr := r.isLt
  refine (Cert.Tree.natArr2_ix2 (a := 256) (b := 512) _ r ⟨k, hk⟩).trans ?_
  rw [blk1_apply V c t r ⟨k, hk⟩ (ix2 ⟨t.val * 256 + r.val, by omega⟩ ⟨k, hk⟩) rfl rfl]
  exact hC _

include hW in
theorem in2 (t : Fin cfg9.N) (k : Nat) (hk : k < 256) (q : Nat) (hq : q < 1024) :
    Cert.Tree.natArr2 (a := 256) (b := 1024) (iblk9 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg9.N) (q : Nat) (hq : q < 1024) :
    Cert.Tree.natArr2 (a := 1) (b := 1024) (iblk9 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg9.N) :
    (dat9 V c).flushed 4 t = ((cfg9.win 4).blk t).view.read (Elt Ideal) (GH Wn hp cp bn) := by
  obtain ⟨-, -, -, -, -, -, -, -, e0, e1, -⟩ := idx_facts t
  have ht := t_lt t
  show (cfg9.win 4).cut (grid9.coords t) ((dat9 V c).after 4 t) = _
  rw [after9_4]
  unfold out9_4
  rw [View.canon_unit_zero hz]
  simp only [View.ld_unit_zero (S := S256x512) hz, View.ld_unit_zero (S := S256x1024) hz, View.ld_unit_zero (S := S1x1024) hz]
  rw [pay3_same]
  funext j
  obtain ⟨r, q, rfl⟩ : ∃ (r : Fin 256) (q : Fin 256), j = ix2 r q := ⟨j 0, j 1, eq_ix2 j⟩
  refine (T256.hidden_eq _ _ _ _ Wn hp cp bn (t.val * 256 + r.val) r (in0 V c hp hH t r) (in1 V c cp hC t r) (in2 V c Wn hW t) (in3 V c bn hB t) q).trans ?_
  show _ = GH Wn hp cp bn (((cfg9.win 4).blk t).view.emb (ix2 r q))
  unfold GH
  have a0 : ((((cfg9.win 4).blk t).view.emb (ix2 r q)) 0).val = t.val * 256 + r.val := by
    show win9_4.index t (0 : Fin 2) * 256 + 1 * r.val = _; rw [e0]; omega
  have a1 : ((((cfg9.win 4).blk t).view.emb (ix2 r q)) 1).val = q.val := by
    show win9_4.index t (1 : Fin 2) * 256 + 1 * q.val = _; rw [e1]; omega
  rw [a0, a1]

include hH hC hW hB in
/-- What point t writes back to the cell array is block t of the tree's level. -/
theorem flushed5 (t : Fin cfg9.N) :
    (dat9 V c).flushed 5 t = ((cfg9.win 5).blk t).view.read (Elt Ideal) (GC Wn hp cp bn) := by
  obtain ⟨-, -, -, -, -, -, -, -, -, -, e0, e1⟩ := idx_facts t
  have ht := t_lt t
  show (cfg9.win 5).cut (grid9.coords t) ((dat9 V c).after 5 t) = _
  rw [after9_5]
  unfold out9_5
  rw [View.canon_unit_zero hz]
  simp only [View.ld_unit_zero (S := S256x512) hz, View.ld_unit_zero (S := S256x1024) hz, View.ld_unit_zero (S := S1x1024) hz]
  rw [pay2_same]
  funext j
  obtain ⟨r, q, rfl⟩ : ∃ (r : Fin 256) (q : Fin 256), j = ix2 r q := ⟨j 0, j 1, eq_ix2 j⟩
  refine (T256.cell_eq _ _ _ _ Wn hp cp bn (t.val * 256 + r.val) r (in0 V c hp hH t r) (in1 V c cp hC t r) (in2 V c Wn hW t) (in3 V c bn hB t) q).trans ?_
  show _ = GC Wn hp cp bn (((cfg9.win 5).blk t).view.emb (ix2 r q))
  unfold GC
  have a0 : ((((cfg9.win 5).blk t).view.emb (ix2 r q)) 0).val = t.val * 256 + r.val := by
    show win9_5.index t (0 : Fin 2) * 256 + 1 * r.val = _; rw [e0]; omega
  have a1 : ((((cfg9.win 5).blk t).view.emb (ix2 r q)) 1).val = q.val := by
    show win9_5.index t (1 : Fin 2) * 256 + 1 * q.val = _; rw [e1]; omega
  rw [a0, a1]

/-- Every node's row is in the block of the point that handles it. -/
theorem cover4 (i : S256x256.Idx) : ∃ t : Fin cfg9.N, (cfg9.win 4).flush t = true ∧ i ∈ ((cfg9.win 4).blk t).view.set := by
  have hi0 : (i 0).val < 256 := (i 0).isLt
  have hi1 : (i 1).val < 256 := (i 1).isLt
  have hN : cfg9.N = 1 := N_9
  let t : Fin cfg9.N := ⟨(i 0).val / 256, by rw [hN]; omega⟩
  obtain ⟨-, -, -, -, -, -, -, -, e0, e1, -⟩ := idx_facts t
  refine ⟨t, flush9_4 t, ?_⟩
  show i ∈ ((View.whole main_v37_0).slice (win9_4.rect t)).set
  rw [View.set_slice_whole, Rect.mem_set_unit]
  intro a
  match a with
  | ⟨0, _⟩ => show win9_4.index t (0 : Fin 2) * 256 ≤ (i 0).val ∧ (i 0).val < win9_4.index t (0 : Fin 2) * 256 + 256; rw [e0]; show (i 0).val / 256 * 256 ≤ (i 0).val ∧ (i 0).val < (i 0).val / 256 * 256 + 256; omega
  | ⟨1, _⟩ => show win9_4.index t (1 : Fin 2) * 256 ≤ (i 1).val ∧ (i 1).val < win9_4.index t (1 : Fin 2) * 256 + 256; rw [e1]; omega

theorem cover5 (i : S256x256.Idx) : ∃ t : Fin cfg9.N, (cfg9.win 5).flush t = true ∧ i ∈ ((cfg9.win 5).blk t).view.set := by
  have hi0 : (i 0).val < 256 := (i 0).isLt
  have hi1 : (i 1).val < 256 := (i 1).isLt
  have hN : cfg9.N = 1 := N_9
  let t : Fin cfg9.N := ⟨(i 0).val / 256, by rw [hN]; omega⟩
  obtain ⟨-, -, -, -, -, -, -, -, -, -, e0, e1⟩ := idx_facts t
  refine ⟨t, flush9_5 t, ?_⟩
  show i ∈ ((View.whole main_v37_1).slice (win9_5.rect t)).set
  rw [View.set_slice_whole, Rect.mem_set_unit]
  intro a
  match a with
  | ⟨0, _⟩ => show win9_5.index t (0 : Fin 2) * 256 ≤ (i 0).val ∧ (i 0).val < win9_5.index t (0 : Fin 2) * 256 + 256; rw [e0]; show (i 0).val / 256 * 256 ≤ (i 0).val ∧ (i 0).val < (i 0).val / 256 * 256 + 256; omega
  | ⟨1, _⟩ => show win9_5.index t (1 : Fin 2) * 256 ≤ (i 1).val ∧ (i 1).val < win9_5.index t (1 : Fin 2) * 256 + 256; rw [e1]; omega

end Level

end Cert.KernelIdeal.TreeK.L9

namespace Cert.KernelIdeal.TreeK

open Cert.KernelIdeal Cert.KernelIdeal.Gen Idealize.ShloMosaic Idealize.ShloMosaic.TcCoe Idealize.SL.Sem

/-- Level 9: from the level below laid side by side at the region's entry, the region's two output arrays end at
    the tree's node functions. -/
theorem level9 (V : (c : Dev nD) → (b : Ref sig .tc) → Buf (Elt Ideal) ((c : Thread nD τ).loc b)) (c : Dev nD)
    (Wn hp cp : Nat → Nat → EReal) (bn : Nat → EReal)
    (hH : ∀ i : S256x512.Idx, (V c (Pipeline.arrRef spec9 0) : S256x512.Idx → EReal) i = Cert.Tree.paired hp (i 0).val (i 1).val)
    (hC : ∀ i : S256x512.Idx, (V c (Pipeline.arrRef spec9 1) : S256x512.Idx → EReal) i = Cert.Tree.paired cp (i 0).val (i 1).val)
    (hW : ∀ i : S256x1024.Idx, (V c (Pipeline.arrRef spec9 2) : S256x1024.Idx → EReal) i = Wn (i 1).val (i 0).val)
    (hB : ∀ i : S1x1024.Idx, (V c (Pipeline.arrRef spec9 3) : S1x1024.Idx → EReal) i = bn (i 1).val) :
    (∀ i : S256x256.Idx, ((dat9 V c).arrAt 4 cfg9.N : S256x256.Idx → EReal) i = Cert.Tree.nodeH Wn bn hp cp (i 0).val (i 1).val)
    ∧ (∀ i : S256x256.Idx, ((dat9 V c).arrAt 5 cfg9.N : S256x256.Idx → EReal) i = Cert.Tree.nodeC Wn bn hp cp (i 0).val (i 1).val) :=
  ⟨fun i => congrFun ((dat9 V c).arrAt_eq_of_cover 4 (L9.GH Wn hp cp bn) (fun t _ => L9.flushed4 V c Wn hp cp bn hH hC hW hB t) L9.cover4) i,
   fun i => congrFun ((dat9 V c).arrAt_eq_of_cover 5 (L9.GC Wn hp cp bn) (fun t _ => L9.flushed5 V c Wn hp cp bn hH hC hW hB t) L9.cover5) i⟩

end Cert.KernelIdeal.TreeK

end
-- ==== Proof.KPay128.lean ====
/-
  One internal node's body, read at an index: the block of 128 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T128

open Cert.KernelIdeal Cert.KernelIdeal.Gen Idealize.ShloMosaic Idealize.ShloMosaic.ValueIdx

/-! ## The matrix product's operand indices -/

theorem lhs_0 (i : S128x1024.Idx) (q : dot_S128x256_S256x1024_S128x1024_1_0_0_1_n_n.contr.Idx) :
    (dot_S128x256_S256x1024_S128x1024_1_0_0_1_n_n.lhsIdx i q 0).val = (i 0).val := by
  unfold DotDims.lhsIdx
  rw [dif_neg (show ¬(0 : Fin S128x256.rank) ∈ dot_S128x256_S256x1024_S128x1024_1_0_0_1_n_n.lhsBatch by decide),
    dif_pos (show (0 : Fin S128x256.rank) ∈ dot_S128x256_S256x1024_S128x1024_1_0_0_1_n_n.lhsNonContracting by decide)]
  rfl

theorem lhs_1 (i : S128x1024.Idx) (q : dot_S128x256_S256x1024_S128x1024_1_0_0_1_n_n.contr.Idx) :
    (dot_S128x256_S256x1024_S128x1024_1_0_0_1_n_n.lhsIdx i q 1).val = (q ⟨0, by decide⟩).val :=
  dot_S128x256_S256x1024_S128x1024_1_0_0_1_n_n.lhsIdx_val_of_single rfl i q

theorem rhs_0 (i : S128x1024.Idx) (q : dot_S128x256_S256x1024_S128x1024_1_0_0_1_n_n.contr.Idx) :
    (dot_S128x256_S256x1024_S128x1024_1_0_0_1_n_n.rhsIdx i q 0).val = (q ⟨0, by decide⟩).val :=
  dot_S128x256_S256x1024_S128x1024_1_0_0_1_n_n.rhsIdx_val_of_single rfl i q

theorem rhs_1 (i : S128x1024.Idx) (q : dot_S128x256_S256x1024_S128x1024_1_0_0_1_n_n.contr.Idx) :
    (dot_S128x256_S256x1024_S128x1024_1_0_0_1_n_n.rhsIdx i q 1).val = (i 1).val := by
  unfold DotDims.rhsIdx
  rw [dif_neg (show ¬(1 : Fin S256x1024.rank) ∈ dot_S128x256_S256x1024_S128x1024_1_0_0_1_n_n.rhsBatch by decide),
    dif_pos (show (1 : Fin S256x1024.rank) ∈ dot_S128x256_S256x1024_S128x1024_1_0_0_1_n_n.rhsNonContracting by decide)]
  rfl

/-! ## The block of nodes as functions of row and column numbers -/

/-- The summed children's row of node `r` of the block, from the side-by-side rows. -/
def halves (x : Vec Ideal S128x512 .f32) (r : Fin 128) (k : Nat) : EReal :=
  Cert.Tree.natArr2 (a := 128) (b := 512) x r.val k + Cert.Tree.natArr2 (a := 128) (b := 512) x r.val (256 + k)

/-- The gate pre-activation of node `r` of the block at gate row `q`. -/
def gate (x : Vec Ideal S128x512 .f32) (w : Vec Ideal S256x1024 .bf16) (b : Vec Ideal S1x1024 .f32) (r : Fin 128) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S128x512 .f32) (o : Nat) (ho : o + 256 ≤ 512)
    (h : S128x512.Slices ![0, o] S128x256) (r : Fin 128) (k : Fin 256) :
    extractStridedSlice S128x256 ![0, o] (shapeCast S128x512 x shapeCasts_S128x512_S128x512) h (ix2 r k)
      = Cert.Tree.natArr2 (a := 128) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 128) (b := 512) x r ⟨o + k.val, hk⟩).symm

/-- The gate pre-activations the body computes. -/
theorem pay1_apply (x : Vec Ideal S128x512 .f32) (w : Vec Ideal S256x1024 .bf16) (b : Vec Ideal S1x1024 .f32) (r : Fin 128) (q : Fin 1024) :
    k10_pay1 x w b (ix2 r q) = gate x w b r q.val := by
  unfold k10_pay1 gate
  show (matmul dot_S128x256_S256x1024_S128x1024_1_0_0_1_n_n none _ _ (constant S128x1024 .f32 0x00000000#32)) (ix2 r q) + _ = _
  refine congrArg₂ (· + ·) ?_ ?_
  · refine (Ideal.matmul_constant_zero_apply dot_S128x256_S256x1024_S128x1024_1_0_0_1_n_n none _ _ (ix2 r q)).trans ?_
    rw [← Equiv.sum_comp (contrEquiv1 dot_S128x256_S256x1024_S128x1024_1_0_0_1_n_n 256 rfl rfl).symm]
    refine Finset.sum_congr rfl fun k _ => ?_
    have hk := contrEquiv1_symm_val dot_S128x256_S256x1024_S128x1024_1_0_0_1_n_n 256 rfl rfl k
    have el : dot_S128x256_S256x1024_S128x1024_1_0_0_1_n_n.lhsIdx (ix2 r q) ((contrEquiv1 dot_S128x256_S256x1024_S128x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S128x256_S256x1024_S128x1024_1_0_0_1_n_n.rhsIdx (ix2 r q) ((contrEquiv1 dot_S128x256_S256x1024_S128x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S128x256 ![0, 0] (shapeCast S128x512 x shapeCasts_S128x512_S128x512) slices_S128x512_o0_0_S128x256 (ix2 r k)
          + extractStridedSlice S128x256 ![0, 256] (shapeCast S128x512 x shapeCasts_S128x512_S128x512) slices_S128x512_o0_256_S128x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S128x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S128x1024 .f32) (o : Nat) (ho : o + 256 ≤ 1024)
    (h : S128x1024.Slices ![0, o] S128x256) (r : Fin 128) (j : Fin 256) :
    extractStridedSlice S128x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S128x512 .f32) (w : Vec Ideal S256x1024 .bf16) (b : Vec Ideal S1x1024 .f32) (r : Fin 128) (j : Fin 256) :
    k10_pay2 x0 x1 w b (ix2 r j)
      = Ideal.logistic (gate x0 w b r j.val) * halves x1 r j.val
        + Ideal.logistic (gate x0 w b r (256 + j.val)) * Ideal.tanh (gate x0 w b r (512 + j.val)) := by
  unfold k10_pay2
  show Ideal.logistic (extractStridedSlice S128x256 ![0, 0] (k10_pay1 x0 w b) slices_S128x1024_o0_0_S128x256 (ix2 r j))
        * (extractStridedSlice S128x256 ![0, 0] (shapeCast S128x512 x1 shapeCasts_S128x512_S128x512) slices_S128x512_o0_0_S128x256 (ix2 r j)
            + extractStridedSlice S128x256 ![0, 256] (shapeCast S128x512 x1 shapeCasts_S128x512_S128x512) slices_S128x512_o0_256_S128x256 (ix2 r j))
      + Ideal.logistic (extractStridedSlice S128x256 ![0, 256] (k10_pay1 x0 w b) slices_S128x1024_o0_256_S128x256 (ix2 r j))
        * Ideal.tanh (extractStridedSlice S128x256 ![0, 512] (k10_pay1 x0 w b) slices_S128x1024_o0_512_S128x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S128x512 .f32) (w : Vec Ideal S256x1024 .bf16) (b : Vec Ideal S1x1024 .f32) (r : Fin 128) (j : Fin 256) :
    k10_pay3 x0 x1 w b (ix2 r j)
      = Ideal.logistic (gate x0 w b r (768 + j.val)) * Ideal.tanh (k10_pay2 x0 x1 w b (ix2 r j)) := by
  unfold k10_pay3
  show Ideal.logistic (extractStridedSlice S128x256 ![0, 768] (k10_pay1 x0 w b) slices_S128x1024_o0_768_S128x256 (ix2 r j))
        * Ideal.tanh (k10_pay2 x0 x1 w b (ix2 r j)) = _
  rw [gslice_apply _ 768 (by omega), pay1_apply]

/-! ## The block against the tree -/

section Against

variable (x0 x1 : Vec Ideal S128x512 .f32) (w : Vec Ideal S256x1024 .bf16) (b : Vec Ideal S1x1024 .f32)
  (Wn hp cp : Nat → Nat → EReal) (bn : Nat → EReal) (R : Nat) (r : Fin 128)
  (h0 : ∀ k : Nat, k < 512 → Cert.Tree.natArr2 (a := 128) (b := 512) x0 r.val k = Cert.Tree.paired hp R k)
  (h1 : ∀ k : Nat, k < 512 → Cert.Tree.natArr2 (a := 128) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k10_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k10_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T128

end
-- ==== Proof.KLevel10.lean ====
/-
  Level 10 of the tree, 128 nodes: what the pipelined region leaves in its two output arrays.

  The region's grid has 1 point; point t handles nodes 128·t … 128·t + 127: it reads rows 128·t … of the two
  side-by-side arrays (children's hidden rows, children's cell rows), the whole transposed weight block and
  the bias row, and writes rows 128·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay128
import Idealize.ShloMosaic.Lib.Pipeline.Value

set_option maxRecDepth 16384

noncomputable section

namespace Cert.KernelIdeal.TreeK.L10

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k10_pay2 Ideal _ = @k10_pay2 Ideal _ := rfl
theorem pay3_same : @k10_pay3 Ideal _ = @k10_pay3 Ideal _ := rfl

/-- The block each window holds at grid point t: the row windows move with t, the weight and bias windows stay. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = t.val ∧ win10_5.index t (1 : Fin 2) = 0 :=
  (by decide +kernel : ∀ t : Fin grid10.N, _)

theorem t_lt (t : Fin cfg10.N) : t.val < 1 := by
  exact lt_of_lt_of_eq t.isLt (show cfg10.N = 1 from N_10)

section Blocks

variable (c : Dev nD) (t : Fin cfg10.N)

/-- Row r of point t's block of the children's hidden rows is row 128·t + r of the array. -/
theorem blk0_apply (r : Fin 128) (k : Fin 512) (i : S128x512.Idx) (hi0 : (i 0).val = t.val * 128 + r.val) (hi1 : (i 1).val = k.val) :
    (iblk10 V c 0 t : Vec Ideal S128x512 .f32) (ix2 r k) = (V c (Pipeline.arrRef spec10 0) : S128x512.Idx → EReal) i := by
  obtain ⟨e0, e1, -⟩ := idx_facts t
  unfold iblk10
  rw [View.read_apply]
  refine congrArg (V c (Pipeline.arrRef spec10 0) : S128x512.Idx → EReal) (funext fun a => Fin.ext ?_)
  match a with
  | ⟨0, _⟩ => show win10_0.index t (0 : Fin 2) * 128 + 1 * r.val = (i 0).val; rw [e0, hi0]; omega
  | ⟨1, _⟩ => show win10_0.index t (1 : Fin 2) * 512 + 1 * k.val = (i 1).val; rw [e1, hi1]; omega

/-- Row r of point t's block of the children's cell rows is row 128·t + r of the array. -/
theorem blk1_apply (r : Fin 128) (k : Fin 512) (i : S128x512.Idx) (hi0 : (i 0).val = t.val * 128 + r.val) (hi1 : (i 1).val = k.val) :
    (iblk10 V c 1 t : Vec Ideal S128x512 .f32) (ix2 r k) = (V c (Pipeline.arrRef spec10 1) : S128x512.Idx → EReal) i := by
  obtain ⟨-, -, e0, e1, -⟩ := idx_facts t
  unfold iblk10
  rw [View.read_apply]
  refine congrArg (V c (Pipeline.arrRef spec10 1) : S128x512.Idx → EReal) (funext fun a => Fin.ext ?_)
  match a with
  | ⟨0, _⟩ => show win10_1.index t (0 : Fin 2) * 128 + 1 * r.val = (i 0).val; rw [e0, hi0]; omega
  | ⟨1, _⟩ => show win10_1.index t (1 : Fin 2) * 512 + 1 * k.val = (i 1).val; rw [e1, hi1]; omega

/-- The weight window's block is the whole transposed weight array. -/
theorem blk2_apply (k : Fin 256) (q : Fin 1024) :
    (iblk10 V c 2 t : Vec Ideal S256x1024 .bf16) (ix2 k q) = (V c (Pipeline.arrRef spec10 2) : S256x1024.Idx → EReal) (ix2 k q) := by
  obtain ⟨-, -, -, -, e0, e1, -⟩ := idx_facts t
  unfold iblk10
  rw [View.read_apply]
  refine congrArg (V c (Pipeline.arrRef spec10 2) : S256x1024.Idx → EReal) (funext fun a => Fin.ext ?_)
  match a with
  | ⟨0, _⟩ => show win10_2.index t (0 : Fin 2) * 256 + 1 * k.val = k.val; rw [e0]; omega
  | ⟨1, _⟩ => show win10_2.index t (1 : Fin 2) * 1024 + 1 * q.val = q.val; rw [e1]; omega

/-- The bias window's block is the whole bias row. -/
theorem blk3_apply (z : Fin 1) (q : Fin 1024) :
    (iblk10 V c 3 t : Vec Ideal S1x1024 .f32) (ix2 z q) = (V c (Pipeline.arrRef spec10 3) : S1x1024.Idx → EReal) (ix2 z q) := by
  obtain ⟨-, -, -, -, -, -, e0, e1, -⟩ := idx_facts t
  unfold iblk10
  rw [View.read_apply]
  refine congrArg (V c (Pipeline.arrRef spec10 3) : S1x1024.Idx → EReal) (funext fun a => Fin.ext ?_)
  match a with
  | ⟨0, _⟩ => show win10_3.index t (0 : Fin 2) * 1 + 1 * z.val = z.val; rw [e0]; omega
  | ⟨1, _⟩ => show win10_3.index t (1 : Fin 2) * 1024 + 1 * q.val = q.val; rw [e1]; omega

end Blocks

section Level

variable (c : Dev nD) (Wn hp cp : Nat → Nat → EReal) (bn : Nat → EReal)
  (hH : ∀ i : S128x512.Idx, (V c (Pipeline.arrRef spec10 0) : S128x512.Idx → EReal) i = Cert.Tree.paired hp (i 0).val (i 1).val)
  (hC : ∀ i : S128x512.Idx, (V c (Pipeline.arrRef spec10 1) : S128x512.Idx → EReal) i = Cert.Tree.paired cp (i 0).val (i 1).val)
  (hW : ∀ i : S256x1024.Idx, (V c (Pipeline.arrRef spec10 2) : S256x1024.Idx → EReal) i = Wn (i 1).val (i 0).val)
  (hB : ∀ i : S1x1024.Idx, (V c (Pipeline.arrRef spec10 3) : S1x1024.Idx → EReal) i = bn (i 1).val)

/-- The hidden array of this level as the tree gives it. -/
def GH : S128x256.Idx → EReal := fun i => Cert.Tree.nodeH Wn bn hp cp (i 0).val (i 1).val
/-- The cell array of this level as the tree gives it. -/
def GC : S128x256.Idx → EReal := fun i => Cert.Tree.nodeC Wn bn hp cp (i 0).val (i 1).val

include hH in
theorem in0 (t : Fin cfg10.N) (r : Fin 128) (k : Nat) (hk : k < 512) :
    Cert.Tree.natArr2 (a := 128) (b := 512) (iblk10 V c 0 t : Vec Ideal S128x512 .f32) r.val k = Cert.Tree.paired hp (t.val * 128 + r.val) k := by
  have ht := t_lt t
  have hr := r.isLt
  refine (Cert.Tree.natArr2_ix2 (a := 128) (b := 512) _ r ⟨k, hk⟩).trans ?_
  rw [blk0_apply V c t r ⟨k, hk⟩ (ix2 ⟨t.val * 128 + r.val, by omega⟩ ⟨k, hk⟩) rfl rfl]
  exact hH _

include hC in
theorem in1 (t : Fin cfg10.N) (r : Fin 128) (k : Nat) (hk : k < 512) :
    Cert.Tree.natArr2 (a := 128) (b := 512) (iblk10 V c 1 t : Vec Ideal S128x512 .f32) r.val k = Cert.Tree.paired cp (t.val * 128 + r.val) k := by
  have ht := t_lt t
  have hr := r.isLt
  refine (Cert.Tree.natArr2_ix2 (a := 128) (b := 512) _ r ⟨k, hk⟩).trans ?_
  rw [blk1_apply V c t r ⟨k, hk⟩ (ix2 ⟨t.val * 128 + r.val, by omega⟩ ⟨k, hk⟩) rfl rfl]
  exact hC _

include hW in
theorem in2 (t : Fin cfg10.N) (k : Nat) (hk : k < 256) (q : Nat) (hq : q < 1024) :
    Cert.Tree.natArr2 (a := 256) (b := 1024) (iblk10 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg10.N) (q : Nat) (hq : q < 1024) :
    Cert.Tree.natArr2 (a := 1) (b := 1024) (iblk10 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg10.N) :
    (dat10 V c).flushed 4 t = ((cfg10.win 4).blk t).view.read (Elt Ideal) (GH Wn hp cp bn) := by
  obtain ⟨-, -, -, -, -, -, -, -, e0, e1, -⟩ := idx_facts t
  have ht := t_lt t
  show (cfg10.win 4).cut (grid10.coords t) ((dat10 V c).after 4 t) = _
  rw [after10_4]
  unfold out10_4
  rw [View.canon_unit_zero hz]
  simp only [View.ld_unit_zero (S := S128x512) hz, View.ld_unit_zero (S := S256x1024) hz, View.ld_unit_zero (S := S1x1024) hz]
  rw [pay3_same]
  funext j
  obtain ⟨r, q, rfl⟩ : ∃ (r : Fin 128) (q : Fin 256), j = ix2 r q := ⟨j 0, j 1, eq_ix2 j⟩
  refine (T128.hidden_eq _ _ _ _ Wn hp cp bn (t.val * 128 + r.val) r (in0 V c hp hH t r) (in1 V c cp hC t r) (in2 V c Wn hW t) (in3 V c bn hB t) q).trans ?_
  show _ = GH Wn hp cp bn (((cfg10.win 4).blk t).view.emb (ix2 r q))
  unfold GH
  have a0 : ((((cfg10.win 4).blk t).view.emb (ix2 r q)) 0).val = t.val * 128 + r.val := by
    show win10_4.index t (0 : Fin 2) * 128 + 1 * r.val = _; rw [e0]; omega
  have a1 : ((((cfg10.win 4).blk t).view.emb (ix2 r q)) 1).val = q.val := by
    show win10_4.index t (1 : Fin 2) * 256 + 1 * q.val = _; rw [e1]; omega
  rw [a0, a1]

include hH hC hW hB in
/-- What point t writes back to the cell array is block t of the tree's level. -/
theorem flushed5 (t : Fin cfg10.N) :
    (dat10 V c).flushed 5 t = ((cfg10.win 5).blk t).view.read (Elt Ideal) (GC Wn hp cp bn) := by
  obtain ⟨-, -, -, -, -, -, -, -, -, -, e0, e1⟩ := idx_facts t
  have ht := t_lt t
  show (cfg10.win 5).cut (grid10.coords t) ((dat10 V c).after 5 t) = _
  rw [after10_5]
  unfold out10_5
  rw [View.canon_unit_zero hz]
  simp only [View.ld_unit_zero (S := S128x512) hz, View.ld_unit_zero (S := S256x1024) hz, View.ld_unit_zero (S := S1x1024) hz]
  rw [pay2_same]
  funext j
  obtain ⟨r, q, rfl⟩ : ∃ (r : Fin 128) (q : Fin 256), j = ix2 r q := ⟨j 0, j 1, eq_ix2 j⟩
  refine (T128.cell_eq _ _ _ _ Wn hp cp bn (t.val * 128 + r.val) r (in0 V c hp hH t r) (in1 V c cp hC t r) (in2 V c Wn hW t) (in3 V c bn hB t) q).trans ?_
  show _ = GC Wn hp cp bn (((cfg10.win 5).blk t).view.emb (ix2 r q))
  unfold GC
  have a0 : ((((cfg10.win 5).blk t).view.emb (ix2 r q)) 0).val = t.val * 128 + r.val := by
    show win10_5.index t (0 : Fin 2) * 128 + 1 * r.val = _; rw [e0]; omega
  have a1 : ((((cfg10.win 5).blk t).view.emb (ix2 r q)) 1).val = q.val := by
    show win10_5.index t (1 : Fin 2) * 256 + 1 * q.val = _; rw [e1]; omega
  rw [a0, a1]

/-- Every node's row is in the block of the point that handles it. -/
theorem cover4 (i : S128x256.Idx) : ∃ t : Fin cfg10.N, (cfg10.win 4).flush t = true ∧ i ∈ ((cfg10.win 4).blk t).view.set := by
  have hi0 : (i 0).val < 128 := (i 0).isLt
  have hi1 : (i 1).val < 256 := (i 1).isLt
  have hN : cfg10.N = 1 := N_10
  let t : Fin cfg10.N := ⟨(i 0).val / 128, by rw [hN]; omega⟩
  obtain ⟨-, -, -, -, -, -, -, -, e0, e1, -⟩ := idx_facts t
  refine ⟨t, flush10_4 t, ?_⟩
  show i ∈ ((View.whole main_v40_0).slice (win10_4.rect t)).set
  rw [View.set_slice_whole, Rect.mem_set_unit]
  intro a
  match a with
  | ⟨0, _⟩ => show win10_4.index t (0 : Fin 2) * 128 ≤ (i 0).val ∧ (i 0).val < win10_4.index t (0 : Fin 2) * 128 + 128; rw [e0]; show (i 0).val / 128 * 128 ≤ (i 0).val ∧ (i 0).val < (i 0).val / 128 * 128 + 128; omega
  | ⟨1, _⟩ => show win10_4.index t (1 : Fin 2) * 256 ≤ (i 1).val ∧ (i 1).val < win10_4.index t (1 : Fin 2) * 256 + 256; rw [e1]; omega

theorem cover5 (i : S128x256.Idx) : ∃ t : Fin cfg10.N, (cfg10.win 5).flush t = true ∧ i ∈ ((cfg10.win 5).blk t).view.set := by
  have hi0 : (i 0).val < 128 := (i 0).isLt
  have hi1 : (i 1).val < 256 := (i 1).isLt
  have hN : cfg10.N = 1 := N_10
  let t : Fin cfg10.N := ⟨(i 0).val / 128, by rw [hN]; omega⟩
  obtain ⟨-, -, -, -, -, -, -, -, -, -, e0, e1⟩ := idx_facts t
  refine ⟨t, flush10_5 t, ?_⟩
  show i ∈ ((View.whole main_v40_1).slice (win10_5.rect t)).set
  rw [View.set_slice_whole, Rect.mem_set_unit]
  intro a
  match a with
  | ⟨0, _⟩ => show win10_5.index t (0 : Fin 2) * 128 ≤ (i 0).val ∧ (i 0).val < win10_5.index t (0 : Fin 2) * 128 + 128; rw [e0]; show (i 0).val / 128 * 128 ≤ (i 0).val ∧ (i 0).val < (i 0).val / 128 * 128 + 128; omega
  | ⟨1, _⟩ => show win10_5.index t (1 : Fin 2) * 256 ≤ (i 1).val ∧ (i 1).val < win10_5.index t (1 : Fin 2) * 256 + 256; rw [e1]; omega

end Level

end Cert.KernelIdeal.TreeK.L10

namespace Cert.KernelIdeal.TreeK

open Cert.KernelIdeal Cert.KernelIdeal.Gen Idealize.ShloMosaic Idealize.ShloMosaic.TcCoe Idealize.SL.Sem

/-- Level 10: from the level below laid side by side at the region's entry, the region's two output arrays end at
    the tree's node functions. -/
theorem level10 (V : (c : Dev nD) → (b : Ref sig .tc) → Buf (Elt Ideal) ((c : Thread nD τ).loc b)) (c : Dev nD)
    (Wn hp cp : Nat → Nat → EReal) (bn : Nat → EReal)
    (hH : ∀ i : S128x512.Idx, (V c (Pipeline.arrRef spec10 0) : S128x512.Idx → EReal) i = Cert.Tree.paired hp (i 0).val (i 1).val)
    (hC : ∀ i : S128x512.Idx, (V c (Pipeline.arrRef spec10 1) : S128x512.Idx → EReal) i = Cert.Tree.paired cp (i 0).val (i 1).val)
    (hW : ∀ i : S256x1024.Idx, (V c (Pipeline.arrRef spec10 2) : S256x1024.Idx → EReal) i = Wn (i 1).val (i 0).val)
    (hB : ∀ i : S1x1024.Idx, (V c (Pipeline.arrRef spec10 3) : S1x1024.Idx → EReal) i = bn (i 1).val) :
    (∀ i : S128x256.Idx, ((dat10 V c).arrAt 4 cfg10.N : S128x256.Idx → EReal) i = Cert.Tree.nodeH Wn bn hp cp (i 0).val (i 1).val)
    ∧ (∀ i : S128x256.Idx, ((dat10 V c).arrAt 5 cfg10.N : S128x256.Idx → EReal) i = Cert.Tree.nodeC Wn bn hp cp (i 0).val (i 1).val) :=
  ⟨fun i => congrFun ((dat10 V c).arrAt_eq_of_cover 4 (L10.GH Wn hp cp bn) (fun t _ => L10.flushed4 V c Wn hp cp bn hH hC hW hB t) L10.cover4) i,
   fun i => congrFun ((dat10 V c).arrAt_eq_of_cover 5 (L10.GC Wn hp cp bn) (fun t _ => L10.flushed5 V c Wn hp cp bn hH hC hW hB t) L10.cover5) i⟩

end Cert.KernelIdeal.TreeK

end
-- ==== Proof.KPay64.lean ====
/-
  One internal node's body, read at an index: the block of 64 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T64

open Cert.KernelIdeal Cert.KernelIdeal.Gen Idealize.ShloMosaic Idealize.ShloMosaic.ValueIdx

/-! ## The matrix product's operand indices -/

theorem lhs_0 (i : S64x1024.Idx) (q : dot_S64x256_S256x1024_S64x1024_1_0_0_1_n_n.contr.Idx) :
    (dot_S64x256_S256x1024_S64x1024_1_0_0_1_n_n.lhsIdx i q 0).val = (i 0).val := by
  unfold DotDims.lhsIdx
  rw [dif_neg (show ¬(0 : Fin S64x256.rank) ∈ dot_S64x256_S256x1024_S64x1024_1_0_0_1_n_n.lhsBatch by decide),
    dif_pos (show (0 : Fin S64x256.rank) ∈ dot_S64x256_S256x1024_S64x1024_1_0_0_1_n_n.lhsNonContracting by decide)]
  rfl

theorem lhs_1 (i : S64x1024.Idx) (q : dot_S64x256_S256x1024_S64x1024_1_0_0_1_n_n.contr.Idx) :
    (dot_S64x256_S256x1024_S64x1024_1_0_0_1_n_n.lhsIdx i q 1).val = (q ⟨0, by decide⟩).val :=
  dot_S64x256_S256x1024_S64x1024_1_0_0_1_n_n.lhsIdx_val_of_single rfl i q

theorem rhs_0 (i : S64x1024.Idx) (q : dot_S64x256_S256x1024_S64x1024_1_0_0_1_n_n.contr.Idx) :
    (dot_S64x256_S256x1024_S64x1024_1_0_0_1_n_n.rhsIdx i q 0).val = (q ⟨0, by decide⟩).val :=
  dot_S64x256_S256x1024_S64x1024_1_0_0_1_n_n.rhsIdx_val_of_single rfl i q

theorem rhs_1 (i : S64x1024.Idx) (q : dot_S64x256_S256x1024_S64x1024_1_0_0_1_n_n.contr.Idx) :
    (dot_S64x256_S256x1024_S64x1024_1_0_0_1_n_n.rhsIdx i q 1).val = (i 1).val := by
  unfold DotDims.rhsIdx
  rw [dif_neg (show ¬(1 : Fin S256x1024.rank) ∈ dot_S64x256_S256x1024_S64x1024_1_0_0_1_n_n.rhsBatch by decide),
    dif_pos (show (1 : Fin S256x1024.rank) ∈ dot_S64x256_S256x1024_S64x1024_1_0_0_1_n_n.rhsNonContracting by decide)]
  rfl

/-! ## The block of nodes as functions of row and column numbers -/

/-- The summed children's row of node `r` of the block, from the side-by-side rows. -/
def halves (x : Vec Ideal S64x512 .f32) (r : Fin 64) (k : Nat) : EReal :=
  Cert.Tree.natArr2 (a := 64) (b := 512) x r.val k + Cert.Tree.natArr2 (a := 64) (b := 512) x r.val (256 + k)

/-- The gate pre-activation of node `r` of the block at gate row `q`. -/
def gate (x : Vec Ideal S64x512 .f32) (w : Vec Ideal S256x1024 .bf16) (b : Vec Ideal S1x1024 .f32) (r : Fin 64) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S64x512 .f32) (o : Nat) (ho : o + 256 ≤ 512)
    (h : S64x512.Slices ![0, o] S64x256) (r : Fin 64) (k : Fin 256) :
    extractStridedSlice S64x256 ![0, o] (shapeCast S64x512 x shapeCasts_S64x512_S64x512) h (ix2 r k)
      = Cert.Tree.natArr2 (a := 64) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 64) (b := 512) x r ⟨o + k.val, hk⟩).symm

/-- The gate pre-activations the body computes. -/
theorem pay1_apply (x : Vec Ideal S64x512 .f32) (w : Vec Ideal S256x1024 .bf16) (b : Vec Ideal S1x1024 .f32) (r : Fin 64) (q : Fin 1024) :
    k11_pay1 x w b (ix2 r q) = gate x w b r q.val := by
  unfold k11_pay1 gate
  show (matmul dot_S64x256_S256x1024_S64x1024_1_0_0_1_n_n none _ _ (constant S64x1024 .f32 0x00000000#32)) (ix2 r q) + _ = _
  refine congrArg₂ (· + ·) ?_ ?_
  · refine (Ideal.matmul_constant_zero_apply dot_S64x256_S256x1024_S64x1024_1_0_0_1_n_n none _ _ (ix2 r q)).trans ?_
    rw [← Equiv.sum_comp (contrEquiv1 dot_S64x256_S256x1024_S64x1024_1_0_0_1_n_n 256 rfl rfl).symm]
    refine Finset.sum_congr rfl fun k _ => ?_
    have hk := contrEquiv1_symm_val dot_S64x256_S256x1024_S64x1024_1_0_0_1_n_n 256 rfl rfl k
    have el : dot_S64x256_S256x1024_S64x1024_1_0_0_1_n_n.lhsIdx (ix2 r q) ((contrEquiv1 dot_S64x256_S256x1024_S64x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S64x256_S256x1024_S64x1024_1_0_0_1_n_n.rhsIdx (ix2 r q) ((contrEquiv1 dot_S64x256_S256x1024_S64x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S64x256 ![0, 0] (shapeCast S64x512 x shapeCasts_S64x512_S64x512) slices_S64x512_o0_0_S64x256 (ix2 r k)
          + extractStridedSlice S64x256 ![0, 256] (shapeCast S64x512 x shapeCasts_S64x512_S64x512) slices_S64x512_o0_256_S64x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S64x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S64x1024 .f32) (o : Nat) (ho : o + 256 ≤ 1024)
    (h : S64x1024.Slices ![0, o] S64x256) (r : Fin 64) (j : Fin 256) :
    extractStridedSlice S64x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S64x512 .f32) (w : Vec Ideal S256x1024 .bf16) (b : Vec Ideal S1x1024 .f32) (r : Fin 64) (j : Fin 256) :
    k11_pay2 x0 x1 w b (ix2 r j)
      = Ideal.logistic (gate x0 w b r j.val) * halves x1 r j.val
        + Ideal.logistic (gate x0 w b r (256 + j.val)) * Ideal.tanh (gate x0 w b r (512 + j.val)) := by
  unfold k11_pay2
  show Ideal.logistic (extractStridedSlice S64x256 ![0, 0] (k11_pay1 x0 w b) slices_S64x1024_o0_0_S64x256 (ix2 r j))
        * (extractStridedSlice S64x256 ![0, 0] (shapeCast S64x512 x1 shapeCasts_S64x512_S64x512) slices_S64x512_o0_0_S64x256 (ix2 r j)
            + extractStridedSlice S64x256 ![0, 256] (shapeCast S64x512 x1 shapeCasts_S64x512_S64x512) slices_S64x512_o0_256_S64x256 (ix2 r j))
      + Ideal.logistic (extractStridedSlice S64x256 ![0, 256] (k11_pay1 x0 w b) slices_S64x1024_o0_256_S64x256 (ix2 r j))
        * Ideal.tanh (extractStridedSlice S64x256 ![0, 512] (k11_pay1 x0 w b) slices_S64x1024_o0_512_S64x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S64x512 .f32) (w : Vec Ideal S256x1024 .bf16) (b : Vec Ideal S1x1024 .f32) (r : Fin 64) (j : Fin 256) :
    k11_pay3 x0 x1 w b (ix2 r j)
      = Ideal.logistic (gate x0 w b r (768 + j.val)) * Ideal.tanh (k11_pay2 x0 x1 w b (ix2 r j)) := by
  unfold k11_pay3
  show Ideal.logistic (extractStridedSlice S64x256 ![0, 768] (k11_pay1 x0 w b) slices_S64x1024_o0_768_S64x256 (ix2 r j))
        * Ideal.tanh (k11_pay2 x0 x1 w b (ix2 r j)) = _
  rw [gslice_apply _ 768 (by omega), pay1_apply]

/-! ## The block against the tree -/

section Against

variable (x0 x1 : Vec Ideal S64x512 .f32) (w : Vec Ideal S256x1024 .bf16) (b : Vec Ideal S1x1024 .f32)
  (Wn hp cp : Nat → Nat → EReal) (bn : Nat → EReal) (R : Nat) (r : Fin 64)
  (h0 : ∀ k : Nat, k < 512 → Cert.Tree.natArr2 (a := 64) (b := 512) x0 r.val k = Cert.Tree.paired hp R k)
  (h1 : ∀ k : Nat, k < 512 → Cert.Tree.natArr2 (a := 64) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k11_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k11_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T64

end
-- ==== Proof.KLevel11.lean ====
/-
  Level 11 of the tree, 64 nodes: what the pipelined region leaves in its two output arrays.

  The region's grid has 1 point; point t handles nodes 64·t … 64·t + 63: it reads rows 64·t … of the two
  side-by-side arrays (children's hidden rows, children's cell rows), the whole transposed weight block and
  the bias row, and writes rows 64·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay64
import Idealize.ShloMosaic.Lib.Pipeline.Value

set_option maxRecDepth 16384

noncomputable section

namespace Cert.KernelIdeal.TreeK.L11

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k11_pay2 Ideal _ = @k11_pay2 Ideal _ := rfl
theorem pay3_same : @k11_pay3 Ideal _ = @k11_pay3 Ideal _ := rfl

/-- The block each window holds at grid point t: the row windows move with t, the weight and bias windows stay. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

theorem t_lt (t : Fin cfg11.N) : t.val < 1 := by
  exact lt_of_lt_of_eq t.isLt (show cfg11.N = 1 from N_11)

section Blocks

variable (c : Dev nD) (t : Fin cfg11.N)

/-- Row r of point t's block of the children's hidden rows is row 64·t + r of the array. -/
theorem blk0_apply (r : Fin 64) (k : Fin 512) (i : S64x512.Idx) (hi0 : (i 0).val = t.val * 64 + r.val) (hi1 : (i 1).val = k.val) :
    (iblk11 V c 0 t : Vec Ideal S64x512 .f32) (ix2 r k) = (V c (Pipeline.arrRef spec11 0) : S64x512.Idx → EReal) i := by
  obtain ⟨e0, e1, -⟩ := idx_facts t
  unfold iblk11
  rw [View.read_apply]
  refine congrArg (V c (Pipeline.arrRef spec11 0) : S64x512.Idx → EReal) (funext fun a => Fin.ext ?_)
  match a with
  | ⟨0, _⟩ => show win11_0.index t (0 : Fin 2) * 64 + 1 * r.val = (i 0).val; rw [e0, hi0]; omega
  | ⟨1, _⟩ => show win11_0.index t (1 : Fin 2) * 512 + 1 * k.val = (i 1).val; rw [e1, hi1]; omega

/-- Row r of point t's block of the children's cell rows is row 64·t + r of the array. -/
theorem blk1_apply (r : Fin 64) (k : Fin 512) (i : S64x512.Idx) (hi0 : (i 0).val = t.val * 64 + r.val) (hi1 : (i 1).val = k.val) :
    (iblk11 V c 1 t : Vec Ideal S64x512 .f32) (ix2 r k) = (V c (Pipeline.arrRef spec11 1) : S64x512.Idx → EReal) i := by
  obtain ⟨-, -, e0, e1, -⟩ := idx_facts t
  unfold iblk11
  rw [View.read_apply]
  refine congrArg (V c (Pipeline.arrRef spec11 1) : S64x512.Idx → EReal) (funext fun a => Fin.ext ?_)
  match a with
  | ⟨0, _⟩ => show win11_1.index t (0 : Fin 2) * 64 + 1 * r.val = (i 0).val; rw [e0, hi0]; omega
  | ⟨1, _⟩ => show win11_1.index t (1 : Fin 2) * 512 + 1 * k.val = (i 1).val; rw [e1, hi1]; omega

/-- The weight window's block is the whole transposed weight array. -/
theorem blk2_apply (k : Fin 256) (q : Fin 1024) :
    (iblk11 V c 2 t : Vec Ideal S256x1024 .bf16) (ix2 k q) = (V c (Pipeline.arrRef spec11 2) : S256x1024.Idx → EReal) (ix2 k q) := by
  obtain ⟨-, -, -, -, e0, e1, -⟩ := idx_facts t
  unfold iblk11
  rw [View.read_apply]
  refine congrArg (V c (Pipeline.arrRef spec11 2) : S256x1024.Idx → EReal) (funext fun a => Fin.ext ?_)
  match a with
  | ⟨0, _⟩ => show win11_2.index t (0 : Fin 2) * 256 + 1 * k.val = k.val; rw [e0]; omega
  | ⟨1, _⟩ => show win11_2.index t (1 : Fin 2) * 1024 + 1 * q.val = q.val; rw [e1]; omega

/-- The bias window's block is the whole bias row. -/
theorem blk3_apply (z : Fin 1) (q : Fin 1024) :
    (iblk11 V c 3 t : Vec Ideal S1x1024 .f32) (ix2 z q) = (V c (Pipeline.arrRef spec11 3) : S1x1024.Idx → EReal) (ix2 z q) := by
  obtain ⟨-, -, -, -, -, -, e0, e1, -⟩ := idx_facts t
  unfold iblk11
  rw [View.read_apply]
  refine congrArg (V c (Pipeline.arrRef spec11 3) : S1x1024.Idx → EReal) (funext fun a => Fin.ext ?_)
  match a with
  | ⟨0, _⟩ => show win11_3.index t (0 : Fin 2) * 1 + 1 * z.val = z.val; rw [e0]; omega
  | ⟨1, _⟩ => show win11_3.index t (1 : Fin 2) * 1024 + 1 * q.val = q.val; rw [e1]; omega

end Blocks

section Level

variable (c : Dev nD) (Wn hp cp : Nat → Nat → EReal) (bn : Nat → EReal)
  (hH : ∀ i : S64x512.Idx, (V c (Pipeline.arrRef spec11 0) : S64x512.Idx → EReal) i = Cert.Tree.paired hp (i 0).val (i 1).val)
  (hC : ∀ i : S64x512.Idx, (V c (Pipeline.arrRef spec11 1) : S64x512.Idx → EReal) i = Cert.Tree.paired cp (i 0).val (i 1).val)
  (hW : ∀ i : S256x1024.Idx, (V c (Pipeline.arrRef spec11 2) : S256x1024.Idx → EReal) i = Wn (i 1).val (i 0).val)
  (hB : ∀ i : S1x1024.Idx, (V c (Pipeline.arrRef spec11 3) : S1x1024.Idx → EReal) i = bn (i 1).val)

/-- The hidden array of this level as the tree gives it. -/
def GH : S64x256.Idx → EReal := fun i => Cert.Tree.nodeH Wn bn hp cp (i 0).val (i 1).val
/-- The cell array of this level as the tree gives it. -/
def GC : S64x256.Idx → EReal := fun i => Cert.Tree.nodeC Wn bn hp cp (i 0).val (i 1).val

include hH in
theorem in0 (t : Fin cfg11.N) (r : Fin 64) (k : Nat) (hk : k < 512) :
    Cert.Tree.natArr2 (a := 64) (b := 512) (iblk11 V c 0 t : Vec Ideal S64x512 .f32) r.val k = Cert.Tree.paired hp (t.val * 64 + r.val) k := by
  have ht := t_lt t
  have hr := r.isLt
  refine (Cert.Tree.natArr2_ix2 (a := 64) (b := 512) _ r ⟨k, hk⟩).trans ?_
  rw [blk0_apply V c t r ⟨k, hk⟩ (ix2 ⟨t.val * 64 + r.val, by omega⟩ ⟨k, hk⟩) rfl rfl]
  exact hH _

include hC in
theorem in1 (t : Fin cfg11.N) (r : Fin 64) (k : Nat) (hk : k < 512) :
    Cert.Tree.natArr2 (a := 64) (b := 512) (iblk11 V c 1 t : Vec Ideal S64x512 .f32) r.val k = Cert.Tree.paired cp (t.val * 64 + r.val) k := by
  have ht := t_lt t
  have hr := r.isLt
  refine (Cert.Tree.natArr2_ix2 (a := 64) (b := 512) _ r ⟨k, hk⟩).trans ?_
  rw [blk1_apply V c t r ⟨k, hk⟩ (ix2 ⟨t.val * 64 + r.val, by omega⟩ ⟨k, hk⟩) rfl rfl]
  exact hC _

include hW in
theorem in2 (t : Fin cfg11.N) (k : Nat) (hk : k < 256) (q : Nat) (hq : q < 1024) :
    Cert.Tree.natArr2 (a := 256) (b := 1024) (iblk11 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg11.N) (q : Nat) (hq : q < 1024) :
    Cert.Tree.natArr2 (a := 1) (b := 1024) (iblk11 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg11.N) :
    (dat11 V c).flushed 4 t = ((cfg11.win 4).blk t).view.read (Elt Ideal) (GH Wn hp cp bn) := by
  obtain ⟨-, -, -, -, -, -, -, -, e0, e1, -⟩ := idx_facts t
  have ht := t_lt t
  show (cfg11.win 4).cut (grid11.coords t) ((dat11 V c).after 4 t) = _
  rw [after11_4]
  unfold out11_4
  rw [View.canon_unit_zero hz]
  simp only [View.ld_unit_zero (S := S64x512) hz, View.ld_unit_zero (S := S256x1024) hz, View.ld_unit_zero (S := S1x1024) hz]
  rw [pay3_same]
  funext j
  obtain ⟨r, q, rfl⟩ : ∃ (r : Fin 64) (q : Fin 256), j = ix2 r q := ⟨j 0, j 1, eq_ix2 j⟩
  refine (T64.hidden_eq _ _ _ _ Wn hp cp bn (t.val * 64 + r.val) r (in0 V c hp hH t r) (in1 V c cp hC t r) (in2 V c Wn hW t) (in3 V c bn hB t) q).trans ?_
  show _ = GH Wn hp cp bn (((cfg11.win 4).blk t).view.emb (ix2 r q))
  unfold GH
  have a0 : ((((cfg11.win 4).blk t).view.emb (ix2 r q)) 0).val = t.val * 64 + r.val := by
    show win11_4.index t (0 : Fin 2) * 64 + 1 * r.val = _; rw [e0]; omega
  have a1 : ((((cfg11.win 4).blk t).view.emb (ix2 r q)) 1).val = q.val := by
    show win11_4.index t (1 : Fin 2) * 256 + 1 * q.val = _; rw [e1]; omega
  rw [a0, a1]

include hH hC hW hB in
/-- What point t writes back to the cell array is block t of the tree's level. -/
theorem flushed5 (t : Fin cfg11.N) :
    (dat11 V c).flushed 5 t = ((cfg11.win 5).blk t).view.read (Elt Ideal) (GC Wn hp cp bn) := by
  obtain ⟨-, -, -, -, -, -, -, -, -, -, e0, e1⟩ := idx_facts t
  have ht := t_lt t
  show (cfg11.win 5).cut (grid11.coords t) ((dat11 V c).after 5 t) = _
  rw [after11_5]
  unfold out11_5
  rw [View.canon_unit_zero hz]
  simp only [View.ld_unit_zero (S := S64x512) hz, View.ld_unit_zero (S := S256x1024) hz, View.ld_unit_zero (S := S1x1024) hz]
  rw [pay2_same]
  funext j
  obtain ⟨r, q, rfl⟩ : ∃ (r : Fin 64) (q : Fin 256), j = ix2 r q := ⟨j 0, j 1, eq_ix2 j⟩
  refine (T64.cell_eq _ _ _ _ Wn hp cp bn (t.val * 64 + r.val) r (in0 V c hp hH t r) (in1 V c cp hC t r) (in2 V c Wn hW t) (in3 V c bn hB t) q).trans ?_
  show _ = GC Wn hp cp bn (((cfg11.win 5).blk t).view.emb (ix2 r q))
  unfold GC
  have a0 : ((((cfg11.win 5).blk t).view.emb (ix2 r q)) 0).val = t.val * 64 + r.val := by
    show win11_5.index t (0 : Fin 2) * 64 + 1 * r.val = _; rw [e0]; omega
  have a1 : ((((cfg11.win 5).blk t).view.emb (ix2 r q)) 1).val = q.val := by
    show win11_5.index t (1 : Fin 2) * 256 + 1 * q.val = _; rw [e1]; omega
  rw [a0, a1]

/-- Every node's row is in the block of the point that handles it. -/
theorem cover4 (i : S64x256.Idx) : ∃ t : Fin cfg11.N, (cfg11.win 4).flush t = true ∧ i ∈ ((cfg11.win 4).blk t).view.set := by
  have hi0 : (i 0).val < 64 := (i 0).isLt
  have hi1 : (i 1).val < 256 := (i 1).isLt
  have hN : cfg11.N = 1 := N_11
  let t : Fin cfg11.N := ⟨(i 0).val / 64, by rw [hN]; omega⟩
  obtain ⟨-, -, -, -, -, -, -, -, e0, e1, -⟩ := idx_facts t
  refine ⟨t, flush11_4 t, ?_⟩
  show i ∈ ((View.whole main_v43_0).slice (win11_4.rect t)).set
  rw [View.set_slice_whole, Rect.mem_set_unit]
  intro a
  match a with
  | ⟨0, _⟩ => show win11_4.index t (0 : Fin 2) * 64 ≤ (i 0).val ∧ (i 0).val < win11_4.index t (0 : Fin 2) * 64 + 64; rw [e0]; show (i 0).val / 64 * 64 ≤ (i 0).val ∧ (i 0).val < (i 0).val / 64 * 64 + 64; omega
  | ⟨1, _⟩ => show win11_4.index t (1 : Fin 2) * 256 ≤ (i 1).val ∧ (i 1).val < win11_4.index t (1 : Fin 2) * 256 + 256; rw [e1]; omega

theorem cover5 (i : S64x256.Idx) : ∃ t : Fin cfg11.N, (cfg11.win 5).flush t = true ∧ i ∈ ((cfg11.win 5).blk t).view.set := by
  have hi0 : (i 0).val < 64 := (i 0).isLt
  have hi1 : (i 1).val < 256 := (i 1).isLt
  have hN : cfg11.N = 1 := N_11
  let t : Fin cfg11.N := ⟨(i 0).val / 64, by rw [hN]; omega⟩
  obtain ⟨-, -, -, -, -, -, -, -, -, -, e0, e1⟩ := idx_facts t
  refine ⟨t, flush11_5 t, ?_⟩
  show i ∈ ((View.whole main_v43_1).slice (win11_5.rect t)).set
  rw [View.set_slice_whole, Rect.mem_set_unit]
  intro a
  match a with
  | ⟨0, _⟩ => show win11_5.index t (0 : Fin 2) * 64 ≤ (i 0).val ∧ (i 0).val < win11_5.index t (0 : Fin 2) * 64 + 64; rw [e0]; show (i 0).val / 64 * 64 ≤ (i 0).val ∧ (i 0).val < (i 0).val / 64 * 64 + 64; omega
  | ⟨1, _⟩ => show win11_5.index t (1 : Fin 2) * 256 ≤ (i 1).val ∧ (i 1).val < win11_5.index t (1 : Fin 2) * 256 + 256; rw [e1]; omega

end Level

end Cert.KernelIdeal.TreeK.L11

namespace Cert.KernelIdeal.TreeK

open Cert.KernelIdeal Cert.KernelIdeal.Gen Idealize.ShloMosaic Idealize.ShloMosaic.TcCoe Idealize.SL.Sem

/-- Level 11: from the level below laid side by side at the region's entry, the region's two output arrays end at
    the tree's node functions. -/
theorem level11 (V : (c : Dev nD) → (b : Ref sig .tc) → Buf (Elt Ideal) ((c : Thread nD τ).loc b)) (c : Dev nD)
    (Wn hp cp : Nat → Nat → EReal) (bn : Nat → EReal)
    (hH : ∀ i : S64x512.Idx, (V c (Pipeline.arrRef spec11 0) : S64x512.Idx → EReal) i = Cert.Tree.paired hp (i 0).val (i 1).val)
    (hC : ∀ i : S64x512.Idx, (V c (Pipeline.arrRef spec11 1) : S64x512.Idx → EReal) i = Cert.Tree.paired cp (i 0).val (i 1).val)
    (hW : ∀ i : S256x1024.Idx, (V c (Pipeline.arrRef spec11 2) : S256x1024.Idx → EReal) i = Wn (i 1).val (i 0).val)
    (hB : ∀ i : S1x1024.Idx, (V c (Pipeline.arrRef spec11 3) : S1x1024.Idx → EReal) i = bn (i 1).val) :
    (∀ i : S64x256.Idx, ((dat11 V c).arrAt 4 cfg11.N : S64x256.Idx → EReal) i = Cert.Tree.nodeH Wn bn hp cp (i 0).val (i 1).val)
    ∧ (∀ i : S64x256.Idx, ((dat11 V c).arrAt 5 cfg11.N : S64x256.Idx → EReal) i = Cert.Tree.nodeC Wn bn hp cp (i 0).val (i 1).val) :=
  ⟨fun i => congrFun ((dat11 V c).arrAt_eq_of_cover 4 (L11.GH Wn hp cp bn) (fun t _ => L11.flushed4 V c Wn hp cp bn hH hC hW hB t) L11.cover4) i,
   fun i => congrFun ((dat11 V c).arrAt_eq_of_cover 5 (L11.GC Wn hp cp bn) (fun t _ => L11.flushed5 V c Wn hp cp bn hH hC hW hB t) L11.cover5) i⟩

end Cert.KernelIdeal.TreeK

end
-- ==== Proof.KPay32.lean ====
/-
  One internal node's body, read at an index: the block of 32 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T32

open Cert.KernelIdeal Cert.KernelIdeal.Gen Idealize.ShloMosaic Idealize.ShloMosaic.ValueIdx

/-! ## The matrix product's operand indices -/

theorem lhs_0 (i : S32x1024.Idx) (q : dot_S32x256_S256x1024_S32x1024_1_0_0_1_n_n.contr.Idx) :
    (dot_S32x256_S256x1024_S32x1024_1_0_0_1_n_n.lhsIdx i q 0).val = (i 0).val := by
  unfold DotDims.lhsIdx
  rw [dif_neg (show ¬(0 : Fin S32x256.rank) ∈ dot_S32x256_S256x1024_S32x1024_1_0_0_1_n_n.lhsBatch by decide),
    dif_pos (show (0 : Fin S32x256.rank) ∈ dot_S32x256_S256x1024_S32x1024_1_0_0_1_n_n.lhsNonContracting by decide)]
  rfl

theorem lhs_1 (i : S32x1024.Idx) (q : dot_S32x256_S256x1024_S32x1024_1_0_0_1_n_n.contr.Idx) :
    (dot_S32x256_S256x1024_S32x1024_1_0_0_1_n_n.lhsIdx i q 1).val = (q ⟨0, by decide⟩).val :=
  dot_S32x256_S256x1024_S32x1024_1_0_0_1_n_n.lhsIdx_val_of_single rfl i q

theorem rhs_0 (i : S32x1024.Idx) (q : dot_S32x256_S256x1024_S32x1024_1_0_0_1_n_n.contr.Idx) :
    (dot_S32x256_S256x1024_S32x1024_1_0_0_1_n_n.rhsIdx i q 0).val = (q ⟨0, by decide⟩).val :=
  dot_S32x256_S256x1024_S32x1024_1_0_0_1_n_n.rhsIdx_val_of_single rfl i q

theorem rhs_1 (i : S32x1024.Idx) (q : dot_S32x256_S256x1024_S32x1024_1_0_0_1_n_n.contr.Idx) :
    (dot_S32x256_S256x1024_S32x1024_1_0_0_1_n_n.rhsIdx i q 1).val = (i 1).val := by
  unfold DotDims.rhsIdx
  rw [dif_neg (show ¬(1 : Fin S256x1024.rank) ∈ dot_S32x256_S256x1024_S32x1024_1_0_0_1_n_n.rhsBatch by decide),
    dif_pos (show (1 : Fin S256x1024.rank) ∈ dot_S32x256_S256x1024_S32x1024_1_0_0_1_n_n.rhsNonContracting by decide)]
  rfl

/-! ## The block of nodes as functions of row and column numbers -/

/-- The summed children's row of node `r` of the block, from the side-by-side rows. -/
def halves (x : Vec Ideal S32x512 .f32) (r : Fin 32) (k : Nat) : EReal :=
  Cert.Tree.natArr2 (a := 32) (b := 512) x r.val k + Cert.Tree.natArr2 (a := 32) (b := 512) x r.val (256 + k)

/-- The gate pre-activation of node `r` of the block at gate row `q`. -/
def gate (x : Vec Ideal S32x512 .f32) (w : Vec Ideal S256x1024 .bf16) (b : Vec Ideal S1x1024 .f32) (r : Fin 32) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S32x512 .f32) (o : Nat) (ho : o + 256 ≤ 512)
    (h : S32x512.Slices ![0, o] S32x256) (r : Fin 32) (k : Fin 256) :
    extractStridedSlice S32x256 ![0, o] (shapeCast S32x512 x shapeCasts_S32x512_S32x512) h (ix2 r k)
      = Cert.Tree.natArr2 (a := 32) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 32) (b := 512) x r ⟨o + k.val, hk⟩).symm

/-- The gate pre-activations the body computes. -/
theorem pay1_apply (x : Vec Ideal S32x512 .f32) (w : Vec Ideal S256x1024 .bf16) (b : Vec Ideal S1x1024 .f32) (r : Fin 32) (q : Fin 1024) :
    k12_pay1 x w b (ix2 r q) = gate x w b r q.val := by
  unfold k12_pay1 gate
  show (matmul dot_S32x256_S256x1024_S32x1024_1_0_0_1_n_n none _ _ (constant S32x1024 .f32 0x00000000#32)) (ix2 r q) + _ = _
  refine congrArg₂ (· + ·) ?_ ?_
  · refine (Ideal.matmul_constant_zero_apply dot_S32x256_S256x1024_S32x1024_1_0_0_1_n_n none _ _ (ix2 r q)).trans ?_
    rw [← Equiv.sum_comp (contrEquiv1 dot_S32x256_S256x1024_S32x1024_1_0_0_1_n_n 256 rfl rfl).symm]
    refine Finset.sum_congr rfl fun k _ => ?_
    have hk := contrEquiv1_symm_val dot_S32x256_S256x1024_S32x1024_1_0_0_1_n_n 256 rfl rfl k
    have el : dot_S32x256_S256x1024_S32x1024_1_0_0_1_n_n.lhsIdx (ix2 r q) ((contrEquiv1 dot_S32x256_S256x1024_S32x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S32x256_S256x1024_S32x1024_1_0_0_1_n_n.rhsIdx (ix2 r q) ((contrEquiv1 dot_S32x256_S256x1024_S32x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S32x256 ![0, 0] (shapeCast S32x512 x shapeCasts_S32x512_S32x512) slices_S32x512_o0_0_S32x256 (ix2 r k)
          + extractStridedSlice S32x256 ![0, 256] (shapeCast S32x512 x shapeCasts_S32x512_S32x512) slices_S32x512_o0_256_S32x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S32x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S32x1024 .f32) (o : Nat) (ho : o + 256 ≤ 1024)
    (h : S32x1024.Slices ![0, o] S32x256) (r : Fin 32) (j : Fin 256) :
    extractStridedSlice S32x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S32x512 .f32) (w : Vec Ideal S256x1024 .bf16) (b : Vec Ideal S1x1024 .f32) (r : Fin 32) (j : Fin 256) :
    k12_pay2 x0 x1 w b (ix2 r j)
      = Ideal.logistic (gate x0 w b r j.val) * halves x1 r j.val
        + Ideal.logistic (gate x0 w b r (256 + j.val)) * Ideal.tanh (gate x0 w b r (512 + j.val)) := by
  unfold k12_pay2
  show Ideal.logistic (extractStridedSlice S32x256 ![0, 0] (k12_pay1 x0 w b) slices_S32x1024_o0_0_S32x256 (ix2 r j))
        * (extractStridedSlice S32x256 ![0, 0] (shapeCast S32x512 x1 shapeCasts_S32x512_S32x512) slices_S32x512_o0_0_S32x256 (ix2 r j)
            + extractStridedSlice S32x256 ![0, 256] (shapeCast S32x512 x1 shapeCasts_S32x512_S32x512) slices_S32x512_o0_256_S32x256 (ix2 r j))
      + Ideal.logistic (extractStridedSlice S32x256 ![0, 256] (k12_pay1 x0 w b) slices_S32x1024_o0_256_S32x256 (ix2 r j))
        * Ideal.tanh (extractStridedSlice S32x256 ![0, 512] (k12_pay1 x0 w b) slices_S32x1024_o0_512_S32x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S32x512 .f32) (w : Vec Ideal S256x1024 .bf16) (b : Vec Ideal S1x1024 .f32) (r : Fin 32) (j : Fin 256) :
    k12_pay3 x0 x1 w b (ix2 r j)
      = Ideal.logistic (gate x0 w b r (768 + j.val)) * Ideal.tanh (k12_pay2 x0 x1 w b (ix2 r j)) := by
  unfold k12_pay3
  show Ideal.logistic (extractStridedSlice S32x256 ![0, 768] (k12_pay1 x0 w b) slices_S32x1024_o0_768_S32x256 (ix2 r j))
        * Ideal.tanh (k12_pay2 x0 x1 w b (ix2 r j)) = _
  rw [gslice_apply _ 768 (by omega), pay1_apply]

/-! ## The block against the tree -/

section Against

variable (x0 x1 : Vec Ideal S32x512 .f32) (w : Vec Ideal S256x1024 .bf16) (b : Vec Ideal S1x1024 .f32)
  (Wn hp cp : Nat → Nat → EReal) (bn : Nat → EReal) (R : Nat) (r : Fin 32)
  (h0 : ∀ k : Nat, k < 512 → Cert.Tree.natArr2 (a := 32) (b := 512) x0 r.val k = Cert.Tree.paired hp R k)
  (h1 : ∀ k : Nat, k < 512 → Cert.Tree.natArr2 (a := 32) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k12_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k12_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T32

end
-- ==== Proof.KLevel12.lean ====
/-
  Level 12 of the tree, 32 nodes: what the pipelined region leaves in its two output arrays.

  The region's grid has 1 point; point t handles nodes 32·t … 32·t + 31: it reads rows 32·t … of the two
  side-by-side arrays (children's hidden rows, children's cell rows), the whole transposed weight block and
  the bias row, and writes rows 32·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay32
import Idealize.ShloMosaic.Lib.Pipeline.Value

set_option maxRecDepth 16384

noncomputable section

namespace Cert.KernelIdeal.TreeK.L12

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k12_pay2 Ideal _ = @k12_pay2 Ideal _ := rfl
theorem pay3_same : @k12_pay3 Ideal _ = @k12_pay3 Ideal _ := rfl

/-- The block each window holds at grid point t: the row windows move with t, the weight and bias windows stay. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0 :=
  (by decide +kernel : ∀ t : Fin grid12.N, _)

theorem t_lt (t : Fin cfg12.N) : t.val < 1 := by
  exact lt_of_lt_of_eq t.isLt (show cfg12.N = 1 from N_12)

section Blocks

variable (c : Dev nD) (t : Fin cfg12.N)

/-- Row r of point t's block of the children's hidden rows is row 32·t + r of the array. -/
theorem blk0_apply (r : Fin 32) (k : Fin 512) (i : S32x512.Idx) (hi0 : (i 0).val = t.val * 32 + r.val) (hi1 : (i 1).val = k.val) :
    (iblk12 V c 0 t : Vec Ideal S32x512 .f32) (ix2 r k) = (V c (Pipeline.arrRef spec12 0) : S32x512.Idx → EReal) i := by
  obtain ⟨e0, e1, -⟩ := idx_facts t
  unfold iblk12
  rw [View.read_apply]
  refine congrArg (V c (Pipeline.arrRef spec12 0) : S32x512.Idx → EReal) (funext fun a => Fin.ext ?_)
  match a with
  | ⟨0, _⟩ => show win12_0.index t (0 : Fin 2) * 32 + 1 * r.val = (i 0).val; rw [e0, hi0]; omega
  | ⟨1, _⟩ => show win12_0.index t (1 : Fin 2) * 512 + 1 * k.val = (i 1).val; rw [e1, hi1]; omega

/-- Row r of point t's block of the children's cell rows is row 32·t + r of the array. -/
theorem blk1_apply (r : Fin 32) (k : Fin 512) (i : S32x512.Idx) (hi0 : (i 0).val = t.val * 32 + r.val) (hi1 : (i 1).val = k.val) :
    (iblk12 V c 1 t : Vec Ideal S32x512 .f32) (ix2 r k) = (V c (Pipeline.arrRef spec12 1) : S32x512.Idx → EReal) i := by
  obtain ⟨-, -, e0, e1, -⟩ := idx_facts t
  unfold iblk12
  rw [View.read_apply]
  refine congrArg (V c (Pipeline.arrRef spec12 1) : S32x512.Idx → EReal) (funext fun a => Fin.ext ?_)
  match a with
  | ⟨0, _⟩ => show win12_1.index t (0 : Fin 2) * 32 + 1 * r.val = (i 0).val; rw [e0, hi0]; omega
  | ⟨1, _⟩ => show win12_1.index t (1 : Fin 2) * 512 + 1 * k.val = (i 1).val; rw [e1, hi1]; omega

/-- The weight window's block is the whole transposed weight array. -/
theorem blk2_apply (k : Fin 256) (q : Fin 1024) :
    (iblk12 V c 2 t : Vec Ideal S256x1024 .bf16) (ix2 k q) = (V c (Pipeline.arrRef spec12 2) : S256x1024.Idx → EReal) (ix2 k q) := by
  obtain ⟨-, -, -, -, e0, e1, -⟩ := idx_facts t
  unfold iblk12
  rw [View.read_apply]
  refine congrArg (V c (Pipeline.arrRef spec12 2) : S256x1024.Idx → EReal) (funext fun a => Fin.ext ?_)
  match a with
  | ⟨0, _⟩ => show win12_2.index t (0 : Fin 2) * 256 + 1 * k.val = k.val; rw [e0]; omega
  | ⟨1, _⟩ => show win12_2.index t (1 : Fin 2) * 1024 + 1 * q.val = q.val; rw [e1]; omega

/-- The bias window's block is the whole bias row. -/
theorem blk3_apply (z : Fin 1) (q : Fin 1024) :
    (iblk12 V c 3 t : Vec Ideal S1x1024 .f32) (ix2 z q) = (V c (Pipeline.arrRef spec12 3) : S1x1024.Idx → EReal) (ix2 z q) := by
  obtain ⟨-, -, -, -, -, -, e0, e1, -⟩ := idx_facts t
  unfold iblk12
  rw [View.read_apply]
  refine congrArg (V c (Pipeline.arrRef spec12 3) : S1x1024.Idx → EReal) (funext fun a => Fin.ext ?_)
  match a with
  | ⟨0, _⟩ => show win12_3.index t (0 : Fin 2) * 1 + 1 * z.val = z.val; rw [e0]; omega
  | ⟨1, _⟩ => show win12_3.index t (1 : Fin 2) * 1024 + 1 * q.val = q.val; rw [e1]; omega

end Blocks

section Level

variable (c : Dev nD) (Wn hp cp : Nat → Nat → EReal) (bn : Nat → EReal)
  (hH : ∀ i : S32x512.Idx, (V c (Pipeline.arrRef spec12 0) : S32x512.Idx → EReal) i = Cert.Tree.paired hp (i 0).val (i 1).val)
  (hC : ∀ i : S32x512.Idx, (V c (Pipeline.arrRef spec12 1) : S32x512.Idx → EReal) i = Cert.Tree.paired cp (i 0).val (i 1).val)
  (hW : ∀ i : S256x1024.Idx, (V c (Pipeline.arrRef spec12 2) : S256x1024.Idx → EReal) i = Wn (i 1).val (i 0).val)
  (hB : ∀ i : S1x1024.Idx, (V c (Pipeline.arrRef spec12 3) : S1x1024.Idx → EReal) i = bn (i 1).val)

/-- The hidden array of this level as the tree gives it. -/
def GH : S32x256.Idx → EReal := fun i => Cert.Tree.nodeH Wn bn hp cp (i 0).val (i 1).val
/-- The cell array of this level as the tree gives it. -/
def GC : S32x256.Idx → EReal := fun i => Cert.Tree.nodeC Wn bn hp cp (i 0).val (i 1).val

include hH in
theorem in0 (t : Fin cfg12.N) (r : Fin 32) (k : Nat) (hk : k < 512) :
    Cert.Tree.natArr2 (a := 32) (b := 512) (iblk12 V c 0 t : Vec Ideal S32x512 .f32) r.val k = Cert.Tree.paired hp (t.val * 32 + r.val) k := by
  have ht := t_lt t
  have hr := r.isLt
  refine (Cert.Tree.natArr2_ix2 (a := 32) (b := 512) _ r ⟨k, hk⟩).trans ?_
  rw [blk0_apply V c t r ⟨k, hk⟩ (ix2 ⟨t.val * 32 + r.val, by omega⟩ ⟨k, hk⟩) rfl rfl]
  exact hH _

include hC in
theorem in1 (t : Fin cfg12.N) (r : Fin 32) (k : Nat) (hk : k < 512) :
    Cert.Tree.natArr2 (a := 32) (b := 512) (iblk12 V c 1 t : Vec Ideal S32x512 .f32) r.val k = Cert.Tree.paired cp (t.val * 32 + r.val) k := by
  have ht := t_lt t
  have hr := r.isLt
  refine (Cert.Tree.natArr2_ix2 (a := 32) (b := 512) _ r ⟨k, hk⟩).trans ?_
  rw [blk1_apply V c t r ⟨k, hk⟩ (ix2 ⟨t.val * 32 + r.val, by omega⟩ ⟨k, hk⟩) rfl rfl]
  exact hC _

include hW in
theorem in2 (t : Fin cfg12.N) (k : Nat) (hk : k < 256) (q : Nat) (hq : q < 1024) :
    Cert.Tree.natArr2 (a := 256) (b := 1024) (iblk12 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg12.N) (q : Nat) (hq : q < 1024) :
    Cert.Tree.natArr2 (a := 1) (b := 1024) (iblk12 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg12.N) :
    (dat12 V c).flushed 4 t = ((cfg12.win 4).blk t).view.read (Elt Ideal) (GH Wn hp cp bn) := by
  obtain ⟨-, -, -, -, -, -, -, -, e0, e1, -⟩ := idx_facts t
  have ht := t_lt t
  show (cfg12.win 4).cut (grid12.coords t) ((dat12 V c).after 4 t) = _
  rw [after12_4]
  unfold out12_4
  rw [View.canon_unit_zero hz]
  simp only [View.ld_unit_zero (S := S32x512) hz, View.ld_unit_zero (S := S256x1024) hz, View.ld_unit_zero (S := S1x1024) hz]
  rw [pay3_same]
  funext j
  obtain ⟨r, q, rfl⟩ : ∃ (r : Fin 32) (q : Fin 256), j = ix2 r q := ⟨j 0, j 1, eq_ix2 j⟩
  refine (T32.hidden_eq _ _ _ _ Wn hp cp bn (t.val * 32 + r.val) r (in0 V c hp hH t r) (in1 V c cp hC t r) (in2 V c Wn hW t) (in3 V c bn hB t) q).trans ?_
  show _ = GH Wn hp cp bn (((cfg12.win 4).blk t).view.emb (ix2 r q))
  unfold GH
  have a0 : ((((cfg12.win 4).blk t).view.emb (ix2 r q)) 0).val = t.val * 32 + r.val := by
    show win12_4.index t (0 : Fin 2) * 32 + 1 * r.val = _; rw [e0]; omega
  have a1 : ((((cfg12.win 4).blk t).view.emb (ix2 r q)) 1).val = q.val := by
    show win12_4.index t (1 : Fin 2) * 256 + 1 * q.val = _; rw [e1]; omega
  rw [a0, a1]

include hH hC hW hB in
/-- What point t writes back to the cell array is block t of the tree's level. -/
theorem flushed5 (t : Fin cfg12.N) :
    (dat12 V c).flushed 5 t = ((cfg12.win 5).blk t).view.read (Elt Ideal) (GC Wn hp cp bn) := by
  obtain ⟨-, -, -, -, -, -, -, -, -, -, e0, e1⟩ := idx_facts t
  have ht := t_lt t
  show (cfg12.win 5).cut (grid12.coords t) ((dat12 V c).after 5 t) = _
  rw [after12_5]
  unfold out12_5
  rw [View.canon_unit_zero hz]
  simp only [View.ld_unit_zero (S := S32x512) hz, View.ld_unit_zero (S := S256x1024) hz, View.ld_unit_zero (S := S1x1024) hz]
  rw [pay2_same]
  funext j
  obtain ⟨r, q, rfl⟩ : ∃ (r : Fin 32) (q : Fin 256), j = ix2 r q := ⟨j 0, j 1, eq_ix2 j⟩
  refine (T32.cell_eq _ _ _ _ Wn hp cp bn (t.val * 32 + r.val) r (in0 V c hp hH t r) (in1 V c cp hC t r) (in2 V c Wn hW t) (in3 V c bn hB t) q).trans ?_
  show _ = GC Wn hp cp bn (((cfg12.win 5).blk t).view.emb (ix2 r q))
  unfold GC
  have a0 : ((((cfg12.win 5).blk t).view.emb (ix2 r q)) 0).val = t.val * 32 + r.val := by
    show win12_5.index t (0 : Fin 2) * 32 + 1 * r.val = _; rw [e0]; omega
  have a1 : ((((cfg12.win 5).blk t).view.emb (ix2 r q)) 1).val = q.val := by
    show win12_5.index t (1 : Fin 2) * 256 + 1 * q.val = _; rw [e1]; omega
  rw [a0, a1]

/-- Every node's row is in the block of the point that handles it. -/
theorem cover4 (i : S32x256.Idx) : ∃ t : Fin cfg12.N, (cfg12.win 4).flush t = true ∧ i ∈ ((cfg12.win 4).blk t).view.set := by
  have hi0 : (i 0).val < 32 := (i 0).isLt
  have hi1 : (i 1).val < 256 := (i 1).isLt
  have hN : cfg12.N = 1 := N_12
  let t : Fin cfg12.N := ⟨(i 0).val / 32, by rw [hN]; omega⟩
  obtain ⟨-, -, -, -, -, -, -, -, e0, e1, -⟩ := idx_facts t
  refine ⟨t, flush12_4 t, ?_⟩
  show i ∈ ((View.whole main_v46_0).slice (win12_4.rect t)).set
  rw [View.set_slice_whole, Rect.mem_set_unit]
  intro a
  match a with
  | ⟨0, _⟩ => show win12_4.index t (0 : Fin 2) * 32 ≤ (i 0).val ∧ (i 0).val < win12_4.index t (0 : Fin 2) * 32 + 32; rw [e0]; show (i 0).val / 32 * 32 ≤ (i 0).val ∧ (i 0).val < (i 0).val / 32 * 32 + 32; omega
  | ⟨1, _⟩ => show win12_4.index t (1 : Fin 2) * 256 ≤ (i 1).val ∧ (i 1).val < win12_4.index t (1 : Fin 2) * 256 + 256; rw [e1]; omega

theorem cover5 (i : S32x256.Idx) : ∃ t : Fin cfg12.N, (cfg12.win 5).flush t = true ∧ i ∈ ((cfg12.win 5).blk t).view.set := by
  have hi0 : (i 0).val < 32 := (i 0).isLt
  have hi1 : (i 1).val < 256 := (i 1).isLt
  have hN : cfg12.N = 1 := N_12
  let t : Fin cfg12.N := ⟨(i 0).val / 32, by rw [hN]; omega⟩
  obtain ⟨-, -, -, -, -, -, -, -, -, -, e0, e1⟩ := idx_facts t
  refine ⟨t, flush12_5 t, ?_⟩
  show i ∈ ((View.whole main_v46_1).slice (win12_5.rect t)).set
  rw [View.set_slice_whole, Rect.mem_set_unit]
  intro a
  match a with
  | ⟨0, _⟩ => show win12_5.index t (0 : Fin 2) * 32 ≤ (i 0).val ∧ (i 0).val < win12_5.index t (0 : Fin 2) * 32 + 32; rw [e0]; show (i 0).val / 32 * 32 ≤ (i 0).val ∧ (i 0).val < (i 0).val / 32 * 32 + 32; omega
  | ⟨1, _⟩ => show win12_5.index t (1 : Fin 2) * 256 ≤ (i 1).val ∧ (i 1).val < win12_5.index t (1 : Fin 2) * 256 + 256; rw [e1]; omega

end Level

end Cert.KernelIdeal.TreeK.L12

namespace Cert.KernelIdeal.TreeK

open Cert.KernelIdeal Cert.KernelIdeal.Gen Idealize.ShloMosaic Idealize.ShloMosaic.TcCoe Idealize.SL.Sem

/-- Level 12: from the level below laid side by side at the region's entry, the region's two output arrays end at
    the tree's node functions. -/
theorem level12 (V : (c : Dev nD) → (b : Ref sig .tc) → Buf (Elt Ideal) ((c : Thread nD τ).loc b)) (c : Dev nD)
    (Wn hp cp : Nat → Nat → EReal) (bn : Nat → EReal)
    (hH : ∀ i : S32x512.Idx, (V c (Pipeline.arrRef spec12 0) : S32x512.Idx → EReal) i = Cert.Tree.paired hp (i 0).val (i 1).val)
    (hC : ∀ i : S32x512.Idx, (V c (Pipeline.arrRef spec12 1) : S32x512.Idx → EReal) i = Cert.Tree.paired cp (i 0).val (i 1).val)
    (hW : ∀ i : S256x1024.Idx, (V c (Pipeline.arrRef spec12 2) : S256x1024.Idx → EReal) i = Wn (i 1).val (i 0).val)
    (hB : ∀ i : S1x1024.Idx, (V c (Pipeline.arrRef spec12 3) : S1x1024.Idx → EReal) i = bn (i 1).val) :
    (∀ i : S32x256.Idx, ((dat12 V c).arrAt 4 cfg12.N : S32x256.Idx → EReal) i = Cert.Tree.nodeH Wn bn hp cp (i 0).val (i 1).val)
    ∧ (∀ i : S32x256.Idx, ((dat12 V c).arrAt 5 cfg12.N : S32x256.Idx → EReal) i = Cert.Tree.nodeC Wn bn hp cp (i 0).val (i 1).val) :=
  ⟨fun i => congrFun ((dat12 V c).arrAt_eq_of_cover 4 (L12.GH Wn hp cp bn) (fun t _ => L12.flushed4 V c Wn hp cp bn hH hC hW hB t) L12.cover4) i,
   fun i => congrFun ((dat12 V c).arrAt_eq_of_cover 5 (L12.GC Wn hp cp bn) (fun t _ => L12.flushed5 V c Wn hp cp bn hH hC hW hB t) L12.cover5) i⟩

end Cert.KernelIdeal.TreeK

end
-- ==== Proof.KPay16.lean ====
/-
  One internal node's body, read at an index: the block of 16 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T16

open Cert.KernelIdeal Cert.KernelIdeal.Gen Idealize.ShloMosaic Idealize.ShloMosaic.ValueIdx

/-! ## The matrix product's operand indices -/

theorem lhs_0 (i : S16x1024.Idx) (q : dot_S16x256_S256x1024_S16x1024_1_0_0_1_n_n.contr.Idx) :
    (dot_S16x256_S256x1024_S16x1024_1_0_0_1_n_n.lhsIdx i q 0).val = (i 0).val := by
  unfold DotDims.lhsIdx
  rw [dif_neg (show ¬(0 : Fin S16x256.rank) ∈ dot_S16x256_S256x1024_S16x1024_1_0_0_1_n_n.lhsBatch by decide),
    dif_pos (show (0 : Fin S16x256.rank) ∈ dot_S16x256_S256x1024_S16x1024_1_0_0_1_n_n.lhsNonContracting by decide)]
  rfl

theorem lhs_1 (i : S16x1024.Idx) (q : dot_S16x256_S256x1024_S16x1024_1_0_0_1_n_n.contr.Idx) :
    (dot_S16x256_S256x1024_S16x1024_1_0_0_1_n_n.lhsIdx i q 1).val = (q ⟨0, by decide⟩).val :=
  dot_S16x256_S256x1024_S16x1024_1_0_0_1_n_n.lhsIdx_val_of_single rfl i q

theorem rhs_0 (i : S16x1024.Idx) (q : dot_S16x256_S256x1024_S16x1024_1_0_0_1_n_n.contr.Idx) :
    (dot_S16x256_S256x1024_S16x1024_1_0_0_1_n_n.rhsIdx i q 0).val = (q ⟨0, by decide⟩).val :=
  dot_S16x256_S256x1024_S16x1024_1_0_0_1_n_n.rhsIdx_val_of_single rfl i q

theorem rhs_1 (i : S16x1024.Idx) (q : dot_S16x256_S256x1024_S16x1024_1_0_0_1_n_n.contr.Idx) :
    (dot_S16x256_S256x1024_S16x1024_1_0_0_1_n_n.rhsIdx i q 1).val = (i 1).val := by
  unfold DotDims.rhsIdx
  rw [dif_neg (show ¬(1 : Fin S256x1024.rank) ∈ dot_S16x256_S256x1024_S16x1024_1_0_0_1_n_n.rhsBatch by decide),
    dif_pos (show (1 : Fin S256x1024.rank) ∈ dot_S16x256_S256x1024_S16x1024_1_0_0_1_n_n.rhsNonContracting by decide)]
  rfl

/-! ## The block of nodes as functions of row and column numbers -/

/-- The summed children's row of node `r` of the block, from the side-by-side rows. -/
def halves (x : Vec Ideal S16x512 .f32) (r : Fin 16) (k : Nat) : EReal :=
  Cert.Tree.natArr2 (a := 16) (b := 512) x r.val k + Cert.Tree.natArr2 (a := 16) (b := 512) x r.val (256 + k)

/-- The gate pre-activation of node `r` of the block at gate row `q`. -/
def gate (x : Vec Ideal S16x512 .f32) (w : Vec Ideal S256x1024 .bf16) (b : Vec Ideal S1x1024 .f32) (r : Fin 16) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S16x512 .f32) (o : Nat) (ho : o + 256 ≤ 512)
    (h : S16x512.Slices ![0, o] S16x256) (r : Fin 16) (k : Fin 256) :
    extractStridedSlice S16x256 ![0, o] (shapeCast S16x512 x shapeCasts_S16x512_S16x512) h (ix2 r k)
      = Cert.Tree.natArr2 (a := 16) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 16) (b := 512) x r ⟨o + k.val, hk⟩).symm

/-- The gate pre-activations the body computes. -/
theorem pay1_apply (x : Vec Ideal S16x512 .f32) (w : Vec Ideal S256x1024 .bf16) (b : Vec Ideal S1x1024 .f32) (r : Fin 16) (q : Fin 1024) :
    k13_pay1 x w b (ix2 r q) = gate x w b r q.val := by
  unfold k13_pay1 gate
  show (matmul dot_S16x256_S256x1024_S16x1024_1_0_0_1_n_n none _ _ (constant S16x1024 .f32 0x00000000#32)) (ix2 r q) + _ = _
  refine congrArg₂ (· + ·) ?_ ?_
  · refine (Ideal.matmul_constant_zero_apply dot_S16x256_S256x1024_S16x1024_1_0_0_1_n_n none _ _ (ix2 r q)).trans ?_
    rw [← Equiv.sum_comp (contrEquiv1 dot_S16x256_S256x1024_S16x1024_1_0_0_1_n_n 256 rfl rfl).symm]
    refine Finset.sum_congr rfl fun k _ => ?_
    have hk := contrEquiv1_symm_val dot_S16x256_S256x1024_S16x1024_1_0_0_1_n_n 256 rfl rfl k
    have el : dot_S16x256_S256x1024_S16x1024_1_0_0_1_n_n.lhsIdx (ix2 r q) ((contrEquiv1 dot_S16x256_S256x1024_S16x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S16x256_S256x1024_S16x1024_1_0_0_1_n_n.rhsIdx (ix2 r q) ((contrEquiv1 dot_S16x256_S256x1024_S16x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S16x256 ![0, 0] (shapeCast S16x512 x shapeCasts_S16x512_S16x512) slices_S16x512_o0_0_S16x256 (ix2 r k)
          + extractStridedSlice S16x256 ![0, 256] (shapeCast S16x512 x shapeCasts_S16x512_S16x512) slices_S16x512_o0_256_S16x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S16x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S16x1024 .f32) (o : Nat) (ho : o + 256 ≤ 1024)
    (h : S16x1024.Slices ![0, o] S16x256) (r : Fin 16) (j : Fin 256) :
    extractStridedSlice S16x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S16x512 .f32) (w : Vec Ideal S256x1024 .bf16) (b : Vec Ideal S1x1024 .f32) (r : Fin 16) (j : Fin 256) :
    k13_pay2 x0 x1 w b (ix2 r j)
      = Ideal.logistic (gate x0 w b r j.val) * halves x1 r j.val
        + Ideal.logistic (gate x0 w b r (256 + j.val)) * Ideal.tanh (gate x0 w b r (512 + j.val)) := by
  unfold k13_pay2
  show Ideal.logistic (extractStridedSlice S16x256 ![0, 0] (k13_pay1 x0 w b) slices_S16x1024_o0_0_S16x256 (ix2 r j))
        * (extractStridedSlice S16x256 ![0, 0] (shapeCast S16x512 x1 shapeCasts_S16x512_S16x512) slices_S16x512_o0_0_S16x256 (ix2 r j)
            + extractStridedSlice S16x256 ![0, 256] (shapeCast S16x512 x1 shapeCasts_S16x512_S16x512) slices_S16x512_o0_256_S16x256 (ix2 r j))
      + Ideal.logistic (extractStridedSlice S16x256 ![0, 256] (k13_pay1 x0 w b) slices_S16x1024_o0_256_S16x256 (ix2 r j))
        * Ideal.tanh (extractStridedSlice S16x256 ![0, 512] (k13_pay1 x0 w b) slices_S16x1024_o0_512_S16x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S16x512 .f32) (w : Vec Ideal S256x1024 .bf16) (b : Vec Ideal S1x1024 .f32) (r : Fin 16) (j : Fin 256) :
    k13_pay3 x0 x1 w b (ix2 r j)
      = Ideal.logistic (gate x0 w b r (768 + j.val)) * Ideal.tanh (k13_pay2 x0 x1 w b (ix2 r j)) := by
  unfold k13_pay3
  show Ideal.logistic (extractStridedSlice S16x256 ![0, 768] (k13_pay1 x0 w b) slices_S16x1024_o0_768_S16x256 (ix2 r j))
        * Ideal.tanh (k13_pay2 x0 x1 w b (ix2 r j)) = _
  rw [gslice_apply _ 768 (by omega), pay1_apply]

/-! ## The block against the tree -/

section Against

variable (x0 x1 : Vec Ideal S16x512 .f32) (w : Vec Ideal S256x1024 .bf16) (b : Vec Ideal S1x1024 .f32)
  (Wn hp cp : Nat → Nat → EReal) (bn : Nat → EReal) (R : Nat) (r : Fin 16)
  (h0 : ∀ k : Nat, k < 512 → Cert.Tree.natArr2 (a := 16) (b := 512) x0 r.val k = Cert.Tree.paired hp R k)
  (h1 : ∀ k : Nat, k < 512 → Cert.Tree.natArr2 (a := 16) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k13_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k13_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T16

end
-- ==== Proof.KLevel13.lean ====
/-
  Level 13 of the tree, 16 nodes: what the pipelined region leaves in its two output arrays.

  The region's grid has 1 point; point t handles nodes 16·t … 16·t + 15: it reads rows 16·t … of the two
  side-by-side arrays (children's hidden rows, children's cell rows), the whole transposed weight block and
  the bias row, and writes rows 16·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay16
import Idealize.ShloMosaic.Lib.Pipeline.Value

set_option maxRecDepth 16384

noncomputable section

namespace Cert.KernelIdeal.TreeK.L13

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k13_pay2 Ideal _ = @k13_pay2 Ideal _ := rfl
theorem pay3_same : @k13_pay3 Ideal _ = @k13_pay3 Ideal _ := rfl

/-- The block each window holds at grid point t: the row windows move with t, the weight and bias windows stay. -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

theorem t_lt (t : Fin cfg13.N) : t.val < 1 := by
  exact lt_of_lt_of_eq t.isLt (show cfg13.N = 1 from N_13)

section Blocks

variable (c : Dev nD) (t : Fin cfg13.N)

/-- Row r of point t's block of the children's hidden rows is row 16·t + r of the array. -/
theorem blk0_apply (r : Fin 16) (k : Fin 512) (i : S16x512.Idx) (hi0 : (i 0).val = t.val * 16 + r.val) (hi1 : (i 1).val = k.val) :
    (iblk13 V c 0 t : Vec Ideal S16x512 .f32) (ix2 r k) = (V c (Pipeline.arrRef spec13 0) : S16x512.Idx → EReal) i := by
  obtain ⟨e0, e1, -⟩ := idx_facts t
  unfold iblk13
  rw [View.read_apply]
  refine congrArg (V c (Pipeline.arrRef spec13 0) : S16x512.Idx → EReal) (funext fun a => Fin.ext ?_)
  match a with
  | ⟨0, _⟩ => show win13_0.index t (0 : Fin 2) * 16 + 1 * r.val = (i 0).val; rw [e0, hi0]; omega
  | ⟨1, _⟩ => show win13_0.index t (1 : Fin 2) * 512 + 1 * k.val = (i 1).val; rw [e1, hi1]; omega

/-- Row r of point t's block of the children's cell rows is row 16·t + r of the array. -/
theorem blk1_apply (r : Fin 16) (k : Fin 512) (i : S16x512.Idx) (hi0 : (i 0).val = t.val * 16 + r.val) (hi1 : (i 1).val = k.val) :
    (iblk13 V c 1 t : Vec Ideal S16x512 .f32) (ix2 r k) = (V c (Pipeline.arrRef spec13 1) : S16x512.Idx → EReal) i := by
  obtain ⟨-, -, e0, e1, -⟩ := idx_facts t
  unfold iblk13
  rw [View.read_apply]
  refine congrArg (V c (Pipeline.arrRef spec13 1) : S16x512.Idx → EReal) (funext fun a => Fin.ext ?_)
  match a with
  | ⟨0, _⟩ => show win13_1.index t (0 : Fin 2) * 16 + 1 * r.val = (i 0).val; rw [e0, hi0]; omega
  | ⟨1, _⟩ => show win13_1.index t (1 : Fin 2) * 512 + 1 * k.val = (i 1).val; rw [e1, hi1]; omega

/-- The weight window's block is the whole transposed weight array. -/
theorem blk2_apply (k : Fin 256) (q : Fin 1024) :
    (iblk13 V c 2 t : Vec Ideal S256x1024 .bf16) (ix2 k q) = (V c (Pipeline.arrRef spec13 2) : S256x1024.Idx → EReal) (ix2 k q) := by
  obtain ⟨-, -, -, -, e0, e1, -⟩ := idx_facts t
  unfold iblk13
  rw [View.read_apply]
  refine congrArg (V c (Pipeline.arrRef spec13 2) : S256x1024.Idx → EReal) (funext fun a => Fin.ext ?_)
  match a with
  | ⟨0, _⟩ => show win13_2.index t (0 : Fin 2) * 256 + 1 * k.val = k.val; rw [e0]; omega
  | ⟨1, _⟩ => show win13_2.index t (1 : Fin 2) * 1024 + 1 * q.val = q.val; rw [e1]; omega

/-- The bias window's block is the whole bias row. -/
theorem blk3_apply (z : Fin 1) (q : Fin 1024) :
    (iblk13 V c 3 t : Vec Ideal S1x1024 .f32) (ix2 z q) = (V c (Pipeline.arrRef spec13 3) : S1x1024.Idx → EReal) (ix2 z q) := by
  obtain ⟨-, -, -, -, -, -, e0, e1, -⟩ := idx_facts t
  unfold iblk13
  rw [View.read_apply]
  refine congrArg (V c (Pipeline.arrRef spec13 3) : S1x1024.Idx → EReal) (funext fun a => Fin.ext ?_)
  match a with
  | ⟨0, _⟩ => show win13_3.index t (0 : Fin 2) * 1 + 1 * z.val = z.val; rw [e0]; omega
  | ⟨1, _⟩ => show win13_3.index t (1 : Fin 2) * 1024 + 1 * q.val = q.val; rw [e1]; omega

end Blocks

section Level

variable (c : Dev nD) (Wn hp cp : Nat → Nat → EReal) (bn : Nat → EReal)
  (hH : ∀ i : S16x512.Idx, (V c (Pipeline.arrRef spec13 0) : S16x512.Idx → EReal) i = Cert.Tree.paired hp (i 0).val (i 1).val)
  (hC : ∀ i : S16x512.Idx, (V c (Pipeline.arrRef spec13 1) : S16x512.Idx → EReal) i = Cert.Tree.paired cp (i 0).val (i 1).val)
  (hW : ∀ i : S256x1024.Idx, (V c (Pipeline.arrRef spec13 2) : S256x1024.Idx → EReal) i = Wn (i 1).val (i 0).val)
  (hB : ∀ i : S1x1024.Idx, (V c (Pipeline.arrRef spec13 3) : S1x1024.Idx → EReal) i = bn (i 1).val)

/-- The hidden array of this level as the tree gives it. -/
def GH : S16x256.Idx → EReal := fun i => Cert.Tree.nodeH Wn bn hp cp (i 0).val (i 1).val
/-- The cell array of this level as the tree gives it. -/
def GC : S16x256.Idx → EReal := fun i => Cert.Tree.nodeC Wn bn hp cp (i 0).val (i 1).val

include hH in
theorem in0 (t : Fin cfg13.N) (r : Fin 16) (k : Nat) (hk : k < 512) :
    Cert.Tree.natArr2 (a := 16) (b := 512) (iblk13 V c 0 t : Vec Ideal S16x512 .f32) r.val k = Cert.Tree.paired hp (t.val * 16 + r.val) k := by
  have ht := t_lt t
  have hr := r.isLt
  refine (Cert.Tree.natArr2_ix2 (a := 16) (b := 512) _ r ⟨k, hk⟩).trans ?_
  rw [blk0_apply V c t r ⟨k, hk⟩ (ix2 ⟨t.val * 16 + r.val, by omega⟩ ⟨k, hk⟩) rfl rfl]
  exact hH _

include hC in
theorem in1 (t : Fin cfg13.N) (r : Fin 16) (k : Nat) (hk : k < 512) :
    Cert.Tree.natArr2 (a := 16) (b := 512) (iblk13 V c 1 t : Vec Ideal S16x512 .f32) r.val k = Cert.Tree.paired cp (t.val * 16 + r.val) k := by
  have ht := t_lt t
  have hr := r.isLt
  refine (Cert.Tree.natArr2_ix2 (a := 16) (b := 512) _ r ⟨k, hk⟩).trans ?_
  rw [blk1_apply V c t r ⟨k, hk⟩ (ix2 ⟨t.val * 16 + r.val, by omega⟩ ⟨k, hk⟩) rfl rfl]
  exact hC _

include hW in
theorem in2 (t : Fin cfg13.N) (k : Nat) (hk : k < 256) (q : Nat) (hq : q < 1024) :
    Cert.Tree.natArr2 (a := 256) (b := 1024) (iblk13 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg13.N) (q : Nat) (hq : q < 1024) :
    Cert.Tree.natArr2 (a := 1) (b := 1024) (iblk13 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg13.N) :
    (dat13 V c).flushed 4 t = ((cfg13.win 4).blk t).view.read (Elt Ideal) (GH Wn hp cp bn) := by
  obtain ⟨-, -, -, -, -, -, -, -, e0, e1, -⟩ := idx_facts t
  have ht := t_lt t
  show (cfg13.win 4).cut (grid13.coords t) ((dat13 V c).after 4 t) = _
  rw [after13_4]
  unfold out13_4
  rw [View.canon_unit_zero hz]
  simp only [View.ld_unit_zero (S := S16x512) hz, View.ld_unit_zero (S := S256x1024) hz, View.ld_unit_zero (S := S1x1024) hz]
  rw [pay3_same]
  funext j
  obtain ⟨r, q, rfl⟩ : ∃ (r : Fin 16) (q : Fin 256), j = ix2 r q := ⟨j 0, j 1, eq_ix2 j⟩
  refine (T16.hidden_eq _ _ _ _ Wn hp cp bn (t.val * 16 + r.val) r (in0 V c hp hH t r) (in1 V c cp hC t r) (in2 V c Wn hW t) (in3 V c bn hB t) q).trans ?_
  show _ = GH Wn hp cp bn (((cfg13.win 4).blk t).view.emb (ix2 r q))
  unfold GH
  have a0 : ((((cfg13.win 4).blk t).view.emb (ix2 r q)) 0).val = t.val * 16 + r.val := by
    show win13_4.index t (0 : Fin 2) * 16 + 1 * r.val = _; rw [e0]; omega
  have a1 : ((((cfg13.win 4).blk t).view.emb (ix2 r q)) 1).val = q.val := by
    show win13_4.index t (1 : Fin 2) * 256 + 1 * q.val = _; rw [e1]; omega
  rw [a0, a1]

include hH hC hW hB in
/-- What point t writes back to the cell array is block t of the tree's level. -/
theorem flushed5 (t : Fin cfg13.N) :
    (dat13 V c).flushed 5 t = ((cfg13.win 5).blk t).view.read (Elt Ideal) (GC Wn hp cp bn) := by
  obtain ⟨-, -, -, -, -, -, -, -, -, -, e0, e1⟩ := idx_facts t
  have ht := t_lt t
  show (cfg13.win 5).cut (grid13.coords t) ((dat13 V c).after 5 t) = _
  rw [after13_5]
  unfold out13_5
  rw [View.canon_unit_zero hz]
  simp only [View.ld_unit_zero (S := S16x512) hz, View.ld_unit_zero (S := S256x1024) hz, View.ld_unit_zero (S := S1x1024) hz]
  rw [pay2_same]
  funext j
  obtain ⟨r, q, rfl⟩ : ∃ (r : Fin 16) (q : Fin 256), j = ix2 r q := ⟨j 0, j 1, eq_ix2 j⟩
  refine (T16.cell_eq _ _ _ _ Wn hp cp bn (t.val * 16 + r.val) r (in0 V c hp hH t r) (in1 V c cp hC t r) (in2 V c Wn hW t) (in3 V c bn hB t) q).trans ?_
  show _ = GC Wn hp cp bn (((cfg13.win 5).blk t).view.emb (ix2 r q))
  unfold GC
  have a0 : ((((cfg13.win 5).blk t).view.emb (ix2 r q)) 0).val = t.val * 16 + r.val := by
    show win13_5.index t (0 : Fin 2) * 16 + 1 * r.val = _; rw [e0]; omega
  have a1 : ((((cfg13.win 5).blk t).view.emb (ix2 r q)) 1).val = q.val := by
    show win13_5.index t (1 : Fin 2) * 256 + 1 * q.val = _; rw [e1]; omega
  rw [a0, a1]

/-- Every node's row is in the block of the point that handles it. -/
theorem cover4 (i : S16x256.Idx) : ∃ t : Fin cfg13.N, (cfg13.win 4).flush t = true ∧ i ∈ ((cfg13.win 4).blk t).view.set := by
  have hi0 : (i 0).val < 16 := (i 0).isLt
  have hi1 : (i 1).val < 256 := (i 1).isLt
  have hN : cfg13.N = 1 := N_13
  let t : Fin cfg13.N := ⟨(i 0).val / 16, by rw [hN]; omega⟩
  obtain ⟨-, -, -, -, -, -, -, -, e0, e1, -⟩ := idx_facts t
  refine ⟨t, flush13_4 t, ?_⟩
  show i ∈ ((View.whole main_v49_0).slice (win13_4.rect t)).set
  rw [View.set_slice_whole, Rect.mem_set_unit]
  intro a
  match a with
  | ⟨0, _⟩ => show win13_4.index t (0 : Fin 2) * 16 ≤ (i 0).val ∧ (i 0).val < win13_4.index t (0 : Fin 2) * 16 + 16; rw [e0]; show (i 0).val / 16 * 16 ≤ (i 0).val ∧ (i 0).val < (i 0).val / 16 * 16 + 16; omega
  | ⟨1, _⟩ => show win13_4.index t (1 : Fin 2) * 256 ≤ (i 1).val ∧ (i 1).val < win13_4.index t (1 : Fin 2) * 256 + 256; rw [e1]; omega

theorem cover5 (i : S16x256.Idx) : ∃ t : Fin cfg13.N, (cfg13.win 5).flush t = true ∧ i ∈ ((cfg13.win 5).blk t).view.set := by
  have hi0 : (i 0).val < 16 := (i 0).isLt
  have hi1 : (i 1).val < 256 := (i 1).isLt
  have hN : cfg13.N = 1 := N_13
  let t : Fin cfg13.N := ⟨(i 0).val / 16, by rw [hN]; omega⟩
  obtain ⟨-, -, -, -, -, -, -, -, -, -, e0, e1⟩ := idx_facts t
  refine ⟨t, flush13_5 t, ?_⟩
  show i ∈ ((View.whole main_v49_1).slice (win13_5.rect t)).set
  rw [View.set_slice_whole, Rect.mem_set_unit]
  intro a
  match a with
  | ⟨0, _⟩ => show win13_5.index t (0 : Fin 2) * 16 ≤ (i 0).val ∧ (i 0).val < win13_5.index t (0 : Fin 2) * 16 + 16; rw [e0]; show (i 0).val / 16 * 16 ≤ (i 0).val ∧ (i 0).val < (i 0).val / 16 * 16 + 16; omega
  | ⟨1, _⟩ => show win13_5.index t (1 : Fin 2) * 256 ≤ (i 1).val ∧ (i 1).val < win13_5.index t (1 : Fin 2) * 256 + 256; rw [e1]; omega

end Level

end Cert.KernelIdeal.TreeK.L13

namespace Cert.KernelIdeal.TreeK

open Cert.KernelIdeal Cert.KernelIdeal.Gen Idealize.ShloMosaic Idealize.ShloMosaic.TcCoe Idealize.SL.Sem

/-- Level 13: from the level below laid side by side at the region's entry, the region's two output arrays end at
    the tree's node functions. -/
theorem level13 (V : (c : Dev nD) → (b : Ref sig .tc) → Buf (Elt Ideal) ((c : Thread nD τ).loc b)) (c : Dev nD)
    (Wn hp cp : Nat → Nat → EReal) (bn : Nat → EReal)
    (hH : ∀ i : S16x512.Idx, (V c (Pipeline.arrRef spec13 0) : S16x512.Idx → EReal) i = Cert.Tree.paired hp (i 0).val (i 1).val)
    (hC : ∀ i : S16x512.Idx, (V c (Pipeline.arrRef spec13 1) : S16x512.Idx → EReal) i = Cert.Tree.paired cp (i 0).val (i 1).val)
    (hW : ∀ i : S256x1024.Idx, (V c (Pipeline.arrRef spec13 2) : S256x1024.Idx → EReal) i = Wn (i 1).val (i 0).val)
    (hB : ∀ i : S1x1024.Idx, (V c (Pipeline.arrRef spec13 3) : S1x1024.Idx → EReal) i = bn (i 1).val) :
    (∀ i : S16x256.Idx, ((dat13 V c).arrAt 4 cfg13.N : S16x256.Idx → EReal) i = Cert.Tree.nodeH Wn bn hp cp (i 0).val (i 1).val)
    ∧ (∀ i : S16x256.Idx, ((dat13 V c).arrAt 5 cfg13.N : S16x256.Idx → EReal) i = Cert.Tree.nodeC Wn bn hp cp (i 0).val (i 1).val) :=
  ⟨fun i => congrFun ((dat13 V c).arrAt_eq_of_cover 4 (L13.GH Wn hp cp bn) (fun t _ => L13.flushed4 V c Wn hp cp bn hH hC hW hB t) L13.cover4) i,
   fun i => congrFun ((dat13 V c).arrAt_eq_of_cover 5 (L13.GC Wn hp cp bn) (fun t _ => L13.flushed5 V c Wn hp cp bn hH hC hW hB t) L13.cover5) i⟩

end Cert.KernelIdeal.TreeK

end
-- ==== Proof.KPay8.lean ====
/-
  One internal node's body, read at an index: the block of 8 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T8

open Cert.KernelIdeal Cert.KernelIdeal.Gen Idealize.ShloMosaic Idealize.ShloMosaic.ValueIdx

/-! ## The matrix product's operand indices -/

theorem lhs_0 (i : S8x1024.Idx) (q : dot_S8x256_S256x1024_S8x1024_1_0_0_1_n_n.contr.Idx) :
    (dot_S8x256_S256x1024_S8x1024_1_0_0_1_n_n.lhsIdx i q 0).val = (i 0).val := by
  unfold DotDims.lhsIdx
  rw [dif_neg (show ¬(0 : Fin S8x256.rank) ∈ dot_S8x256_S256x1024_S8x1024_1_0_0_1_n_n.lhsBatch by decide),
    dif_pos (show (0 : Fin S8x256.rank) ∈ dot_S8x256_S256x1024_S8x1024_1_0_0_1_n_n.lhsNonContracting by decide)]
  rfl

theorem lhs_1 (i : S8x1024.Idx) (q : dot_S8x256_S256x1024_S8x1024_1_0_0_1_n_n.contr.Idx) :
    (dot_S8x256_S256x1024_S8x1024_1_0_0_1_n_n.lhsIdx i q 1).val = (q ⟨0, by decide⟩).val :=
  dot_S8x256_S256x1024_S8x1024_1_0_0_1_n_n.lhsIdx_val_of_single rfl i q

theorem rhs_0 (i : S8x1024.Idx) (q : dot_S8x256_S256x1024_S8x1024_1_0_0_1_n_n.contr.Idx) :
    (dot_S8x256_S256x1024_S8x1024_1_0_0_1_n_n.rhsIdx i q 0).val = (q ⟨0, by decide⟩).val :=
  dot_S8x256_S256x1024_S8x1024_1_0_0_1_n_n.rhsIdx_val_of_single rfl i q

theorem rhs_1 (i : S8x1024.Idx) (q : dot_S8x256_S256x1024_S8x1024_1_0_0_1_n_n.contr.Idx) :
    (dot_S8x256_S256x1024_S8x1024_1_0_0_1_n_n.rhsIdx i q 1).val = (i 1).val := by
  unfold DotDims.rhsIdx
  rw [dif_neg (show ¬(1 : Fin S256x1024.rank) ∈ dot_S8x256_S256x1024_S8x1024_1_0_0_1_n_n.rhsBatch by decide),
    dif_pos (show (1 : Fin S256x1024.rank) ∈ dot_S8x256_S256x1024_S8x1024_1_0_0_1_n_n.rhsNonContracting by decide)]
  rfl

/-! ## The block of nodes as functions of row and column numbers -/

/-- The summed children's row of node `r` of the block, from the side-by-side rows. -/
def halves (x : Vec Ideal S8x512 .f32) (r : Fin 8) (k : Nat) : EReal :=
  Cert.Tree.natArr2 (a := 8) (b := 512) x r.val k + Cert.Tree.natArr2 (a := 8) (b := 512) x r.val (256 + k)

/-- The gate pre-activation of node `r` of the block at gate row `q`. -/
def gate (x : Vec Ideal S8x512 .f32) (w : Vec Ideal S256x1024 .bf16) (b : Vec Ideal S1x1024 .f32) (r : Fin 8) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S8x512 .f32) (o : Nat) (ho : o + 256 ≤ 512)
    (h : S8x512.Slices ![0, o] S8x256) (r : Fin 8) (k : Fin 256) :
    extractStridedSlice S8x256 ![0, o] (shapeCast S8x512 x shapeCasts_S8x512_S8x512) h (ix2 r k)
      = Cert.Tree.natArr2 (a := 8) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 8) (b := 512) x r ⟨o + k.val, hk⟩).symm

/-- The gate pre-activations the body computes. -/
theorem pay1_apply (x : Vec Ideal S8x512 .f32) (w : Vec Ideal S256x1024 .bf16) (b : Vec Ideal S1x1024 .f32) (r : Fin 8) (q : Fin 1024) :
    k14_pay1 x w b (ix2 r q) = gate x w b r q.val := by
  unfold k14_pay1 gate
  show (matmul dot_S8x256_S256x1024_S8x1024_1_0_0_1_n_n none _ _ (constant S8x1024 .f32 0x00000000#32)) (ix2 r q) + _ = _
  refine congrArg₂ (· + ·) ?_ ?_
  · refine (Ideal.matmul_constant_zero_apply dot_S8x256_S256x1024_S8x1024_1_0_0_1_n_n none _ _ (ix2 r q)).trans ?_
    rw [← Equiv.sum_comp (contrEquiv1 dot_S8x256_S256x1024_S8x1024_1_0_0_1_n_n 256 rfl rfl).symm]
    refine Finset.sum_congr rfl fun k _ => ?_
    have hk := contrEquiv1_symm_val dot_S8x256_S256x1024_S8x1024_1_0_0_1_n_n 256 rfl rfl k
    have el : dot_S8x256_S256x1024_S8x1024_1_0_0_1_n_n.lhsIdx (ix2 r q) ((contrEquiv1 dot_S8x256_S256x1024_S8x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S8x256_S256x1024_S8x1024_1_0_0_1_n_n.rhsIdx (ix2 r q) ((contrEquiv1 dot_S8x256_S256x1024_S8x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S8x256 ![0, 0] (shapeCast S8x512 x shapeCasts_S8x512_S8x512) slices_S8x512_o0_0_S8x256 (ix2 r k)
          + extractStridedSlice S8x256 ![0, 256] (shapeCast S8x512 x shapeCasts_S8x512_S8x512) slices_S8x512_o0_256_S8x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S8x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S8x1024 .f32) (o : Nat) (ho : o + 256 ≤ 1024)
    (h : S8x1024.Slices ![0, o] S8x256) (r : Fin 8) (j : Fin 256) :
    extractStridedSlice S8x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S8x512 .f32) (w : Vec Ideal S256x1024 .bf16) (b : Vec Ideal S1x1024 .f32) (r : Fin 8) (j : Fin 256) :
    k14_pay2 x0 x1 w b (ix2 r j)
      = Ideal.logistic (gate x0 w b r j.val) * halves x1 r j.val
        + Ideal.logistic (gate x0 w b r (256 + j.val)) * Ideal.tanh (gate x0 w b r (512 + j.val)) := by
  unfold k14_pay2
  show Ideal.logistic (extractStridedSlice S8x256 ![0, 0] (k14_pay1 x0 w b) slices_S8x1024_o0_0_S8x256 (ix2 r j))
        * (extractStridedSlice S8x256 ![0, 0] (shapeCast S8x512 x1 shapeCasts_S8x512_S8x512) slices_S8x512_o0_0_S8x256 (ix2 r j)
            + extractStridedSlice S8x256 ![0, 256] (shapeCast S8x512 x1 shapeCasts_S8x512_S8x512) slices_S8x512_o0_256_S8x256 (ix2 r j))
      + Ideal.logistic (extractStridedSlice S8x256 ![0, 256] (k14_pay1 x0 w b) slices_S8x1024_o0_256_S8x256 (ix2 r j))
        * Ideal.tanh (extractStridedSlice S8x256 ![0, 512] (k14_pay1 x0 w b) slices_S8x1024_o0_512_S8x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S8x512 .f32) (w : Vec Ideal S256x1024 .bf16) (b : Vec Ideal S1x1024 .f32) (r : Fin 8) (j : Fin 256) :
    k14_pay3 x0 x1 w b (ix2 r j)
      = Ideal.logistic (gate x0 w b r (768 + j.val)) * Ideal.tanh (k14_pay2 x0 x1 w b (ix2 r j)) := by
  unfold k14_pay3
  show Ideal.logistic (extractStridedSlice S8x256 ![0, 768] (k14_pay1 x0 w b) slices_S8x1024_o0_768_S8x256 (ix2 r j))
        * Ideal.tanh (k14_pay2 x0 x1 w b (ix2 r j)) = _
  rw [gslice_apply _ 768 (by omega), pay1_apply]

/-! ## The block against the tree -/

section Against

variable (x0 x1 : Vec Ideal S8x512 .f32) (w : Vec Ideal S256x1024 .bf16) (b : Vec Ideal S1x1024 .f32)
  (Wn hp cp : Nat → Nat → EReal) (bn : Nat → EReal) (R : Nat) (r : Fin 8)
  (h0 : ∀ k : Nat, k < 512 → Cert.Tree.natArr2 (a := 8) (b := 512) x0 r.val k = Cert.Tree.paired hp R k)
  (h1 : ∀ k : Nat, k < 512 → Cert.Tree.natArr2 (a := 8) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k14_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k14_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T8

end
-- ==== Proof.KLevel14.lean ====
/-
  Level 14 of the tree, 8 nodes: what the pipelined region leaves in its two output arrays.

  The region's grid has 1 point; point t handles nodes 8·t … 8·t + 7: it reads rows 8·t … of the two
  side-by-side arrays (children's hidden rows, children's cell rows), the whole transposed weight block and
  the bias row, and writes rows 8·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay8
import Idealize.ShloMosaic.Lib.Pipeline.Value

set_option maxRecDepth 16384

noncomputable section

namespace Cert.KernelIdeal.TreeK.L14

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k14_pay2 Ideal _ = @k14_pay2 Ideal _ := rfl
theorem pay3_same : @k14_pay3 Ideal _ = @k14_pay3 Ideal _ := rfl

/-- The block each window holds at grid point t: the row windows move with t, the weight and bias windows stay. -/
theorem idx_facts : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0
    ∧ win14_5.index t (0 : Fin 2) = t.val ∧ win14_5.index t (1 : Fin 2) = 0 :=
  (by decide +kernel : ∀ t : Fin grid14.N, _)

theorem t_lt (t : Fin cfg14.N) : t.val < 1 := by
  exact lt_of_lt_of_eq t.isLt (show cfg14.N = 1 from N_14)

section Blocks

variable (c : Dev nD) (t : Fin cfg14.N)

/-- Row r of point t's block of the children's hidden rows is row 8·t + r of the array. -/
theorem blk0_apply (r : Fin 8) (k : Fin 512) (i : S8x512.Idx) (hi0 : (i 0).val = t.val * 8 + r.val) (hi1 : (i 1).val = k.val) :
    (iblk14 V c 0 t : Vec Ideal S8x512 .f32) (ix2 r k) = (V c (Pipeline.arrRef spec14 0) : S8x512.Idx → EReal) i := by
  obtain ⟨e0, e1, -⟩ := idx_facts t
  unfold iblk14
  rw [View.read_apply]
  refine congrArg (V c (Pipeline.arrRef spec14 0) : S8x512.Idx → EReal) (funext fun a => Fin.ext ?_)
  match a with
  | ⟨0, _⟩ => show win14_0.index t (0 : Fin 2) * 8 + 1 * r.val = (i 0).val; rw [e0, hi0]; omega
  | ⟨1, _⟩ => show win14_0.index t (1 : Fin 2) * 512 + 1 * k.val = (i 1).val; rw [e1, hi1]; omega

/-- Row r of point t's block of the children's cell rows is row 8·t + r of the array. -/
theorem blk1_apply (r : Fin 8) (k : Fin 512) (i : S8x512.Idx) (hi0 : (i 0).val = t.val * 8 + r.val) (hi1 : (i 1).val = k.val) :
    (iblk14 V c 1 t : Vec Ideal S8x512 .f32) (ix2 r k) = (V c (Pipeline.arrRef spec14 1) : S8x512.Idx → EReal) i := by
  obtain ⟨-, -, e0, e1, -⟩ := idx_facts t
  unfold iblk14
  rw [View.read_apply]
  refine congrArg (V c (Pipeline.arrRef spec14 1) : S8x512.Idx → EReal) (funext fun a => Fin.ext ?_)
  match a with
  | ⟨0, _⟩ => show win14_1.index t (0 : Fin 2) * 8 + 1 * r.val = (i 0).val; rw [e0, hi0]; omega
  | ⟨1, _⟩ => show win14_1.index t (1 : Fin 2) * 512 + 1 * k.val = (i 1).val; rw [e1, hi1]; omega

/-- The weight window's block is the whole transposed weight array. -/
theorem blk2_apply (k : Fin 256) (q : Fin 1024) :
    (iblk14 V c 2 t : Vec Ideal S256x1024 .bf16) (ix2 k q) = (V c (Pipeline.arrRef spec14 2) : S256x1024.Idx → EReal) (ix2 k q) := by
  obtain ⟨-, -, -, -, e0, e1, -⟩ := idx_facts t
  unfold iblk14
  rw [View.read_apply]
  refine congrArg (V c (Pipeline.arrRef spec14 2) : S256x1024.Idx → EReal) (funext fun a => Fin.ext ?_)
  match a with
  | ⟨0, _⟩ => show win14_2.index t (0 : Fin 2) * 256 + 1 * k.val = k.val; rw [e0]; omega
  | ⟨1, _⟩ => show win14_2.index t (1 : Fin 2) * 1024 + 1 * q.val = q.val; rw [e1]; omega

/-- The bias window's block is the whole bias row. -/
theorem blk3_apply (z : Fin 1) (q : Fin 1024) :
    (iblk14 V c 3 t : Vec Ideal S1x1024 .f32) (ix2 z q) = (V c (Pipeline.arrRef spec14 3) : S1x1024.Idx → EReal) (ix2 z q) := by
  obtain ⟨-, -, -, -, -, -, e0, e1, -⟩ := idx_facts t
  unfold iblk14
  rw [View.read_apply]
  refine congrArg (V c (Pipeline.arrRef spec14 3) : S1x1024.Idx → EReal) (funext fun a => Fin.ext ?_)
  match a with
  | ⟨0, _⟩ => show win14_3.index t (0 : Fin 2) * 1 + 1 * z.val = z.val; rw [e0]; omega
  | ⟨1, _⟩ => show win14_3.index t (1 : Fin 2) * 1024 + 1 * q.val = q.val; rw [e1]; omega

end Blocks

section Level

variable (c : Dev nD) (Wn hp cp : Nat → Nat → EReal) (bn : Nat → EReal)
  (hH : ∀ i : S8x512.Idx, (V c (Pipeline.arrRef spec14 0) : S8x512.Idx → EReal) i = Cert.Tree.paired hp (i 0).val (i 1).val)
  (hC : ∀ i : S8x512.Idx, (V c (Pipeline.arrRef spec14 1) : S8x512.Idx → EReal) i = Cert.Tree.paired cp (i 0).val (i 1).val)
  (hW : ∀ i : S256x1024.Idx, (V c (Pipeline.arrRef spec14 2) : S256x1024.Idx → EReal) i = Wn (i 1).val (i 0).val)
  (hB : ∀ i : S1x1024.Idx, (V c (Pipeline.arrRef spec14 3) : S1x1024.Idx → EReal) i = bn (i 1).val)

/-- The hidden array of this level as the tree gives it. -/
def GH : S8x256.Idx → EReal := fun i => Cert.Tree.nodeH Wn bn hp cp (i 0).val (i 1).val
/-- The cell array of this level as the tree gives it. -/
def GC : S8x256.Idx → EReal := fun i => Cert.Tree.nodeC Wn bn hp cp (i 0).val (i 1).val

include hH in
theorem in0 (t : Fin cfg14.N) (r : Fin 8) (k : Nat) (hk : k < 512) :
    Cert.Tree.natArr2 (a := 8) (b := 512) (iblk14 V c 0 t : Vec Ideal S8x512 .f32) r.val k = Cert.Tree.paired hp (t.val * 8 + r.val) k := by
  have ht := t_lt t
  have hr := r.isLt
  refine (Cert.Tree.natArr2_ix2 (a := 8) (b := 512) _ r ⟨k, hk⟩).trans ?_
  rw [blk0_apply V c t r ⟨k, hk⟩ (ix2 ⟨t.val * 8 + r.val, by omega⟩ ⟨k, hk⟩) rfl rfl]
  exact hH _

include hC in
theorem in1 (t : Fin cfg14.N) (r : Fin 8) (k : Nat) (hk : k < 512) :
    Cert.Tree.natArr2 (a := 8) (b := 512) (iblk14 V c 1 t : Vec Ideal S8x512 .f32) r.val k = Cert.Tree.paired cp (t.val * 8 + r.val) k := by
  have ht := t_lt t
  have hr := r.isLt
  refine (Cert.Tree.natArr2_ix2 (a := 8) (b := 512) _ r ⟨k, hk⟩).trans ?_
  rw [blk1_apply V c t r ⟨k, hk⟩ (ix2 ⟨t.val * 8 + r.val, by omega⟩ ⟨k, hk⟩) rfl rfl]
  exact hC _

include hW in
theorem in2 (t : Fin cfg14.N) (k : Nat) (hk : k < 256) (q : Nat) (hq : q < 1024) :
    Cert.Tree.natArr2 (a := 256) (b := 1024) (iblk14 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg14.N) (q : Nat) (hq : q < 1024) :
    Cert.Tree.natArr2 (a := 1) (b := 1024) (iblk14 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg14.N) :
    (dat14 V c).flushed 4 t = ((cfg14.win 4).blk t).view.read (Elt Ideal) (GH Wn hp cp bn) := by
  obtain ⟨-, -, -, -, -, -, -, -, e0, e1, -⟩ := idx_facts t
  have ht := t_lt t
  show (cfg14.win 4).cut (grid14.coords t) ((dat14 V c).after 4 t) = _
  rw [after14_4]
  unfold out14_4
  rw [View.canon_unit_zero hz]
  simp only [View.ld_unit_zero (S := S8x512) hz, View.ld_unit_zero (S := S256x1024) hz, View.ld_unit_zero (S := S1x1024) hz]
  rw [pay3_same]
  funext j
  obtain ⟨r, q, rfl⟩ : ∃ (r : Fin 8) (q : Fin 256), j = ix2 r q := ⟨j 0, j 1, eq_ix2 j⟩
  refine (T8.hidden_eq _ _ _ _ Wn hp cp bn (t.val * 8 + r.val) r (in0 V c hp hH t r) (in1 V c cp hC t r) (in2 V c Wn hW t) (in3 V c bn hB t) q).trans ?_
  show _ = GH Wn hp cp bn (((cfg14.win 4).blk t).view.emb (ix2 r q))
  unfold GH
  have a0 : ((((cfg14.win 4).blk t).view.emb (ix2 r q)) 0).val = t.val * 8 + r.val := by
    show win14_4.index t (0 : Fin 2) * 8 + 1 * r.val = _; rw [e0]; omega
  have a1 : ((((cfg14.win 4).blk t).view.emb (ix2 r q)) 1).val = q.val := by
    show win14_4.index t (1 : Fin 2) * 256 + 1 * q.val = _; rw [e1]; omega
  rw [a0, a1]

include hH hC hW hB in
/-- What point t writes back to the cell array is block t of the tree's level. -/
theorem flushed5 (t : Fin cfg14.N) :
    (dat14 V c).flushed 5 t = ((cfg14.win 5).blk t).view.read (Elt Ideal) (GC Wn hp cp bn) := by
  obtain ⟨-, -, -, -, -, -, -, -, -, -, e0, e1⟩ := idx_facts t
  have ht := t_lt t
  show (cfg14.win 5).cut (grid14.coords t) ((dat14 V c).after 5 t) = _
  rw [after14_5]
  unfold out14_5
  rw [View.canon_unit_zero hz]
  simp only [View.ld_unit_zero (S := S8x512) hz, View.ld_unit_zero (S := S256x1024) hz, View.ld_unit_zero (S := S1x1024) hz]
  rw [pay2_same]
  funext j
  obtain ⟨r, q, rfl⟩ : ∃ (r : Fin 8) (q : Fin 256), j = ix2 r q := ⟨j 0, j 1, eq_ix2 j⟩
  refine (T8.cell_eq _ _ _ _ Wn hp cp bn (t.val * 8 + r.val) r (in0 V c hp hH t r) (in1 V c cp hC t r) (in2 V c Wn hW t) (in3 V c bn hB t) q).trans ?_
  show _ = GC Wn hp cp bn (((cfg14.win 5).blk t).view.emb (ix2 r q))
  unfold GC
  have a0 : ((((cfg14.win 5).blk t).view.emb (ix2 r q)) 0).val = t.val * 8 + r.val := by
    show win14_5.index t (0 : Fin 2) * 8 + 1 * r.val = _; rw [e0]; omega
  have a1 : ((((cfg14.win 5).blk t).view.emb (ix2 r q)) 1).val = q.val := by
    show win14_5.index t (1 : Fin 2) * 256 + 1 * q.val = _; rw [e1]; omega
  rw [a0, a1]

/-- Every node's row is in the block of the point that handles it. -/
theorem cover4 (i : S8x256.Idx) : ∃ t : Fin cfg14.N, (cfg14.win 4).flush t = true ∧ i ∈ ((cfg14.win 4).blk t).view.set := by
  have hi0 : (i 0).val < 8 := (i 0).isLt
  have hi1 : (i 1).val < 256 := (i 1).isLt
  have hN : cfg14.N = 1 := N_14
  let t : Fin cfg14.N := ⟨(i 0).val / 8, by rw [hN]; omega⟩
  obtain ⟨-, -, -, -, -, -, -, -, e0, e1, -⟩ := idx_facts t
  refine ⟨t, flush14_4 t, ?_⟩
  show i ∈ ((View.whole main_v52_0).slice (win14_4.rect t)).set
  rw [View.set_slice_whole, Rect.mem_set_unit]
  intro a
  match a with
  | ⟨0, _⟩ => show win14_4.index t (0 : Fin 2) * 8 ≤ (i 0).val ∧ (i 0).val < win14_4.index t (0 : Fin 2) * 8 + 8; rw [e0]; show (i 0).val / 8 * 8 ≤ (i 0).val ∧ (i 0).val < (i 0).val / 8 * 8 + 8; omega
  | ⟨1, _⟩ => show win14_4.index t (1 : Fin 2) * 256 ≤ (i 1).val ∧ (i 1).val < win14_4.index t (1 : Fin 2) * 256 + 256; rw [e1]; omega

theorem cover5 (i : S8x256.Idx) : ∃ t : Fin cfg14.N, (cfg14.win 5).flush t = true ∧ i ∈ ((cfg14.win 5).blk t).view.set := by
  have hi0 : (i 0).val < 8 := (i 0).isLt
  have hi1 : (i 1).val < 256 := (i 1).isLt
  have hN : cfg14.N = 1 := N_14
  let t : Fin cfg14.N := ⟨(i 0).val / 8, by rw [hN]; omega⟩
  obtain ⟨-, -, -, -, -, -, -, -, -, -, e0, e1⟩ := idx_facts t
  refine ⟨t, flush14_5 t, ?_⟩
  show i ∈ ((View.whole main_v52_1).slice (win14_5.rect t)).set
  rw [View.set_slice_whole, Rect.mem_set_unit]
  intro a
  match a with
  | ⟨0, _⟩ => show win14_5.index t (0 : Fin 2) * 8 ≤ (i 0).val ∧ (i 0).val < win14_5.index t (0 : Fin 2) * 8 + 8; rw [e0]; show (i 0).val / 8 * 8 ≤ (i 0).val ∧ (i 0).val < (i 0).val / 8 * 8 + 8; omega
  | ⟨1, _⟩ => show win14_5.index t (1 : Fin 2) * 256 ≤ (i 1).val ∧ (i 1).val < win14_5.index t (1 : Fin 2) * 256 + 256; rw [e1]; omega

end Level

end Cert.KernelIdeal.TreeK.L14

namespace Cert.KernelIdeal.TreeK

open Cert.KernelIdeal Cert.KernelIdeal.Gen Idealize.ShloMosaic Idealize.ShloMosaic.TcCoe Idealize.SL.Sem

/-- Level 14: from the level below laid side by side at the region's entry, the region's two output arrays end at
    the tree's node functions. -/
theorem level14 (V : (c : Dev nD) → (b : Ref sig .tc) → Buf (Elt Ideal) ((c : Thread nD τ).loc b)) (c : Dev nD)
    (Wn hp cp : Nat → Nat → EReal) (bn : Nat → EReal)
    (hH : ∀ i : S8x512.Idx, (V c (Pipeline.arrRef spec14 0) : S8x512.Idx → EReal) i = Cert.Tree.paired hp (i 0).val (i 1).val)
    (hC : ∀ i : S8x512.Idx, (V c (Pipeline.arrRef spec14 1) : S8x512.Idx → EReal) i = Cert.Tree.paired cp (i 0).val (i 1).val)
    (hW : ∀ i : S256x1024.Idx, (V c (Pipeline.arrRef spec14 2) : S256x1024.Idx → EReal) i = Wn (i 1).val (i 0).val)
    (hB : ∀ i : S1x1024.Idx, (V c (Pipeline.arrRef spec14 3) : S1x1024.Idx → EReal) i = bn (i 1).val) :
    (∀ i : S8x256.Idx, ((dat14 V c).arrAt 4 cfg14.N : S8x256.Idx → EReal) i = Cert.Tree.nodeH Wn bn hp cp (i 0).val (i 1).val)
    ∧ (∀ i : S8x256.Idx, ((dat14 V c).arrAt 5 cfg14.N : S8x256.Idx → EReal) i = Cert.Tree.nodeC Wn bn hp cp (i 0).val (i 1).val) :=
  ⟨fun i => congrFun ((dat14 V c).arrAt_eq_of_cover 4 (L14.GH Wn hp cp bn) (fun t _ => L14.flushed4 V c Wn hp cp bn hH hC hW hB t) L14.cover4) i,
   fun i => congrFun ((dat14 V c).arrAt_eq_of_cover 5 (L14.GC Wn hp cp bn) (fun t _ => L14.flushed5 V c Wn hp cp bn hH hC hW hB t) L14.cover5) i⟩

end Cert.KernelIdeal.TreeK

end
-- ==== Proof.KPay4.lean ====
/-
  One internal node's body, read at an index: the block of 4 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T4

open Cert.KernelIdeal Cert.KernelIdeal.Gen Idealize.ShloMosaic Idealize.ShloMosaic.ValueIdx

/-! ## The matrix product's operand indices -/

theorem lhs_0 (i : S4x1024.Idx) (q : dot_S4x256_S256x1024_S4x1024_1_0_0_1_n_n.contr.Idx) :
    (dot_S4x256_S256x1024_S4x1024_1_0_0_1_n_n.lhsIdx i q 0).val = (i 0).val := by
  unfold DotDims.lhsIdx
  rw [dif_neg (show ¬(0 : Fin S4x256.rank) ∈ dot_S4x256_S256x1024_S4x1024_1_0_0_1_n_n.lhsBatch by decide),
    dif_pos (show (0 : Fin S4x256.rank) ∈ dot_S4x256_S256x1024_S4x1024_1_0_0_1_n_n.lhsNonContracting by decide)]
  rfl

theorem lhs_1 (i : S4x1024.Idx) (q : dot_S4x256_S256x1024_S4x1024_1_0_0_1_n_n.contr.Idx) :
    (dot_S4x256_S256x1024_S4x1024_1_0_0_1_n_n.lhsIdx i q 1).val = (q ⟨0, by decide⟩).val :=
  dot_S4x256_S256x1024_S4x1024_1_0_0_1_n_n.lhsIdx_val_of_single rfl i q

theorem rhs_0 (i : S4x1024.Idx) (q : dot_S4x256_S256x1024_S4x1024_1_0_0_1_n_n.contr.Idx) :
    (dot_S4x256_S256x1024_S4x1024_1_0_0_1_n_n.rhsIdx i q 0).val = (q ⟨0, by decide⟩).val :=
  dot_S4x256_S256x1024_S4x1024_1_0_0_1_n_n.rhsIdx_val_of_single rfl i q

theorem rhs_1 (i : S4x1024.Idx) (q : dot_S4x256_S256x1024_S4x1024_1_0_0_1_n_n.contr.Idx) :
    (dot_S4x256_S256x1024_S4x1024_1_0_0_1_n_n.rhsIdx i q 1).val = (i 1).val := by
  unfold DotDims.rhsIdx
  rw [dif_neg (show ¬(1 : Fin S256x1024.rank) ∈ dot_S4x256_S256x1024_S4x1024_1_0_0_1_n_n.rhsBatch by decide),
    dif_pos (show (1 : Fin S256x1024.rank) ∈ dot_S4x256_S256x1024_S4x1024_1_0_0_1_n_n.rhsNonContracting by decide)]
  rfl

/-! ## The block of nodes as functions of row and column numbers -/

/-- The summed children's row of node `r` of the block, from the side-by-side rows. -/
def halves (x : Vec Ideal S4x512 .f32) (r : Fin 4) (k : Nat) : EReal :=
  Cert.Tree.natArr2 (a := 4) (b := 512) x r.val k + Cert.Tree.natArr2 (a := 4) (b := 512) x r.val (256 + k)

/-- The gate pre-activation of node `r` of the block at gate row `q`. -/
def gate (x : Vec Ideal S4x512 .f32) (w : Vec Ideal S256x1024 .bf16) (b : Vec Ideal S1x1024 .f32) (r : Fin 4) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S4x512 .f32) (o : Nat) (ho : o + 256 ≤ 512)
    (h : S4x512.Slices ![0, o] S4x256) (r : Fin 4) (k : Fin 256) :
    extractStridedSlice S4x256 ![0, o] (shapeCast S4x512 x shapeCasts_S4x512_S4x512) h (ix2 r k)
      = Cert.Tree.natArr2 (a := 4) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 4) (b := 512) x r ⟨o + k.val, hk⟩).symm

/-- The gate pre-activations the body computes. -/
theorem pay1_apply (x : Vec Ideal S4x512 .f32) (w : Vec Ideal S256x1024 .bf16) (b : Vec Ideal S1x1024 .f32) (r : Fin 4) (q : Fin 1024) :
    k15_pay1 x w b (ix2 r q) = gate x w b r q.val := by
  unfold k15_pay1 gate
  show (matmul dot_S4x256_S256x1024_S4x1024_1_0_0_1_n_n none _ _ (constant S4x1024 .f32 0x00000000#32)) (ix2 r q) + _ = _
  refine congrArg₂ (· + ·) ?_ ?_
  · refine (Ideal.matmul_constant_zero_apply dot_S4x256_S256x1024_S4x1024_1_0_0_1_n_n none _ _ (ix2 r q)).trans ?_
    rw [← Equiv.sum_comp (contrEquiv1 dot_S4x256_S256x1024_S4x1024_1_0_0_1_n_n 256 rfl rfl).symm]
    refine Finset.sum_congr rfl fun k _ => ?_
    have hk := contrEquiv1_symm_val dot_S4x256_S256x1024_S4x1024_1_0_0_1_n_n 256 rfl rfl k
    have el : dot_S4x256_S256x1024_S4x1024_1_0_0_1_n_n.lhsIdx (ix2 r q) ((contrEquiv1 dot_S4x256_S256x1024_S4x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S4x256_S256x1024_S4x1024_1_0_0_1_n_n.rhsIdx (ix2 r q) ((contrEquiv1 dot_S4x256_S256x1024_S4x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S4x256 ![0, 0] (shapeCast S4x512 x shapeCasts_S4x512_S4x512) slices_S4x512_o0_0_S4x256 (ix2 r k)
          + extractStridedSlice S4x256 ![0, 256] (shapeCast S4x512 x shapeCasts_S4x512_S4x512) slices_S4x512_o0_256_S4x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S4x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S4x1024 .f32) (o : Nat) (ho : o + 256 ≤ 1024)
    (h : S4x1024.Slices ![0, o] S4x256) (r : Fin 4) (j : Fin 256) :
    extractStridedSlice S4x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S4x512 .f32) (w : Vec Ideal S256x1024 .bf16) (b : Vec Ideal S1x1024 .f32) (r : Fin 4) (j : Fin 256) :
    k15_pay2 x0 x1 w b (ix2 r j)
      = Ideal.logistic (gate x0 w b r j.val) * halves x1 r j.val
        + Ideal.logistic (gate x0 w b r (256 + j.val)) * Ideal.tanh (gate x0 w b r (512 + j.val)) := by
  unfold k15_pay2
  show Ideal.logistic (extractStridedSlice S4x256 ![0, 0] (k15_pay1 x0 w b) slices_S4x1024_o0_0_S4x256 (ix2 r j))
        * (extractStridedSlice S4x256 ![0, 0] (shapeCast S4x512 x1 shapeCasts_S4x512_S4x512) slices_S4x512_o0_0_S4x256 (ix2 r j)
            + extractStridedSlice S4x256 ![0, 256] (shapeCast S4x512 x1 shapeCasts_S4x512_S4x512) slices_S4x512_o0_256_S4x256 (ix2 r j))
      + Ideal.logistic (extractStridedSlice S4x256 ![0, 256] (k15_pay1 x0 w b) slices_S4x1024_o0_256_S4x256 (ix2 r j))
        * Ideal.tanh (extractStridedSlice S4x256 ![0, 512] (k15_pay1 x0 w b) slices_S4x1024_o0_512_S4x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S4x512 .f32) (w : Vec Ideal S256x1024 .bf16) (b : Vec Ideal S1x1024 .f32) (r : Fin 4) (j : Fin 256) :
    k15_pay3 x0 x1 w b (ix2 r j)
      = Ideal.logistic (gate x0 w b r (768 + j.val)) * Ideal.tanh (k15_pay2 x0 x1 w b (ix2 r j)) := by
  unfold k15_pay3
  show Ideal.logistic (extractStridedSlice S4x256 ![0, 768] (k15_pay1 x0 w b) slices_S4x1024_o0_768_S4x256 (ix2 r j))
        * Ideal.tanh (k15_pay2 x0 x1 w b (ix2 r j)) = _
  rw [gslice_apply _ 768 (by omega), pay1_apply]

/-! ## The block against the tree -/

section Against

variable (x0 x1 : Vec Ideal S4x512 .f32) (w : Vec Ideal S256x1024 .bf16) (b : Vec Ideal S1x1024 .f32)
  (Wn hp cp : Nat → Nat → EReal) (bn : Nat → EReal) (R : Nat) (r : Fin 4)
  (h0 : ∀ k : Nat, k < 512 → Cert.Tree.natArr2 (a := 4) (b := 512) x0 r.val k = Cert.Tree.paired hp R k)
  (h1 : ∀ k : Nat, k < 512 → Cert.Tree.natArr2 (a := 4) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k15_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k15_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T4

end
-- ==== Proof.KLevel15.lean ====
/-
  Level 15 of the tree, 4 nodes: what the pipelined region leaves in its two output arrays.

  The region's grid has 1 point; point t handles nodes 4·t … 4·t + 3: it reads rows 4·t … of the two
  side-by-side arrays (children's hidden rows, children's cell rows), the whole transposed weight block and
  the bias row, and writes rows 4·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay4
import Idealize.ShloMosaic.Lib.Pipeline.Value

set_option maxRecDepth 16384

noncomputable section

namespace Cert.KernelIdeal.TreeK.L15

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k15_pay2 Ideal _ = @k15_pay2 Ideal _ := rfl
theorem pay3_same : @k15_pay3 Ideal _ = @k15_pay3 Ideal _ := rfl

/-- The block each window holds at grid point t: the row windows move with t, the weight and bias windows stay. -/
theorem idx_facts : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0
    ∧ win15_5.index t (0 : Fin 2) = t.val ∧ win15_5.index t (1 : Fin 2) = 0 :=
  (by decide +kernel : ∀ t : Fin grid15.N, _)

theorem t_lt (t : Fin cfg15.N) : t.val < 1 := by
  exact lt_of_lt_of_eq t.isLt (show cfg15.N = 1 from N_15)

section Blocks

variable (c : Dev nD) (t : Fin cfg15.N)

/-- Row r of point t's block of the children's hidden rows is row 4·t + r of the array. -/
theorem blk0_apply (r : Fin 4) (k : Fin 512) (i : S4x512.Idx) (hi0 : (i 0).val = t.val * 4 + r.val) (hi1 : (i 1).val = k.val) :
    (iblk15 V c 0 t : Vec Ideal S4x512 .f32) (ix2 r k) = (V c (Pipeline.arrRef spec15 0) : S4x512.Idx → EReal) i := by
  obtain ⟨e0, e1, -⟩ := idx_facts t
  unfold iblk15
  rw [View.read_apply]
  refine congrArg (V c (Pipeline.arrRef spec15 0) : S4x512.Idx → EReal) (funext fun a => Fin.ext ?_)
  match a with
  | ⟨0, _⟩ => show win15_0.index t (0 : Fin 2) * 4 + 1 * r.val = (i 0).val; rw [e0, hi0]; omega
  | ⟨1, _⟩ => show win15_0.index t (1 : Fin 2) * 512 + 1 * k.val = (i 1).val; rw [e1, hi1]; omega

/-- Row r of point t's block of the children's cell rows is row 4·t + r of the array. -/
theorem blk1_apply (r : Fin 4) (k : Fin 512) (i : S4x512.Idx) (hi0 : (i 0).val = t.val * 4 + r.val) (hi1 : (i 1).val = k.val) :
    (iblk15 V c 1 t : Vec Ideal S4x512 .f32) (ix2 r k) = (V c (Pipeline.arrRef spec15 1) : S4x512.Idx → EReal) i := by
  obtain ⟨-, -, e0, e1, -⟩ := idx_facts t
  unfold iblk15
  rw [View.read_apply]
  refine congrArg (V c (Pipeline.arrRef spec15 1) : S4x512.Idx → EReal) (funext fun a => Fin.ext ?_)
  match a with
  | ⟨0, _⟩ => show win15_1.index t (0 : Fin 2) * 4 + 1 * r.val = (i 0).val; rw [e0, hi0]; omega
  | ⟨1, _⟩ => show win15_1.index t (1 : Fin 2) * 512 + 1 * k.val = (i 1).val; rw [e1, hi1]; omega

/-- The weight window's block is the whole transposed weight array. -/
theorem blk2_apply (k : Fin 256) (q : Fin 1024) :
    (iblk15 V c 2 t : Vec Ideal S256x1024 .bf16) (ix2 k q) = (V c (Pipeline.arrRef spec15 2) : S256x1024.Idx → EReal) (ix2 k q) := by
  obtain ⟨-, -, -, -, e0, e1, -⟩ := idx_facts t
  unfold iblk15
  rw [View.read_apply]
  refine congrArg (V c (Pipeline.arrRef spec15 2) : S256x1024.Idx → EReal) (funext fun a => Fin.ext ?_)
  match a with
  | ⟨0, _⟩ => show win15_2.index t (0 : Fin 2) * 256 + 1 * k.val = k.val; rw [e0]; omega
  | ⟨1, _⟩ => show win15_2.index t (1 : Fin 2) * 1024 + 1 * q.val = q.val; rw [e1]; omega

/-- The bias window's block is the whole bias row. -/
theorem blk3_apply (z : Fin 1) (q : Fin 1024) :
    (iblk15 V c 3 t : Vec Ideal S1x1024 .f32) (ix2 z q) = (V c (Pipeline.arrRef spec15 3) : S1x1024.Idx → EReal) (ix2 z q) := by
  obtain ⟨-, -, -, -, -, -, e0, e1, -⟩ := idx_facts t
  unfold iblk15
  rw [View.read_apply]
  refine congrArg (V c (Pipeline.arrRef spec15 3) : S1x1024.Idx → EReal) (funext fun a => Fin.ext ?_)
  match a with
  | ⟨0, _⟩ => show win15_3.index t (0 : Fin 2) * 1 + 1 * z.val = z.val; rw [e0]; omega
  | ⟨1, _⟩ => show win15_3.index t (1 : Fin 2) * 1024 + 1 * q.val = q.val; rw [e1]; omega

end Blocks

section Level

variable (c : Dev nD) (Wn hp cp : Nat → Nat → EReal) (bn : Nat → EReal)
  (hH : ∀ i : S4x512.Idx, (V c (Pipeline.arrRef spec15 0) : S4x512.Idx → EReal) i = Cert.Tree.paired hp (i 0).val (i 1).val)
  (hC : ∀ i : S4x512.Idx, (V c (Pipeline.arrRef spec15 1) : S4x512.Idx → EReal) i = Cert.Tree.paired cp (i 0).val (i 1).val)
  (hW : ∀ i : S256x1024.Idx, (V c (Pipeline.arrRef spec15 2) : S256x1024.Idx → EReal) i = Wn (i 1).val (i 0).val)
  (hB : ∀ i : S1x1024.Idx, (V c (Pipeline.arrRef spec15 3) : S1x1024.Idx → EReal) i = bn (i 1).val)

/-- The hidden array of this level as the tree gives it. -/
def GH : S4x256.Idx → EReal := fun i => Cert.Tree.nodeH Wn bn hp cp (i 0).val (i 1).val
/-- The cell array of this level as the tree gives it. -/
def GC : S4x256.Idx → EReal := fun i => Cert.Tree.nodeC Wn bn hp cp (i 0).val (i 1).val

include hH in
theorem in0 (t : Fin cfg15.N) (r : Fin 4) (k : Nat) (hk : k < 512) :
    Cert.Tree.natArr2 (a := 4) (b := 512) (iblk15 V c 0 t : Vec Ideal S4x512 .f32) r.val k = Cert.Tree.paired hp (t.val * 4 + r.val) k := by
  have ht := t_lt t
  have hr := r.isLt
  refine (Cert.Tree.natArr2_ix2 (a := 4) (b := 512) _ r ⟨k, hk⟩).trans ?_
  rw [blk0_apply V c t r ⟨k, hk⟩ (ix2 ⟨t.val * 4 + r.val, by omega⟩ ⟨k, hk⟩) rfl rfl]
  exact hH _

include hC in
theorem in1 (t : Fin cfg15.N) (r : Fin 4) (k : Nat) (hk : k < 512) :
    Cert.Tree.natArr2 (a := 4) (b := 512) (iblk15 V c 1 t : Vec Ideal S4x512 .f32) r.val k = Cert.Tree.paired cp (t.val * 4 + r.val) k := by
  have ht := t_lt t
  have hr := r.isLt
  refine (Cert.Tree.natArr2_ix2 (a := 4) (b := 512) _ r ⟨k, hk⟩).trans ?_
  rw [blk1_apply V c t r ⟨k, hk⟩ (ix2 ⟨t.val * 4 + r.val, by omega⟩ ⟨k, hk⟩) rfl rfl]
  exact hC _

include hW in
theorem in2 (t : Fin cfg15.N) (k : Nat) (hk : k < 256) (q : Nat) (hq : q < 1024) :
    Cert.Tree.natArr2 (a := 256) (b := 1024) (iblk15 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg15.N) (q : Nat) (hq : q < 1024) :
    Cert.Tree.natArr2 (a := 1) (b := 1024) (iblk15 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg15.N) :
    (dat15 V c).flushed 4 t = ((cfg15.win 4).blk t).view.read (Elt Ideal) (GH Wn hp cp bn) := by
  obtain ⟨-, -, -, -, -, -, -, -, e0, e1, -⟩ := idx_facts t
  have ht := t_lt t
  show (cfg15.win 4).cut (grid15.coords t) ((dat15 V c).after 4 t) = _
  rw [after15_4]
  unfold out15_4
  rw [View.canon_unit_zero hz]
  simp only [View.ld_unit_zero (S := S4x512) hz, View.ld_unit_zero (S := S256x1024) hz, View.ld_unit_zero (S := S1x1024) hz]
  rw [pay3_same]
  funext j
  obtain ⟨r, q, rfl⟩ : ∃ (r : Fin 4) (q : Fin 256), j = ix2 r q := ⟨j 0, j 1, eq_ix2 j⟩
  refine (T4.hidden_eq _ _ _ _ Wn hp cp bn (t.val * 4 + r.val) r (in0 V c hp hH t r) (in1 V c cp hC t r) (in2 V c Wn hW t) (in3 V c bn hB t) q).trans ?_
  show _ = GH Wn hp cp bn (((cfg15.win 4).blk t).view.emb (ix2 r q))
  unfold GH
  have a0 : ((((cfg15.win 4).blk t).view.emb (ix2 r q)) 0).val = t.val * 4 + r.val := by
    show win15_4.index t (0 : Fin 2) * 4 + 1 * r.val = _; rw [e0]; omega
  have a1 : ((((cfg15.win 4).blk t).view.emb (ix2 r q)) 1).val = q.val := by
    show win15_4.index t (1 : Fin 2) * 256 + 1 * q.val = _; rw [e1]; omega
  rw [a0, a1]

include hH hC hW hB in
/-- What point t writes back to the cell array is block t of the tree's level. -/
theorem flushed5 (t : Fin cfg15.N) :
    (dat15 V c).flushed 5 t = ((cfg15.win 5).blk t).view.read (Elt Ideal) (GC Wn hp cp bn) := by
  obtain ⟨-, -, -, -, -, -, -, -, -, -, e0, e1⟩ := idx_facts t
  have ht := t_lt t
  show (cfg15.win 5).cut (grid15.coords t) ((dat15 V c).after 5 t) = _
  rw [after15_5]
  unfold out15_5
  rw [View.canon_unit_zero hz]
  simp only [View.ld_unit_zero (S := S4x512) hz, View.ld_unit_zero (S := S256x1024) hz, View.ld_unit_zero (S := S1x1024) hz]
  rw [pay2_same]
  funext j
  obtain ⟨r, q, rfl⟩ : ∃ (r : Fin 4) (q : Fin 256), j = ix2 r q := ⟨j 0, j 1, eq_ix2 j⟩
  refine (T4.cell_eq _ _ _ _ Wn hp cp bn (t.val * 4 + r.val) r (in0 V c hp hH t r) (in1 V c cp hC t r) (in2 V c Wn hW t) (in3 V c bn hB t) q).trans ?_
  show _ = GC Wn hp cp bn (((cfg15.win 5).blk t).view.emb (ix2 r q))
  unfold GC
  have a0 : ((((cfg15.win 5).blk t).view.emb (ix2 r q)) 0).val = t.val * 4 + r.val := by
    show win15_5.index t (0 : Fin 2) * 4 + 1 * r.val = _; rw [e0]; omega
  have a1 : ((((cfg15.win 5).blk t).view.emb (ix2 r q)) 1).val = q.val := by
    show win15_5.index t (1 : Fin 2) * 256 + 1 * q.val = _; rw [e1]; omega
  rw [a0, a1]

/-- Every node's row is in the block of the point that handles it. -/
theorem cover4 (i : S4x256.Idx) : ∃ t : Fin cfg15.N, (cfg15.win 4).flush t = true ∧ i ∈ ((cfg15.win 4).blk t).view.set := by
  have hi0 : (i 0).val < 4 := (i 0).isLt
  have hi1 : (i 1).val < 256 := (i 1).isLt
  have hN : cfg15.N = 1 := N_15
  let t : Fin cfg15.N := ⟨(i 0).val / 4, by rw [hN]; omega⟩
  obtain ⟨-, -, -, -, -, -, -, -, e0, e1, -⟩ := idx_facts t
  refine ⟨t, flush15_4 t, ?_⟩
  show i ∈ ((View.whole main_v55_0).slice (win15_4.rect t)).set
  rw [View.set_slice_whole, Rect.mem_set_unit]
  intro a
  match a with
  | ⟨0, _⟩ => show win15_4.index t (0 : Fin 2) * 4 ≤ (i 0).val ∧ (i 0).val < win15_4.index t (0 : Fin 2) * 4 + 4; rw [e0]; show (i 0).val / 4 * 4 ≤ (i 0).val ∧ (i 0).val < (i 0).val / 4 * 4 + 4; omega
  | ⟨1, _⟩ => show win15_4.index t (1 : Fin 2) * 256 ≤ (i 1).val ∧ (i 1).val < win15_4.index t (1 : Fin 2) * 256 + 256; rw [e1]; omega

theorem cover5 (i : S4x256.Idx) : ∃ t : Fin cfg15.N, (cfg15.win 5).flush t = true ∧ i ∈ ((cfg15.win 5).blk t).view.set := by
  have hi0 : (i 0).val < 4 := (i 0).isLt
  have hi1 : (i 1).val < 256 := (i 1).isLt
  have hN : cfg15.N = 1 := N_15
  let t : Fin cfg15.N := ⟨(i 0).val / 4, by rw [hN]; omega⟩
  obtain ⟨-, -, -, -, -, -, -, -, -, -, e0, e1⟩ := idx_facts t
  refine ⟨t, flush15_5 t, ?_⟩
  show i ∈ ((View.whole main_v55_1).slice (win15_5.rect t)).set
  rw [View.set_slice_whole, Rect.mem_set_unit]
  intro a
  match a with
  | ⟨0, _⟩ => show win15_5.index t (0 : Fin 2) * 4 ≤ (i 0).val ∧ (i 0).val < win15_5.index t (0 : Fin 2) * 4 + 4; rw [e0]; show (i 0).val / 4 * 4 ≤ (i 0).val ∧ (i 0).val < (i 0).val / 4 * 4 + 4; omega
  | ⟨1, _⟩ => show win15_5.index t (1 : Fin 2) * 256 ≤ (i 1).val ∧ (i 1).val < win15_5.index t (1 : Fin 2) * 256 + 256; rw [e1]; omega

end Level

end Cert.KernelIdeal.TreeK.L15

namespace Cert.KernelIdeal.TreeK

open Cert.KernelIdeal Cert.KernelIdeal.Gen Idealize.ShloMosaic Idealize.ShloMosaic.TcCoe Idealize.SL.Sem

/-- Level 15: from the level below laid side by side at the region's entry, the region's two output arrays end at
    the tree's node functions. -/
theorem level15 (V : (c : Dev nD) → (b : Ref sig .tc) → Buf (Elt Ideal) ((c : Thread nD τ).loc b)) (c : Dev nD)
    (Wn hp cp : Nat → Nat → EReal) (bn : Nat → EReal)
    (hH : ∀ i : S4x512.Idx, (V c (Pipeline.arrRef spec15 0) : S4x512.Idx → EReal) i = Cert.Tree.paired hp (i 0).val (i 1).val)
    (hC : ∀ i : S4x512.Idx, (V c (Pipeline.arrRef spec15 1) : S4x512.Idx → EReal) i = Cert.Tree.paired cp (i 0).val (i 1).val)
    (hW : ∀ i : S256x1024.Idx, (V c (Pipeline.arrRef spec15 2) : S256x1024.Idx → EReal) i = Wn (i 1).val (i 0).val)
    (hB : ∀ i : S1x1024.Idx, (V c (Pipeline.arrRef spec15 3) : S1x1024.Idx → EReal) i = bn (i 1).val) :
    (∀ i : S4x256.Idx, ((dat15 V c).arrAt 4 cfg15.N : S4x256.Idx → EReal) i = Cert.Tree.nodeH Wn bn hp cp (i 0).val (i 1).val)
    ∧ (∀ i : S4x256.Idx, ((dat15 V c).arrAt 5 cfg15.N : S4x256.Idx → EReal) i = Cert.Tree.nodeC Wn bn hp cp (i 0).val (i 1).val) :=
  ⟨fun i => congrFun ((dat15 V c).arrAt_eq_of_cover 4 (L15.GH Wn hp cp bn) (fun t _ => L15.flushed4 V c Wn hp cp bn hH hC hW hB t) L15.cover4) i,
   fun i => congrFun ((dat15 V c).arrAt_eq_of_cover 5 (L15.GC Wn hp cp bn) (fun t _ => L15.flushed5 V c Wn hp cp bn hH hC hW hB t) L15.cover5) i⟩

end Cert.KernelIdeal.TreeK

end
-- ==== Proof.KPay2.lean ====
/-
  One internal node's body, read at an index: the block of 2 nodes.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T2

open Cert.KernelIdeal Cert.KernelIdeal.Gen Idealize.ShloMosaic Idealize.ShloMosaic.ValueIdx

/-! ## The matrix product's operand indices -/

theorem lhs_0 (i : S2x1024.Idx) (q : dot_S2x256_S256x1024_S2x1024_1_0_0_1_n_n.contr.Idx) :
    (dot_S2x256_S256x1024_S2x1024_1_0_0_1_n_n.lhsIdx i q 0).val = (i 0).val := by
  unfold DotDims.lhsIdx
  rw [dif_neg (show ¬(0 : Fin S2x256.rank) ∈ dot_S2x256_S256x1024_S2x1024_1_0_0_1_n_n.lhsBatch by decide),
    dif_pos (show (0 : Fin S2x256.rank) ∈ dot_S2x256_S256x1024_S2x1024_1_0_0_1_n_n.lhsNonContracting by decide)]
  rfl

theorem lhs_1 (i : S2x1024.Idx) (q : dot_S2x256_S256x1024_S2x1024_1_0_0_1_n_n.contr.Idx) :
    (dot_S2x256_S256x1024_S2x1024_1_0_0_1_n_n.lhsIdx i q 1).val = (q ⟨0, by decide⟩).val :=
  dot_S2x256_S256x1024_S2x1024_1_0_0_1_n_n.lhsIdx_val_of_single rfl i q

theorem rhs_0 (i : S2x1024.Idx) (q : dot_S2x256_S256x1024_S2x1024_1_0_0_1_n_n.contr.Idx) :
    (dot_S2x256_S256x1024_S2x1024_1_0_0_1_n_n.rhsIdx i q 0).val = (q ⟨0, by decide⟩).val :=
  dot_S2x256_S256x1024_S2x1024_1_0_0_1_n_n.rhsIdx_val_of_single rfl i q

theorem rhs_1 (i : S2x1024.Idx) (q : dot_S2x256_S256x1024_S2x1024_1_0_0_1_n_n.contr.Idx) :
    (dot_S2x256_S256x1024_S2x1024_1_0_0_1_n_n.rhsIdx i q 1).val = (i 1).val := by
  unfold DotDims.rhsIdx
  rw [dif_neg (show ¬(1 : Fin S256x1024.rank) ∈ dot_S2x256_S256x1024_S2x1024_1_0_0_1_n_n.rhsBatch by decide),
    dif_pos (show (1 : Fin S256x1024.rank) ∈ dot_S2x256_S256x1024_S2x1024_1_0_0_1_n_n.rhsNonContracting by decide)]
  rfl

/-! ## The block of nodes as functions of row and column numbers -/

/-- The summed children's row of node `r` of the block, from the side-by-side rows. -/
def halves (x : Vec Ideal S2x512 .f32) (r : Fin 2) (k : Nat) : EReal :=
  Cert.Tree.natArr2 (a := 2) (b := 512) x r.val k + Cert.Tree.natArr2 (a := 2) (b := 512) x r.val (256 + k)

/-- The gate pre-activation of node `r` of the block at gate row `q`. -/
def gate (x : Vec Ideal S2x512 .f32) (w : Vec Ideal S256x1024 .bf16) (b : Vec Ideal S1x1024 .f32) (r : Fin 2) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S2x512 .f32) (o : Nat) (ho : o + 256 ≤ 512)
    (h : S2x512.Slices ![0, o] S2x256) (r : Fin 2) (k : Fin 256) :
    extractStridedSlice S2x256 ![0, o] (shapeCast S2x512 x shapeCasts_S2x512_S2x512) h (ix2 r k)
      = Cert.Tree.natArr2 (a := 2) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 2) (b := 512) x r ⟨o + k.val, hk⟩).symm

/-- The gate pre-activations the body computes. -/
theorem pay1_apply (x : Vec Ideal S2x512 .f32) (w : Vec Ideal S256x1024 .bf16) (b : Vec Ideal S1x1024 .f32) (r : Fin 2) (q : Fin 1024) :
    k16_pay1 x w b (ix2 r q) = gate x w b r q.val := by
  unfold k16_pay1 gate
  show (matmul dot_S2x256_S256x1024_S2x1024_1_0_0_1_n_n none _ _ (constant S2x1024 .f32 0x00000000#32)) (ix2 r q) + _ = _
  refine congrArg₂ (· + ·) ?_ ?_
  · refine (Ideal.matmul_constant_zero_apply dot_S2x256_S256x1024_S2x1024_1_0_0_1_n_n none _ _ (ix2 r q)).trans ?_
    rw [← Equiv.sum_comp (contrEquiv1 dot_S2x256_S256x1024_S2x1024_1_0_0_1_n_n 256 rfl rfl).symm]
    refine Finset.sum_congr rfl fun k _ => ?_
    have hk := contrEquiv1_symm_val dot_S2x256_S256x1024_S2x1024_1_0_0_1_n_n 256 rfl rfl k
    have el : dot_S2x256_S256x1024_S2x1024_1_0_0_1_n_n.lhsIdx (ix2 r q) ((contrEquiv1 dot_S2x256_S256x1024_S2x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S2x256_S256x1024_S2x1024_1_0_0_1_n_n.rhsIdx (ix2 r q) ((contrEquiv1 dot_S2x256_S256x1024_S2x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S2x256 ![0, 0] (shapeCast S2x512 x shapeCasts_S2x512_S2x512) slices_S2x512_o0_0_S2x256 (ix2 r k)
          + extractStridedSlice S2x256 ![0, 256] (shapeCast S2x512 x shapeCasts_S2x512_S2x512) slices_S2x512_o0_256_S2x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    refine (broadcastTo_apply b broadcasts_S1x1024_S2x1024 (ix2 r q) (ix2 0 q) (fun a => ?_)).trans ?_
    · match a with
      | ⟨0, _⟩ => rfl
      | ⟨1, _⟩ => rfl
    · exact (Cert.Tree.natArr2_ix2 (a := 1) (b := 1024) b 0 q).symm

/-- A slice of the gate pre-activations at column offset `o`. -/
theorem gslice_apply (g : FVec Ideal S2x1024 .f32) (o : Nat) (ho : o + 256 ≤ 1024)
    (h : S2x1024.Slices ![0, o] S2x256) (r : Fin 2) (j : Fin 256) :
    extractStridedSlice S2x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S2x512 .f32) (w : Vec Ideal S256x1024 .bf16) (b : Vec Ideal S1x1024 .f32) (r : Fin 2) (j : Fin 256) :
    k16_pay2 x0 x1 w b (ix2 r j)
      = Ideal.logistic (gate x0 w b r j.val) * halves x1 r j.val
        + Ideal.logistic (gate x0 w b r (256 + j.val)) * Ideal.tanh (gate x0 w b r (512 + j.val)) := by
  unfold k16_pay2
  show Ideal.logistic (extractStridedSlice S2x256 ![0, 0] (k16_pay1 x0 w b) slices_S2x1024_o0_0_S2x256 (ix2 r j))
        * (extractStridedSlice S2x256 ![0, 0] (shapeCast S2x512 x1 shapeCasts_S2x512_S2x512) slices_S2x512_o0_0_S2x256 (ix2 r j)
            + extractStridedSlice S2x256 ![0, 256] (shapeCast S2x512 x1 shapeCasts_S2x512_S2x512) slices_S2x512_o0_256_S2x256 (ix2 r j))
      + Ideal.logistic (extractStridedSlice S2x256 ![0, 256] (k16_pay1 x0 w b) slices_S2x1024_o0_256_S2x256 (ix2 r j))
        * Ideal.tanh (extractStridedSlice S2x256 ![0, 512] (k16_pay1 x0 w b) slices_S2x1024_o0_512_S2x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S2x512 .f32) (w : Vec Ideal S256x1024 .bf16) (b : Vec Ideal S1x1024 .f32) (r : Fin 2) (j : Fin 256) :
    k16_pay3 x0 x1 w b (ix2 r j)
      = Ideal.logistic (gate x0 w b r (768 + j.val)) * Ideal.tanh (k16_pay2 x0 x1 w b (ix2 r j)) := by
  unfold k16_pay3
  show Ideal.logistic (extractStridedSlice S2x256 ![0, 768] (k16_pay1 x0 w b) slices_S2x1024_o0_768_S2x256 (ix2 r j))
        * Ideal.tanh (k16_pay2 x0 x1 w b (ix2 r j)) = _
  rw [gslice_apply _ 768 (by omega), pay1_apply]

/-! ## The block against the tree -/

section Against

variable (x0 x1 : Vec Ideal S2x512 .f32) (w : Vec Ideal S256x1024 .bf16) (b : Vec Ideal S1x1024 .f32)
  (Wn hp cp : Nat → Nat → EReal) (bn : Nat → EReal) (R : Nat) (r : Fin 2)
  (h0 : ∀ k : Nat, k < 512 → Cert.Tree.natArr2 (a := 2) (b := 512) x0 r.val k = Cert.Tree.paired hp R k)
  (h1 : ∀ k : Nat, k < 512 → Cert.Tree.natArr2 (a := 2) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k16_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k16_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T2

end
-- ==== Proof.KLevel16.lean ====
/-
  Level 16 of the tree, 2 nodes: what the pipelined region leaves in its two output arrays.

  The region's grid has 1 point; point t handles nodes 2·t … 2·t + 1: it reads rows 2·t … of the two
  side-by-side arrays (children's hidden rows, children's cell rows), the whole transposed weight block and
  the bias row, and writes rows 2·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay2
import Idealize.ShloMosaic.Lib.Pipeline.Value

set_option maxRecDepth 16384

noncomputable section

namespace Cert.KernelIdeal.TreeK.L16

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k16_pay2 Ideal _ = @k16_pay2 Ideal _ := rfl
theorem pay3_same : @k16_pay3 Ideal _ = @k16_pay3 Ideal _ := rfl

/-- The block each window holds at grid point t: the row windows move with t, the weight and bias windows stay. -/
theorem idx_facts : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = t.val ∧ win16_4.index t (1 : Fin 2) = 0
    ∧ win16_5.index t (0 : Fin 2) = t.val ∧ win16_5.index t (1 : Fin 2) = 0 :=
  (by decide +kernel : ∀ t : Fin grid16.N, _)

theorem t_lt (t : Fin cfg16.N) : t.val < 1 := by
  exact lt_of_lt_of_eq t.isLt (show cfg16.N = 1 from N_16)

section Blocks

variable (c : Dev nD) (t : Fin cfg16.N)

/-- Row r of point t's block of the children's hidden rows is row 2·t + r of the array. -/
theorem blk0_apply (r : Fin 2) (k : Fin 512) (i : S2x512.Idx) (hi0 : (i 0).val = t.val * 2 + r.val) (hi1 : (i 1).val = k.val) :
    (iblk16 V c 0 t : Vec Ideal S2x512 .f32) (ix2 r k) = (V c (Pipeline.arrRef spec16 0) : S2x512.Idx → EReal) i := by
  obtain ⟨e0, e1, -⟩ := idx_facts t
  unfold iblk16
  rw [View.read_apply]
  refine congrArg (V c (Pipeline.arrRef spec16 0) : S2x512.Idx → EReal) (funext fun a => Fin.ext ?_)
  match a with
  | ⟨0, _⟩ => show win16_0.index t (0 : Fin 2) * 2 + 1 * r.val = (i 0).val; rw [e0, hi0]; omega
  | ⟨1, _⟩ => show win16_0.index t (1 : Fin 2) * 512 + 1 * k.val = (i 1).val; rw [e1, hi1]; omega

/-- Row r of point t's block of the children's cell rows is row 2·t + r of the array. -/
theorem blk1_apply (r : Fin 2) (k : Fin 512) (i : S2x512.Idx) (hi0 : (i 0).val = t.val * 2 + r.val) (hi1 : (i 1).val = k.val) :
    (iblk16 V c 1 t : Vec Ideal S2x512 .f32) (ix2 r k) = (V c (Pipeline.arrRef spec16 1) : S2x512.Idx → EReal) i := by
  obtain ⟨-, -, e0, e1, -⟩ := idx_facts t
  unfold iblk16
  rw [View.read_apply]
  refine congrArg (V c (Pipeline.arrRef spec16 1) : S2x512.Idx → EReal) (funext fun a => Fin.ext ?_)
  match a with
  | ⟨0, _⟩ => show win16_1.index t (0 : Fin 2) * 2 + 1 * r.val = (i 0).val; rw [e0, hi0]; omega
  | ⟨1, _⟩ => show win16_1.index t (1 : Fin 2) * 512 + 1 * k.val = (i 1).val; rw [e1, hi1]; omega

/-- The weight window's block is the whole transposed weight array. -/
theorem blk2_apply (k : Fin 256) (q : Fin 1024) :
    (iblk16 V c 2 t : Vec Ideal S256x1024 .bf16) (ix2 k q) = (V c (Pipeline.arrRef spec16 2) : S256x1024.Idx → EReal) (ix2 k q) := by
  obtain ⟨-, -, -, -, e0, e1, -⟩ := idx_facts t
  unfold iblk16
  rw [View.read_apply]
  refine congrArg (V c (Pipeline.arrRef spec16 2) : S256x1024.Idx → EReal) (funext fun a => Fin.ext ?_)
  match a with
  | ⟨0, _⟩ => show win16_2.index t (0 : Fin 2) * 256 + 1 * k.val = k.val; rw [e0]; omega
  | ⟨1, _⟩ => show win16_2.index t (1 : Fin 2) * 1024 + 1 * q.val = q.val; rw [e1]; omega

/-- The bias window's block is the whole bias row. -/
theorem blk3_apply (z : Fin 1) (q : Fin 1024) :
    (iblk16 V c 3 t : Vec Ideal S1x1024 .f32) (ix2 z q) = (V c (Pipeline.arrRef spec16 3) : S1x1024.Idx → EReal) (ix2 z q) := by
  obtain ⟨-, -, -, -, -, -, e0, e1, -⟩ := idx_facts t
  unfold iblk16
  rw [View.read_apply]
  refine congrArg (V c (Pipeline.arrRef spec16 3) : S1x1024.Idx → EReal) (funext fun a => Fin.ext ?_)
  match a with
  | ⟨0, _⟩ => show win16_3.index t (0 : Fin 2) * 1 + 1 * z.val = z.val; rw [e0]; omega
  | ⟨1, _⟩ => show win16_3.index t (1 : Fin 2) * 1024 + 1 * q.val = q.val; rw [e1]; omega

end Blocks

section Level

variable (c : Dev nD) (Wn hp cp : Nat → Nat → EReal) (bn : Nat → EReal)
  (hH : ∀ i : S2x512.Idx, (V c (Pipeline.arrRef spec16 0) : S2x512.Idx → EReal) i = Cert.Tree.paired hp (i 0).val (i 1).val)
  (hC : ∀ i : S2x512.Idx, (V c (Pipeline.arrRef spec16 1) : S2x512.Idx → EReal) i = Cert.Tree.paired cp (i 0).val (i 1).val)
  (hW : ∀ i : S256x1024.Idx, (V c (Pipeline.arrRef spec16 2) : S256x1024.Idx → EReal) i = Wn (i 1).val (i 0).val)
  (hB : ∀ i : S1x1024.Idx, (V c (Pipeline.arrRef spec16 3) : S1x1024.Idx → EReal) i = bn (i 1).val)

/-- The hidden array of this level as the tree gives it. -/
def GH : S2x256.Idx → EReal := fun i => Cert.Tree.nodeH Wn bn hp cp (i 0).val (i 1).val
/-- The cell array of this level as the tree gives it. -/
def GC : S2x256.Idx → EReal := fun i => Cert.Tree.nodeC Wn bn hp cp (i 0).val (i 1).val

include hH in
theorem in0 (t : Fin cfg16.N) (r : Fin 2) (k : Nat) (hk : k < 512) :
    Cert.Tree.natArr2 (a := 2) (b := 512) (iblk16 V c 0 t : Vec Ideal S2x512 .f32) r.val k = Cert.Tree.paired hp (t.val * 2 + r.val) k := by
  have ht := t_lt t
  have hr := r.isLt
  refine (Cert.Tree.natArr2_ix2 (a := 2) (b := 512) _ r ⟨k, hk⟩).trans ?_
  rw [blk0_apply V c t r ⟨k, hk⟩ (ix2 ⟨t.val * 2 + r.val, by omega⟩ ⟨k, hk⟩) rfl rfl]
  exact hH _

include hC in
theorem in1 (t : Fin cfg16.N) (r : Fin 2) (k : Nat) (hk : k < 512) :
    Cert.Tree.natArr2 (a := 2) (b := 512) (iblk16 V c 1 t : Vec Ideal S2x512 .f32) r.val k = Cert.Tree.paired cp (t.val * 2 + r.val) k := by
  have ht := t_lt t
  have hr := r.isLt
  refine (Cert.Tree.natArr2_ix2 (a := 2) (b := 512) _ r ⟨k, hk⟩).trans ?_
  rw [blk1_apply V c t r ⟨k, hk⟩ (ix2 ⟨t.val * 2 + r.val, by omega⟩ ⟨k, hk⟩) rfl rfl]
  exact hC _

include hW in
theorem in2 (t : Fin cfg16.N) (k : Nat) (hk : k < 256) (q : Nat) (hq : q < 1024) :
    Cert.Tree.natArr2 (a := 256) (b := 1024) (iblk16 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg16.N) (q : Nat) (hq : q < 1024) :
    Cert.Tree.natArr2 (a := 1) (b := 1024) (iblk16 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg16.N) :
    (dat16 V c).flushed 4 t = ((cfg16.win 4).blk t).view.read (Elt Ideal) (GH Wn hp cp bn) := by
  obtain ⟨-, -, -, -, -, -, -, -, e0, e1, -⟩ := idx_facts t
  have ht := t_lt t
  show (cfg16.win 4).cut (grid16.coords t) ((dat16 V c).after 4 t) = _
  rw [after16_4]
  unfold out16_4
  rw [View.canon_unit_zero hz]
  simp only [View.ld_unit_zero (S := S2x512) hz, View.ld_unit_zero (S := S256x1024) hz, View.ld_unit_zero (S := S1x1024) hz]
  rw [pay3_same]
  funext j
  obtain ⟨r, q, rfl⟩ : ∃ (r : Fin 2) (q : Fin 256), j = ix2 r q := ⟨j 0, j 1, eq_ix2 j⟩
  refine (T2.hidden_eq _ _ _ _ Wn hp cp bn (t.val * 2 + r.val) r (in0 V c hp hH t r) (in1 V c cp hC t r) (in2 V c Wn hW t) (in3 V c bn hB t) q).trans ?_
  show _ = GH Wn hp cp bn (((cfg16.win 4).blk t).view.emb (ix2 r q))
  unfold GH
  have a0 : ((((cfg16.win 4).blk t).view.emb (ix2 r q)) 0).val = t.val * 2 + r.val := by
    show win16_4.index t (0 : Fin 2) * 2 + 1 * r.val = _; rw [e0]; omega
  have a1 : ((((cfg16.win 4).blk t).view.emb (ix2 r q)) 1).val = q.val := by
    show win16_4.index t (1 : Fin 2) * 256 + 1 * q.val = _; rw [e1]; omega
  rw [a0, a1]

include hH hC hW hB in
/-- What point t writes back to the cell array is block t of the tree's level. -/
theorem flushed5 (t : Fin cfg16.N) :
    (dat16 V c).flushed 5 t = ((cfg16.win 5).blk t).view.read (Elt Ideal) (GC Wn hp cp bn) := by
  obtain ⟨-, -, -, -, -, -, -, -, -, -, e0, e1⟩ := idx_facts t
  have ht := t_lt t
  show (cfg16.win 5).cut (grid16.coords t) ((dat16 V c).after 5 t) = _
  rw [after16_5]
  unfold out16_5
  rw [View.canon_unit_zero hz]
  simp only [View.ld_unit_zero (S := S2x512) hz, View.ld_unit_zero (S := S256x1024) hz, View.ld_unit_zero (S := S1x1024) hz]
  rw [pay2_same]
  funext j
  obtain ⟨r, q, rfl⟩ : ∃ (r : Fin 2) (q : Fin 256), j = ix2 r q := ⟨j 0, j 1, eq_ix2 j⟩
  refine (T2.cell_eq _ _ _ _ Wn hp cp bn (t.val * 2 + r.val) r (in0 V c hp hH t r) (in1 V c cp hC t r) (in2 V c Wn hW t) (in3 V c bn hB t) q).trans ?_
  show _ = GC Wn hp cp bn (((cfg16.win 5).blk t).view.emb (ix2 r q))
  unfold GC
  have a0 : ((((cfg16.win 5).blk t).view.emb (ix2 r q)) 0).val = t.val * 2 + r.val := by
    show win16_5.index t (0 : Fin 2) * 2 + 1 * r.val = _; rw [e0]; omega
  have a1 : ((((cfg16.win 5).blk t).view.emb (ix2 r q)) 1).val = q.val := by
    show win16_5.index t (1 : Fin 2) * 256 + 1 * q.val = _; rw [e1]; omega
  rw [a0, a1]

/-- Every node's row is in the block of the point that handles it. -/
theorem cover4 (i : S2x256.Idx) : ∃ t : Fin cfg16.N, (cfg16.win 4).flush t = true ∧ i ∈ ((cfg16.win 4).blk t).view.set := by
  have hi0 : (i 0).val < 2 := (i 0).isLt
  have hi1 : (i 1).val < 256 := (i 1).isLt
  have hN : cfg16.N = 1 := N_16
  let t : Fin cfg16.N := ⟨(i 0).val / 2, by rw [hN]; omega⟩
  obtain ⟨-, -, -, -, -, -, -, -, e0, e1, -⟩ := idx_facts t
  refine ⟨t, flush16_4 t, ?_⟩
  show i ∈ ((View.whole main_v58_0).slice (win16_4.rect t)).set
  rw [View.set_slice_whole, Rect.mem_set_unit]
  intro a
  match a with
  | ⟨0, _⟩ => show win16_4.index t (0 : Fin 2) * 2 ≤ (i 0).val ∧ (i 0).val < win16_4.index t (0 : Fin 2) * 2 + 2; rw [e0]; show (i 0).val / 2 * 2 ≤ (i 0).val ∧ (i 0).val < (i 0).val / 2 * 2 + 2; omega
  | ⟨1, _⟩ => show win16_4.index t (1 : Fin 2) * 256 ≤ (i 1).val ∧ (i 1).val < win16_4.index t (1 : Fin 2) * 256 + 256; rw [e1]; omega

theorem cover5 (i : S2x256.Idx) : ∃ t : Fin cfg16.N, (cfg16.win 5).flush t = true ∧ i ∈ ((cfg16.win 5).blk t).view.set := by
  have hi0 : (i 0).val < 2 := (i 0).isLt
  have hi1 : (i 1).val < 256 := (i 1).isLt
  have hN : cfg16.N = 1 := N_16
  let t : Fin cfg16.N := ⟨(i 0).val / 2, by rw [hN]; omega⟩
  obtain ⟨-, -, -, -, -, -, -, -, -, -, e0, e1⟩ := idx_facts t
  refine ⟨t, flush16_5 t, ?_⟩
  show i ∈ ((View.whole main_v58_1).slice (win16_5.rect t)).set
  rw [View.set_slice_whole, Rect.mem_set_unit]
  intro a
  match a with
  | ⟨0, _⟩ => show win16_5.index t (0 : Fin 2) * 2 ≤ (i 0).val ∧ (i 0).val < win16_5.index t (0 : Fin 2) * 2 + 2; rw [e0]; show (i 0).val / 2 * 2 ≤ (i 0).val ∧ (i 0).val < (i 0).val / 2 * 2 + 2; omega
  | ⟨1, _⟩ => show win16_5.index t (1 : Fin 2) * 256 ≤ (i 1).val ∧ (i 1).val < win16_5.index t (1 : Fin 2) * 256 + 256; rw [e1]; omega

end Level

end Cert.KernelIdeal.TreeK.L16

namespace Cert.KernelIdeal.TreeK

open Cert.KernelIdeal Cert.KernelIdeal.Gen Idealize.ShloMosaic Idealize.ShloMosaic.TcCoe Idealize.SL.Sem

/-- Level 16: from the level below laid side by side at the region's entry, the region's two output arrays end at
    the tree's node functions. -/
theorem level16 (V : (c : Dev nD) → (b : Ref sig .tc) → Buf (Elt Ideal) ((c : Thread nD τ).loc b)) (c : Dev nD)
    (Wn hp cp : Nat → Nat → EReal) (bn : Nat → EReal)
    (hH : ∀ i : S2x512.Idx, (V c (Pipeline.arrRef spec16 0) : S2x512.Idx → EReal) i = Cert.Tree.paired hp (i 0).val (i 1).val)
    (hC : ∀ i : S2x512.Idx, (V c (Pipeline.arrRef spec16 1) : S2x512.Idx → EReal) i = Cert.Tree.paired cp (i 0).val (i 1).val)
    (hW : ∀ i : S256x1024.Idx, (V c (Pipeline.arrRef spec16 2) : S256x1024.Idx → EReal) i = Wn (i 1).val (i 0).val)
    (hB : ∀ i : S1x1024.Idx, (V c (Pipeline.arrRef spec16 3) : S1x1024.Idx → EReal) i = bn (i 1).val) :
    (∀ i : S2x256.Idx, ((dat16 V c).arrAt 4 cfg16.N : S2x256.Idx → EReal) i = Cert.Tree.nodeH Wn bn hp cp (i 0).val (i 1).val)
    ∧ (∀ i : S2x256.Idx, ((dat16 V c).arrAt 5 cfg16.N : S2x256.Idx → EReal) i = Cert.Tree.nodeC Wn bn hp cp (i 0).val (i 1).val) :=
  ⟨fun i => congrFun ((dat16 V c).arrAt_eq_of_cover 4 (L16.GH Wn hp cp bn) (fun t _ => L16.flushed4 V c Wn hp cp bn hH hC hW hB t) L16.cover4) i,
   fun i => congrFun ((dat16 V c).arrAt_eq_of_cover 5 (L16.GC Wn hp cp bn) (fun t _ => L16.flushed5 V c Wn hp cp bn hH hC hW hB t) L16.cover5) i⟩

end Cert.KernelIdeal.TreeK

end
-- ==== Proof.KPay1.lean ====
/-
  One internal node's body, read at an index: the block of 1 node.

  The body receives the children's hidden rows and cell rows laid side by side (row r holds child 2r in
  columns 0..255 and child 2r+1 in columns 256..511), the transposed weight block `w` (256 by 1024: entry
  (k, q) is the weight of gate row q on hidden column k) and the bias row `b`. Its gate pre-activation at
  (r, q) is the sum over k of (left half + right half of the hidden row r at k) times w (k, q), plus b (0, q);
  its cell state at (r, j) is σ(gate j) · (left + right half of the cell row) + σ(gate 256+j) · tanh(gate 512+j),
  its hidden state σ(gate 768+j) · tanh(cell).
-/
import proofs.«163443_j13855564497595_2_alg».proof.Proof.Gen.KernelIdeal.Skeleton
import proofs.«163443_j13855564497595_2_alg».proof.Proof.Tree
import Idealize.ShloMosaic.Lib.Pipeline.Value
import Idealize.ShloMosaic.Lib.ValueIdx
import Idealize.ShloMosaic.PureOps.Ideal.Laws

noncomputable section

namespace Cert.KernelIdeal.TreeK.T1

open Cert.KernelIdeal Cert.KernelIdeal.Gen Idealize.ShloMosaic Idealize.ShloMosaic.ValueIdx

/-! ## The matrix product's operand indices -/

theorem lhs_0 (i : S1x1024.Idx) (q : dot_S1x256_S256x1024_S1x1024_1_0_0_1_n_n.contr.Idx) :
    (dot_S1x256_S256x1024_S1x1024_1_0_0_1_n_n.lhsIdx i q 0).val = (i 0).val := by
  unfold DotDims.lhsIdx
  rw [dif_neg (show ¬(0 : Fin S1x256.rank) ∈ dot_S1x256_S256x1024_S1x1024_1_0_0_1_n_n.lhsBatch by decide),
    dif_pos (show (0 : Fin S1x256.rank) ∈ dot_S1x256_S256x1024_S1x1024_1_0_0_1_n_n.lhsNonContracting by decide)]
  rfl

theorem lhs_1 (i : S1x1024.Idx) (q : dot_S1x256_S256x1024_S1x1024_1_0_0_1_n_n.contr.Idx) :
    (dot_S1x256_S256x1024_S1x1024_1_0_0_1_n_n.lhsIdx i q 1).val = (q ⟨0, by decide⟩).val :=
  dot_S1x256_S256x1024_S1x1024_1_0_0_1_n_n.lhsIdx_val_of_single rfl i q

theorem rhs_0 (i : S1x1024.Idx) (q : dot_S1x256_S256x1024_S1x1024_1_0_0_1_n_n.contr.Idx) :
    (dot_S1x256_S256x1024_S1x1024_1_0_0_1_n_n.rhsIdx i q 0).val = (q ⟨0, by decide⟩).val :=
  dot_S1x256_S256x1024_S1x1024_1_0_0_1_n_n.rhsIdx_val_of_single rfl i q

theorem rhs_1 (i : S1x1024.Idx) (q : dot_S1x256_S256x1024_S1x1024_1_0_0_1_n_n.contr.Idx) :
    (dot_S1x256_S256x1024_S1x1024_1_0_0_1_n_n.rhsIdx i q 1).val = (i 1).val := by
  unfold DotDims.rhsIdx
  rw [dif_neg (show ¬(1 : Fin S256x1024.rank) ∈ dot_S1x256_S256x1024_S1x1024_1_0_0_1_n_n.rhsBatch by decide),
    dif_pos (show (1 : Fin S256x1024.rank) ∈ dot_S1x256_S256x1024_S1x1024_1_0_0_1_n_n.rhsNonContracting by decide)]
  rfl

/-! ## The block of nodes as functions of row and column numbers -/

/-- The summed children's row of node `r` of the block, from the side-by-side rows. -/
def halves (x : Vec Ideal S1x512 .f32) (r : Fin 1) (k : Nat) : EReal :=
  Cert.Tree.natArr2 (a := 1) (b := 512) x r.val k + Cert.Tree.natArr2 (a := 1) (b := 512) x r.val (256 + k)

/-- The gate pre-activation of node `r` of the block at gate row `q`. -/
def gate (x : Vec Ideal S1x512 .f32) (w : Vec Ideal S256x1024 .bf16) (b : Vec Ideal S1x1024 .f32) (r : Fin 1) (q : Nat) : EReal :=
  (∑ k : Fin 256, halves x r k.val * Cert.Tree.natArr2 (a := 256) (b := 1024) w k.val q) + Cert.Tree.natArr2 (a := 1) (b := 1024) b 0 q

/-- A slice of the side-by-side rows at column offset `o`. -/
theorem slice_apply (x : Vec Ideal S1x512 .f32) (o : Nat) (ho : o + 256 ≤ 512)
    (h : S1x512.Slices ![0, o] S1x256) (r : Fin 1) (k : Fin 256) :
    extractStridedSlice S1x256 ![0, o] (shapeCast S1x512 x shapeCasts_S1x512_S1x512) h (ix2 r k)
      = Cert.Tree.natArr2 (a := 1) (b := 512) x r.val (o + k.val) := by
  rw [shapeCast_self]
  have hk : o + k.val < 512 := by have := k.isLt; omega
  refine (extractStridedSlice_apply ![0, o] x h (ix2 r k) (ix2 r ⟨o + k.val, hk⟩) (fun a => ?_)).trans ?_
  · match a with
    | ⟨0, _⟩ => show r.val = 0 + r.val; omega
    | ⟨1, _⟩ => rfl
  · exact (Cert.Tree.natArr2_ix2 (a := 1) (b := 512) x r ⟨o + k.val, hk⟩).symm

/-- The gate pre-activations the body computes. -/
theorem pay1_apply (x : Vec Ideal S1x512 .f32) (w : Vec Ideal S256x1024 .bf16) (b : Vec Ideal S1x1024 .f32) (r : Fin 1) (q : Fin 1024) :
    k17_pay1 x w b (ix2 r q) = gate x w b r q.val := by
  unfold k17_pay1 gate
  show (matmul dot_S1x256_S256x1024_S1x1024_1_0_0_1_n_n none _ _ (constant S1x1024 .f32 0x00000000#32)) (ix2 r q) + _ = _
  refine congrArg₂ (· + ·) ?_ ?_
  · refine (Ideal.matmul_constant_zero_apply dot_S1x256_S256x1024_S1x1024_1_0_0_1_n_n none _ _ (ix2 r q)).trans ?_
    rw [← Equiv.sum_comp (contrEquiv1 dot_S1x256_S256x1024_S1x1024_1_0_0_1_n_n 256 rfl rfl).symm]
    refine Finset.sum_congr rfl fun k _ => ?_
    have hk := contrEquiv1_symm_val dot_S1x256_S256x1024_S1x1024_1_0_0_1_n_n 256 rfl rfl k
    have el : dot_S1x256_S256x1024_S1x1024_1_0_0_1_n_n.lhsIdx (ix2 r q) ((contrEquiv1 dot_S1x256_S256x1024_S1x1024_1_0_0_1_n_n 256 rfl rfl).symm k) = ix2 r k :=
      funext fun a => Fin.ext (by
        match a with
        | ⟨0, _⟩ => exact lhs_0 _ _
        | ⟨1, _⟩ => exact (lhs_1 _ _).trans hk)
    have er : dot_S1x256_S256x1024_S1x1024_1_0_0_1_n_n.rhsIdx (ix2 r q) ((contrEquiv1 dot_S1x256_S256x1024_S1x1024_1_0_0_1_n_n 256 rfl rfl).symm k) = ix2 k q :=
      funext fun a => Fin.ext (by
        match a with
        | ⟨0, _⟩ => exact (rhs_0 _ _).trans hk
        | ⟨1, _⟩ => exact rhs_1 _ _)
    rw [el, er]
    refine congrArg₂ (· * ·) ?_ ?_
    · show extractStridedSlice S1x256 ![0, 0] (shapeCast S1x512 x shapeCasts_S1x512_S1x512) slices_S1x512_o0_0_S1x256 (ix2 r k)
          + extractStridedSlice S1x256 ![0, 256] (shapeCast S1x512 x shapeCasts_S1x512_S1x512) slices_S1x512_o0_256_S1x256 (ix2 r k) = _
      rw [slice_apply x 0 (by omega), slice_apply x 256 (by omega)]
      unfold halves
      rw [Nat.zero_add]
    · rw [shapeCast_self]
      exact (Cert.Tree.natArr2_ix2 (a := 256) (b := 1024) w k q).symm
  · rw [shapeCast_self]
    have hr : r = (0 : Fin 1) := Subsingleton.elim _ _
    subst hr
    exact (Cert.Tree.natArr2_ix2 (a := 1) (b := 1024) b 0 q).symm

/-- A slice of the gate pre-activations at column offset `o`. -/
theorem gslice_apply (g : FVec Ideal S1x1024 .f32) (o : Nat) (ho : o + 256 ≤ 1024)
    (h : S1x1024.Slices ![0, o] S1x256) (r : Fin 1) (j : Fin 256) :
    extractStridedSlice S1x256 ![0, o] g h (ix2 r j) = g (ix2 r ⟨o + j.val, by have := j.isLt; omega⟩) := by
  refine extractStridedSlice_apply ![0, o] g h (ix2 r j) (ix2 r ⟨o + j.val, by have := j.isLt; omega⟩) (fun a => ?_)
  match a with
  | ⟨0, _⟩ => show r.val = 0 + r.val; omega
  | ⟨1, _⟩ => rfl

/-- The cell states the body computes. -/
theorem pay2_apply (x0 x1 : Vec Ideal S1x512 .f32) (w : Vec Ideal S256x1024 .bf16) (b : Vec Ideal S1x1024 .f32) (r : Fin 1) (j : Fin 256) :
    k17_pay2 x0 x1 w b (ix2 r j)
      = Ideal.logistic (gate x0 w b r j.val) * halves x1 r j.val
        + Ideal.logistic (gate x0 w b r (256 + j.val)) * Ideal.tanh (gate x0 w b r (512 + j.val)) := by
  unfold k17_pay2
  show Ideal.logistic (extractStridedSlice S1x256 ![0, 0] (k17_pay1 x0 w b) slices_S1x1024_o0_0_S1x256 (ix2 r j))
        * (extractStridedSlice S1x256 ![0, 0] (shapeCast S1x512 x1 shapeCasts_S1x512_S1x512) slices_S1x512_o0_0_S1x256 (ix2 r j)
            + extractStridedSlice S1x256 ![0, 256] (shapeCast S1x512 x1 shapeCasts_S1x512_S1x512) slices_S1x512_o0_256_S1x256 (ix2 r j))
      + Ideal.logistic (extractStridedSlice S1x256 ![0, 256] (k17_pay1 x0 w b) slices_S1x1024_o0_256_S1x256 (ix2 r j))
        * Ideal.tanh (extractStridedSlice S1x256 ![0, 512] (k17_pay1 x0 w b) slices_S1x1024_o0_512_S1x256 (ix2 r j)) = _
  rw [gslice_apply _ 0 (by omega), gslice_apply _ 256 (by omega), gslice_apply _ 512 (by omega),
    pay1_apply, pay1_apply, pay1_apply, slice_apply x1 0 (by omega), slice_apply x1 256 (by omega)]
  unfold halves
  simp only [Nat.zero_add]

/-- The hidden states the body computes. -/
theorem pay3_apply (x0 x1 : Vec Ideal S1x512 .f32) (w : Vec Ideal S256x1024 .bf16) (b : Vec Ideal S1x1024 .f32) (r : Fin 1) (j : Fin 256) :
    k17_pay3 x0 x1 w b (ix2 r j)
      = Ideal.logistic (gate x0 w b r (768 + j.val)) * Ideal.tanh (k17_pay2 x0 x1 w b (ix2 r j)) := by
  unfold k17_pay3
  show Ideal.logistic (extractStridedSlice S1x256 ![0, 768] (k17_pay1 x0 w b) slices_S1x1024_o0_768_S1x256 (ix2 r j))
        * Ideal.tanh (k17_pay2 x0 x1 w b (ix2 r j)) = _
  rw [gslice_apply _ 768 (by omega), pay1_apply]

/-! ## The block against the tree -/

section Against

variable (x0 x1 : Vec Ideal S1x512 .f32) (w : Vec Ideal S256x1024 .bf16) (b : Vec Ideal S1x1024 .f32)
  (Wn hp cp : Nat → Nat → EReal) (bn : Nat → EReal) (R : Nat) (r : Fin 1)
  (h0 : ∀ k : Nat, k < 512 → Cert.Tree.natArr2 (a := 1) (b := 512) x0 r.val k = Cert.Tree.paired hp R k)
  (h1 : ∀ k : Nat, k < 512 → Cert.Tree.natArr2 (a := 1) (b := 512) x1 r.val k = Cert.Tree.paired cp R k)
  (hw : ∀ k : Nat, k < 256 → ∀ q : Nat, q < 1024 → Cert.Tree.natArr2 (a := 256) (b := 1024) w k q = Wn q k)
  (hb : ∀ q : Nat, q < 1024 → Cert.Tree.natArr2 (a := 1) (b := 1024) b 0 q = bn q)

include h0 in
theorem halves0_eq (k : Nat) (hk : k < 256) : halves x0 r k = Cert.Tree.pairSum hp R k := by
  unfold halves Cert.Tree.pairSum
  rw [h0 k (by omega), h0 (256 + k) (by omega), Cert.Tree.paired_lo hp R k hk, Cert.Tree.paired_hi hp R k hk]

include h1 in
theorem halves1_eq (k : Nat) (hk : k < 256) : halves x1 r k = Cert.Tree.pairSum cp R k := by
  unfold halves Cert.Tree.pairSum
  rw [h1 k (by omega), h1 (256 + k) (by omega), Cert.Tree.paired_lo cp R k hk, Cert.Tree.paired_hi cp R k hk]

include h0 hw hb in
theorem gate_eq (q : Nat) (hq : q < 1024) : gate x0 w b r q = Cert.Tree.gateH Wn bn (Cert.Tree.pairSum hp R) q := by
  unfold gate Cert.Tree.gateH
  rw [hb q hq]
  refine congrArg (· + bn q) (Finset.sum_congr rfl fun k _ => ?_)
  rw [halves0_eq x0 hp R r h0 k.val k.isLt, hw k.val k.isLt q hq]

include h0 h1 hw hb in
theorem cell_eq (j : Fin 256) : k17_pay2 x0 x1 w b (ix2 r j) = Cert.Tree.nodeC Wn bn hp cp R j.val := by
  have hj := j.isLt
  rw [pay2_apply, gate_eq x0 w b Wn hp bn R r h0 hw hb j.val (by omega), gate_eq x0 w b Wn hp bn R r h0 hw hb (256 + j.val) (by omega),
    gate_eq x0 w b Wn hp bn R r h0 hw hb (512 + j.val) (by omega), halves1_eq x1 cp R r h1 j.val hj]
  rfl

include h0 h1 hw hb in
theorem hidden_eq (j : Fin 256) : k17_pay3 x0 x1 w b (ix2 r j) = Cert.Tree.nodeH Wn bn hp cp R j.val := by
  have hj := j.isLt
  rw [pay3_apply, gate_eq x0 w b Wn hp bn R r h0 hw hb (768 + j.val) (by omega), cell_eq x0 x1 w b Wn hp cp bn R r h0 h1 hw hb j]
  rfl

end Against

end Cert.KernelIdeal.TreeK.T1

end
-- ==== Proof.KLevel17.lean ====
/-
  Level 17 of the tree, 1 nodes: what the pipelined region leaves in its two output arrays.

  The region's grid has 1 point; point t handles nodes 1·t … 1·t + 0: it reads rows 1·t … of the two
  side-by-side arrays (children's hidden rows, children's cell rows), the whole transposed weight block and
  the bias row, and writes rows 1·t … of the hidden and cell arrays. The blocks tile the arrays, so each
  output array ends holding, at node R and column j, the tree's node function of the level below.
-/
import proofs.«163443_j13855564497595_2_alg».proof.Proof.Gen.KernelIdeal.Frame
import proofs.«163443_j13855564497595_2_alg».proof.Proof.KPay1
import Idealize.ShloMosaic.Lib.Pipeline.Value

set_option maxRecDepth 16384

noncomputable section

namespace Cert.KernelIdeal.TreeK.L17

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem pay2_same : @k17_pay2 Ideal _ = @k17_pay2 Ideal _ := rfl
theorem pay3_same : @k17_pay3 Ideal _ = @k17_pay3 Ideal _ := rfl

/-- The block each window holds at grid point t: the row windows move with t, the weight and bias windows stay. -/
theorem idx_facts : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = t.val ∧ win17_4.index t (1 : Fin 2) = 0
    ∧ win17_5.index t (0 : Fin 2) = t.val ∧ win17_5.index t (1 : Fin 2) = 0 :=
  (by decide +kernel : ∀ t : Fin grid17.N, _)

theorem t_lt (t : Fin cfg17.N) : t.val < 1 := by
  exact lt_of_lt_of_eq t.isLt (show cfg17.N = 1 from N_17)

section Blocks

variable (c : Dev nD) (t : Fin cfg17.N)

/-- Row r of point t's block of the children's hidden rows is row 1·t + r of the array. -/
theorem blk0_apply (r : Fin 1) (k : Fin 512) (i : S1x512.Idx) (hi0 : (i 0).val = t.val * 1 + r.val) (hi1 : (i 1).val = k.val) :
    (iblk17 V c 0 t : Vec Ideal S1x512 .f32) (ix2 r k) = (V c (Pipeline.arrRef spec17 0) : S1x512.Idx → EReal) i := by
  obtain ⟨e0, e1, -⟩ := idx_facts t
  unfold iblk17
  rw [View.read_apply]
  refine congrArg (V c (Pipeline.arrRef spec17 0) : S1x512.Idx → EReal) (funext fun a => Fin.ext ?_)
  match a with
  | ⟨0, _⟩ => show win17_0.index t (0 : Fin 2) * 1 + 1 * r.val = (i 0).val; rw [e0, hi0]; omega
  | ⟨1, _⟩ => show win17_0.index t (1 : Fin 2) * 512 + 1 * k.val = (i 1).val; rw [e1, hi1]; omega

/-- Row r of point t's block of the children's cell rows is row 1·t + r of the array. -/
theorem blk1_apply (r : Fin 1) (k : Fin 512) (i : S1x512.Idx) (hi0 : (i 0).val = t.val * 1 + r.val) (hi1 : (i 1).val = k.val) :
    (iblk17 V c 1 t : Vec Ideal S1x512 .f32) (ix2 r k) = (V c (Pipeline.arrRef spec17 1) : S1x512.Idx → EReal) i := by
  obtain ⟨-, -, e0, e1, -⟩ := idx_facts t
  unfold iblk17
  rw [View.read_apply]
  refine congrArg (V c (Pipeline.arrRef spec17 1) : S1x512.Idx → EReal) (funext fun a => Fin.ext ?_)
  match a with
  | ⟨0, _⟩ => show win17_1.index t (0 : Fin 2) * 1 + 1 * r.val = (i 0).val; rw [e0, hi0]; omega
  | ⟨1, _⟩ => show win17_1.index t (1 : Fin 2) * 512 + 1 * k.val = (i 1).val; rw [e1, hi1]; omega

/-- The weight window's block is the whole transposed weight array. -/
theorem blk2_apply (k : Fin 256) (q : Fin 1024) :
    (iblk17 V c 2 t : Vec Ideal S256x1024 .bf16) (ix2 k q) = (V c (Pipeline.arrRef spec17 2) : S256x1024.Idx → EReal) (ix2 k q) := by
  obtain ⟨-, -, -, -, e0, e1, -⟩ := idx_facts t
  unfold iblk17
  rw [View.read_apply]
  refine congrArg (V c (Pipeline.arrRef spec17 2) : S256x1024.Idx → EReal) (funext fun a => Fin.ext ?_)
  match a with
  | ⟨0, _⟩ => show win17_2.index t (0 : Fin 2) * 256 + 1 * k.val = k.val; rw [e0]; omega
  | ⟨1, _⟩ => show win17_2.index t (1 : Fin 2) * 1024 + 1 * q.val = q.val; rw [e1]; omega

/-- The bias window's block is the whole bias row. -/
theorem blk3_apply (z : Fin 1) (q : Fin 1024) :
    (iblk17 V c 3 t : Vec Ideal S1x1024 .f32) (ix2 z q) = (V c (Pipeline.arrRef spec17 3) : S1x1024.Idx → EReal) (ix2 z q) := by
  obtain ⟨-, -, -, -, -, -, e0, e1, -⟩ := idx_facts t
  unfold iblk17
  rw [View.read_apply]
  refine congrArg (V c (Pipeline.arrRef spec17 3) : S1x1024.Idx → EReal) (funext fun a => Fin.ext ?_)
  match a with
  | ⟨0, _⟩ => show win17_3.index t (0 : Fin 2) * 1 + 1 * z.val = z.val; rw [e0]; omega
  | ⟨1, _⟩ => show win17_3.index t (1 : Fin 2) * 1024 + 1 * q.val = q.val; rw [e1]; omega

end Blocks

section Level

variable (c : Dev nD) (Wn hp cp : Nat → Nat → EReal) (bn : Nat → EReal)
  (hH : ∀ i : S1x512.Idx, (V c (Pipeline.arrRef spec17 0) : S1x512.Idx → EReal) i = Cert.Tree.paired hp (i 0).val (i 1).val)
  (hC : ∀ i : S1x512.Idx, (V c (Pipeline.arrRef spec17 1) : S1x512.Idx → EReal) i = Cert.Tree.paired cp (i 0).val (i 1).val)
  (hW : ∀ i : S256x1024.Idx, (V c (Pipeline.arrRef spec17 2) : S256x1024.Idx → EReal) i = Wn (i 1).val (i 0).val)
  (hB : ∀ i : S1x1024.Idx, (V c (Pipeline.arrRef spec17 3) : S1x1024.Idx → EReal) i = bn (i 1).val)

/-- The hidden array of this level as the tree gives it. -/
def GH : S1x256.Idx → EReal := fun i => Cert.Tree.nodeH Wn bn hp cp (i 0).val (i 1).val
/-- The cell array of this level as the tree gives it. -/
def GC : S1x256.Idx → EReal := fun i => Cert.Tree.nodeC Wn bn hp cp (i 0).val (i 1).val

include hH in
theorem in0 (t : Fin cfg17.N) (r : Fin 1) (k : Nat) (hk : k < 512) :
    Cert.Tree.natArr2 (a := 1) (b := 512) (iblk17 V c 0 t : Vec Ideal S1x512 .f32) r.val k = Cert.Tree.paired hp (t.val * 1 + r.val) k := by
  have ht := t_lt t
  have hr := r.isLt
  refine (Cert.Tree.natArr2_ix2 (a := 1) (b := 512) _ r ⟨k, hk⟩).trans ?_
  rw [blk0_apply V c t r ⟨k, hk⟩ (ix2 ⟨t.val * 1 + r.val, by omega⟩ ⟨k, hk⟩) rfl rfl]
  exact hH _

include hC in
theorem in1 (t : Fin cfg17.N) (r : Fin 1) (k : Nat) (hk : k < 512) :
    Cert.Tree.natArr2 (a := 1) (b := 512) (iblk17 V c 1 t : Vec Ideal S1x512 .f32) r.val k = Cert.Tree.paired cp (t.val * 1 + r.val) k := by
  have ht := t_lt t
  have hr := r.isLt
  refine (Cert.Tree.natArr2_ix2 (a := 1) (b := 512) _ r ⟨k, hk⟩).trans ?_
  rw [blk1_apply V c t r ⟨k, hk⟩ (ix2 ⟨t.val * 1 + r.val, by omega⟩ ⟨k, hk⟩) rfl rfl]
  exact hC _

include hW in
theorem in2 (t : Fin cfg17.N) (k : Nat) (hk : k < 256) (q : Nat) (hq : q < 1024) :
    Cert.Tree.natArr2 (a := 256) (b := 1024) (iblk17 V c 2 t : Vec Ideal S256x1024 .bf16) k q = Wn q k := by
  refine (Cert.Tree.natArr2_ix2 (a := 256) (b := 1024) _ ⟨k, hk⟩ ⟨q, hq⟩).trans ?_
  rw [blk2_apply V c t ⟨k, hk⟩ ⟨q, hq⟩]
  exact hW _

include hB in
theorem in3 (t : Fin cfg17.N) (q : Nat) (hq : q < 1024) :
    Cert.Tree.natArr2 (a := 1) (b := 1024) (iblk17 V c 3 t : Vec Ideal S1x1024 .f32) 0 q = bn q := by
  refine (Cert.Tree.natArr2_ix2 (a := 1) (b := 1024) _ (0 : Fin 1) ⟨q, hq⟩).trans ?_
  rw [blk3_apply V c t 0 ⟨q, hq⟩]
  exact hB _

include hH hC hW hB in
/-- What point t writes back to the hidden array is block t of the tree's level. -/
theorem flushed4 (t : Fin cfg17.N) :
    (dat17 V c).flushed 4 t = ((cfg17.win 4).blk t).view.read (Elt Ideal) (GH Wn hp cp bn) := by
  obtain ⟨-, -, -, -, -, -, -, -, e0, e1, -⟩ := idx_facts t
  have ht := t_lt t
  show (cfg17.win 4).cut (grid17.coords t) ((dat17 V c).after 4 t) = _
  rw [after17_4]
  unfold out17_4
  rw [View.canon_unit_zero hz]
  simp only [View.ld_unit_zero (S := S1x512) hz, View.ld_unit_zero (S := S256x1024) hz, View.ld_unit_zero (S := S1x1024) hz]
  rw [pay3_same]
  funext j
  obtain ⟨r, q, rfl⟩ : ∃ (r : Fin 1) (q : Fin 256), j = ix2 r q := ⟨j 0, j 1, eq_ix2 j⟩
  refine (T1.hidden_eq _ _ _ _ Wn hp cp bn (t.val * 1 + r.val) r (in0 V c hp hH t r) (in1 V c cp hC t r) (in2 V c Wn hW t) (in3 V c bn hB t) q).trans ?_
  show _ = GH Wn hp cp bn (((cfg17.win 4).blk t).view.emb (ix2 r q))
  unfold GH
  have a0 : ((((cfg17.win 4).blk t).view.emb (ix2 r q)) 0).val = t.val * 1 + r.val := by
    show win17_4.index t (0 : Fin 2) * 1 + 1 * r.val = _; rw [e0]; omega
  have a1 : ((((cfg17.win 4).blk t).view.emb (ix2 r q)) 1).val = q.val := by
    show win17_4.index t (1 : Fin 2) * 256 + 1 * q.val = _; rw [e1]; omega
  rw [a0, a1]

include hH hC hW hB in
/-- What point t writes back to the cell array is block t of the tree's level. -/
theorem flushed5 (t : Fin cfg17.N) :
    (dat17 V c).flushed 5 t = ((cfg17.win 5).blk t).view.read (Elt Ideal) (GC Wn hp cp bn) := by
  obtain ⟨-, -, -, -, -, -, -, -, -, -, e0, e1⟩ := idx_facts t
  have ht := t_lt t
  show (cfg17.win 5).cut (grid17.coords t) ((dat17 V c).after 5 t) = _
  rw [after17_5]
  unfold out17_5
  rw [View.canon_unit_zero hz]
  simp only [View.ld_unit_zero (S := S1x512) hz, View.ld_unit_zero (S := S256x1024) hz, View.ld_unit_zero (S := S1x1024) hz]
  rw [pay2_same]
  funext j
  obtain ⟨r, q, rfl⟩ : ∃ (r : Fin 1) (q : Fin 256), j = ix2 r q := ⟨j 0, j 1, eq_ix2 j⟩
  refine (T1.cell_eq _ _ _ _ Wn hp cp bn (t.val * 1 + r.val) r (in0 V c hp hH t r) (in1 V c cp hC t r) (in2 V c Wn hW t) (in3 V c bn hB t) q).trans ?_
  show _ = GC Wn hp cp bn (((cfg17.win 5).blk t).view.emb (ix2 r q))
  unfold GC
  have a0 : ((((cfg17.win 5).blk t).view.emb (ix2 r q)) 0).val = t.val * 1 + r.val := by
    show win17_5.index t (0 : Fin 2) * 1 + 1 * r.val = _; rw [e0]; omega
  have a1 : ((((cfg17.win 5).blk t).view.emb (ix2 r q)) 1).val = q.val := by
    show win17_5.index t (1 : Fin 2) * 256 + 1 * q.val = _; rw [e1]; omega
  rw [a0, a1]

/-- Every node's row is in the block of the point that handles it. -/
theorem cover4 (i : S1x256.Idx) : ∃ t : Fin cfg17.N, (cfg17.win 4).flush t = true ∧ i ∈ ((cfg17.win 4).blk t).view.set := by
  have hi0 : (i 0).val < 1 := (i 0).isLt
  have hi1 : (i 1).val < 256 := (i 1).isLt
  have hN : cfg17.N = 1 := N_17
  let t : Fin cfg17.N := ⟨(i 0).val / 1, by rw [hN]; omega⟩
  obtain ⟨-, -, -, -, -, -, -, -, e0, e1, -⟩ := idx_facts t
  refine ⟨t, flush17_4 t, ?_⟩
  show i ∈ ((View.whole main_v61_0).slice (win17_4.rect t)).set
  rw [View.set_slice_whole, Rect.mem_set_unit]
  intro a
  match a with
  | ⟨0, _⟩ => show win17_4.index t (0 : Fin 2) * 1 ≤ (i 0).val ∧ (i 0).val < win17_4.index t (0 : Fin 2) * 1 + 1; rw [e0]; show (i 0).val / 1 * 1 ≤ (i 0).val ∧ (i 0).val < (i 0).val / 1 * 1 + 1; omega
  | ⟨1, _⟩ => show win17_4.index t (1 : Fin 2) * 256 ≤ (i 1).val ∧ (i 1).val < win17_4.index t (1 : Fin 2) * 256 + 256; rw [e1]; omega

theorem cover5 (i : S1x256.Idx) : ∃ t : Fin cfg17.N, (cfg17.win 5).flush t = true ∧ i ∈ ((cfg17.win 5).blk t).view.set := by
  have hi0 : (i 0).val < 1 := (i 0).isLt
  have hi1 : (i 1).val < 256 := (i 1).isLt
  have hN : cfg17.N = 1 := N_17
  let t : Fin cfg17.N := ⟨(i 0).val / 1, by rw [hN]; omega⟩
  obtain ⟨-, -, -, -, -, -, -, -, -, -, e0, e1⟩ := idx_facts t
  refine ⟨t, flush17_5 t, ?_⟩
  show i ∈ ((View.whole main_v61_1).slice (win17_5.rect t)).set
  rw [View.set_slice_whole, Rect.mem_set_unit]
  intro a
  match a with
  | ⟨0, _⟩ => show win17_5.index t (0 : Fin 2) * 1 ≤ (i 0).val ∧ (i 0).val < win17_5.index t (0 : Fin 2) * 1 + 1; rw [e0]; show (i 0).val / 1 * 1 ≤ (i 0).val ∧ (i 0).val < (i 0).val / 1 * 1 + 1; omega
  | ⟨1, _⟩ => show win17_5.index t (1 : Fin 2) * 256 ≤ (i 1).val ∧ (i 1).val < win17_5.index t (1 : Fin 2) * 256 + 256; rw [e1]; omega

end Level

end Cert.KernelIdeal.TreeK.L17

namespace Cert.KernelIdeal.TreeK

open Cert.KernelIdeal Cert.KernelIdeal.Gen Idealize.ShloMosaic Idealize.ShloMosaic.TcCoe Idealize.SL.Sem

/-- Level 17: from the level below laid side by side at the region's entry, the region's two output arrays end at
    the tree's node functions. -/
theorem level17 (V : (c : Dev nD) → (b : Ref sig .tc) → Buf (Elt Ideal) ((c : Thread nD τ).loc b)) (c : Dev nD)
    (Wn hp cp : Nat → Nat → EReal) (bn : Nat → EReal)
    (hH : ∀ i : S1x512.Idx, (V c (Pipeline.arrRef spec17 0) : S1x512.Idx → EReal) i = Cert.Tree.paired hp (i 0).val (i 1).val)
    (hC : ∀ i : S1x512.Idx, (V c (Pipeline.arrRef spec17 1) : S1x512.Idx → EReal) i = Cert.Tree.paired cp (i 0).val (i 1).val)
    (hW : ∀ i : S256x1024.Idx, (V c (Pipeline.arrRef spec17 2) : S256x1024.Idx → EReal) i = Wn (i 1).val (i 0).val)
    (hB : ∀ i : S1x1024.Idx, (V c (Pipeline.arrRef spec17 3) : S1x1024.Idx → EReal) i = bn (i 1).val) :
    (∀ i : S1x256.Idx, ((dat17 V c).arrAt 4 cfg17.N : S1x256.Idx → EReal) i = Cert.Tree.nodeH Wn bn hp cp (i 0).val (i 1).val)
    ∧ (∀ i : S1x256.Idx, ((dat17 V c).arrAt 5 cfg17.N : S1x256.Idx → EReal) i = Cert.Tree.nodeC Wn bn hp cp (i 0).val (i 1).val) :=
  ⟨fun i => congrFun ((dat17 V c).arrAt_eq_of_cover 4 (L17.GH Wn hp cp bn) (fun t _ => L17.flushed4 V c Wn hp cp bn hH hC hW hB t) L17.cover4) i,
   fun i => congrFun ((dat17 V c).arrAt_eq_of_cover 5 (L17.GC Wn hp cp bn) (fun t _ => L17.flushed5 V c Wn hp cp bn hH hC hW hB t) L17.cover5) i⟩

end Cert.KernelIdeal.TreeK

end
-- ==== Proof.KTree.lean ====
/-
  The kernel program computes the TreeLSTM: its result is the hidden state of the root.

  The program runs eighteen kernels, one per level of the tree, the leaves first. By induction on the level, the two
  output arrays of level k's kernel hold the hidden and the cell states of level k's nodes, `Cert.Tree.lvl … k`:
    level 0: the leaf kernel finds the input rows, the input-side weights and the bias in its three input arrays
             (as the host operations before it leave them), and its value lemma gives the leaves' states;
    level k + 1: the host re-reads level k's outputs, 2n rows of 256, as n rows of 512, so node r finds its
             children's rows 2r and 2r + 1 side by side; the weight and bias arrays are as the host wrote them
             before the leaf kernel; the internal kernel's value lemma gives the nodes' states from the children's.
  The root is level 17's one node; its hidden state is the first output array of the last kernel, which is what the
  program's result buffer holds when the run ends.
-/
import proofs.«163443_j13855564497595_2_alg».proof.Proof.Tree
import proofs.«163443_j13855564497595_2_alg».proof.Proof.Gen.KernelIdeal.Frame
import proofs.«163443_j13855564497595_2_alg».proof.Proof.KGlueRun
import proofs.«163443_j13855564497595_2_alg».proof.Proof.KGlueEntry
import proofs.«163443_j13855564497595_2_alg».proof.Proof.KGlueConstW
import proofs.«163443_j13855564497595_2_alg».proof.Proof.KGlueConstB
import proofs.«163443_j13855564497595_2_alg».proof.Proof.KGlueStep1
import proofs.«163443_j13855564497595_2_alg».proof.Proof.KGlueStep2
import proofs.«163443_j13855564497595_2_alg».proof.Proof.KGlueStep3
import proofs.«163443_j13855564497595_2_alg».proof.Proof.KGlueStep4
import proofs.«163443_j13855564497595_2_alg».proof.Proof.KGlueStep5
import proofs.«163443_j13855564497595_2_alg».proof.Proof.KGlueStep6
import proofs.«163443_j13855564497595_2_alg».proof.Proof.KGlueStep7
import proofs.«163443_j13855564497595_2_alg».proof.Proof.KGlueStep8
import proofs.«163443_j13855564497595_2_alg».proof.Proof.KGlueStep9
import proofs.«163443_j13855564497595_2_alg».proof.Proof.KGlueStep10
import proofs.«163443_j13855564497595_2_alg».proof.Proof.KGlueStep11
import proofs.«163443_j13855564497595_2_alg».proof.Proof.KGlueStep12
import proofs.«163443_j13855564497595_2_alg».proof.Proof.KGlueStep13
import proofs.«163443_j13855564497595_2_alg».proof.Proof.KGlueStep14
import proofs.«163443_j13855564497595_2_alg».proof.Proof.KGlueStep15
import proofs.«163443_j13855564497595_2_alg».proof.Proof.KGlueStep16
import proofs.«163443_j13855564497595_2_alg».proof.Proof.KGlueStep17
import proofs.«163443_j13855564497595_2_alg».proof.Proof.KLevel0
import proofs.«163443_j13855564497595_2_alg».proof.Proof.KLevel1
import proofs.«163443_j13855564497595_2_alg».proof.Proof.KLevel2
import proofs.«163443_j13855564497595_2_alg».proof.Proof.KLevel3
import proofs.«163443_j13855564497595_2_alg».proof.Proof.KLevel4
import proofs.«163443_j13855564497595_2_alg».proof.Proof.KLevel5
import proofs.«163443_j13855564497595_2_alg».proof.Proof.KLevel6
import proofs.«163443_j13855564497595_2_alg».proof.Proof.KLevel7
import proofs.«163443_j13855564497595_2_alg».proof.Proof.KLevel8
import proofs.«163443_j13855564497595_2_alg».proof.Proof.KLevel9
import proofs.«163443_j13855564497595_2_alg».proof.Proof.KLevel10
import proofs.«163443_j13855564497595_2_alg».proof.Proof.KLevel11
import proofs.«163443_j13855564497595_2_alg».proof.Proof.KLevel12
import proofs.«163443_j13855564497595_2_alg».proof.Proof.KLevel13
import proofs.«163443_j13855564497595_2_alg».proof.Proof.KLevel14
import proofs.«163443_j13855564497595_2_alg».proof.Proof.KLevel15
import proofs.«163443_j13855564497595_2_alg».proof.Proof.KLevel16
import proofs.«163443_j13855564497595_2_alg».proof.Proof.KLevel17

set_option maxRecDepth 16384

noncomputable section

namespace Cert.KernelIdeal.TreeK

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The leaf kernel's two output arrays hold the leaves' hidden and cell states. -/
theorem out0 (c : Dev nD) :
    (∀ i : S131072x256.Idx, ((dat0 (V1 m ρ) c).arrAt 3 cfg0.N : S131072x256.Idx → EReal) i = (Cert.Tree.lvl (Wn m c) (bn m c) (X m c) 0).1 (i 0).val (i 1).val)
    ∧ (∀ i : S131072x256.Idx, ((dat0 (V1 m ρ) c).arrAt 4 cfg0.N : S131072x256.Idx → EReal) i = (Cert.Tree.lvl (Wn m c) (bn m c) (X m c) 0).2 (i 0).val (i 1).val) :=
  level0 (V1 m ρ) c (Wn m c) (X m c) (bn m c) (entry0_X m ρ c) (entry0_W m ρ c) (entry0_B m ρ c)

/-- Level 1's kernel's two output arrays hold the hidden and cell states of level 1's 65536 nodes. -/
theorem out1 (c : Dev nD) :
    (∀ i : S65536x256.Idx, ((dat1 (V3 m ρ) c).arrAt 4 cfg1.N : S65536x256.Idx → EReal) i = (Cert.Tree.lvl (Wn m c) (bn m c) (X m c) 1).1 (i 0).val (i 1).val)
    ∧ (∀ i : S65536x256.Idx, ((dat1 (V3 m ρ) c).arrAt 5 cfg1.N : S65536x256.Idx → EReal) i = (Cert.Tree.lvl (Wn m c) (bn m c) (X m c) 1).2 (i 0).val (i 1).val) :=
  level1 (V3 m ρ) c (Wn m c) (Cert.Tree.lvl (Wn m c) (bn m c) (X m c) 0).1 (Cert.Tree.lvl (Wn m c) (bn m c) (X m c) 0).2 (bn m c)
    (entry1_H m ρ c _ (out0 m ρ c).1) (entry1_C m ρ c _ (out0 m ρ c).2) (entry1_W m ρ c) (entry1_B m ρ c)

/-- Level 2's kernel's two output arrays hold the hidden and cell states of level 2's 32768 nodes. -/
theorem out2 (c : Dev nD) :
    (∀ i : S32768x256.Idx, ((dat2 (V5 m ρ) c).arrAt 4 cfg2.N : S32768x256.Idx → EReal) i = (Cert.Tree.lvl (Wn m c) (bn m c) (X m c) 2).1 (i 0).val (i 1).val)
    ∧ (∀ i : S32768x256.Idx, ((dat2 (V5 m ρ) c).arrAt 5 cfg2.N : S32768x256.Idx → EReal) i = (Cert.Tree.lvl (Wn m c) (bn m c) (X m c) 2).2 (i 0).val (i 1).val) :=
  level2 (V5 m ρ) c (Wn m c) (Cert.Tree.lvl (Wn m c) (bn m c) (X m c) 1).1 (Cert.Tree.lvl (Wn m c) (bn m c) (X m c) 1).2 (bn m c)
    (entry2_H m ρ c _ (out1 m ρ c).1) (entry2_C m ρ c _ (out1 m ρ c).2) (entry2_W m ρ c) (entry2_B m ρ c)

/-- Level 3's kernel's two output arrays hold the hidden and cell states of level 3's 16384 nodes. -/
theorem out3 (c : Dev nD) :
    (∀ i : S16384x256.Idx, ((dat3 (V7 m ρ) c).arrAt 4 cfg3.N : S16384x256.Idx → EReal) i = (Cert.Tree.lvl (Wn m c) (bn m c) (X m c) 3).1 (i 0).val (i 1).val)
    ∧ (∀ i : S16384x256.Idx, ((dat3 (V7 m ρ) c).arrAt 5 cfg3.N : S16384x256.Idx → EReal) i = (Cert.Tree.lvl (Wn m c) (bn m c) (X m c) 3).2 (i 0).val (i 1).val) :=
  level3 (V7 m ρ) c (Wn m c) (Cert.Tree.lvl (Wn m c) (bn m c) (X m c) 2).1 (Cert.Tree.lvl (Wn m c) (bn m c) (X m c) 2).2 (bn m c)
    (entry3_H m ρ c _ (out2 m ρ c).1) (entry3_C m ρ c _ (out2 m ρ c).2) (entry3_W m ρ c) (entry3_B m ρ c)

/-- Level 4's kernel's two output arrays hold the hidden and cell states of level 4's 8192 nodes. -/
theorem out4 (c : Dev nD) :
    (∀ i : S8192x256.Idx, ((dat4 (V9 m ρ) c).arrAt 4 cfg4.N : S8192x256.Idx → EReal) i = (Cert.Tree.lvl (Wn m c) (bn m c) (X m c) 4).1 (i 0).val (i 1).val)
    ∧ (∀ i : S8192x256.Idx, ((dat4 (V9 m ρ) c).arrAt 5 cfg4.N : S8192x256.Idx → EReal) i = (Cert.Tree.lvl (Wn m c) (bn m c) (X m c) 4).2 (i 0).val (i 1).val) :=
  level4 (V9 m ρ) c (Wn m c) (Cert.Tree.lvl (Wn m c) (bn m c) (X m c) 3).1 (Cert.Tree.lvl (Wn m c) (bn m c) (X m c) 3).2 (bn m c)
    (entry4_H m ρ c _ (out3 m ρ c).1) (entry4_C m ρ c _ (out3 m ρ c).2) (entry4_W m ρ c) (entry4_B m ρ c)

/-- Level 5's kernel's two output arrays hold the hidden and cell states of level 5's 4096 nodes. -/
theorem out5 (c : Dev nD) :
    (∀ i : S4096x256.Idx, ((dat5 (V11 m ρ) c).arrAt 4 cfg5.N : S4096x256.Idx → EReal) i = (Cert.Tree.lvl (Wn m c) (bn m c) (X m c) 5).1 (i 0).val (i 1).val)
    ∧ (∀ i : S4096x256.Idx, ((dat5 (V11 m ρ) c).arrAt 5 cfg5.N : S4096x256.Idx → EReal) i = (Cert.Tree.lvl (Wn m c) (bn m c) (X m c) 5).2 (i 0).val (i 1).val) :=
  level5 (V11 m ρ) c (Wn m c) (Cert.Tree.lvl (Wn m c) (bn m c) (X m c) 4).1 (Cert.Tree.lvl (Wn m c) (bn m c) (X m c) 4).2 (bn m c)
    (entry5_H m ρ c _ (out4 m ρ c).1) (entry5_C m ρ c _ (out4 m ρ c).2) (entry5_W m ρ c) (entry5_B m ρ c)

/-- Level 6's kernel's two output arrays hold the hidden and cell states of level 6's 2048 nodes. -/
theorem out6 (c : Dev nD) :
    (∀ i : S2048x256.Idx, ((dat6 (V13 m ρ) c).arrAt 4 cfg6.N : S2048x256.Idx → EReal) i = (Cert.Tree.lvl (Wn m c) (bn m c) (X m c) 6).1 (i 0).val (i 1).val)
    ∧ (∀ i : S2048x256.Idx, ((dat6 (V13 m ρ) c).arrAt 5 cfg6.N : S2048x256.Idx → EReal) i = (Cert.Tree.lvl (Wn m c) (bn m c) (X m c) 6).2 (i 0).val (i 1).val) :=
  level6 (V13 m ρ) c (Wn m c) (Cert.Tree.lvl (Wn m c) (bn m c) (X m c) 5).1 (Cert.Tree.lvl (Wn m c) (bn m c) (X m c) 5).2 (bn m c)
    (entry6_H m ρ c _ (out5 m ρ c).1) (entry6_C m ρ c _ (out5 m ρ c).2) (entry6_W m ρ c) (entry6_B m ρ c)

/-- Level 7's kernel's two output arrays hold the hidden and cell states of level 7's 1024 nodes. -/
theorem out7 (c : Dev nD) :
    (∀ i : S1024x256.Idx, ((dat7 (V15 m ρ) c).arrAt 4 cfg7.N : S1024x256.Idx → EReal) i = (Cert.Tree.lvl (Wn m c) (bn m c) (X m c) 7).1 (i 0).val (i 1).val)
    ∧ (∀ i : S1024x256.Idx, ((dat7 (V15 m ρ) c).arrAt 5 cfg7.N : S1024x256.Idx → EReal) i = (Cert.Tree.lvl (Wn m c) (bn m c) (X m c) 7).2 (i 0).val (i 1).val) :=
  level7 (V15 m ρ) c (Wn m c) (Cert.Tree.lvl (Wn m c) (bn m c) (X m c) 6).1 (Cert.Tree.lvl (Wn m c) (bn m c) (X m c) 6).2 (bn m c)
    (entry7_H m ρ c _ (out6 m ρ c).1) (entry7_C m ρ c _ (out6 m ρ c).2) (entry7_W m ρ c) (entry7_B m ρ c)

/-- Level 8's kernel's two output arrays hold the hidden and cell states of level 8's 512 nodes. -/
theorem out8 (c : Dev nD) :
    (∀ i : S512x256.Idx, ((dat8 (V17 m ρ) c).arrAt 4 cfg8.N : S512x256.Idx → EReal) i = (Cert.Tree.lvl (Wn m c) (bn m c) (X m c) 8).1 (i 0).val (i 1).val)
    ∧ (∀ i : S512x256.Idx, ((dat8 (V17 m ρ) c).arrAt 5 cfg8.N : S512x256.Idx → EReal) i = (Cert.Tree.lvl (Wn m c) (bn m c) (X m c) 8).2 (i 0).val (i 1).val) :=
  level8 (V17 m ρ) c (Wn m c) (Cert.Tree.lvl (Wn m c) (bn m c) (X m c) 7).1 (Cert.Tree.lvl (Wn m c) (bn m c) (X m c) 7).2 (bn m c)
    (entry8_H m ρ c _ (out7 m ρ c).1) (entry8_C m ρ c _ (out7 m ρ c).2) (entry8_W m ρ c) (entry8_B m ρ c)

/-- Level 9's kernel's two output arrays hold the hidden and cell states of level 9's 256 nodes. -/
theorem out9 (c : Dev nD) :
    (∀ i : S256x256.Idx, ((dat9 (V19 m ρ) c).arrAt 4 cfg9.N : S256x256.Idx → EReal) i = (Cert.Tree.lvl (Wn m c) (bn m c) (X m c) 9).1 (i 0).val (i 1).val)
    ∧ (∀ i : S256x256.Idx, ((dat9 (V19 m ρ) c).arrAt 5 cfg9.N : S256x256.Idx → EReal) i = (Cert.Tree.lvl (Wn m c) (bn m c) (X m c) 9).2 (i 0).val (i 1).val) :=
  level9 (V19 m ρ) c (Wn m c) (Cert.Tree.lvl (Wn m c) (bn m c) (X m c) 8).1 (Cert.Tree.lvl (Wn m c) (bn m c) (X m c) 8).2 (bn m c)
    (entry9_H m ρ c _ (out8 m ρ c).1) (entry9_C m ρ c _ (out8 m ρ c).2) (entry9_W m ρ c) (entry9_B m ρ c)

/-- Level 10's kernel's two output arrays hold the hidden and cell states of level 10's 128 nodes. -/
theorem out10 (c : Dev nD) :
    (∀ i : S128x256.Idx, ((dat10 (V21 m ρ) c).arrAt 4 cfg10.N : S128x256.Idx → EReal) i = (Cert.Tree.lvl (Wn m c) (bn m c) (X m c) 10).1 (i 0).val (i 1).val)
    ∧ (∀ i : S128x256.Idx, ((dat10 (V21 m ρ) c).arrAt 5 cfg10.N : S128x256.Idx → EReal) i = (Cert.Tree.lvl (Wn m c) (bn m c) (X m c) 10).2 (i 0).val (i 1).val) :=
  level10 (V21 m ρ) c (Wn m c) (Cert.Tree.lvl (Wn m c) (bn m c) (X m c) 9).1 (Cert.Tree.lvl (Wn m c) (bn m c) (X m c) 9).2 (bn m c)
    (entry10_H m ρ c _ (out9 m ρ c).1) (entry10_C m ρ c _ (out9 m ρ c).2) (entry10_W m ρ c) (entry10_B m ρ c)

/-- Level 11's kernel's two output arrays hold the hidden and cell states of level 11's 64 nodes. -/
theorem out11 (c : Dev nD) :
    (∀ i : S64x256.Idx, ((dat11 (V23 m ρ) c).arrAt 4 cfg11.N : S64x256.Idx → EReal) i = (Cert.Tree.lvl (Wn m c) (bn m c) (X m c) 11).1 (i 0).val (i 1).val)
    ∧ (∀ i : S64x256.Idx, ((dat11 (V23 m ρ) c).arrAt 5 cfg11.N : S64x256.Idx → EReal) i = (Cert.Tree.lvl (Wn m c) (bn m c) (X m c) 11).2 (i 0).val (i 1).val) :=
  level11 (V23 m ρ) c (Wn m c) (Cert.Tree.lvl (Wn m c) (bn m c) (X m c) 10).1 (Cert.Tree.lvl (Wn m c) (bn m c) (X m c) 10).2 (bn m c)
    (entry11_H m ρ c _ (out10 m ρ c).1) (entry11_C m ρ c _ (out10 m ρ c).2) (entry11_W m ρ c) (entry11_B m ρ c)

/-- Level 12's kernel's two output arrays hold the hidden and cell states of level 12's 32 nodes. -/
theorem out12 (c : Dev nD) :
    (∀ i : S32x256.Idx, ((dat12 (V25 m ρ) c).arrAt 4 cfg12.N : S32x256.Idx → EReal) i = (Cert.Tree.lvl (Wn m c) (bn m c) (X m c) 12).1 (i 0).val (i 1).val)
    ∧ (∀ i : S32x256.Idx, ((dat12 (V25 m ρ) c).arrAt 5 cfg12.N : S32x256.Idx → EReal) i = (Cert.Tree.lvl (Wn m c) (bn m c) (X m c) 12).2 (i 0).val (i 1).val) :=
  level12 (V25 m ρ) c (Wn m c) (Cert.Tree.lvl (Wn m c) (bn m c) (X m c) 11).1 (Cert.Tree.lvl (Wn m c) (bn m c) (X m c) 11).2 (bn m c)
    (entry12_H m ρ c _ (out11 m ρ c).1) (entry12_C m ρ c _ (out11 m ρ c).2) (entry12_W m ρ c) (entry12_B m ρ c)

/-- Level 13's kernel's two output arrays hold the hidden and cell states of level 13's 16 nodes. -/
theorem out13 (c : Dev nD) :
    (∀ i : S16x256.Idx, ((dat13 (V27 m ρ) c).arrAt 4 cfg13.N : S16x256.Idx → EReal) i = (Cert.Tree.lvl (Wn m c) (bn m c) (X m c) 13).1 (i 0).val (i 1).val)
    ∧ (∀ i : S16x256.Idx, ((dat13 (V27 m ρ) c).arrAt 5 cfg13.N : S16x256.Idx → EReal) i = (Cert.Tree.lvl (Wn m c) (bn m c) (X m c) 13).2 (i 0).val (i 1).val) :=
  level13 (V27 m ρ) c (Wn m c) (Cert.Tree.lvl (Wn m c) (bn m c) (X m c) 12).1 (Cert.Tree.lvl (Wn m c) (bn m c) (X m c) 12).2 (bn m c)
    (entry13_H m ρ c _ (out12 m ρ c).1) (entry13_C m ρ c _ (out12 m ρ c).2) (entry13_W m ρ c) (entry13_B m ρ c)

/-- Level 14's kernel's two output arrays hold the hidden and cell states of level 14's 8 nodes. -/
theorem out14 (c : Dev nD) :
    (∀ i : S8x256.Idx, ((dat14 (V29 m ρ) c).arrAt 4 cfg14.N : S8x256.Idx → EReal) i = (Cert.Tree.lvl (Wn m c) (bn m c) (X m c) 14).1 (i 0).val (i 1).val)
    ∧ (∀ i : S8x256.Idx, ((dat14 (V29 m ρ) c).arrAt 5 cfg14.N : S8x256.Idx → EReal) i = (Cert.Tree.lvl (Wn m c) (bn m c) (X m c) 14).2 (i 0).val (i 1).val) :=
  level14 (V29 m ρ) c (Wn m c) (Cert.Tree.lvl (Wn m c) (bn m c) (X m c) 13).1 (Cert.Tree.lvl (Wn m c) (bn m c) (X m c) 13).2 (bn m c)
    (entry14_H m ρ c _ (out13 m ρ c).1) (entry14_C m ρ c _ (out13 m ρ c).2) (entry14_W m ρ c) (entry14_B m ρ c)

/-- Level 15's kernel's two output arrays hold the hidden and cell states of level 15's 4 nodes. -/
theorem out15 (c : Dev nD) :
    (∀ i : S4x256.Idx, ((dat15 (V31 m ρ) c).arrAt 4 cfg15.N : S4x256.Idx → EReal) i = (Cert.Tree.lvl (Wn m c) (bn m c) (X m c) 15).1 (i 0).val (i 1).val)
    ∧ (∀ i : S4x256.Idx, ((dat15 (V31 m ρ) c).arrAt 5 cfg15.N : S4x256.Idx → EReal) i = (Cert.Tree.lvl (Wn m c) (bn m c) (X m c) 15).2 (i 0).val (i 1).val) :=
  level15 (V31 m ρ) c (Wn m c) (Cert.Tree.lvl (Wn m c) (bn m c) (X m c) 14).1 (Cert.Tree.lvl (Wn m c) (bn m c) (X m c) 14).2 (bn m c)
    (entry15_H m ρ c _ (out14 m ρ c).1) (entry15_C m ρ c _ (out14 m ρ c).2) (entry15_W m ρ c) (entry15_B m ρ c)

/-- Level 16's kernel's two output arrays hold the hidden and cell states of level 16's 2 nodes. -/
theorem out16 (c : Dev nD) :
    (∀ i : S2x256.Idx, ((dat16 (V33 m ρ) c).arrAt 4 cfg16.N : S2x256.Idx → EReal) i = (Cert.Tree.lvl (Wn m c) (bn m c) (X m c) 16).1 (i 0).val (i 1).val)
    ∧ (∀ i : S2x256.Idx, ((dat16 (V33 m ρ) c).arrAt 5 cfg16.N : S2x256.Idx → EReal) i = (Cert.Tree.lvl (Wn m c) (bn m c) (X m c) 16).2 (i 0).val (i 1).val) :=
  level16 (V33 m ρ) c (Wn m c) (Cert.Tree.lvl (Wn m c) (bn m c) (X m c) 15).1 (Cert.Tree.lvl (Wn m c) (bn m c) (X m c) 15).2 (bn m c)
    (entry16_H m ρ c _ (out15 m ρ c).1) (entry16_C m ρ c _ (out15 m ρ c).2) (entry16_W m ρ c) (entry16_B m ρ c)

/-- Level 17's kernel's two output arrays hold the hidden and cell states of level 17's 1 node. -/
theorem out17 (c : Dev nD) :
    (∀ i : S1x256.Idx, ((dat17 (V35 m ρ) c).arrAt 4 cfg17.N : S1x256.Idx → EReal) i = (Cert.Tree.lvl (Wn m c) (bn m c) (X m c) 17).1 (i 0).val (i 1).val)
    ∧ (∀ i : S1x256.Idx, ((dat17 (V35 m ρ) c).arrAt 5 cfg17.N : S1x256.Idx → EReal) i = (Cert.Tree.lvl (Wn m c) (bn m c) (X m c) 17).2 (i 0).val (i 1).val) :=
  level17 (V35 m ρ) c (Wn m c) (Cert.Tree.lvl (Wn m c) (bn m c) (X m c) 16).1 (Cert.Tree.lvl (Wn m c) (bn m c) (X m c) 16).2 (bn m c)
    (entry17_H m ρ c _ (out16 m ρ c).1) (entry17_C m ρ c _ (out16 m ρ c).2) (entry17_W m ρ c) (entry17_B m ρ c)

/-- Every weakly fair execution of the kernel program terminates without a fault, its result buffer ends holding the
    root's hidden state, and the three arguments end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61_0) = (fun i : S1x256.Idx => (Cert.Tree.lvl (Wn m c) (bn m c) (X m c) 17).1 (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun r h c => ⟨(h c).1.trans ((W36_arr m ρ c 4).trans (funext (out17 m ρ c).1)), (h c).2⟩)
    (run_value m ρ)

end Cert.KernelIdeal.TreeK

end
-- ==== Proof.RefOps.lean ====
/-
  The array operations of the tree recursion, each read at one index, for an arbitrary number of rows `n`.

  Every level of the tree applies the same operations to arrays that differ only in their number of rows:
  rows are summed in adjacent pairs, the result is laid beside a block of zeros (at the leaves: zeros beside
  the input), multiplied by the transposed weight matrix, the bias is added, the 1024 columns are cut into
  four blocks of 256, and the blocks are combined through the logistic function `1 / (1 + exp (-x))` and the
  hyperbolic tangent. Here each of these array expressions is given a name, with the number of rows a
  variable, and is read at an index as the corresponding expression on extended reals.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

namespace Cert.RefOps

open Idealize.ShloMosaic

/-- The shape of a scalar. -/
abbrev S0 : Shape := ⟨0, ![]⟩

/-- The bit pattern of the number one. -/
theorem one_bits : Ideal.ofBits .f32 0x3F800000#32 = 1 := IdealRules.sign_bit.ideal_onePat .f32

section AnyShape

variable {s : Shape}

/-- The array of zeros. -/
def zerosT (bc : S0.BroadcastsInDim s (![] : Fin 0 → Fin s.rank)) : FVec Ideal s .f32 :=
  broadcastInDim s ![] bc (constant (F := Ideal) S0 .f32 0x00000000#32)

theorem zerosT_apply (bc : S0.BroadcastsInDim s (![] : Fin 0 → Fin s.rank)) (i : s.Idx) : zerosT bc i = 0 :=
  Ideal.ofBits_zero_f32

/-- The logistic function spelt as a quotient, `1 / (1 + exp (-v))`, elementwise. -/
def sigT (bc : S0.BroadcastsInDim s (![] : Fin 0 → Fin s.rank)) (v : FVec Ideal s .f32) : FVec Ideal s .f32 :=
  Host.divf (F := Ideal) (broadcastInDim s ![] bc (constant (F := Ideal) S0 .f32 0x3F800000#32))
    (addf (broadcastInDim s ![] bc (constant (F := Ideal) S0 .f32 0x3F800000#32)) (Host.exp (Host.negf v)))

theorem sigT_apply (bc : S0.BroadcastsInDim s (![] : Fin 0 → Fin s.rank)) (v : FVec Ideal s .f32) (i : s.Idx) :
    sigT bc v i = Ideal.logistic (v i) := by
  show Ideal.div (Ideal.ofBits .f32 0x3F800000#32) (Ideal.ofBits .f32 0x3F800000#32 + Ideal.exp (-(v i))) = Ideal.logistic (v i)
  rw [one_bits]
  rfl

theorem tanh_apply (v : FVec Ideal s .f32) (i : s.Idx) : Host.tanh (F := Ideal) v i = Ideal.tanh (v i) := rfl

end AnyShape

/-- A block of 256 columns, starting at column `off`, of an array of 1024 columns. -/
theorem slice_apply {n : Nat} (off : Nat) (hoff : off + 256 ≤ 1024) (g : (⟨2, ![n, 1024]⟩ : Shape).Idx → EReal)
    (sl : (⟨2, ![n, 1024]⟩ : Shape).Slices ![0, off] ⟨2, ![n, 256]⟩) (i : (⟨2, ![n, 256]⟩ : Shape).Idx) :
    extractStridedSlice ⟨2, ![n, 256]⟩ ![0, off] g sl i
      = g (ValueIdx.ix2 (n0 := n) (n1 := 1024) (i 0) ⟨off + (i 1).val, by have := ValueIdx.idx2_lt1 i; omega⟩) := by
  refine extractStridedSlice_apply _ g sl i _ fun a => ?_
  match a with
  | ⟨0, _⟩ => show (i 0).val = 0 + (i 0).val; omega
  | ⟨1, _⟩ => rfl

/-- Adjacent rows summed in pairs: an array of `m = 2n` rows is re-read as `n` pairs of rows and summed over each pair. -/
def pairT {n m : Nat} (sc : (⟨2, ![m, 256]⟩ : Shape).ShapeCasts ⟨3, ![n, 2, 256]⟩)
    (rt : (⟨3, ![n, 2, 256]⟩ : Shape).ReducesTo [1] ⟨2, ![n, 256]⟩) (hS : 0 < S0.numel)
    (h : FVec Ideal ⟨2, ![m, 256]⟩ .f32) : FVec Ideal ⟨2, ![n, 256]⟩ .f32 :=
  Host.reduceAdd (F := Ideal) (shapeCast ⟨3, ![n, 2, 256]⟩ h sc) (constant (F := Ideal) S0 .f32 0x00000000#32) rt hS

/-- Row `r` of the pair sums is row `2r` plus row `2r + 1`: position `(r, a, k)` of the three-axis reading is
    position `(2r + a, k)` of the two-axis one, both being number `(2r + a) · 256 + k` in row-major order. -/
theorem pairT_apply {n m : Nat} (hm : m = 2 * n) (sc : (⟨2, ![m, 256]⟩ : Shape).ShapeCasts ⟨3, ![n, 2, 256]⟩)
    (rt : (⟨3, ![n, 2, 256]⟩ : Shape).ReducesTo [1] ⟨2, ![n, 256]⟩) (hS : 0 < S0.numel)
    (h : FVec Ideal ⟨2, ![m, 256]⟩ .f32) (i : (⟨2, ![n, 256]⟩ : Shape).Idx) :
    pairT sc rt hS h i
      = h (ValueIdx.ix2 (n0 := m) (n1 := 256) ⟨2 * (i 0).val, by have := ValueIdx.idx2_lt0 i; omega⟩ (i 1))
        + h (ValueIdx.ix2 (n0 := m) (n1 := 256) ⟨2 * (i 0).val + 1, by have := ValueIdx.idx2_lt0 i; omega⟩ (i 1)) := by
  have hR : (⟨3, ![n, 2, 256]⟩ : Shape).Reduces [1] ⟨2, ![n, 256]⟩ := ⟨rt.1, Nat.two_pos, rt.2⟩
  have hi0 := ValueIdx.idx2_lt0 i
  have e0 : ∀ (a : Fin 2) (ha : 2 * (i 0).val + a.val < m),
      shapeCast ⟨3, ![n, 2, 256]⟩ h sc (hR.lift i a) = h (ValueIdx.ix2 (n0 := m) (n1 := 256) ⟨2 * (i 0).val + a.val, ha⟩ (i 1)) := by
    intro a ha
    refine shapeCast_apply h sc (hR.lift i a) _ ?_
    rw [Shape.rowMajor_val_two, Shape.rowMajor_val_three]
    show (2 * (i 0).val + a.val) * 256 + (i 1).val = ((i 0).val * 2 + a.val) * 256 + (i 1).val
    omega
  unfold pairT
  refine (Ideal.hostReduceAdd_single rt hR _ _ i).trans ?_
  refine (congrArg (_ + ·) (Fin.sum_univ_two fun a : Fin 2 => shapeCast ⟨3, ![n, 2, 256]⟩ h sc (hR.lift i a))).trans ?_
  rw [e0 0 (by show 2 * (i 0).val + 0 < m; omega), e0 1 (by show 2 * (i 0).val + 1 < m; omega)]
  show Ideal.ofBits .f32 0x00000000#32 + _ = _
  rw [Ideal.ofBits_zero_f32, zero_add]
  rfl

/-- A product of an `n × 512` array with a `512 × 1024` array, at an index: the sum over the shared axis. -/
theorem dot_apply {n : Nat} (lhs : FVec Ideal ⟨2, ![n, 512]⟩ .f32) (rhs : FVec Ideal ⟨2, ![512, 1024]⟩ .f32)
    (i : (⟨2, ![n, 1024]⟩ : Shape).Idx) :
    Host.dotGeneral (F := Ideal) (DotDims.plain n 512 1024) none lhs rhs i
      = ∑ k : Fin 512, lhs (ValueIdx.ix2 (n0 := n) (n1 := 512) (i 0) k) * rhs (ValueIdx.ix2 (n0 := 512) (n1 := 1024) k (i 1)) := by
  show FloatOps.dotGeneral (DotDims.plain n 512 1024) none .single lhs rhs i = _
  rw [Ideal.dotGeneral_apply, ← Equiv.sum_comp (ValueIdx.contrEquiv1 (DotDims.plain n 512 1024) 512 rfl rfl).symm]
  refine Finset.sum_congr rfl fun k _ => ?_
  have hk := ValueIdx.contrEquiv1_symm_val (DotDims.plain n 512 1024) 512 rfl rfl k
  have el : (DotDims.plain n 512 1024).lhsIdx i ((ValueIdx.contrEquiv1 (DotDims.plain n 512 1024) 512 rfl rfl).symm k)
      = ValueIdx.ix2 (n0 := n) (n1 := 512) (i 0) k := funext fun a => Fin.ext (by
    match a with
    | ⟨0, _⟩ => rfl
    | ⟨1, _⟩ => exact ((DotDims.plain n 512 1024).lhsIdx_val_of_single rfl i _).trans hk)
  have er : (DotDims.plain n 512 1024).rhsIdx i ((ValueIdx.contrEquiv1 (DotDims.plain n 512 1024) 512 rfl rfl).symm k)
      = ValueIdx.ix2 (n0 := 512) (n1 := 1024) k (i 1) := funext fun a => Fin.ext (by
    match a with
    | ⟨0, _⟩ => exact ((DotDims.plain n 512 1024).rhsIdx_val_of_single rfl i _).trans hk
    | ⟨1, _⟩ => rfl)
  rw [el, er]

theorem transpose_read (W : FVec Ideal ⟨2, ![1024, 512]⟩ .f32)
    (tr : (⟨2, ![1024, 512]⟩ : Shape).Transposes [1, 0] ⟨2, ![512, 1024]⟩) (k : Fin 512) (q : Fin 1024) :
    transpose ⟨2, ![512, 1024]⟩ [1, 0] W tr (ValueIdx.ix2 k q) = W (ValueIdx.ix2 q k) := by
  refine transpose_apply _ W tr _ _ fun b => ?_
  match b with
  | ⟨0, _⟩ => rfl
  | ⟨1, _⟩ => rfl

/-- Two arrays of 256 columns side by side: the first 256 columns of the result are the first array. -/
theorem concat_left {n : Nat} (x₁ x₂ : (⟨2, ![n, 256]⟩ : Shape).Idx → EReal)
    (cc : Shape.Concatenates [⟨2, ![n, 256]⟩, ⟨2, ![n, 256]⟩] ⟨2, ![n, 512]⟩ 1) (r : Fin n) (k : Fin 256) :
    concatenate ⟨2, ![n, 512]⟩ 1 [⟨⟨2, ![n, 256]⟩, x₁⟩, ⟨⟨2, ![n, 256]⟩, x₂⟩] cc
        (ValueIdx.ix2 (n0 := n) (n1 := 512) r ⟨k.val, by omega⟩) = x₁ (ValueIdx.ix2 r k) := by
  refine concatenate_pair_apply_left 1 x₁ x₂ cc _ rfl (ValueIdx.ix2 r k) fun b => ?_
  match b with
  | ⟨0, _⟩ => rfl
  | ⟨1, _⟩ => rfl

/-- … and the last 256 columns are the second. -/
theorem concat_right {n : Nat} (x₁ x₂ : (⟨2, ![n, 256]⟩ : Shape).Idx → EReal)
    (cc : Shape.Concatenates [⟨2, ![n, 256]⟩, ⟨2, ![n, 256]⟩] ⟨2, ![n, 512]⟩ 1) (r : Fin n) (k : Fin 256) :
    concatenate ⟨2, ![n, 512]⟩ 1 [⟨⟨2, ![n, 256]⟩, x₁⟩, ⟨⟨2, ![n, 256]⟩, x₂⟩] cc
        (ValueIdx.ix2 (n0 := n) (n1 := 512) r ⟨256 + k.val, by omega⟩) = x₂ (ValueIdx.ix2 r k) := by
  refine concatenate_pair_apply_right 1 x₁ x₂ cc _ rfl rfl (ValueIdx.ix2 r k) (fun b hb => ?_) ?_
  · match b with
    | ⟨0, _⟩ => rfl
    | ⟨1, _⟩ => exact absurd rfl hb
  · show k.val + 256 = 256 + k.val
    omega

/-- The bias spread over `n` rows, in two steps (first to one row). -/
def bias2T {n : Nat} (bc1 : (⟨1, ![1024]⟩ : Shape).BroadcastsInDim ⟨2, ![1, 1024]⟩ ![1])
    (bc2 : (⟨2, ![1, 1024]⟩ : Shape).BroadcastsInDim ⟨2, ![n, 1024]⟩ ![0, 1]) (b : FVec Ideal ⟨1, ![1024]⟩ .f32) :
    FVec Ideal ⟨2, ![n, 1024]⟩ .f32 :=
  broadcastInDim ⟨2, ![n, 1024]⟩ ![0, 1] bc2 (broadcastInDim ⟨2, ![1, 1024]⟩ ![1] bc1 b)

theorem bias2T_apply {n : Nat} (bc1 : (⟨1, ![1024]⟩ : Shape).BroadcastsInDim ⟨2, ![1, 1024]⟩ ![1])
    (bc2 : (⟨2, ![1, 1024]⟩ : Shape).BroadcastsInDim ⟨2, ![n, 1024]⟩ ![0, 1]) (b : FVec Ideal ⟨1, ![1024]⟩ .f32)
    (i : (⟨2, ![n, 1024]⟩ : Shape).Idx) : bias2T bc1 bc2 b i = b (ValueIdx.ix1 (n := 1024) (i 1)) := by
  unfold bias2T
  refine (broadcastInDim_apply _ bc2 _ i (ValueIdx.ix2 (n0 := 1) (n1 := 1024) 0 (i 1)) fun a => ?_).trans ?_
  · match a with
    | ⟨0, _⟩ => rfl
    | ⟨1, _⟩ => rfl
  · refine broadcastInDim_apply _ bc1 b _ (ValueIdx.ix1 (n := 1024) (i 1)) fun a => ?_
    match a with
    | ⟨0, _⟩ => rfl

/-- The bias as one row. -/
def bias1T (bc1 : (⟨1, ![1024]⟩ : Shape).BroadcastsInDim ⟨2, ![1, 1024]⟩ ![1]) (b : FVec Ideal ⟨1, ![1024]⟩ .f32) :
    FVec Ideal ⟨2, ![1, 1024]⟩ .f32 :=
  broadcastInDim ⟨2, ![1, 1024]⟩ ![1] bc1 b

theorem bias1T_apply (bc1 : (⟨1, ![1024]⟩ : Shape).BroadcastsInDim ⟨2, ![1, 1024]⟩ ![1]) (b : FVec Ideal ⟨1, ![1024]⟩ .f32)
    (i : (⟨2, ![1, 1024]⟩ : Shape).Idx) : bias1T bc1 b i = b (ValueIdx.ix1 (n := 1024) (i 1)) := by
  unfold bias1T
  refine broadcastInDim_apply _ bc1 b _ (ValueIdx.ix1 (n := 1024) (i 1)) fun a => ?_
  match a with
  | ⟨0, _⟩ => rfl

/-- The four gates' pre-activations: `[a | b]` times the transposed weights, plus the bias. -/
def gatesT {n : Nat} (cc : Shape.Concatenates [⟨2, ![n, 256]⟩, ⟨2, ![n, 256]⟩] ⟨2, ![n, 512]⟩ 1)
    (tr : (⟨2, ![1024, 512]⟩ : Shape).Transposes [1, 0] ⟨2, ![512, 1024]⟩)
    (a b : FVec Ideal ⟨2, ![n, 256]⟩ .f32) (W : FVec Ideal ⟨2, ![1024, 512]⟩ .f32) (bias : FVec Ideal ⟨2, ![n, 1024]⟩ .f32) :
    FVec Ideal ⟨2, ![n, 1024]⟩ .f32 :=
  addf (Host.dotGeneral (F := Ideal) (DotDims.plain n 512 1024) none
      (concatenate ⟨2, ![n, 512]⟩ 1 [⟨⟨2, ![n, 256]⟩, a⟩, ⟨⟨2, ![n, 256]⟩, b⟩] cc)
      (transpose ⟨2, ![512, 1024]⟩ [1, 0] W tr)) bias

/-- The sum over the 512 shared columns splits into the first 256, which meet `a`, and the last 256, which meet `b`. -/
theorem gatesT_apply {n : Nat} (cc : Shape.Concatenates [⟨2, ![n, 256]⟩, ⟨2, ![n, 256]⟩] ⟨2, ![n, 512]⟩ 1)
    (tr : (⟨2, ![1024, 512]⟩ : Shape).Transposes [1, 0] ⟨2, ![512, 1024]⟩)
    (a b : FVec Ideal ⟨2, ![n, 256]⟩ .f32) (W : FVec Ideal ⟨2, ![1024, 512]⟩ .f32) (bias : FVec Ideal ⟨2, ![n, 1024]⟩ .f32)
    (i : (⟨2, ![n, 1024]⟩ : Shape).Idx) :
    gatesT cc tr a b W bias i
      = ((∑ k : Fin 256, a (ValueIdx.ix2 (n0 := n) (n1 := 256) (i 0) k)
              * W (ValueIdx.ix2 (n0 := 1024) (n1 := 512) (i 1) ⟨k.val, by omega⟩))
          + ∑ k : Fin 256, b (ValueIdx.ix2 (n0 := n) (n1 := 256) (i 0) k)
              * W (ValueIdx.ix2 (n0 := 1024) (n1 := 512) (i 1) ⟨256 + k.val, by omega⟩))
        + bias i := by
  unfold gatesT
  refine congrArg (· + bias i) ?_
  refine (dot_apply _ _ i).trans ?_
  refine (Fin.sum_univ_add (fun k : Fin (256 + 256) =>
      concatenate ⟨2, ![n, 512]⟩ 1 [⟨⟨2, ![n, 256]⟩, a⟩, ⟨⟨2, ![n, 256]⟩, b⟩] cc (ValueIdx.ix2 (n0 := n) (n1 := 512) (i 0) k)
        * transpose ⟨2, ![512, 1024]⟩ [1, 0] W tr (ValueIdx.ix2 (n0 := 512) (n1 := 1024) k (i 1)))).trans ?_
  refine congrArg₂ (· + ·) (Finset.sum_congr rfl fun k _ => ?_) (Finset.sum_congr rfl fun k _ => ?_)
  · exact congrArg₂ (· * ·) (concat_left a b cc (i 0) k) (transpose_read W tr ⟨k.val, by omega⟩ (i 1))
  · exact congrArg₂ (· * ·) (concat_right a b cc (i 0) k) (transpose_read W tr ⟨256 + k.val, by omega⟩ (i 1))

/-- The cell state: `σ(f) · cs + σ(i) · tanh(c~)`, the gates `f`, `i`, `c~` being columns 0–255, 256–511, 512–767 of `G`. -/
def cellT {n : Nat} (bc : S0.BroadcastsInDim ⟨2, ![n, 256]⟩ (![] : Fin 0 → Fin 2))
    (sl0 : (⟨2, ![n, 1024]⟩ : Shape).Slices ![0, 0] ⟨2, ![n, 256]⟩)
    (sl256 : (⟨2, ![n, 1024]⟩ : Shape).Slices ![0, 256] ⟨2, ![n, 256]⟩)
    (sl512 : (⟨2, ![n, 1024]⟩ : Shape).Slices ![0, 512] ⟨2, ![n, 256]⟩)
    (G : FVec Ideal ⟨2, ![n, 1024]⟩ .f32) (cs : FVec Ideal ⟨2, ![n, 256]⟩ .f32) : FVec Ideal ⟨2, ![n, 256]⟩ .f32 :=
  addf (mulf (sigT bc (extractStridedSlice ⟨2, ![n, 256]⟩ ![0, 0] G sl0)) cs)
    (mulf (sigT bc (extractStridedSlice ⟨2, ![n, 256]⟩ ![0, 256] G sl256))
      (Host.tanh (F := Ideal) (extractStridedSlice ⟨2, ![n, 256]⟩ ![0, 512] G sl512)))

theorem cellT_apply {n : Nat} (bc : S0.BroadcastsInDim ⟨2, ![n, 256]⟩ (![] : Fin 0 → Fin 2))
    (sl0 : (⟨2, ![n, 1024]⟩ : Shape).Slices ![0, 0] ⟨2, ![n, 256]⟩)
    (sl256 : (⟨2, ![n, 1024]⟩ : Shape).Slices ![0, 256] ⟨2, ![n, 256]⟩)
    (sl512 : (⟨2, ![n, 1024]⟩ : Shape).Slices ![0, 512] ⟨2, ![n, 256]⟩)
    (G : FVec Ideal ⟨2, ![n, 1024]⟩ .f32) (cs : FVec Ideal ⟨2, ![n, 256]⟩ .f32)
    (g : Nat → Nat → EReal) (hG : ∀ j, G j = g (j 0).val (j 1).val) (i : (⟨2, ![n, 256]⟩ : Shape).Idx) :
    cellT bc sl0 sl256 sl512 G cs i
      = Ideal.logistic (g (i 0).val (i 1).val) * cs i
        + Ideal.logistic (g (i 0).val (256 + (i 1).val)) * Ideal.tanh (g (i 0).val (512 + (i 1).val)) := by
  have s0 : extractStridedSlice ⟨2, ![n, 256]⟩ ![0, 0] G sl0 i = g (i 0).val (i 1).val := by
    refine (slice_apply 0 (by omega) G sl0 i).trans ((hG _).trans ?_)
    show g (i 0).val (0 + (i 1).val) = _
    rw [Nat.zero_add]
  have s1 : extractStridedSlice ⟨2, ![n, 256]⟩ ![0, 256] G sl256 i = g (i 0).val (256 + (i 1).val) :=
    (slice_apply 256 (by omega) G sl256 i).trans (hG _)
  have s2 : extractStridedSlice ⟨2, ![n, 256]⟩ ![0, 512] G sl512 i = g (i 0).val (512 + (i 1).val) :=
    (slice_apply 512 (by omega) G sl512 i).trans (hG _)
  show sigT bc (extractStridedSlice ⟨2, ![n, 256]⟩ ![0, 0] G sl0) i * cs i
      + sigT bc (extractStridedSlice ⟨2, ![n, 256]⟩ ![0, 256] G sl256) i
        * Host.tanh (F := Ideal) (extractStridedSlice ⟨2, ![n, 256]⟩ ![0, 512] G sl512) i = _
  rw [sigT_apply, sigT_apply, tanh_apply, s0, s1, s2]

/-- The hidden state: `σ(o) · tanh(cell)`, the gate `o` being columns 768–1023 of `G`. -/
def hidT {n : Nat} (bc : S0.BroadcastsInDim ⟨2, ![n, 256]⟩ (![] : Fin 0 → Fin 2))
    (sl768 : (⟨2, ![n, 1024]⟩ : Shape).Slices ![0, 768] ⟨2, ![n, 256]⟩)
    (G : FVec Ideal ⟨2, ![n, 1024]⟩ .f32) (C : FVec Ideal ⟨2, ![n, 256]⟩ .f32) : FVec Ideal ⟨2, ![n, 256]⟩ .f32 :=
  mulf (sigT bc (extractStridedSlice ⟨2, ![n, 256]⟩ ![0, 768] G sl768)) (Host.tanh (F := Ideal) C)

theorem hidT_apply {n : Nat} (bc : S0.BroadcastsInDim ⟨2, ![n, 256]⟩ (![] : Fin 0 → Fin 2))
    (sl768 : (⟨2, ![n, 1024]⟩ : Shape).Slices ![0, 768] ⟨2, ![n, 256]⟩)
    (G : FVec Ideal ⟨2, ![n, 1024]⟩ .f32) (C : FVec Ideal ⟨2, ![n, 256]⟩ .f32)
    (g : Nat → Nat → EReal) (hG : ∀ j, G j = g (j 0).val (j 1).val) (i : (⟨2, ![n, 256]⟩ : Shape).Idx) :
    hidT bc sl768 G C i = Ideal.logistic (g (i 0).val (768 + (i 1).val)) * Ideal.tanh (C i) := by
  have s3 : extractStridedSlice ⟨2, ![n, 256]⟩ ![0, 768] G sl768 i = g (i 0).val (768 + (i 1).val) :=
    (slice_apply 768 (by omega) G sl768 i).trans (hG _)
  show sigT bc (extractStridedSlice ⟨2, ![n, 256]⟩ ![0, 768] G sl768) i * Host.tanh (F := Ideal) C i = _
  rw [sigT_apply, tanh_apply, s3]

end Cert.RefOps

end
-- ==== Proof.RefLevel.lean ====
/-
  One level of the tree, for an arbitrary number of rows: the array expressions of a level, read at an index,
  are the level functions of the specification.

  At an internal level with `n` rows over `m = 2n` rows below: the pre-activations are the pair sums of the
  hidden rows below against the first 256 weight columns plus the bias — the second block of the product meets
  a block of zeros and contributes `∑ 0 · w = 0` —, the cell state is `σ(f) · (pair sum of the cells below) +
  σ(i) · tanh(c~)` and the hidden state `σ(o) · tanh(cell)`. At the leaves the FIRST block is the zeros and the
  second the input rows, and the cell state's first summand is `σ(f) · 0 = 0`. All of it holds on the extended
  reals with no finiteness assumption: only `0 · x = 0`, `x · 0 = 0`, `x + 0 = x`, `0 + x = x` are used.
-/
import proofs.«163443_j13855564497595_2_alg».proof.Proof.Tree
import proofs.«163443_j13855564497595_2_alg».proof.Proof.RefOps

noncomputable section

namespace Cert.RefLevel

open Idealize.ShloMosaic Cert.RefOps Cert.Tree

/-- The shape relations the operations of one level ask for, `n` rows of gates and states. -/
structure RowFacts (n : Nat) : Prop where
  bc : S0.BroadcastsInDim ⟨2, ![n, 256]⟩ (![] : Fin 0 → Fin 2)
  sl0 : (⟨2, ![n, 1024]⟩ : Shape).Slices ![0, 0] ⟨2, ![n, 256]⟩
  sl256 : (⟨2, ![n, 1024]⟩ : Shape).Slices ![0, 256] ⟨2, ![n, 256]⟩
  sl512 : (⟨2, ![n, 1024]⟩ : Shape).Slices ![0, 512] ⟨2, ![n, 256]⟩
  sl768 : (⟨2, ![n, 1024]⟩ : Shape).Slices ![0, 768] ⟨2, ![n, 256]⟩
  cc : Shape.Concatenates [⟨2, ![n, 256]⟩, ⟨2, ![n, 256]⟩] ⟨2, ![n, 512]⟩ 1
  tr : (⟨2, ![1024, 512]⟩ : Shape).Transposes [1, 0] ⟨2, ![512, 1024]⟩

/-- … and those of summing the `m = 2n` rows below in pairs. -/
structure PairFacts (n m : Nat) : Prop where
  hm : m = 2 * n
  sc : (⟨2, ![m, 256]⟩ : Shape).ShapeCasts ⟨3, ![n, 2, 256]⟩
  rt : (⟨3, ![n, 2, 256]⟩ : Shape).ReducesTo [1] ⟨2, ![n, 256]⟩
  hS : 0 < S0.numel

variable (Wn : Nat → Nat → EReal) (bn : Nat → EReal)

/-- The pair sums of an array that reads as `hp` read as `pairSum hp`. -/
theorem pair_read {n m : Nat} (P : PairFacts n m) (Hp : FVec Ideal ⟨2, ![m, 256]⟩ .f32) (hp : Nat → Nat → EReal)
    (hH : ∀ j, Hp j = hp (j 0).val (j 1).val) (i : (⟨2, ![n, 256]⟩ : Shape).Idx) :
    pairT P.sc P.rt P.hS Hp i = pairSum hp (i 0).val (i 1).val :=
  (pairT_apply P.hm P.sc P.rt P.hS Hp i).trans (congrArg₂ (· + ·) (hH _) (hH _))

/-- The pre-activations of an internal level. -/
theorem node_gates {n m : Nat} (R : RowFacts n) (P : PairFacts n m) (Hp : FVec Ideal ⟨2, ![m, 256]⟩ .f32)
    (W : FVec Ideal ⟨2, ![1024, 512]⟩ .f32) (bias : FVec Ideal ⟨2, ![n, 1024]⟩ .f32) (hp : Nat → Nat → EReal)
    (hH : ∀ j, Hp j = hp (j 0).val (j 1).val) (hW : ∀ j, W j = Wn (j 0).val (j 1).val) (hb : ∀ j, bias j = bn (j 1).val)
    (i : (⟨2, ![n, 1024]⟩ : Shape).Idx) :
    gatesT R.cc R.tr (pairT P.sc P.rt P.hS Hp) (zerosT R.bc) W bias i = gateH Wn bn (pairSum hp (i 0).val) (i 1).val := by
  refine (gatesT_apply R.cc R.tr _ _ W bias i).trans ?_
  unfold gateH
  refine congrArg₂ (· + ·) ?_ (hb i)
  have h2 : (∑ k : Fin 256, zerosT R.bc (ValueIdx.ix2 (n0 := n) (n1 := 256) (i 0) k)
      * W (ValueIdx.ix2 (n0 := 1024) (n1 := 512) (i 1) ⟨256 + k.val, by omega⟩)) = 0 :=
    Finset.sum_eq_zero fun k _ => by rw [zerosT_apply, zero_mul]
  refine (congrArg (_ + ·) h2).trans ((add_zero _).trans ?_)
  refine Finset.sum_congr rfl fun k _ => ?_
  exact congrArg₂ (· * ·) (pair_read P Hp hp hH _) (hW _)

/-- The cell state of an internal level, from pre-activations that read as `gateH`. -/
theorem node_cell {n m : Nat} (R : RowFacts n) (P : PairFacts n m) (G : FVec Ideal ⟨2, ![n, 1024]⟩ .f32)
    (Cp : FVec Ideal ⟨2, ![m, 256]⟩ .f32) (hp cp : Nat → Nat → EReal)
    (hG : ∀ j, G j = gateH Wn bn (pairSum hp (j 0).val) (j 1).val) (hC : ∀ j, Cp j = cp (j 0).val (j 1).val)
    (i : (⟨2, ![n, 256]⟩ : Shape).Idx) :
    cellT R.bc R.sl0 R.sl256 R.sl512 G (pairT P.sc P.rt P.hS Cp) i = nodeC Wn bn hp cp (i 0).val (i 1).val := by
  refine (cellT_apply R.bc R.sl0 R.sl256 R.sl512 G _ (fun r q => gateH Wn bn (pairSum hp r) q) hG i).trans ?_
  rw [pair_read P Cp cp hC i]
  rfl

/-- The hidden state of an internal level. -/
theorem node_hid {n : Nat} (R : RowFacts n) (G : FVec Ideal ⟨2, ![n, 1024]⟩ .f32) (C : FVec Ideal ⟨2, ![n, 256]⟩ .f32)
    (hp cp : Nat → Nat → EReal)
    (hG : ∀ j, G j = gateH Wn bn (pairSum hp (j 0).val) (j 1).val) (hC : ∀ j, C j = nodeC Wn bn hp cp (j 0).val (j 1).val)
    (i : (⟨2, ![n, 256]⟩ : Shape).Idx) :
    hidT R.bc R.sl768 G C i = nodeH Wn bn hp cp (i 0).val (i 1).val := by
  refine (hidT_apply R.bc R.sl768 G C (fun r q => gateH Wn bn (pairSum hp r) q) hG i).trans ?_
  rw [hC i]
  rfl

/-- The pre-activations of the leaves. -/
theorem leaf_gates {n : Nat} (R : RowFacts n) (X : FVec Ideal ⟨2, ![n, 256]⟩ .f32)
    (W : FVec Ideal ⟨2, ![1024, 512]⟩ .f32) (bias : FVec Ideal ⟨2, ![n, 1024]⟩ .f32) (Xn : Nat → Nat → EReal)
    (hX : ∀ j, X j = Xn (j 0).val (j 1).val) (hW : ∀ j, W j = Wn (j 0).val (j 1).val) (hb : ∀ j, bias j = bn (j 1).val)
    (i : (⟨2, ![n, 1024]⟩ : Shape).Idx) :
    gatesT R.cc R.tr (zerosT R.bc) X W bias i = gateX Wn bn (Xn (i 0).val) (i 1).val := by
  refine (gatesT_apply R.cc R.tr _ _ W bias i).trans ?_
  unfold gateX
  refine congrArg₂ (· + ·) ?_ (hb i)
  have h1 : (∑ k : Fin 256, zerosT R.bc (ValueIdx.ix2 (n0 := n) (n1 := 256) (i 0) k)
      * W (ValueIdx.ix2 (n0 := 1024) (n1 := 512) (i 1) ⟨k.val, by omega⟩)) = 0 :=
    Finset.sum_eq_zero fun k _ => by rw [zerosT_apply, zero_mul]
  refine (congrArg (· + _) h1).trans ((zero_add _).trans ?_)
  refine Finset.sum_congr rfl fun k _ => ?_
  exact congrArg₂ (· * ·) (hX _) (hW _)

/-- The cell state of the leaves: no children, so the first summand is `σ(f) · 0`. -/
theorem leaf_cell {n : Nat} (R : RowFacts n) (G : FVec Ideal ⟨2, ![n, 1024]⟩ .f32) (Xn : Nat → Nat → EReal)
    (hG : ∀ j, G j = gateX Wn bn (Xn (j 0).val) (j 1).val) (i : (⟨2, ![n, 256]⟩ : Shape).Idx) :
    cellT R.bc R.sl0 R.sl256 R.sl512 G (zerosT R.bc) i = leafC Wn bn Xn (i 0).val (i 1).val := by
  refine (cellT_apply R.bc R.sl0 R.sl256 R.sl512 G _ (fun r q => gateX Wn bn (Xn r) q) hG i).trans ?_
  rw [zerosT_apply, mul_zero, zero_add]
  rfl

/-- The hidden state of the leaves. -/
theorem leaf_hid {n : Nat} (R : RowFacts n) (G : FVec Ideal ⟨2, ![n, 1024]⟩ .f32) (C : FVec Ideal ⟨2, ![n, 256]⟩ .f32)
    (Xn : Nat → Nat → EReal)
    (hG : ∀ j, G j = gateX Wn bn (Xn (j 0).val) (j 1).val) (hC : ∀ j, C j = leafC Wn bn Xn (j 0).val (j 1).val)
    (i : (⟨2, ![n, 256]⟩ : Shape).Idx) :
    hidT R.bc R.sl768 G C i = leafH Wn bn Xn (i 0).val (i 1).val := by
  refine (hidT_apply R.bc R.sl768 G C (fun r q => gateX Wn bn (Xn r) q) hG i).trans ?_
  rw [hC i]
  rfl

end Cert.RefLevel

end
-- ==== Proof.RefChain.lean ====
/-
  The eighteen levels of the reference program, one after the other.

  The program's named intermediate arrays are, level by level, the array expressions of RefOps.lean at that
  level's number of rows (131072, 65536, …, 2, 1) — each such equation only unfolds the two sides' names — so
  the level theorems of RefLevel.lean apply: level 0's gate pre-activations, cell and hidden states are the
  leaves' (`gateX`, `leafC`, `leafH`), and level k+1's are `gateH`, `nodeC`, `nodeH` over level k's, which is
  the recursion `Cert.Tree.lvl`. The hidden state of level 17, one row, is the program's result.
-/
import proofs.«163443_j13855564497595_2_alg».proof.Proof.Gen.ReferenceIdeal.Run
import proofs.«163443_j13855564497595_2_alg».proof.Proof.RefLevel

noncomputable section

namespace Cert.ReferenceIdeal.TreeChain

open Cert.ReferenceIdeal Cert.ReferenceIdeal.Gen Cert.ReferenceIdeal.Value Idealize.ShloMosaic Idealize.ShloMosaic.TcCoe Idealize.SL.Sem Idealize.ShloMosaic.StableHlo
open Cert.RefOps Cert.RefLevel Cert.Tree

variable (V0 : Valuation τ sig (Elt Ideal))

/-- The three argument arrays as functions of row and column numbers. -/
def Xv : Nat → Nat → EReal := natArr2 (a := 131072) (b := 256) (V0 (Proc.devRef .tc main_arg0))
def Wv : Nat → Nat → EReal := natArr2 (a := 1024) (b := 512) (V0 (Proc.devRef .tc main_arg1))
def bv : Nat → EReal := natArr1 (a := 1024) (V0 (Proc.devRef .tc main_arg2))

theorem hX (j : (⟨2, ![131072, 256]⟩ : Shape).Idx) : V0 (Proc.devRef .tc main_arg0) j = Xv V0 (j 0).val (j 1).val :=
  (natArr2_apply (a := 131072) (b := 256) (V0 (Proc.devRef .tc main_arg0)) j).symm

theorem hW (j : (⟨2, ![1024, 512]⟩ : Shape).Idx) : V0 (Proc.devRef .tc main_arg1) j = Wv V0 (j 0).val (j 1).val :=
  (natArr2_apply (a := 1024) (b := 512) (V0 (Proc.devRef .tc main_arg1)) j).symm

/-! ### Level 0: 131072 rows -/

theorem R0 : RowFacts 131072 :=
  ⟨bcast_S_S131072x256, slices_S131072x1024_S131072x256_0_0, slices_S131072x1024_S131072x256_0_256, slices_S131072x1024_S131072x256_0_512, slices_S131072x1024_S131072x256_0_768, concatenates_S131072x256_S131072x256_S131072x512_d1, transposes_S1024x512_S512x1024_1_0⟩

theorem g0_eq : res_main_v6 V0 = gatesT R0.cc R0.tr (zerosT R0.bc) (V0 (Proc.devRef .tc main_arg0)) (V0 (Proc.devRef .tc main_arg1)) (bias2T bcast_S1024_S1x1024_1 bcast_S1x1024_S131072x1024_0_1 (V0 (Proc.devRef .tc main_arg2))) := rfl

theorem c0_eq : res_main_v26 V0 = cellT R0.bc R0.sl0 R0.sl256 R0.sl512 (res_main_v6 V0) (zerosT R0.bc) := rfl

/-- The leaves' hidden state. -/
def H0 : FVec Ideal ⟨2, ![131072, 256]⟩ .f32 := hidT R0.bc R0.sl768 (res_main_v6 V0) (res_main_v26 V0)

theorem L0g (i : (⟨2, ![131072, 1024]⟩ : Shape).Idx) : res_main_v6 V0 i = gateX (Wv V0) (bv V0) (Xv V0 (i 0).val) (i 1).val :=
  (congrFun (g0_eq V0) i).trans (leaf_gates (Wv V0) (bv V0) R0 (V0 (Proc.devRef .tc main_arg0)) (V0 (Proc.devRef .tc main_arg1)) _ (Xv V0) (hX V0) (hW V0)
    (fun j => (bias2T_apply bcast_S1024_S1x1024_1 bcast_S1x1024_S131072x1024_0_1 (V0 (Proc.devRef .tc main_arg2)) j).trans (natArr1_ix1 (a := 1024) (V0 (Proc.devRef .tc main_arg2)) (j 1)).symm) i)

theorem L0c (i : (⟨2, ![131072, 256]⟩ : Shape).Idx) : res_main_v26 V0 i = (lvl (Wv V0) (bv V0) (Xv V0) 0).2 (i 0).val (i 1).val :=
  (congrFun (c0_eq V0) i).trans (leaf_cell (Wv V0) (bv V0) R0 (res_main_v6 V0) (Xv V0) (L0g V0) i)

theorem L0h (i : (⟨2, ![131072, 256]⟩ : Shape).Idx) : H0 V0 i = (lvl (Wv V0) (bv V0) (Xv V0) 0).1 (i 0).val (i 1).val :=
  leaf_hid (Wv V0) (bv V0) R0 (res_main_v6 V0) (res_main_v26 V0) (Xv V0) (L0g V0) (L0c V0) i

/-! ### Level 1: 65536 rows -/

theorem R1 : RowFacts 65536 :=
  ⟨bcast_S_S65536x256, slices_S65536x1024_S65536x256_0_0, slices_S65536x1024_S65536x256_0_256, slices_S65536x1024_S65536x256_0_512, slices_S65536x1024_S65536x256_0_768, concatenates_S65536x256_S65536x256_S65536x512_d1, transposes_S1024x512_S512x1024_1_0⟩

theorem P1 : PairFacts 65536 131072 :=
  ⟨by norm_num, shapeCasts_S131072x256_S65536x2x256, reducesTo_S65536x2x256_S65536x256_d1, h_S_⟩

theorem g1_eq : res_main_v45 V0 = gatesT R1.cc R1.tr (pairT P1.sc P1.rt P1.hS (H0 V0)) (zerosT R1.bc) (V0 (Proc.devRef .tc main_arg1)) (bias2T bcast_S1024_S1x1024_1 bcast_S1x1024_S65536x1024_0_1 (V0 (Proc.devRef .tc main_arg2))) := rfl

theorem c1_eq : res_main_v65 V0 = cellT R1.bc R1.sl0 R1.sl256 R1.sl512 (res_main_v45 V0) (pairT P1.sc P1.rt P1.hS (res_main_v26 V0)) := rfl

/-- Level 1's hidden state. -/
def H1 : FVec Ideal ⟨2, ![65536, 256]⟩ .f32 := hidT R1.bc R1.sl768 (res_main_v45 V0) (res_main_v65 V0)

theorem L1g (i : (⟨2, ![65536, 1024]⟩ : Shape).Idx) : res_main_v45 V0 i = gateH (Wv V0) (bv V0) (pairSum (lvl (Wv V0) (bv V0) (Xv V0) 0).1 (i 0).val) (i 1).val :=
  (congrFun (g1_eq V0) i).trans (node_gates (Wv V0) (bv V0) R1 P1 (H0 V0) (V0 (Proc.devRef .tc main_arg1)) _ (lvl (Wv V0) (bv V0) (Xv V0) 0).1 (L0h V0) (hW V0)
    (fun j => (bias2T_apply bcast_S1024_S1x1024_1 bcast_S1x1024_S65536x1024_0_1 (V0 (Proc.devRef .tc main_arg2)) j).trans (natArr1_ix1 (a := 1024) (V0 (Proc.devRef .tc main_arg2)) (j 1)).symm) i)

theorem L1c (i : (⟨2, ![65536, 256]⟩ : Shape).Idx) : res_main_v65 V0 i = (lvl (Wv V0) (bv V0) (Xv V0) 1).2 (i 0).val (i 1).val :=
  (congrFun (c1_eq V0) i).trans (node_cell (Wv V0) (bv V0) R1 P1 (res_main_v45 V0) (res_main_v26 V0) (lvl (Wv V0) (bv V0) (Xv V0) 0).1 (lvl (Wv V0) (bv V0) (Xv V0) 0).2 (L1g V0) (L0c V0) i)

theorem L1h (i : (⟨2, ![65536, 256]⟩ : Shape).Idx) : H1 V0 i = (lvl (Wv V0) (bv V0) (Xv V0) 1).1 (i 0).val (i 1).val :=
  node_hid (Wv V0) (bv V0) R1 (res_main_v45 V0) (res_main_v65 V0) (lvl (Wv V0) (bv V0) (Xv V0) 0).1 (lvl (Wv V0) (bv V0) (Xv V0) 0).2 (L1g V0) (L1c V0) i

/-! ### Level 2: 32768 rows -/

theorem R2 : RowFacts 32768 :=
  ⟨bcast_S_S32768x256, slices_S32768x1024_S32768x256_0_0, slices_S32768x1024_S32768x256_0_256, slices_S32768x1024_S32768x256_0_512, slices_S32768x1024_S32768x256_0_768, concatenates_S32768x256_S32768x256_S32768x512_d1, transposes_S1024x512_S512x1024_1_0⟩

theorem P2 : PairFacts 32768 65536 :=
  ⟨by norm_num, shapeCasts_S65536x256_S32768x2x256, reducesTo_S32768x2x256_S32768x256_d1, h_S_⟩

theorem g2_eq : res_main_v84 V0 = gatesT R2.cc R2.tr (pairT P2.sc P2.rt P2.hS (H1 V0)) (zerosT R2.bc) (V0 (Proc.devRef .tc main_arg1)) (bias2T bcast_S1024_S1x1024_1 bcast_S1x1024_S32768x1024_0_1 (V0 (Proc.devRef .tc main_arg2))) := rfl

theorem c2_eq : res_main_v104 V0 = cellT R2.bc R2.sl0 R2.sl256 R2.sl512 (res_main_v84 V0) (pairT P2.sc P2.rt P2.hS (res_main_v65 V0)) := rfl

/-- Level 2's hidden state. -/
def H2 : FVec Ideal ⟨2, ![32768, 256]⟩ .f32 := hidT R2.bc R2.sl768 (res_main_v84 V0) (res_main_v104 V0)

theorem L2g (i : (⟨2, ![32768, 1024]⟩ : Shape).Idx) : res_main_v84 V0 i = gateH (Wv V0) (bv V0) (pairSum (lvl (Wv V0) (bv V0) (Xv V0) 1).1 (i 0).val) (i 1).val :=
  (congrFun (g2_eq V0) i).trans (node_gates (Wv V0) (bv V0) R2 P2 (H1 V0) (V0 (Proc.devRef .tc main_arg1)) _ (lvl (Wv V0) (bv V0) (Xv V0) 1).1 (L1h V0) (hW V0)
    (fun j => (bias2T_apply bcast_S1024_S1x1024_1 bcast_S1x1024_S32768x1024_0_1 (V0 (Proc.devRef .tc main_arg2)) j).trans (natArr1_ix1 (a := 1024) (V0 (Proc.devRef .tc main_arg2)) (j 1)).symm) i)

theorem L2c (i : (⟨2, ![32768, 256]⟩ : Shape).Idx) : res_main_v104 V0 i = (lvl (Wv V0) (bv V0) (Xv V0) 2).2 (i 0).val (i 1).val :=
  (congrFun (c2_eq V0) i).trans (node_cell (Wv V0) (bv V0) R2 P2 (res_main_v84 V0) (res_main_v65 V0) (lvl (Wv V0) (bv V0) (Xv V0) 1).1 (lvl (Wv V0) (bv V0) (Xv V0) 1).2 (L2g V0) (L1c V0) i)

theorem L2h (i : (⟨2, ![32768, 256]⟩ : Shape).Idx) : H2 V0 i = (lvl (Wv V0) (bv V0) (Xv V0) 2).1 (i 0).val (i 1).val :=
  node_hid (Wv V0) (bv V0) R2 (res_main_v84 V0) (res_main_v104 V0) (lvl (Wv V0) (bv V0) (Xv V0) 1).1 (lvl (Wv V0) (bv V0) (Xv V0) 1).2 (L2g V0) (L2c V0) i

/-! ### Level 3: 16384 rows -/

theorem R3 : RowFacts 16384 :=
  ⟨bcast_S_S16384x256, slices_S16384x1024_S16384x256_0_0, slices_S16384x1024_S16384x256_0_256, slices_S16384x1024_S16384x256_0_512, slices_S16384x1024_S16384x256_0_768, concatenates_S16384x256_S16384x256_S16384x512_d1, transposes_S1024x512_S512x1024_1_0⟩

theorem P3 : PairFacts 16384 32768 :=
  ⟨by norm_num, shapeCasts_S32768x256_S16384x2x256, reducesTo_S16384x2x256_S16384x256_d1, h_S_⟩

theorem g3_eq : res_main_v123 V0 = gatesT R3.cc R3.tr (pairT P3.sc P3.rt P3.hS (H2 V0)) (zerosT R3.bc) (V0 (Proc.devRef .tc main_arg1)) (bias2T bcast_S1024_S1x1024_1 bcast_S1x1024_S16384x1024_0_1 (V0 (Proc.devRef .tc main_arg2))) := rfl

theorem c3_eq : res_main_v143 V0 = cellT R3.bc R3.sl0 R3.sl256 R3.sl512 (res_main_v123 V0) (pairT P3.sc P3.rt P3.hS (res_main_v104 V0)) := rfl

/-- Level 3's hidden state. -/
def H3 : FVec Ideal ⟨2, ![16384, 256]⟩ .f32 := hidT R3.bc R3.sl768 (res_main_v123 V0) (res_main_v143 V0)

theorem L3g (i : (⟨2, ![16384, 1024]⟩ : Shape).Idx) : res_main_v123 V0 i = gateH (Wv V0) (bv V0) (pairSum (lvl (Wv V0) (bv V0) (Xv V0) 2).1 (i 0).val) (i 1).val :=
  (congrFun (g3_eq V0) i).trans (node_gates (Wv V0) (bv V0) R3 P3 (H2 V0) (V0 (Proc.devRef .tc main_arg1)) _ (lvl (Wv V0) (bv V0) (Xv V0) 2).1 (L2h V0) (hW V0)
    (fun j => (bias2T_apply bcast_S1024_S1x1024_1 bcast_S1x1024_S16384x1024_0_1 (V0 (Proc.devRef .tc main_arg2)) j).trans (natArr1_ix1 (a := 1024) (V0 (Proc.devRef .tc main_arg2)) (j 1)).symm) i)

theorem L3c (i : (⟨2, ![16384, 256]⟩ : Shape).Idx) : res_main_v143 V0 i = (lvl (Wv V0) (bv V0) (Xv V0) 3).2 (i 0).val (i 1).val :=
  (congrFun (c3_eq V0) i).trans (node_cell (Wv V0) (bv V0) R3 P3 (res_main_v123 V0) (res_main_v104 V0) (lvl (Wv V0) (bv V0) (Xv V0) 2).1 (lvl (Wv V0) (bv V0) (Xv V0) 2).2 (L3g V0) (L2c V0) i)

theorem L3h (i : (⟨2, ![16384, 256]⟩ : Shape).Idx) : H3 V0 i = (lvl (Wv V0) (bv V0) (Xv V0) 3).1 (i 0).val (i 1).val :=
  node_hid (Wv V0) (bv V0) R3 (res_main_v123 V0) (res_main_v143 V0) (lvl (Wv V0) (bv V0) (Xv V0) 2).1 (lvl (Wv V0) (bv V0) (Xv V0) 2).2 (L3g V0) (L3c V0) i

/-! ### Level 4: 8192 rows -/

theorem R4 : RowFacts 8192 :=
  ⟨bcast_S_S8192x256, slices_S8192x1024_S8192x256_0_0, slices_S8192x1024_S8192x256_0_256, slices_S8192x1024_S8192x256_0_512, slices_S8192x1024_S8192x256_0_768, concatenates_S8192x256_S8192x256_S8192x512_d1, transposes_S1024x512_S512x1024_1_0⟩

theorem P4 : PairFacts 8192 16384 :=
  ⟨by norm_num, shapeCasts_S16384x256_S8192x2x256, reducesTo_S8192x2x256_S8192x256_d1, h_S_⟩

theorem g4_eq : res_main_v162 V0 = gatesT R4.cc R4.tr (pairT P4.sc P4.rt P4.hS (H3 V0)) (zerosT R4.bc) (V0 (Proc.devRef .tc main_arg1)) (bias2T bcast_S1024_S1x1024_1 bcast_S1x1024_S8192x1024_0_1 (V0 (Proc.devRef .tc main_arg2))) := rfl

theorem c4_eq : res_main_v182 V0 = cellT R4.bc R4.sl0 R4.sl256 R4.sl512 (res_main_v162 V0) (pairT P4.sc P4.rt P4.hS (res_main_v143 V0)) := rfl

/-- Level 4's hidden state. -/
def H4 : FVec Ideal ⟨2, ![8192, 256]⟩ .f32 := hidT R4.bc R4.sl768 (res_main_v162 V0) (res_main_v182 V0)

theorem L4g (i : (⟨2, ![8192, 1024]⟩ : Shape).Idx) : res_main_v162 V0 i = gateH (Wv V0) (bv V0) (pairSum (lvl (Wv V0) (bv V0) (Xv V0) 3).1 (i 0).val) (i 1).val :=
  (congrFun (g4_eq V0) i).trans (node_gates (Wv V0) (bv V0) R4 P4 (H3 V0) (V0 (Proc.devRef .tc main_arg1)) _ (lvl (Wv V0) (bv V0) (Xv V0) 3).1 (L3h V0) (hW V0)
    (fun j => (bias2T_apply bcast_S1024_S1x1024_1 bcast_S1x1024_S8192x1024_0_1 (V0 (Proc.devRef .tc main_arg2)) j).trans (natArr1_ix1 (a := 1024) (V0 (Proc.devRef .tc main_arg2)) (j 1)).symm) i)

theorem L4c (i : (⟨2, ![8192, 256]⟩ : Shape).Idx) : res_main_v182 V0 i = (lvl (Wv V0) (bv V0) (Xv V0) 4).2 (i 0).val (i 1).val :=
  (congrFun (c4_eq V0) i).trans (node_cell (Wv V0) (bv V0) R4 P4 (res_main_v162 V0) (res_main_v143 V0) (lvl (Wv V0) (bv V0) (Xv V0) 3).1 (lvl (Wv V0) (bv V0) (Xv V0) 3).2 (L4g V0) (L3c V0) i)

theorem L4h (i : (⟨2, ![8192, 256]⟩ : Shape).Idx) : H4 V0 i = (lvl (Wv V0) (bv V0) (Xv V0) 4).1 (i 0).val (i 1).val :=
  node_hid (Wv V0) (bv V0) R4 (res_main_v162 V0) (res_main_v182 V0) (lvl (Wv V0) (bv V0) (Xv V0) 3).1 (lvl (Wv V0) (bv V0) (Xv V0) 3).2 (L4g V0) (L4c V0) i

/-! ### Level 5: 4096 rows -/

theorem R5 : RowFacts 4096 :=
  ⟨bcast_S_S4096x256, slices_S4096x1024_S4096x256_0_0, slices_S4096x1024_S4096x256_0_256, slices_S4096x1024_S4096x256_0_512, slices_S4096x1024_S4096x256_0_768, concatenates_S4096x256_S4096x256_S4096x512_d1, transposes_S1024x512_S512x1024_1_0⟩

theorem P5 : PairFacts 4096 8192 :=
  ⟨by norm_num, shapeCasts_S8192x256_S4096x2x256, reducesTo_S4096x2x256_S4096x256_d1, h_S_⟩

theorem g5_eq : res_main_v201 V0 = gatesT R5.cc R5.tr (pairT P5.sc P5.rt P5.hS (H4 V0)) (zerosT R5.bc) (V0 (Proc.devRef .tc main_arg1)) (bias2T bcast_S1024_S1x1024_1 bcast_S1x1024_S4096x1024_0_1 (V0 (Proc.devRef .tc main_arg2))) := rfl

theorem c5_eq : res_main_v221 V0 = cellT R5.bc R5.sl0 R5.sl256 R5.sl512 (res_main_v201 V0) (pairT P5.sc P5.rt P5.hS (res_main_v182 V0)) := rfl

/-- Level 5's hidden state. -/
def H5 : FVec Ideal ⟨2, ![4096, 256]⟩ .f32 := hidT R5.bc R5.sl768 (res_main_v201 V0) (res_main_v221 V0)

theorem L5g (i : (⟨2, ![4096, 1024]⟩ : Shape).Idx) : res_main_v201 V0 i = gateH (Wv V0) (bv V0) (pairSum (lvl (Wv V0) (bv V0) (Xv V0) 4).1 (i 0).val) (i 1).val :=
  (congrFun (g5_eq V0) i).trans (node_gates (Wv V0) (bv V0) R5 P5 (H4 V0) (V0 (Proc.devRef .tc main_arg1)) _ (lvl (Wv V0) (bv V0) (Xv V0) 4).1 (L4h V0) (hW V0)
    (fun j => (bias2T_apply bcast_S1024_S1x1024_1 bcast_S1x1024_S4096x1024_0_1 (V0 (Proc.devRef .tc main_arg2)) j).trans (natArr1_ix1 (a := 1024) (V0 (Proc.devRef .tc main_arg2)) (j 1)).symm) i)

theorem L5c (i : (⟨2, ![4096, 256]⟩ : Shape).Idx) : res_main_v221 V0 i = (lvl (Wv V0) (bv V0) (Xv V0) 5).2 (i 0).val (i 1).val :=
  (congrFun (c5_eq V0) i).trans (node_cell (Wv V0) (bv V0) R5 P5 (res_main_v201 V0) (res_main_v182 V0) (lvl (Wv V0) (bv V0) (Xv V0) 4).1 (lvl (Wv V0) (bv V0) (Xv V0) 4).2 (L5g V0) (L4c V0) i)

theorem L5h (i : (⟨2, ![4096, 256]⟩ : Shape).Idx) : H5 V0 i = (lvl (Wv V0) (bv V0) (Xv V0) 5).1 (i 0).val (i 1).val :=
  node_hid (Wv V0) (bv V0) R5 (res_main_v201 V0) (res_main_v221 V0) (lvl (Wv V0) (bv V0) (Xv V0) 4).1 (lvl (Wv V0) (bv V0) (Xv V0) 4).2 (L5g V0) (L5c V0) i

/-! ### Level 6: 2048 rows -/

theorem R6 : RowFacts 2048 :=
  ⟨bcast_S_S2048x256, slices_S2048x1024_S2048x256_0_0, slices_S2048x1024_S2048x256_0_256, slices_S2048x1024_S2048x256_0_512, slices_S2048x1024_S2048x256_0_768, concatenates_S2048x256_S2048x256_S2048x512_d1, transposes_S1024x512_S512x1024_1_0⟩

theorem P6 : PairFacts 2048 4096 :=
  ⟨by norm_num, shapeCasts_S4096x256_S2048x2x256, reducesTo_S2048x2x256_S2048x256_d1, h_S_⟩

theorem g6_eq : res_main_v240 V0 = gatesT R6.cc R6.tr (pairT P6.sc P6.rt P6.hS (H5 V0)) (zerosT R6.bc) (V0 (Proc.devRef .tc main_arg1)) (bias2T bcast_S1024_S1x1024_1 bcast_S1x1024_S2048x1024_0_1 (V0 (Proc.devRef .tc main_arg2))) := rfl

theorem c6_eq : res_main_v260 V0 = cellT R6.bc R6.sl0 R6.sl256 R6.sl512 (res_main_v240 V0) (pairT P6.sc P6.rt P6.hS (res_main_v221 V0)) := rfl

/-- Level 6's hidden state. -/
def H6 : FVec Ideal ⟨2, ![2048, 256]⟩ .f32 := hidT R6.bc R6.sl768 (res_main_v240 V0) (res_main_v260 V0)

theorem L6g (i : (⟨2, ![2048, 1024]⟩ : Shape).Idx) : res_main_v240 V0 i = gateH (Wv V0) (bv V0) (pairSum (lvl (Wv V0) (bv V0) (Xv V0) 5).1 (i 0).val) (i 1).val :=
  (congrFun (g6_eq V0) i).trans (node_gates (Wv V0) (bv V0) R6 P6 (H5 V0) (V0 (Proc.devRef .tc main_arg1)) _ (lvl (Wv V0) (bv V0) (Xv V0) 5).1 (L5h V0) (hW V0)
    (fun j => (bias2T_apply bcast_S1024_S1x1024_1 bcast_S1x1024_S2048x1024_0_1 (V0 (Proc.devRef .tc main_arg2)) j).trans (natArr1_ix1 (a := 1024) (V0 (Proc.devRef .tc main_arg2)) (j 1)).symm) i)

theorem L6c (i : (⟨2, ![2048, 256]⟩ : Shape).Idx) : res_main_v260 V0 i = (lvl (Wv V0) (bv V0) (Xv V0) 6).2 (i 0).val (i 1).val :=
  (congrFun (c6_eq V0) i).trans (node_cell (Wv V0) (bv V0) R6 P6 (res_main_v240 V0) (res_main_v221 V0) (lvl (Wv V0) (bv V0) (Xv V0) 5).1 (lvl (Wv V0) (bv V0) (Xv V0) 5).2 (L6g V0) (L5c V0) i)

theorem L6h (i : (⟨2, ![2048, 256]⟩ : Shape).Idx) : H6 V0 i = (lvl (Wv V0) (bv V0) (Xv V0) 6).1 (i 0).val (i 1).val :=
  node_hid (Wv V0) (bv V0) R6 (res_main_v240 V0) (res_main_v260 V0) (lvl (Wv V0) (bv V0) (Xv V0) 5).1 (lvl (Wv V0) (bv V0) (Xv V0) 5).2 (L6g V0) (L6c V0) i

/-! ### Level 7: 1024 rows -/

theorem R7 : RowFacts 1024 :=
  ⟨bcast_S_S1024x256, slices_S1024x1024_S1024x256_0_0, slices_S1024x1024_S1024x256_0_256, slices_S1024x1024_S1024x256_0_512, slices_S1024x1024_S1024x256_0_768, concatenates_S1024x256_S1024x256_S1024x512_d1, transposes_S1024x512_S512x1024_1_0⟩

theorem P7 : PairFacts 1024 2048 :=
  ⟨by norm_num, shapeCasts_S2048x256_S1024x2x256, reducesTo_S1024x2x256_S1024x256_d1, h_S_⟩

theorem g7_eq : res_main_v279 V0 = gatesT R7.cc R7.tr (pairT P7.sc P7.rt P7.hS (H6 V0)) (zerosT R7.bc) (V0 (Proc.devRef .tc main_arg1)) (bias2T bcast_S1024_S1x1024_1 bcast_S1x1024_S1024x1024_0_1 (V0 (Proc.devRef .tc main_arg2))) := rfl

theorem c7_eq : res_main_v299 V0 = cellT R7.bc R7.sl0 R7.sl256 R7.sl512 (res_main_v279 V0) (pairT P7.sc P7.rt P7.hS (res_main_v260 V0)) := rfl

/-- Level 7's hidden state. -/
def H7 : FVec Ideal ⟨2, ![1024, 256]⟩ .f32 := hidT R7.bc R7.sl768 (res_main_v279 V0) (res_main_v299 V0)

theorem L7g (i : (⟨2, ![1024, 1024]⟩ : Shape).Idx) : res_main_v279 V0 i = gateH (Wv V0) (bv V0) (pairSum (lvl (Wv V0) (bv V0) (Xv V0) 6).1 (i 0).val) (i 1).val :=
  (congrFun (g7_eq V0) i).trans (node_gates (Wv V0) (bv V0) R7 P7 (H6 V0) (V0 (Proc.devRef .tc main_arg1)) _ (lvl (Wv V0) (bv V0) (Xv V0) 6).1 (L6h V0) (hW V0)
    (fun j => (bias2T_apply bcast_S1024_S1x1024_1 bcast_S1x1024_S1024x1024_0_1 (V0 (Proc.devRef .tc main_arg2)) j).trans (natArr1_ix1 (a := 1024) (V0 (Proc.devRef .tc main_arg2)) (j 1)).symm) i)

theorem L7c (i : (⟨2, ![1024, 256]⟩ : Shape).Idx) : res_main_v299 V0 i = (lvl (Wv V0) (bv V0) (Xv V0) 7).2 (i 0).val (i 1).val :=
  (congrFun (c7_eq V0) i).trans (node_cell (Wv V0) (bv V0) R7 P7 (res_main_v279 V0) (res_main_v260 V0) (lvl (Wv V0) (bv V0) (Xv V0) 6).1 (lvl (Wv V0) (bv V0) (Xv V0) 6).2 (L7g V0) (L6c V0) i)

theorem L7h (i : (⟨2, ![1024, 256]⟩ : Shape).Idx) : H7 V0 i = (lvl (Wv V0) (bv V0) (Xv V0) 7).1 (i 0).val (i 1).val :=
  node_hid (Wv V0) (bv V0) R7 (res_main_v279 V0) (res_main_v299 V0) (lvl (Wv V0) (bv V0) (Xv V0) 6).1 (lvl (Wv V0) (bv V0) (Xv V0) 6).2 (L7g V0) (L7c V0) i

/-! ### Level 8: 512 rows -/

theorem R8 : RowFacts 512 :=
  ⟨bcast_S_S512x256, slices_S512x1024_S512x256_0_0, slices_S512x1024_S512x256_0_256, slices_S512x1024_S512x256_0_512, slices_S512x1024_S512x256_0_768, concatenates_S512x256_S512x256_S512x512_d1, transposes_S1024x512_S512x1024_1_0⟩

theorem P8 : PairFacts 512 1024 :=
  ⟨by norm_num, shapeCasts_S1024x256_S512x2x256, reducesTo_S512x2x256_S512x256_d1, h_S_⟩

theorem g8_eq : res_main_v318 V0 = gatesT R8.cc R8.tr (pairT P8.sc P8.rt P8.hS (H7 V0)) (zerosT R8.bc) (V0 (Proc.devRef .tc main_arg1)) (bias2T bcast_S1024_S1x1024_1 bcast_S1x1024_S512x1024_0_1 (V0 (Proc.devRef .tc main_arg2))) := rfl

theorem c8_eq : res_main_v338 V0 = cellT R8.bc R8.sl0 R8.sl256 R8.sl512 (res_main_v318 V0) (pairT P8.sc P8.rt P8.hS (res_main_v299 V0)) := rfl

/-- Level 8's hidden state. -/
def H8 : FVec Ideal ⟨2, ![512, 256]⟩ .f32 := hidT R8.bc R8.sl768 (res_main_v318 V0) (res_main_v338 V0)

theorem L8g (i : (⟨2, ![512, 1024]⟩ : Shape).Idx) : res_main_v318 V0 i = gateH (Wv V0) (bv V0) (pairSum (lvl (Wv V0) (bv V0) (Xv V0) 7).1 (i 0).val) (i 1).val :=
  (congrFun (g8_eq V0) i).trans (node_gates (Wv V0) (bv V0) R8 P8 (H7 V0) (V0 (Proc.devRef .tc main_arg1)) _ (lvl (Wv V0) (bv V0) (Xv V0) 7).1 (L7h V0) (hW V0)
    (fun j => (bias2T_apply bcast_S1024_S1x1024_1 bcast_S1x1024_S512x1024_0_1 (V0 (Proc.devRef .tc main_arg2)) j).trans (natArr1_ix1 (a := 1024) (V0 (Proc.devRef .tc main_arg2)) (j 1)).symm) i)

theorem L8c (i : (⟨2, ![512, 256]⟩ : Shape).Idx) : res_main_v338 V0 i = (lvl (Wv V0) (bv V0) (Xv V0) 8).2 (i 0).val (i 1).val :=
  (congrFun (c8_eq V0) i).trans (node_cell (Wv V0) (bv V0) R8 P8 (res_main_v318 V0) (res_main_v299 V0) (lvl (Wv V0) (bv V0) (Xv V0) 7).1 (lvl (Wv V0) (bv V0) (Xv V0) 7).2 (L8g V0) (L7c V0) i)

theorem L8h (i : (⟨2, ![512, 256]⟩ : Shape).Idx) : H8 V0 i = (lvl (Wv V0) (bv V0) (Xv V0) 8).1 (i 0).val (i 1).val :=
  node_hid (Wv V0) (bv V0) R8 (res_main_v318 V0) (res_main_v338 V0) (lvl (Wv V0) (bv V0) (Xv V0) 7).1 (lvl (Wv V0) (bv V0) (Xv V0) 7).2 (L8g V0) (L8c V0) i

/-! ### Level 9: 256 rows -/

theorem R9 : RowFacts 256 :=
  ⟨bcast_S_S256x256, slices_S256x1024_S256x256_0_0, slices_S256x1024_S256x256_0_256, slices_S256x1024_S256x256_0_512, slices_S256x1024_S256x256_0_768, concatenates_S256x256_S256x256_S256x512_d1, transposes_S1024x512_S512x1024_1_0⟩

theorem P9 : PairFacts 256 512 :=
  ⟨by norm_num, shapeCasts_S512x256_S256x2x256, reducesTo_S256x2x256_S256x256_d1, h_S_⟩

theorem g9_eq : res_main_v357 V0 = gatesT R9.cc R9.tr (pairT P9.sc P9.rt P9.hS (H8 V0)) (zerosT R9.bc) (V0 (Proc.devRef .tc main_arg1)) (bias2T bcast_S1024_S1x1024_1 bcast_S1x1024_S256x1024_0_1 (V0 (Proc.devRef .tc main_arg2))) := rfl

theorem c9_eq : res_main_v377 V0 = cellT R9.bc R9.sl0 R9.sl256 R9.sl512 (res_main_v357 V0) (pairT P9.sc P9.rt P9.hS (res_main_v338 V0)) := rfl

/-- Level 9's hidden state. -/
def H9 : FVec Ideal ⟨2, ![256, 256]⟩ .f32 := hidT R9.bc R9.sl768 (res_main_v357 V0) (res_main_v377 V0)

theorem L9g (i : (⟨2, ![256, 1024]⟩ : Shape).Idx) : res_main_v357 V0 i = gateH (Wv V0) (bv V0) (pairSum (lvl (Wv V0) (bv V0) (Xv V0) 8).1 (i 0).val) (i 1).val :=
  (congrFun (g9_eq V0) i).trans (node_gates (Wv V0) (bv V0) R9 P9 (H8 V0) (V0 (Proc.devRef .tc main_arg1)) _ (lvl (Wv V0) (bv V0) (Xv V0) 8).1 (L8h V0) (hW V0)
    (fun j => (bias2T_apply bcast_S1024_S1x1024_1 bcast_S1x1024_S256x1024_0_1 (V0 (Proc.devRef .tc main_arg2)) j).trans (natArr1_ix1 (a := 1024) (V0 (Proc.devRef .tc main_arg2)) (j 1)).symm) i)

theorem L9c (i : (⟨2, ![256, 256]⟩ : Shape).Idx) : res_main_v377 V0 i = (lvl (Wv V0) (bv V0) (Xv V0) 9).2 (i 0).val (i 1).val :=
  (congrFun (c9_eq V0) i).trans (node_cell (Wv V0) (bv V0) R9 P9 (res_main_v357 V0) (res_main_v338 V0) (lvl (Wv V0) (bv V0) (Xv V0) 8).1 (lvl (Wv V0) (bv V0) (Xv V0) 8).2 (L9g V0) (L8c V0) i)

theorem L9h (i : (⟨2, ![256, 256]⟩ : Shape).Idx) : H9 V0 i = (lvl (Wv V0) (bv V0) (Xv V0) 9).1 (i 0).val (i 1).val :=
  node_hid (Wv V0) (bv V0) R9 (res_main_v357 V0) (res_main_v377 V0) (lvl (Wv V0) (bv V0) (Xv V0) 8).1 (lvl (Wv V0) (bv V0) (Xv V0) 8).2 (L9g V0) (L9c V0) i

/-! ### Level 10: 128 rows -/

theorem R10 : RowFacts 128 :=
  ⟨bcast_S_S128x256, slices_S128x1024_S128x256_0_0, slices_S128x1024_S128x256_0_256, slices_S128x1024_S128x256_0_512, slices_S128x1024_S128x256_0_768, concatenates_S128x256_S128x256_S128x512_d1, transposes_S1024x512_S512x1024_1_0⟩

theorem P10 : PairFacts 128 256 :=
  ⟨by norm_num, shapeCasts_S256x256_S128x2x256, reducesTo_S128x2x256_S128x256_d1, h_S_⟩

theorem g10_eq : res_main_v396 V0 = gatesT R10.cc R10.tr (pairT P10.sc P10.rt P10.hS (H9 V0)) (zerosT R10.bc) (V0 (Proc.devRef .tc main_arg1)) (bias2T bcast_S1024_S1x1024_1 bcast_S1x1024_S128x1024_0_1 (V0 (Proc.devRef .tc main_arg2))) := rfl

theorem c10_eq : res_main_v416 V0 = cellT R10.bc R10.sl0 R10.sl256 R10.sl512 (res_main_v396 V0) (pairT P10.sc P10.rt P10.hS (res_main_v377 V0)) := rfl

/-- Level 10's hidden state. -/
def H10 : FVec Ideal ⟨2, ![128, 256]⟩ .f32 := hidT R10.bc R10.sl768 (res_main_v396 V0) (res_main_v416 V0)

theorem L10g (i : (⟨2, ![128, 1024]⟩ : Shape).Idx) : res_main_v396 V0 i = gateH (Wv V0) (bv V0) (pairSum (lvl (Wv V0) (bv V0) (Xv V0) 9).1 (i 0).val) (i 1).val :=
  (congrFun (g10_eq V0) i).trans (node_gates (Wv V0) (bv V0) R10 P10 (H9 V0) (V0 (Proc.devRef .tc main_arg1)) _ (lvl (Wv V0) (bv V0) (Xv V0) 9).1 (L9h V0) (hW V0)
    (fun j => (bias2T_apply bcast_S1024_S1x1024_1 bcast_S1x1024_S128x1024_0_1 (V0 (Proc.devRef .tc main_arg2)) j).trans (natArr1_ix1 (a := 1024) (V0 (Proc.devRef .tc main_arg2)) (j 1)).symm) i)

theorem L10c (i : (⟨2, ![128, 256]⟩ : Shape).Idx) : res_main_v416 V0 i = (lvl (Wv V0) (bv V0) (Xv V0) 10).2 (i 0).val (i 1).val :=
  (congrFun (c10_eq V0) i).trans (node_cell (Wv V0) (bv V0) R10 P10 (res_main_v396 V0) (res_main_v377 V0) (lvl (Wv V0) (bv V0) (Xv V0) 9).1 (lvl (Wv V0) (bv V0) (Xv V0) 9).2 (L10g V0) (L9c V0) i)

theorem L10h (i : (⟨2, ![128, 256]⟩ : Shape).Idx) : H10 V0 i = (lvl (Wv V0) (bv V0) (Xv V0) 10).1 (i 0).val (i 1).val :=
  node_hid (Wv V0) (bv V0) R10 (res_main_v396 V0) (res_main_v416 V0) (lvl (Wv V0) (bv V0) (Xv V0) 9).1 (lvl (Wv V0) (bv V0) (Xv V0) 9).2 (L10g V0) (L10c V0) i

/-! ### Level 11: 64 rows -/

theorem R11 : RowFacts 64 :=
  ⟨bcast_S_S64x256, slices_S64x1024_S64x256_0_0, slices_S64x1024_S64x256_0_256, slices_S64x1024_S64x256_0_512, slices_S64x1024_S64x256_0_768, concatenates_S64x256_S64x256_S64x512_d1, transposes_S1024x512_S512x1024_1_0⟩

theorem P11 : PairFacts 64 128 :=
  ⟨by norm_num, shapeCasts_S128x256_S64x2x256, reducesTo_S64x2x256_S64x256_d1, h_S_⟩

theorem g11_eq : res_main_v435 V0 = gatesT R11.cc R11.tr (pairT P11.sc P11.rt P11.hS (H10 V0)) (zerosT R11.bc) (V0 (Proc.devRef .tc main_arg1)) (bias2T bcast_S1024_S1x1024_1 bcast_S1x1024_S64x1024_0_1 (V0 (Proc.devRef .tc main_arg2))) := rfl

theorem c11_eq : res_main_v455 V0 = cellT R11.bc R11.sl0 R11.sl256 R11.sl512 (res_main_v435 V0) (pairT P11.sc P11.rt P11.hS (res_main_v416 V0)) := rfl

/-- Level 11's hidden state. -/
def H11 : FVec Ideal ⟨2, ![64, 256]⟩ .f32 := hidT R11.bc R11.sl768 (res_main_v435 V0) (res_main_v455 V0)

theorem L11g (i : (⟨2, ![64, 1024]⟩ : Shape).Idx) : res_main_v435 V0 i = gateH (Wv V0) (bv V0) (pairSum (lvl (Wv V0) (bv V0) (Xv V0) 10).1 (i 0).val) (i 1).val :=
  (congrFun (g11_eq V0) i).trans (node_gates (Wv V0) (bv V0) R11 P11 (H10 V0) (V0 (Proc.devRef .tc main_arg1)) _ (lvl (Wv V0) (bv V0) (Xv V0) 10).1 (L10h V0) (hW V0)
    (fun j => (bias2T_apply bcast_S1024_S1x1024_1 bcast_S1x1024_S64x1024_0_1 (V0 (Proc.devRef .tc main_arg2)) j).trans (natArr1_ix1 (a := 1024) (V0 (Proc.devRef .tc main_arg2)) (j 1)).symm) i)

theorem L11c (i : (⟨2, ![64, 256]⟩ : Shape).Idx) : res_main_v455 V0 i = (lvl (Wv V0) (bv V0) (Xv V0) 11).2 (i 0).val (i 1).val :=
  (congrFun (c11_eq V0) i).trans (node_cell (Wv V0) (bv V0) R11 P11 (res_main_v435 V0) (res_main_v416 V0) (lvl (Wv V0) (bv V0) (Xv V0) 10).1 (lvl (Wv V0) (bv V0) (Xv V0) 10).2 (L11g V0) (L10c V0) i)

theorem L11h (i : (⟨2, ![64, 256]⟩ : Shape).Idx) : H11 V0 i = (lvl (Wv V0) (bv V0) (Xv V0) 11).1 (i 0).val (i 1).val :=
  node_hid (Wv V0) (bv V0) R11 (res_main_v435 V0) (res_main_v455 V0) (lvl (Wv V0) (bv V0) (Xv V0) 10).1 (lvl (Wv V0) (bv V0) (Xv V0) 10).2 (L11g V0) (L11c V0) i

/-! ### Level 12: 32 rows -/

theorem R12 : RowFacts 32 :=
  ⟨bcast_S_S32x256, slices_S32x1024_S32x256_0_0, slices_S32x1024_S32x256_0_256, slices_S32x1024_S32x256_0_512, slices_S32x1024_S32x256_0_768, concatenates_S32x256_S32x256_S32x512_d1, transposes_S1024x512_S512x1024_1_0⟩

theorem P12 : PairFacts 32 64 :=
  ⟨by norm_num, shapeCasts_S64x256_S32x2x256, reducesTo_S32x2x256_S32x256_d1, h_S_⟩

theorem g12_eq : res_main_v474 V0 = gatesT R12.cc R12.tr (pairT P12.sc P12.rt P12.hS (H11 V0)) (zerosT R12.bc) (V0 (Proc.devRef .tc main_arg1)) (bias2T bcast_S1024_S1x1024_1 bcast_S1x1024_S32x1024_0_1 (V0 (Proc.devRef .tc main_arg2))) := rfl

theorem c12_eq : res_main_v494 V0 = cellT R12.bc R12.sl0 R12.sl256 R12.sl512 (res_main_v474 V0) (pairT P12.sc P12.rt P12.hS (res_main_v455 V0)) := rfl

/-- Level 12's hidden state. -/
def H12 : FVec Ideal ⟨2, ![32, 256]⟩ .f32 := hidT R12.bc R12.sl768 (res_main_v474 V0) (res_main_v494 V0)

theorem L12g (i : (⟨2, ![32, 1024]⟩ : Shape).Idx) : res_main_v474 V0 i = gateH (Wv V0) (bv V0) (pairSum (lvl (Wv V0) (bv V0) (Xv V0) 11).1 (i 0).val) (i 1).val :=
  (congrFun (g12_eq V0) i).trans (node_gates (Wv V0) (bv V0) R12 P12 (H11 V0) (V0 (Proc.devRef .tc main_arg1)) _ (lvl (Wv V0) (bv V0) (Xv V0) 11).1 (L11h V0) (hW V0)
    (fun j => (bias2T_apply bcast_S1024_S1x1024_1 bcast_S1x1024_S32x1024_0_1 (V0 (Proc.devRef .tc main_arg2)) j).trans (natArr1_ix1 (a := 1024) (V0 (Proc.devRef .tc main_arg2)) (j 1)).symm) i)

theorem L12c (i : (⟨2, ![32, 256]⟩ : Shape).Idx) : res_main_v494 V0 i = (lvl (Wv V0) (bv V0) (Xv V0) 12).2 (i 0).val (i 1).val :=
  (congrFun (c12_eq V0) i).trans (node_cell (Wv V0) (bv V0) R12 P12 (res_main_v474 V0) (res_main_v455 V0) (lvl (Wv V0) (bv V0) (Xv V0) 11).1 (lvl (Wv V0) (bv V0) (Xv V0) 11).2 (L12g V0) (L11c V0) i)

theorem L12h (i : (⟨2, ![32, 256]⟩ : Shape).Idx) : H12 V0 i = (lvl (Wv V0) (bv V0) (Xv V0) 12).1 (i 0).val (i 1).val :=
  node_hid (Wv V0) (bv V0) R12 (res_main_v474 V0) (res_main_v494 V0) (lvl (Wv V0) (bv V0) (Xv V0) 11).1 (lvl (Wv V0) (bv V0) (Xv V0) 11).2 (L12g V0) (L12c V0) i

/-! ### Level 13: 16 rows -/

theorem R13 : RowFacts 16 :=
  ⟨bcast_S_S16x256, slices_S16x1024_S16x256_0_0, slices_S16x1024_S16x256_0_256, slices_S16x1024_S16x256_0_512, slices_S16x1024_S16x256_0_768, concatenates_S16x256_S16x256_S16x512_d1, transposes_S1024x512_S512x1024_1_0⟩

theorem P13 : PairFacts 16 32 :=
  ⟨by norm_num, shapeCasts_S32x256_S16x2x256, reducesTo_S16x2x256_S16x256_d1, h_S_⟩

theorem g13_eq : res_main_v513 V0 = gatesT R13.cc R13.tr (pairT P13.sc P13.rt P13.hS (H12 V0)) (zerosT R13.bc) (V0 (Proc.devRef .tc main_arg1)) (bias2T bcast_S1024_S1x1024_1 bcast_S1x1024_S16x1024_0_1 (V0 (Proc.devRef .tc main_arg2))) := rfl

theorem c13_eq : res_main_v533 V0 = cellT R13.bc R13.sl0 R13.sl256 R13.sl512 (res_main_v513 V0) (pairT P13.sc P13.rt P13.hS (res_main_v494 V0)) := rfl

/-- Level 13's hidden state. -/
def H13 : FVec Ideal ⟨2, ![16, 256]⟩ .f32 := hidT R13.bc R13.sl768 (res_main_v513 V0) (res_main_v533 V0)

theorem L13g (i : (⟨2, ![16, 1024]⟩ : Shape).Idx) : res_main_v513 V0 i = gateH (Wv V0) (bv V0) (pairSum (lvl (Wv V0) (bv V0) (Xv V0) 12).1 (i 0).val) (i 1).val :=
  (congrFun (g13_eq V0) i).trans (node_gates (Wv V0) (bv V0) R13 P13 (H12 V0) (V0 (Proc.devRef .tc main_arg1)) _ (lvl (Wv V0) (bv V0) (Xv V0) 12).1 (L12h V0) (hW V0)
    (fun j => (bias2T_apply bcast_S1024_S1x1024_1 bcast_S1x1024_S16x1024_0_1 (V0 (Proc.devRef .tc main_arg2)) j).trans (natArr1_ix1 (a := 1024) (V0 (Proc.devRef .tc main_arg2)) (j 1)).symm) i)

theorem L13c (i : (⟨2, ![16, 256]⟩ : Shape).Idx) : res_main_v533 V0 i = (lvl (Wv V0) (bv V0) (Xv V0) 13).2 (i 0).val (i 1).val :=
  (congrFun (c13_eq V0) i).trans (node_cell (Wv V0) (bv V0) R13 P13 (res_main_v513 V0) (res_main_v494 V0) (lvl (Wv V0) (bv V0) (Xv V0) 12).1 (lvl (Wv V0) (bv V0) (Xv V0) 12).2 (L13g V0) (L12c V0) i)

theorem L13h (i : (⟨2, ![16, 256]⟩ : Shape).Idx) : H13 V0 i = (lvl (Wv V0) (bv V0) (Xv V0) 13).1 (i 0).val (i 1).val :=
  node_hid (Wv V0) (bv V0) R13 (res_main_v513 V0) (res_main_v533 V0) (lvl (Wv V0) (bv V0) (Xv V0) 12).1 (lvl (Wv V0) (bv V0) (Xv V0) 12).2 (L13g V0) (L13c V0) i

/-! ### Level 14: 8 rows -/

theorem R14 : RowFacts 8 :=
  ⟨bcast_S_S8x256, slices_S8x1024_S8x256_0_0, slices_S8x1024_S8x256_0_256, slices_S8x1024_S8x256_0_512, slices_S8x1024_S8x256_0_768, concatenates_S8x256_S8x256_S8x512_d1, transposes_S1024x512_S512x1024_1_0⟩

theorem P14 : PairFacts 8 16 :=
  ⟨by norm_num, shapeCasts_S16x256_S8x2x256, reducesTo_S8x2x256_S8x256_d1, h_S_⟩

theorem g14_eq : res_main_v552 V0 = gatesT R14.cc R14.tr (pairT P14.sc P14.rt P14.hS (H13 V0)) (zerosT R14.bc) (V0 (Proc.devRef .tc main_arg1)) (bias2T bcast_S1024_S1x1024_1 bcast_S1x1024_S8x1024_0_1 (V0 (Proc.devRef .tc main_arg2))) := rfl

theorem c14_eq : res_main_v572 V0 = cellT R14.bc R14.sl0 R14.sl256 R14.sl512 (res_main_v552 V0) (pairT P14.sc P14.rt P14.hS (res_main_v533 V0)) := rfl

/-- Level 14's hidden state. -/
def H14 : FVec Ideal ⟨2, ![8, 256]⟩ .f32 := hidT R14.bc R14.sl768 (res_main_v552 V0) (res_main_v572 V0)

theorem L14g (i : (⟨2, ![8, 1024]⟩ : Shape).Idx) : res_main_v552 V0 i = gateH (Wv V0) (bv V0) (pairSum (lvl (Wv V0) (bv V0) (Xv V0) 13).1 (i 0).val) (i 1).val :=
  (congrFun (g14_eq V0) i).trans (node_gates (Wv V0) (bv V0) R14 P14 (H13 V0) (V0 (Proc.devRef .tc main_arg1)) _ (lvl (Wv V0) (bv V0) (Xv V0) 13).1 (L13h V0) (hW V0)
    (fun j => (bias2T_apply bcast_S1024_S1x1024_1 bcast_S1x1024_S8x1024_0_1 (V0 (Proc.devRef .tc main_arg2)) j).trans (natArr1_ix1 (a := 1024) (V0 (Proc.devRef .tc main_arg2)) (j 1)).symm) i)

theorem L14c (i : (⟨2, ![8, 256]⟩ : Shape).Idx) : res_main_v572 V0 i = (lvl (Wv V0) (bv V0) (Xv V0) 14).2 (i 0).val (i 1).val :=
  (congrFun (c14_eq V0) i).trans (node_cell (Wv V0) (bv V0) R14 P14 (res_main_v552 V0) (res_main_v533 V0) (lvl (Wv V0) (bv V0) (Xv V0) 13).1 (lvl (Wv V0) (bv V0) (Xv V0) 13).2 (L14g V0) (L13c V0) i)

theorem L14h (i : (⟨2, ![8, 256]⟩ : Shape).Idx) : H14 V0 i = (lvl (Wv V0) (bv V0) (Xv V0) 14).1 (i 0).val (i 1).val :=
  node_hid (Wv V0) (bv V0) R14 (res_main_v552 V0) (res_main_v572 V0) (lvl (Wv V0) (bv V0) (Xv V0) 13).1 (lvl (Wv V0) (bv V0) (Xv V0) 13).2 (L14g V0) (L14c V0) i

/-! ### Level 15: 4 rows -/

theorem R15 : RowFacts 4 :=
  ⟨bcast_S_S4x256, slices_S4x1024_S4x256_0_0, slices_S4x1024_S4x256_0_256, slices_S4x1024_S4x256_0_512, slices_S4x1024_S4x256_0_768, concatenates_S4x256_S4x256_S4x512_d1, transposes_S1024x512_S512x1024_1_0⟩

theorem P15 : PairFacts 4 8 :=
  ⟨by norm_num, shapeCasts_S8x256_S4x2x256, reducesTo_S4x2x256_S4x256_d1, h_S_⟩

theorem g15_eq : res_main_v591 V0 = gatesT R15.cc R15.tr (pairT P15.sc P15.rt P15.hS (H14 V0)) (zerosT R15.bc) (V0 (Proc.devRef .tc main_arg1)) (bias2T bcast_S1024_S1x1024_1 bcast_S1x1024_S4x1024_0_1 (V0 (Proc.devRef .tc main_arg2))) := rfl

theorem c15_eq : res_main_v611 V0 = cellT R15.bc R15.sl0 R15.sl256 R15.sl512 (res_main_v591 V0) (pairT P15.sc P15.rt P15.hS (res_main_v572 V0)) := rfl

/-- Level 15's hidden state. -/
def H15 : FVec Ideal ⟨2, ![4, 256]⟩ .f32 := hidT R15.bc R15.sl768 (res_main_v591 V0) (res_main_v611 V0)

theorem L15g (i : (⟨2, ![4, 1024]⟩ : Shape).Idx) : res_main_v591 V0 i = gateH (Wv V0) (bv V0) (pairSum (lvl (Wv V0) (bv V0) (Xv V0) 14).1 (i 0).val) (i 1).val :=
  (congrFun (g15_eq V0) i).trans (node_gates (Wv V0) (bv V0) R15 P15 (H14 V0) (V0 (Proc.devRef .tc main_arg1)) _ (lvl (Wv V0) (bv V0) (Xv V0) 14).1 (L14h V0) (hW V0)
    (fun j => (bias2T_apply bcast_S1024_S1x1024_1 bcast_S1x1024_S4x1024_0_1 (V0 (Proc.devRef .tc main_arg2)) j).trans (natArr1_ix1 (a := 1024) (V0 (Proc.devRef .tc main_arg2)) (j 1)).symm) i)

theorem L15c (i : (⟨2, ![4, 256]⟩ : Shape).Idx) : res_main_v611 V0 i = (lvl (Wv V0) (bv V0) (Xv V0) 15).2 (i 0).val (i 1).val :=
  (congrFun (c15_eq V0) i).trans (node_cell (Wv V0) (bv V0) R15 P15 (res_main_v591 V0) (res_main_v572 V0) (lvl (Wv V0) (bv V0) (Xv V0) 14).1 (lvl (Wv V0) (bv V0) (Xv V0) 14).2 (L15g V0) (L14c V0) i)

theorem L15h (i : (⟨2, ![4, 256]⟩ : Shape).Idx) : H15 V0 i = (lvl (Wv V0) (bv V0) (Xv V0) 15).1 (i 0).val (i 1).val :=
  node_hid (Wv V0) (bv V0) R15 (res_main_v591 V0) (res_main_v611 V0) (lvl (Wv V0) (bv V0) (Xv V0) 14).1 (lvl (Wv V0) (bv V0) (Xv V0) 14).2 (L15g V0) (L15c V0) i

/-! ### Level 16: 2 rows -/

theorem R16 : RowFacts 2 :=
  ⟨bcast_S_S2x256, slices_S2x1024_S2x256_0_0, slices_S2x1024_S2x256_0_256, slices_S2x1024_S2x256_0_512, slices_S2x1024_S2x256_0_768, concatenates_S2x256_S2x256_S2x512_d1, transposes_S1024x512_S512x1024_1_0⟩

theorem P16 : PairFacts 2 4 :=
  ⟨by norm_num, shapeCasts_S4x256_S2x2x256, reducesTo_S2x2x256_S2x256_d1, h_S_⟩

theorem g16_eq : res_main_v630 V0 = gatesT R16.cc R16.tr (pairT P16.sc P16.rt P16.hS (H15 V0)) (zerosT R16.bc) (V0 (Proc.devRef .tc main_arg1)) (bias2T bcast_S1024_S1x1024_1 bcast_S1x1024_S2x1024_0_1 (V0 (Proc.devRef .tc main_arg2))) := rfl

theorem c16_eq : res_main_v650 V0 = cellT R16.bc R16.sl0 R16.sl256 R16.sl512 (res_main_v630 V0) (pairT P16.sc P16.rt P16.hS (res_main_v611 V0)) := rfl

/-- Level 16's hidden state. -/
def H16 : FVec Ideal ⟨2, ![2, 256]⟩ .f32 := hidT R16.bc R16.sl768 (res_main_v630 V0) (res_main_v650 V0)

theorem L16g (i : (⟨2, ![2, 1024]⟩ : Shape).Idx) : res_main_v630 V0 i = gateH (Wv V0) (bv V0) (pairSum (lvl (Wv V0) (bv V0) (Xv V0) 15).1 (i 0).val) (i 1).val :=
  (congrFun (g16_eq V0) i).trans (node_gates (Wv V0) (bv V0) R16 P16 (H15 V0) (V0 (Proc.devRef .tc main_arg1)) _ (lvl (Wv V0) (bv V0) (Xv V0) 15).1 (L15h V0) (hW V0)
    (fun j => (bias2T_apply bcast_S1024_S1x1024_1 bcast_S1x1024_S2x1024_0_1 (V0 (Proc.devRef .tc main_arg2)) j).trans (natArr1_ix1 (a := 1024) (V0 (Proc.devRef .tc main_arg2)) (j 1)).symm) i)

theorem L16c (i : (⟨2, ![2, 256]⟩ : Shape).Idx) : res_main_v650 V0 i = (lvl (Wv V0) (bv V0) (Xv V0) 16).2 (i 0).val (i 1).val :=
  (congrFun (c16_eq V0) i).trans (node_cell (Wv V0) (bv V0) R16 P16 (res_main_v630 V0) (res_main_v611 V0) (lvl (Wv V0) (bv V0) (Xv V0) 15).1 (lvl (Wv V0) (bv V0) (Xv V0) 15).2 (L16g V0) (L15c V0) i)

theorem L16h (i : (⟨2, ![2, 256]⟩ : Shape).Idx) : H16 V0 i = (lvl (Wv V0) (bv V0) (Xv V0) 16).1 (i 0).val (i 1).val :=
  node_hid (Wv V0) (bv V0) R16 (res_main_v630 V0) (res_main_v650 V0) (lvl (Wv V0) (bv V0) (Xv V0) 15).1 (lvl (Wv V0) (bv V0) (Xv V0) 15).2 (L16g V0) (L16c V0) i

/-! ### Level 17: 1 row -/

theorem R17 : RowFacts 1 :=
  ⟨bcast_S_S1x256, slices_S1x1024_S1x256_0_0, slices_S1x1024_S1x256_0_256, slices_S1x1024_S1x256_0_512, slices_S1x1024_S1x256_0_768, concatenates_S1x256_S1x256_S1x512_d1, transposes_S1024x512_S512x1024_1_0⟩

theorem P17 : PairFacts 1 2 :=
  ⟨by norm_num, shapeCasts_S2x256_S1x2x256, reducesTo_S1x2x256_S1x256_d1, h_S_⟩

theorem g17_eq : res_main_v668 V0 = gatesT R17.cc R17.tr (pairT P17.sc P17.rt P17.hS (H16 V0)) (zerosT R17.bc) (V0 (Proc.devRef .tc main_arg1)) (bias1T bcast_S1024_S1x1024_1 (V0 (Proc.devRef .tc main_arg2))) := rfl

/-- The root's cell state. -/
def C17 : FVec Ideal ⟨2, ![1, 256]⟩ .f32 := cellT R17.bc R17.sl0 R17.sl256 R17.sl512 (res_main_v668 V0) (pairT P17.sc P17.rt P17.hS (res_main_v650 V0))

/-- Level 17's hidden state. -/
def H17 : FVec Ideal ⟨2, ![1, 256]⟩ .f32 := hidT R17.bc R17.sl768 (res_main_v668 V0) (C17 V0)

theorem L17g (i : (⟨2, ![1, 1024]⟩ : Shape).Idx) : res_main_v668 V0 i = gateH (Wv V0) (bv V0) (pairSum (lvl (Wv V0) (bv V0) (Xv V0) 16).1 (i 0).val) (i 1).val :=
  (congrFun (g17_eq V0) i).trans (node_gates (Wv V0) (bv V0) R17 P17 (H16 V0) (V0 (Proc.devRef .tc main_arg1)) _ (lvl (Wv V0) (bv V0) (Xv V0) 16).1 (L16h V0) (hW V0)
    (fun j => (bias1T_apply bcast_S1024_S1x1024_1 (V0 (Proc.devRef .tc main_arg2)) j).trans (natArr1_ix1 (a := 1024) (V0 (Proc.devRef .tc main_arg2)) (j 1)).symm) i)

theorem L17c (i : (⟨2, ![1, 256]⟩ : Shape).Idx) : C17 V0 i = (lvl (Wv V0) (bv V0) (Xv V0) 17).2 (i 0).val (i 1).val :=
  node_cell (Wv V0) (bv V0) R17 P17 (res_main_v668 V0) (res_main_v650 V0) (lvl (Wv V0) (bv V0) (Xv V0) 16).1 (lvl (Wv V0) (bv V0) (Xv V0) 16).2 (L17g V0) (L16c V0) i

theorem L17h (i : (⟨2, ![1, 256]⟩ : Shape).Idx) : H17 V0 i = (lvl (Wv V0) (bv V0) (Xv V0) 17).1 (i 0).val (i 1).val :=
  node_hid (Wv V0) (bv V0) R17 (res_main_v668 V0) (C17 V0) (lvl (Wv V0) (bv V0) (Xv V0) 16).1 (lvl (Wv V0) (bv V0) (Xv V0) 16).2 (L17g V0) (L17c V0) i

/-! ### The root's hidden state is the program's result -/

theorem result_eq : (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 768] (res_main_v668 V0) slices_S1x1024_S1x256_0_768))))) (Host.tanh (addf (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 0] (res_main_v668 V0) slices_S1x1024_S1x256_0_0))))) (Host.reduceAdd (shapeCast _ (res_main_v650 V0) shapeCasts_S2x256_S1x2x256) (constant S_ .f32 0x00000000#32) reducesTo_S1x2x256_S1x256_d1 h_S_)) (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (res_main_v668 V0) slices_S1x1024_S1x256_0_256))))) (Host.tanh (extractStridedSlice S1x256 ![0, 512] (res_main_v668 V0) slices_S1x1024_S1x256_0_512))))) : FVec Ideal ⟨2, ![1, 256]⟩ .f32) = H17 V0 := rfl

theorem result_value :
    (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 768] (res_main_v668 V0) slices_S1x1024_S1x256_0_768))))) (Host.tanh (addf (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 0] (res_main_v668 V0) slices_S1x1024_S1x256_0_0))))) (Host.reduceAdd (shapeCast _ (res_main_v650 V0) shapeCasts_S2x256_S1x2x256) (constant S_ .f32 0x00000000#32) reducesTo_S1x2x256_S1x256_d1 h_S_)) (mulf (Host.divf (broadcastInDim S1x256 ![] bcast_S_S1x256 (constant S_ .f32 0x3F800000#32)) (addf (broadcastInDim S1x256 ![] bcast_S_S1x256 (constant S_ .f32 0x3F800000#32)) (Host.exp (Host.negf (extractStridedSlice S1x256 ![0, 256] (res_main_v668 V0) slices_S1x1024_S1x256_0_256))))) (Host.tanh (extractStridedSlice S1x256 ![0, 512] (res_main_v668 V0) slices_S1x1024_S1x256_0_512))))) : FVec Ideal ⟨2, ![1, 256]⟩ .f32)
      = fun i : S1x256.Idx => (lvl (Wv V0) (bv V0) (Xv V0) 17).1 (i 0).val (i 1).val :=
  (result_eq V0).trans (funext fun i => L17h V0 i)

end Cert.ReferenceIdeal.TreeChain

end
-- ==== Proof.RefTree.lean ====
/-
  The reference program computes the root's hidden state of the tree recursion.

  Every weakly fair execution of the reference program ends with its result buffer holding, at column `j` of
  its one row, the hidden state `(lvl W b X 17).1 0 j` of the root of the tree over the 2^17 input rows, for the
  weight matrix, bias and input read from the argument buffers, which are left unchanged.
-/
import proofs.«163443_j13855564497595_2_alg».proof.Proof.Gen.ReferenceIdeal.Run
import proofs.«163443_j13855564497595_2_alg».proof.Proof.RefChain

noncomputable section

namespace Cert.ReferenceIdeal.TreeRef

open Cert.ReferenceIdeal Idealize.ShloMosaic Idealize.ShloMosaic.TcCoe Idealize.SL.Sem

/-- the argument arrays of device c as functions of row and column numbers -/
abbrev X (m : (ℓ : Loc nD τ sig) → Buf (Elt Ideal) ℓ) (c : Dev nD) : Nat → Nat → EReal :=
  Cert.Tree.natArr2 (a := 131072) (b := 256) (m ((c.tc : Thread nD τ).loc main_arg0))
abbrev Wn (m : (ℓ : Loc nD τ sig) → Buf (Elt Ideal) ℓ) (c : Dev nD) : Nat → Nat → EReal :=
  Cert.Tree.natArr2 (a := 1024) (b := 512) (m ((c.tc : Thread nD τ).loc main_arg1))
abbrev bn (m : (ℓ : Loc nD τ sig) → Buf (Elt Ideal) ℓ) (c : Dev nD) : Nat → EReal :=
  Cert.Tree.natArr1 (a := 1024) (m ((c.tc : Thread nD τ).loc main_arg2))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v696) = (fun i : S1x256.Idx => (Cert.Tree.lvl (Wn m c) (bn m c) (X m c) 17).1 (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (Cert.ReferenceIdeal.TreeChain.result_value (StableHlo.launchContents m c)), (h c).2⟩)
    (Cert.ReferenceIdeal.Value.run (F := Ideal) m ρ)

end Cert.ReferenceIdeal.TreeRef

end
-- ==== Proof.lean ====
/-
  The certificate of a TreeLSTM over a complete binary tree with 2^17 leaves: the pipelined kernel program (one
  region for the leaves, one per internal level, seventeen of them, with a re-reading of each level's two arrays
  as side-by-side pairs of rows between regions) against the plain array program that forms every level by one
  matrix product of [summed children | input] with the whole weight matrix.

  Both compute, level by level, the recursion `Cert.Tree.lvl` (Proof/Tree.lean) on the extended reals:
  * the kernel drops the forget gate at the leaves and the input half of the product at internal nodes, and the
    reference keeps them against zeros — the products with zero vanish and a sum's zero terms drop, which on the
    extended reals needs no finiteness;
  * the kernel's logistic is one operation and the reference spells it 1 / (1 + exp (-x)): one function here;
  * the kernel rounds the matrix product's operands to a shorter format, which is the identity at exact values;
  * the kernel sums two lane halves of a side-by-side row where the reference sums over a middle axis of extent 2.
  The kernel's value is read off the regions' run (Proof/KTree.lean over Proof/KLevel*.lean and Proof/KGlue*.lean),
  the reference's off its operations' run (Proof/RefTree.lean); the two posts are the same function of the
  arguments. The idealization rewrote nothing, so its conjunct is `True`.
-/
import proofs.«163443_j13855564497595_2_alg».proof.Defs
import proofs.«163443_j13855564497595_2_alg».proof.Proof.Gen.Kernel
import proofs.«163443_j13855564497595_2_alg».proof.Proof.Gen.Kernel.Skeleton
import proofs.«163443_j13855564497595_2_alg».proof.Proof.Gen.Kernel.Launch
import proofs.«163443_j13855564497595_2_alg».proof.Proof.Gen.Kernel.Points
import proofs.«163443_j13855564497595_2_alg».proof.Proof.Gen.Kernel.Frame
import proofs.«163443_j13855564497595_2_alg».proof.Proof.Gen.KernelIdeal
import proofs.«163443_j13855564497595_2_alg».proof.Proof.Gen.KernelIdeal.Skeleton
import proofs.«163443_j13855564497595_2_alg».proof.Proof.Gen.KernelIdeal.Launch
import proofs.«163443_j13855564497595_2_alg».proof.Proof.Gen.KernelIdeal.Points
import proofs.«163443_j13855564497595_2_alg».proof.Proof.Gen.KernelIdeal.Frame
import proofs.«163443_j13855564497595_2_alg».proof.Proof.Gen.ReferenceIdeal
import proofs.«163443_j13855564497595_2_alg».proof.Proof.Gen.ReferenceIdeal.Run
import proofs.«163443_j13855564497595_2_alg».proof.Proof.Gen.Pre_finite_inputs
import proofs.«163443_j13855564497595_2_alg».proof.Proof.KTree
import proofs.«163443_j13855564497595_2_alg».proof.Proof.RefTree
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference program runs and leaves its arguments as launched: its operations' run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the root's hidden state of the same tree:
    the kernel's result array and the reference's are `(Cert.Tree.lvl … 17).1` of the arguments, row 0. -/
theorem algebraic : Cert.algebraic_KernelIdeal_ReferenceIdeal := by
  intro m ρ m' ρ' _ hagree
  refine ⟨fun c => fun i : Cert.KernelIdeal.S1x256.Idx =>
      (Cert.Tree.lvl (Cert.KernelIdeal.TreeK.Wn m c) (Cert.KernelIdeal.TreeK.bn m c) (Cert.KernelIdeal.TreeK.X m c) 17).1 (i 0).val (i 1).val,
    Cert.KernelIdeal.TreeK.run m ρ, ?_⟩
  refine (θ_run Cert.ReferenceIdeal.defs _ _).mono (fun _ h c => ⟨(h c).1.trans ?_, (h c).2⟩)
    (Cert.ReferenceIdeal.TreeRef.run m' ρ')
  unfold Cert.ReferenceIdeal.TreeRef.Wn Cert.ReferenceIdeal.TreeRef.bn Cert.ReferenceIdeal.TreeRef.X
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
